-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v349) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x5000x5000 : Shape := ⟨3, ![2, 5000, 5000]⟩
abbrev S2x5000 : Shape := ⟨2, ![2, 5000]⟩
abbrev S2x5000x128 : Shape := ⟨3, ![2, 5000, 128]⟩
abbrev S2x128 : Shape := ⟨2, ![2, 128]⟩
abbrev S2x8x128x128 : Shape := ⟨4, ![2, 8, 128, 128]⟩
abbrev S256x128 : Shape := ⟨2, ![256, 128]⟩
abbrev S128 : Shape := ⟨1, ![128]⟩
abbrev S128x5000 : Shape := ⟨2, ![128, 5000]⟩
abbrev S5000 : Shape := ⟨1, ![5000]⟩
abbrev S_ : Shape := ⟨0, ![]⟩

class Facts : Prop where
  bcast_S_S2x5000x5000 : S_.BroadcastsInDim S2x5000x5000 (![] : Fin 0 → Fin S2x5000x5000.rank)
  reducesTo_S2x5000x5000_S_d0_1_2 : S2x5000x5000.ReducesTo [0, 1, 2] S_
  h_S_ : 0 < S_.numel
  bcast_S_S2x5000 : S_.BroadcastsInDim S2x5000 (![] : Fin 0 → Fin S2x5000.rank)
  reducesTo_S2x5000_S_d0_1 : S2x5000.ReducesTo [0, 1] S_
  bcast_S_S2x5000x128 : S_.BroadcastsInDim S2x5000x128 (![] : Fin 0 → Fin S2x5000x128.rank)
  reducesTo_S2x5000x128_S_d0_1_2 : S2x5000x128.ReducesTo [0, 1, 2] S_
  bcast_S_S2x128 : S_.BroadcastsInDim S2x128 (![] : Fin 0 → Fin S2x128.rank)
  reducesTo_S2x128_S_d0_1 : S2x128.ReducesTo [0, 1] S_
  bcast_S_S2x8x128x128 : S_.BroadcastsInDim S2x8x128x128 (![] : Fin 0 → Fin S2x8x128x128.rank)
  reducesTo_S2x8x128x128_S_d0_1_2_3 : S2x8x128x128.ReducesTo [0, 1, 2, 3] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x5000 : S_.BroadcastsInDim S128x5000 (![] : Fin 0 → Fin S128x5000.rank)
  reducesTo_S128x5000_S_d0_1 : S128x5000.ReducesTo [0, 1] S_
  bcast_S_S5000 : S_.BroadcastsInDim S5000 (![] : Fin 0 → Fin S5000.rank)
  reducesTo_S5000_S_d0 : S5000.ReducesTo [0] S_

variable [Facts]

def fn_part3 {F : FTy → Type} [FloatOps F] (main_v48 : IVec S_ 1) (main_v49 : FVec F S5000 .f32) (main_v50 : FVec F S5000 .f32) : IVec S_ 1 :=
  let main_v51 : IVec S5000 1 := cmpf .olt main_v49 main_v50
  let main_c_19 : IVec S_ 1 := constantI S_ 1 1#1
  let main_v52 : IVec S_ 1 := (fun x v => Host.reduce IntOp.andi x v reducesTo_S5000_S_d0 h_S_) main_v51 main_c_19
  let main_v53 : IVec S_ 1 := andi main_v48 main_v52
  main_v53

def fn_part2 {F : FTy → Type} [FloatOps F] (main_arg7 : FVec F S256x128 .f32) (main_arg8 : FVec F S128 .f32) (main_arg9 : FVec F S128x5000 .f32) (main_arg10 : FVec F S5000 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x5000 .f32 := Host.absf main_arg9
  let main_cst_16 : FVec F S_ .f32 := constant S_ .f32 0x7F800000#32
  let main_v45 : FVec F S128x5000 .f32 := broadcastInDim S128x5000 ![] bcast_S_S128x5000 main_cst_16
  let main_v46 : IVec S128x5000 1 := cmpf .olt main_v44 main_v45
  let main_c_17 : IVec S_ 1 := constantI S_ 1 1#1
  let main_v47 : IVec S_ 1 := (fun x v => Host.reduce IntOp.andi x v reducesTo_S128x5000_S_d0_1 h_S_) main_v46 main_c_17
  let main_v48 : IVec S_ 1 := andi main_v43 main_v47
  let main_v49 : FVec F S5000 .f32 := Host.absf main_arg10
  let main_cst_18 : FVec F S_ .f32 := constant S_ .f32 0x7F800000#32
  let main_v50 : FVec F S5000 .f32 := broadcastInDim S5000 ![] bcast_S_S5000 main_cst_18
  fn_part3 (F := F) main_v48 main_v49 main_v50

def fn_part1 {F : FTy → Type} [FloatOps F] (main_arg4 : FVec F S2x5000x128 .f32) (main_arg5 : FVec F S2x128 .f32) (main_arg6 : FVec F S2x8x128x128 .f32) (main_arg7 : FVec F S256x128 .f32) (main_arg8 : FVec F S128 .f32) (main_arg9 : FVec F S128x5000 .f32) (main_arg10 : FVec F S5000 .f32) (main_v13 : IVec S_ 1) (main_v16 : IVec S2x5000 1) : IVec S_ 1 :=
  let main_c_5 : IVec S_ 1 := constantI S_ 1 1#1
  let main_v17 : IVec S_ 1 := (fun x v => Host.reduce IntOp.andi x v reducesTo_S2x5000_S_d0_1 h_S_) main_v16 main_c_5
  let main_v18 : IVec S_ 1 := andi main_v13 main_v17
  let main_v19 : FVec F S2x5000x128 .f32 := Host.absf main_arg4
  let main_cst_6 : FVec F S_ .f32 := constant S_ .f32 0x7F800000#32
  let main_v20 : FVec F S2x5000x128 .f32 := broadcastInDim S2x5000x128 ![] bcast_S_S2x5000x128 main_cst_6
  let main_v21 : IVec S2x5000x128 1 := cmpf .olt main_v19 main_v20
  let main_c_7 : IVec S_ 1 := constantI S_ 1 1#1
  let main_v22 : IVec S_ 1 := (fun x v => Host.reduce IntOp.andi x v reducesTo_S2x5000x128_S_d0_1_2 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x8x128x128 .f32 := Host.absf main_arg6
  let main_cst_10 : FVec F S_ .f32 := constant S_ .f32 0x7F800000#32
  let main_v30 : FVec F S2x8x128x128 .f32 := broadcastInDim S2x8x128x128 ![] bcast_S_S2x8x128x128 main_cst_10
  let main_v31 : IVec S2x8x128x128 1 := cmpf .olt main_v29 main_v30
  let main_c_11 : IVec S_ 1 := constantI S_ 1 1#1
  let main_v32 : IVec S_ 1 := (fun x v => Host.reduce IntOp.andi x v reducesTo_S2x8x128x128_S_d0_1_2_3 h_S_) main_v31 main_c_11
  let main_v33 : IVec S_ 1 := andi main_v28 main_v32
  fn_part2 (F := F) main_arg7 main_arg8 main_arg9 main_arg10 main_v33

def fn {F : FTy → Type} [FloatOps F] (main_arg0 : FVec F S2x5000x5000 .f32) (main_arg1 : FVec F S2x5000x5000 .f32) (main_arg2 : FVec F S2x5000 .f32) (main_arg3 : FVec F S2x5000 .f32) (main_arg4 : FVec F S2x5000x128 .f32) (main_arg5 : FVec F S2x128 .f32) (main_arg6 : FVec F S2x8x128x128 .f32) (main_arg7 : FVec F S256x128 .f32) (main_arg8 : FVec F S128 .f32) (main_arg9 : FVec F S128x5000 .f32) (main_arg10 : FVec F S5000 .f32) : IVec S_ 1 :=
  let main_v0 : FVec F S2x5000x5000 .f32 := Host.absf main_arg0
  let main_cst : FVec F S_ .f32 := constant S_ .f32 0x7F800000#32
  let main_v1 : FVec F S2x5000x5000 .f32 := broadcastInDim S2x5000x5000 ![] bcast_S_S2x5000x5000 main_cst
  let main_v2 : IVec S2x5000x5000 1 := cmpf .olt main_v0 main_v1
  let main_c : IVec S_ 1 := constantI S_ 1 1#1
  let main_v3 : IVec S_ 1 := (fun x v => Host.reduce IntOp.andi x v reducesTo_S2x5000x5000_S_d0_1_2 h_S_) main_v2 main_c
  let main_v4 : FVec F S2x5000x5000 .f32 := Host.absf main_arg1
  let main_cst_0 : FVec F S_ .f32 := constant S_ .f32 0x7F800000#32
  let main_v5 : FVec F S2x5000x5000 .f32 := broadcastInDim S2x5000x5000 ![] bcast_S_S2x5000x5000 main_cst_0
  let main_v6 : IVec S2x5000x5000 1 := cmpf .olt main_v4 main_v5
  let main_c_1 : IVec S_ 1 := constantI S_ 1 1#1
  let main_v7 : IVec S_ 1 := (fun x v => Host.reduce IntOp.andi x v reducesTo_S2x5000x5000_S_d0_1_2 h_S_) main_v6 main_c_1
  let main_v8 : IVec S_ 1 := andi main_v3 main_v7
  let main_v9 : FVec F S2x5000 .f32 := Host.absf main_arg2
  let main_cst_2 : FVec F S_ .f32 := constant S_ .f32 0x7F800000#32
  let main_v10 : FVec F S2x5000 .f32 := broadcastInDim S2x5000 ![] bcast_S_S2x5000 main_cst_2
  let main_v11 : IVec S2x5000 1 := cmpf .olt main_v9 main_v10
  let main_c_3 : IVec S_ 1 := constantI S_ 1 1#1
  let main_v12 : IVec S_ 1 := (fun x v => Host.reduce IntOp.andi x v reducesTo_S2x5000_S_d0_1 h_S_) main_v11 main_c_3
  let main_v13 : IVec S_ 1 := andi main_v8 main_v12
  let main_v14 : FVec F S2x5000 .f32 := Host.absf main_arg3
  let main_cst_4 : FVec F S_ .f32 := constant S_ .f32 0x7F800000#32
  let main_v15 : FVec F S2x5000 .f32 := broadcastInDim S2x5000 ![] bcast_S_S2x5000 main_cst_4
  let main_v16 : IVec S2x5000 1 := cmpf .olt main_v14 main_v15
  fn_part1 (F := F) main_arg4 main_arg5 main_arg6 main_arg7 main_arg8 main_arg9 main_arg10 main_v13 main_v16
-- ==== Kernel.lean ====
abbrev S2x5000x5000 : Shape := ⟨3, ![2, 5000, 5000]⟩
abbrev S2x5000 : Shape := ⟨2, ![2, 5000]⟩
abbrev S2x5000x128 : Shape := ⟨3, ![2, 5000, 128]⟩
abbrev S2x128 : Shape := ⟨2, ![2, 128]⟩
abbrev S2x8x128x128 : Shape := ⟨4, ![2, 8, 128, 128]⟩
abbrev S256x128 : Shape := ⟨2, ![256, 128]⟩
abbrev S128 : Shape := ⟨1, ![128]⟩
abbrev S128x5000 : Shape := ⟨2, ![128, 5000]⟩
abbrev S5000 : Shape := ⟨1, ![5000]⟩
abbrev S2x1x5000 : Shape := ⟨3, ![2, 1, 5000]⟩
abbrev S2x1x128 : Shape := ⟨3, ![2, 1, 128]⟩
abbrev S1x1000x5000 : Shape := ⟨3, ![1, 1000, 5000]⟩
abbrev S1x1x5000 : Shape := ⟨3, ![1, 1, 5000]⟩
abbrev S1000x5000 : Shape := ⟨2, ![1000, 5000]⟩
abbrev S1x5000 : Shape := ⟨2, ![1, 5000]⟩
abbrev S1x5000x128 : Shape := ⟨3, ![1, 5000, 128]⟩
abbrev S1x1x128 : Shape := ⟨3, ![1, 1, 128]⟩
abbrev S1x1000x128 : Shape := ⟨3, ![1, 1000, 128]⟩
abbrev S5000x128 : Shape := ⟨2, ![5000, 128]⟩
abbrev S1000x128 : Shape := ⟨2, ![1000, 128]⟩
abbrev S1x128 : Shape := ⟨2, ![1, 128]⟩
abbrev S2x1x128x128 : Shape := ⟨4, ![2, 1, 128, 128]⟩
abbrev S2x128x128 : Shape := ⟨3, ![2, 128, 128]⟩
abbrev S1x128x128 : Shape := ⟨3, ![1, 128, 128]⟩
abbrev S128x128 : Shape := ⟨2, ![128, 128]⟩
abbrev S5000x256 : Shape := ⟨2, ![5000, 256]⟩
abbrev S5000x5000 : Shape := ⟨2, ![5000, 5000]⟩
abbrev S1000x256 : Shape := ⟨2, ![1000, 256]⟩

abbrev nBuf : Space → Nat
  | .hbm => 50
  | .vmem => 110
  | .smem => 0
  | _ => 0

abbrev bufTy : (tb : Table) → Fin (tcTables nBuf tb) → BufTy
  | .hbm, ⟨0, _⟩ => ⟨S2x5000x5000, .f32⟩
  | .hbm, ⟨1, _⟩ => ⟨S2x5000x5000, .f32⟩
  | .hbm, ⟨2, _⟩ => ⟨S2x5000, .f32⟩
  | .hbm, ⟨3, _⟩ => ⟨S2x5000, .f32⟩
  | .hbm, ⟨4, _⟩ => ⟨S2x5000x128, .f32⟩
  | .hbm, ⟨5, _⟩ => ⟨S2x128, .f32⟩
  | .hbm, ⟨6, _⟩ => ⟨S2x8x128x128, .f32⟩
  | .hbm, ⟨7, _⟩ => ⟨S256x128, .f32⟩
  | .hbm, ⟨8, _⟩ => ⟨S128, .f32⟩
  | .hbm, ⟨9, _⟩ => ⟨S128x5000, .f32⟩
  | .hbm, ⟨10, _⟩ => ⟨S5000, .f32⟩
  | .hbm, ⟨11, _⟩ => ⟨S2x1x5000, .f32⟩
  | .hbm, ⟨12, _⟩ => ⟨S2x1x5000, .f32⟩
  | .hbm, ⟨13, _⟩ => ⟨S2x1x128, .f32⟩
  | .hbm, ⟨14, _⟩ => ⟨S2x1x5000, .f32⟩
  | .hbm, ⟨15, _⟩ => ⟨S2x1x5000, .f32⟩
  | .hbm, ⟨16, _⟩ => ⟨S2x5000x128, .f32⟩
  | .hbm, ⟨17, _⟩ => ⟨S2x5000x5000, .bf16⟩
  | .hbm, ⟨18, _⟩ => ⟨S2x1x128x128, .f32⟩
  | .hbm, ⟨19, _⟩ => ⟨S2x128x128, .f32⟩
  | .hbm, ⟨20, _⟩ => ⟨S2x5000x128, .f32⟩
  | .hbm, ⟨21, _⟩ => ⟨S2x1x128x128, .f32⟩
  | .hbm, ⟨22, _⟩ => ⟨S2x128x128, .f32⟩
  | .hbm, ⟨23, _⟩ => ⟨S2x5000x128, .f32⟩
  | .hbm, ⟨24, _⟩ => ⟨S2x1x128x128, .f32⟩
  | .hbm, ⟨25, _⟩ => ⟨S2x128x128, .f32⟩
  | .hbm, ⟨26, _⟩ => ⟨S2x5000x128, .f32⟩
  | .hbm, ⟨27, _⟩ => ⟨S2x1x128x128, .f32⟩
  | .hbm, ⟨28, _⟩ => ⟨S2x128x128, .f32⟩
  | .hbm, ⟨29, _⟩ => ⟨S2x5000x128, .f32⟩
  | .hbm, ⟨30, _⟩ => ⟨S2x1x128x128, .f32⟩
  | .hbm, ⟨31, _⟩ => ⟨S2x128x128, .f32⟩
  | .hbm, ⟨32, _⟩ => ⟨S2x5000x128, .f32⟩
  | .hbm, ⟨33, _⟩ => ⟨S2x1x128x128, .f32⟩
  | .hbm, ⟨34, _⟩ => ⟨S2x128x128, .f32⟩
  | .hbm, ⟨35, _⟩ => ⟨S2x5000x128, .f32⟩
  | .hbm, ⟨36, _⟩ => ⟨S2x1x128x128, .f32⟩
  | .hbm, ⟨37, _⟩ => ⟨S2x128x128, .f32⟩
  | .hbm, ⟨38, _⟩ => ⟨S2x5000x128, .f32⟩
  | .hbm, ⟨39, _⟩ => ⟨S2x1x128x128, .f32⟩
  | .hbm, ⟨40, _⟩ => ⟨S2x128x128, .f32⟩
  | .hbm, ⟨41, _⟩ => ⟨S2x5000x128, .f32⟩
  | .hbm, ⟨42, _⟩ => ⟨S1x5000x128, .f32⟩
  | .hbm, ⟨43, _⟩ => ⟨S5000x128, .f32⟩
  | .hbm, ⟨44, _⟩ => ⟨S1x5000x128, .f32⟩
  | .hbm, ⟨45, _⟩ => ⟨S5000x128, .f32⟩
  | .hbm, ⟨46, _⟩ => ⟨S5000x256, .f32⟩
  | .hbm, ⟨47, _⟩ => ⟨S1x128, .f32⟩
  | .hbm, ⟨48, _⟩ => ⟨S1x5000, .f32⟩
  | .hbm, ⟨49, _⟩ => ⟨S5000x5000, .f32⟩
  | .local _ .vmem, ⟨0, _⟩ => ⟨S1x1000x5000, .f32⟩
  | .local _ .vmem, ⟨1, _⟩ => ⟨S1x1000x5000, .f32⟩
  | .local _ .vmem, ⟨2, _⟩ => ⟨S1x1x5000, .f32⟩
  | .local _ .vmem, ⟨3, _⟩ => ⟨S1x1x5000, .f32⟩
  | .local _ .vmem, ⟨4, _⟩ => ⟨S1x1x5000, .f32⟩
  | .local _ .vmem, ⟨5, _⟩ => ⟨S1x1x5000, .f32⟩
  | .local _ .vmem, ⟨6, _⟩ => ⟨S1x1000x5000, .f32⟩
  | .local _ .vmem, ⟨7, _⟩ => ⟨S1x1000x5000, .f32⟩
  | .local _ .vmem, ⟨8, _⟩ => ⟨S1x1x5000, .f32⟩
  | .local _ .vmem, ⟨9, _⟩ => ⟨S1x1x5000, .f32⟩
  | .local _ .vmem, ⟨10, _⟩ => ⟨S1x1x5000, .f32⟩
  | .local _ .vmem, ⟨11, _⟩ => ⟨S1x1x5000, .f32⟩
  | .local _ .vmem, ⟨12, _⟩ => ⟨S1x1x5000, .f32⟩
  | .local _ .vmem, ⟨13, _⟩ => ⟨S1x1x5000, .f32⟩
  | .local _ .vmem, ⟨14, _⟩ => ⟨S1x1x5000, .f32⟩
  | .local _ .vmem, ⟨15, _⟩ => ⟨S1x1x5000, .f32⟩
  | .local _ .vmem, ⟨16, _⟩ => ⟨S1x5000x128, .f32⟩
  | .local _ .vmem, ⟨17, _⟩ => ⟨S1x5000x128, .f32⟩
  | .local _ .vmem, ⟨18, _⟩ => ⟨S1x1x128, .f32⟩
  | .local _ .vmem, ⟨19, _⟩ => ⟨S1x1x128, .f32⟩
  | .local _ .vmem, ⟨20, _⟩ => ⟨S1x1000x128, .f32⟩
  | .local _ .vmem, ⟨21, _⟩ => ⟨S1x1000x128, .f32⟩
  | .local _ .vmem, ⟨22, _⟩ => ⟨S1x1000x5000, .bf16⟩
  | .local _ .vmem, ⟨23, _⟩ => ⟨S1x1000x5000, .bf16⟩
  | .local _ .vmem, ⟨24, _⟩ => ⟨S1x5000x128, .f32⟩
  | .local _ .vmem, ⟨25, _⟩ => ⟨S1x5000x128, .f32⟩
  | .local _ .vmem, ⟨26, _⟩ => ⟨S1x1000x128, .f32⟩
  | .local _ .vmem, ⟨27, _⟩ => ⟨S1x1000x128, .f32⟩
  | .local _ .vmem, ⟨28, _⟩ => ⟨S1x128x128, .f32⟩
  | .local _ .vmem, ⟨29, _⟩ => ⟨S1x128x128, .f32⟩
  | .local _ .vmem, ⟨30, _⟩ => ⟨S1x1000x128, .f32⟩
  | .local _ .vmem, ⟨31, _⟩ => ⟨S1x1000x128, .f32⟩
  | .local _ .vmem, ⟨32, _⟩ => ⟨S1x1000x5000, .bf16⟩
  | .local _ .vmem, ⟨33, _⟩ => ⟨S1x1000x5000, .bf16⟩
  | .local _ .vmem, ⟨34, _⟩ => ⟨S1x5000x128, .f32⟩
  | .local _ .vmem, ⟨35, _⟩ => ⟨S1x5000x128, .f32⟩
  | .local _ .vmem, ⟨36, _⟩ => ⟨S1x1000x128, .f32⟩
  | .local _ .vmem, ⟨37, _⟩ => ⟨S1x1000x128, .f32⟩
  | .local _ .vmem, ⟨38, _⟩ => ⟨S1x128x128, .f32⟩
  | .local _ .vmem, ⟨39, _⟩ => ⟨S1x128x128, .f32⟩
  | .local _ .vmem, ⟨40, _⟩ => ⟨S1x1000x128, .f32⟩
  | .local _ .vmem, ⟨41, _⟩ => ⟨S1x1000x128, .f32⟩
  | .local _ .vmem, ⟨42, _⟩ => ⟨S1x1000x5000, .bf16⟩
  | .local _ .vmem, ⟨43, _⟩ => ⟨S1x1000x5000, .bf16⟩
  | .local _ .vmem, ⟨44, _⟩ => ⟨S1x5000x128, .f32⟩
  | .local _ .vmem, ⟨45, _⟩ => ⟨S1x5000x128, .f32⟩
  | .local _ .vmem, ⟨46, _⟩ => ⟨S1x1000x128, .f32⟩
  | .local _ .vmem, ⟨47, _⟩ => ⟨S1x1000x128, .f32⟩
  | .local _ .vmem, ⟨48, _⟩ => ⟨S1x128x128, .f32⟩
  | .local _ .vmem, ⟨49, _⟩ => ⟨S1x128x128, .f32⟩
  | .local _ .vmem, ⟨50, _⟩ => ⟨S1x1000x128, .f32⟩
  | .local _ .vmem, ⟨51, _⟩ => ⟨S1x1000x128, .f32⟩
  | .local _ .vmem, ⟨52, _⟩ => ⟨S1x1000x5000, .bf16⟩
  | .local _ .vmem, ⟨53, _⟩ => ⟨S1x1000x5000, .bf16⟩
  | .local _ .vmem, ⟨54, _⟩ => ⟨S1x5000x128, .f32⟩
  | .local _ .vmem, ⟨55, _⟩ => ⟨S1x5000x128, .f32⟩
  | .local _ .vmem, ⟨56, _⟩ => ⟨S1x1000x128, .f32⟩
  | .local _ .vmem, ⟨57, _⟩ => ⟨S1x1000x128, .f32⟩
  | .local _ .vmem, ⟨58, _⟩ => ⟨S1x128x128, .f32⟩
  | .local _ .vmem, ⟨59, _⟩ => ⟨S1x128x128, .f32⟩
  | .local _ .vmem, ⟨60, _⟩ => ⟨S1x1000x128, .f32⟩
  | .local _ .vmem, ⟨61, _⟩ => ⟨S1x1000x128, .f32⟩
  | .local _ .vmem, ⟨62, _⟩ => ⟨S1x1000x5000, .bf16⟩
  | .local _ .vmem, ⟨63, _⟩ => ⟨S1x1000x5000, .bf16⟩
  | .local _ .vmem, ⟨64, _⟩ => ⟨S1x5000x128, .f32⟩
  | .local _ .vmem, ⟨65, _⟩ => ⟨S1x5000x128, .f32⟩
  | .local _ .vmem, ⟨66, _⟩ => ⟨S1x1000x128, .f32⟩
  | .local _ .vmem, ⟨67, _⟩ => ⟨S1x1000x128, .f32⟩
  | .local _ .vmem, ⟨68, _⟩ => ⟨S1x128x128, .f32⟩
  | .local _ .vmem, ⟨69, _⟩ => ⟨S1x128x128, .f32⟩
  | .local _ .vmem, ⟨70, _⟩ => ⟨S1x1000x128, .f32⟩
  | .local _ .vmem, ⟨71, _⟩ => ⟨S1x1000x128, .f32⟩
  | .local _ .vmem, ⟨72, _⟩ => ⟨S1x1000x5000, .bf16⟩
  | .local _ .vmem, ⟨73, _⟩ => ⟨S1x1000x5000, .bf16⟩
  | .local _ .vmem, ⟨74, _⟩ => ⟨S1x5000x128, .f32⟩
  | .local _ .vmem, ⟨75, _⟩ => ⟨S1x5000x128, .f32⟩
  | .local _ .vmem, ⟨76, _⟩ => ⟨S1x1000x128, .f32⟩
  | .local _ .vmem, ⟨77, _⟩ => ⟨S1x1000x128, .f32⟩
  | .local _ .vmem, ⟨78, _⟩ => ⟨S1x128x128, .f32⟩
  | .local _ .vmem, ⟨79, _⟩ => ⟨S1x128x128, .f32⟩
  | .local _ .vmem, ⟨80, _⟩ => ⟨S1x1000x128, .f32⟩
  | .local _ .vmem, ⟨81, _⟩ => ⟨S1x1000x128, .f32⟩
  | .local _ .vmem, ⟨82, _⟩ => ⟨S1x1000x5000, .bf16⟩
  | .local _ .vmem, ⟨83, _⟩ => ⟨S1x1000x5000, .bf16⟩
  | .local _ .vmem, ⟨84, _⟩ => ⟨S1x5000x128, .f32⟩
  | .local _ .vmem, ⟨85, _⟩ => ⟨S1x5000x128, .f32⟩
  | .local _ .vmem, ⟨86, _⟩ => ⟨S1x1000x128, .f32⟩
  | .local _ .vmem, ⟨87, _⟩ => ⟨S1x1000x128, .f32⟩
  | .local _ .vmem, ⟨88, _⟩ => ⟨S1x128x128, .f32⟩
  | .local _ .vmem, ⟨89, _⟩ => ⟨S1x128x128, .f32⟩
  | .local _ .vmem, ⟨90, _⟩ => ⟨S1x1000x128, .f32⟩
  | .local _ .vmem, ⟨91, _⟩ => ⟨S1x1000x128, .f32⟩
  | .local _ .vmem, ⟨92, _⟩ => ⟨S1x1000x5000, .bf16⟩
  | .local _ .vmem, ⟨93, _⟩ => ⟨S1x1000x5000, .bf16⟩
  | .local _ .vmem, ⟨94, _⟩ => ⟨S1x5000x128, .f32⟩
  | .local _ .vmem, ⟨95, _⟩ => ⟨S1x5000x128, .f32⟩
  | .local _ .vmem, ⟨96, _⟩ => ⟨S1x1000x128, .f32⟩
  | .local _ .vmem, ⟨97, _⟩ => ⟨S1x1000x128, .f32⟩
  | .local _ .vmem, ⟨98, _⟩ => ⟨S1x128x128, .f32⟩
  | .local _ .vmem, ⟨99, _⟩ => ⟨S1x128x128, .f32⟩
  | .local _ .vmem, ⟨100, _⟩ => ⟨S1x1000x128, .f32⟩
  | .local _ .vmem, ⟨101, _⟩ => ⟨S1x1000x128, .f32⟩
  | .local _ .vmem, ⟨102, _⟩ => ⟨S1000x256, .f32⟩
  | .local _ .vmem, ⟨103, _⟩ => ⟨S1000x256, .f32⟩
  | .local _ .vmem, ⟨104, _⟩ => ⟨S256x128, .f32⟩
  | .local _ .vmem, ⟨105, _⟩ => ⟨S1x128, .f32⟩
  | .local _ .vmem, ⟨106, _⟩ => ⟨S128x5000, .f32⟩
  | .local _ .vmem, ⟨107, _⟩ => ⟨S1x5000, .f32⟩
  | .local _ .vmem, ⟨108, _⟩ => ⟨S1000x5000, .f32⟩
  | .local _ .vmem, ⟨109, _⟩ => ⟨S1000x5000, .f32⟩
  | _, _ => ⟨S2x5000x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | _, _ => false

abbrev semScoped : Fin 0 → Bool
  | ⟨_, h⟩ => absurd h (Nat.not_lt_zero _)

abbrev dmaSemScoped : Fin 110 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | _ => false

abbrev sig : RefSig :=
  ofTc nBuf bufTy 0 110 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc5_stg3_0 : Ref sig .tc := ⟨.vmem, 58, rfl⟩
abbrev cc5_stg3_1 : Ref sig .tc := ⟨.vmem, 59, rfl⟩
abbrev cc5_stg4_0 : Ref sig .tc := ⟨.vmem, 60, rfl⟩
abbrev cc5_stg4_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg2_1 : Ref sig .tc := ⟨.vmem, 67, rfl⟩
abbrev cc6_stg3_0 : Ref sig .tc := ⟨.vmem, 68, rfl⟩
abbrev cc6_stg3_1 : Ref sig .tc := ⟨.vmem, 69, rfl⟩
abbrev cc6_stg4_0 : Ref sig .tc := ⟨.vmem, 70, rfl⟩
abbrev cc6_stg4_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg1_1 : Ref sig .tc := ⟨.vmem, 75, rfl⟩
abbrev cc7_stg2_0 : Ref sig .tc := ⟨.vmem, 76, rfl⟩
abbrev cc7_stg2_1 : Ref sig .tc := ⟨.vmem, 77, rfl⟩
abbrev cc7_stg3_0 : Ref sig .tc := ⟨.vmem, 78, rfl⟩
abbrev cc7_stg3_1 : Ref sig .tc := ⟨.vmem, 79, rfl⟩
abbrev cc7_stg4_0 : Ref sig .tc := ⟨.vmem, 80, rfl⟩
abbrev cc7_stg4_1 : Ref sig .tc := ⟨.vmem, 81, rfl⟩
abbrev cc8_stg0_0 : Ref sig .tc := ⟨.vmem, 82, rfl⟩
abbrev cc8_stg0_1 : Ref sig .tc := ⟨.vmem, 83, rfl⟩
abbrev cc8_stg1_0 : Ref sig .tc := ⟨.vmem, 84, rfl⟩
abbrev cc8_stg1_1 : Ref sig .tc := ⟨.vmem, 85, rfl⟩
abbrev cc8_stg2_0 : Ref sig .tc := ⟨.vmem, 86, rfl⟩
abbrev cc8_stg2_1 : Ref sig .tc := ⟨.vmem, 87, rfl⟩
abbrev cc8_stg3_0 : Ref sig .tc := ⟨.vmem, 88, rfl⟩
abbrev cc8_stg3_1 : Ref sig .tc := ⟨.vmem, 89, rfl⟩
abbrev cc8_stg4_0 : Ref sig .tc := ⟨.vmem, 90, rfl⟩
abbrev cc8_stg4_1 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg1_1 : Ref sig .tc := ⟨.vmem, 95, rfl⟩
abbrev cc9_stg2_0 : Ref sig .tc := ⟨.vmem, 96, rfl⟩
abbrev cc9_stg2_1 : Ref sig .tc := ⟨.vmem, 97, rfl⟩
abbrev cc9_stg3_0 : Ref sig .tc := ⟨.vmem, 98, rfl⟩
abbrev cc9_stg3_1 : Ref sig .tc := ⟨.vmem, 99, rfl⟩
abbrev cc9_stg4_0 : Ref sig .tc := ⟨.vmem, 100, rfl⟩
abbrev cc9_stg4_1 : Ref sig .tc := ⟨.vmem, 101, rfl⟩
abbrev cc10_stg0_0 : Ref sig .tc := ⟨.vmem, 102, rfl⟩
abbrev cc10_stg0_1 : Ref sig .tc := ⟨.vmem, 103, rfl⟩
abbrev cc10_stg1_0 : Ref sig .tc := ⟨.vmem, 104, rfl⟩
abbrev cc10_stg2_0 : Ref sig .tc := ⟨.vmem, 105, rfl⟩
abbrev cc10_stg3_0 : Ref sig .tc := ⟨.vmem, 106, rfl⟩
abbrev cc10_stg4_0 : Ref sig .tc := ⟨.vmem, 107, rfl⟩
abbrev cc10_stg5_0 : Ref sig .tc := ⟨.vmem, 108, rfl⟩
abbrev cc10_stg5_1 : Ref sig .tc := ⟨.vmem, 109, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem4_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem4_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem2_1 : DmaSem sig := 57
abbrev cc5_sem3_0 : DmaSem sig := 58
abbrev cc5_sem3_1 : DmaSem sig := 59
abbrev cc5_sem4_0 : DmaSem sig := 60
abbrev cc5_sem4_1 : DmaSem sig := 61
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66
abbrev cc6_sem2_1 : DmaSem sig := 67
abbrev cc6_sem3_0 : DmaSem sig := 68
abbrev cc6_sem3_1 : DmaSem sig := 69
abbrev cc6_sem4_0 : DmaSem sig := 70
abbrev cc6_sem4_1 : DmaSem sig := 71
abbrev cc7_sem0_0 : DmaSem sig := 72
abbrev cc7_sem0_1 : DmaSem sig := 73
abbrev cc7_sem1_0 : DmaSem sig := 74
abbrev cc7_sem1_1 : DmaSem sig := 75
abbrev cc7_sem2_0 : DmaSem sig := 76
abbrev cc7_sem2_1 : DmaSem sig := 77
abbrev cc7_sem3_0 : DmaSem sig := 78
abbrev cc7_sem3_1 : DmaSem sig := 79
abbrev cc7_sem4_0 : DmaSem sig := 80
abbrev cc7_sem4_1 : DmaSem sig := 81
abbrev cc8_sem0_0 : DmaSem sig := 82
abbrev cc8_sem0_1 : DmaSem sig := 83
abbrev cc8_sem1_0 : DmaSem sig := 84
abbrev cc8_sem1_1 : DmaSem sig := 85
abbrev cc8_sem2_0 : DmaSem sig := 86
abbrev cc8_sem2_1 : DmaSem sig := 87
abbrev cc8_sem3_0 : DmaSem sig := 88
abbrev cc8_sem3_1 : DmaSem sig := 89
abbrev cc8_sem4_0 : DmaSem sig := 90
abbrev cc8_sem4_1 : DmaSem sig := 91
abbrev cc9_sem0_0 : DmaSem sig := 92
abbrev cc9_sem0_1 : DmaSem sig := 93
abbrev cc9_sem1_0 : DmaSem sig := 94
abbrev cc9_sem1_1 : DmaSem sig := 95
abbrev cc9_sem2_0 : DmaSem sig := 96
abbrev cc9_sem2_1 : DmaSem sig := 97
abbrev cc9_sem3_0 : DmaSem sig := 98
abbrev cc9_sem3_1 : DmaSem sig := 99
abbrev cc9_sem4_0 : DmaSem sig := 100
abbrev cc9_sem4_1 : DmaSem sig := 101
abbrev cc10_sem0_0 : DmaSem sig := 102
abbrev cc10_sem0_1 : DmaSem sig := 103
abbrev cc10_sem1_0 : DmaSem sig := 104
abbrev cc10_sem2_0 : DmaSem sig := 105
abbrev cc10_sem3_0 : DmaSem sig := 106
abbrev cc10_sem4_0 : DmaSem sig := 107
abbrev cc10_sem5_0 : DmaSem sig := 108
abbrev cc10_sem5_1 : DmaSem sig := 109

abbrev nD : Nat := 1
abbrev τ : Topo := Topo.v7x

variable {F : FTy → Type} [FloatOps F]

abbrev grid0 : Pipeline.Grid := ⟨2, ![2, 5], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_3 : BitVec 32 := 0#32
  let v9 : BitVec 1 := Scalar.cmpi .ne v8 c0_i32_3
  v9

def k0_cond2 (i : grid0.Coords) : BitVec 1 :=
  let arg1 : BitVec 32 := BitVec.ofNat 32 (i 1).val
  let c0_i32_4 : BitVec 32 := 0#32
  let v10 : BitVec 1 := Scalar.cmpi .ne arg1 c0_i32_4
  let v11 : BitVec 32 := Scalar.extui v10
  let c0_i32_5 : BitVec 32 := 0#32
  let v12 : BitVec 1 := Scalar.cmpi .ne v11 c0_i32_5
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x5000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x5000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 5], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1000x5000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x5000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x5000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x5000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x5000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![2, 5], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1000x5000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![2, 5], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1000x5000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x128x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x1000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![2, 5], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x1000x5000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x128x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x1000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![2, 5], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x1000x5000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x1000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1x128x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S1x1000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨2, ![2, 5], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_4 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x1000x5000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x1000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1x128x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S1x1000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev grid7 : Pipeline.Grid := ⟨2, ![2, 5], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_4 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage7_0 : Fin 2 → Memref sig .tc .vmem S1x1000x5000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1x1000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1x128x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev stage7_4 : Fin 2 → Memref sig .tc .vmem S1x1000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev grid8 : Pipeline.Grid := ⟨2, ![2, 5], ![false, false]⟩

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_3 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_4 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage8_0 : Fin 2 → Memref sig .tc .vmem S1x1000x5000 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev stage8_2 : Fin 2 → Memref sig .tc .vmem S1x1000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev stage8_3 : Fin 2 → Memref sig .tc .vmem S1x128x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev stage8_4 : Fin 2 → Memref sig .tc .vmem S1x1000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]

abbrev grid9 : Pipeline.Grid := ⟨2, ![2, 5], ![false, false]⟩

def cc9_transform_0 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc9_transform_1 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc9_transform_3 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_4 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage9_0 : Fin 2 → Memref sig .tc .vmem S1x1000x5000 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1x5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev stage9_2 : Fin 2 → Memref sig .tc .vmem S1x1000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 2 → Memref sig .tc .vmem S1x128x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev stage9_4 : Fin 2 → Memref sig .tc .vmem S1x1000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S256x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x5000 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x5000 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S1000x5000 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  shapeCasts_S2x5000_S2x1x5000 : S2x5000.ShapeCasts S2x1x5000
  shapeCasts_S2x128_S2x1x128 : S2x128.ShapeCasts S2x1x128
  inb_S1x1000x5000_S1x1000x5000_0_0_0 : ∀ a, (![0, 0, 0] : Fin 3 → Nat) a + S1x1000x5000.size a ≤ S1x1000x5000.size a
  h_S1x1000x5000 : 0 < S1x1000x5000.numel
  shapeCasts_S1x1000x5000_S1000x5000 : S1x1000x5000.ShapeCasts S1000x5000
  reduces_S1000x5000_S5000 : S1000x5000.Reduces [0] S5000
  shapeCasts_S5000_S1x5000 : S5000.ShapeCasts S1x5000
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x5000 : S1x1x5000.ShapeCasts S1x5000
  shapeCasts_S1x5000_S1x1x5000 : S1x5000.ShapeCasts S1x1x5000
  broadcasts_S1x5000_S1000x5000 : S1x5000.Broadcasts S1000x5000
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S1000x128 : S1x128.Broadcasts S1000x128
  inb_S1x1000x128_S1x1000x128_0_0_0 : ∀ a, (![0, 0, 0] : Fin 3 → Nat) a + S1x1000x128.size a ≤ S1x1000x128.size a
  h_S1x1000x128 : 0 < S1x1000x128.numel
  shapeCasts_S1x1000x128_S1000x128 : S1x1000x128.ShapeCasts S1000x128
  shapeCasts_S1000x128_S1x1000x128 : S1000x128.ShapeCasts S1x1000x128
  bitsLt_bf16_f32 : FTy.bits .bf16 < FTy.bits .f32
  slices_S2x8x128x128_S2x1x128x128_0_0_0_0 : S2x8x128x128.Slices ![0, 0, 0, 0] S2x1x128x128
  shapeCasts_S2x1x128x128_S2x128x128 : S2x1x128x128.ShapeCasts S2x128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  slices_S2x8x128x128_S2x1x128x128_0_1_0_0 : S2x8x128x128.Slices ![0, 1, 0, 0] S2x1x128x128
  slices_S2x8x128x128_S2x1x128x128_0_2_0_0 : S2x8x128x128.Slices ![0, 2, 0, 0] S2x1x128x128
  slices_S2x8x128x128_S2x1x128x128_0_3_0_0 : S2x8x128x128.Slices ![0, 3, 0, 0] S2x1x128x128
  slices_S2x8x128x128_S2x1x128x128_0_4_0_0 : S2x8x128x128.Slices ![0, 4, 0, 0] S2x1x128x128
  slices_S2x8x128x128_S2x1x128x128_0_5_0_0 : S2x8x128x128.Slices ![0, 5, 0, 0] S2x1x128x128
  slices_S2x8x128x128_S2x1x128x128_0_6_0_0 : S2x8x128x128.Slices ![0, 6, 0, 0] S2x1x128x128
  slices_S2x8x128x128_S2x1x128x128_0_7_0_0 : S2x8x128x128.Slices ![0, 7, 0, 0] S2x1x128x128
  slices_S2x5000x128_S1x5000x128_0_0_0 : S2x5000x128.Slices ![0, 0, 0] S1x5000x128
  slices_S2x5000x128_S1x5000x128_1_0_0 : S2x5000x128.Slices ![1, 0, 0] S1x5000x128
  concatenates_S5000x128_S5000x128_S5000x256_d1 : Shape.Concatenates [S5000x128, S5000x128] S5000x256 1
  shapeCasts_S128_S1x128 : S128.ShapeCasts S1x128
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S128 : S1x128.ShapeCasts S128
  inb_S128x5000_S128x5000_0_0 : ∀ a, (![0, 0] : Fin 2 → Nat) a + S128x5000.size a ≤ S128x5000.size a
  h_S128x5000 : 0 < S128x5000.numel
  inb_S1x5000_S1x5000_0_0 : ∀ a, (![0, 0] : Fin 2 → Nat) a + S1x5000.size a ≤ S1x5000.size a
  h_S1x5000 : 0 < S1x5000.numel
  shapeCasts_S1x5000_S5000 : S1x5000.ShapeCasts S5000
  inb_S1000x5000_S1000x5000_0_0 : ∀ a, (![0, 0] : Fin 2 → Nat) a + S1000x5000.size a ≤ S1000x5000.size a
  h_S1000x5000 : 0 < S1000x5000.numel
  dot_S1000x5000_S5000x128_S1000x128_1_0_0_1_n_n_wf : DotDims.WF S1000x5000 S5000x128 S1000x128 [1] [0] [0] [1] [] []
  dot_S1000x128_S128x128_S1000x128_1_0_0_1_n_n_wf : DotDims.WF S1000x128 S128x128 S1000x128 [1] [0] [0] [1] [] []
  dot_S1000x256_S256x128_S1000x128_1_0_0_1_n_n_wf : DotDims.WF S1000x256 S256x128 S1000x128 [1] [0] [0] [1] [] []
  dot_S1000x128_S128x5000_S1000x5000_1_0_0_1_n_n_wf : DotDims.WF S1000x128 S128x5000 S1000x5000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x5000.size a ≤ S2x5000x5000.size a
  hwx0_0 : ∀ i : grid0.Coords, EltTy.bits .f32 = 32 ∨ (Rect.block (s := S2x5000x5000) S1x1000x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x5000.size a ≤ S2x1x5000.size a
  hwx0_1 : ∀ i : grid0.Coords, EltTy.bits .f32 = 32 ∨ (Rect.block (s := S2x1x5000) S1x1x5000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x5000.size a ≤ S2x1x5000.size a
  hwx0_2 : ∀ i : grid0.Coords, EltTy.bits .f32 = 32 ∨ (Rect.block (s := S2x1x5000) S1x1x5000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1000x5000.size a ≤ S2x5000x5000.size a
  hwx1_0 : ∀ i : grid1.Coords, EltTy.bits .f32 = 32 ∨ (Rect.block (s := S2x5000x5000) S1x1000x5000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x5000.size a ≤ S2x1x5000.size a
  hwx1_1 : ∀ i : grid1.Coords, EltTy.bits .f32 = 32 ∨ (Rect.block (s := S2x1x5000) S1x1x5000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x5000.size a ≤ S2x1x5000.size a
  hwx1_2 : ∀ i : grid1.Coords, EltTy.bits .f32 = 32 ∨ (Rect.block (s := S2x1x5000) S1x1x5000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x5000.size a ≤ S2x1x5000.size a
  hwx1_3 : ∀ i : grid1.Coords, EltTy.bits .f32 = 32 ∨ (Rect.block (s := S2x1x5000) S1x1x5000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x5000.size a ≤ S2x1x5000.size a
  hwx1_4 : ∀ i : grid1.Coords, EltTy.bits .f32 = 32 ∨ (Rect.block (s := S2x1x5000) S1x1x5000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x5000x128.size a ≤ S2x5000x128.size a
  hwx1_5 : ∀ i : grid1.Coords, EltTy.bits .f32 = 32 ∨ (Rect.block (s := S2x5000x128) S1x5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x128.size a ≤ S2x1x128.size a
  hwx1_6 : ∀ i : grid1.Coords, EltTy.bits .f32 = 32 ∨ (Rect.block (s := S2x1x128) S1x1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1000x128.size a ≤ S2x5000x128.size a
  hwx1_7 : ∀ i : grid1.Coords, EltTy.bits .f32 = 32 ∨ (Rect.block (s := S2x5000x128) S1x1000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1000x5000.size a ≤ S2x5000x5000.size a
  hwx2_0 : ∀ i : grid2.Coords, EltTy.bits .bf16 = 32 ∨ (Rect.block (s := S2x5000x5000) S1x1000x5000.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x5000x128.size a ≤ S2x5000x128.size a
  hwx2_1 : ∀ i : grid2.Coords, EltTy.bits .f32 = 32 ∨ (Rect.block (s := S2x5000x128) S1x5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1000x128.size a ≤ S2x5000x128.size a
  hwx2_2 : ∀ i : grid2.Coords, EltTy.bits .f32 = 32 ∨ (Rect.block (s := S2x5000x128) S1x1000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x128x128.size a ≤ S2x128x128.size a
  hwx2_3 : ∀ i : grid2.Coords, EltTy.bits .f32 = 32 ∨ (Rect.block (s := S2x128x128) S1x128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1000x128.size a ≤ S2x5000x128.size a
  hwx2_4 : ∀ i : grid2.Coords, EltTy.bits .f32 = 32 ∨ (Rect.block (s := S2x5000x128) S1x1000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1000x5000.size a ≤ S2x5000x5000.size a
  hwx3_0 : ∀ i : grid3.Coords, EltTy.bits .bf16 = 32 ∨ (Rect.block (s := S2x5000x5000) S1x1000x5000.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x5000x128.size a ≤ S2x5000x128.size a
  hwx3_1 : ∀ i : grid3.Coords, EltTy.bits .f32 = 32 ∨ (Rect.block (s := S2x5000x128) S1x5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1000x128.size a ≤ S2x5000x128.size a
  hwx3_2 : ∀ i : grid3.Coords, EltTy.bits .f32 = 32 ∨ (Rect.block (s := S2x5000x128) S1x1000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x128x128.size a ≤ S2x128x128.size a
  hwx3_3 : ∀ i : grid3.Coords, EltTy.bits .f32 = 32 ∨ (Rect.block (s := S2x128x128) S1x128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1000x128.size a ≤ S2x5000x128.size a
  hwx3_4 : ∀ i : grid3.Coords, EltTy.bits .f32 = 32 ∨ (Rect.block (s := S2x5000x128) S1x1000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x1000x5000.size a ≤ S2x5000x5000.size a
  hwx4_0 : ∀ i : grid4.Coords, EltTy.bits .bf16 = 32 ∨ (Rect.block (s := S2x5000x5000) S1x1000x5000.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x5000x128.size a ≤ S2x5000x128.size a
  hwx4_1 : ∀ i : grid4.Coords, EltTy.bits .f32 = 32 ∨ (Rect.block (s := S2x5000x128) S1x5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1000x128.size a ≤ S2x5000x128.size a
  hwx4_2 : ∀ i : grid4.Coords, EltTy.bits .f32 = 32 ∨ (Rect.block (s := S2x5000x128) S1x1000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x128x128.size a ≤ S2x128x128.size a
  hwx4_3 : ∀ i : grid4.Coords, EltTy.bits .f32 = 32 ∨ (Rect.block (s := S2x128x128) S1x128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1000x128.size a ≤ S2x5000x128.size a
  hwx4_4 : ∀ i : grid4.Coords, EltTy.bits .f32 = 32 ∨ (Rect.block (s := S2x5000x128) S1x1000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x1000x5000.size a ≤ S2x5000x5000.size a
  hwx5_0 : ∀ i : grid5.Coords, EltTy.bits .bf16 = 32 ∨ (Rect.block (s := S2x5000x5000) S1x1000x5000.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x5000x128.size a ≤ S2x5000x128.size a
  hwx5_1 : ∀ i : grid5.Coords, EltTy.bits .f32 = 32 ∨ (Rect.block (s := S2x5000x128) S1x5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1000x128.size a ≤ S2x5000x128.size a
  hwx5_2 : ∀ i : grid5.Coords, EltTy.bits .f32 = 32 ∨ (Rect.block (s := S2x5000x128) S1x1000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x128x128.size a ≤ S2x128x128.size a
  hwx5_3 : ∀ i : grid5.Coords, EltTy.bits .f32 = 32 ∨ (Rect.block (s := S2x128x128) S1x128x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x1000x128.size a ≤ S2x5000x128.size a
  hwx5_4 : ∀ i : grid5.Coords, EltTy.bits .f32 = 32 ∨ (Rect.block (s := S2x5000x128) S1x1000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x1000x5000.size a ≤ S2x5000x5000.size a
  hwx6_0 : ∀ i : grid6.Coords, EltTy.bits .bf16 = 32 ∨ (Rect.block (s := S2x5000x5000) S1x1000x5000.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x5000x128.size a ≤ S2x5000x128.size a
  hwx6_1 : ∀ i : grid6.Coords, EltTy.bits .f32 = 32 ∨ (Rect.block (s := S2x5000x128) S1x5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1000x128.size a ≤ S2x5000x128.size a
  hwx6_2 : ∀ i : grid6.Coords, EltTy.bits .f32 = 32 ∨ (Rect.block (s := S2x5000x128) S1x1000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x128x128.size a ≤ S2x128x128.size a
  hwx6_3 : ∀ i : grid6.Coords, EltTy.bits .f32 = 32 ∨ (Rect.block (s := S2x128x128) S1x128x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x1000x128.size a ≤ S2x5000x128.size a
  hwx6_4 : ∀ i : grid6.Coords, EltTy.bits .f32 = 32 ∨ (Rect.block (s := S2x5000x128) S1x1000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x1000x5000.size a ≤ S2x5000x5000.size a
  hwx7_0 : ∀ i : grid7.Coords, EltTy.bits .bf16 = 32 ∨ (Rect.block (s := S2x5000x5000) S1x1000x5000.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x5000x128.size a ≤ S2x5000x128.size a
  hwx7_1 : ∀ i : grid7.Coords, EltTy.bits .f32 = 32 ∨ (Rect.block (s := S2x5000x128) S1x5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x1000x128.size a ≤ S2x5000x128.size a
  hwx7_2 : ∀ i : grid7.Coords, EltTy.bits .f32 = 32 ∨ (Rect.block (s := S2x5000x128) S1x1000x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x128x128.size a ≤ S2x128x128.size a
  hwx7_3 : ∀ i : grid7.Coords, EltTy.bits .f32 = 32 ∨ (Rect.block (s := S2x128x128) S1x128x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x1000x128.size a ≤ S2x5000x128.size a
  hwx7_4 : ∀ i : grid7.Coords, EltTy.bits .f32 = 32 ∨ (Rect.block (s := S2x5000x128) S1x1000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x1000x5000.size a ≤ S2x5000x5000.size a
  hwx8_0 : ∀ i : grid8.Coords, EltTy.bits .bf16 = 32 ∨ (Rect.block (s := S2x5000x5000) S1x1000x5000.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x5000x128.size a ≤ S2x5000x128.size a
  hwx8_1 : ∀ i : grid8.Coords, EltTy.bits .f32 = 32 ∨ (Rect.block (s := S2x5000x128) S1x5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x1000x128.size a ≤ S2x5000x128.size a
  hwx8_2 : ∀ i : grid8.Coords, EltTy.bits .f32 = 32 ∨ (Rect.block (s := S2x5000x128) S1x1000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1x128x128.size a ≤ S2x128x128.size a
  hwx8_3 : ∀ i : grid8.Coords, EltTy.bits .f32 = 32 ∨ (Rect.block (s := S2x128x128) S1x128x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1x1000x128.size a ≤ S2x5000x128.size a
  hwx8_4 : ∀ i : grid8.Coords, EltTy.bits .f32 = 32 ∨ (Rect.block (s := S2x5000x128) S1x1000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x1000x5000.size a ≤ S2x5000x5000.size a
  hwx9_0 : ∀ i : grid9.Coords, EltTy.bits .bf16 = 32 ∨ (Rect.block (s := S2x5000x5000) S1x1000x5000.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x5000x128.size a ≤ S2x5000x128.size a
  hwx9_1 : ∀ i : grid9.Coords, EltTy.bits .f32 = 32 ∨ (Rect.block (s := S2x5000x128) S1x5000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1x1000x128.size a ≤ S2x5000x128.size a
  hwx9_2 : ∀ i : grid9.Coords, EltTy.bits .f32 = 32 ∨ (Rect.block (s := S2x5000x128) S1x1000x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1x128x128.size a ≤ S2x128x128.size a
  hwx9_3 : ∀ i : grid9.Coords, EltTy.bits .f32 = 32 ∨ (Rect.block (s := S2x128x128) S1x128x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S1x1000x128.size a ≤ S2x5000x128.size a
  hwx9_4 : ∀ i : grid9.Coords, EltTy.bits .f32 = 32 ∨ (Rect.block (s := S2x5000x128) S1x1000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1000x256.size a ≤ S5000x256.size a
  hwx10_0 : ∀ i : grid10.Coords, EltTy.bits .f32 = 32 ∨ (Rect.block (s := S5000x256) S1000x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S256x128.size a ≤ S256x128.size a
  hwx10_1 : ∀ i : grid10.Coords, EltTy.bits .f32 = 32 ∨ (Rect.block (s := S256x128) S256x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x5000.size a ≤ S128x5000.size a
  hwx10_3 : ∀ i : grid10.Coords, EltTy.bits .f32 = 32 ∨ (Rect.block (s := S128x5000) S128x5000.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x5000.size a ≤ S1x5000.size a
  hwx10_4 : ∀ i : grid10.Coords, EltTy.bits .f32 = 32 ∨ (Rect.block (s := S1x5000) S1x5000.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S1000x5000.size a ≤ S5000x5000.size a
  hwx10_5 : ∀ i : grid10.Coords, EltTy.bits .f32 = 32 ∨ (Rect.block (s := S5000x5000) S1000x5000.size (cc10_transform_5 i) (hinb10_5 i)).WholeWords (EltTy.packing .f32)

variable [Facts₀]

def dot_S1000x5000_S5000x128_S1000x128_1_0_0_1_n_n : DotDims S1000x5000 S5000x128 S1000x128 where
  lhsContracting := [1]
  rhsContracting := [0]
  lhsNonContracting := [0]
  rhsNonContracting := [1]
  lhsBatch := []
  rhsBatch := []
  wf := dot_S1000x5000_S5000x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x5000_S1000x5000_1_0_0_1_n_n : DotDims S1000x128 S128x5000 S1000x5000 where
  lhsContracting := [1]
  rhsContracting := [0]
  lhsNonContracting := [0]
  rhsNonContracting := [1]
  lhsBatch := []
  rhsBatch := []
  wf := dot_S1000x128_S128x5000_S1000x5000_1_0_0_1_n_n_wf

abbrev win0_0 : Pipeline.Window sig grid0 :=
  Pipeline.Window.ofSpec (Memref.whole main_arg0) S1x1000x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S1x1x5000.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S1x1x5000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond1 i == 1#1) && !(k0_cond2 i == 1#1) | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_arg0) S1x1000x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S1x1x5000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S1x1x5000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1x5000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1x5000.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S1x5000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x1x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v4) S1x1000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v5) S1x1000x5000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x128x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x1000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v5) S1x1000x5000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S1x5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1x1000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v10) S1x128x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v11) S1x1000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v5) S1x1000x5000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S1x5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1x1000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v13) S1x128x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v14) S1x1000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v5) S1x1000x5000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S1x5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v4) S1x1000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v16) S1x128x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v17) S1x1000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v5) S1x1000x5000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v17) S1x5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v4) S1x1000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v19) S1x128x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v20) S1x1000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v5) S1x1000x5000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v20) S1x5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v4) S1x1000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v22) S1x128x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v23) S1x1000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v5) S1x1000x5000.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v23) S1x5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v4) S1x1000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v25) S1x128x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v26) S1x1000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v5) S1x1000x5000.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v26) S1x5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v4) S1x1000x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v28) S1x128x128.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v29) S1x1000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v34) S1000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg7) S256x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v35) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg9) S128x5000.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v36) S1x5000.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v37) S1000x5000.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S2x5000x5000 : Shape := ⟨3, ![2, 5000, 5000]⟩
abbrev S2x5000 : Shape := ⟨2, ![2, 5000]⟩
abbrev S2x5000x128 : Shape := ⟨3, ![2, 5000, 128]⟩
abbrev S2x128 : Shape := ⟨2, ![2, 128]⟩
abbrev S2x8x128x128 : Shape := ⟨4, ![2, 8, 128, 128]⟩
abbrev S256x128 : Shape := ⟨2, ![256, 128]⟩
abbrev S128 : Shape := ⟨1, ![128]⟩
abbrev S128x5000 : Shape := ⟨2, ![128, 5000]⟩
abbrev S5000 : Shape := ⟨1, ![5000]⟩
abbrev S1x5000x5000 : Shape := ⟨3, ![1, 5000, 5000]⟩
abbrev S5000x5000 : Shape := ⟨2, ![5000, 5000]⟩
abbrev S_ : Shape := ⟨0, ![]⟩
abbrev S1x5000 : Shape := ⟨2, ![1, 5000]⟩
abbrev S1x5000x128 : Shape := ⟨3, ![1, 5000, 128]⟩
abbrev S5000x128 : Shape := ⟨2, ![5000, 128]⟩
abbrev S1x128 : Shape := ⟨2, ![1, 128]⟩
abbrev S1x1x128x128 : Shape := ⟨4, ![1, 1, 128, 128]⟩
abbrev S128x128 : Shape := ⟨2, ![128, 128]⟩
abbrev S5000x256 : Shape := ⟨2, ![5000, 256]⟩

abbrev nBuf : Space → Nat
  | .hbm => 528
  | .vmem => 0
  | .smem => 0
  | _ => 0

abbrev hbmTy0_0 (i : Nat) : BufTy := match i % 128 with
  | 0 => ⟨S2x5000x5000, .f32⟩
  | 1 => ⟨S2x5000x5000, .f32⟩
  | 2 => ⟨S2x5000, .f32⟩
  | 3 => ⟨S2x5000, .f32⟩
  | 4 => ⟨S2x5000x128, .f32⟩
  | 5 => ⟨S2x128, .f32⟩
  | 6 => ⟨S2x8x128x128, .f32⟩
  | 7 => ⟨S256x128, .f32⟩
  | 8 => ⟨S128, .f32⟩
  | 9 => ⟨S128x5000, .f32⟩
  | 10 => ⟨S5000, .f32⟩
  | 11 => ⟨S1x5000x5000, .f32⟩
  | 12 => ⟨S5000x5000, .f32⟩
  | 13 => ⟨S_, .f32⟩
  | 14 => ⟨S5000, .f32⟩
  | 15 => ⟨S_, .f32⟩
  | 16 => ⟨S5000, .f32⟩
  | 17 => ⟨S5000, .f32⟩
  | 18 => ⟨S_, .i32⟩
  | 19 => ⟨S_, .f32⟩
  | 20 => ⟨S5000, .f32⟩
  | 21 => ⟨S1x5000, .f32⟩
  | 22 => ⟨S_, .f32⟩
  | 23 => ⟨S1x5000, .f32⟩
  | 24 => ⟨S1x5000, .f32⟩
  | 25 => ⟨S5000x5000, .f32⟩
  | 26 => ⟨S5000x5000, .f32⟩
  | 27 => ⟨S5000x5000, .f32⟩
  | 28 => ⟨S_, .f32⟩
  | 29 => ⟨S_, .f32⟩
  | 30 => ⟨S_, .f32⟩
  | 31 => ⟨S_, .f32⟩
  | 32 => ⟨S5000, .f32⟩
  | 33 => ⟨S5000, .f32⟩
  | 34 => ⟨S5000, .f32⟩
  | 35 => ⟨S_, .f32⟩
  | 36 => ⟨S_, .i1⟩
  | 37 => ⟨S_, .f32⟩
  | 38 => ⟨S_, .f32⟩
  | 39 => ⟨S5000, .f32⟩
  | 40 => ⟨S5000, .f32⟩
  | 41 => ⟨S1x5000, .f32⟩
  | 42 => ⟨S5000x5000, .f32⟩
  | 43 => ⟨S5000x5000, .f32⟩
  | 44 => ⟨S_, .f32⟩
  | 45 => ⟨S5000, .f32⟩
  | 46 => ⟨S5000, .f32⟩
  | 47 => ⟨S5000, .f32⟩
  | 48 => ⟨S1x5000, .f32⟩
  | 49 => ⟨S5000x5000, .f32⟩
  | 50 => ⟨S5000x5000, .f32⟩
  | 51 => ⟨S1x5000, .f32⟩
  | 52 => ⟨S5000, .f32⟩
  | 53 => ⟨S1x5000, .f32⟩
  | 54 => ⟨S5000x5000, .f32⟩
  | 55 => ⟨S5000x5000, .f32⟩
  | 56 => ⟨S1x5000, .f32⟩
  | 57 => ⟨S5000, .f32⟩
  | 58 => ⟨S1x5000, .f32⟩
  | 59 => ⟨S5000x5000, .f32⟩
  | 60 => ⟨S5000x5000, .f32⟩
  | 61 => ⟨S1x5000x128, .f32⟩
  | 62 => ⟨S5000x128, .f32⟩
  | 63 => ⟨S5000x128, .f32⟩
  | 64 => ⟨S1x128, .f32⟩
  | 65 => ⟨S128, .f32⟩
  | 66 => ⟨S1x128, .f32⟩
  | 67 => ⟨S5000x128, .f32⟩
  | 68 => ⟨S5000x128, .f32⟩
  | 69 => ⟨S_, .f32⟩
  | 70 => ⟨S_, .f32⟩
  | 71 => ⟨S5000x128, .f32⟩
  | 72 => ⟨S5000x128, .i1⟩
  | 73 => ⟨S_, .f32⟩
  | 74 => ⟨S5000x128, .f32⟩
  | 75 => ⟨S5000x128, .f32⟩
  | 76 => ⟨S5000x128, .f32⟩
  | 77 => ⟨S1x5000x5000, .f32⟩
  | 78 => ⟨S5000x5000, .f32⟩
  | 79 => ⟨S5000x128, .f32⟩
  | 80 => ⟨S_, .f32⟩
  | 81 => ⟨S5000x128, .f32⟩
  | 82 => ⟨S5000x128, .f32⟩
  | 83 => ⟨S_, .f32⟩
  | 84 => ⟨S5000x128, .f32⟩
  | 85 => ⟨S5000x128, .f32⟩
  | 86 => ⟨S5000x128, .f32⟩
  | 87 => ⟨S_, .f32⟩
  | 88 => ⟨S5000x128, .f32⟩
  | 89 => ⟨S5000x128, .f32⟩
  | 90 => ⟨S1x1x128x128, .f32⟩
  | 91 => ⟨S128x128, .f32⟩
  | 92 => ⟨S5000x128, .f32⟩
  | 93 => ⟨S_, .f32⟩
  | 94 => ⟨S5000x128, .f32⟩
  | 95 => ⟨S5000x128, .f32⟩
  | 96 => ⟨S5000x128, .f32⟩
  | 97 => ⟨S_, .f32⟩
  | 98 => ⟨S5000x128, .f32⟩
  | 99 => ⟨S5000x128, .f32⟩
  | 100 => ⟨S1x5000x5000, .f32⟩
  | 101 => ⟨S5000x5000, .f32⟩
  | 102 => ⟨S5000x128, .f32⟩
  | 103 => ⟨S_, .f32⟩
  | 104 => ⟨S5000x128, .f32⟩
  | 105 => ⟨S5000x128, .f32⟩
  | 106 => ⟨S_, .f32⟩
  | 107 => ⟨S5000x128, .f32⟩
  | 108 => ⟨S5000x128, .f32⟩
  | 109 => ⟨S5000x128, .f32⟩
  | 110 => ⟨S_, .f32⟩
  | 111 => ⟨S5000x128, .f32⟩
  | 112 => ⟨S5000x128, .f32⟩
  | 113 => ⟨S1x1x128x128, .f32⟩
  | 114 => ⟨S128x128, .f32⟩
  | 115 => ⟨S5000x128, .f32⟩
  | 116 => ⟨S_, .f32⟩
  | 117 => ⟨S5000x128, .f32⟩
  | 118 => ⟨S5000x128, .f32⟩
  | 119 => ⟨S5000x128, .f32⟩
  | 120 => ⟨S_, .f32⟩
  | 121 => ⟨S5000x128, .f32⟩
  | 122 => ⟨S5000x128, .f32⟩
  | 123 => ⟨S1x5000x5000, .f32⟩
  | 124 => ⟨S5000x5000, .f32⟩
  | 125 => ⟨S5000x128, .f32⟩
  | 126 => ⟨S_, .f32⟩
  | 127 => ⟨S5000x128, .f32⟩
  | _ => ⟨S2x5000x5000, .f32⟩

abbrev hbmTy0_1 (i : Nat) : BufTy := match i % 128 with
  | 0 => ⟨S5000x128, .f32⟩
  | 1 => ⟨S_, .f32⟩
  | 2 => ⟨S5000x128, .f32⟩
  | 3 => ⟨S5000x128, .f32⟩
  | 4 => ⟨S5000x128, .f32⟩
  | 5 => ⟨S_, .f32⟩
  | 6 => ⟨S5000x128, .f32⟩
  | 7 => ⟨S5000x128, .f32⟩
  | 8 => ⟨S1x1x128x128, .f32⟩
  | 9 => ⟨S128x128, .f32⟩
  | 10 => ⟨S5000x128, .f32⟩
  | 11 => ⟨S_, .f32⟩
  | 12 => ⟨S5000x128, .f32⟩
  | 13 => ⟨S5000x128, .f32⟩
  | 14 => ⟨S5000x128, .f32⟩
  | 15 => ⟨S_, .f32⟩
  | 16 => ⟨S5000x128, .f32⟩
  | 17 => ⟨S5000x128, .f32⟩
  | 18 => ⟨S1x5000x5000, .f32⟩
  | 19 => ⟨S5000x5000, .f32⟩
  | 20 => ⟨S5000x128, .f32⟩
  | 21 => ⟨S_, .f32⟩
  | 22 => ⟨S5000x128, .f32⟩
  | 23 => ⟨S5000x128, .f32⟩
  | 24 => ⟨S_, .f32⟩
  | 25 => ⟨S5000x128, .f32⟩
  | 26 => ⟨S5000x128, .f32⟩
  | 27 => ⟨S5000x128, .f32⟩
  | 28 => ⟨S_, .f32⟩
  | 29 => ⟨S5000x128, .f32⟩
  | 30 => ⟨S5000x128, .f32⟩
  | 31 => ⟨S1x1x128x128, .f32⟩
  | 32 => ⟨S128x128, .f32⟩
  | 33 => ⟨S5000x128, .f32⟩
  | 34 => ⟨S_, .f32⟩
  | 35 => ⟨S5000x128, .f32⟩
  | 36 => ⟨S5000x128, .f32⟩
  | 37 => ⟨S5000x128, .f32⟩
  | 38 => ⟨S_, .f32⟩
  | 39 => ⟨S5000x128, .f32⟩
  | 40 => ⟨S5000x128, .f32⟩
  | 41 => ⟨S1x5000x5000, .f32⟩
  | 42 => ⟨S5000x5000, .f32⟩
  | 43 => ⟨S5000x128, .f32⟩
  | 44 => ⟨S_, .f32⟩
  | 45 => ⟨S5000x128, .f32⟩
  | 46 => ⟨S5000x128, .f32⟩
  | 47 => ⟨S_, .f32⟩
  | 48 => ⟨S5000x128, .f32⟩
  | 49 => ⟨S5000x128, .f32⟩
  | 50 => ⟨S5000x128, .f32⟩
  | 51 => ⟨S_, .f32⟩
  | 52 => ⟨S5000x128, .f32⟩
  | 53 => ⟨S5000x128, .f32⟩
  | 54 => ⟨S1x1x128x128, .f32⟩
  | 55 => ⟨S128x128, .f32⟩
  | 56 => ⟨S5000x128, .f32⟩
  | 57 => ⟨S_, .f32⟩
  | 58 => ⟨S5000x128, .f32⟩
  | 59 => ⟨S5000x128, .f32⟩
  | 60 => ⟨S5000x128, .f32⟩
  | 61 => ⟨S_, .f32⟩
  | 62 => ⟨S5000x128, .f32⟩
  | 63 => ⟨S5000x128, .f32⟩
  | 64 => ⟨S1x5000x5000, .f32⟩
  | 65 => ⟨S5000x5000, .f32⟩
  | 66 => ⟨S5000x128, .f32⟩
  | 67 => ⟨S_, .f32⟩
  | 68 => ⟨S5000x128, .f32⟩
  | 69 => ⟨S5000x128, .f32⟩
  | 70 => ⟨S_, .f32⟩
  | 71 => ⟨S5000x128, .f32⟩
  | 72 => ⟨S5000x128, .f32⟩
  | 73 => ⟨S5000x128, .f32⟩
  | 74 => ⟨S_, .f32⟩
  | 75 => ⟨S5000x128, .f32⟩
  | 76 => ⟨S5000x128, .f32⟩
  | 77 => ⟨S1x1x128x128, .f32⟩
  | 78 => ⟨S128x128, .f32⟩
  | 79 => ⟨S5000x128, .f32⟩
  | 80 => ⟨S_, .f32⟩
  | 81 => ⟨S5000x128, .f32⟩
  | 82 => ⟨S5000x128, .f32⟩
  | 83 => ⟨S5000x128, .f32⟩
  | 84 => ⟨S_, .f32⟩
  | 85 => ⟨S5000x128, .f32⟩
  | 86 => ⟨S5000x128, .f32⟩
  | 87 => ⟨S1x5000x5000, .f32⟩
  | 88 => ⟨S5000x5000, .f32⟩
  | 89 => ⟨S5000x128, .f32⟩
  | 90 => ⟨S_, .f32⟩
  | 91 => ⟨S5000x128, .f32⟩
  | 92 => ⟨S5000x128, .f32⟩
  | 93 => ⟨S_, .f32⟩
  | 94 => ⟨S5000x128, .f32⟩
  | 95 => ⟨S5000x128, .f32⟩
  | 96 => ⟨S5000x128, .f32⟩
  | 97 => ⟨S_, .f32⟩
  | 98 => ⟨S5000x128, .f32⟩
  | 99 => ⟨S5000x128, .f32⟩
  | 100 => ⟨S1x1x128x128, .f32⟩
  | 101 => ⟨S128x128, .f32⟩
  | 102 => ⟨S5000x128, .f32⟩
  | 103 => ⟨S_, .f32⟩
  | 104 => ⟨S5000x128, .f32⟩
  | 105 => ⟨S5000x128, .f32⟩
  | 106 => ⟨S5000x128, .f32⟩
  | 107 => ⟨S_, .f32⟩
  | 108 => ⟨S5000x128, .f32⟩
  | 109 => ⟨S5000x128, .f32⟩
  | 110 => ⟨S1x5000x5000, .f32⟩
  | 111 => ⟨S5000x5000, .f32⟩
  | 112 => ⟨S5000x128, .f32⟩
  | 113 => ⟨S_, .f32⟩
  | 114 => ⟨S5000x128, .f32⟩
  | 115 => ⟨S5000x128, .f32⟩
  | 116 => ⟨S_, .f32⟩
  | 117 => ⟨S5000x128, .f32⟩
  | 118 => ⟨S5000x128, .f32⟩
  | 119 => ⟨S5000x128, .f32⟩
  | 120 => ⟨S_, .f32⟩
  | 121 => ⟨S5000x128, .f32⟩
  | 122 => ⟨S5000x128, .f32⟩
  | 123 => ⟨S1x1x128x128, .f32⟩
  | 124 => ⟨S128x128, .f32⟩
  | 125 => ⟨S5000x128, .f32⟩
  | 126 => ⟨S_, .f32⟩
  | 127 => ⟨S5000x128, .f32⟩
  | _ => ⟨S2x5000x5000, .f32⟩

abbrev hbmTy0_2 (i : Nat) : BufTy := match i % 128 with
  | 0 => ⟨S5000x128, .f32⟩
  | 1 => ⟨S5000x128, .f32⟩
  | 2 => ⟨S_, .f32⟩
  | 3 => ⟨S5000x128, .f32⟩
  | 4 => ⟨S5000x128, .f32⟩
  | 5 => ⟨S1x5000x5000, .f32⟩
  | 6 => ⟨S5000x5000, .f32⟩
  | 7 => ⟨S_, .f32⟩
  | 8 => ⟨S5000, .f32⟩
  | 9 => ⟨S_, .f32⟩
  | 10 => ⟨S5000, .f32⟩
  | 11 => ⟨S5000, .f32⟩
  | 12 => ⟨S_, .i32⟩
  | 13 => ⟨S_, .f32⟩
  | 14 => ⟨S5000, .f32⟩
  | 15 => ⟨S1x5000, .f32⟩
  | 16 => ⟨S_, .f32⟩
  | 17 => ⟨S1x5000, .f32⟩
  | 18 => ⟨S1x5000, .f32⟩
  | 19 => ⟨S5000x5000, .f32⟩
  | 20 => ⟨S5000x5000, .f32⟩
  | 21 => ⟨S5000x5000, .f32⟩
  | 22 => ⟨S_, .f32⟩
  | 23 => ⟨S_, .f32⟩
  | 24 => ⟨S_, .f32⟩
  | 25 => ⟨S_, .f32⟩
  | 26 => ⟨S5000, .f32⟩
  | 27 => ⟨S5000, .f32⟩
  | 28 => ⟨S5000, .f32⟩
  | 29 => ⟨S_, .f32⟩
  | 30 => ⟨S_, .i1⟩
  | 31 => ⟨S_, .f32⟩
  | 32 => ⟨S_, .f32⟩
  | 33 => ⟨S5000, .f32⟩
  | 34 => ⟨S5000, .f32⟩
  | 35 => ⟨S1x5000, .f32⟩
  | 36 => ⟨S5000x5000, .f32⟩
  | 37 => ⟨S5000x5000, .f32⟩
  | 38 => ⟨S_, .f32⟩
  | 39 => ⟨S5000, .f32⟩
  | 40 => ⟨S5000, .f32⟩
  | 41 => ⟨S5000, .f32⟩
  | 42 => ⟨S1x5000, .f32⟩
  | 43 => ⟨S5000x5000, .f32⟩
  | 44 => ⟨S5000x5000, .f32⟩
  | 45 => ⟨S1x5000, .f32⟩
  | 46 => ⟨S5000, .f32⟩
  | 47 => ⟨S1x5000, .f32⟩
  | 48 => ⟨S5000x5000, .f32⟩
  | 49 => ⟨S5000x5000, .f32⟩
  | 50 => ⟨S1x5000, .f32⟩
  | 51 => ⟨S5000, .f32⟩
  | 52 => ⟨S1x5000, .f32⟩
  | 53 => ⟨S5000x5000, .f32⟩
  | 54 => ⟨S5000x5000, .f32⟩
  | 55 => ⟨S1x5000x128, .f32⟩
  | 56 => ⟨S5000x128, .f32⟩
  | 57 => ⟨S5000x128, .f32⟩
  | 58 => ⟨S1x128, .f32⟩
  | 59 => ⟨S128, .f32⟩
  | 60 => ⟨S1x128, .f32⟩
  | 61 => ⟨S5000x128, .f32⟩
  | 62 => ⟨S5000x128, .f32⟩
  | 63 => ⟨S_, .f32⟩
  | 64 => ⟨S_, .f32⟩
  | 65 => ⟨S5000x128, .f32⟩
  | 66 => ⟨S5000x128, .i1⟩
  | 67 => ⟨S_, .f32⟩
  | 68 => ⟨S5000x128, .f32⟩
  | 69 => ⟨S5000x128, .f32⟩
  | 70 => ⟨S5000x128, .f32⟩
  | 71 => ⟨S1x5000x5000, .f32⟩
  | 72 => ⟨S5000x5000, .f32⟩
  | 73 => ⟨S5000x128, .f32⟩
  | 74 => ⟨S_, .f32⟩
  | 75 => ⟨S5000x128, .f32⟩
  | 76 => ⟨S5000x128, .f32⟩
  | 77 => ⟨S_, .f32⟩
  | 78 => ⟨S5000x128, .f32⟩
  | 79 => ⟨S5000x128, .f32⟩
  | 80 => ⟨S5000x128, .f32⟩
  | 81 => ⟨S_, .f32⟩
  | 82 => ⟨S5000x128, .f32⟩
  | 83 => ⟨S5000x128, .f32⟩
  | 84 => ⟨S1x1x128x128, .f32⟩
  | 85 => ⟨S128x128, .f32⟩
  | 86 => ⟨S5000x128, .f32⟩
  | 87 => ⟨S_, .f32⟩
  | 88 => ⟨S5000x128, .f32⟩
  | 89 => ⟨S5000x128, .f32⟩
  | 90 => ⟨S5000x128, .f32⟩
  | 91 => ⟨S_, .f32⟩
  | 92 => ⟨S5000x128, .f32⟩
  | 93 => ⟨S5000x128, .f32⟩
  | 94 => ⟨S1x5000x5000, .f32⟩
  | 95 => ⟨S5000x5000, .f32⟩
  | 96 => ⟨S5000x128, .f32⟩
  | 97 => ⟨S_, .f32⟩
  | 98 => ⟨S5000x128, .f32⟩
  | 99 => ⟨S5000x128, .f32⟩
  | 100 => ⟨S_, .f32⟩
  | 101 => ⟨S5000x128, .f32⟩
  | 102 => ⟨S5000x128, .f32⟩
  | 103 => ⟨S5000x128, .f32⟩
  | 104 => ⟨S_, .f32⟩
  | 105 => ⟨S5000x128, .f32⟩
  | 106 => ⟨S5000x128, .f32⟩
  | 107 => ⟨S1x1x128x128, .f32⟩
  | 108 => ⟨S128x128, .f32⟩
  | 109 => ⟨S5000x128, .f32⟩
  | 110 => ⟨S_, .f32⟩
  | 111 => ⟨S5000x128, .f32⟩
  | 112 => ⟨S5000x128, .f32⟩
  | 113 => ⟨S5000x128, .f32⟩
  | 114 => ⟨S_, .f32⟩
  | 115 => ⟨S5000x128, .f32⟩
  | 116 => ⟨S5000x128, .f32⟩
  | 117 => ⟨S1x5000x5000, .f32⟩
  | 118 => ⟨S5000x5000, .f32⟩
  | 119 => ⟨S5000x128, .f32⟩
  | 120 => ⟨S_, .f32⟩
  | 121 => ⟨S5000x128, .f32⟩
  | 122 => ⟨S5000x128, .f32⟩
  | 123 => ⟨S_, .f32⟩
  | 124 => ⟨S5000x128, .f32⟩
  | 125 => ⟨S5000x128, .f32⟩
  | 126 => ⟨S5000x128, .f32⟩
  | 127 => ⟨S_, .f32⟩
  | _ => ⟨S2x5000x5000, .f32⟩

abbrev hbmTy0_3 (i : Nat) : BufTy := match i % 128 with
  | 0 => ⟨S5000x128, .f32⟩
  | 1 => ⟨S5000x128, .f32⟩
  | 2 => ⟨S1x1x128x128, .f32⟩
  | 3 => ⟨S128x128, .f32⟩
  | 4 => ⟨S5000x128, .f32⟩
  | 5 => ⟨S_, .f32⟩
  | 6 => ⟨S5000x128, .f32⟩
  | 7 => ⟨S5000x128, .f32⟩
  | 8 => ⟨S5000x128, .f32⟩
  | 9 => ⟨S_, .f32⟩
  | 10 => ⟨S5000x128, .f32⟩
  | 11 => ⟨S5000x128, .f32⟩
  | 12 => ⟨S1x5000x5000, .f32⟩
  | 13 => ⟨S5000x5000, .f32⟩
  | 14 => ⟨S5000x128, .f32⟩
  | 15 => ⟨S_, .f32⟩
  | 16 => ⟨S5000x128, .f32⟩
  | 17 => ⟨S5000x128, .f32⟩
  | 18 => ⟨S_, .f32⟩
  | 19 => ⟨S5000x128, .f32⟩
  | 20 => ⟨S5000x128, .f32⟩
  | 21 => ⟨S5000x128, .f32⟩
  | 22 => ⟨S_, .f32⟩
  | 23 => ⟨S5000x128, .f32⟩
  | 24 => ⟨S5000x128, .f32⟩
  | 25 => ⟨S1x1x128x128, .f32⟩
  | 26 => ⟨S128x128, .f32⟩
  | 27 => ⟨S5000x128, .f32⟩
  | 28 => ⟨S_, .f32⟩
  | 29 => ⟨S5000x128, .f32⟩
  | 30 => ⟨S5000x128, .f32⟩
  | 31 => ⟨S5000x128, .f32⟩
  | 32 => ⟨S_, .f32⟩
  | 33 => ⟨S5000x128, .f32⟩
  | 34 => ⟨S5000x128, .f32⟩
  | 35 => ⟨S1x5000x5000, .f32⟩
  | 36 => ⟨S5000x5000, .f32⟩
  | 37 => ⟨S5000x128, .f32⟩
  | 38 => ⟨S_, .f32⟩
  | 39 => ⟨S5000x128, .f32⟩
  | 40 => ⟨S5000x128, .f32⟩
  | 41 => ⟨S_, .f32⟩
  | 42 => ⟨S5000x128, .f32⟩
  | 43 => ⟨S5000x128, .f32⟩
  | 44 => ⟨S5000x128, .f32⟩
  | 45 => ⟨S_, .f32⟩
  | 46 => ⟨S5000x128, .f32⟩
  | 47 => ⟨S5000x128, .f32⟩
  | 48 => ⟨S1x1x128x128, .f32⟩
  | 49 => ⟨S128x128, .f32⟩
  | 50 => ⟨S5000x128, .f32⟩
  | 51 => ⟨S_, .f32⟩
  | 52 => ⟨S5000x128, .f32⟩
  | 53 => ⟨S5000x128, .f32⟩
  | 54 => ⟨S5000x128, .f32⟩
  | 55 => ⟨S_, .f32⟩
  | 56 => ⟨S5000x128, .f32⟩
  | 57 => ⟨S5000x128, .f32⟩
  | 58 => ⟨S1x5000x5000, .f32⟩
  | 59 => ⟨S5000x5000, .f32⟩
  | 60 => ⟨S5000x128, .f32⟩
  | 61 => ⟨S_, .f32⟩
  | 62 => ⟨S5000x128, .f32⟩
  | 63 => ⟨S5000x128, .f32⟩
  | 64 => ⟨S_, .f32⟩
  | 65 => ⟨S5000x128, .f32⟩
  | 66 => ⟨S5000x128, .f32⟩
  | 67 => ⟨S5000x128, .f32⟩
  | 68 => ⟨S_, .f32⟩
  | 69 => ⟨S5000x128, .f32⟩
  | 70 => ⟨S5000x128, .f32⟩
  | 71 => ⟨S1x1x128x128, .f32⟩
  | 72 => ⟨S128x128, .f32⟩
  | 73 => ⟨S5000x128, .f32⟩
  | 74 => ⟨S_, .f32⟩
  | 75 => ⟨S5000x128, .f32⟩
  | 76 => ⟨S5000x128, .f32⟩
  | 77 => ⟨S5000x128, .f32⟩
  | 78 => ⟨S_, .f32⟩
  | 79 => ⟨S5000x128, .f32⟩
  | 80 => ⟨S5000x128, .f32⟩
  | 81 => ⟨S1x5000x5000, .f32⟩
  | 82 => ⟨S5000x5000, .f32⟩
  | 83 => ⟨S5000x128, .f32⟩
  | 84 => ⟨S_, .f32⟩
  | 85 => ⟨S5000x128, .f32⟩
  | 86 => ⟨S5000x128, .f32⟩
  | 87 => ⟨S_, .f32⟩
  | 88 => ⟨S5000x128, .f32⟩
  | 89 => ⟨S5000x128, .f32⟩
  | 90 => ⟨S5000x128, .f32⟩
  | 91 => ⟨S_, .f32⟩
  | 92 => ⟨S5000x128, .f32⟩
  | 93 => ⟨S5000x128, .f32⟩
  | 94 => ⟨S1x1x128x128, .f32⟩
  | 95 => ⟨S128x128, .f32⟩
  | 96 => ⟨S5000x128, .f32⟩
  | 97 => ⟨S_, .f32⟩
  | 98 => ⟨S5000x128, .f32⟩
  | 99 => ⟨S5000x128, .f32⟩
  | 100 => ⟨S5000x128, .f32⟩
  | 101 => ⟨S_, .f32⟩
  | 102 => ⟨S5000x128, .f32⟩
  | 103 => ⟨S5000x128, .f32⟩
  | 104 => ⟨S1x5000x5000, .f32⟩
  | 105 => ⟨S5000x5000, .f32⟩
  | 106 => ⟨S5000x128, .f32⟩
  | 107 => ⟨S_, .f32⟩
  | 108 => ⟨S5000x128, .f32⟩
  | 109 => ⟨S5000x128, .f32⟩
  | 110 => ⟨S_, .f32⟩
  | 111 => ⟨S5000x128, .f32⟩
  | 112 => ⟨S5000x128, .f32⟩
  | 113 => ⟨S5000x128, .f32⟩
  | 114 => ⟨S_, .f32⟩
  | 115 => ⟨S5000x128, .f32⟩
  | 116 => ⟨S5000x128, .f32⟩
  | 117 => ⟨S1x1x128x128, .f32⟩
  | 118 => ⟨S128x128, .f32⟩
  | 119 => ⟨S5000x128, .f32⟩
  | 120 => ⟨S_, .f32⟩
  | 121 => ⟨S5000x128, .f32⟩
  | 122 => ⟨S5000x128, .f32⟩
  | 123 => ⟨S5000x128, .f32⟩
  | 124 => ⟨S_, .f32⟩
  | 125 => ⟨S5000x128, .f32⟩
  | 126 => ⟨S5000x128, .f32⟩
  | 127 => ⟨S5000x256, .f32⟩
  | _ => ⟨S2x5000x5000, .f32⟩

abbrev hbmTy0_4 (i : Nat) : BufTy := match i % 128 with
  | 0 => ⟨S5000x128, .f32⟩
  | 1 => ⟨S1x128, .f32⟩
  | 2 => ⟨S5000x128, .f32⟩
  | 3 => ⟨S5000x128, .f32⟩
  | 4 => ⟨S_, .f32⟩
  | 5 => ⟨S_, .f32⟩
  | 6 => ⟨S5000x128, .f32⟩
  | 7 => ⟨S5000x128, .i1⟩
  | 8 => ⟨S_, .f32⟩
  | 9 => ⟨S5000x128, .f32⟩
  | 10 => ⟨S5000x128, .f32⟩
  | 11 => ⟨S5000x128, .f32⟩
  | 12 => ⟨S5000x5000, .f32⟩
  | 13 => ⟨S1x5000, .f32⟩
  | 14 => ⟨S5000x5000, .f32⟩
  | 15 => ⟨S5000x5000, .f32⟩
  | _ => ⟨S2x5000x5000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x5000x5000, .f32⟩

abbrev bufTy : (tb : Table) → Fin (tcTables nBuf tb) → BufTy
  | .hbm, ⟨i, _⟩ => hbmTy i
  | _, _ => ⟨S2x5000x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst_3 : Ref sig .tc := ⟨.hbm, 35, rfl⟩
abbrev main_call0_v12 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_cst_1 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_2 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_3 : Ref sig .tc := ⟨.hbm, 80, rfl⟩
abbrev main_v37 : Ref sig .tc := ⟨.hbm, 81, rfl⟩
abbrev main_v38 : Ref sig .tc := ⟨.hbm, 82, rfl⟩
abbrev main_cst_4 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_5 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_6 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_call2_cst : Ref sig .tc := ⟨.hbm, 97, rfl⟩
abbrev main_call2_v0 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_cst_7 : Ref sig .tc := ⟨.hbm, 103, rfl⟩
abbrev main_v54 : Ref sig .tc := ⟨.hbm, 104, rfl⟩
abbrev main_v55 : Ref sig .tc := ⟨.hbm, 105, rfl⟩
abbrev main_cst_8 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_9 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_10 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_call3_cst : Ref sig .tc := ⟨.hbm, 120, rfl⟩
abbrev main_call3_v0 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_11 : Ref sig .tc := ⟨.hbm, 126, rfl⟩
abbrev main_v71 : Ref sig .tc := ⟨.hbm, 127, rfl⟩
abbrev main_v72 : Ref sig .tc := ⟨.hbm, 128, rfl⟩
abbrev main_cst_12 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_13 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_14 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_call4_cst : Ref sig .tc := ⟨.hbm, 143, rfl⟩
abbrev main_call4_v0 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_15 : Ref sig .tc := ⟨.hbm, 149, rfl⟩
abbrev main_v88 : Ref sig .tc := ⟨.hbm, 150, rfl⟩
abbrev main_v89 : Ref sig .tc := ⟨.hbm, 151, rfl⟩
abbrev main_cst_16 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_cst_17 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_cst_18 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_call5_cst : Ref sig .tc := ⟨.hbm, 166, rfl⟩
abbrev main_call5_v0 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_cst_19 : Ref sig .tc := ⟨.hbm, 172, rfl⟩
abbrev main_v105 : Ref sig .tc := ⟨.hbm, 173, rfl⟩
abbrev main_v106 : Ref sig .tc := ⟨.hbm, 174, rfl⟩
abbrev main_cst_20 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_21 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_cst_22 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_call6_cst : Ref sig .tc := ⟨.hbm, 189, rfl⟩
abbrev main_call6_v0 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_cst_23 : Ref sig .tc := ⟨.hbm, 195, rfl⟩
abbrev main_v122 : Ref sig .tc := ⟨.hbm, 196, rfl⟩
abbrev main_v123 : Ref sig .tc := ⟨.hbm, 197, rfl⟩
abbrev main_cst_24 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_cst_25 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_cst_26 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_call7_cst : Ref sig .tc := ⟨.hbm, 212, rfl⟩
abbrev main_call7_v0 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_cst_27 : Ref sig .tc := ⟨.hbm, 218, rfl⟩
abbrev main_v139 : Ref sig .tc := ⟨.hbm, 219, rfl⟩
abbrev main_v140 : Ref sig .tc := ⟨.hbm, 220, rfl⟩
abbrev main_cst_28 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_cst_29 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_cst_30 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_call8_cst : Ref sig .tc := ⟨.hbm, 235, rfl⟩
abbrev main_call8_v0 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_cst_31 : Ref sig .tc := ⟨.hbm, 241, rfl⟩
abbrev main_v156 : Ref sig .tc := ⟨.hbm, 242, rfl⟩
abbrev main_v157 : Ref sig .tc := ⟨.hbm, 243, rfl⟩
abbrev main_cst_32 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_cst_33 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_cst_34 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_call9_cst : Ref sig .tc := ⟨.hbm, 258, rfl⟩
abbrev main_call9_v0 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_cst_35 : Ref sig .tc := ⟨.hbm, 263, rfl⟩
abbrev main_v172 : Ref sig .tc := ⟨.hbm, 264, rfl⟩
abbrev main_cst_36 : Ref sig .tc := ⟨.hbm, 265, rfl⟩
abbrev main_v173 : Ref sig .tc := ⟨.hbm, 266, rfl⟩
abbrev main_v174 : Ref sig .tc := ⟨.hbm, 267, rfl⟩
abbrev main_c_37 : Ref sig .tc := ⟨.hbm, 268, rfl⟩
abbrev main_call10_cst : Ref sig .tc := ⟨.hbm, 269, rfl⟩
abbrev main_call10_v0 : Ref sig .tc := ⟨.hbm, 270, rfl⟩
abbrev main_call10_v1 : Ref sig .tc := ⟨.hbm, 271, rfl⟩
abbrev main_call10_cst_0 : Ref sig .tc := ⟨.hbm, 272, rfl⟩
abbrev main_call10_v2 : Ref sig .tc := ⟨.hbm, 273, rfl⟩
abbrev main_call10_v3 : Ref sig .tc := ⟨.hbm, 274, rfl⟩
abbrev main_call10_v4 : Ref sig .tc := ⟨.hbm, 275, rfl⟩
abbrev main_call10_v5 : Ref sig .tc := ⟨.hbm, 276, rfl⟩
abbrev main_call10_v6 : Ref sig .tc := ⟨.hbm, 277, rfl⟩
abbrev main_call10_v7 : Ref sig .tc := ⟨.hbm, 278, rfl⟩
abbrev main_call10_cst_1 : Ref sig .tc := ⟨.hbm, 279, rfl⟩
abbrev main_call10_v8 : Ref sig .tc := ⟨.hbm, 280, rfl⟩
abbrev main_call10_cst_2 : Ref sig .tc := ⟨.hbm, 281, rfl⟩
abbrev main_call10_v9 : Ref sig .tc := ⟨.hbm, 282, rfl⟩
abbrev main_call10_v10 : Ref sig .tc := ⟨.hbm, 283, rfl⟩
abbrev main_call10_v11 : Ref sig .tc := ⟨.hbm, 284, rfl⟩
abbrev main_call10_cst_3 : Ref sig .tc := ⟨.hbm, 285, rfl⟩
abbrev main_call10_v12 : Ref sig .tc := ⟨.hbm, 286, rfl⟩
abbrev main_call10_cst_4 : Ref sig .tc := ⟨.hbm, 287, rfl⟩
abbrev main_call10_call0_v0 : Ref sig .tc := ⟨.hbm, 288, rfl⟩
abbrev main_call10_call0_v1 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_38 : Ref sig .tc := ⟨.hbm, 294, rfl⟩
abbrev main_v179 : Ref sig .tc := ⟨.hbm, 295, rfl⟩
abbrev main_v180 : Ref sig .tc := ⟨.hbm, 296, rfl⟩
abbrev main_v181 : Ref sig .tc := ⟨.hbm, 297, rfl⟩
abbrev main_v182 : Ref sig .tc := ⟨.hbm, 298, rfl⟩
abbrev main_v183 : Ref sig .tc := ⟨.hbm, 299, rfl⟩
abbrev main_v184 : Ref sig .tc := ⟨.hbm, 300, rfl⟩
abbrev main_v185 : Ref sig .tc := ⟨.hbm, 301, rfl⟩
abbrev main_v186 : Ref sig .tc := ⟨.hbm, 302, rfl⟩
abbrev main_v187 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_v192 : Ref sig .tc := ⟨.hbm, 308, rfl⟩
abbrev main_v193 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_v198 : Ref sig .tc := ⟨.hbm, 314, rfl⟩
abbrev main_v199 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_39 : Ref sig .tc := ⟨.hbm, 319, rfl⟩
abbrev main_call11_cst : Ref sig .tc := ⟨.hbm, 320, rfl⟩
abbrev main_call11_v0 : Ref sig .tc := ⟨.hbm, 321, rfl⟩
abbrev main_call11_v1 : Ref sig .tc := ⟨.hbm, 322, rfl⟩
abbrev main_call11_v2 : Ref sig .tc := ⟨.hbm, 323, rfl⟩
abbrev main_call11_v3 : Ref sig .tc := ⟨.hbm, 324, rfl⟩
abbrev main_call11_v4 : Ref sig .tc := ⟨.hbm, 325, rfl⟩
abbrev main_v203 : Ref sig .tc := ⟨.hbm, 326, rfl⟩
abbrev main_v204 : Ref sig .tc := ⟨.hbm, 327, rfl⟩
abbrev main_v205 : Ref sig .tc := ⟨.hbm, 328, rfl⟩
abbrev main_v206 : Ref sig .tc := ⟨.hbm, 329, rfl⟩
abbrev main_cst_40 : Ref sig .tc := ⟨.hbm, 330, rfl⟩
abbrev main_v207 : Ref sig .tc := ⟨.hbm, 331, rfl⟩
abbrev main_v208 : Ref sig .tc := ⟨.hbm, 332, rfl⟩
abbrev main_cst_41 : Ref sig .tc := ⟨.hbm, 333, rfl⟩
abbrev main_v209 : Ref sig .tc := ⟨.hbm, 334, rfl⟩
abbrev main_v210 : Ref sig .tc := ⟨.hbm, 335, rfl⟩
abbrev main_v211 : Ref sig .tc := ⟨.hbm, 336, rfl⟩
abbrev main_cst_42 : Ref sig .tc := ⟨.hbm, 337, rfl⟩
abbrev main_v212 : Ref sig .tc := ⟨.hbm, 338, rfl⟩
abbrev main_v213 : Ref sig .tc := ⟨.hbm, 339, rfl⟩
abbrev main_v214 : Ref sig .tc := ⟨.hbm, 340, rfl⟩
abbrev main_v215 : Ref sig .tc := ⟨.hbm, 341, rfl⟩
abbrev main_v216 : Ref sig .tc := ⟨.hbm, 342, rfl⟩
abbrev main_cst_43 : Ref sig .tc := ⟨.hbm, 343, rfl⟩
abbrev main_v217 : Ref sig .tc := ⟨.hbm, 344, rfl⟩
abbrev main_v218 : Ref sig .tc := ⟨.hbm, 345, rfl⟩
abbrev main_v219 : Ref sig .tc := ⟨.hbm, 346, rfl⟩
abbrev main_call12_cst : Ref sig .tc := ⟨.hbm, 347, rfl⟩
abbrev main_call12_v0 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_v223 : Ref sig .tc := ⟨.hbm, 352, rfl⟩
abbrev main_cst_44 : Ref sig .tc := ⟨.hbm, 353, rfl⟩
abbrev main_v224 : Ref sig .tc := ⟨.hbm, 354, rfl⟩
abbrev main_v225 : Ref sig .tc := ⟨.hbm, 355, rfl⟩
abbrev main_cst_45 : Ref sig .tc := ⟨.hbm, 356, rfl⟩
abbrev main_v226 : Ref sig .tc := ⟨.hbm, 357, rfl⟩
abbrev main_v227 : Ref sig .tc := ⟨.hbm, 358, rfl⟩
abbrev main_v228 : Ref sig .tc := ⟨.hbm, 359, rfl⟩
abbrev main_cst_46 : Ref sig .tc := ⟨.hbm, 360, rfl⟩
abbrev main_v229 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_cst_47 : Ref sig .tc := ⟨.hbm, 366, rfl⟩
abbrev main_v234 : Ref sig .tc := ⟨.hbm, 367, rfl⟩
abbrev main_v235 : Ref sig .tc := ⟨.hbm, 368, rfl⟩
abbrev main_v236 : Ref sig .tc := ⟨.hbm, 369, rfl⟩
abbrev main_call13_cst : Ref sig .tc := ⟨.hbm, 370, rfl⟩
abbrev main_call13_v0 : Ref sig .tc := ⟨.hbm, 371, rfl⟩
abbrev main_v237 : Ref sig .tc := ⟨.hbm, 372, rfl⟩
abbrev main_v238 : Ref sig .tc := ⟨.hbm, 373, rfl⟩
abbrev main_v239 : Ref sig .tc := ⟨.hbm, 374, rfl⟩
abbrev main_v240 : Ref sig .tc := ⟨.hbm, 375, rfl⟩
abbrev main_cst_48 : Ref sig .tc := ⟨.hbm, 376, rfl⟩
abbrev main_v241 : Ref sig .tc := ⟨.hbm, 377, rfl⟩
abbrev main_v242 : Ref sig .tc := ⟨.hbm, 378, rfl⟩
abbrev main_cst_49 : Ref sig .tc := ⟨.hbm, 379, rfl⟩
abbrev main_v243 : Ref sig .tc := ⟨.hbm, 380, rfl⟩
abbrev main_v244 : Ref sig .tc := ⟨.hbm, 381, rfl⟩
abbrev main_v245 : Ref sig .tc := ⟨.hbm, 382, rfl⟩
abbrev main_cst_50 : Ref sig .tc := ⟨.hbm, 383, rfl⟩
abbrev main_v246 : Ref sig .tc := ⟨.hbm, 384, rfl⟩
abbrev main_v247 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_51 : Ref sig .tc := ⟨.hbm, 389, rfl⟩
abbrev main_v251 : Ref sig .tc := ⟨.hbm, 390, rfl⟩
abbrev main_v252 : Ref sig .tc := ⟨.hbm, 391, rfl⟩
abbrev main_v253 : Ref sig .tc := ⟨.hbm, 392, rfl⟩
abbrev main_call14_cst : Ref sig .tc := ⟨.hbm, 393, rfl⟩
abbrev main_call14_v0 : Ref sig .tc := ⟨.hbm, 394, rfl⟩
abbrev main_v254 : Ref sig .tc := ⟨.hbm, 395, rfl⟩
abbrev main_v255 : Ref sig .tc := ⟨.hbm, 396, rfl⟩
abbrev main_v256 : Ref sig .tc := ⟨.hbm, 397, rfl⟩
abbrev main_v257 : Ref sig .tc := ⟨.hbm, 398, rfl⟩
abbrev main_cst_52 : Ref sig .tc := ⟨.hbm, 399, rfl⟩
abbrev main_v258 : Ref sig .tc := ⟨.hbm, 400, rfl⟩
abbrev main_v259 : Ref sig .tc := ⟨.hbm, 401, rfl⟩
abbrev main_cst_53 : Ref sig .tc := ⟨.hbm, 402, rfl⟩
abbrev main_v260 : Ref sig .tc := ⟨.hbm, 403, rfl⟩
abbrev main_v261 : Ref sig .tc := ⟨.hbm, 404, rfl⟩
abbrev main_v262 : Ref sig .tc := ⟨.hbm, 405, rfl⟩
abbrev main_cst_54 : Ref sig .tc := ⟨.hbm, 406, rfl⟩
abbrev main_v263 : Ref sig .tc := ⟨.hbm, 407, rfl⟩
abbrev main_v264 : Ref sig .tc := ⟨.hbm, 408, rfl⟩
abbrev main_v265 : Ref sig .tc := ⟨.hbm, 409, rfl⟩
abbrev main_v266 : Ref sig .tc := ⟨.hbm, 410, rfl⟩
abbrev main_v267 : Ref sig .tc := ⟨.hbm, 411, rfl⟩
abbrev main_cst_55 : Ref sig .tc := ⟨.hbm, 412, rfl⟩
abbrev main_v268 : Ref sig .tc := ⟨.hbm, 413, rfl⟩
abbrev main_v269 : Ref sig .tc := ⟨.hbm, 414, rfl⟩
abbrev main_v270 : Ref sig .tc := ⟨.hbm, 415, rfl⟩
abbrev main_call15_cst : Ref sig .tc := ⟨.hbm, 416, rfl⟩
abbrev main_call15_v0 : Ref sig .tc := ⟨.hbm, 417, rfl⟩
abbrev main_v271 : Ref sig .tc := ⟨.hbm, 418, rfl⟩
abbrev main_v272 : Ref sig .tc := ⟨.hbm, 419, rfl⟩
abbrev main_v273 : Ref sig .tc := ⟨.hbm, 420, rfl⟩
abbrev main_v274 : Ref sig .tc := ⟨.hbm, 421, rfl⟩
abbrev main_cst_56 : Ref sig .tc := ⟨.hbm, 422, rfl⟩
abbrev main_v275 : Ref sig .tc := ⟨.hbm, 423, rfl⟩
abbrev main_v276 : Ref sig .tc := ⟨.hbm, 424, rfl⟩
abbrev main_cst_57 : Ref sig .tc := ⟨.hbm, 425, rfl⟩
abbrev main_v277 : Ref sig .tc := ⟨.hbm, 426, rfl⟩
abbrev main_v278 : Ref sig .tc := ⟨.hbm, 427, rfl⟩
abbrev main_v279 : Ref sig .tc := ⟨.hbm, 428, rfl⟩
abbrev main_cst_58 : Ref sig .tc := ⟨.hbm, 429, rfl⟩
abbrev main_v280 : Ref sig .tc := ⟨.hbm, 430, rfl⟩
abbrev main_v281 : Ref sig .tc := ⟨.hbm, 431, rfl⟩
abbrev main_v282 : Ref sig .tc := ⟨.hbm, 432, rfl⟩
abbrev main_v283 : Ref sig .tc := ⟨.hbm, 433, rfl⟩
abbrev main_v284 : Ref sig .tc := ⟨.hbm, 434, rfl⟩
abbrev main_cst_59 : Ref sig .tc := ⟨.hbm, 435, rfl⟩
abbrev main_v285 : Ref sig .tc := ⟨.hbm, 436, rfl⟩
abbrev main_v286 : Ref sig .tc := ⟨.hbm, 437, rfl⟩
abbrev main_v287 : Ref sig .tc := ⟨.hbm, 438, rfl⟩
abbrev main_call16_cst : Ref sig .tc := ⟨.hbm, 439, rfl⟩
abbrev main_call16_v0 : Ref sig .tc := ⟨.hbm, 440, rfl⟩
abbrev main_v288 : Ref sig .tc := ⟨.hbm, 441, rfl⟩
abbrev main_v289 : Ref sig .tc := ⟨.hbm, 442, rfl⟩
abbrev main_v290 : Ref sig .tc := ⟨.hbm, 443, rfl⟩
abbrev main_v291 : Ref sig .tc := ⟨.hbm, 444, rfl⟩
abbrev main_cst_60 : Ref sig .tc := ⟨.hbm, 445, rfl⟩
abbrev main_v292 : Ref sig .tc := ⟨.hbm, 446, rfl⟩
abbrev main_v293 : Ref sig .tc := ⟨.hbm, 447, rfl⟩
abbrev main_cst_61 : Ref sig .tc := ⟨.hbm, 448, rfl⟩
abbrev main_v294 : Ref sig .tc := ⟨.hbm, 449, rfl⟩
abbrev main_v295 : Ref sig .tc := ⟨.hbm, 450, rfl⟩
abbrev main_v296 : Ref sig .tc := ⟨.hbm, 451, rfl⟩
abbrev main_cst_62 : Ref sig .tc := ⟨.hbm, 452, rfl⟩
abbrev main_v297 : Ref sig .tc := ⟨.hbm, 453, rfl⟩
abbrev main_v298 : Ref sig .tc := ⟨.hbm, 454, rfl⟩
abbrev main_v299 : Ref sig .tc := ⟨.hbm, 455, rfl⟩
abbrev main_v300 : Ref sig .tc := ⟨.hbm, 456, rfl⟩
abbrev main_v301 : Ref sig .tc := ⟨.hbm, 457, rfl⟩
abbrev main_cst_63 : Ref sig .tc := ⟨.hbm, 458, rfl⟩
abbrev main_v302 : Ref sig .tc := ⟨.hbm, 459, rfl⟩
abbrev main_v303 : Ref sig .tc := ⟨.hbm, 460, rfl⟩
abbrev main_v304 : Ref sig .tc := ⟨.hbm, 461, rfl⟩
abbrev main_call17_cst : Ref sig .tc := ⟨.hbm, 462, rfl⟩
abbrev main_call17_v0 : Ref sig .tc := ⟨.hbm, 463, rfl⟩
abbrev main_v305 : Ref sig .tc := ⟨.hbm, 464, rfl⟩
abbrev main_v306 : Ref sig .tc := ⟨.hbm, 465, rfl⟩
abbrev main_v307 : Ref sig .tc := ⟨.hbm, 466, rfl⟩
abbrev main_v308 : Ref sig .tc := ⟨.hbm, 467, rfl⟩
abbrev main_cst_64 : Ref sig .tc := ⟨.hbm, 468, rfl⟩
abbrev main_v309 : Ref sig .tc := ⟨.hbm, 469, rfl⟩
abbrev main_v310 : Ref sig .tc := ⟨.hbm, 470, rfl⟩
abbrev main_cst_65 : Ref sig .tc := ⟨.hbm, 471, rfl⟩
abbrev main_v311 : Ref sig .tc := ⟨.hbm, 472, rfl⟩
abbrev main_v312 : Ref sig .tc := ⟨.hbm, 473, rfl⟩
abbrev main_v313 : Ref sig .tc := ⟨.hbm, 474, rfl⟩
abbrev main_cst_66 : Ref sig .tc := ⟨.hbm, 475, rfl⟩
abbrev main_v314 : Ref sig .tc := ⟨.hbm, 476, rfl⟩
abbrev main_v315 : Ref sig .tc := ⟨.hbm, 477, rfl⟩
abbrev main_v316 : Ref sig .tc := ⟨.hbm, 478, rfl⟩
abbrev main_v317 : Ref sig .tc := ⟨.hbm, 479, rfl⟩
abbrev main_v318 : Ref sig .tc := ⟨.hbm, 480, rfl⟩
abbrev main_cst_67 : Ref sig .tc := ⟨.hbm, 481, rfl⟩
abbrev main_v319 : Ref sig .tc := ⟨.hbm, 482, rfl⟩
abbrev main_v320 : Ref sig .tc := ⟨.hbm, 483, rfl⟩
abbrev main_v321 : Ref sig .tc := ⟨.hbm, 484, rfl⟩
abbrev main_call18_cst : Ref sig .tc := ⟨.hbm, 485, rfl⟩
abbrev main_call18_v0 : Ref sig .tc := ⟨.hbm, 486, rfl⟩
abbrev main_v322 : Ref sig .tc := ⟨.hbm, 487, rfl⟩
abbrev main_v323 : Ref sig .tc := ⟨.hbm, 488, rfl⟩
abbrev main_v324 : Ref sig .tc := ⟨.hbm, 489, rfl⟩
abbrev main_v325 : Ref sig .tc := ⟨.hbm, 490, rfl⟩
abbrev main_cst_68 : Ref sig .tc := ⟨.hbm, 491, rfl⟩
abbrev main_v326 : Ref sig .tc := ⟨.hbm, 492, rfl⟩
abbrev main_v327 : Ref sig .tc := ⟨.hbm, 493, rfl⟩
abbrev main_cst_69 : Ref sig .tc := ⟨.hbm, 494, rfl⟩
abbrev main_v328 : Ref sig .tc := ⟨.hbm, 495, rfl⟩
abbrev main_v329 : Ref sig .tc := ⟨.hbm, 496, rfl⟩
abbrev main_v330 : Ref sig .tc := ⟨.hbm, 497, rfl⟩
abbrev main_cst_70 : Ref sig .tc := ⟨.hbm, 498, rfl⟩
abbrev main_v331 : Ref sig .tc := ⟨.hbm, 499, rfl⟩
abbrev main_v332 : Ref sig .tc := ⟨.hbm, 500, rfl⟩
abbrev main_v333 : Ref sig .tc := ⟨.hbm, 501, rfl⟩
abbrev main_v334 : Ref sig .tc := ⟨.hbm, 502, rfl⟩
abbrev main_v335 : Ref sig .tc := ⟨.hbm, 503, rfl⟩
abbrev main_cst_71 : Ref sig .tc := ⟨.hbm, 504, rfl⟩
abbrev main_v336 : Ref sig .tc := ⟨.hbm, 505, rfl⟩
abbrev main_v337 : Ref sig .tc := ⟨.hbm, 506, rfl⟩
abbrev main_v338 : Ref sig .tc := ⟨.hbm, 507, rfl⟩
abbrev main_call19_cst : Ref sig .tc := ⟨.hbm, 508, rfl⟩
abbrev main_call19_v0 : Ref sig .tc := ⟨.hbm, 509, rfl⟩
abbrev main_v339 : Ref sig .tc := ⟨.hbm, 510, rfl⟩
abbrev main_v340 : Ref sig .tc := ⟨.hbm, 511, rfl⟩
abbrev main_v341 : Ref sig .tc := ⟨.hbm, 512, rfl⟩
abbrev main_v342 : Ref sig .tc := ⟨.hbm, 513, rfl⟩
abbrev main_v343 : Ref sig .tc := ⟨.hbm, 514, rfl⟩
abbrev main_v344 : Ref sig .tc := ⟨.hbm, 515, rfl⟩
abbrev main_cst_72 : Ref sig .tc := ⟨.hbm, 516, rfl⟩
abbrev main_call20_cst : Ref sig .tc := ⟨.hbm, 517, rfl⟩
abbrev main_call20_v0 : Ref sig .tc := ⟨.hbm, 518, rfl⟩
abbrev main_call20_v1 : Ref sig .tc := ⟨.hbm, 519, rfl⟩
abbrev main_call20_v2 : Ref sig .tc := ⟨.hbm, 520, rfl⟩
abbrev main_call20_v3 : Ref sig .tc := ⟨.hbm, 521, rfl⟩
abbrev main_call20_v4 : Ref sig .tc := ⟨.hbm, 522, rfl⟩
abbrev main_v345 : Ref sig .tc := ⟨.hbm, 523, rfl⟩
abbrev main_v346 : Ref sig .tc := ⟨.hbm, 524, rfl⟩
abbrev main_v347 : Ref sig .tc := ⟨.hbm, 525, rfl⟩
abbrev main_v348 : Ref sig .tc := ⟨.hbm, 526, rfl⟩
abbrev main_v349 : Ref sig .tc := ⟨.hbm, 527, rfl⟩

abbrev nD : Nat := 1
abbrev τ : Topo := Topo.v7x

variable {F : FTy → Type} [FloatOps F]

class Facts₀ : Prop where
  slices_S2x5000x5000_S1x5000x5000_0_0_0 : S2x5000x5000.Slices ![0, 0, 0] S1x5000x5000
  shapeCasts_S1x5000x5000_S5000x5000 : S1x5000x5000.ShapeCasts S5000x5000
  reducesTo_S5000x5000_S5000_d0 : S5000x5000.ReducesTo [0] S5000
  h_S_ : 0 < S_.numel
  bcast_S_S5000 : S_.BroadcastsInDim S5000 (![] : Fin 0 → Fin S5000.rank)
  bcast_S5000_S1x5000_1 : S5000.BroadcastsInDim S1x5000 (![1] : Fin 1 → Fin S1x5000.rank)
  bcast_S_S1x5000 : S_.BroadcastsInDim S1x5000 (![] : Fin 0 → Fin S1x5000.rank)
  bcast_S1x5000_S5000x5000_0_1 : S1x5000.BroadcastsInDim S5000x5000 (![0, 1] : Fin 2 → Fin S5000x5000.rank)
  slices_S2x5000_S1x5000_0_0 : S2x5000.Slices ![0, 0] S1x5000
  shapeCasts_S1x5000_S5000 : S1x5000.ShapeCasts S5000
  slices_S2x5000x128_S1x5000x128_0_0_0 : S2x5000x128.Slices ![0, 0, 0] S1x5000x128
  shapeCasts_S1x5000x128_S5000x128 : S1x5000x128.ShapeCasts S5000x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S5000x128_0_1 : S1x128.BroadcastsInDim S5000x128 (![0, 1] : Fin 2 → Fin S5000x128.rank)
  bcast_S_S5000x128 : S_.BroadcastsInDim S5000x128 (![] : Fin 0 → Fin S5000x128.rank)
  slices_S2x8x128x128_S1x1x128x128_0_0_0_0 : S2x8x128x128.Slices ![0, 0, 0, 0] S1x1x128x128
  shapeCasts_S1x1x128x128_S128x128 : S1x1x128x128.ShapeCasts S128x128
  slices_S2x8x128x128_S1x1x128x128_0_1_0_0 : S2x8x128x128.Slices ![0, 1, 0, 0] S1x1x128x128
  slices_S2x8x128x128_S1x1x128x128_0_2_0_0 : S2x8x128x128.Slices ![0, 2, 0, 0] S1x1x128x128
  slices_S2x8x128x128_S1x1x128x128_0_3_0_0 : S2x8x128x128.Slices ![0, 3, 0, 0] S1x1x128x128
  slices_S2x8x128x128_S1x1x128x128_0_4_0_0 : S2x8x128x128.Slices ![0, 4, 0, 0] S1x1x128x128
  slices_S2x8x128x128_S1x1x128x128_0_5_0_0 : S2x8x128x128.Slices ![0, 5, 0, 0] S1x1x128x128
  slices_S2x8x128x128_S1x1x128x128_0_6_0_0 : S2x8x128x128.Slices ![0, 6, 0, 0] S1x1x128x128
  slices_S2x8x128x128_S1x1x128x128_0_7_0_0 : S2x8x128x128.Slices ![0, 7, 0, 0] S1x1x128x128
  slices_S2x5000x5000_S1x5000x5000_1_0_0 : S2x5000x5000.Slices ![1, 0, 0] S1x5000x5000
  slices_S2x5000_S1x5000_1_0 : S2x5000.Slices ![1, 0] S1x5000
  slices_S2x5000x128_S1x5000x128_1_0_0 : S2x5000x128.Slices ![1, 0, 0] S1x5000x128
  slices_S2x128_S1x128_1_0 : S2x128.Slices ![1, 0] S1x128
  slices_S2x8x128x128_S1x1x128x128_1_0_0_0 : S2x8x128x128.Slices ![1, 0, 0, 0] S1x1x128x128
  slices_S2x8x128x128_S1x1x128x128_1_1_0_0 : S2x8x128x128.Slices ![1, 1, 0, 0] S1x1x128x128
  slices_S2x8x128x128_S1x1x128x128_1_2_0_0 : S2x8x128x128.Slices ![1, 2, 0, 0] S1x1x128x128
  slices_S2x8x128x128_S1x1x128x128_1_3_0_0 : S2x8x128x128.Slices ![1, 3, 0, 0] S1x1x128x128
  slices_S2x8x128x128_S1x1x128x128_1_4_0_0 : S2x8x128x128.Slices ![1, 4, 0, 0] S1x1x128x128
  slices_S2x8x128x128_S1x1x128x128_1_5_0_0 : S2x8x128x128.Slices ![1, 5, 0, 0] S1x1x128x128
  slices_S2x8x128x128_S1x1x128x128_1_6_0_0 : S2x8x128x128.Slices ![1, 6, 0, 0] S1x1x128x128
  slices_S2x8x128x128_S1x1x128x128_1_7_0_0 : S2x8x128x128.Slices ![1, 7, 0, 0] S1x1x128x128
  concatenates_S5000x128_S5000x128_S5000x256_d1 : Shape.Concatenates [S5000x128, S5000x128] S5000x256 1
  dot_S5000x5000_S5000x128_S5000x128_1_0_0_1_n_n_wf : DotDims.WF S5000x5000 S5000x128 S5000x128 [1] [0] [0] [1] [] []
  dot_S5000x128_S128x128_S5000x128_1_0_0_1_n_n_wf : DotDims.WF S5000x128 S128x128 S5000x128 [1] [0] [0] [1] [] []
  dot_S5000x256_S256x128_S5000x128_1_0_0_1_n_n_wf : DotDims.WF S5000x256 S256x128 S5000x128 [1] [0] [0] [1] [] []
  dot_S5000x128_S128x5000_S5000x5000_1_0_0_1_n_n_wf : DotDims.WF S5000x128 S128x5000 S5000x5000 [1] [0] [0] [1] [] []

variable [Facts₀]

def dot_S5000x5000_S5000x128_S5000x128_1_0_0_1_n_n : DotDims S5000x5000 S5000x128 S5000x128 where
  lhsContracting := [1]
  rhsContracting := [0]
  lhsNonContracting := [0]
  rhsNonContracting := [1]
  lhsBatch := []
  rhsBatch := []
  wf := dot_S5000x5000_S5000x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x5000_S5000x5000_1_0_0_1_n_n : DotDims S5000x128 S128x5000 S5000x5000 where
  lhsContracting := [1]
  rhsContracting := [0]
  lhsNonContracting := [0]
  rhsNonContracting := [1]
  lhsBatch := []
  rhsBatch := []
  wf := dot_S5000x128_S128x5000_S5000x5000_1_0_0_1_n_n_wf

class Facts : Prop extends Facts₀ where

variable [Facts]
-- ==== Proof.K.Reg0Run.lean ====
/-
  Region 0 (the column statistics): the body's two control cases as triples on whole staging memrefs.
  At the first row block of a view the body stores the block's column sums and sums of squares; at a later row
  block it adds them to what the two output buffers hold.
-/
import proofs.«129426_g120259084709_cont_main3_741_6_alg».proof.Proof.Gen.Kernel.Launch
import proofs.«129426_g120259084709_cont_main3_741_6_alg».proof.Proof.Gen.Kernel.Skeleton
import proofs.«129426_g120259084709_cont_main3_741_6_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two control cases, in closed form over the grid -/

/-- The first condition holds exactly at the first row block of a view, -/
theorem hcond0_1 : ∀ t : Fin cfg0.N, k0_cond1 (grid0.coords t) = 1#1 ↔ t.val % 5 = 0 :=
  (by decide +kernel : ∀ t : Fin grid0.N, k0_cond1 (grid0.coords t) = 1#1 ↔ t.val % 5 = 0)
/-- the second exactly at the others. -/
theorem hcond0_2 : ∀ t : Fin cfg0.N, k0_cond2 (grid0.coords t) = 1#1 ↔ ¬t.val % 5 = 0 :=
  (by decide +kernel : ∀ t : Fin grid0.N, k0_cond2 (grid0.coords t) = 1#1 ↔ ¬t.val % 5 = 0)

/-- The two output windows are idle nowhere: one of the two conditions holds at every point. -/
theorem liveAt0_1 : ∀ t : Fin cfg0.N, cfg0.idle 1 (grid0.coords t) = false := by decide +kernel
theorem liveAt0_2 : ∀ t : Fin cfg0.N, cfg0.idle 2 (grid0.coords t) = false := by decide +kernel

/-- The zero offsets, as the program spells them. -/
theorem hz_in : (![0, 0, 0] : Fin S1x1000x5000.rank → ℕ) = fun _ => 0 := by
  funext a; fin_cases a <;> rfl
theorem hz_out : (![0, 0, 0] : Fin S1x1x5000.rank → ℕ) = fun _ => 0 := by
  funext a; fin_cases a <;> rfl

/-- One store through the whole output block covers it. -/
theorem cover_out (p : Vec F S1x1x5000 .f32) (y : S1x1x5000.Idx) :
    ∃ pc ∈ ([⟨Rect.unit ![0, 0, 0] S1x1x5000.size inb_S1x1x5000_S1x1x5000_0_0_0, p⟩] : List (View.Piece (Elt F) S1x1x5000 .f32)), y ∈ pc.1.set :=
  ⟨_, List.mem_singleton_self _, View.mem_set_unit_zero hz_out inb_S1x1x5000_S1x1x5000_0_0_0 y⟩

/-! ## The body's triples -/

set_option maxHeartbeats 1000000 in
/-- At a first row block: the input's buffer at `x0`, the outputs' at anything; the body leaves the block's column
    sums in the first output buffer and its column sums of squares in the second. -/
theorem sound_kernel0_A (c : Dev nD) (E : Set ℕ) (i : grid0.Coords)
    (arg2 : Memref sig .tc .vmem S1x1000x5000 .f32) (harg2 : arg2.IsWhole)
    (arg3 : Memref sig .tc .vmem S1x1x5000 .f32) (harg3 : arg3.IsWhole)
    (arg4 : Memref sig .tc .vmem S1x1x5000 .f32) (harg4 : arg4.IsWhole)
    (hc1 : k0_cond1 i = 1#1) (hc2 : ¬k0_cond2 i = 1#1)
    (x0 : Vec F S1x1000x5000 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (k0_pay4 x0)
            ∗ owns (c : Thread nD τ) arg4 fullShare (k0_pay5 x0)) -∗ K ⟨⟩))
      ⊢ wp frame (wpE (defs₀ (F := F)) Variants.none c none) E (cc0__stats_kernel i arg2 harg2 arg3 harg3 arg4 harg4) K := by
  simp only [cc0__stats_kernel_eq_skeleton]; unfold cc0__stats_kernel_skel
  unfold owns
  iintro ⟨⟨%f0, %hf0, H0⟩, ⟨%d1, %f1, -, H1⟩, ⟨%d2, %f2, -, H2⟩, Hk⟩
  subst hf0
  sl_exec (disch := first | exact hc1 | exact hc2)
  sl_step
  iapply Hk
  isplitl [H0]
  · iexists f0; isplitr; · ipureintro; rfl
    iexact H0
  isplitl [H1]
  · iexists _; isplitr
    swap; · iexact H1
    ipureintro
    rw [View.read_writes_eq_canon _ _ _ (cover_out _),
      View.canon_unit_zero hz_out]
    simp only [View.readAt_eq_ld, View.ld_unit_zero (S := S1x1000x5000) hz_in]
  · iexists _; isplitr
    swap; · iexact H2
    ipureintro
    rw [View.read_writes_eq_canon _ _ _ (cover_out _),
      View.canon_unit_zero hz_out]
    simp only [View.readAt_eq_ld, View.ld_unit_zero (S := S1x1000x5000) hz_in]

set_option maxHeartbeats 1000000 in
/-- At a later row block: the input's buffer at `x0`, the outputs' at the running sums `xo1`, `xo2`; the body adds
    the block's column sums to the first and its column sums of squares to the second. -/
theorem sound_kernel0_B (c : Dev nD) (E : Set ℕ) (i : grid0.Coords)
    (arg2 : Memref sig .tc .vmem S1x1000x5000 .f32) (harg2 : arg2.IsWhole)
    (arg3 : Memref sig .tc .vmem S1x1x5000 .f32) (harg3 : arg3.IsWhole)
    (arg4 : Memref sig .tc .vmem S1x1x5000 .f32) (harg4 : arg4.IsWhole)
    (hc1 : ¬k0_cond1 i = 1#1) (hc2 : k0_cond2 i = 1#1)
    (x0 : Vec F S1x1000x5000 .f32) (xo1 xo2 : Vec F S1x1x5000 .f32) (K : PUnit → sProp 𝕄) :
    iprop(owns (c : Thread nD τ) arg2 fullShare x0 ∗ owns (c : Thread nD τ) arg3 fullShare xo1 ∗ owns (c : Thread nD τ) arg4 fullShare xo2
        ∗ (iprop(owns (c : Thread nD τ) arg2 fullShare x0 ∗ owns (c : Thread nD τ) arg3 fullShare (k0_pay6 x0 xo1)
            ∗ owns (c : Thread nD τ) arg4 fullShare (k0_pay7 x0 xo2)) -∗ K ⟨⟩))
      ⊢ wp frame (wpE (defs₀ (F := F)) Variants.none c none) E (cc0__stats_kernel i arg2 harg2 arg3 harg3 arg4 harg4) K := by
  simp only [cc0__stats_kernel_eq_skeleton]; unfold cc0__stats_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists _; isplitr
    swap; · iexact H1
    ipureintro
    rw [View.read_writes_eq_canon _ _ _ (cover_out _),
      View.canon_unit_zero hz_out]
    simp only [View.readAt_eq_ld, View.ld_unit_zero (S := S1x1000x5000) hz_in, View.ld_unit_zero (S := S1x1x5000) hz_out]
  · iexists _; isplitr
    swap; · iexact H2
    ipureintro
    rw [View.read_writes_eq_canon _ _ _ (cover_out _),
      View.canon_unit_zero hz_out]
    simp only [View.readAt_eq_ld, View.ld_unit_zero (S := S1x1000x5000) hz_in, View.ld_unit_zero (S := S1x1x5000) hz_out]

end Region0

end Cert.Kernel.Hand

end
-- ==== Proof.K.Reg0.lean ====
/-
  Region 0 (the column statistics): the proof data of its pipeline at the region-entry contents, and the body
  obligation.  The two output blocks of a view are revisited over its five row blocks: what their buffers hold
  after a point is the running column sums (sums of squares) of the row blocks of the view met so far.
-/
import proofs.«129426_g120259084709_cont_main3_741_6_alg».proof.Proof.K.Reg0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- The two output windows are idle at no coordinates: the second grid coordinate is zero or it is not. -/
theorem hlive0_1 (i : grid0.Coords) : cfg0.idle 1 i = false := by
  show (!(k0_cond1 i == 1#1) && !(k0_cond2 i == 1#1)) = false
  unfold k0_cond1 k0_cond2
  dsimp only
  generalize i 1 = j
  revert j
  decide

theorem hlive0_2 (i : grid0.Coords) : cfg0.idle 2 i = false := by
  show (!(k0_cond1 i == 1#1) && !(k0_cond2 i == 1#1)) = false
  unfold k0_cond1 k0_cond2
  dsimp only
  generalize i 1 = j
  revert j
  decide

/-! ## What the two output buffers hold after each point -/

/-- The running column sums after the body at position `n`: at the first row block of a view the block's own,
    at a later one the block's added to what the point before left. -/
def sumAt0 (c : Dev nD) : (n : ℕ) → n < cfg0.N → Vec F S1x1x5000 .f32
  | 0, hn => k0_pay4 (iblk0 V c 0 ⟨0, hn⟩)
  | n + 1, hn =>
    if (n + 1) % 5 = 0 then k0_pay4 (iblk0 V c 0 ⟨n + 1, hn⟩)
    else k0_pay6 (iblk0 V c 0 ⟨n + 1, hn⟩) (sumAt0 c n (Nat.lt_of_succ_lt hn))

/-- The running column sums of squares, likewise. -/
def sqAt0 (c : Dev nD) : (n : ℕ) → n < cfg0.N → Vec F S1x1x5000 .f32
  | 0, hn => k0_pay5 (iblk0 V c 0 ⟨0, hn⟩)
  | n + 1, hn =>
    if (n + 1) % 5 = 0 then k0_pay5 (iblk0 V c 0 ⟨n + 1, hn⟩)
    else k0_pay7 (iblk0 V c 0 ⟨n + 1, hn⟩) (sqAt0 c n (Nat.lt_of_succ_lt hn))

theorem sumAt0_A (c : Dev nD) (t : Fin cfg0.N) (h0 : t.val % 5 = 0) :
    sumAt0 V c t.val t.isLt = k0_pay4 (iblk0 V c 0 t) := by
  obtain ⟨n, hn⟩ := t
  cases n with
  | zero => exact rfl
  | succ n => exact (if_pos h0).trans rfl

theorem sumAt0_B (c : Dev nD) (t : Fin cfg0.N) (h0 : ¬t.val % 5 = 0) :
    sumAt0 V c t.val t.isLt = k0_pay6 (iblk0 V c 0 t) (sumAt0 V c (t.val - 1) (Nat.lt_of_le_of_lt (Nat.sub_le _ _) t.isLt)) := by
  obtain ⟨n, hn⟩ := t
  cases n with
  | zero => exact absurd (Nat.zero_mod _) h0
  | succ n => exact (if_neg h0).trans rfl

theorem sqAt0_A (c : Dev nD) (t : Fin cfg0.N) (h0 : t.val % 5 = 0) :
    sqAt0 V c t.val t.isLt = k0_pay5 (iblk0 V c 0 t) := by
  obtain ⟨n, hn⟩ := t
  cases n with
  | zero => exact rfl
  | succ n => exact (if_pos h0).trans rfl

theorem sqAt0_B (c : Dev nD) (t : Fin cfg0.N) (h0 : ¬t.val % 5 = 0) :
    sqAt0 V c t.val t.isLt = k0_pay7 (iblk0 V c 0 t) (sqAt0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of pipeline 0 on core `c`: the arrays as the region finds them; after the body at point `t` the
    input's buffer at its block, the two outputs' at the running sums; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => sumAt0 V c t.val t.isLt
    | ⟨2, _⟩ => sqAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = sumAt0 V c t.val t.isLt := by dsimp only [dat0]
theorem after0_2 (c : Dev nD) (t : Fin cfg0.N) : (dat0 V c).after 2 t = sqAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- At a later row block an output's current buffer holds what the body left at the point before: the point is not
    the first, the buffer was not written back between, the window is idle nowhere and uncut. -/
theorem before0_1_B (c : Dev nD) (t : Fin cfg0.N) (h0 : ¬t.val % 5 = 0) (d) :
    (dat0 V c).before 1 t d = sumAt0 V c (t.val - 1) (Nat.lt_of_le_of_lt (Nat.sub_le _ _) t.isLt) := by
  have hN : t.val < 10 := lt_of_lt_of_eq t.isLt (show cfg0.N = 10 from N_0)
  rw [Dat.before_out_kept _ 1 rfl t (by omega) (Bool.eq_false_iff.mpr fun h => by have := (flush0_1 _).mp h; dsimp only at this; omega)
    hlive0_1 (fun _ _ => rfl)]
  dsimp only [dat0]

theorem before0_2_B (c : Dev nD) (t : Fin cfg0.N) (h0 : ¬t.val % 5 = 0) (d) :
    (dat0 V c).before 2 t d = sqAt0 V c (t.val - 1) (Nat.lt_of_le_of_lt (Nat.sub_le _ _) t.isLt) := by
  have hN : t.val < 10 := lt_of_lt_of_eq t.isLt (show cfg0.N = 10 from N_0)
  rw [Dat.before_out_kept _ 2 rfl t (by omega) (Bool.eq_false_iff.mpr fun h => by have := (flush0_2 _).mp h; dsimp only at this; omega)
    hlive0_2 (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ (dat0 V c).leavesExact 1 t
    ∗ (dat0 V c).leavesExact 2 t)

set_option maxHeartbeats 800000 in
/-- The body at any point: the input's memref holds its block; the closed forms say which case the point is in; at a
    later row block the outputs hold what the point before left; so the case's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    show (dat0 V c).leavesExact 1 t = owns (c : Thread nD τ) (st0_1 t) fullShare ((dat0 V c).after 1 t) from by
      unfold Dat.leavesExact; rw [liveAt0_1 t],
    show (dat0 V c).leavesExact 2 t = owns (c : Thread nD τ) (st0_2 t) fullShare ((dat0 V c).after 2 t) from by
      unfold Dat.leavesExact; rw [liveAt0_2 t],
    after0_0, after0_1, after0_2]
  have hN : t.val < 10 := lt_of_lt_of_eq t.isLt (show cfg0.N = 10 from N_0)
  by_cases h0 : t.val % 5 = 0
  · rw [sumAt0_A V c t h0, sqAt0_A V c t h0]
    iintro ⟨HΦ, Ho, ⟨%d0, H0⟩, ⟨%d1, H1⟩, ⟨%d2, H2⟩⟩
    iapply (sound_kernel0_A c Set.univ (grid0.coords t) _ _ _ _ _ _ ((hcond0_1 t).mpr h0) (fun h => (hcond0_2 t).mp h h0) (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [sumAt0_B V c t h0, sqAt0_B V c t h0]
    simp only [before0_1_B V c t h0, before0_2_B V c t h0]
    iintro ⟨HΦ, Ho, ⟨%d0, H0⟩, ⟨%d1, H1⟩, ⟨%d2, H2⟩⟩
    iapply (sound_kernel0_B c Set.univ (grid0.coords t) _ _ _ _ _ _ (fun h => h0 ((hcond0_1 t).mp h)) ((hcond0_2 t).mpr h0) (iblk0 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1.lean ====
/-
  Region 1 of the program: the fused normalise / input-projection / leaky-rectifier call on the grid (2, 5).
  Eight windows: the feature block, the column sums and sums of squares, the scale and shift rows, the input
  weights, the bias row, and the output block.  One control case, one whole-block store (class A).
  At a parameter `V`, the TensorCore's buffer contents when the region is entered: each window's block at a point,
  what the body leaves in the output buffer, the body's triple, the proof data and the body obligation.
  Generic in the float instance.
-/
import proofs.«129426_g120259084709_cont_main3_741_6_alg».proof.Proof.Gen.Kernel.Launch
import proofs.«129426_g120259084709_cont_main3_741_6_alg».proof.Proof.Gen.Kernel.Skeleton
import proofs.«129426_g120259084709_cont_main3_741_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s (`hA`) and whose body leaves the block in place (`hafter`): unfetched, the block index
    has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1x1000x5000 := Rect.unit (s := S1x1000x5000) ![0, 0, 0] S1x1000x5000.size inb_S1x1000x5000_S1x1000x5000_0_0_0
abbrev r1_1 : Rect S1x1x5000 := Rect.unit (s := S1x1x5000) ![0, 0, 0] S1x1x5000.size inb_S1x1x5000_S1x1x5000_0_0_0
abbrev r1_5 : Rect S1x5000x128 := Rect.unit (s := S1x5000x128) ![0, 0, 0] S1x5000x128.size inb_S1x5000x128_S1x5000x128_0_0_0
abbrev r1_6 : Rect S1x1x128 := Rect.unit (s := S1x1x128) ![0, 0, 0] S1x1x128.size inb_S1x1x128_S1x1x128_0_0_0
abbrev r1_7 : Rect S1x1000x128 := Rect.unit (s := S1x1000x128) ![0, 0, 0] S1x1000x128.size inb_S1x1000x128_S1x1000x128_0_0_0

/-! ## What the body leaves in the output window's buffer -/

/-- Window 7's staging buffer after the body, from the input windows' blocks: its one store, of the rectified
    projection of the normalised features. -/
def out1_7 (x0 : Vec F S1x1000x5000 .f32) (x1 : Vec F S1x1x5000 .f32) (x2 : Vec F S1x1x5000 .f32) (x3 : Vec F S1x1x5000 .f32) (x4 : Vec F S1x1x5000 .f32) (x5 : Vec F S1x5000x128 .f32) (x6 : Vec F S1x1x128 .f32) : Vec F S1x1000x128 .f32 :=
  View.canon [⟨r1_7, k1_pay1 (k1_pay2 (View.ld x0 r1_0) (View.ld x1 r1_1) (View.ld x2 r1_1) (View.ld x3 r1_1) (View.ld x4 r1_1) (View.ld x5 r1_5) (View.ld x6 r1_6))⟩]

/-- The store tiles the buffer (checked by evaluation), so it covers it. -/
theorem cover1_7 (p0 : Vec F S1x1000x128 .f32) (y : S1x1000x128.Idx) :
    ∃ pc ∈ ([⟨r1_7, p0⟩] : List (View.Piece (Elt F) S1x1000x128 .f32)), y ∈ pc.1.set :=
  View.cover_of_tiled [⟨r1_7, p0⟩] S1x1000x128.size (by rfl) y

/-! ## The body's triple -/

set_option maxHeartbeats 1000000 in
/-- The kernel body on whole staging memrefs, the inputs' at read contents `xW` and the output's at anything, runs to
    the continuation holding the inputs' as they were and the output's at `out1_7` of the inputs'. -/
theorem sound_kernel1 (c : Dev nD) (E : Set ℕ) (i : grid1.Coords) (arg2 : Memref sig .tc .vmem S1x1000x5000 .f32) (harg2 : arg2.IsWhole) (arg3 : Memref sig .tc .vmem S1x1x5000 .f32) (harg3 : arg3.IsWhole) (arg4 : Memref sig .tc .vmem S1x1x5000 .f32) (harg4 : arg4.IsWhole) (arg5 : Memref sig .tc .vmem S1x1x5000 .f32) (harg5 : arg5.IsWhole) (arg6 : Memref sig .tc .vmem S1x1x5000 .f32) (harg6 : arg6.IsWhole) (arg7 : Memref sig .tc .vmem S1x5000x128 .f32) (harg7 : arg7.IsWhole) (arg8 : Memref sig .tc .vmem S1x1x128 .f32) (harg8 : arg8.IsWhole) (arg9 : Memref sig .tc .vmem S1x1000x128 .f32) (harg9 : arg9.IsWhole)
    (x0 : Vec F S1x1000x5000 .f32) (x1 : Vec F S1x1x5000 .f32) (x2 : Vec F S1x1x5000 .f32) (x3 : Vec F S1x1x5000 .f32) (x4 : Vec F S1x1x5000 .f32) (x5 : Vec F S1x5000x128 .f32) (x6 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 x0 x1 x2 x3 x4 x5 x6)) -∗ K ⟨⟩))
      ⊢ wp frame (wpE (defs₀ (F := F)) Variants.none c none) E (cc1__inproj_kernel i arg2 harg2 arg3 harg3 arg4 harg4 arg5 harg5 arg6 harg6 arg7 harg7 arg8 harg8 arg9 harg9) K := by
  simp only [cc1__inproj_kernel_eq_skeleton]; unfold cc1__inproj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and the output's at `out1_7` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Reg2.lean ====
/-
  Region 2 of the kernel program's @main: one propagation layer, custom_call 2 (`cc2__layer_kernel`,
  pipeline 2), on the grid (2, 5), stated at a parameter `V` — the TensorCore's buffer contents when the
  region is entered. Per window its block at a point (`iblk2`); what the body leaves in the output
  window's staging buffer (`out2_4`: the single full-block store of the skeleton's payload); the body's
  triple on whole staging memrefs (`sound_kernel2`); the pipeline's proof data (`dat2`: arrays as found,
  full shares, nothing owed) and the body obligation at every point (`body_obligation2`).
  Generic in the float instance.
-/
import proofs.«129426_g120259084709_cont_main3_741_6_alg».proof.Proof.Gen.Kernel.Launch
import proofs.«129426_g120259084709_cont_main3_741_6_alg».proof.Proof.Gen.Kernel.Skeleton
import proofs.«129426_g120259084709_cont_main3_741_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an unfetched
    point has the block index of the point before), for any proof data whose array is `V`'s and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an unfetched
    point has the block index of the point before), for any proof data whose array is `V`'s and whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an unfetched
    point has the block index of the point before), for any proof data whose array is `V`'s and whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (an unfetched
    point has the block index of the point before), for any proof data whose array is `V`'s and whose body
    leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole staging buffer -/

abbrev r2_0 : Rect S1x5000x128 := Rect.unit (s := S1x5000x128) ![0, 0, 0] S1x5000x128.size inb_S1x5000x128_S1x5000x128_0_0_0
abbrev r2_1 : Rect S1x1000x5000 := Rect.unit (s := S1x1000x5000) ![0, 0, 0] S1x1000x5000.size inb_S1x1000x5000_S1x1000x5000_0_0_0
abbrev r2_2 : Rect S1x1000x128 := Rect.unit (s := S1x1000x128) ![0, 0, 0] S1x1000x128.size inb_S1x1000x128_S1x1000x128_0_0_0
abbrev r2_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out2_4 (x0 : Vec F S1x1000x5000 .bf16) (x1 : Vec F S1x5000x128 .f32) (x2 : Vec F S1x1000x128 .f32) (x3 : Vec F S1x128x128 .f32) :
    Vec F S1x1000x128 .f32 :=
  View.canon [⟨r2_2, k2_pay1 (View.ld x1 r2_0) (View.ld x0 r2_1) (View.ld x2 r2_2) (View.ld x3 r2_3)⟩]

/-- The store tiles the buffer, so it covers it. -/
theorem cover2_4 (p0 : Vec F S1x1000x128 .f32) (y : S1x1000x128.Idx) :
    ∃ pc ∈ ([⟨r2_2, p0⟩] : List (View.Piece (Elt F) S1x1000x128 .f32)), y ∈ pc.1.set :=
  View.cover_of_tiled [⟨r2_2, p0⟩] S1x1000x128.size (by rfl) y

/-! ## The body's triple -/

set_option maxHeartbeats 1000000 in
/-- The kernel body on whole staging memrefs, the inputs' at read contents `xW` and the output's at anything, runs to
    the continuation holding the inputs' as they were and the output's at `out2_4` of the inputs'. -/
theorem sound_kernel2 (c : Dev nD) (E : Set ℕ) (i : grid2.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2__layer_kernel i arg2 harg2 arg3 harg3 arg4 harg4 arg5 harg5 arg6 harg6) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and the output's at `out2_4` of the input blocks; the class's
    invariant (the scoped rest and the generator register, untouched); nothing owed; windows 1 and 2 read one
    array, held half and half (the left and the right half of the full share), every other array at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q w := match w with
    | ⟨1, _⟩ => fullShare.left
    | ⟨2, _⟩ => fullShare.right
    | _ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3 of the kernel program's @main: one propagation layer, custom_call 3 (`cc3__layer_kernel`,
  pipeline 3), on the grid (2, 5), stated at a parameter `V` — the TensorCore's buffer contents when the
  region is entered. Per window its block at a point (`iblk3`); what the body leaves in the output
  window's staging buffer (`out3_4`: the single full-block store of the skeleton's payload); the body's
  triple on whole staging memrefs (`sound_kernel3`); the pipeline's proof data (`dat3`: arrays as found,
  full shares, nothing owed) and the body obligation at every point (`body_obligation3`).
  Generic in the float instance.
-/
import proofs.«129426_g120259084709_cont_main3_741_6_alg».proof.Proof.Gen.Kernel.Launch
import proofs.«129426_g120259084709_cont_main3_741_6_alg».proof.Proof.Gen.Kernel.Skeleton
import proofs.«129426_g120259084709_cont_main3_741_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (an unfetched
    point has the block index of the point before), for any proof data whose array is `V`'s and whose body
    leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (an unfetched
    point has the block index of the point before), for any proof data whose array is `V`'s and whose body
    leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (an unfetched
    point has the block index of the point before), for any proof data whose array is `V`'s and whose body
    leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (an unfetched
    point has the block index of the point before), for any proof data whose array is `V`'s and whose body
    leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole staging buffer -/

abbrev r3_0 : Rect S1x5000x128 := Rect.unit (s := S1x5000x128) ![0, 0, 0] S1x5000x128.size inb_S1x5000x128_S1x5000x128_0_0_0
abbrev r3_1 : Rect S1x1000x5000 := Rect.unit (s := S1x1000x5000) ![0, 0, 0] S1x1000x5000.size inb_S1x1000x5000_S1x1000x5000_0_0_0
abbrev r3_2 : Rect S1x1000x128 := Rect.unit (s := S1x1000x128) ![0, 0, 0] S1x1000x128.size inb_S1x1000x128_S1x1000x128_0_0_0
abbrev r3_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out3_4 (x0 : Vec F S1x1000x5000 .bf16) (x1 : Vec F S1x5000x128 .f32) (x2 : Vec F S1x1000x128 .f32) (x3 : Vec F S1x128x128 .f32) :
    Vec F S1x1000x128 .f32 :=
  View.canon [⟨r3_2, k3_pay1 (View.ld x1 r3_0) (View.ld x0 r3_1) (View.ld x2 r3_2) (View.ld x3 r3_3)⟩]

/-- The store tiles the buffer, so it covers it. -/
theorem cover3_4 (p0 : Vec F S1x1000x128 .f32) (y : S1x1000x128.Idx) :
    ∃ pc ∈ ([⟨r3_2, p0⟩] : List (View.Piece (Elt F) S1x1000x128 .f32)), y ∈ pc.1.set :=
  View.cover_of_tiled [⟨r3_2, p0⟩] S1x1000x128.size (by rfl) y

/-! ## The body's triple -/

set_option maxHeartbeats 1000000 in
/-- The kernel body on whole staging memrefs, the inputs' at read contents `xW` and the output's at anything, runs to
    the continuation holding the inputs' as they were and the output's at `out3_4` of the inputs'. -/
theorem sound_kernel3 (c : Dev nD) (E : Set ℕ) (i : grid3.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out3_4 x0 x1 x2 x3)) -∗ K ⟨⟩))
      ⊢ wp frame (wpE (defs₀ (F := F)) Variants.none c none) E (cc3__layer_kernel i arg2 harg2 arg3 harg3 arg4 harg4 arg5 harg5 arg6 harg6) K := by
  simp only [cc3__layer_kernel_eq_skeleton]; unfold cc3__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the region finds them (`V`); after the body at
    point `t` each input's buffer at its block and the output's at `out3_4` of the input blocks; the class's
    invariant (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  Region 4 of the kernel program's @main: one propagation layer, custom_call 4 (`cc4__layer_kernel`,
  pipeline 4), on the grid (2, 5), stated at a parameter `V` — the TensorCore's buffer contents when the
  region is entered. Per window its block at a point (`iblk4`); what the body leaves in the output
  window's staging buffer (`out4_4`: the single full-block store of the skeleton's payload); the body's
  triple on whole staging memrefs (`sound_kernel4`); the pipeline's proof data (`dat4`: arrays as found,
  full shares, nothing owed) and the body obligation at every point (`body_obligation4`).
  Generic in the float instance.
-/
import proofs.«129426_g120259084709_cont_main3_741_6_alg».proof.Proof.Gen.Kernel.Launch
import proofs.«129426_g120259084709_cont_main3_741_6_alg».proof.Proof.Gen.Kernel.Skeleton
import proofs.«129426_g120259084709_cont_main3_741_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (an unfetched
    point has the block index of the point before), for any proof data whose array is `V`'s and whose body
    leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (an unfetched
    point has the block index of the point before), for any proof data whose array is `V`'s and whose body
    leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (an unfetched
    point has the block index of the point before), for any proof data whose array is `V`'s and whose body
    leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (an unfetched
    point has the block index of the point before), for any proof data whose array is `V`'s and whose body
    leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole staging buffer -/

abbrev r4_0 : Rect S1x5000x128 := Rect.unit (s := S1x5000x128) ![0, 0, 0] S1x5000x128.size inb_S1x5000x128_S1x5000x128_0_0_0
abbrev r4_1 : Rect S1x1000x5000 := Rect.unit (s := S1x1000x5000) ![0, 0, 0] S1x1000x5000.size inb_S1x1000x5000_S1x1000x5000_0_0_0
abbrev r4_2 : Rect S1x1000x128 := Rect.unit (s := S1x1000x128) ![0, 0, 0] S1x1000x128.size inb_S1x1000x128_S1x1000x128_0_0_0
abbrev r4_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out4_4 (x0 : Vec F S1x1000x5000 .bf16) (x1 : Vec F S1x5000x128 .f32) (x2 : Vec F S1x1000x128 .f32) (x3 : Vec F S1x128x128 .f32) :
    Vec F S1x1000x128 .f32 :=
  View.canon [⟨r4_2, k4_pay1 (View.ld x1 r4_0) (View.ld x0 r4_1) (View.ld x2 r4_2) (View.ld x3 r4_3)⟩]

/-- The store tiles the buffer, so it covers it. -/
theorem cover4_4 (p0 : Vec F S1x1000x128 .f32) (y : S1x1000x128.Idx) :
    ∃ pc ∈ ([⟨r4_2, p0⟩] : List (View.Piece (Elt F) S1x1000x128 .f32)), y ∈ pc.1.set :=
  View.cover_of_tiled [⟨r4_2, p0⟩] S1x1000x128.size (by rfl) y

/-! ## The body's triple -/

set_option maxHeartbeats 1000000 in
/-- The kernel body on whole staging memrefs, the inputs' at read contents `xW` and the output's at anything, runs to
    the continuation holding the inputs' as they were and the output's at `out4_4` of the inputs'. -/
theorem sound_kernel4 (c : Dev nD) (E : Set ℕ) (i : grid4.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4_4 x0 x1 x2 x3)) -∗ K ⟨⟩))
      ⊢ wp frame (wpE (defs₀ (F := F)) Variants.none c none) E (cc4__layer_kernel i arg2 harg2 arg3 harg3 arg4 harg4 arg5 harg5 arg6 harg6) K := by
  simp only [cc4__layer_kernel_eq_skeleton]; unfold cc4__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core `c`: the arrays as the region finds them (`V`); after the body at
    point `t` each input's buffer at its block and the output's at `out4_4` of the input blocks; the class's
    invariant (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
/-
  Region 5 of the kernel program's @main: one propagation layer, custom_call 5 (`cc5__layer_kernel`,
  pipeline 5), on the grid (2, 5), stated at a parameter `V` — the TensorCore's buffer contents when the
  region is entered. Per window its block at a point (`iblk5`); what the body leaves in the output
  window's staging buffer (`out5_4`: the single full-block store of the skeleton's payload); the body's
  triple on whole staging memrefs (`sound_kernel5`); the pipeline's proof data (`dat5`: arrays as found,
  full shares, nothing owed) and the body obligation at every point (`body_obligation5`).
  Generic in the float instance.
-/
import proofs.«129426_g120259084709_cont_main3_741_6_alg».proof.Proof.Gen.Kernel.Launch
import proofs.«129426_g120259084709_cont_main3_741_6_alg».proof.Proof.Gen.Kernel.Skeleton
import proofs.«129426_g120259084709_cont_main3_741_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (an unfetched
    point has the block index of the point before), for any proof data whose array is `V`'s and whose body
    leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (an unfetched
    point has the block index of the point before), for any proof data whose array is `V`'s and whose body
    leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not (an unfetched
    point has the block index of the point before), for any proof data whose array is `V`'s and whose body
    leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not (an unfetched
    point has the block index of the point before), for any proof data whose array is `V`'s and whose body
    leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole staging buffer -/

abbrev r5_0 : Rect S1x5000x128 := Rect.unit (s := S1x5000x128) ![0, 0, 0] S1x5000x128.size inb_S1x5000x128_S1x5000x128_0_0_0
abbrev r5_1 : Rect S1x1000x5000 := Rect.unit (s := S1x1000x5000) ![0, 0, 0] S1x1000x5000.size inb_S1x1000x5000_S1x1000x5000_0_0_0
abbrev r5_2 : Rect S1x1000x128 := Rect.unit (s := S1x1000x128) ![0, 0, 0] S1x1000x128.size inb_S1x1000x128_S1x1000x128_0_0_0
abbrev r5_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out5_4 (x0 : Vec F S1x1000x5000 .bf16) (x1 : Vec F S1x5000x128 .f32) (x2 : Vec F S1x1000x128 .f32) (x3 : Vec F S1x128x128 .f32) :
    Vec F S1x1000x128 .f32 :=
  View.canon [⟨r5_2, k5_pay1 (View.ld x1 r5_0) (View.ld x0 r5_1) (View.ld x2 r5_2) (View.ld x3 r5_3)⟩]

/-- The store tiles the buffer, so it covers it. -/
theorem cover5_4 (p0 : Vec F S1x1000x128 .f32) (y : S1x1000x128.Idx) :
    ∃ pc ∈ ([⟨r5_2, p0⟩] : List (View.Piece (Elt F) S1x1000x128 .f32)), y ∈ pc.1.set :=
  View.cover_of_tiled [⟨r5_2, p0⟩] S1x1000x128.size (by rfl) y

/-! ## The body's triple -/

set_option maxHeartbeats 1000000 in
/-- The kernel body on whole staging memrefs, the inputs' at read contents `xW` and the output's at anything, runs to
    the continuation holding the inputs' as they were and the output's at `out5_4` of the inputs'. -/
theorem sound_kernel5 (c : Dev nD) (E : Set ℕ) (i : grid5.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out5_4 x0 x1 x2 x3)) -∗ K ⟨⟩))
      ⊢ wp frame (wpE (defs₀ (F := F)) Variants.none c none) E (cc5__layer_kernel i arg2 harg2 arg3 harg3 arg4 harg4 arg5 harg5 arg6 harg6) K := by
  simp only [cc5__layer_kernel_eq_skeleton]; unfold cc5__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them (`V`); after the body at
    point `t` each input's buffer at its block and the output's at `out5_4` of the input blocks; the class's
    invariant (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
/-
  Region 6 of the kernel program's @main: one propagation layer, custom_call 6 (`cc6__layer_kernel`,
  pipeline 6), on the grid (2, 5), stated at a parameter `V` — the TensorCore's buffer contents when the
  region is entered. Per window its block at a point (`iblk6`); what the body leaves in the output
  window's staging buffer (`out6_4`: the single full-block store of the skeleton's payload); the body's
  triple on whole staging memrefs (`sound_kernel6`); the pipeline's proof data (`dat6`: arrays as found,
  full shares, nothing owed) and the body obligation at every point (`body_obligation6`).
  Generic in the float instance.
-/
import proofs.«129426_g120259084709_cont_main3_741_6_alg».proof.Proof.Gen.Kernel.Launch
import proofs.«129426_g120259084709_cont_main3_741_6_alg».proof.Proof.Gen.Kernel.Skeleton
import proofs.«129426_g120259084709_cont_main3_741_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (an unfetched
    point has the block index of the point before), for any proof data whose array is `V`'s and whose body
    leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not (an unfetched
    point has the block index of the point before), for any proof data whose array is `V`'s and whose body
    leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not (an unfetched
    point has the block index of the point before), for any proof data whose array is `V`'s and whose body
    leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not (an unfetched
    point has the block index of the point before), for any proof data whose array is `V`'s and whose body
    leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is the whole staging buffer -/

abbrev r6_0 : Rect S1x5000x128 := Rect.unit (s := S1x5000x128) ![0, 0, 0] S1x5000x128.size inb_S1x5000x128_S1x5000x128_0_0_0
abbrev r6_1 : Rect S1x1000x5000 := Rect.unit (s := S1x1000x5000) ![0, 0, 0] S1x1000x5000.size inb_S1x1000x5000_S1x1000x5000_0_0_0
abbrev r6_2 : Rect S1x1000x128 := Rect.unit (s := S1x1000x128) ![0, 0, 0] S1x1000x128.size inb_S1x1000x128_S1x1000x128_0_0_0
abbrev r6_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out6_4 (x0 : Vec F S1x1000x5000 .bf16) (x1 : Vec F S1x5000x128 .f32) (x2 : Vec F S1x1000x128 .f32) (x3 : Vec F S1x128x128 .f32) :
    Vec F S1x1000x128 .f32 :=
  View.canon [⟨r6_2, k6_pay1 (View.ld x1 r6_0) (View.ld x0 r6_1) (View.ld x2 r6_2) (View.ld x3 r6_3)⟩]

/-- The store tiles the buffer, so it covers it. -/
theorem cover6_4 (p0 : Vec F S1x1000x128 .f32) (y : S1x1000x128.Idx) :
    ∃ pc ∈ ([⟨r6_2, p0⟩] : List (View.Piece (Elt F) S1x1000x128 .f32)), y ∈ pc.1.set :=
  View.cover_of_tiled [⟨r6_2, p0⟩] S1x1000x128.size (by rfl) y

/-! ## The body's triple -/

set_option maxHeartbeats 1000000 in
/-- The kernel body on whole staging memrefs, the inputs' at read contents `xW` and the output's at anything, runs to
    the continuation holding the inputs' as they were and the output's at `out6_4` of the inputs'. -/
theorem sound_kernel6 (c : Dev nD) (E : Set ℕ) (i : grid6.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out6_4 x0 x1 x2 x3)) -∗ K ⟨⟩))
      ⊢ wp frame (wpE (defs₀ (F := F)) Variants.none c none) E (cc6__layer_kernel i arg2 harg2 arg3 harg3 arg4 harg4 arg5 harg5 arg6 harg6) K := by
  simp only [cc6__layer_kernel_eq_skeleton]; unfold cc6__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-! ## The pipeline's proof data -/

/-- The proof data of pipeline 6 on core `c`: the arrays as the region finds them (`V`); after the body at
    point `t` each input's buffer at its block and the output's at `out6_4` of the input blocks; the class's
    invariant (the scoped rest and the generator register, untouched); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) :
    (dat6 V c).after 4 t = out6_4 (iblk6 V c 0 t) (iblk6 V c 1 t) (iblk6 V c 2 t) (iblk6 V c 3 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
/-
  Region 7 of the kernel program's @main: one propagation layer, custom_call 7 (`cc7__layer_kernel`,
  pipeline 7), on the grid (2, 5), stated at a parameter `V` — the TensorCore's buffer contents when the
  region is entered. Per window its block at a point (`iblk7`); what the body leaves in the output
  window's staging buffer (`out7_4`: the single full-block store of the skeleton's payload); the body's
  triple on whole staging memrefs (`sound_kernel7`); the pipeline's proof data (`dat7`: arrays as found,
  full shares, nothing owed) and the body obligation at every point (`body_obligation7`).
  Generic in the float instance.
-/
import proofs.«129426_g120259084709_cont_main3_741_6_alg».proof.Proof.Gen.Kernel.Launch
import proofs.«129426_g120259084709_cont_main3_741_6_alg».proof.Proof.Gen.Kernel.Skeleton
import proofs.«129426_g120259084709_cont_main3_741_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not (an unfetched
    point has the block index of the point before), for any proof data whose array is `V`'s and whose body
    leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not (an unfetched
    point has the block index of the point before), for any proof data whose array is `V`'s and whose body
    leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not (an unfetched
    point has the block index of the point before), for any proof data whose array is `V`'s and whose body
    leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not (an unfetched
    point has the block index of the point before), for any proof data whose array is `V`'s and whose body
    leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each is the whole staging buffer -/

abbrev r7_0 : Rect S1x5000x128 := Rect.unit (s := S1x5000x128) ![0, 0, 0] S1x5000x128.size inb_S1x5000x128_S1x5000x128_0_0_0
abbrev r7_1 : Rect S1x1000x5000 := Rect.unit (s := S1x1000x5000) ![0, 0, 0] S1x1000x5000.size inb_S1x1000x5000_S1x1000x5000_0_0_0
abbrev r7_2 : Rect S1x1000x128 := Rect.unit (s := S1x1000x128) ![0, 0, 0] S1x1000x128.size inb_S1x1000x128_S1x1000x128_0_0_0
abbrev r7_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out7_4 (x0 : Vec F S1x1000x5000 .bf16) (x1 : Vec F S1x5000x128 .f32) (x2 : Vec F S1x1000x128 .f32) (x3 : Vec F S1x128x128 .f32) :
    Vec F S1x1000x128 .f32 :=
  View.canon [⟨r7_2, k7_pay1 (View.ld x1 r7_0) (View.ld x0 r7_1) (View.ld x2 r7_2) (View.ld x3 r7_3)⟩]

/-- The store tiles the buffer, so it covers it. -/
theorem cover7_4 (p0 : Vec F S1x1000x128 .f32) (y : S1x1000x128.Idx) :
    ∃ pc ∈ ([⟨r7_2, p0⟩] : List (View.Piece (Elt F) S1x1000x128 .f32)), y ∈ pc.1.set :=
  View.cover_of_tiled [⟨r7_2, p0⟩] S1x1000x128.size (by rfl) y

/-! ## The body's triple -/

set_option maxHeartbeats 1000000 in
/-- The kernel body on whole staging memrefs, the inputs' at read contents `xW` and the output's at anything, runs to
    the continuation holding the inputs' as they were and the output's at `out7_4` of the inputs'. -/
theorem sound_kernel7 (c : Dev nD) (E : Set ℕ) (i : grid7.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out7_4 x0 x1 x2 x3)) -∗ K ⟨⟩))
      ⊢ wp frame (wpE (defs₀ (F := F)) Variants.none c none) E (cc7__layer_kernel i arg2 harg2 arg3 harg3 arg4 harg4 arg5 harg5 arg6 harg6) K := by
  simp only [cc7__layer_kernel_eq_skeleton]; unfold cc7__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-! ## The pipeline's proof data -/

/-- The proof data of pipeline 7 on core `c`: the arrays as the region finds them (`V`); after the body at
    point `t` each input's buffer at its block and the output's at `out7_4` of the input blocks; the class's
    invariant (the scoped rest and the generator register, untouched); nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (iblk7 V c 0 t) (iblk7 V c 1 t) (iblk7 V c 2 t) (iblk7 V c 3 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Reg8.lean ====
/-
  Region 8 of the kernel program's @main: one propagation layer, custom_call 8 (`cc8__layer_kernel`,
  pipeline 8), on the grid (2, 5), stated at a parameter `V` — the TensorCore's buffer contents when the
  region is entered. Per window its block at a point (`iblk8`); what the body leaves in the output
  window's staging buffer (`out8_4`: the single full-block store of the skeleton's payload); the body's
  triple on whole staging memrefs (`sound_kernel8`); the pipeline's proof data (`dat8`: arrays as found,
  full shares, nothing owed) and the body obligation at every point (`body_obligation8`).
  Generic in the float instance.
-/
import proofs.«129426_g120259084709_cont_main3_741_6_alg».proof.Proof.Gen.Kernel.Launch
import proofs.«129426_g120259084709_cont_main3_741_6_alg».proof.Proof.Gen.Kernel.Skeleton
import proofs.«129426_g120259084709_cont_main3_741_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not (an unfetched
    point has the block index of the point before), for any proof data whose array is `V`'s and whose body
    leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not (an unfetched
    point has the block index of the point before), for any proof data whose array is `V`'s and whose body
    leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not (an unfetched
    point has the block index of the point before), for any proof data whose array is `V`'s and whose body
    leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not (an unfetched
    point has the block index of the point before), for any proof data whose array is `V`'s and whose body
    leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each is the whole staging buffer -/

abbrev r8_0 : Rect S1x5000x128 := Rect.unit (s := S1x5000x128) ![0, 0, 0] S1x5000x128.size inb_S1x5000x128_S1x5000x128_0_0_0
abbrev r8_1 : Rect S1x1000x5000 := Rect.unit (s := S1x1000x5000) ![0, 0, 0] S1x1000x5000.size inb_S1x1000x5000_S1x1000x5000_0_0_0
abbrev r8_2 : Rect S1x1000x128 := Rect.unit (s := S1x1000x128) ![0, 0, 0] S1x1000x128.size inb_S1x1000x128_S1x1000x128_0_0_0
abbrev r8_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out8_4 (x0 : Vec F S1x1000x5000 .bf16) (x1 : Vec F S1x5000x128 .f32) (x2 : Vec F S1x1000x128 .f32) (x3 : Vec F S1x128x128 .f32) :
    Vec F S1x1000x128 .f32 :=
  View.canon [⟨r8_2, k8_pay1 (View.ld x1 r8_0) (View.ld x0 r8_1) (View.ld x2 r8_2) (View.ld x3 r8_3)⟩]

/-- The store tiles the buffer, so it covers it. -/
theorem cover8_4 (p0 : Vec F S1x1000x128 .f32) (y : S1x1000x128.Idx) :
    ∃ pc ∈ ([⟨r8_2, p0⟩] : List (View.Piece (Elt F) S1x1000x128 .f32)), y ∈ pc.1.set :=
  View.cover_of_tiled [⟨r8_2, p0⟩] S1x1000x128.size (by rfl) y

/-! ## The body's triple -/

set_option maxHeartbeats 1000000 in
/-- The kernel body on whole staging memrefs, the inputs' at read contents `xW` and the output's at anything, runs to
    the continuation holding the inputs' as they were and the output's at `out8_4` of the inputs'. -/
theorem sound_kernel8 (c : Dev nD) (E : Set ℕ) (i : grid8.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out8_4 x0 x1 x2 x3)) -∗ K ⟨⟩))
      ⊢ wp frame (wpE (defs₀ (F := F)) Variants.none c none) E (cc8__layer_kernel i arg2 harg2 arg3 harg3 arg4 harg4 arg5 harg5 arg6 harg6) K := by
  simp only [cc8__layer_kernel_eq_skeleton]; unfold cc8__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-! ## The pipeline's proof data -/

/-- The proof data of pipeline 8 on core `c`: the arrays as the region finds them (`V`); after the body at
    point `t` each input's buffer at its block and the output's at `out8_4` of the input blocks; the class's
    invariant (the scoped rest and the generator register, untouched); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) :
    (dat8 V c).after 4 t = out8_4 (iblk8 V c 0 t) (iblk8 V c 1 t) (iblk8 V c 2 t) (iblk8 V c 3 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Reg9.lean ====
/-
  Region 9 of the kernel program's @main: one propagation layer, custom_call 9 (`cc9__layer_kernel`,
  pipeline 9), on the grid (2, 5), stated at a parameter `V` — the TensorCore's buffer contents when the
  region is entered. Per window its block at a point (`iblk9`); what the body leaves in the output
  window's staging buffer (`out9_4`: the single full-block store of the skeleton's payload); the body's
  triple on whole staging memrefs (`sound_kernel9`); the pipeline's proof data (`dat9`: arrays as found,
  full shares, nothing owed) and the body obligation at every point (`body_obligation9`).
  Generic in the float instance.
-/
import proofs.«129426_g120259084709_cont_main3_741_6_alg».proof.Proof.Gen.Kernel.Launch
import proofs.«129426_g120259084709_cont_main3_741_6_alg».proof.Proof.Gen.Kernel.Skeleton
import proofs.«129426_g120259084709_cont_main3_741_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not (an unfetched
    point has the block index of the point before), for any proof data whose array is `V`'s and whose body
    leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not (an unfetched
    point has the block index of the point before), for any proof data whose array is `V`'s and whose body
    leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not (an unfetched
    point has the block index of the point before), for any proof data whose array is `V`'s and whose body
    leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not (an unfetched
    point has the block index of the point before), for any proof data whose array is `V`'s and whose body
    leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each is the whole staging buffer -/

abbrev r9_0 : Rect S1x5000x128 := Rect.unit (s := S1x5000x128) ![0, 0, 0] S1x5000x128.size inb_S1x5000x128_S1x5000x128_0_0_0
abbrev r9_1 : Rect S1x1000x5000 := Rect.unit (s := S1x1000x5000) ![0, 0, 0] S1x1000x5000.size inb_S1x1000x5000_S1x1000x5000_0_0_0
abbrev r9_2 : Rect S1x1000x128 := Rect.unit (s := S1x1000x128) ![0, 0, 0] S1x1000x128.size inb_S1x1000x128_S1x1000x128_0_0_0
abbrev r9_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out9_4 (x0 : Vec F S1x1000x5000 .bf16) (x1 : Vec F S1x5000x128 .f32) (x2 : Vec F S1x1000x128 .f32) (x3 : Vec F S1x128x128 .f32) :
    Vec F S1x1000x128 .f32 :=
  View.canon [⟨r9_2, k9_pay1 (View.ld x1 r9_0) (View.ld x0 r9_1) (View.ld x2 r9_2) (View.ld x3 r9_3)⟩]

/-- The store tiles the buffer, so it covers it. -/
theorem cover9_4 (p0 : Vec F S1x1000x128 .f32) (y : S1x1000x128.Idx) :
    ∃ pc ∈ ([⟨r9_2, p0⟩] : List (View.Piece (Elt F) S1x1000x128 .f32)), y ∈ pc.1.set :=
  View.cover_of_tiled [⟨r9_2, p0⟩] S1x1000x128.size (by rfl) y

/-! ## The body's triple -/

set_option maxHeartbeats 1000000 in
/-- The kernel body on whole staging memrefs, the inputs' at read contents `xW` and the output's at anything, runs to
    the continuation holding the inputs' as they were and the output's at `out9_4` of the inputs'. -/
theorem sound_kernel9 (c : Dev nD) (E : Set ℕ) (i : grid9.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out9_4 x0 x1 x2 x3)) -∗ K ⟨⟩))
      ⊢ wp frame (wpE (defs₀ (F := F)) Variants.none c none) E (cc9__layer_kernel i arg2 harg2 arg3 harg3 arg4 harg4 arg5 harg5 arg6 harg6) K := by
  simp only [cc9__layer_kernel_eq_skeleton]; unfold cc9__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-! ## The pipeline's proof data -/

/-- The proof data of pipeline 9 on core `c`: the arrays as the region finds them (`V`); after the body at
    point `t` each input's buffer at its block and the output's at `out9_4` of the input blocks; the class's
    invariant (the scoped rest and the generator register, untouched); nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Reg10.lean ====
/-
  Region 10 (the head of the network): what the body of the final pipeline leaves in each of its six staging
  buffers at a grid point, the body's triple, the pipeline's proof data at the contents `V` the region is entered
  with, and the body obligation.  Generic in the float instance.
-/
import proofs.«129426_g120259084709_cont_main3_741_6_alg».proof.Proof.Gen.Kernel.Launch
import proofs.«129426_g120259084709_cont_main3_741_6_alg».proof.Proof.Gen.Kernel.Skeleton
import proofs.«129426_g120259084709_cont_main3_741_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is `V`'s and whose body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is `V`'s and whose body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is `V`'s and whose body leaves the block in place. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof
    data whose array is `V`'s and whose body leaves the block in place. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_0 : Rect S1000x256 := Rect.unit (s := S1000x256) ![0, 0] S1000x256.size inb_S1000x256_S1000x256_0_0
abbrev r10_1 : Rect S256x128 := Rect.unit (s := S256x128) ![0, 0] S256x128.size inb_S256x128_S256x128_0_0
abbrev r10_2 : Rect S1x128 := Rect.unit (s := S1x128) ![0, 0] S1x128.size inb_S1x128_S1x128_0_0
abbrev r10_3 : Rect S128x5000 := Rect.unit (s := S128x5000) ![0, 0] S128x5000.size inb_S128x5000_S128x5000_0_0
abbrev r10_4 : Rect S1x5000 := Rect.unit (s := S1x5000) ![0, 0] S1x5000.size inb_S1x5000_S1x5000_0_0
abbrev r10_5 : Rect S1000x5000 := Rect.unit (s := S1000x5000) ![0, 0] S1000x5000.size inb_S1000x5000_S1000x5000_0_0

/-! ## What the body leaves in the output window's buffer -/

/-- Window 5's staging buffer after the body, from the input windows' blocks: its one store, of the whole block. -/
def out10_5 (x0 : Vec F S1000x256 .f32) (x1 : Vec F S256x128 .f32) (x2 : Vec F S1x128 .f32) (x3 : Vec F S128x5000 .f32) (x4 : Vec F S1x5000 .f32) : Vec F S1000x5000 .f32 :=
  View.canon [⟨r10_5, k10_pay1 (View.ld x0 r10_0) (View.ld x1 r10_1) (View.ld x2 r10_2) (View.ld x3 r10_3) (View.ld x4 r10_4)⟩]

/-- The store tiles the buffer, so it covers it. -/
theorem cover10_5 (p0 : Vec F S1000x5000 .f32) (y : S1000x5000.Idx) :
    ∃ pc ∈ ([⟨r10_5, p0⟩] : List (View.Piece (Elt F) S1000x5000 .f32)), y ∈ pc.1.set :=
  View.cover_of_tiled [⟨r10_5, p0⟩] S1000x5000.size (by rfl) y

/-! ## The body's triple -/

set_option maxHeartbeats 1000000 in
/-- The kernel body on whole staging memrefs, the inputs' at read contents `xW` and the output's at anything, runs to
    the continuation holding the inputs' as they were and the output's at `out10_5` of the inputs'. -/
theorem sound_kernel10 (c : Dev nD) (E : Set ℕ) (i : grid10.Coords) (arg0 : Memref sig .tc .vmem S1000x256 .f32) (harg0 : arg0.IsWhole) (arg1 : Memref sig .tc .vmem S256x128 .f32) (harg1 : arg1.IsWhole) (arg2 : Memref sig .tc .vmem S1x128 .f32) (harg2 : arg2.IsWhole) (arg3 : Memref sig .tc .vmem S128x5000 .f32) (harg3 : arg3.IsWhole) (arg4 : Memref sig .tc .vmem S1x5000 .f32) (harg4 : arg4.IsWhole) (arg5 : Memref sig .tc .vmem S1000x5000 .f32) (harg5 : arg5.IsWhole)
    (x0 : Vec F S1000x256 .f32) (x1 : Vec F S256x128 .f32) (x2 : Vec F S1x128 .f32) (x3 : Vec F S128x5000 .f32) (x4 : Vec F S1x5000 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out10_5 x0 x1 x2 x3 x4)) -∗ K ⟨⟩))
      ⊢ wp frame (wpE (defs₀ (F := F)) Variants.none c none) E (cc10__final_kernel i arg0 harg0 arg1 harg1 arg2 harg2 arg3 harg3 arg4 harg4 arg5 harg5) K := by
  simp only [cc10__final_kernel_eq_skeleton]; unfold cc10__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-! ## The pipeline's proof data -/

/-- The proof data of pipeline 10 on core `c`: the arrays as the region finds them (`V`); after the body at point `t`
    each input's buffer at its block and the output's at `out10_5` of the input blocks; the invariant the scoped rest
    and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t =
    out10_5 (iblk10 V c 0 t) (iblk10 V c 1 t) (iblk10 V c 2 t) (iblk10 V c 3 t) (iblk10 V c 4 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks, so `sound_kernel10` applies; the invariant and the
    core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Run.lean ====
/-
  The run of @main as its 21 segments.  The buffer contents at every boundary are a fold from the launch memory: a host
  stretch applies its operations, a region leaves in each output array what its write-backs leave and nothing else changes.
  Every pipeline's proof data sits at its region's entry contents; a region is a segment entered from "every unscoped buffer
  at the boundary's contents" and left at the next boundary's.  The run: every weakly fair execution of @main terminates, with
  no fault, every unscoped buffer at the last boundary's contents; the arguments walk back through the fold to the launch
  memory, since no segment writes one.
-/
import proofs.«129426_g120259084709_cont_main3_741_6_alg».proof.Proof.Gen.Kernel.Launch
import proofs.«129426_g120259084709_cont_main3_741_6_alg».proof.Proof.Gen.Kernel.Skeleton
import proofs.«129426_g120259084709_cont_main3_741_6_alg».proof.Proof.Gen.Kernel.Points
import proofs.«129426_g120259084709_cont_main3_741_6_alg».proof.Proof.Gen.Kernel.Regions
import proofs.«129426_g120259084709_cont_main3_741_6_alg».proof.Proof.K.Reg0
import proofs.«129426_g120259084709_cont_main3_741_6_alg».proof.Proof.K.Reg1
import proofs.«129426_g120259084709_cont_main3_741_6_alg».proof.Proof.K.Reg2
import proofs.«129426_g120259084709_cont_main3_741_6_alg».proof.Proof.K.Reg3
import proofs.«129426_g120259084709_cont_main3_741_6_alg».proof.Proof.K.Reg4
import proofs.«129426_g120259084709_cont_main3_741_6_alg».proof.Proof.K.Reg5
import proofs.«129426_g120259084709_cont_main3_741_6_alg».proof.Proof.K.Reg6
import proofs.«129426_g120259084709_cont_main3_741_6_alg».proof.Proof.K.Reg7
import proofs.«129426_g120259084709_cont_main3_741_6_alg».proof.Proof.K.Reg8
import proofs.«129426_g120259084709_cont_main3_741_6_alg».proof.Proof.K.Reg9
import proofs.«129426_g120259084709_cont_main3_741_6_alg».proof.Proof.K.Reg10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Region 2's two input windows on one array

Region 2 reads the array of the initial features through two windows (the previous layer's output IS the initial features
at the first layer).  The array's full share is dealt to them as its left and right halves at the entry and put together
again at the exit. -/
section Region2
variable (V : (c : Dev nD) → (b : Ref sig .tc) → Buf (Elt F) ((c : Thread nD τ).loc b))

/-- The four distinct arrays behind region 2's five windows. -/
theorem img2 : (Finset.univ.image (Pipeline.arrRef spec2) : Finset (Ref sig .tc)) = {main_v5, main_v4, main_v7, main_v8} := by decide

/-- Region 2's arrays, window by window, each a whole buffer at its share. -/
theorem arrays2_eq (c : Dev nD) (Fw : (w : Fin cfg2.W) → Buf (Elt F) ((cfg2.win w).arr.view.loc (c.tc : Thread nD τ))) :
    ((dat2 V c).arrays Fw : sProp 𝕄) = iprop((((c.tc : Thread nD τ).loc main_v5) ↦{fullShare} Fw 0) ∗ (((c.tc : Thread nD τ).loc main_v4) ↦{fullShare.left} Fw 1)
      ∗ (((c.tc : Thread nD τ).loc main_v4) ↦{fullShare.right} Fw 2) ∗ (((c.tc : Thread nD τ).loc main_v7) ↦{fullShare} Fw 3) ∗ (((c.tc : Thread nD τ).loc main_v8) ↦{fullShare} Fw 4)) := by
  unfold Dat.arrays
  rw [bigSep_W2]
  rw [(arr_whole2 0).set_eq_univ, (arr_whole2 1).set_eq_univ, (arr_whole2 3).set_eq_univ, (arr_whole2 4).set_eq_univ]
  rfl

/-- ENTRY: the core's unscoped buffers at V are region 2's arrays at V and the rest. -/
theorem entry2 (c : Dev nD) : (unscopedBufs c (V c) : sProp 𝕄) ⊢ iprop((dat2 V c).arrays (dat2 V c).A ∗ Pipeline.unscopedRest spec2 c (V c)) := by
  rw [Pipeline.unscopedBufs_split₀ (cfgs := cfgs) (p := (2 : Fin 11)) winFacts₀2.arr_unscoped c (V c), arrays2_eq]
  refine sep_mono ?_ .rfl
  unfold Pipeline.arrBufs
  rw [show (Finset.univ.image (Pipeline.arrRef (cfgs 2).spec) : Finset (Ref sig .tc)) = {main_v5, main_v4, main_v7, main_v8} from img2]
  rw [bigSep_insert (by decide), bigSep_insert (by decide), bigSep_insert (by decide), bigSep_singleton]
  show (iprop((((c.tc : Thread nD τ).loc main_v5) ↦{fullShare} V c main_v5) ∗ (((c.tc : Thread nD τ).loc main_v4) ↦{fullShare} V c main_v4)
      ∗ (((c.tc : Thread nD τ).loc main_v7) ↦{fullShare} V c main_v7) ∗ (((c.tc : Thread nD τ).loc main_v8) ↦{fullShare} V c main_v8)) : sProp 𝕄) ⊢ _
  iintro ⟨H5, H4, H7, H8⟩
  have hs : ((((c.tc : Thread nD τ).loc main_v4) ↦{fullShare} V c main_v4) : sProp 𝕄) ⊢ iprop((((c.tc : Thread nD τ).loc main_v4) ↦{fullShare.left} V c main_v4) ∗ (((c.tc : Thread nD τ).loc main_v4) ↦{fullShare.right} V c main_v4)) :=
    (pointsTo_share (PosShare.mem_left_op_right fullShare)).1
  ihave H4' := hs $$ H4
  icases H4' with ⟨H4l, H4r⟩
  isplitl [H5]; · iexact H5
  isplitl [H4l]; · iexact H4l
  isplitl [H4r]; · iexact H4r
  isplitl [H7]; · iexact H7
  iexact H8

/-- EXIT: region 2's arrays at contents Fw and the rest at V are the core's unscoped buffers at any V' that has the arrays
    at Fw and agrees with V off them. -/
theorem exit2 (c : Dev nD) (V' : (b : Ref sig .tc) → Buf (Elt F) ((c : Thread nD τ).loc b))
    (Fw : (w : Fin cfg2.W) → Buf (Elt F) ((cfg2.win w).arr.view.loc (c.tc : Thread nD τ)))
    (hF : ∀ w, Fw w = V' (Pipeline.arrRef spec2 w))
    (hrest : ∀ b, b ∉ Finset.univ.image (Pipeline.arrRef spec2) → V' b = V c b) :
    iprop((dat2 V c).arrays Fw ∗ Pipeline.unscopedRest spec2 c (V c)) ⊢ (unscopedBufs c V' : sProp 𝕄) := by
  rw [Pipeline.unscopedBufs_split₀ (cfgs := cfgs) (p := (2 : Fin 11)) winFacts₀2.arr_unscoped c V', arrays2_eq]
  refine sep_mono ?_ (Entails.of_eq ?_)
  · unfold Pipeline.arrBufs
    rw [show (Finset.univ.image (Pipeline.arrRef (cfgs 2).spec) : Finset (Ref sig .tc)) = {main_v5, main_v4, main_v7, main_v8} from img2]
    rw [bigSep_insert (by decide), bigSep_insert (by decide), bigSep_insert (by decide), bigSep_singleton]
    rw [hF 0, hF 1, hF 2, hF 3, hF 4]
    show _ ⊢ (iprop((((c.tc : Thread nD τ).loc main_v5) ↦{fullShare} V' main_v5) ∗ (((c.tc : Thread nD τ).loc main_v4) ↦{fullShare} V' main_v4)
      ∗ (((c.tc : Thread nD τ).loc main_v7) ↦{fullShare} V' main_v7) ∗ (((c.tc : Thread nD τ).loc main_v8) ↦{fullShare} V' main_v8)) : sProp 𝕄)
    iintro ⟨H5, H4l, H4r, H7, H8⟩
    isplitl [H5]; · iexact H5
    isplitl [H4l H4r]
    · have hj : iprop((((c.tc : Thread nD τ).loc main_v4) ↦{fullShare.left} V' main_v4) ∗ (((c.tc : Thread nD τ).loc main_v4) ↦{fullShare.right} V' main_v4)) ⊢ ((((c.tc : Thread nD τ).loc main_v4) ↦{fullShare} V' main_v4) : sProp 𝕄) :=
        (pointsTo_share (PosShare.mem_left_op_right fullShare)).2
      iapply hj
      isplitl [H4l]; · iexact H4l
      iexact H4r
    isplitl [H7]; · iexact H7
    iexact H8
  · unfold Pipeline.unscopedRest
    exact bigSep_congr fun b hb => by rw [hrest b (Finset.mem_sdiff.mp hb).2]
end Region2

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host stretch hostOps0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h

/-- At region 0's exit: each output array at what the write-backs leave, every other buffer as entered. -/
def W2 (c : Dev nD) : Valuation τ sig (Elt F) :=
  (Function.update (Function.update (W1 m ρ c) (Proc.devRef .tc (Pipeline.arrRef spec0 1)) ((dat0 (V1 m ρ) c).arrAt 1 cfg0.N)) (Proc.devRef .tc (Pipeline.arrRef spec0 2)) ((dat0 (V1 m ρ) c).arrAt 2 cfg0.N))
theorem W2_out1 (c : Dev nD) : W2 m ρ c (Proc.devRef .tc (Pipeline.arrRef spec0 1)) = ((dat0 (V1 m ρ) c).arrAt 1 cfg0.N) := by
  unfold W2
  rw [Function.update_of_ne (StableHlo.devRef_ne_of_ne (by decide : Pipeline.arrRef spec0 1 ≠ Pipeline.arrRef spec0 2))]
  exact Function.update_self ..
theorem W2_out2 (c : Dev nD) : W2 m ρ c (Proc.devRef .tc (Pipeline.arrRef spec0 2)) = ((dat0 (V1 m ρ) c).arrAt 2 cfg0.N) := by
  unfold W2
  exact Function.update_self ..
theorem W2_of_ne (c : Dev nD) (b : Ref sig .tc) (h1 : Pipeline.arrRef spec0 1 ≠ b) (h2 : Pipeline.arrRef spec0 2 ≠ b) :
    W2 m ρ c (Proc.devRef .tc b) = W1 m ρ c (Proc.devRef .tc b) := by
  unfold W2
  rw [Function.update_of_ne (StableHlo.devRef_ne_of_ne (Ne.symm h2))]
  rw [Function.update_of_ne (StableHlo.devRef_ne_of_ne (Ne.symm h1))]
abbrev V2 : (c : Dev nD) → (b : Ref sig .tc) → Buf (Elt F) ((c : Thread nD τ).loc b) := fun c b => W2 m ρ c b
theorem hF0 (c : Dev nD) : ∀ w : Fin cfg0.W, (dat0 (V1 m ρ) c).arrAt w cfg0.N = V2 m ρ c (Pipeline.arrRef spec0 w)
  | ⟨0, _⟩ => ((dat0 (V1 m ρ) c).arrAt_in 0 rfl _).trans ((A_eq0 (V1 m ρ) c 0).trans (W2_of_ne m ρ c (Pipeline.arrRef spec0 0) (by decide) (by decide)).symm)
  | ⟨1, _⟩ => (W2_out1 m ρ c).symm
  | ⟨2, _⟩ => (W2_out2 m ρ c).symm
  | ⟨n + 3, h⟩ => absurd h (Nat.not_lt.2 (Nat.le_add_left _ _))
theorem hrest0 (c : Dev nD) : ∀ b, b ∉ Finset.univ.image (Pipeline.arrRef spec0) → V2 m ρ c b = V1 m ρ c b :=
  fun b hb => W2_of_ne m ρ c b (fun e => hb (Finset.mem_image.mpr ⟨1, Finset.mem_univ _, e⟩)) (fun e => hb (Finset.mem_image.mpr ⟨2, Finset.mem_univ _, e⟩))

/-- At region 1's exit: each output array at what the write-backs leave, every other buffer as entered. -/
def W3 (c : Dev nD) : Valuation τ sig (Elt F) :=
  (Function.update (W2 m ρ c) (Proc.devRef .tc (Pipeline.arrRef spec1 7)) ((dat1 (V2 m ρ) c).arrAt 7 cfg1.N))
theorem W3_out7 (c : Dev nD) : W3 m ρ c (Proc.devRef .tc (Pipeline.arrRef spec1 7)) = ((dat1 (V2 m ρ) c).arrAt 7 cfg1.N) := by
  unfold W3
  exact Function.update_self ..
theorem W3_of_ne (c : Dev nD) (b : Ref sig .tc) (h7 : Pipeline.arrRef spec1 7 ≠ b) :
    W3 m ρ c (Proc.devRef .tc b) = W2 m ρ c (Proc.devRef .tc b) := by
  unfold W3
  rw [Function.update_of_ne (StableHlo.devRef_ne_of_ne (Ne.symm h7))]
abbrev V3 : (c : Dev nD) → (b : Ref sig .tc) → Buf (Elt F) ((c : Thread nD τ).loc b) := fun c b => W3 m ρ c b
theorem hF1 (c : Dev nD) : ∀ w : Fin cfg1.W, (dat1 (V2 m ρ) c).arrAt w cfg1.N = V3 m ρ c (Pipeline.arrRef spec1 w)
  | ⟨0, _⟩ => ((dat1 (V2 m ρ) c).arrAt_in 0 rfl _).trans ((A_eq1 (V2 m ρ) c 0).trans (W3_of_ne m ρ c (Pipeline.arrRef spec1 0) (by decide)).symm)
  | ⟨1, _⟩ => ((dat1 (V2 m ρ) c).arrAt_in 1 rfl _).trans ((A_eq1 (V2 m ρ) c 1).trans (W3_of_ne m ρ c (Pipeline.arrRef spec1 1) (by decide)).symm)
  | ⟨2, _⟩ => ((dat1 (V2 m ρ) c).arrAt_in 2 rfl _).trans ((A_eq1 (V2 m ρ) c 2).trans (W3_of_ne m ρ c (Pipeline.arrRef spec1 2) (by decide)).symm)
  | ⟨3, _⟩ => ((dat1 (V2 m ρ) c).arrAt_in 3 rfl _).trans ((A_eq1 (V2 m ρ) c 3).trans (W3_of_ne m ρ c (Pipeline.arrRef spec1 3) (by decide)).symm)
  | ⟨4, _⟩ => ((dat1 (V2 m ρ) c).arrAt_in 4 rfl _).trans ((A_eq1 (V2 m ρ) c 4).trans (W3_of_ne m ρ c (Pipeline.arrRef spec1 4) (by decide)).symm)
  | ⟨5, _⟩ => ((dat1 (V2 m ρ) c).arrAt_in 5 rfl _).trans ((A_eq1 (V2 m ρ) c 5).trans (W3_of_ne m ρ c (Pipeline.arrRef spec1 5) (by decide)).symm)
  | ⟨6, _⟩ => ((dat1 (V2 m ρ) c).arrAt_in 6 rfl _).trans ((A_eq1 (V2 m ρ) c 6).trans (W3_of_ne m ρ c (Pipeline.arrRef spec1 6) (by decide)).symm)
  | ⟨7, _⟩ => (W3_out7 m ρ c).symm
  | ⟨n + 8, h⟩ => absurd h (Nat.not_lt.2 (Nat.le_add_left _ _))
theorem hrest1 (c : Dev nD) : ∀ b, b ∉ Finset.univ.image (Pipeline.arrRef spec1) → V3 m ρ c b = V2 m ρ c b :=
  fun b hb => W3_of_ne m ρ c b (fun e => hb (Finset.mem_image.mpr ⟨7, Finset.mem_univ _, e⟩))

/-- After the host stretch hostOps2. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
theorem W4_keep (c : Dev nD) (r : Ref sig .tc) (h : r ∉ hostOps2_W) : W4 m ρ c (Proc.devRef .tc r) = W3 m ρ c (Proc.devRef .tc r) :=
  StableHlo.after_of_writes_sub hostOps2 _ hostOps2_writes h

/-- At region 2's exit: each output array at what the write-backs leave, every other buffer as entered. -/
def W5 (c : Dev nD) : Valuation τ sig (Elt F) :=
  (Function.update (W4 m ρ c) (Proc.devRef .tc (Pipeline.arrRef spec2 4)) ((dat2 (V4 m ρ) c).arrAt 4 cfg2.N))
theorem W5_out4 (c : Dev nD) : W5 m ρ c (Proc.devRef .tc (Pipeline.arrRef spec2 4)) = ((dat2 (V4 m ρ) c).arrAt 4 cfg2.N) := by
  unfold W5
  exact Function.update_self ..
theorem W5_of_ne (c : Dev nD) (b : Ref sig .tc) (h4 : Pipeline.arrRef spec2 4 ≠ b) :
    W5 m ρ c (Proc.devRef .tc b) = W4 m ρ c (Proc.devRef .tc b) := by
  unfold W5
  rw [Function.update_of_ne (StableHlo.devRef_ne_of_ne (Ne.symm h4))]
abbrev V5 : (c : Dev nD) → (b : Ref sig .tc) → Buf (Elt F) ((c : Thread nD τ).loc b) := fun c b => W5 m ρ c b
theorem hF2 (c : Dev nD) : ∀ w : Fin cfg2.W, (dat2 (V4 m ρ) c).arrAt w cfg2.N = V5 m ρ c (Pipeline.arrRef spec2 w)
  | ⟨0, _⟩ => ((dat2 (V4 m ρ) c).arrAt_in 0 rfl _).trans ((A_eq2 (V4 m ρ) c 0).trans (W5_of_ne m ρ c (Pipeline.arrRef spec2 0) (by decide)).symm)
  | ⟨1, _⟩ => ((dat2 (V4 m ρ) c).arrAt_in 1 rfl _).trans ((A_eq2 (V4 m ρ) c 1).trans (W5_of_ne m ρ c (Pipeline.arrRef spec2 1) (by decide)).symm)
  | ⟨2, _⟩ => ((dat2 (V4 m ρ) c).arrAt_in 2 rfl _).trans ((A_eq2 (V4 m ρ) c 2).trans (W5_of_ne m ρ c (Pipeline.arrRef spec2 2) (by decide)).symm)
  | ⟨3, _⟩ => ((dat2 (V4 m ρ) c).arrAt_in 3 rfl _).trans ((A_eq2 (V4 m ρ) c 3).trans (W5_of_ne m ρ c (Pipeline.arrRef spec2 3) (by decide)).symm)
  | ⟨4, _⟩ => (W5_out4 m ρ c).symm
  | ⟨n + 5, h⟩ => absurd h (Nat.not_lt.2 (Nat.le_add_left _ _))
theorem hrest2 (c : Dev nD) : ∀ b, b ∉ Finset.univ.image (Pipeline.arrRef spec2) → V5 m ρ c b = V4 m ρ c b :=
  fun b hb => W5_of_ne m ρ c b (fun e => hb (Finset.mem_image.mpr ⟨4, Finset.mem_univ _, e⟩))

/-- After the host stretch hostOps3. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
theorem W6_keep (c : Dev nD) (r : Ref sig .tc) (h : r ∉ hostOps3_W) : W6 m ρ c (Proc.devRef .tc r) = W5 m ρ c (Proc.devRef .tc r) :=
  StableHlo.after_of_writes_sub hostOps3 _ hostOps3_writes h

/-- At region 3's exit: each output array at what the write-backs leave, every other buffer as entered. -/
def W7 (c : Dev nD) : Valuation τ sig (Elt F) :=
  (Function.update (W6 m ρ c) (Proc.devRef .tc (Pipeline.arrRef spec3 4)) ((dat3 (V6 m ρ) c).arrAt 4 cfg3.N))
theorem W7_out4 (c : Dev nD) : W7 m ρ c (Proc.devRef .tc (Pipeline.arrRef spec3 4)) = ((dat3 (V6 m ρ) c).arrAt 4 cfg3.N) := by
  unfold W7
  exact Function.update_self ..
theorem W7_of_ne (c : Dev nD) (b : Ref sig .tc) (h4 : Pipeline.arrRef spec3 4 ≠ b) :
    W7 m ρ c (Proc.devRef .tc b) = W6 m ρ c (Proc.devRef .tc b) := by
  unfold W7
  rw [Function.update_of_ne (StableHlo.devRef_ne_of_ne (Ne.symm h4))]
abbrev V7 : (c : Dev nD) → (b : Ref sig .tc) → Buf (Elt F) ((c : Thread nD τ).loc b) := fun c b => W7 m ρ c b
theorem hF3 (c : Dev nD) : ∀ w : Fin cfg3.W, (dat3 (V6 m ρ) c).arrAt w cfg3.N = V7 m ρ c (Pipeline.arrRef spec3 w)
  | ⟨0, _⟩ => ((dat3 (V6 m ρ) c).arrAt_in 0 rfl _).trans ((A_eq3 (V6 m ρ) c 0).trans (W7_of_ne m ρ c (Pipeline.arrRef spec3 0) (by decide)).symm)
  | ⟨1, _⟩ => ((dat3 (V6 m ρ) c).arrAt_in 1 rfl _).trans ((A_eq3 (V6 m ρ) c 1).trans (W7_of_ne m ρ c (Pipeline.arrRef spec3 1) (by decide)).symm)
  | ⟨2, _⟩ => ((dat3 (V6 m ρ) c).arrAt_in 2 rfl _).trans ((A_eq3 (V6 m ρ) c 2).trans (W7_of_ne m ρ c (Pipeline.arrRef spec3 2) (by decide)).symm)
  | ⟨3, _⟩ => ((dat3 (V6 m ρ) c).arrAt_in 3 rfl _).trans ((A_eq3 (V6 m ρ) c 3).trans (W7_of_ne m ρ c (Pipeline.arrRef spec3 3) (by decide)).symm)
  | ⟨4, _⟩ => (W7_out4 m ρ c).symm
  | ⟨n + 5, h⟩ => absurd h (Nat.not_lt.2 (Nat.le_add_left _ _))
theorem hrest3 (c : Dev nD) : ∀ b, b ∉ Finset.univ.image (Pipeline.arrRef spec3) → V7 m ρ c b = V6 m ρ c b :=
  fun b hb => W7_of_ne m ρ c b (fun e => hb (Finset.mem_image.mpr ⟨4, Finset.mem_univ _, e⟩))

/-- After the host stretch hostOps4. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
theorem W8_keep (c : Dev nD) (r : Ref sig .tc) (h : r ∉ hostOps4_W) : W8 m ρ c (Proc.devRef .tc r) = W7 m ρ c (Proc.devRef .tc r) :=
  StableHlo.after_of_writes_sub hostOps4 _ hostOps4_writes h

/-- At region 4's exit: each output array at what the write-backs leave, every other buffer as entered. -/
def W9 (c : Dev nD) : Valuation τ sig (Elt F) :=
  (Function.update (W8 m ρ c) (Proc.devRef .tc (Pipeline.arrRef spec4 4)) ((dat4 (V8 m ρ) c).arrAt 4 cfg4.N))
theorem W9_out4 (c : Dev nD) : W9 m ρ c (Proc.devRef .tc (Pipeline.arrRef spec4 4)) = ((dat4 (V8 m ρ) c).arrAt 4 cfg4.N) := by
  unfold W9
  exact Function.update_self ..
theorem W9_of_ne (c : Dev nD) (b : Ref sig .tc) (h4 : Pipeline.arrRef spec4 4 ≠ b) :
    W9 m ρ c (Proc.devRef .tc b) = W8 m ρ c (Proc.devRef .tc b) := by
  unfold W9
  rw [Function.update_of_ne (StableHlo.devRef_ne_of_ne (Ne.symm h4))]
abbrev V9 : (c : Dev nD) → (b : Ref sig .tc) → Buf (Elt F) ((c : Thread nD τ).loc b) := fun c b => W9 m ρ c b
theorem hF4 (c : Dev nD) : ∀ w : Fin cfg4.W, (dat4 (V8 m ρ) c).arrAt w cfg4.N = V9 m ρ c (Pipeline.arrRef spec4 w)
  | ⟨0, _⟩ => ((dat4 (V8 m ρ) c).arrAt_in 0 rfl _).trans ((A_eq4 (V8 m ρ) c 0).trans (W9_of_ne m ρ c (Pipeline.arrRef spec4 0) (by decide)).symm)
  | ⟨1, _⟩ => ((dat4 (V8 m ρ) c).arrAt_in 1 rfl _).trans ((A_eq4 (V8 m ρ) c 1).trans (W9_of_ne m ρ c (Pipeline.arrRef spec4 1) (by decide)).symm)
  | ⟨2, _⟩ => ((dat4 (V8 m ρ) c).arrAt_in 2 rfl _).trans ((A_eq4 (V8 m ρ) c 2).trans (W9_of_ne m ρ c (Pipeline.arrRef spec4 2) (by decide)).symm)
  | ⟨3, _⟩ => ((dat4 (V8 m ρ) c).arrAt_in 3 rfl _).trans ((A_eq4 (V8 m ρ) c 3).trans (W9_of_ne m ρ c (Pipeline.arrRef spec4 3) (by decide)).symm)
  | ⟨4, _⟩ => (W9_out4 m ρ c).symm
  | ⟨n + 5, h⟩ => absurd h (Nat.not_lt.2 (Nat.le_add_left _ _))
theorem hrest4 (c : Dev nD) : ∀ b, b ∉ Finset.univ.image (Pipeline.arrRef spec4) → V9 m ρ c b = V8 m ρ c b :=
  fun b hb => W9_of_ne m ρ c b (fun e => hb (Finset.mem_image.mpr ⟨4, Finset.mem_univ _, e⟩))

/-- After the host stretch hostOps5. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b
theorem W10_keep (c : Dev nD) (r : Ref sig .tc) (h : r ∉ hostOps5_W) : W10 m ρ c (Proc.devRef .tc r) = W9 m ρ c (Proc.devRef .tc r) :=
  StableHlo.after_of_writes_sub hostOps5 _ hostOps5_writes h

/-- At region 5's exit: each output array at what the write-backs leave, every other buffer as entered. -/
def W11 (c : Dev nD) : Valuation τ sig (Elt F) :=
  (Function.update (W10 m ρ c) (Proc.devRef .tc (Pipeline.arrRef spec5 4)) ((dat5 (V10 m ρ) c).arrAt 4 cfg5.N))
theorem W11_out4 (c : Dev nD) : W11 m ρ c (Proc.devRef .tc (Pipeline.arrRef spec5 4)) = ((dat5 (V10 m ρ) c).arrAt 4 cfg5.N) := by
  unfold W11
  exact Function.update_self ..
theorem W11_of_ne (c : Dev nD) (b : Ref sig .tc) (h4 : Pipeline.arrRef spec5 4 ≠ b) :
    W11 m ρ c (Proc.devRef .tc b) = W10 m ρ c (Proc.devRef .tc b) := by
  unfold W11
  rw [Function.update_of_ne (StableHlo.devRef_ne_of_ne (Ne.symm h4))]
abbrev V11 : (c : Dev nD) → (b : Ref sig .tc) → Buf (Elt F) ((c : Thread nD τ).loc b) := fun c b => W11 m ρ c b
theorem hF5 (c : Dev nD) : ∀ w : Fin cfg5.W, (dat5 (V10 m ρ) c).arrAt w cfg5.N = V11 m ρ c (Pipeline.arrRef spec5 w)
  | ⟨0, _⟩ => ((dat5 (V10 m ρ) c).arrAt_in 0 rfl _).trans ((A_eq5 (V10 m ρ) c 0).trans (W11_of_ne m ρ c (Pipeline.arrRef spec5 0) (by decide)).symm)
  | ⟨1, _⟩ => ((dat5 (V10 m ρ) c).arrAt_in 1 rfl _).trans ((A_eq5 (V10 m ρ) c 1).trans (W11_of_ne m ρ c (Pipeline.arrRef spec5 1) (by decide)).symm)
  | ⟨2, _⟩ => ((dat5 (V10 m ρ) c).arrAt_in 2 rfl _).trans ((A_eq5 (V10 m ρ) c 2).trans (W11_of_ne m ρ c (Pipeline.arrRef spec5 2) (by decide)).symm)
  | ⟨3, _⟩ => ((dat5 (V10 m ρ) c).arrAt_in 3 rfl _).trans ((A_eq5 (V10 m ρ) c 3).trans (W11_of_ne m ρ c (Pipeline.arrRef spec5 3) (by decide)).symm)
  | ⟨4, _⟩ => (W11_out4 m ρ c).symm
  | ⟨n + 5, h⟩ => absurd h (Nat.not_lt.2 (Nat.le_add_left _ _))
theorem hrest5 (c : Dev nD) : ∀ b, b ∉ Finset.univ.image (Pipeline.arrRef spec5) → V11 m ρ c b = V10 m ρ c b :=
  fun b hb => W11_of_ne m ρ c b (fun e => hb (Finset.mem_image.mpr ⟨4, Finset.mem_univ _, e⟩))

/-- After the host stretch hostOps6. -/
abbrev W12 : Dev nD → Valuation τ sig (Elt F) := fun c => StableHlo.after hostOps6 (W11 m ρ c)
abbrev V12 : (c : Dev nD) → (b : Ref sig .tc) → Buf (Elt F) ((c : Thread nD τ).loc b) := fun c b => W12 m ρ c b
theorem W12_keep (c : Dev nD) (r : Ref sig .tc) (h : r ∉ hostOps6_W) : W12 m ρ c (Proc.devRef .tc r) = W11 m ρ c (Proc.devRef .tc r) :=
  StableHlo.after_of_writes_sub hostOps6 _ hostOps6_writes h

/-- At region 6's exit: each output array at what the write-backs leave, every other buffer as entered. -/
def W13 (c : Dev nD) : Valuation τ sig (Elt F) :=
  (Function.update (W12 m ρ c) (Proc.devRef .tc (Pipeline.arrRef spec6 4)) ((dat6 (V12 m ρ) c).arrAt 4 cfg6.N))
theorem W13_out4 (c : Dev nD) : W13 m ρ c (Proc.devRef .tc (Pipeline.arrRef spec6 4)) = ((dat6 (V12 m ρ) c).arrAt 4 cfg6.N) := by
  unfold W13
  exact Function.update_self ..
theorem W13_of_ne (c : Dev nD) (b : Ref sig .tc) (h4 : Pipeline.arrRef spec6 4 ≠ b) :
    W13 m ρ c (Proc.devRef .tc b) = W12 m ρ c (Proc.devRef .tc b) := by
  unfold W13
  rw [Function.update_of_ne (StableHlo.devRef_ne_of_ne (Ne.symm h4))]
abbrev V13 : (c : Dev nD) → (b : Ref sig .tc) → Buf (Elt F) ((c : Thread nD τ).loc b) := fun c b => W13 m ρ c b
theorem hF6 (c : Dev nD) : ∀ w : Fin cfg6.W, (dat6 (V12 m ρ) c).arrAt w cfg6.N = V13 m ρ c (Pipeline.arrRef spec6 w)
  | ⟨0, _⟩ => ((dat6 (V12 m ρ) c).arrAt_in 0 rfl _).trans ((A_eq6 (V12 m ρ) c 0).trans (W13_of_ne m ρ c (Pipeline.arrRef spec6 0) (by decide)).symm)
  | ⟨1, _⟩ => ((dat6 (V12 m ρ) c).arrAt_in 1 rfl _).trans ((A_eq6 (V12 m ρ) c 1).trans (W13_of_ne m ρ c (Pipeline.arrRef spec6 1) (by decide)).symm)
  | ⟨2, _⟩ => ((dat6 (V12 m ρ) c).arrAt_in 2 rfl _).trans ((A_eq6 (V12 m ρ) c 2).trans (W13_of_ne m ρ c (Pipeline.arrRef spec6 2) (by decide)).symm)
  | ⟨3, _⟩ => ((dat6 (V12 m ρ) c).arrAt_in 3 rfl _).trans ((A_eq6 (V12 m ρ) c 3).trans (W13_of_ne m ρ c (Pipeline.arrRef spec6 3) (by decide)).symm)
  | ⟨4, _⟩ => (W13_out4 m ρ c).symm
  | ⟨n + 5, h⟩ => absurd h (Nat.not_lt.2 (Nat.le_add_left _ _))
theorem hrest6 (c : Dev nD) : ∀ b, b ∉ Finset.univ.image (Pipeline.arrRef spec6) → V13 m ρ c b = V12 m ρ c b :=
  fun b hb => W13_of_ne m ρ c b (fun e => hb (Finset.mem_image.mpr ⟨4, Finset.mem_univ _, e⟩))

/-- After the host stretch hostOps7. -/
abbrev W14 : Dev nD → Valuation τ sig (Elt F) := fun c => StableHlo.after hostOps7 (W13 m ρ c)
abbrev V14 : (c : Dev nD) → (b : Ref sig .tc) → Buf (Elt F) ((c : Thread nD τ).loc b) := fun c b => W14 m ρ c b
theorem W14_keep (c : Dev nD) (r : Ref sig .tc) (h : r ∉ hostOps7_W) : W14 m ρ c (Proc.devRef .tc r) = W13 m ρ c (Proc.devRef .tc r) :=
  StableHlo.after_of_writes_sub hostOps7 _ hostOps7_writes h

/-- At region 7's exit: each output array at what the write-backs leave, every other buffer as entered. -/
def W15 (c : Dev nD) : Valuation τ sig (Elt F) :=
  (Function.update (W14 m ρ c) (Proc.devRef .tc (Pipeline.arrRef spec7 4)) ((dat7 (V14 m ρ) c).arrAt 4 cfg7.N))
theorem W15_out4 (c : Dev nD) : W15 m ρ c (Proc.devRef .tc (Pipeline.arrRef spec7 4)) = ((dat7 (V14 m ρ) c).arrAt 4 cfg7.N) := by
  unfold W15
  exact Function.update_self ..
theorem W15_of_ne (c : Dev nD) (b : Ref sig .tc) (h4 : Pipeline.arrRef spec7 4 ≠ b) :
    W15 m ρ c (Proc.devRef .tc b) = W14 m ρ c (Proc.devRef .tc b) := by
  unfold W15
  rw [Function.update_of_ne (StableHlo.devRef_ne_of_ne (Ne.symm h4))]
abbrev V15 : (c : Dev nD) → (b : Ref sig .tc) → Buf (Elt F) ((c : Thread nD τ).loc b) := fun c b => W15 m ρ c b
theorem hF7 (c : Dev nD) : ∀ w : Fin cfg7.W, (dat7 (V14 m ρ) c).arrAt w cfg7.N = V15 m ρ c (Pipeline.arrRef spec7 w)
  | ⟨0, _⟩ => ((dat7 (V14 m ρ) c).arrAt_in 0 rfl _).trans ((A_eq7 (V14 m ρ) c 0).trans (W15_of_ne m ρ c (Pipeline.arrRef spec7 0) (by decide)).symm)
  | ⟨1, _⟩ => ((dat7 (V14 m ρ) c).arrAt_in 1 rfl _).trans ((A_eq7 (V14 m ρ) c 1).trans (W15_of_ne m ρ c (Pipeline.arrRef spec7 1) (by decide)).symm)
  | ⟨2, _⟩ => ((dat7 (V14 m ρ) c).arrAt_in 2 rfl _).trans ((A_eq7 (V14 m ρ) c 2).trans (W15_of_ne m ρ c (Pipeline.arrRef spec7 2) (by decide)).symm)
  | ⟨3, _⟩ => ((dat7 (V14 m ρ) c).arrAt_in 3 rfl _).trans ((A_eq7 (V14 m ρ) c 3).trans (W15_of_ne m ρ c (Pipeline.arrRef spec7 3) (by decide)).symm)
  | ⟨4, _⟩ => (W15_out4 m ρ c).symm
  | ⟨n + 5, h⟩ => absurd h (Nat.not_lt.2 (Nat.le_add_left _ _))
theorem hrest7 (c : Dev nD) : ∀ b, b ∉ Finset.univ.image (Pipeline.arrRef spec7) → V15 m ρ c b = V14 m ρ c b :=
  fun b hb => W15_of_ne m ρ c b (fun e => hb (Finset.mem_image.mpr ⟨4, Finset.mem_univ _, e⟩))

/-- After the host stretch hostOps8. -/
abbrev W16 : Dev nD → Valuation τ sig (Elt F) := fun c => StableHlo.after hostOps8 (W15 m ρ c)
abbrev V16 : (c : Dev nD) → (b : Ref sig .tc) → Buf (Elt F) ((c : Thread nD τ).loc b) := fun c b => W16 m ρ c b
theorem W16_keep (c : Dev nD) (r : Ref sig .tc) (h : r ∉ hostOps8_W) : W16 m ρ c (Proc.devRef .tc r) = W15 m ρ c (Proc.devRef .tc r) :=
  StableHlo.after_of_writes_sub hostOps8 _ hostOps8_writes h

/-- At region 8's exit: each output array at what the write-backs leave, every other buffer as entered. -/
def W17 (c : Dev nD) : Valuation τ sig (Elt F) :=
  (Function.update (W16 m ρ c) (Proc.devRef .tc (Pipeline.arrRef spec8 4)) ((dat8 (V16 m ρ) c).arrAt 4 cfg8.N))
theorem W17_out4 (c : Dev nD) : W17 m ρ c (Proc.devRef .tc (Pipeline.arrRef spec8 4)) = ((dat8 (V16 m ρ) c).arrAt 4 cfg8.N) := by
  unfold W17
  exact Function.update_self ..
theorem W17_of_ne (c : Dev nD) (b : Ref sig .tc) (h4 : Pipeline.arrRef spec8 4 ≠ b) :
    W17 m ρ c (Proc.devRef .tc b) = W16 m ρ c (Proc.devRef .tc b) := by
  unfold W17
  rw [Function.update_of_ne (StableHlo.devRef_ne_of_ne (Ne.symm h4))]
abbrev V17 : (c : Dev nD) → (b : Ref sig .tc) → Buf (Elt F) ((c : Thread nD τ).loc b) := fun c b => W17 m ρ c b
theorem hF8 (c : Dev nD) : ∀ w : Fin cfg8.W, (dat8 (V16 m ρ) c).arrAt w cfg8.N = V17 m ρ c (Pipeline.arrRef spec8 w)
  | ⟨0, _⟩ => ((dat8 (V16 m ρ) c).arrAt_in 0 rfl _).trans ((A_eq8 (V16 m ρ) c 0).trans (W17_of_ne m ρ c (Pipeline.arrRef spec8 0) (by decide)).symm)
  | ⟨1, _⟩ => ((dat8 (V16 m ρ) c).arrAt_in 1 rfl _).trans ((A_eq8 (V16 m ρ) c 1).trans (W17_of_ne m ρ c (Pipeline.arrRef spec8 1) (by decide)).symm)
  | ⟨2, _⟩ => ((dat8 (V16 m ρ) c).arrAt_in 2 rfl _).trans ((A_eq8 (V16 m ρ) c 2).trans (W17_of_ne m ρ c (Pipeline.arrRef spec8 2) (by decide)).symm)
  | ⟨3, _⟩ => ((dat8 (V16 m ρ) c).arrAt_in 3 rfl _).trans ((A_eq8 (V16 m ρ) c 3).trans (W17_of_ne m ρ c (Pipeline.arrRef spec8 3) (by decide)).symm)
  | ⟨4, _⟩ => (W17_out4 m ρ c).symm
  | ⟨n + 5, h⟩ => absurd h (Nat.not_lt.2 (Nat.le_add_left _ _))
theorem hrest8 (c : Dev nD) : ∀ b, b ∉ Finset.univ.image (Pipeline.arrRef spec8) → V17 m ρ c b = V16 m ρ c b :=
  fun b hb => W17_of_ne m ρ c b (fun e => hb (Finset.mem_image.mpr ⟨4, Finset.mem_univ _, e⟩))

/-- After the host stretch hostOps9. -/
abbrev W18 : Dev nD → Valuation τ sig (Elt F) := fun c => StableHlo.after hostOps9 (W17 m ρ c)
abbrev V18 : (c : Dev nD) → (b : Ref sig .tc) → Buf (Elt F) ((c : Thread nD τ).loc b) := fun c b => W18 m ρ c b
theorem W18_keep (c : Dev nD) (r : Ref sig .tc) (h : r ∉ hostOps9_W) : W18 m ρ c (Proc.devRef .tc r) = W17 m ρ c (Proc.devRef .tc r) :=
  StableHlo.after_of_writes_sub hostOps9 _ hostOps9_writes h

/-- At region 9's exit: each output array at what the write-backs leave, every other buffer as entered. -/
def W19 (c : Dev nD) : Valuation τ sig (Elt F) :=
  (Function.update (W18 m ρ c) (Proc.devRef .tc (Pipeline.arrRef spec9 4)) ((dat9 (V18 m ρ) c).arrAt 4 cfg9.N))
theorem W19_out4 (c : Dev nD) : W19 m ρ c (Proc.devRef .tc (Pipeline.arrRef spec9 4)) = ((dat9 (V18 m ρ) c).arrAt 4 cfg9.N) := by
  unfold W19
  exact Function.update_self ..
theorem W19_of_ne (c : Dev nD) (b : Ref sig .tc) (h4 : Pipeline.arrRef spec9 4 ≠ b) :
    W19 m ρ c (Proc.devRef .tc b) = W18 m ρ c (Proc.devRef .tc b) := by
  unfold W19
  rw [Function.update_of_ne (StableHlo.devRef_ne_of_ne (Ne.symm h4))]
abbrev V19 : (c : Dev nD) → (b : Ref sig .tc) → Buf (Elt F) ((c : Thread nD τ).loc b) := fun c b => W19 m ρ c b
theorem hF9 (c : Dev nD) : ∀ w : Fin cfg9.W, (dat9 (V18 m ρ) c).arrAt w cfg9.N = V19 m ρ c (Pipeline.arrRef spec9 w)
  | ⟨0, _⟩ => ((dat9 (V18 m ρ) c).arrAt_in 0 rfl _).trans ((A_eq9 (V18 m ρ) c 0).trans (W19_of_ne m ρ c (Pipeline.arrRef spec9 0) (by decide)).symm)
  | ⟨1, _⟩ => ((dat9 (V18 m ρ) c).arrAt_in 1 rfl _).trans ((A_eq9 (V18 m ρ) c 1).trans (W19_of_ne m ρ c (Pipeline.arrRef spec9 1) (by decide)).symm)
  | ⟨2, _⟩ => ((dat9 (V18 m ρ) c).arrAt_in 2 rfl _).trans ((A_eq9 (V18 m ρ) c 2).trans (W19_of_ne m ρ c (Pipeline.arrRef spec9 2) (by decide)).symm)
  | ⟨3, _⟩ => ((dat9 (V18 m ρ) c).arrAt_in 3 rfl _).trans ((A_eq9 (V18 m ρ) c 3).trans (W19_of_ne m ρ c (Pipeline.arrRef spec9 3) (by decide)).symm)
  | ⟨4, _⟩ => (W19_out4 m ρ c).symm
  | ⟨n + 5, h⟩ => absurd h (Nat.not_lt.2 (Nat.le_add_left _ _))
theorem hrest9 (c : Dev nD) : ∀ b, b ∉ Finset.univ.image (Pipeline.arrRef spec9) → V19 m ρ c b = V18 m ρ c b :=
  fun b hb => W19_of_ne m ρ c b (fun e => hb (Finset.mem_image.mpr ⟨4, Finset.mem_univ _, e⟩))

/-- After the host stretch hostOps10. -/
abbrev W20 : Dev nD → Valuation τ sig (Elt F) := fun c => StableHlo.after hostOps10 (W19 m ρ c)
abbrev V20 : (c : Dev nD) → (b : Ref sig .tc) → Buf (Elt F) ((c : Thread nD τ).loc b) := fun c b => W20 m ρ c b
theorem W20_keep (c : Dev nD) (r : Ref sig .tc) (h : r ∉ hostOps10_W) : W20 m ρ c (Proc.devRef .tc r) = W19 m ρ c (Proc.devRef .tc r) :=
  StableHlo.after_of_writes_sub hostOps10 _ hostOps10_writes h

/-- At region 10's exit: each output array at what the write-backs leave, every other buffer as entered. -/
def W21 (c : Dev nD) : Valuation τ sig (Elt F) :=
  (Function.update (W20 m ρ c) (Proc.devRef .tc (Pipeline.arrRef spec10 5)) ((dat10 (V20 m ρ) c).arrAt 5 cfg10.N))
theorem W21_out5 (c : Dev nD) : W21 m ρ c (Proc.devRef .tc (Pipeline.arrRef spec10 5)) = ((dat10 (V20 m ρ) c).arrAt 5 cfg10.N) := by
  unfold W21
  exact Function.update_self ..
theorem W21_of_ne (c : Dev nD) (b : Ref sig .tc) (h5 : Pipeline.arrRef spec10 5 ≠ b) :
    W21 m ρ c (Proc.devRef .tc b) = W20 m ρ c (Proc.devRef .tc b) := by
  unfold W21
  rw [Function.update_of_ne (StableHlo.devRef_ne_of_ne (Ne.symm h5))]
abbrev V21 : (c : Dev nD) → (b : Ref sig .tc) → Buf (Elt F) ((c : Thread nD τ).loc b) := fun c b => W21 m ρ c b
theorem hF10 (c : Dev nD) : ∀ w : Fin cfg10.W, (dat10 (V20 m ρ) c).arrAt w cfg10.N = V21 m ρ c (Pipeline.arrRef spec10 w)
  | ⟨0, _⟩ => ((dat10 (V20 m ρ) c).arrAt_in 0 rfl _).trans ((A_eq10 (V20 m ρ) c 0).trans (W21_of_ne m ρ c (Pipeline.arrRef spec10 0) (by decide)).symm)
  | ⟨1, _⟩ => ((dat10 (V20 m ρ) c).arrAt_in 1 rfl _).trans ((A_eq10 (V20 m ρ) c 1).trans (W21_of_ne m ρ c (Pipeline.arrRef spec10 1) (by decide)).symm)
  | ⟨2, _⟩ => ((dat10 (V20 m ρ) c).arrAt_in 2 rfl _).trans ((A_eq10 (V20 m ρ) c 2).trans (W21_of_ne m ρ c (Pipeline.arrRef spec10 2) (by decide)).symm)
  | ⟨3, _⟩ => ((dat10 (V20 m ρ) c).arrAt_in 3 rfl _).trans ((A_eq10 (V20 m ρ) c 3).trans (W21_of_ne m ρ c (Pipeline.arrRef spec10 3) (by decide)).symm)
  | ⟨4, _⟩ => ((dat10 (V20 m ρ) c).arrAt_in 4 rfl _).trans ((A_eq10 (V20 m ρ) c 4).trans (W21_of_ne m ρ c (Pipeline.arrRef spec10 4) (by decide)).symm)
  | ⟨5, _⟩ => (W21_out5 m ρ c).symm
  | ⟨n + 6, h⟩ => absurd h (Nat.not_lt.2 (Nat.le_add_left _ _))
theorem hrest10 (c : Dev nD) : ∀ b, b ∉ Finset.univ.image (Pipeline.arrRef spec10) → V21 m ρ c b = V20 m ρ c b :=
  fun b hb => W21_of_ne m ρ c b (fun e => hb (Finset.mem_image.mpr ⟨5, Finset.mem_univ _, e⟩))

/-! ## The arguments end as launched -/

theorem W21_main_arg0 (c : Dev nD) : W21 m ρ c (Proc.devRef .tc main_arg0) = m ((c : Thread nD τ).loc main_arg0) :=
  calc W21 m ρ c (Proc.devRef .tc main_arg0)
    _ = W20 m ρ c (Proc.devRef .tc main_arg0) := W21_of_ne m ρ c main_arg0 (by decide)
    _ = W19 m ρ c (Proc.devRef .tc main_arg0) := W20_keep m ρ c main_arg0 (by decide)
    _ = W18 m ρ c (Proc.devRef .tc main_arg0) := W19_of_ne m ρ c main_arg0 (by decide)
    _ = W17 m ρ c (Proc.devRef .tc main_arg0) := W18_keep m ρ c main_arg0 (by decide)
    _ = W16 m ρ c (Proc.devRef .tc main_arg0) := W17_of_ne m ρ c main_arg0 (by decide)
    _ = W15 m ρ c (Proc.devRef .tc main_arg0) := W16_keep m ρ c main_arg0 (by decide)
    _ = W14 m ρ c (Proc.devRef .tc main_arg0) := W15_of_ne m ρ c main_arg0 (by decide)
    _ = W13 m ρ c (Proc.devRef .tc main_arg0) := W14_keep m ρ c main_arg0 (by decide)
    _ = W12 m ρ c (Proc.devRef .tc main_arg0) := W13_of_ne m ρ c main_arg0 (by decide)
    _ = W11 m ρ c (Proc.devRef .tc main_arg0) := W12_keep m ρ c main_arg0 (by decide)
    _ = W10 m ρ c (Proc.devRef .tc main_arg0) := W11_of_ne m ρ c main_arg0 (by decide)
    _ = W9 m ρ c (Proc.devRef .tc main_arg0) := W10_keep m ρ c main_arg0 (by decide)
    _ = W8 m ρ c (Proc.devRef .tc main_arg0) := W9_of_ne m ρ c main_arg0 (by decide)
    _ = W7 m ρ c (Proc.devRef .tc main_arg0) := W8_keep m ρ c main_arg0 (by decide)
    _ = W6 m ρ c (Proc.devRef .tc main_arg0) := W7_of_ne m ρ c main_arg0 (by decide)
    _ = W5 m ρ c (Proc.devRef .tc main_arg0) := W6_keep m ρ c main_arg0 (by decide)
    _ = W4 m ρ c (Proc.devRef .tc main_arg0) := W5_of_ne m ρ c main_arg0 (by decide)
    _ = W3 m ρ c (Proc.devRef .tc main_arg0) := W4_keep m ρ c main_arg0 (by decide)
    _ = W2 m ρ c (Proc.devRef .tc main_arg0) := W3_of_ne m ρ c main_arg0 (by decide)
    _ = W1 m ρ c (Proc.devRef .tc main_arg0) := W2_of_ne m ρ c main_arg0 (by decide) (by decide)
    _ = W0 m ρ c (Proc.devRef .tc main_arg0) := W1_keep m ρ c main_arg0 (by decide)
    _ = m ((c : Thread nD τ).loc main_arg0) := rfl

theorem W21_main_arg1 (c : Dev nD) : W21 m ρ c (Proc.devRef .tc main_arg1) = m ((c : Thread nD τ).loc main_arg1) :=
  calc W21 m ρ c (Proc.devRef .tc main_arg1)
    _ = W20 m ρ c (Proc.devRef .tc main_arg1) := W21_of_ne m ρ c main_arg1 (by decide)
    _ = W19 m ρ c (Proc.devRef .tc main_arg1) := W20_keep m ρ c main_arg1 (by decide)
    _ = W18 m ρ c (Proc.devRef .tc main_arg1) := W19_of_ne m ρ c main_arg1 (by decide)
    _ = W17 m ρ c (Proc.devRef .tc main_arg1) := W18_keep m ρ c main_arg1 (by decide)
    _ = W16 m ρ c (Proc.devRef .tc main_arg1) := W17_of_ne m ρ c main_arg1 (by decide)
    _ = W15 m ρ c (Proc.devRef .tc main_arg1) := W16_keep m ρ c main_arg1 (by decide)
    _ = W14 m ρ c (Proc.devRef .tc main_arg1) := W15_of_ne m ρ c main_arg1 (by decide)
    _ = W13 m ρ c (Proc.devRef .tc main_arg1) := W14_keep m ρ c main_arg1 (by decide)
    _ = W12 m ρ c (Proc.devRef .tc main_arg1) := W13_of_ne m ρ c main_arg1 (by decide)
    _ = W11 m ρ c (Proc.devRef .tc main_arg1) := W12_keep m ρ c main_arg1 (by decide)
    _ = W10 m ρ c (Proc.devRef .tc main_arg1) := W11_of_ne m ρ c main_arg1 (by decide)
    _ = W9 m ρ c (Proc.devRef .tc main_arg1) := W10_keep m ρ c main_arg1 (by decide)
    _ = W8 m ρ c (Proc.devRef .tc main_arg1) := W9_of_ne m ρ c main_arg1 (by decide)
    _ = W7 m ρ c (Proc.devRef .tc main_arg1) := W8_keep m ρ c main_arg1 (by decide)
    _ = W6 m ρ c (Proc.devRef .tc main_arg1) := W7_of_ne m ρ c main_arg1 (by decide)
    _ = W5 m ρ c (Proc.devRef .tc main_arg1) := W6_keep m ρ c main_arg1 (by decide)
    _ = W4 m ρ c (Proc.devRef .tc main_arg1) := W5_of_ne m ρ c main_arg1 (by decide)
    _ = W3 m ρ c (Proc.devRef .tc main_arg1) := W4_keep m ρ c main_arg1 (by decide)
    _ = W2 m ρ c (Proc.devRef .tc main_arg1) := W3_of_ne m ρ c main_arg1 (by decide)
    _ = W1 m ρ c (Proc.devRef .tc main_arg1) := W2_of_ne m ρ c main_arg1 (by decide) (by decide)
    _ = W0 m ρ c (Proc.devRef .tc main_arg1) := W1_keep m ρ c main_arg1 (by decide)
    _ = m ((c : Thread nD τ).loc main_arg1) := rfl

theorem W21_main_arg2 (c : Dev nD) : W21 m ρ c (Proc.devRef .tc main_arg2) = m ((c : Thread nD τ).loc main_arg2) :=
  calc W21 m ρ c (Proc.devRef .tc main_arg2)
    _ = W20 m ρ c (Proc.devRef .tc main_arg2) := W21_of_ne m ρ c main_arg2 (by decide)
    _ = W19 m ρ c (Proc.devRef .tc main_arg2) := W20_keep m ρ c main_arg2 (by decide)
    _ = W18 m ρ c (Proc.devRef .tc main_arg2) := W19_of_ne m ρ c main_arg2 (by decide)
    _ = W17 m ρ c (Proc.devRef .tc main_arg2) := W18_keep m ρ c main_arg2 (by decide)
    _ = W16 m ρ c (Proc.devRef .tc main_arg2) := W17_of_ne m ρ c main_arg2 (by decide)
    _ = W15 m ρ c (Proc.devRef .tc main_arg2) := W16_keep m ρ c main_arg2 (by decide)
    _ = W14 m ρ c (Proc.devRef .tc main_arg2) := W15_of_ne m ρ c main_arg2 (by decide)
    _ = W13 m ρ c (Proc.devRef .tc main_arg2) := W14_keep m ρ c main_arg2 (by decide)
    _ = W12 m ρ c (Proc.devRef .tc main_arg2) := W13_of_ne m ρ c main_arg2 (by decide)
    _ = W11 m ρ c (Proc.devRef .tc main_arg2) := W12_keep m ρ c main_arg2 (by decide)
    _ = W10 m ρ c (Proc.devRef .tc main_arg2) := W11_of_ne m ρ c main_arg2 (by decide)
    _ = W9 m ρ c (Proc.devRef .tc main_arg2) := W10_keep m ρ c main_arg2 (by decide)
    _ = W8 m ρ c (Proc.devRef .tc main_arg2) := W9_of_ne m ρ c main_arg2 (by decide)
    _ = W7 m ρ c (Proc.devRef .tc main_arg2) := W8_keep m ρ c main_arg2 (by decide)
    _ = W6 m ρ c (Proc.devRef .tc main_arg2) := W7_of_ne m ρ c main_arg2 (by decide)
    _ = W5 m ρ c (Proc.devRef .tc main_arg2) := W6_keep m ρ c main_arg2 (by decide)
    _ = W4 m ρ c (Proc.devRef .tc main_arg2) := W5_of_ne m ρ c main_arg2 (by decide)
    _ = W3 m ρ c (Proc.devRef .tc main_arg2) := W4_keep m ρ c main_arg2 (by decide)
    _ = W2 m ρ c (Proc.devRef .tc main_arg2) := W3_of_ne m ρ c main_arg2 (by decide)
    _ = W1 m ρ c (Proc.devRef .tc main_arg2) := W2_of_ne m ρ c main_arg2 (by decide) (by decide)
    _ = W0 m ρ c (Proc.devRef .tc main_arg2) := W1_keep m ρ c main_arg2 (by decide)
    _ = m ((c : Thread nD τ).loc main_arg2) := rfl

theorem W21_main_arg3 (c : Dev nD) : W21 m ρ c (Proc.devRef .tc main_arg3) = m ((c : Thread nD τ).loc main_arg3) :=
  calc W21 m ρ c (Proc.devRef .tc main_arg3)
    _ = W20 m ρ c (Proc.devRef .tc main_arg3) := W21_of_ne m ρ c main_arg3 (by decide)
    _ = W19 m ρ c (Proc.devRef .tc main_arg3) := W20_keep m ρ c main_arg3 (by decide)
    _ = W18 m ρ c (Proc.devRef .tc main_arg3) := W19_of_ne m ρ c main_arg3 (by decide)
    _ = W17 m ρ c (Proc.devRef .tc main_arg3) := W18_keep m ρ c main_arg3 (by decide)
    _ = W16 m ρ c (Proc.devRef .tc main_arg3) := W17_of_ne m ρ c main_arg3 (by decide)
    _ = W15 m ρ c (Proc.devRef .tc main_arg3) := W16_keep m ρ c main_arg3 (by decide)
    _ = W14 m ρ c (Proc.devRef .tc main_arg3) := W15_of_ne m ρ c main_arg3 (by decide)
    _ = W13 m ρ c (Proc.devRef .tc main_arg3) := W14_keep m ρ c main_arg3 (by decide)
    _ = W12 m ρ c (Proc.devRef .tc main_arg3) := W13_of_ne m ρ c main_arg3 (by decide)
    _ = W11 m ρ c (Proc.devRef .tc main_arg3) := W12_keep m ρ c main_arg3 (by decide)
    _ = W10 m ρ c (Proc.devRef .tc main_arg3) := W11_of_ne m ρ c main_arg3 (by decide)
    _ = W9 m ρ c (Proc.devRef .tc main_arg3) := W10_keep m ρ c main_arg3 (by decide)
    _ = W8 m ρ c (Proc.devRef .tc main_arg3) := W9_of_ne m ρ c main_arg3 (by decide)
    _ = W7 m ρ c (Proc.devRef .tc main_arg3) := W8_keep m ρ c main_arg3 (by decide)
    _ = W6 m ρ c (Proc.devRef .tc main_arg3) := W7_of_ne m ρ c main_arg3 (by decide)
    _ = W5 m ρ c (Proc.devRef .tc main_arg3) := W6_keep m ρ c main_arg3 (by decide)
    _ = W4 m ρ c (Proc.devRef .tc main_arg3) := W5_of_ne m ρ c main_arg3 (by decide)
    _ = W3 m ρ c (Proc.devRef .tc main_arg3) := W4_keep m ρ c main_arg3 (by decide)
    _ = W2 m ρ c (Proc.devRef .tc main_arg3) := W3_of_ne m ρ c main_arg3 (by decide)
    _ = W1 m ρ c (Proc.devRef .tc main_arg3) := W2_of_ne m ρ c main_arg3 (by decide) (by decide)
    _ = W0 m ρ c (Proc.devRef .tc main_arg3) := W1_keep m ρ c main_arg3 (by decide)
    _ = m ((c : Thread nD τ).loc main_arg3) := rfl

theorem W21_main_arg4 (c : Dev nD) : W21 m ρ c (Proc.devRef .tc main_arg4) = m ((c : Thread nD τ).loc main_arg4) :=
  calc W21 m ρ c (Proc.devRef .tc main_arg4)
    _ = W20 m ρ c (Proc.devRef .tc main_arg4) := W21_of_ne m ρ c main_arg4 (by decide)
    _ = W19 m ρ c (Proc.devRef .tc main_arg4) := W20_keep m ρ c main_arg4 (by decide)
    _ = W18 m ρ c (Proc.devRef .tc main_arg4) := W19_of_ne m ρ c main_arg4 (by decide)
    _ = W17 m ρ c (Proc.devRef .tc main_arg4) := W18_keep m ρ c main_arg4 (by decide)
    _ = W16 m ρ c (Proc.devRef .tc main_arg4) := W17_of_ne m ρ c main_arg4 (by decide)
    _ = W15 m ρ c (Proc.devRef .tc main_arg4) := W16_keep m ρ c main_arg4 (by decide)
    _ = W14 m ρ c (Proc.devRef .tc main_arg4) := W15_of_ne m ρ c main_arg4 (by decide)
    _ = W13 m ρ c (Proc.devRef .tc main_arg4) := W14_keep m ρ c main_arg4 (by decide)
    _ = W12 m ρ c (Proc.devRef .tc main_arg4) := W13_of_ne m ρ c main_arg4 (by decide)
    _ = W11 m ρ c (Proc.devRef .tc main_arg4) := W12_keep m ρ c main_arg4 (by decide)
    _ = W10 m ρ c (Proc.devRef .tc main_arg4) := W11_of_ne m ρ c main_arg4 (by decide)
    _ = W9 m ρ c (Proc.devRef .tc main_arg4) := W10_keep m ρ c main_arg4 (by decide)
    _ = W8 m ρ c (Proc.devRef .tc main_arg4) := W9_of_ne m ρ c main_arg4 (by decide)
    _ = W7 m ρ c (Proc.devRef .tc main_arg4) := W8_keep m ρ c main_arg4 (by decide)
    _ = W6 m ρ c (Proc.devRef .tc main_arg4) := W7_of_ne m ρ c main_arg4 (by decide)
    _ = W5 m ρ c (Proc.devRef .tc main_arg4) := W6_keep m ρ c main_arg4 (by decide)
    _ = W4 m ρ c (Proc.devRef .tc main_arg4) := W5_of_ne m ρ c main_arg4 (by decide)
    _ = W3 m ρ c (Proc.devRef .tc main_arg4) := W4_keep m ρ c main_arg4 (by decide)
    _ = W2 m ρ c (Proc.devRef .tc main_arg4) := W3_of_ne m ρ c main_arg4 (by decide)
    _ = W1 m ρ c (Proc.devRef .tc main_arg4) := W2_of_ne m ρ c main_arg4 (by decide) (by decide)
    _ = W0 m ρ c (Proc.devRef .tc main_arg4) := W1_keep m ρ c main_arg4 (by decide)
    _ = m ((c : Thread nD τ).loc main_arg4) := rfl

theorem W21_main_arg5 (c : Dev nD) : W21 m ρ c (Proc.devRef .tc main_arg5) = m ((c : Thread nD τ).loc main_arg5) :=
  calc W21 m ρ c (Proc.devRef .tc main_arg5)
    _ = W20 m ρ c (Proc.devRef .tc main_arg5) := W21_of_ne m ρ c main_arg5 (by decide)
    _ = W19 m ρ c (Proc.devRef .tc main_arg5) := W20_keep m ρ c main_arg5 (by decide)
    _ = W18 m ρ c (Proc.devRef .tc main_arg5) := W19_of_ne m ρ c main_arg5 (by decide)
    _ = W17 m ρ c (Proc.devRef .tc main_arg5) := W18_keep m ρ c main_arg5 (by decide)
    _ = W16 m ρ c (Proc.devRef .tc main_arg5) := W17_of_ne m ρ c main_arg5 (by decide)
    _ = W15 m ρ c (Proc.devRef .tc main_arg5) := W16_keep m ρ c main_arg5 (by decide)
    _ = W14 m ρ c (Proc.devRef .tc main_arg5) := W15_of_ne m ρ c main_arg5 (by decide)
    _ = W13 m ρ c (Proc.devRef .tc main_arg5) := W14_keep m ρ c main_arg5 (by decide)
    _ = W12 m ρ c (Proc.devRef .tc main_arg5) := W13_of_ne m ρ c main_arg5 (by decide)
    _ = W11 m ρ c (Proc.devRef .tc main_arg5) := W12_keep m ρ c main_arg5 (by decide)
    _ = W10 m ρ c (Proc.devRef .tc main_arg5) := W11_of_ne m ρ c main_arg5 (by decide)
    _ = W9 m ρ c (Proc.devRef .tc main_arg5) := W10_keep m ρ c main_arg5 (by decide)
    _ = W8 m ρ c (Proc.devRef .tc main_arg5) := W9_of_ne m ρ c main_arg5 (by decide)
    _ = W7 m ρ c (Proc.devRef .tc main_arg5) := W8_keep m ρ c main_arg5 (by decide)
    _ = W6 m ρ c (Proc.devRef .tc main_arg5) := W7_of_ne m ρ c main_arg5 (by decide)
    _ = W5 m ρ c (Proc.devRef .tc main_arg5) := W6_keep m ρ c main_arg5 (by decide)
    _ = W4 m ρ c (Proc.devRef .tc main_arg5) := W5_of_ne m ρ c main_arg5 (by decide)
    _ = W3 m ρ c (Proc.devRef .tc main_arg5) := W4_keep m ρ c main_arg5 (by decide)
    _ = W2 m ρ c (Proc.devRef .tc main_arg5) := W3_of_ne m ρ c main_arg5 (by decide)
    _ = W1 m ρ c (Proc.devRef .tc main_arg5) := W2_of_ne m ρ c main_arg5 (by decide) (by decide)
    _ = W0 m ρ c (Proc.devRef .tc main_arg5) := W1_keep m ρ c main_arg5 (by decide)
    _ = m ((c : Thread nD τ).loc main_arg5) := rfl

theorem W21_main_arg6 (c : Dev nD) : W21 m ρ c (Proc.devRef .tc main_arg6) = m ((c : Thread nD τ).loc main_arg6) :=
  calc W21 m ρ c (Proc.devRef .tc main_arg6)
    _ = W20 m ρ c (Proc.devRef .tc main_arg6) := W21_of_ne m ρ c main_arg6 (by decide)
    _ = W19 m ρ c (Proc.devRef .tc main_arg6) := W20_keep m ρ c main_arg6 (by decide)
    _ = W18 m ρ c (Proc.devRef .tc main_arg6) := W19_of_ne m ρ c main_arg6 (by decide)
    _ = W17 m ρ c (Proc.devRef .tc main_arg6) := W18_keep m ρ c main_arg6 (by decide)
    _ = W16 m ρ c (Proc.devRef .tc main_arg6) := W17_of_ne m ρ c main_arg6 (by decide)
    _ = W15 m ρ c (Proc.devRef .tc main_arg6) := W16_keep m ρ c main_arg6 (by decide)
    _ = W14 m ρ c (Proc.devRef .tc main_arg6) := W15_of_ne m ρ c main_arg6 (by decide)
    _ = W13 m ρ c (Proc.devRef .tc main_arg6) := W14_keep m ρ c main_arg6 (by decide)
    _ = W12 m ρ c (Proc.devRef .tc main_arg6) := W13_of_ne m ρ c main_arg6 (by decide)
    _ = W11 m ρ c (Proc.devRef .tc main_arg6) := W12_keep m ρ c main_arg6 (by decide)
    _ = W10 m ρ c (Proc.devRef .tc main_arg6) := W11_of_ne m ρ c main_arg6 (by decide)
    _ = W9 m ρ c (Proc.devRef .tc main_arg6) := W10_keep m ρ c main_arg6 (by decide)
    _ = W8 m ρ c (Proc.devRef .tc main_arg6) := W9_of_ne m ρ c main_arg6 (by decide)
    _ = W7 m ρ c (Proc.devRef .tc main_arg6) := W8_keep m ρ c main_arg6 (by decide)
    _ = W6 m ρ c (Proc.devRef .tc main_arg6) := W7_of_ne m ρ c main_arg6 (by decide)
    _ = W5 m ρ c (Proc.devRef .tc main_arg6) := W6_keep m ρ c main_arg6 (by decide)
    _ = W4 m ρ c (Proc.devRef .tc main_arg6) := W5_of_ne m ρ c main_arg6 (by decide)
    _ = W3 m ρ c (Proc.devRef .tc main_arg6) := W4_keep m ρ c main_arg6 (by decide)
    _ = W2 m ρ c (Proc.devRef .tc main_arg6) := W3_of_ne m ρ c main_arg6 (by decide)
    _ = W1 m ρ c (Proc.devRef .tc main_arg6) := W2_of_ne m ρ c main_arg6 (by decide) (by decide)
    _ = W0 m ρ c (Proc.devRef .tc main_arg6) := W1_keep m ρ c main_arg6 (by decide)
    _ = m ((c : Thread nD τ).loc main_arg6) := rfl

theorem W21_main_arg7 (c : Dev nD) : W21 m ρ c (Proc.devRef .tc main_arg7) = m ((c : Thread nD τ).loc main_arg7) :=
  calc W21 m ρ c (Proc.devRef .tc main_arg7)
    _ = W20 m ρ c (Proc.devRef .tc main_arg7) := W21_of_ne m ρ c main_arg7 (by decide)
    _ = W19 m ρ c (Proc.devRef .tc main_arg7) := W20_keep m ρ c main_arg7 (by decide)
    _ = W18 m ρ c (Proc.devRef .tc main_arg7) := W19_of_ne m ρ c main_arg7 (by decide)
    _ = W17 m ρ c (Proc.devRef .tc main_arg7) := W18_keep m ρ c main_arg7 (by decide)
    _ = W16 m ρ c (Proc.devRef .tc main_arg7) := W17_of_ne m ρ c main_arg7 (by decide)
    _ = W15 m ρ c (Proc.devRef .tc main_arg7) := W16_keep m ρ c main_arg7 (by decide)
    _ = W14 m ρ c (Proc.devRef .tc main_arg7) := W15_of_ne m ρ c main_arg7 (by decide)
    _ = W13 m ρ c (Proc.devRef .tc main_arg7) := W14_keep m ρ c main_arg7 (by decide)
    _ = W12 m ρ c (Proc.devRef .tc main_arg7) := W13_of_ne m ρ c main_arg7 (by decide)
    _ = W11 m ρ c (Proc.devRef .tc main_arg7) := W12_keep m ρ c main_arg7 (by decide)
    _ = W10 m ρ c (Proc.devRef .tc main_arg7) := W11_of_ne m ρ c main_arg7 (by decide)
    _ = W9 m ρ c (Proc.devRef .tc main_arg7) := W10_keep m ρ c main_arg7 (by decide)
    _ = W8 m ρ c (Proc.devRef .tc main_arg7) := W9_of_ne m ρ c main_arg7 (by decide)
    _ = W7 m ρ c (Proc.devRef .tc main_arg7) := W8_keep m ρ c main_arg7 (by decide)
    _ = W6 m ρ c (Proc.devRef .tc main_arg7) := W7_of_ne m ρ c main_arg7 (by decide)
    _ = W5 m ρ c (Proc.devRef .tc main_arg7) := W6_keep m ρ c main_arg7 (by decide)
    _ = W4 m ρ c (Proc.devRef .tc main_arg7) := W5_of_ne m ρ c main_arg7 (by decide)
    _ = W3 m ρ c (Proc.devRef .tc main_arg7) := W4_keep m ρ c main_arg7 (by decide)
    _ = W2 m ρ c (Proc.devRef .tc main_arg7) := W3_of_ne m ρ c main_arg7 (by decide)
    _ = W1 m ρ c (Proc.devRef .tc main_arg7) := W2_of_ne m ρ c main_arg7 (by decide) (by decide)
    _ = W0 m ρ c (Proc.devRef .tc main_arg7) := W1_keep m ρ c main_arg7 (by decide)
    _ = m ((c : Thread nD τ).loc main_arg7) := rfl

theorem W21_main_arg8 (c : Dev nD) : W21 m ρ c (Proc.devRef .tc main_arg8) = m ((c : Thread nD τ).loc main_arg8) :=
  calc W21 m ρ c (Proc.devRef .tc main_arg8)
    _ = W20 m ρ c (Proc.devRef .tc main_arg8) := W21_of_ne m ρ c main_arg8 (by decide)
    _ = W19 m ρ c (Proc.devRef .tc main_arg8) := W20_keep m ρ c main_arg8 (by decide)
    _ = W18 m ρ c (Proc.devRef .tc main_arg8) := W19_of_ne m ρ c main_arg8 (by decide)
    _ = W17 m ρ c (Proc.devRef .tc main_arg8) := W18_keep m ρ c main_arg8 (by decide)
    _ = W16 m ρ c (Proc.devRef .tc main_arg8) := W17_of_ne m ρ c main_arg8 (by decide)
    _ = W15 m ρ c (Proc.devRef .tc main_arg8) := W16_keep m ρ c main_arg8 (by decide)
    _ = W14 m ρ c (Proc.devRef .tc main_arg8) := W15_of_ne m ρ c main_arg8 (by decide)
    _ = W13 m ρ c (Proc.devRef .tc main_arg8) := W14_keep m ρ c main_arg8 (by decide)
    _ = W12 m ρ c (Proc.devRef .tc main_arg8) := W13_of_ne m ρ c main_arg8 (by decide)
    _ = W11 m ρ c (Proc.devRef .tc main_arg8) := W12_keep m ρ c main_arg8 (by decide)
    _ = W10 m ρ c (Proc.devRef .tc main_arg8) := W11_of_ne m ρ c main_arg8 (by decide)
    _ = W9 m ρ c (Proc.devRef .tc main_arg8) := W10_keep m ρ c main_arg8 (by decide)
    _ = W8 m ρ c (Proc.devRef .tc main_arg8) := W9_of_ne m ρ c main_arg8 (by decide)
    _ = W7 m ρ c (Proc.devRef .tc main_arg8) := W8_keep m ρ c main_arg8 (by decide)
    _ = W6 m ρ c (Proc.devRef .tc main_arg8) := W7_of_ne m ρ c main_arg8 (by decide)
    _ = W5 m ρ c (Proc.devRef .tc main_arg8) := W6_keep m ρ c main_arg8 (by decide)
    _ = W4 m ρ c (Proc.devRef .tc main_arg8) := W5_of_ne m ρ c main_arg8 (by decide)
    _ = W3 m ρ c (Proc.devRef .tc main_arg8) := W4_keep m ρ c main_arg8 (by decide)
    _ = W2 m ρ c (Proc.devRef .tc main_arg8) := W3_of_ne m ρ c main_arg8 (by decide)
    _ = W1 m ρ c (Proc.devRef .tc main_arg8) := W2_of_ne m ρ c main_arg8 (by decide) (by decide)
    _ = W0 m ρ c (Proc.devRef .tc main_arg8) := W1_keep m ρ c main_arg8 (by decide)
    _ = m ((c : Thread nD τ).loc main_arg8) := rfl

theorem W21_main_arg9 (c : Dev nD) : W21 m ρ c (Proc.devRef .tc main_arg9) = m ((c : Thread nD τ).loc main_arg9) :=
  calc W21 m ρ c (Proc.devRef .tc main_arg9)
    _ = W20 m ρ c (Proc.devRef .tc main_arg9) := W21_of_ne m ρ c main_arg9 (by decide)
    _ = W19 m ρ c (Proc.devRef .tc main_arg9) := W20_keep m ρ c main_arg9 (by decide)
    _ = W18 m ρ c (Proc.devRef .tc main_arg9) := W19_of_ne m ρ c main_arg9 (by decide)
    _ = W17 m ρ c (Proc.devRef .tc main_arg9) := W18_keep m ρ c main_arg9 (by decide)
    _ = W16 m ρ c (Proc.devRef .tc main_arg9) := W17_of_ne m ρ c main_arg9 (by decide)
    _ = W15 m ρ c (Proc.devRef .tc main_arg9) := W16_keep m ρ c main_arg9 (by decide)
    _ = W14 m ρ c (Proc.devRef .tc main_arg9) := W15_of_ne m ρ c main_arg9 (by decide)
    _ = W13 m ρ c (Proc.devRef .tc main_arg9) := W14_keep m ρ c main_arg9 (by decide)
    _ = W12 m ρ c (Proc.devRef .tc main_arg9) := W13_of_ne m ρ c main_arg9 (by decide)
    _ = W11 m ρ c (Proc.devRef .tc main_arg9) := W12_keep m ρ c main_arg9 (by decide)
    _ = W10 m ρ c (Proc.devRef .tc main_arg9) := W11_of_ne m ρ c main_arg9 (by decide)
    _ = W9 m ρ c (Proc.devRef .tc main_arg9) := W10_keep m ρ c main_arg9 (by decide)
    _ = W8 m ρ c (Proc.devRef .tc main_arg9) := W9_of_ne m ρ c main_arg9 (by decide)
    _ = W7 m ρ c (Proc.devRef .tc main_arg9) := W8_keep m ρ c main_arg9 (by decide)
    _ = W6 m ρ c (Proc.devRef .tc main_arg9) := W7_of_ne m ρ c main_arg9 (by decide)
    _ = W5 m ρ c (Proc.devRef .tc main_arg9) := W6_keep m ρ c main_arg9 (by decide)
    _ = W4 m ρ c (Proc.devRef .tc main_arg9) := W5_of_ne m ρ c main_arg9 (by decide)
    _ = W3 m ρ c (Proc.devRef .tc main_arg9) := W4_keep m ρ c main_arg9 (by decide)
    _ = W2 m ρ c (Proc.devRef .tc main_arg9) := W3_of_ne m ρ c main_arg9 (by decide)
    _ = W1 m ρ c (Proc.devRef .tc main_arg9) := W2_of_ne m ρ c main_arg9 (by decide) (by decide)
    _ = W0 m ρ c (Proc.devRef .tc main_arg9) := W1_keep m ρ c main_arg9 (by decide)
    _ = m ((c : Thread nD τ).loc main_arg9) := rfl

theorem W21_main_arg10 (c : Dev nD) : W21 m ρ c (Proc.devRef .tc main_arg10) = m ((c : Thread nD τ).loc main_arg10) :=
  calc W21 m ρ c (Proc.devRef .tc main_arg10)
    _ = W20 m ρ c (Proc.devRef .tc main_arg10) := W21_of_ne m ρ c main_arg10 (by decide)
    _ = W19 m ρ c (Proc.devRef .tc main_arg10) := W20_keep m ρ c main_arg10 (by decide)
    _ = W18 m ρ c (Proc.devRef .tc main_arg10) := W19_of_ne m ρ c main_arg10 (by decide)
    _ = W17 m ρ c (Proc.devRef .tc main_arg10) := W18_keep m ρ c main_arg10 (by decide)
    _ = W16 m ρ c (Proc.devRef .tc main_arg10) := W17_of_ne m ρ c main_arg10 (by decide)
    _ = W15 m ρ c (Proc.devRef .tc main_arg10) := W16_keep m ρ c main_arg10 (by decide)
    _ = W14 m ρ c (Proc.devRef .tc main_arg10) := W15_of_ne m ρ c main_arg10 (by decide)
    _ = W13 m ρ c (Proc.devRef .tc main_arg10) := W14_keep m ρ c main_arg10 (by decide)
    _ = W12 m ρ c (Proc.devRef .tc main_arg10) := W13_of_ne m ρ c main_arg10 (by decide)
    _ = W11 m ρ c (Proc.devRef .tc main_arg10) := W12_keep m ρ c main_arg10 (by decide)
    _ = W10 m ρ c (Proc.devRef .tc main_arg10) := W11_of_ne m ρ c main_arg10 (by decide)
    _ = W9 m ρ c (Proc.devRef .tc main_arg10) := W10_keep m ρ c main_arg10 (by decide)
    _ = W8 m ρ c (Proc.devRef .tc main_arg10) := W9_of_ne m ρ c main_arg10 (by decide)
    _ = W7 m ρ c (Proc.devRef .tc main_arg10) := W8_keep m ρ c main_arg10 (by decide)
    _ = W6 m ρ c (Proc.devRef .tc main_arg10) := W7_of_ne m ρ c main_arg10 (by decide)
    _ = W5 m ρ c (Proc.devRef .tc main_arg10) := W6_keep m ρ c main_arg10 (by decide)
    _ = W4 m ρ c (Proc.devRef .tc main_arg10) := W5_of_ne m ρ c main_arg10 (by decide)
    _ = W3 m ρ c (Proc.devRef .tc main_arg10) := W4_keep m ρ c main_arg10 (by decide)
    _ = W2 m ρ c (Proc.devRef .tc main_arg10) := W3_of_ne m ρ c main_arg10 (by decide)
    _ = W1 m ρ c (Proc.devRef .tc main_arg10) := W2_of_ne m ρ c main_arg10 (by decide) (by decide)
    _ = W0 m ρ c (Proc.devRef .tc main_arg10) := W1_keep m ρ c main_arg10 (by decide)
    _ = m ((c : Thread nD τ).loc main_arg10) := rfl

/-! ## The proof data family and the thread state -/

abbrev adm : (p : Fin 11) → (pcfgs (F := F) p).Adm := fun p => (cfgs p).toPCfg_adm
/-- Every pipeline's proof data, each at its region's entry contents: a literal match on the pipeline's number. -/
def pdats : (p : Fin 11) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V12 m ρ) c
  | ⟨7, _⟩ => fun c => dat7 (V14 m ρ) c
  | ⟨8, _⟩ => fun c => dat8 (V16 m ρ) c
  | ⟨9, _⟩ => fun c => dat9 (V18 m ρ) c
  | ⟨10, _⟩ => fun c => dat10 (V20 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W21 m ρ c) ∗ ∃ r, prngReg c r)

/-! ## The regions as segments -/

set_option backward.isDefEq.respectTransparency.types false in
/-- Region 0: entered from every unscoped buffer at boundary 1's contents, left at boundary 2's.  Its arrays are split out
    of the unscoped buffers and put back at the exit contents; the generator register goes into the invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at boundary 2's contents, left at boundary 3's.  Its arrays are split out
    of the unscoped buffers and put back at the exit contents; the generator register goes into the invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: as the others, except that its arrays are dealt from and returned to the unscoped buffers by the two lemmas
    above, the array of the initial features being read through two windows. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit : (unscopedBufs c (V4 m ρ c) : sProp 𝕄) ⊢ iprop((pdats m ρ 2 c).arrays ((pdats m ρ 2 c).arrAt · 0)
        ∗ Pipeline.unscopedRest (Ix := Unit) (Name := ℕ) (U := UR sig nD τ) (Lvl := ℕ) spec2 c (V4 m ρ c)) := entry2 (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N)
        ∗ Pipeline.unscopedRest (Ix := Unit) (Name := ℕ) (U := UR sig nD τ) (Lvl := ℕ) spec2 c (V4 m ρ c)) ⊢ (unscopedBufs c (V5 m ρ c) : sProp 𝕄) :=
      exit2 (V4 m ρ) c (V5 m ρ c) _ (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at boundary 6's contents, left at boundary 7's.  Its arrays are split out
    of the unscoped buffers and put back at the exit contents; the generator register goes into the invariant and out. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at boundary 8's contents, left at boundary 9's.  Its arrays are split out
    of the unscoped buffers and put back at the exit contents; the generator register goes into the invariant and out. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at boundary 10's contents, left at boundary 11's.  Its arrays are split out
    of the unscoped buffers and put back at the exit contents; the generator register goes into the invariant and out. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at boundary 12's contents, left at boundary 13's.  Its arrays are split out
    of the unscoped buffers and put back at the exit contents; the generator register goes into the invariant and out. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at boundary 14's contents, left at boundary 15's.  Its arrays are split out
    of the unscoped buffers and put back at the exit contents; the generator register goes into the invariant and out. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec7 c (V14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V14 m ρ c) (V15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at boundary 16's contents, left at boundary 17's.  Its arrays are split out
    of the unscoped buffers and put back at the exit contents; the generator register goes into the invariant and out. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V16 m ρ) c).loose
  hwaits := Pipeline.hwaits_of_owed_zero _ _ _ _ L lv 8 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec8 c (V16 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V16 m ρ c) (V17 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from every unscoped buffer at boundary 18's contents, left at boundary 19's.  Its arrays are split out
    of the unscoped buffers and put back at the exit contents; the generator register goes into the invariant and out. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V18 m ρ) c).loose
  hwaits := Pipeline.hwaits_of_owed_zero _ _ _ _ L lv 9 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec9 c (V18 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V18 m ρ c) (V19 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10: entered from every unscoped buffer at boundary 20's contents, left at boundary 21's.  Its arrays are split out
    of the unscoped buffers and put back at the exit contents; the generator register goes into the invariant and out. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V20 m ρ) c).loose
  hwaits := Pipeline.hwaits_of_owed_zero _ _ _ _ L lv 10 fun _ _ => rfl
  pre c := iprop(StableHlo.held (c : Thread nD τ) (Pipeline.ucRefs τ sig) (W20 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec10 c (V20 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V20 m ρ c) (V21 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)),
    .region (reg7 m ρ),
    .host (hseg hostOps8 hostOps8_sub hostOps8_fresh (W15 m ρ)),
    .region (reg8 m ρ),
    .host (hseg hostOps9 hostOps9_sub hostOps9_fresh (W17 m ρ)),
    .region (reg9 m ρ),
    .host (hseg hostOps10 hostOps10_sub hostOps10_fresh (W19 m ρ)),
    .region (reg10 m ρ) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W21_main_arg0 m ρ c),
    (h c _ (mem_uc main_arg1 (by decide))).trans (W21_main_arg1 m ρ c),
    (h c _ (mem_uc main_arg2 (by decide))).trans (W21_main_arg2 m ρ c),
    (h c _ (mem_uc main_arg3 (by decide))).trans (W21_main_arg3 m ρ c),
    (h c _ (mem_uc main_arg4 (by decide))).trans (W21_main_arg4 m ρ c),
    (h c _ (mem_uc main_arg5 (by decide))).trans (W21_main_arg5 m ρ c),
    (h c _ (mem_uc main_arg6 (by decide))).trans (W21_main_arg6 m ρ c),
    (h c _ (mem_uc main_arg7 (by decide))).trans (W21_main_arg7 m ρ c),
    (h c _ (mem_uc main_arg8 (by decide))).trans (W21_main_arg8 m ρ c),
    (h c _ (mem_uc main_arg9 (by decide))).trans (W21_main_arg9 m ρ c),
    (h c _ (mem_uc main_arg10 (by decide))).trans (W21_main_arg10 m ρ c)⟩) (run_all m ρ)

end Cert.Kernel.Hand

end
-- ==== Proof.KI.Reg0Run.lean ====
/-
  Region 0 (the column statistics): the body's two control cases as triples on whole staging memrefs.
  At the first row block of a view the body stores the block's column sums and sums of squares; at a later row
  block it adds them to what the two output buffers hold.
-/
import proofs.«129426_g120259084709_cont_main3_741_6_alg».proof.Proof.Gen.KernelIdeal.Launch
import proofs.«129426_g120259084709_cont_main3_741_6_alg».proof.Proof.Gen.KernelIdeal.Skeleton
import proofs.«129426_g120259084709_cont_main3_741_6_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two control cases, in closed form over the grid -/

/-- The first condition holds exactly at the first row block of a view, -/
theorem hcond0_1 : ∀ t : Fin cfg0.N, k0_cond1 (grid0.coords t) = 1#1 ↔ t.val % 5 = 0 :=
  (by decide +kernel : ∀ t : Fin grid0.N, k0_cond1 (grid0.coords t) = 1#1 ↔ t.val % 5 = 0)
/-- the second exactly at the others. -/
theorem hcond0_2 : ∀ t : Fin cfg0.N, k0_cond2 (grid0.coords t) = 1#1 ↔ ¬t.val % 5 = 0 :=
  (by decide +kernel : ∀ t : Fin grid0.N, k0_cond2 (grid0.coords t) = 1#1 ↔ ¬t.val % 5 = 0)

/-- The two output windows are idle nowhere: one of the two conditions holds at every point. -/
theorem liveAt0_1 : ∀ t : Fin cfg0.N, cfg0.idle 1 (grid0.coords t) = false := by decide +kernel
theorem liveAt0_2 : ∀ t : Fin cfg0.N, cfg0.idle 2 (grid0.coords t) = false := by decide +kernel

/-- The zero offsets, as the program spells them. -/
theorem hz_in : (![0, 0, 0] : Fin S1x1000x5000.rank → ℕ) = fun _ => 0 := by
  funext a; fin_cases a <;> rfl
theorem hz_out : (![0, 0, 0] : Fin S1x1x5000.rank → ℕ) = fun _ => 0 := by
  funext a; fin_cases a <;> rfl

/-- One store through the whole output block covers it. -/
theorem cover_out (p : Vec F S1x1x5000 .f32) (y : S1x1x5000.Idx) :
    ∃ pc ∈ ([⟨Rect.unit ![0, 0, 0] S1x1x5000.size inb_S1x1x5000_S1x1x5000_0_0_0, p⟩] : List (View.Piece (Elt F) S1x1x5000 .f32)), y ∈ pc.1.set :=
  ⟨_, List.mem_singleton_self _, View.mem_set_unit_zero hz_out inb_S1x1x5000_S1x1x5000_0_0_0 y⟩

/-! ## The body's triples -/

set_option maxHeartbeats 1000000 in
/-- At a first row block: the input's buffer at `x0`, the outputs' at anything; the body leaves the block's column
    sums in the first output buffer and its column sums of squares in the second. -/
theorem sound_kernel0_A (c : Dev nD) (E : Set ℕ) (i : grid0.Coords)
    (arg2 : Memref sig .tc .vmem S1x1000x5000 .f32) (harg2 : arg2.IsWhole)
    (arg3 : Memref sig .tc .vmem S1x1x5000 .f32) (harg3 : arg3.IsWhole)
    (arg4 : Memref sig .tc .vmem S1x1x5000 .f32) (harg4 : arg4.IsWhole)
    (hc1 : k0_cond1 i = 1#1) (hc2 : ¬k0_cond2 i = 1#1)
    (x0 : Vec F S1x1000x5000 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (k0_pay4 x0)
            ∗ owns (c : Thread nD τ) arg4 fullShare (k0_pay5 x0)) -∗ K ⟨⟩))
      ⊢ wp frame (wpE (defs₀ (F := F)) Variants.none c none) E (cc0__stats_kernel i arg2 harg2 arg3 harg3 arg4 harg4) K := by
  simp only [cc0__stats_kernel_eq_skeleton]; unfold cc0__stats_kernel_skel
  unfold owns
  iintro ⟨⟨%f0, %hf0, H0⟩, ⟨%d1, %f1, -, H1⟩, ⟨%d2, %f2, -, H2⟩, Hk⟩
  subst hf0
  sl_exec (disch := first | exact hc1 | exact hc2)
  sl_step
  iapply Hk
  isplitl [H0]
  · iexists f0; isplitr; · ipureintro; rfl
    iexact H0
  isplitl [H1]
  · iexists _; isplitr
    swap; · iexact H1
    ipureintro
    rw [View.read_writes_eq_canon _ _ _ (cover_out _),
      View.canon_unit_zero hz_out]
    simp only [View.readAt_eq_ld, View.ld_unit_zero (S := S1x1000x5000) hz_in]
  · iexists _; isplitr
    swap; · iexact H2
    ipureintro
    rw [View.read_writes_eq_canon _ _ _ (cover_out _),
      View.canon_unit_zero hz_out]
    simp only [View.readAt_eq_ld, View.ld_unit_zero (S := S1x1000x5000) hz_in]

set_option maxHeartbeats 1000000 in
/-- At a later row block: the input's buffer at `x0`, the outputs' at the running sums `xo1`, `xo2`; the body adds
    the block's column sums to the first and its column sums of squares to the second. -/
theorem sound_kernel0_B (c : Dev nD) (E : Set ℕ) (i : grid0.Coords)
    (arg2 : Memref sig .tc .vmem S1x1000x5000 .f32) (harg2 : arg2.IsWhole)
    (arg3 : Memref sig .tc .vmem S1x1x5000 .f32) (harg3 : arg3.IsWhole)
    (arg4 : Memref sig .tc .vmem S1x1x5000 .f32) (harg4 : arg4.IsWhole)
    (hc1 : ¬k0_cond1 i = 1#1) (hc2 : k0_cond2 i = 1#1)
    (x0 : Vec F S1x1000x5000 .f32) (xo1 xo2 : Vec F S1x1x5000 .f32) (K : PUnit → sProp 𝕄) :
    iprop(owns (c : Thread nD τ) arg2 fullShare x0 ∗ owns (c : Thread nD τ) arg3 fullShare xo1 ∗ owns (c : Thread nD τ) arg4 fullShare xo2
        ∗ (iprop(owns (c : Thread nD τ) arg2 fullShare x0 ∗ owns (c : Thread nD τ) arg3 fullShare (k0_pay6 x0 xo1)
            ∗ owns (c : Thread nD τ) arg4 fullShare (k0_pay7 x0 xo2)) -∗ K ⟨⟩))
      ⊢ wp frame (wpE (defs₀ (F := F)) Variants.none c none) E (cc0__stats_kernel i arg2 harg2 arg3 harg3 arg4 harg4) K := by
  simp only [cc0__stats_kernel_eq_skeleton]; unfold cc0__stats_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists _; isplitr
    swap; · iexact H1
    ipureintro
    rw [View.read_writes_eq_canon _ _ _ (cover_out _),
      View.canon_unit_zero hz_out]
    simp only [View.readAt_eq_ld, View.ld_unit_zero (S := S1x1000x5000) hz_in, View.ld_unit_zero (S := S1x1x5000) hz_out]
  · iexists _; isplitr
    swap; · iexact H2
    ipureintro
    rw [View.read_writes_eq_canon _ _ _ (cover_out _),
      View.canon_unit_zero hz_out]
    simp only [View.readAt_eq_ld, View.ld_unit_zero (S := S1x1000x5000) hz_in, View.ld_unit_zero (S := S1x1x5000) hz_out]

end Region0

end Cert.KernelIdeal.Hand

end
-- ==== Proof.KI.Reg0.lean ====
/-
  Region 0 (the column statistics): the proof data of its pipeline at the region-entry contents, and the body
  obligation.  The two output blocks of a view are revisited over its five row blocks: what their buffers hold
  after a point is the running column sums (sums of squares) of the row blocks of the view met so far.
-/
import proofs.«129426_g120259084709_cont_main3_741_6_alg».proof.Proof.KI.Reg0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- The two output windows are idle at no coordinates: the second grid coordinate is zero or it is not. -/
theorem hlive0_1 (i : grid0.Coords) : cfg0.idle 1 i = false := by
  show (!(k0_cond1 i == 1#1) && !(k0_cond2 i == 1#1)) = false
  unfold k0_cond1 k0_cond2
  dsimp only
  generalize i 1 = j
  revert j
  decide

theorem hlive0_2 (i : grid0.Coords) : cfg0.idle 2 i = false := by
  show (!(k0_cond1 i == 1#1) && !(k0_cond2 i == 1#1)) = false
  unfold k0_cond1 k0_cond2
  dsimp only
  generalize i 1 = j
  revert j
  decide

/-! ## What the two output buffers hold after each point -/

/-- The running column sums after the body at position `n`: at the first row block of a view the block's own,
    at a later one the block's added to what the point before left. -/
def sumAt0 (c : Dev nD) : (n : ℕ) → n < cfg0.N → Vec F S1x1x5000 .f32
  | 0, hn => k0_pay4 (iblk0 V c 0 ⟨0, hn⟩)
  | n + 1, hn =>
    if (n + 1) % 5 = 0 then k0_pay4 (iblk0 V c 0 ⟨n + 1, hn⟩)
    else k0_pay6 (iblk0 V c 0 ⟨n + 1, hn⟩) (sumAt0 c n (Nat.lt_of_succ_lt hn))

/-- The running column sums of squares, likewise. -/
def sqAt0 (c : Dev nD) : (n : ℕ) → n < cfg0.N → Vec F S1x1x5000 .f32
  | 0, hn => k0_pay5 (iblk0 V c 0 ⟨0, hn⟩)
  | n + 1, hn =>
    if (n + 1) % 5 = 0 then k0_pay5 (iblk0 V c 0 ⟨n + 1, hn⟩)
    else k0_pay7 (iblk0 V c 0 ⟨n + 1, hn⟩) (sqAt0 c n (Nat.lt_of_succ_lt hn))

theorem sumAt0_A (c : Dev nD) (t : Fin cfg0.N) (h0 : t.val % 5 = 0) :
    sumAt0 V c t.val t.isLt = k0_pay4 (iblk0 V c 0 t) := by
  obtain ⟨n, hn⟩ := t
  cases n with
  | zero => exact rfl
  | succ n => exact (if_pos h0).trans rfl

theorem sumAt0_B (c : Dev nD) (t : Fin cfg0.N) (h0 : ¬t.val % 5 = 0) :
    sumAt0 V c t.val t.isLt = k0_pay6 (iblk0 V c 0 t) (sumAt0 V c (t.val - 1) (Nat.lt_of_le_of_lt (Nat.sub_le _ _) t.isLt)) := by
  obtain ⟨n, hn⟩ := t
  cases n with
  | zero => exact absurd (Nat.zero_mod _) h0
  | succ n => exact (if_neg h0).trans rfl

theorem sqAt0_A (c : Dev nD) (t : Fin cfg0.N) (h0 : t.val % 5 = 0) :
    sqAt0 V c t.val t.isLt = k0_pay5 (iblk0 V c 0 t) := by
  obtain ⟨n, hn⟩ := t
  cases n with
  | zero => exact rfl
  | succ n => exact (if_pos h0).trans rfl

theorem sqAt0_B (c : Dev nD) (t : Fin cfg0.N) (h0 : ¬t.val % 5 = 0) :
    sqAt0 V c t.val t.isLt = k0_pay7 (iblk0 V c 0 t) (sqAt0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of pipeline 0 on core `c`: the arrays as the region finds them; after the body at point `t` the
    input's buffer at its block, the two outputs' at the running sums; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => sumAt0 V c t.val t.isLt
    | ⟨2, _⟩ => sqAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = sumAt0 V c t.val t.isLt := by dsimp only [dat0]
theorem after0_2 (c : Dev nD) (t : Fin cfg0.N) : (dat0 V c).after 2 t = sqAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- At a later row block an output's current buffer holds what the body left at the point before: the point is not
    the first, the buffer was not written back between, the window is idle nowhere and uncut. -/
theorem before0_1_B (c : Dev nD) (t : Fin cfg0.N) (h0 : ¬t.val % 5 = 0) (d) :
    (dat0 V c).before 1 t d = sumAt0 V c (t.val - 1) (Nat.lt_of_le_of_lt (Nat.sub_le _ _) t.isLt) := by
  have hN : t.val < 10 := lt_of_lt_of_eq t.isLt (show cfg0.N = 10 from N_0)
  rw [Dat.before_out_kept _ 1 rfl t (by omega) (Bool.eq_false_iff.mpr fun h => by have := (flush0_1 _).mp h; dsimp only at this; omega)
    hlive0_1 (fun _ _ => rfl)]
  dsimp only [dat0]

theorem before0_2_B (c : Dev nD) (t : Fin cfg0.N) (h0 : ¬t.val % 5 = 0) (d) :
    (dat0 V c).before 2 t d = sqAt0 V c (t.val - 1) (Nat.lt_of_le_of_lt (Nat.sub_le _ _) t.isLt) := by
  have hN : t.val < 10 := lt_of_lt_of_eq t.isLt (show cfg0.N = 10 from N_0)
  rw [Dat.before_out_kept _ 2 rfl t (by omega) (Bool.eq_false_iff.mpr fun h => by have := (flush0_2 _).mp h; dsimp only at this; omega)
    hlive0_2 (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ (dat0 V c).leavesExact 1 t
    ∗ (dat0 V c).leavesExact 2 t)

set_option maxHeartbeats 800000 in
/-- The body at any point: the input's memref holds its block; the closed forms say which case the point is in; at a
    later row block the outputs hold what the point before left; so the case's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    show (dat0 V c).leavesExact 1 t = owns (c : Thread nD τ) (st0_1 t) fullShare ((dat0 V c).after 1 t) from by
      unfold Dat.leavesExact; rw [liveAt0_1 t],
    show (dat0 V c).leavesExact 2 t = owns (c : Thread nD τ) (st0_2 t) fullShare ((dat0 V c).after 2 t) from by
      unfold Dat.leavesExact; rw [liveAt0_2 t],
    after0_0, after0_1, after0_2]
  have hN : t.val < 10 := lt_of_lt_of_eq t.isLt (show cfg0.N = 10 from N_0)
  by_cases h0 : t.val % 5 = 0
  · rw [sumAt0_A V c t h0, sqAt0_A V c t h0]
    iintro ⟨HΦ, Ho, ⟨%d0, H0⟩, ⟨%d1, H1⟩, ⟨%d2, H2⟩⟩
    iapply (sound_kernel0_A c Set.univ (grid0.coords t) _ _ _ _ _ _ ((hcond0_1 t).mpr h0) (fun h => (hcond0_2 t).mp h h0) (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [sumAt0_B V c t h0, sqAt0_B V c t h0]
    simp only [before0_1_B V c t h0, before0_2_B V c t h0]
    iintro ⟨HΦ, Ho, ⟨%d0, H0⟩, ⟨%d1, H1⟩, ⟨%d2, H2⟩⟩
    iapply (sound_kernel0_B c Set.univ (grid0.coords t) _ _ _ _ _ _ (fun h => h0 ((hcond0_1 t).mp h)) ((hcond0_2 t).mpr h0) (iblk0 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1.lean ====
/-
  Region 1 of the program: the fused normalise / input-projection / leaky-rectifier call on the grid (2, 5).
  Eight windows: the feature block, the column sums and sums of squares, the scale and shift rows, the input
  weights, the bias row, and the output block.  One control case, one whole-block store (class A).
  At a parameter `V`, the TensorCore's buffer contents when the region is entered: each window's block at a point,
  what the body leaves in the output buffer, the body's triple, the proof data and the body obligation.
  Generic in the float instance.
-/
import proofs.«129426_g120259084709_cont_main3_741_6_alg».proof.Proof.Gen.KernelIdeal.Launch
import proofs.«129426_g120259084709_cont_main3_741_6_alg».proof.Proof.Gen.KernelIdeal.Skeleton
import proofs.«129426_g120259084709_cont_main3_741_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s (`hA`) and whose body leaves the block in place (`hafter`): unfetched, the block index
    has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1x1000x5000 := Rect.unit (s := S1x1000x5000) ![0, 0, 0] S1x1000x5000.size inb_S1x1000x5000_S1x1000x5000_0_0_0
abbrev r1_1 : Rect S1x1x5000 := Rect.unit (s := S1x1x5000) ![0, 0, 0] S1x1x5000.size inb_S1x1x5000_S1x1x5000_0_0_0
abbrev r1_5 : Rect S1x5000x128 := Rect.unit (s := S1x5000x128) ![0, 0, 0] S1x5000x128.size inb_S1x5000x128_S1x5000x128_0_0_0
abbrev r1_6 : Rect S1x1x128 := Rect.unit (s := S1x1x128) ![0, 0, 0] S1x1x128.size inb_S1x1x128_S1x1x128_0_0_0
abbrev r1_7 : Rect S1x1000x128 := Rect.unit (s := S1x1000x128) ![0, 0, 0] S1x1000x128.size inb_S1x1000x128_S1x1000x128_0_0_0

/-! ## What the body leaves in the output window's buffer -/

/-- Window 7's staging buffer after the body, from the input windows' blocks: its one store, of the rectified
    projection of the normalised features. -/
def out1_7 (x0 : Vec F S1x1000x5000 .f32) (x1 : Vec F S1x1x5000 .f32) (x2 : Vec F S1x1x5000 .f32) (x3 : Vec F S1x1x5000 .f32) (x4 : Vec F S1x1x5000 .f32) (x5 : Vec F S1x5000x128 .f32) (x6 : Vec F S1x1x128 .f32) : Vec F S1x1000x128 .f32 :=
  View.canon [⟨r1_7, k1_pay1 (k1_pay2 (View.ld x0 r1_0) (View.ld x1 r1_1) (View.ld x2 r1_1) (View.ld x3 r1_1) (View.ld x4 r1_1) (View.ld x5 r1_5) (View.ld x6 r1_6))⟩]

/-- The store tiles the buffer (checked by evaluation), so it covers it. -/
theorem cover1_7 (p0 : Vec F S1x1000x128 .f32) (y : S1x1000x128.Idx) :
    ∃ pc ∈ ([⟨r1_7, p0⟩] : List (View.Piece (Elt F) S1x1000x128 .f32)), y ∈ pc.1.set :=
  View.cover_of_tiled [⟨r1_7, p0⟩] S1x1000x128.size (by rfl) y

/-! ## The body's triple -/

set_option maxHeartbeats 1000000 in
/-- The kernel body on whole staging memrefs, the inputs' at read contents `xW` and the output's at anything, runs to
    the continuation holding the inputs' as they were and the output's at `out1_7` of the inputs'. -/
theorem sound_kernel1 (c : Dev nD) (E : Set ℕ) (i : grid1.Coords) (arg2 : Memref sig .tc .vmem S1x1000x5000 .f32) (harg2 : arg2.IsWhole) (arg3 : Memref sig .tc .vmem S1x1x5000 .f32) (harg3 : arg3.IsWhole) (arg4 : Memref sig .tc .vmem S1x1x5000 .f32) (harg4 : arg4.IsWhole) (arg5 : Memref sig .tc .vmem S1x1x5000 .f32) (harg5 : arg5.IsWhole) (arg6 : Memref sig .tc .vmem S1x1x5000 .f32) (harg6 : arg6.IsWhole) (arg7 : Memref sig .tc .vmem S1x5000x128 .f32) (harg7 : arg7.IsWhole) (arg8 : Memref sig .tc .vmem S1x1x128 .f32) (harg8 : arg8.IsWhole) (arg9 : Memref sig .tc .vmem S1x1000x128 .f32) (harg9 : arg9.IsWhole)
    (x0 : Vec F S1x1000x5000 .f32) (x1 : Vec F S1x1x5000 .f32) (x2 : Vec F S1x1x5000 .f32) (x3 : Vec F S1x1x5000 .f32) (x4 : Vec F S1x1x5000 .f32) (x5 : Vec F S1x5000x128 .f32) (x6 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 x0 x1 x2 x3 x4 x5 x6)) -∗ K ⟨⟩))
      ⊢ wp frame (wpE (defs₀ (F := F)) Variants.none c none) E (cc1__inproj_kernel i arg2 harg2 arg3 harg3 arg4 harg4 arg5 harg5 arg6 harg6 arg7 harg7 arg8 harg8 arg9 harg9) K := by
  simp only [cc1__inproj_kernel_eq_skeleton]; unfold cc1__inproj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and the output's at `out1_7` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Reg2.lean ====
/-
  Region 2 of the kernel program's @main: one propagation layer, custom_call 2 (`cc2__layer_kernel`,
  pipeline 2), on the grid (2, 5), stated at a parameter `V` — the TensorCore's buffer contents when the
  region is entered. Per window its block at a point (`iblk2`); what the body leaves in the output
  window's staging buffer (`out2_4`: the single full-block store of the skeleton's payload); the body's
  triple on whole staging memrefs (`sound_kernel2`); the pipeline's proof data (`dat2`: arrays as found,
  full shares, nothing owed) and the body obligation at every point (`body_obligation2`).
  Generic in the float instance.
-/
import proofs.«129426_g120259084709_cont_main3_741_6_alg».proof.Proof.Gen.KernelIdeal.Launch
import proofs.«129426_g120259084709_cont_main3_741_6_alg».proof.Proof.Gen.KernelIdeal.Skeleton
import proofs.«129426_g120259084709_cont_main3_741_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an unfetched
    point has the block index of the point before), for any proof data whose array is `V`'s and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an unfetched
    point has the block index of the point before), for any proof data whose array is `V`'s and whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an unfetched
    point has the block index of the point before), for any proof data whose array is `V`'s and whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (an unfetched
    point has the block index of the point before), for any proof data whose array is `V`'s and whose body
    leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole staging buffer -/

abbrev r2_0 : Rect S1x5000x128 := Rect.unit (s := S1x5000x128) ![0, 0, 0] S1x5000x128.size inb_S1x5000x128_S1x5000x128_0_0_0
abbrev r2_1 : Rect S1x1000x5000 := Rect.unit (s := S1x1000x5000) ![0, 0, 0] S1x1000x5000.size inb_S1x1000x5000_S1x1000x5000_0_0_0
abbrev r2_2 : Rect S1x1000x128 := Rect.unit (s := S1x1000x128) ![0, 0, 0] S1x1000x128.size inb_S1x1000x128_S1x1000x128_0_0_0
abbrev r2_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out2_4 (x0 : Vec F S1x1000x5000 .bf16) (x1 : Vec F S1x5000x128 .f32) (x2 : Vec F S1x1000x128 .f32) (x3 : Vec F S1x128x128 .f32) :
    Vec F S1x1000x128 .f32 :=
  View.canon [⟨r2_2, k2_pay1 (View.ld x1 r2_0) (View.ld x0 r2_1) (View.ld x2 r2_2) (View.ld x3 r2_3)⟩]

/-- The store tiles the buffer, so it covers it. -/
theorem cover2_4 (p0 : Vec F S1x1000x128 .f32) (y : S1x1000x128.Idx) :
    ∃ pc ∈ ([⟨r2_2, p0⟩] : List (View.Piece (Elt F) S1x1000x128 .f32)), y ∈ pc.1.set :=
  View.cover_of_tiled [⟨r2_2, p0⟩] S1x1000x128.size (by rfl) y

/-! ## The body's triple -/

set_option maxHeartbeats 1000000 in
/-- The kernel body on whole staging memrefs, the inputs' at read contents `xW` and the output's at anything, runs to
    the continuation holding the inputs' as they were and the output's at `out2_4` of the inputs'. -/
theorem sound_kernel2 (c : Dev nD) (E : Set ℕ) (i : grid2.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2__layer_kernel i arg2 harg2 arg3 harg3 arg4 harg4 arg5 harg5 arg6 harg6) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and the output's at `out2_4` of the input blocks; the class's
    invariant (the scoped rest and the generator register, untouched); nothing owed; windows 1 and 2 read one
    array, held half and half (the left and the right half of the full share), every other array at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q w := match w with
    | ⟨1, _⟩ => fullShare.left
    | ⟨2, _⟩ => fullShare.right
    | _ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of the kernel program's @main: one propagation layer, custom_call 3 (`cc3__layer_kernel`,
  pipeline 3), on the grid (2, 5), stated at a parameter `V` — the TensorCore's buffer contents when the
  region is entered. Per window its block at a point (`iblk3`); what the body leaves in the output
  window's staging buffer (`out3_4`: the single full-block store of the skeleton's payload); the body's
  triple on whole staging memrefs (`sound_kernel3`); the pipeline's proof data (`dat3`: arrays as found,
  full shares, nothing owed) and the body obligation at every point (`body_obligation3`).
  Generic in the float instance.
-/
import proofs.«129426_g120259084709_cont_main3_741_6_alg».proof.Proof.Gen.KernelIdeal.Launch
import proofs.«129426_g120259084709_cont_main3_741_6_alg».proof.Proof.Gen.KernelIdeal.Skeleton
import proofs.«129426_g120259084709_cont_main3_741_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (an unfetched
    point has the block index of the point before), for any proof data whose array is `V`'s and whose body
    leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (an unfetched
    point has the block index of the point before), for any proof data whose array is `V`'s and whose body
    leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (an unfetched
    point has the block index of the point before), for any proof data whose array is `V`'s and whose body
    leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (an unfetched
    point has the block index of the point before), for any proof data whose array is `V`'s and whose body
    leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole staging buffer -/

abbrev r3_0 : Rect S1x5000x128 := Rect.unit (s := S1x5000x128) ![0, 0, 0] S1x5000x128.size inb_S1x5000x128_S1x5000x128_0_0_0
abbrev r3_1 : Rect S1x1000x5000 := Rect.unit (s := S1x1000x5000) ![0, 0, 0] S1x1000x5000.size inb_S1x1000x5000_S1x1000x5000_0_0_0
abbrev r3_2 : Rect S1x1000x128 := Rect.unit (s := S1x1000x128) ![0, 0, 0] S1x1000x128.size inb_S1x1000x128_S1x1000x128_0_0_0
abbrev r3_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out3_4 (x0 : Vec F S1x1000x5000 .bf16) (x1 : Vec F S1x5000x128 .f32) (x2 : Vec F S1x1000x128 .f32) (x3 : Vec F S1x128x128 .f32) :
    Vec F S1x1000x128 .f32 :=
  View.canon [⟨r3_2, k3_pay1 (View.ld x1 r3_0) (View.ld x0 r3_1) (View.ld x2 r3_2) (View.ld x3 r3_3)⟩]

/-- The store tiles the buffer, so it covers it. -/
theorem cover3_4 (p0 : Vec F S1x1000x128 .f32) (y : S1x1000x128.Idx) :
    ∃ pc ∈ ([⟨r3_2, p0⟩] : List (View.Piece (Elt F) S1x1000x128 .f32)), y ∈ pc.1.set :=
  View.cover_of_tiled [⟨r3_2, p0⟩] S1x1000x128.size (by rfl) y

/-! ## The body's triple -/

set_option maxHeartbeats 1000000 in
/-- The kernel body on whole staging memrefs, the inputs' at read contents `xW` and the output's at anything, runs to
    the continuation holding the inputs' as they were and the output's at `out3_4` of the inputs'. -/
theorem sound_kernel3 (c : Dev nD) (E : Set ℕ) (i : grid3.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out3_4 x0 x1 x2 x3)) -∗ K ⟨⟩))
      ⊢ wp frame (wpE (defs₀ (F := F)) Variants.none c none) E (cc3__layer_kernel i arg2 harg2 arg3 harg3 arg4 harg4 arg5 harg5 arg6 harg6) K := by
  simp only [cc3__layer_kernel_eq_skeleton]; unfold cc3__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the region finds them (`V`); after the body at
    point `t` each input's buffer at its block and the output's at `out3_4` of the input blocks; the class's
    invariant (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 of the kernel program's @main: one propagation layer, custom_call 4 (`cc4__layer_kernel`,
  pipeline 4), on the grid (2, 5), stated at a parameter `V` — the TensorCore's buffer contents when the
  region is entered. Per window its block at a point (`iblk4`); what the body leaves in the output
  window's staging buffer (`out4_4`: the single full-block store of the skeleton's payload); the body's
  triple on whole staging memrefs (`sound_kernel4`); the pipeline's proof data (`dat4`: arrays as found,
  full shares, nothing owed) and the body obligation at every point (`body_obligation4`).
  Generic in the float instance.
-/
import proofs.«129426_g120259084709_cont_main3_741_6_alg».proof.Proof.Gen.KernelIdeal.Launch
import proofs.«129426_g120259084709_cont_main3_741_6_alg».proof.Proof.Gen.KernelIdeal.Skeleton
import proofs.«129426_g120259084709_cont_main3_741_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (an unfetched
    point has the block index of the point before), for any proof data whose array is `V`'s and whose body
    leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (an unfetched
    point has the block index of the point before), for any proof data whose array is `V`'s and whose body
    leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (an unfetched
    point has the block index of the point before), for any proof data whose array is `V`'s and whose body
    leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (an unfetched
    point has the block index of the point before), for any proof data whose array is `V`'s and whose body
    leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole staging buffer -/

abbrev r4_0 : Rect S1x5000x128 := Rect.unit (s := S1x5000x128) ![0, 0, 0] S1x5000x128.size inb_S1x5000x128_S1x5000x128_0_0_0
abbrev r4_1 : Rect S1x1000x5000 := Rect.unit (s := S1x1000x5000) ![0, 0, 0] S1x1000x5000.size inb_S1x1000x5000_S1x1000x5000_0_0_0
abbrev r4_2 : Rect S1x1000x128 := Rect.unit (s := S1x1000x128) ![0, 0, 0] S1x1000x128.size inb_S1x1000x128_S1x1000x128_0_0_0
abbrev r4_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out4_4 (x0 : Vec F S1x1000x5000 .bf16) (x1 : Vec F S1x5000x128 .f32) (x2 : Vec F S1x1000x128 .f32) (x3 : Vec F S1x128x128 .f32) :
    Vec F S1x1000x128 .f32 :=
  View.canon [⟨r4_2, k4_pay1 (View.ld x1 r4_0) (View.ld x0 r4_1) (View.ld x2 r4_2) (View.ld x3 r4_3)⟩]

/-- The store tiles the buffer, so it covers it. -/
theorem cover4_4 (p0 : Vec F S1x1000x128 .f32) (y : S1x1000x128.Idx) :
    ∃ pc ∈ ([⟨r4_2, p0⟩] : List (View.Piece (Elt F) S1x1000x128 .f32)), y ∈ pc.1.set :=
  View.cover_of_tiled [⟨r4_2, p0⟩] S1x1000x128.size (by rfl) y

/-! ## The body's triple -/

set_option maxHeartbeats 1000000 in
/-- The kernel body on whole staging memrefs, the inputs' at read contents `xW` and the output's at anything, runs to
    the continuation holding the inputs' as they were and the output's at `out4_4` of the inputs'. -/
theorem sound_kernel4 (c : Dev nD) (E : Set ℕ) (i : grid4.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4_4 x0 x1 x2 x3)) -∗ K ⟨⟩))
      ⊢ wp frame (wpE (defs₀ (F := F)) Variants.none c none) E (cc4__layer_kernel i arg2 harg2 arg3 harg3 arg4 harg4 arg5 harg5 arg6 harg6) K := by
  simp only [cc4__layer_kernel_eq_skeleton]; unfold cc4__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core `c`: the arrays as the region finds them (`V`); after the body at
    point `t` each input's buffer at its block and the output's at `out4_4` of the input blocks; the class's
    invariant (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
/-
  Region 5 of the kernel program's @main: one propagation layer, custom_call 5 (`cc5__layer_kernel`,
  pipeline 5), on the grid (2, 5), stated at a parameter `V` — the TensorCore's buffer contents when the
  region is entered. Per window its block at a point (`iblk5`); what the body leaves in the output
  window's staging buffer (`out5_4`: the single full-block store of the skeleton's payload); the body's
  triple on whole staging memrefs (`sound_kernel5`); the pipeline's proof data (`dat5`: arrays as found,
  full shares, nothing owed) and the body obligation at every point (`body_obligation5`).
  Generic in the float instance.
-/
import proofs.«129426_g120259084709_cont_main3_741_6_alg».proof.Proof.Gen.KernelIdeal.Launch
import proofs.«129426_g120259084709_cont_main3_741_6_alg».proof.Proof.Gen.KernelIdeal.Skeleton
import proofs.«129426_g120259084709_cont_main3_741_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (an unfetched
    point has the block index of the point before), for any proof data whose array is `V`'s and whose body
    leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (an unfetched
    point has the block index of the point before), for any proof data whose array is `V`'s and whose body
    leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not (an unfetched
    point has the block index of the point before), for any proof data whose array is `V`'s and whose body
    leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not (an unfetched
    point has the block index of the point before), for any proof data whose array is `V`'s and whose body
    leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole staging buffer -/

abbrev r5_0 : Rect S1x5000x128 := Rect.unit (s := S1x5000x128) ![0, 0, 0] S1x5000x128.size inb_S1x5000x128_S1x5000x128_0_0_0
abbrev r5_1 : Rect S1x1000x5000 := Rect.unit (s := S1x1000x5000) ![0, 0, 0] S1x1000x5000.size inb_S1x1000x5000_S1x1000x5000_0_0_0
abbrev r5_2 : Rect S1x1000x128 := Rect.unit (s := S1x1000x128) ![0, 0, 0] S1x1000x128.size inb_S1x1000x128_S1x1000x128_0_0_0
abbrev r5_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out5_4 (x0 : Vec F S1x1000x5000 .bf16) (x1 : Vec F S1x5000x128 .f32) (x2 : Vec F S1x1000x128 .f32) (x3 : Vec F S1x128x128 .f32) :
    Vec F S1x1000x128 .f32 :=
  View.canon [⟨r5_2, k5_pay1 (View.ld x1 r5_0) (View.ld x0 r5_1) (View.ld x2 r5_2) (View.ld x3 r5_3)⟩]

/-- The store tiles the buffer, so it covers it. -/
theorem cover5_4 (p0 : Vec F S1x1000x128 .f32) (y : S1x1000x128.Idx) :
    ∃ pc ∈ ([⟨r5_2, p0⟩] : List (View.Piece (Elt F) S1x1000x128 .f32)), y ∈ pc.1.set :=
  View.cover_of_tiled [⟨r5_2, p0⟩] S1x1000x128.size (by rfl) y

/-! ## The body's triple -/

set_option maxHeartbeats 1000000 in
/-- The kernel body on whole staging memrefs, the inputs' at read contents `xW` and the output's at anything, runs to
    the continuation holding the inputs' as they were and the output's at `out5_4` of the inputs'. -/
theorem sound_kernel5 (c : Dev nD) (E : Set ℕ) (i : grid5.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out5_4 x0 x1 x2 x3)) -∗ K ⟨⟩))
      ⊢ wp frame (wpE (defs₀ (F := F)) Variants.none c none) E (cc5__layer_kernel i arg2 harg2 arg3 harg3 arg4 harg4 arg5 harg5 arg6 harg6) K := by
  simp only [cc5__layer_kernel_eq_skeleton]; unfold cc5__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them (`V`); after the body at
    point `t` each input's buffer at its block and the output's at `out5_4` of the input blocks; the class's
    invariant (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/-
  Region 6 of the kernel program's @main: one propagation layer, custom_call 6 (`cc6__layer_kernel`,
  pipeline 6), on the grid (2, 5), stated at a parameter `V` — the TensorCore's buffer contents when the
  region is entered. Per window its block at a point (`iblk6`); what the body leaves in the output
  window's staging buffer (`out6_4`: the single full-block store of the skeleton's payload); the body's
  triple on whole staging memrefs (`sound_kernel6`); the pipeline's proof data (`dat6`: arrays as found,
  full shares, nothing owed) and the body obligation at every point (`body_obligation6`).
  Generic in the float instance.
-/
import proofs.«129426_g120259084709_cont_main3_741_6_alg».proof.Proof.Gen.KernelIdeal.Launch
import proofs.«129426_g120259084709_cont_main3_741_6_alg».proof.Proof.Gen.KernelIdeal.Skeleton
import proofs.«129426_g120259084709_cont_main3_741_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (an unfetched
    point has the block index of the point before), for any proof data whose array is `V`'s and whose body
    leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not (an unfetched
    point has the block index of the point before), for any proof data whose array is `V`'s and whose body
    leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not (an unfetched
    point has the block index of the point before), for any proof data whose array is `V`'s and whose body
    leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not (an unfetched
    point has the block index of the point before), for any proof data whose array is `V`'s and whose body
    leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is the whole staging buffer -/

abbrev r6_0 : Rect S1x5000x128 := Rect.unit (s := S1x5000x128) ![0, 0, 0] S1x5000x128.size inb_S1x5000x128_S1x5000x128_0_0_0
abbrev r6_1 : Rect S1x1000x5000 := Rect.unit (s := S1x1000x5000) ![0, 0, 0] S1x1000x5000.size inb_S1x1000x5000_S1x1000x5000_0_0_0
abbrev r6_2 : Rect S1x1000x128 := Rect.unit (s := S1x1000x128) ![0, 0, 0] S1x1000x128.size inb_S1x1000x128_S1x1000x128_0_0_0
abbrev r6_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out6_4 (x0 : Vec F S1x1000x5000 .bf16) (x1 : Vec F S1x5000x128 .f32) (x2 : Vec F S1x1000x128 .f32) (x3 : Vec F S1x128x128 .f32) :
    Vec F S1x1000x128 .f32 :=
  View.canon [⟨r6_2, k6_pay1 (View.ld x1 r6_0) (View.ld x0 r6_1) (View.ld x2 r6_2) (View.ld x3 r6_3)⟩]

/-- The store tiles the buffer, so it covers it. -/
theorem cover6_4 (p0 : Vec F S1x1000x128 .f32) (y : S1x1000x128.Idx) :
    ∃ pc ∈ ([⟨r6_2, p0⟩] : List (View.Piece (Elt F) S1x1000x128 .f32)), y ∈ pc.1.set :=
  View.cover_of_tiled [⟨r6_2, p0⟩] S1x1000x128.size (by rfl) y

/-! ## The body's triple -/

set_option maxHeartbeats 1000000 in
/-- The kernel body on whole staging memrefs, the inputs' at read contents `xW` and the output's at anything, runs to
    the continuation holding the inputs' as they were and the output's at `out6_4` of the inputs'. -/
theorem sound_kernel6 (c : Dev nD) (E : Set ℕ) (i : grid6.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out6_4 x0 x1 x2 x3)) -∗ K ⟨⟩))
      ⊢ wp frame (wpE (defs₀ (F := F)) Variants.none c none) E (cc6__layer_kernel i arg2 harg2 arg3 harg3 arg4 harg4 arg5 harg5 arg6 harg6) K := by
  simp only [cc6__layer_kernel_eq_skeleton]; unfold cc6__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-! ## The pipeline's proof data -/

/-- The proof data of pipeline 6 on core `c`: the arrays as the region finds them (`V`); after the body at
    point `t` each input's buffer at its block and the output's at `out6_4` of the input blocks; the class's
    invariant (the scoped rest and the generator register, untouched); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) :
    (dat6 V c).after 4 t = out6_4 (iblk6 V c 0 t) (iblk6 V c 1 t) (iblk6 V c 2 t) (iblk6 V c 3 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
/-
  Region 7 of the kernel program's @main: one propagation layer, custom_call 7 (`cc7__layer_kernel`,
  pipeline 7), on the grid (2, 5), stated at a parameter `V` — the TensorCore's buffer contents when the
  region is entered. Per window its block at a point (`iblk7`); what the body leaves in the output
  window's staging buffer (`out7_4`: the single full-block store of the skeleton's payload); the body's
  triple on whole staging memrefs (`sound_kernel7`); the pipeline's proof data (`dat7`: arrays as found,
  full shares, nothing owed) and the body obligation at every point (`body_obligation7`).
  Generic in the float instance.
-/
import proofs.«129426_g120259084709_cont_main3_741_6_alg».proof.Proof.Gen.KernelIdeal.Launch
import proofs.«129426_g120259084709_cont_main3_741_6_alg».proof.Proof.Gen.KernelIdeal.Skeleton
import proofs.«129426_g120259084709_cont_main3_741_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not (an unfetched
    point has the block index of the point before), for any proof data whose array is `V`'s and whose body
    leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not (an unfetched
    point has the block index of the point before), for any proof data whose array is `V`'s and whose body
    leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not (an unfetched
    point has the block index of the point before), for any proof data whose array is `V`'s and whose body
    leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not (an unfetched
    point has the block index of the point before), for any proof data whose array is `V`'s and whose body
    leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each is the whole staging buffer -/

abbrev r7_0 : Rect S1x5000x128 := Rect.unit (s := S1x5000x128) ![0, 0, 0] S1x5000x128.size inb_S1x5000x128_S1x5000x128_0_0_0
abbrev r7_1 : Rect S1x1000x5000 := Rect.unit (s := S1x1000x5000) ![0, 0, 0] S1x1000x5000.size inb_S1x1000x5000_S1x1000x5000_0_0_0
abbrev r7_2 : Rect S1x1000x128 := Rect.unit (s := S1x1000x128) ![0, 0, 0] S1x1000x128.size inb_S1x1000x128_S1x1000x128_0_0_0
abbrev r7_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out7_4 (x0 : Vec F S1x1000x5000 .bf16) (x1 : Vec F S1x5000x128 .f32) (x2 : Vec F S1x1000x128 .f32) (x3 : Vec F S1x128x128 .f32) :
    Vec F S1x1000x128 .f32 :=
  View.canon [⟨r7_2, k7_pay1 (View.ld x1 r7_0) (View.ld x0 r7_1) (View.ld x2 r7_2) (View.ld x3 r7_3)⟩]

/-- The store tiles the buffer, so it covers it. -/
theorem cover7_4 (p0 : Vec F S1x1000x128 .f32) (y : S1x1000x128.Idx) :
    ∃ pc ∈ ([⟨r7_2, p0⟩] : List (View.Piece (Elt F) S1x1000x128 .f32)), y ∈ pc.1.set :=
  View.cover_of_tiled [⟨r7_2, p0⟩] S1x1000x128.size (by rfl) y

/-! ## The body's triple -/

set_option maxHeartbeats 1000000 in
/-- The kernel body on whole staging memrefs, the inputs' at read contents `xW` and the output's at anything, runs to
    the continuation holding the inputs' as they were and the output's at `out7_4` of the inputs'. -/
theorem sound_kernel7 (c : Dev nD) (E : Set ℕ) (i : grid7.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out7_4 x0 x1 x2 x3)) -∗ K ⟨⟩))
      ⊢ wp frame (wpE (defs₀ (F := F)) Variants.none c none) E (cc7__layer_kernel i arg2 harg2 arg3 harg3 arg4 harg4 arg5 harg5 arg6 harg6) K := by
  simp only [cc7__layer_kernel_eq_skeleton]; unfold cc7__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-! ## The pipeline's proof data -/

/-- The proof data of pipeline 7 on core `c`: the arrays as the region finds them (`V`); after the body at
    point `t` each input's buffer at its block and the output's at `out7_4` of the input blocks; the class's
    invariant (the scoped rest and the generator register, untouched); nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (iblk7 V c 0 t) (iblk7 V c 1 t) (iblk7 V c 2 t) (iblk7 V c 3 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
/-
  Region 8 of the kernel program's @main: one propagation layer, custom_call 8 (`cc8__layer_kernel`,
  pipeline 8), on the grid (2, 5), stated at a parameter `V` — the TensorCore's buffer contents when the
  region is entered. Per window its block at a point (`iblk8`); what the body leaves in the output
  window's staging buffer (`out8_4`: the single full-block store of the skeleton's payload); the body's
  triple on whole staging memrefs (`sound_kernel8`); the pipeline's proof data (`dat8`: arrays as found,
  full shares, nothing owed) and the body obligation at every point (`body_obligation8`).
  Generic in the float instance.
-/
import proofs.«129426_g120259084709_cont_main3_741_6_alg».proof.Proof.Gen.KernelIdeal.Launch
import proofs.«129426_g120259084709_cont_main3_741_6_alg».proof.Proof.Gen.KernelIdeal.Skeleton
import proofs.«129426_g120259084709_cont_main3_741_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not (an unfetched
    point has the block index of the point before), for any proof data whose array is `V`'s and whose body
    leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not (an unfetched
    point has the block index of the point before), for any proof data whose array is `V`'s and whose body
    leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not (an unfetched
    point has the block index of the point before), for any proof data whose array is `V`'s and whose body
    leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not (an unfetched
    point has the block index of the point before), for any proof data whose array is `V`'s and whose body
    leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each is the whole staging buffer -/

abbrev r8_0 : Rect S1x5000x128 := Rect.unit (s := S1x5000x128) ![0, 0, 0] S1x5000x128.size inb_S1x5000x128_S1x5000x128_0_0_0
abbrev r8_1 : Rect S1x1000x5000 := Rect.unit (s := S1x1000x5000) ![0, 0, 0] S1x1000x5000.size inb_S1x1000x5000_S1x1000x5000_0_0_0
abbrev r8_2 : Rect S1x1000x128 := Rect.unit (s := S1x1000x128) ![0, 0, 0] S1x1000x128.size inb_S1x1000x128_S1x1000x128_0_0_0
abbrev r8_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out8_4 (x0 : Vec F S1x1000x5000 .bf16) (x1 : Vec F S1x5000x128 .f32) (x2 : Vec F S1x1000x128 .f32) (x3 : Vec F S1x128x128 .f32) :
    Vec F S1x1000x128 .f32 :=
  View.canon [⟨r8_2, k8_pay1 (View.ld x1 r8_0) (View.ld x0 r8_1) (View.ld x2 r8_2) (View.ld x3 r8_3)⟩]

/-- The store tiles the buffer, so it covers it. -/
theorem cover8_4 (p0 : Vec F S1x1000x128 .f32) (y : S1x1000x128.Idx) :
    ∃ pc ∈ ([⟨r8_2, p0⟩] : List (View.Piece (Elt F) S1x1000x128 .f32)), y ∈ pc.1.set :=
  View.cover_of_tiled [⟨r8_2, p0⟩] S1x1000x128.size (by rfl) y

/-! ## The body's triple -/

set_option maxHeartbeats 1000000 in
/-- The kernel body on whole staging memrefs, the inputs' at read contents `xW` and the output's at anything, runs to
    the continuation holding the inputs' as they were and the output's at `out8_4` of the inputs'. -/
theorem sound_kernel8 (c : Dev nD) (E : Set ℕ) (i : grid8.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out8_4 x0 x1 x2 x3)) -∗ K ⟨⟩))
      ⊢ wp frame (wpE (defs₀ (F := F)) Variants.none c none) E (cc8__layer_kernel i arg2 harg2 arg3 harg3 arg4 harg4 arg5 harg5 arg6 harg6) K := by
  simp only [cc8__layer_kernel_eq_skeleton]; unfold cc8__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-! ## The pipeline's proof data -/

/-- The proof data of pipeline 8 on core `c`: the arrays as the region finds them (`V`); after the body at
    point `t` each input's buffer at its block and the output's at `out8_4` of the input blocks; the class's
    invariant (the scoped rest and the generator register, untouched); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) :
    (dat8 V c).after 4 t = out8_4 (iblk8 V c 0 t) (iblk8 V c 1 t) (iblk8 V c 2 t) (iblk8 V c 3 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg9.lean ====
/-
  Region 9 of the kernel program's @main: one propagation layer, custom_call 9 (`cc9__layer_kernel`,
  pipeline 9), on the grid (2, 5), stated at a parameter `V` — the TensorCore's buffer contents when the
  region is entered. Per window its block at a point (`iblk9`); what the body leaves in the output
  window's staging buffer (`out9_4`: the single full-block store of the skeleton's payload); the body's
  triple on whole staging memrefs (`sound_kernel9`); the pipeline's proof data (`dat9`: arrays as found,
  full shares, nothing owed) and the body obligation at every point (`body_obligation9`).
  Generic in the float instance.
-/
import proofs.«129426_g120259084709_cont_main3_741_6_alg».proof.Proof.Gen.KernelIdeal.Launch
import proofs.«129426_g120259084709_cont_main3_741_6_alg».proof.Proof.Gen.KernelIdeal.Skeleton
import proofs.«129426_g120259084709_cont_main3_741_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not (an unfetched
    point has the block index of the point before), for any proof data whose array is `V`'s and whose body
    leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not (an unfetched
    point has the block index of the point before), for any proof data whose array is `V`'s and whose body
    leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not (an unfetched
    point has the block index of the point before), for any proof data whose array is `V`'s and whose body
    leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not (an unfetched
    point has the block index of the point before), for any proof data whose array is `V`'s and whose body
    leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each is the whole staging buffer -/

abbrev r9_0 : Rect S1x5000x128 := Rect.unit (s := S1x5000x128) ![0, 0, 0] S1x5000x128.size inb_S1x5000x128_S1x5000x128_0_0_0
abbrev r9_1 : Rect S1x1000x5000 := Rect.unit (s := S1x1000x5000) ![0, 0, 0] S1x1000x5000.size inb_S1x1000x5000_S1x1000x5000_0_0_0
abbrev r9_2 : Rect S1x1000x128 := Rect.unit (s := S1x1000x128) ![0, 0, 0] S1x1000x128.size inb_S1x1000x128_S1x1000x128_0_0_0
abbrev r9_3 : Rect S1x128x128 := Rect.unit (s := S1x128x128) ![0, 0, 0] S1x128x128.size inb_S1x128x128_S1x128x128_0_0_0

/-! ## What the body leaves in the output window's buffer -/

/-- Window 4's staging buffer after the body, from the input windows' blocks (`x0` the adjacency block, `x1` the
    previous layer, `x2` the initial features' block, `x3` the layer's weights): its one store, of the whole block. -/
def out9_4 (x0 : Vec F S1x1000x5000 .bf16) (x1 : Vec F S1x5000x128 .f32) (x2 : Vec F S1x1000x128 .f32) (x3 : Vec F S1x128x128 .f32) :
    Vec F S1x1000x128 .f32 :=
  View.canon [⟨r9_2, k9_pay1 (View.ld x1 r9_0) (View.ld x0 r9_1) (View.ld x2 r9_2) (View.ld x3 r9_3)⟩]

/-- The store tiles the buffer, so it covers it. -/
theorem cover9_4 (p0 : Vec F S1x1000x128 .f32) (y : S1x1000x128.Idx) :
    ∃ pc ∈ ([⟨r9_2, p0⟩] : List (View.Piece (Elt F) S1x1000x128 .f32)), y ∈ pc.1.set :=
  View.cover_of_tiled [⟨r9_2, p0⟩] S1x1000x128.size (by rfl) y

/-! ## The body's triple -/

set_option maxHeartbeats 1000000 in
/-- The kernel body on whole staging memrefs, the inputs' at read contents `xW` and the output's at anything, runs to
    the continuation holding the inputs' as they were and the output's at `out9_4` of the inputs'. -/
theorem sound_kernel9 (c : Dev nD) (E : Set ℕ) (i : grid9.Coords)
    (arg2 : Memref sig .tc .vmem S1x1000x5000 .bf16) (harg2 : arg2.IsWhole) (arg3 : Memref sig .tc .vmem S1x5000x128 .f32) (harg3 : arg3.IsWhole)
    (arg4 : Memref sig .tc .vmem S1x1000x128 .f32) (harg4 : arg4.IsWhole) (arg5 : Memref sig .tc .vmem S1x128x128 .f32) (harg5 : arg5.IsWhole)
    (arg6 : Memref sig .tc .vmem S1x1000x128 .f32) (harg6 : arg6.IsWhole)
    (x0 : Vec F S1x1000x5000 .bf16) (x1 : Vec F S1x5000x128 .f32) (x2 : Vec F S1x1000x128 .f32) (x3 : Vec F S1x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out9_4 x0 x1 x2 x3)) -∗ K ⟨⟩))
      ⊢ wp frame (wpE (defs₀ (F := F)) Variants.none c none) E (cc9__layer_kernel i arg2 harg2 arg3 harg3 arg4 harg4 arg5 harg5 arg6 harg6) K := by
  simp only [cc9__layer_kernel_eq_skeleton]; unfold cc9__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-! ## The pipeline's proof data -/

/-- The proof data of pipeline 9 on core `c`: the arrays as the region finds them (`V`); after the body at
    point `t` each input's buffer at its block and the output's at `out9_4` of the input blocks; the class's
    invariant (the scoped rest and the generator register, untouched); nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Reg10.lean ====
/-
  Region 10 (the head of the network): what the body of the final pipeline leaves in each of its six staging
  buffers at a grid point, the body's triple, the pipeline's proof data at the contents `V` the region is entered
  with, and the body obligation.  Generic in the float instance.
-/
import proofs.«129426_g120259084709_cont_main3_741_6_alg».proof.Proof.Gen.KernelIdeal.Launch
import proofs.«129426_g120259084709_cont_main3_741_6_alg».proof.Proof.Gen.KernelIdeal.Skeleton
import proofs.«129426_g120259084709_cont_main3_741_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is `V`'s and whose body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is `V`'s and whose body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is `V`'s and whose body leaves the block in place. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof
    data whose array is `V`'s and whose body leaves the block in place. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_0 : Rect S1000x256 := Rect.unit (s := S1000x256) ![0, 0] S1000x256.size inb_S1000x256_S1000x256_0_0
abbrev r10_1 : Rect S256x128 := Rect.unit (s := S256x128) ![0, 0] S256x128.size inb_S256x128_S256x128_0_0
abbrev r10_2 : Rect S1x128 := Rect.unit (s := S1x128) ![0, 0] S1x128.size inb_S1x128_S1x128_0_0
abbrev r10_3 : Rect S128x5000 := Rect.unit (s := S128x5000) ![0, 0] S128x5000.size inb_S128x5000_S128x5000_0_0
abbrev r10_4 : Rect S1x5000 := Rect.unit (s := S1x5000) ![0, 0] S1x5000.size inb_S1x5000_S1x5000_0_0
abbrev r10_5 : Rect S1000x5000 := Rect.unit (s := S1000x5000) ![0, 0] S1000x5000.size inb_S1000x5000_S1000x5000_0_0

/-! ## What the body leaves in the output window's buffer -/

/-- Window 5's staging buffer after the body, from the input windows' blocks: its one store, of the whole block. -/
def out10_5 (x0 : Vec F S1000x256 .f32) (x1 : Vec F S256x128 .f32) (x2 : Vec F S1x128 .f32) (x3 : Vec F S128x5000 .f32) (x4 : Vec F S1x5000 .f32) : Vec F S1000x5000 .f32 :=
  View.canon [⟨r10_5, k10_pay1 (View.ld x0 r10_0) (View.ld x1 r10_1) (View.ld x2 r10_2) (View.ld x3 r10_3) (View.ld x4 r10_4)⟩]

/-- The store tiles the buffer, so it covers it. -/
theorem cover10_5 (p0 : Vec F S1000x5000 .f32) (y : S1000x5000.Idx) :
    ∃ pc ∈ ([⟨r10_5, p0⟩] : List (View.Piece (Elt F) S1000x5000 .f32)), y ∈ pc.1.set :=
  View.cover_of_tiled [⟨r10_5, p0⟩] S1000x5000.size (by rfl) y

/-! ## The body's triple -/

set_option maxHeartbeats 1000000 in
/-- The kernel body on whole staging memrefs, the inputs' at read contents `xW` and the output's at anything, runs to
    the continuation holding the inputs' as they were and the output's at `out10_5` of the inputs'. -/
theorem sound_kernel10 (c : Dev nD) (E : Set ℕ) (i : grid10.Coords) (arg0 : Memref sig .tc .vmem S1000x256 .f32) (harg0 : arg0.IsWhole) (arg1 : Memref sig .tc .vmem S256x128 .f32) (harg1 : arg1.IsWhole) (arg2 : Memref sig .tc .vmem S1x128 .f32) (harg2 : arg2.IsWhole) (arg3 : Memref sig .tc .vmem S128x5000 .f32) (harg3 : arg3.IsWhole) (arg4 : Memref sig .tc .vmem S1x5000 .f32) (harg4 : arg4.IsWhole) (arg5 : Memref sig .tc .vmem S1000x5000 .f32) (harg5 : arg5.IsWhole)
    (x0 : Vec F S1000x256 .f32) (x1 : Vec F S256x128 .f32) (x2 : Vec F S1x128 .f32) (x3 : Vec F S128x5000 .f32) (x4 : Vec F S1x5000 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out10_5 x0 x1 x2 x3 x4)) -∗ K ⟨⟩))
      ⊢ wp frame (wpE (defs₀ (F := F)) Variants.none c none) E (cc10__final_kernel i arg0 harg0 arg1 harg1 arg2 harg2 arg3 harg3 arg4 harg4 arg5 harg5) K := by
  simp only [cc10__final_kernel_eq_skeleton]; unfold cc10__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-! ## The pipeline's proof data -/

/-- The proof data of pipeline 10 on core `c`: the arrays as the region finds them (`V`); after the body at point `t`
    each input's buffer at its block and the output's at `out10_5` of the input blocks; the invariant the scoped rest
    and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t =
    out10_5 (iblk10 V c 0 t) (iblk10 V c 1 t) (iblk10 V c 2 t) (iblk10 V c 3 t) (iblk10 V c 4 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks, so `sound_kernel10` applies; the invariant and the
    core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Run.lean ====
/-
  The run of @main as its 21 segments.  The buffer contents at every boundary are a fold from the launch memory: a host
  stretch applies its operations, a region leaves in each output array what its write-backs leave and nothing else changes.
  Every pipeline's proof data sits at its region's entry contents; a region is a segment entered from "every unscoped buffer
  at the boundary's contents" and left at the next boundary's.  The run: every weakly fair execution of @main terminates, with
  no fault, every unscoped buffer at the last boundary's contents; the arguments walk back through the fold to the launch
  memory, since no segment writes one.
-/
import proofs.«129426_g120259084709_cont_main3_741_6_alg».proof.Proof.Gen.KernelIdeal.Launch
import proofs.«129426_g120259084709_cont_main3_741_6_alg».proof.Proof.Gen.KernelIdeal.Skeleton
import proofs.«129426_g120259084709_cont_main3_741_6_alg».proof.Proof.Gen.KernelIdeal.Points
import proofs.«129426_g120259084709_cont_main3_741_6_alg».proof.Proof.Gen.KernelIdeal.Regions
import proofs.«129426_g120259084709_cont_main3_741_6_alg».proof.Proof.KI.Reg0
import proofs.«129426_g120259084709_cont_main3_741_6_alg».proof.Proof.KI.Reg1
import proofs.«129426_g120259084709_cont_main3_741_6_alg».proof.Proof.KI.Reg2
import proofs.«129426_g120259084709_cont_main3_741_6_alg».proof.Proof.KI.Reg3
import proofs.«129426_g120259084709_cont_main3_741_6_alg».proof.Proof.KI.Reg4
import proofs.«129426_g120259084709_cont_main3_741_6_alg».proof.Proof.KI.Reg5
import proofs.«129426_g120259084709_cont_main3_741_6_alg».proof.Proof.KI.Reg6
import proofs.«129426_g120259084709_cont_main3_741_6_alg».proof.Proof.KI.Reg7
import proofs.«129426_g120259084709_cont_main3_741_6_alg».proof.Proof.KI.Reg8
import proofs.«129426_g120259084709_cont_main3_741_6_alg».proof.Proof.KI.Reg9
import proofs.«129426_g120259084709_cont_main3_741_6_alg».proof.Proof.KI.Reg10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Region 2's two input windows on one array

Region 2 reads the array of the initial features through two windows (the previous layer's output IS the initial features
at the first layer).  The array's full share is dealt to them as its left and right halves at the entry and put together
again at the exit. -/
section Region2
variable (V : (c : Dev nD) → (b : Ref sig .tc) → Buf (Elt F) ((c : Thread nD τ).loc b))

/-- The four distinct arrays behind region 2's five windows. -/
theorem img2 : (Finset.univ.image (Pipeline.arrRef spec2) : Finset (Ref sig .tc)) = {main_v5, main_v4, main_v7, main_v8} := by decide

/-- Region 2's arrays, window by window, each a whole buffer at its share. -/
theorem arrays2_eq (c : Dev nD) (Fw : (w : Fin cfg2.W) → Buf (Elt F) ((cfg2.win w).arr.view.loc (c.tc : Thread nD τ))) :
    ((dat2 V c).arrays Fw : sProp 𝕄) = iprop((((c.tc : Thread nD τ).loc main_v5) ↦{fullShare} Fw 0) ∗ (((c.tc : Thread nD τ).loc main_v4) ↦{fullShare.left} Fw 1)
      ∗ (((c.tc : Thread nD τ).loc main_v4) ↦{fullShare.right} Fw 2) ∗ (((c.tc : Thread nD τ).loc main_v7) ↦{fullShare} Fw 3) ∗ (((c.tc : Thread nD τ).loc main_v8) ↦{fullShare} Fw 4)) := by
  unfold Dat.arrays
  rw [bigSep_W2]
  rw [(arr_whole2 0).set_eq_univ, (arr_whole2 1).set_eq_univ, (arr_whole2 3).set_eq_univ, (arr_whole2 4).set_eq_univ]
  rfl

/-- ENTRY: the core's unscoped buffers at V are region 2's arrays at V and the rest. -/
theorem entry2 (c : Dev nD) : (unscopedBufs c (V c) : sProp 𝕄) ⊢ iprop((dat2 V c).arrays (dat2 V c).A ∗ Pipeline.unscopedRest spec2 c (V c)) := by
  rw [Pipeline.unscopedBufs_split₀ (cfgs := cfgs) (p := (2 : Fin 11)) winFacts₀2.arr_unscoped c (V c), arrays2_eq]
  refine sep_mono ?_ .rfl
  unfold Pipeline.arrBufs
  rw [show (Finset.univ.image (Pipeline.arrRef (cfgs 2).spec) : Finset (Ref sig .tc)) = {main_v5, main_v4, main_v7, main_v8} from img2]
  rw [bigSep_insert (by decide), bigSep_insert (by decide), bigSep_insert (by decide), bigSep_singleton]
  show (iprop((((c.tc : Thread nD τ).loc main_v5) ↦{fullShare} V c main_v5) ∗ (((c.tc : Thread nD τ).loc main_v4) ↦{fullShare} V c main_v4)
      ∗ (((c.tc : Thread nD τ).loc main_v7) ↦{fullShare} V c main_v7) ∗ (((c.tc : Thread nD τ).loc main_v8) ↦{fullShare} V c main_v8)) : sProp 𝕄) ⊢ _
  iintro ⟨H5, H4, H7, H8⟩
  have hs : ((((c.tc : Thread nD τ).loc main_v4) ↦{fullShare} V c main_v4) : sProp 𝕄) ⊢ iprop((((c.tc : Thread nD τ).loc main_v4) ↦{fullShare.left} V c main_v4) ∗ (((c.tc : Thread nD τ).loc main_v4) ↦{fullShare.right} V c main_v4)) :=
    (pointsTo_share (PosShare.mem_left_op_right fullShare)).1
  ihave H4' := hs $$ H4
  icases H4' with ⟨H4l, H4r⟩
  isplitl [H5]; · iexact H5
  isplitl [H4l]; · iexact H4l
  isplitl [H4r]; · iexact H4r
  isplitl [H7]; · iexact H7
  iexact H8

/-- EXIT: region 2's arrays at contents Fw and the rest at V are the core's unscoped buffers at any V' that has the arrays
    at Fw and agrees with V off them. -/
theorem exit2 (c : Dev nD) (V' : (b : Ref sig .tc) → Buf (Elt F) ((c : Thread nD τ).loc b))
    (Fw : (w : Fin cfg2.W) → Buf (Elt F) ((cfg2.win w).arr.view.loc (c.tc : Thread nD τ)))
    (hF : ∀ w, Fw w = V' (Pipeline.arrRef spec2 w))
    (hrest : ∀ b, b ∉ Finset.univ.image (Pipeline.arrRef spec2) → V' b = V c b) :
    iprop((dat2 V c).arrays Fw ∗ Pipeline.unscopedRest spec2 c (V c)) ⊢ (unscopedBufs c V' : sProp 𝕄) := by
  rw [Pipeline.unscopedBufs_split₀ (cfgs := cfgs) (p := (2 : Fin 11)) winFacts₀2.arr_unscoped c V', arrays2_eq]
  refine sep_mono ?_ (Entails.of_eq ?_)
  · unfold Pipeline.arrBufs
    rw [show (Finset.univ.image (Pipeline.arrRef (cfgs 2).spec) : Finset (Ref sig .tc)) = {main_v5, main_v4, main_v7, main_v8} from img2]
    rw [bigSep_insert (by decide), bigSep_insert (by decide), bigSep_insert (by decide), bigSep_singleton]
    rw [hF 0, hF 1, hF 2, hF 3, hF 4]
    show _ ⊢ (iprop((((c.tc : Thread nD τ).loc main_v5) ↦{fullShare} V' main_v5) ∗ (((c.tc : Thread nD τ).loc main_v4) ↦{fullShare} V' main_v4)
      ∗ (((c.tc : Thread nD τ).loc main_v7) ↦{fullShare} V' main_v7) ∗ (((c.tc : Thread nD τ).loc main_v8) ↦{fullShare} V' main_v8)) : sProp 𝕄)
    iintro ⟨H5, H4l, H4r, H7, H8⟩
    isplitl [H5]; · iexact H5
    isplitl [H4l H4r]
    · have hj : iprop((((c.tc : Thread nD τ).loc main_v4) ↦{fullShare.left} V' main_v4) ∗ (((c.tc : Thread nD τ).loc main_v4) ↦{fullShare.right} V' main_v4)) ⊢ ((((c.tc : Thread nD τ).loc main_v4) ↦{fullShare} V' main_v4) : sProp 𝕄) :=
        (pointsTo_share (PosShare.mem_left_op_right fullShare)).2
      iapply hj
      isplitl [H4l]; · iexact H4l
      iexact H4r
    isplitl [H7]; · iexact H7
    iexact H8
  · unfold Pipeline.unscopedRest
    exact bigSep_congr fun b hb => by rw [hrest b (Finset.mem_sdiff.mp hb).2]
end Region2

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host stretch hostOps0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h

/-- At region 0's exit: each output array at what the write-backs leave, every other buffer as entered. -/
def W2 (c : Dev nD) : Valuation τ sig (Elt F) :=
  (Function.update (Function.update (W1 m ρ c) (Proc.devRef .tc (Pipeline.arrRef spec0 1)) ((dat0 (V1 m ρ) c).arrAt 1 cfg0.N)) (Proc.devRef .tc (Pipeline.arrRef spec0 2)) ((dat0 (V1 m ρ) c).arrAt 2 cfg0.N))
theorem W2_out1 (c : Dev nD) : W2 m ρ c (Proc.devRef .tc (Pipeline.arrRef spec0 1)) = ((dat0 (V1 m ρ) c).arrAt 1 cfg0.N) := by
  unfold W2
  rw [Function.update_of_ne (StableHlo.devRef_ne_of_ne (by decide : Pipeline.arrRef spec0 1 ≠ Pipeline.arrRef spec0 2))]
  exact Function.update_self ..
theorem W2_out2 (c : Dev nD) : W2 m ρ c (Proc.devRef .tc (Pipeline.arrRef spec0 2)) = ((dat0 (V1 m ρ) c).arrAt 2 cfg0.N) := by
  unfold W2
  exact Function.update_self ..
theorem W2_of_ne (c : Dev nD) (b : Ref sig .tc) (h1 : Pipeline.arrRef spec0 1 ≠ b) (h2 : Pipeline.arrRef spec0 2 ≠ b) :
    W2 m ρ c (Proc.devRef .tc b) = W1 m ρ c (Proc.devRef .tc b) := by
  unfold W2
  rw [Function.update_of_ne (StableHlo.devRef_ne_of_ne (Ne.symm h2))]
  rw [Function.update_of_ne (StableHlo.devRef_ne_of_ne (Ne.symm h1))]
abbrev V2 : (c : Dev nD) → (b : Ref sig .tc) → Buf (Elt F) ((c : Thread nD τ).loc b) := fun c b => W2 m ρ c b
theorem hF0 (c : Dev nD) : ∀ w : Fin cfg0.W, (dat0 (V1 m ρ) c).arrAt w cfg0.N = V2 m ρ c (Pipeline.arrRef spec0 w)
  | ⟨0, _⟩ => ((dat0 (V1 m ρ) c).arrAt_in 0 rfl _).trans ((A_eq0 (V1 m ρ) c 0).trans (W2_of_ne m ρ c (Pipeline.arrRef spec0 0) (by decide) (by decide)).symm)
  | ⟨1, _⟩ => (W2_out1 m ρ c).symm
  | ⟨2, _⟩ => (W2_out2 m ρ c).symm
  | ⟨n + 3, h⟩ => absurd h (Nat.not_lt.2 (Nat.le_add_left _ _))
theorem hrest0 (c : Dev nD) : ∀ b, b ∉ Finset.univ.image (Pipeline.arrRef spec0) → V2 m ρ c b = V1 m ρ c b :=
  fun b hb => W2_of_ne m ρ c b (fun e => hb (Finset.mem_image.mpr ⟨1, Finset.mem_univ _, e⟩)) (fun e => hb (Finset.mem_image.mpr ⟨2, Finset.mem_univ _, e⟩))

/-- At region 1's exit: each output array at what the write-backs leave, every other buffer as entered. -/
def W3 (c : Dev nD) : Valuation τ sig (Elt F) :=
  (Function.update (W2 m ρ c) (Proc.devRef .tc (Pipeline.arrRef spec1 7)) ((dat1 (V2 m ρ) c).arrAt 7 cfg1.N))
theorem W3_out7 (c : Dev nD) : W3 m ρ c (Proc.devRef .tc (Pipeline.arrRef spec1 7)) = ((dat1 (V2 m ρ) c).arrAt 7 cfg1.N) := by
  unfold W3
  exact Function.update_self ..
theorem W3_of_ne (c : Dev nD) (b : Ref sig .tc) (h7 : Pipeline.arrRef spec1 7 ≠ b) :
    W3 m ρ c (Proc.devRef .tc b) = W2 m ρ c (Proc.devRef .tc b) := by
  unfold W3
  rw [Function.update_of_ne (StableHlo.devRef_ne_of_ne (Ne.symm h7))]
abbrev V3 : (c : Dev nD) → (b : Ref sig .tc) → Buf (Elt F) ((c : Thread nD τ).loc b) := fun c b => W3 m ρ c b
theorem hF1 (c : Dev nD) : ∀ w : Fin cfg1.W, (dat1 (V2 m ρ) c).arrAt w cfg1.N = V3 m ρ c (Pipeline.arrRef spec1 w)
  | ⟨0, _⟩ => ((dat1 (V2 m ρ) c).arrAt_in 0 rfl _).trans ((A_eq1 (V2 m ρ) c 0).trans (W3_of_ne m ρ c (Pipeline.arrRef spec1 0) (by decide)).symm)
  | ⟨1, _⟩ => ((dat1 (V2 m ρ) c).arrAt_in 1 rfl _).trans ((A_eq1 (V2 m ρ) c 1).trans (W3_of_ne m ρ c (Pipeline.arrRef spec1 1) (by decide)).symm)
  | ⟨2, _⟩ => ((dat1 (V2 m ρ) c).arrAt_in 2 rfl _).trans ((A_eq1 (V2 m ρ) c 2).trans (W3_of_ne m ρ c (Pipeline.arrRef spec1 2) (by decide)).symm)
  | ⟨3, _⟩ => ((dat1 (V2 m ρ) c).arrAt_in 3 rfl _).trans ((A_eq1 (V2 m ρ) c 3).trans (W3_of_ne m ρ c (Pipeline.arrRef spec1 3) (by decide)).symm)
  | ⟨4, _⟩ => ((dat1 (V2 m ρ) c).arrAt_in 4 rfl _).trans ((A_eq1 (V2 m ρ) c 4).trans (W3_of_ne m ρ c (Pipeline.arrRef spec1 4) (by decide)).symm)
  | ⟨5, _⟩ => ((dat1 (V2 m ρ) c).arrAt_in 5 rfl _).trans ((A_eq1 (V2 m ρ) c 5).trans (W3_of_ne m ρ c (Pipeline.arrRef spec1 5) (by decide)).symm)
  | ⟨6, _⟩ => ((dat1 (V2 m ρ) c).arrAt_in 6 rfl _).trans ((A_eq1 (V2 m ρ) c 6).trans (W3_of_ne m ρ c (Pipeline.arrRef spec1 6) (by decide)).symm)
  | ⟨7, _⟩ => (W3_out7 m ρ c).symm
  | ⟨n + 8, h⟩ => absurd h (Nat.not_lt.2 (Nat.le_add_left _ _))
theorem hrest1 (c : Dev nD) : ∀ b, b ∉ Finset.univ.image (Pipeline.arrRef spec1) → V3 m ρ c b = V2 m ρ c b :=
  fun b hb => W3_of_ne m ρ c b (fun e => hb (Finset.mem_image.mpr ⟨7, Finset.mem_univ _, e⟩))

/-- After the host stretch hostOps2. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
theorem W4_keep (c : Dev nD) (r : Ref sig .tc) (h : r ∉ hostOps2_W) : W4 m ρ c (Proc.devRef .tc r) = W3 m ρ c (Proc.devRef .tc r) :=
  StableHlo.after_of_writes_sub hostOps2 _ hostOps2_writes h

/-- At region 2's exit: each output array at what the write-backs leave, every other buffer as entered. -/
def W5 (c : Dev nD) : Valuation τ sig (Elt F) :=
  (Function.update (W4 m ρ c) (Proc.devRef .tc (Pipeline.arrRef spec2 4)) ((dat2 (V4 m ρ) c).arrAt 4 cfg2.N))
theorem W5_out4 (c : Dev nD) : W5 m ρ c (Proc.devRef .tc (Pipeline.arrRef spec2 4)) = ((dat2 (V4 m ρ) c).arrAt 4 cfg2.N) := by
  unfold W5
  exact Function.update_self ..
theorem W5_of_ne (c : Dev nD) (b : Ref sig .tc) (h4 : Pipeline.arrRef spec2 4 ≠ b) :
    W5 m ρ c (Proc.devRef .tc b) = W4 m ρ c (Proc.devRef .tc b) := by
  unfold W5
  rw [Function.update_of_ne (StableHlo.devRef_ne_of_ne (Ne.symm h4))]
abbrev V5 : (c : Dev nD) → (b : Ref sig .tc) → Buf (Elt F) ((c : Thread nD τ).loc b) := fun c b => W5 m ρ c b
theorem hF2 (c : Dev nD) : ∀ w : Fin cfg2.W, (dat2 (V4 m ρ) c).arrAt w cfg2.N = V5 m ρ c (Pipeline.arrRef spec2 w)
  | ⟨0, _⟩ => ((dat2 (V4 m ρ) c).arrAt_in 0 rfl _).trans ((A_eq2 (V4 m ρ) c 0).trans (W5_of_ne m ρ c (Pipeline.arrRef spec2 0) (by decide)).symm)
  | ⟨1, _⟩ => ((dat2 (V4 m ρ) c).arrAt_in 1 rfl _).trans ((A_eq2 (V4 m ρ) c 1).trans (W5_of_ne m ρ c (Pipeline.arrRef spec2 1) (by decide)).symm)
  | ⟨2, _⟩ => ((dat2 (V4 m ρ) c).arrAt_in 2 rfl _).trans ((A_eq2 (V4 m ρ) c 2).trans (W5_of_ne m ρ c (Pipeline.arrRef spec2 2) (by decide)).symm)
  | ⟨3, _⟩ => ((dat2 (V4 m ρ) c).arrAt_in 3 rfl _).trans ((A_eq2 (V4 m ρ) c 3).trans (W5_of_ne m ρ c (Pipeline.arrRef spec2 3) (by decide)).symm)
  | ⟨4, _⟩ => (W5_out4 m ρ c).symm
  | ⟨n + 5, h⟩ => absurd h (Nat.not_lt.2 (Nat.le_add_left _ _))
theorem hrest2 (c : Dev nD) : ∀ b, b ∉ Finset.univ.image (Pipeline.arrRef spec2) → V5 m ρ c b = V4 m ρ c b :=
  fun b hb => W5_of_ne m ρ c b (fun e => hb (Finset.mem_image.mpr ⟨4, Finset.mem_univ _, e⟩))

/-- After the host stretch hostOps3. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
theorem W6_keep (c : Dev nD) (r : Ref sig .tc) (h : r ∉ hostOps3_W) : W6 m ρ c (Proc.devRef .tc r) = W5 m ρ c (Proc.devRef .tc r) :=
  StableHlo.after_of_writes_sub hostOps3 _ hostOps3_writes h

/-- At region 3's exit: each output array at what the write-backs leave, every other buffer as entered. -/
def W7 (c : Dev nD) : Valuation τ sig (Elt F) :=
  (Function.update (W6 m ρ c) (Proc.devRef .tc (Pipeline.arrRef spec3 4)) ((dat3 (V6 m ρ) c).arrAt 4 cfg3.N))
theorem W7_out4 (c : Dev nD) : W7 m ρ c (Proc.devRef .tc (Pipeline.arrRef spec3 4)) = ((dat3 (V6 m ρ) c).arrAt 4 cfg3.N) := by
  unfold W7
  exact Function.update_self ..
theorem W7_of_ne (c : Dev nD) (b : Ref sig .tc) (h4 : Pipeline.arrRef spec3 4 ≠ b) :
    W7 m ρ c (Proc.devRef .tc b) = W6 m ρ c (Proc.devRef .tc b) := by
  unfold W7
  rw [Function.update_of_ne (StableHlo.devRef_ne_of_ne (Ne.symm h4))]
abbrev V7 : (c : Dev nD) → (b : Ref sig .tc) → Buf (Elt F) ((c : Thread nD τ).loc b) := fun c b => W7 m ρ c b
theorem hF3 (c : Dev nD) : ∀ w : Fin cfg3.W, (dat3 (V6 m ρ) c).arrAt w cfg3.N = V7 m ρ c (Pipeline.arrRef spec3 w)
  | ⟨0, _⟩ => ((dat3 (V6 m ρ) c).arrAt_in 0 rfl _).trans ((A_eq3 (V6 m ρ) c 0).trans (W7_of_ne m ρ c (Pipeline.arrRef spec3 0) (by decide)).symm)
  | ⟨1, _⟩ => ((dat3 (V6 m ρ) c).arrAt_in 1 rfl _).trans ((A_eq3 (V6 m ρ) c 1).trans (W7_of_ne m ρ c (Pipeline.arrRef spec3 1) (by decide)).symm)
  | ⟨2, _⟩ => ((dat3 (V6 m ρ) c).arrAt_in 2 rfl _).trans ((A_eq3 (V6 m ρ) c 2).trans (W7_of_ne m ρ c (Pipeline.arrRef spec3 2) (by decide)).symm)
  | ⟨3, _⟩ => ((dat3 (V6 m ρ) c).arrAt_in 3 rfl _).trans ((A_eq3 (V6 m ρ) c 3).trans (W7_of_ne m ρ c (Pipeline.arrRef spec3 3) (by decide)).symm)
  | ⟨4, _⟩ => (W7_out4 m ρ c).symm
  | ⟨n + 5, h⟩ => absurd h (Nat.not_lt.2 (Nat.le_add_left _ _))
theorem hrest3 (c : Dev nD) : ∀ b, b ∉ Finset.univ.image (Pipeline.arrRef spec3) → V7 m ρ c b = V6 m ρ c b :=
  fun b hb => W7_of_ne m ρ c b (fun e => hb (Finset.mem_image.mpr ⟨4, Finset.mem_univ _, e⟩))

/-- After the host stretch hostOps4. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
theorem W8_keep (c : Dev nD) (r : Ref sig .tc) (h : r ∉ hostOps4_W) : W8 m ρ c (Proc.devRef .tc r) = W7 m ρ c (Proc.devRef .tc r) :=
  StableHlo.after_of_writes_sub hostOps4 _ hostOps4_writes h

/-- At region 4's exit: each output array at what the write-backs leave, every other buffer as entered. -/
def W9 (c : Dev nD) : Valuation τ sig (Elt F) :=
  (Function.update (W8 m ρ c) (Proc.devRef .tc (Pipeline.arrRef spec4 4)) ((dat4 (V8 m ρ) c).arrAt 4 cfg4.N))
theorem W9_out4 (c : Dev nD) : W9 m ρ c (Proc.devRef .tc (Pipeline.arrRef spec4 4)) = ((dat4 (V8 m ρ) c).arrAt 4 cfg4.N) := by
  unfold W9
  exact Function.update_self ..
theorem W9_of_ne (c : Dev nD) (b : Ref sig .tc) (h4 : Pipeline.arrRef spec4 4 ≠ b) :
    W9 m ρ c (Proc.devRef .tc b) = W8 m ρ c (Proc.devRef .tc b) := by
  unfold W9
  rw [Function.update_of_ne (StableHlo.devRef_ne_of_ne (Ne.symm h4))]
abbrev V9 : (c : Dev nD) → (b : Ref sig .tc) → Buf (Elt F) ((c : Thread nD τ).loc b) := fun c b => W9 m ρ c b
theorem hF4 (c : Dev nD) : ∀ w : Fin cfg4.W, (dat4 (V8 m ρ) c).arrAt w cfg4.N = V9 m ρ c (Pipeline.arrRef spec4 w)
  | ⟨0, _⟩ => ((dat4 (V8 m ρ) c).arrAt_in 0 rfl _).trans ((A_eq4 (V8 m ρ) c 0).trans (W9_of_ne m ρ c (Pipeline.arrRef spec4 0) (by decide)).symm)
  | ⟨1, _⟩ => ((dat4 (V8 m ρ) c).arrAt_in 1 rfl _).trans ((A_eq4 (V8 m ρ) c 1).trans (W9_of_ne m ρ c (Pipeline.arrRef spec4 1) (by decide)).symm)
  | ⟨2, _⟩ => ((dat4 (V8 m ρ) c).arrAt_in 2 rfl _).trans ((A_eq4 (V8 m ρ) c 2).trans (W9_of_ne m ρ c (Pipeline.arrRef spec4 2) (by decide)).symm)
  | ⟨3, _⟩ => ((dat4 (V8 m ρ) c).arrAt_in 3 rfl _).trans ((A_eq4 (V8 m ρ) c 3).trans (W9_of_ne m ρ c (Pipeline.arrRef spec4 3) (by decide)).symm)
  | ⟨4, _⟩ => (W9_out4 m ρ c).symm
  | ⟨n + 5, h⟩ => absurd h (Nat.not_lt.2 (Nat.le_add_left _ _))
theorem hrest4 (c : Dev nD) : ∀ b, b ∉ Finset.univ.image (Pipeline.arrRef spec4) → V9 m ρ c b = V8 m ρ c b :=
  fun b hb => W9_of_ne m ρ c b (fun e => hb (Finset.mem_image.mpr ⟨4, Finset.mem_univ _, e⟩))

/-- After the host stretch hostOps5. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b
theorem W10_keep (c : Dev nD) (r : Ref sig .tc) (h : r ∉ hostOps5_W) : W10 m ρ c (Proc.devRef .tc r) = W9 m ρ c (Proc.devRef .tc r) :=
  StableHlo.after_of_writes_sub hostOps5 _ hostOps5_writes h

/-- At region 5's exit: each output array at what the write-backs leave, every other buffer as entered. -/
def W11 (c : Dev nD) : Valuation τ sig (Elt F) :=
  (Function.update (W10 m ρ c) (Proc.devRef .tc (Pipeline.arrRef spec5 4)) ((dat5 (V10 m ρ) c).arrAt 4 cfg5.N))
theorem W11_out4 (c : Dev nD) : W11 m ρ c (Proc.devRef .tc (Pipeline.arrRef spec5 4)) = ((dat5 (V10 m ρ) c).arrAt 4 cfg5.N) := by
  unfold W11
  exact Function.update_self ..
theorem W11_of_ne (c : Dev nD) (b : Ref sig .tc) (h4 : Pipeline.arrRef spec5 4 ≠ b) :
    W11 m ρ c (Proc.devRef .tc b) = W10 m ρ c (Proc.devRef .tc b) := by
  unfold W11
  rw [Function.update_of_ne (StableHlo.devRef_ne_of_ne (Ne.symm h4))]
abbrev V11 : (c : Dev nD) → (b : Ref sig .tc) → Buf (Elt F) ((c : Thread nD τ).loc b) := fun c b => W11 m ρ c b
theorem hF5 (c : Dev nD) : ∀ w : Fin cfg5.W, (dat5 (V10 m ρ) c).arrAt w cfg5.N = V11 m ρ c (Pipeline.arrRef spec5 w)
  | ⟨0, _⟩ => ((dat5 (V10 m ρ) c).arrAt_in 0 rfl _).trans ((A_eq5 (V10 m ρ) c 0).trans (W11_of_ne m ρ c (Pipeline.arrRef spec5 0) (by decide)).symm)
  | ⟨1, _⟩ => ((dat5 (V10 m ρ) c).arrAt_in 1 rfl _).trans ((A_eq5 (V10 m ρ) c 1).trans (W11_of_ne m ρ c (Pipeline.arrRef spec5 1) (by decide)).symm)
  | ⟨2, _⟩ => ((dat5 (V10 m ρ) c).arrAt_in 2 rfl _).trans ((A_eq5 (V10 m ρ) c 2).trans (W11_of_ne m ρ c (Pipeline.arrRef spec5 2) (by decide)).symm)
  | ⟨3, _⟩ => ((dat5 (V10 m ρ) c).arrAt_in 3 rfl _).trans ((A_eq5 (V10 m ρ) c 3).trans (W11_of_ne m ρ c (Pipeline.arrRef spec5 3) (by decide)).symm)
  | ⟨4, _⟩ => (W11_out4 m ρ c).symm
  | ⟨n + 5, h⟩ => absurd h (Nat.not_lt.2 (Nat.le_add_left _ _))
theorem hrest5 (c : Dev nD) : ∀ b, b ∉ Finset.univ.image (Pipeline.arrRef spec5) → V11 m ρ c b = V10 m ρ c b :=
  fun b hb => W11_of_ne m ρ c b (fun e => hb (Finset.mem_image.mpr ⟨4, Finset.mem_univ _, e⟩))

/-- After the host stretch hostOps6. -/
abbrev W12 : Dev nD → Valuation τ sig (Elt F) := fun c => StableHlo.after hostOps6 (W11 m ρ c)
abbrev V12 : (c : Dev nD) → (b : Ref sig .tc) → Buf (Elt F) ((c : Thread nD τ).loc b) := fun c b => W12 m ρ c b
theorem W12_keep (c : Dev nD) (r : Ref sig .tc) (h : r ∉ hostOps6_W) : W12 m ρ c (Proc.devRef .tc r) = W11 m ρ c (Proc.devRef .tc r) :=
  StableHlo.after_of_writes_sub hostOps6 _ hostOps6_writes h

/-- At region 6's exit: each output array at what the write-backs leave, every other buffer as entered. -/
def W13 (c : Dev nD) : Valuation τ sig (Elt F) :=
  (Function.update (W12 m ρ c) (Proc.devRef .tc (Pipeline.arrRef spec6 4)) ((dat6 (V12 m ρ) c).arrAt 4 cfg6.N))
theorem W13_out4 (c : Dev nD) : W13 m ρ c (Proc.devRef .tc (Pipeline.arrRef spec6 4)) = ((dat6 (V12 m ρ) c).arrAt 4 cfg6.N) := by
  unfold W13
  exact Function.update_self ..
theorem W13_of_ne (c : Dev nD) (b : Ref sig .tc) (h4 : Pipeline.arrRef spec6 4 ≠ b) :
    W13 m ρ c (Proc.devRef .tc b) = W12 m ρ c (Proc.devRef .tc b) := by
  unfold W13
  rw [Function.update_of_ne (StableHlo.devRef_ne_of_ne (Ne.symm h4))]
abbrev V13 : (c : Dev nD) → (b : Ref sig .tc) → Buf (Elt F) ((c : Thread nD τ).loc b) := fun c b => W13 m ρ c b
theorem hF6 (c : Dev nD) : ∀ w : Fin cfg6.W, (dat6 (V12 m ρ) c).arrAt w cfg6.N = V13 m ρ c (Pipeline.arrRef spec6 w)
  | ⟨0, _⟩ => ((dat6 (V12 m ρ) c).arrAt_in 0 rfl _).trans ((A_eq6 (V12 m ρ) c 0).trans (W13_of_ne m ρ c (Pipeline.arrRef spec6 0) (by decide)).symm)
  | ⟨1, _⟩ => ((dat6 (V12 m ρ) c).arrAt_in 1 rfl _).trans ((A_eq6 (V12 m ρ) c 1).trans (W13_of_ne m ρ c (Pipeline.arrRef spec6 1) (by decide)).symm)
  | ⟨2, _⟩ => ((dat6 (V12 m ρ) c).arrAt_in 2 rfl _).trans ((A_eq6 (V12 m ρ) c 2).trans (W13_of_ne m ρ c (Pipeline.arrRef spec6 2) (by decide)).symm)
  | ⟨3, _⟩ => ((dat6 (V12 m ρ) c).arrAt_in 3 rfl _).trans ((A_eq6 (V12 m ρ) c 3).trans (W13_of_ne m ρ c (Pipeline.arrRef spec6 3) (by decide)).symm)
  | ⟨4, _⟩ => (W13_out4 m ρ c).symm
  | ⟨n + 5, h⟩ => absurd h (Nat.not_lt.2 (Nat.le_add_left _ _))
theorem hrest6 (c : Dev nD) : ∀ b, b ∉ Finset.univ.image (Pipeline.arrRef spec6) → V13 m ρ c b = V12 m ρ c b :=
  fun b hb => W13_of_ne m ρ c b (fun e => hb (Finset.mem_image.mpr ⟨4, Finset.mem_univ _, e⟩))

/-- After the host stretch hostOps7. -/
abbrev W14 : Dev nD → Valuation τ sig (Elt F) := fun c => StableHlo.after hostOps7 (W13 m ρ c)
abbrev V14 : (c : Dev nD) → (b : Ref sig .tc) → Buf (Elt F) ((c : Thread nD τ).loc b) := fun c b => W14 m ρ c b
theorem W14_keep (c : Dev nD) (r : Ref sig .tc) (h : r ∉ hostOps7_W) : W14 m ρ c (Proc.devRef .tc r) = W13 m ρ c (Proc.devRef .tc r) :=
  StableHlo.after_of_writes_sub hostOps7 _ hostOps7_writes h

/-- At region 7's exit: each output array at what the write-backs leave, every other buffer as entered. -/
def W15 (c : Dev nD) : Valuation τ sig (Elt F) :=
  (Function.update (W14 m ρ c) (Proc.devRef .tc (Pipeline.arrRef spec7 4)) ((dat7 (V14 m ρ) c).arrAt 4 cfg7.N))
theorem W15_out4 (c : Dev nD) : W15 m ρ c (Proc.devRef .tc (Pipeline.arrRef spec7 4)) = ((dat7 (V14 m ρ) c).arrAt 4 cfg7.N) := by
  unfold W15
  exact Function.update_self ..
theorem W15_of_ne (c : Dev nD) (b : Ref sig .tc) (h4 : Pipeline.arrRef spec7 4 ≠ b) :
    W15 m ρ c (Proc.devRef .tc b) = W14 m ρ c (Proc.devRef .tc b) := by
  unfold W15
  rw [Function.update_of_ne (StableHlo.devRef_ne_of_ne (Ne.symm h4))]
abbrev V15 : (c : Dev nD) → (b : Ref sig .tc) → Buf (Elt F) ((c : Thread nD τ).loc b) := fun c b => W15 m ρ c b
theorem hF7 (c : Dev nD) : ∀ w : Fin cfg7.W, (dat7 (V14 m ρ) c).arrAt w cfg7.N = V15 m ρ c (Pipeline.arrRef spec7 w)
  | ⟨0, _⟩ => ((dat7 (V14 m ρ) c).arrAt_in 0 rfl _).trans ((A_eq7 (V14 m ρ) c 0).trans (W15_of_ne m ρ c (Pipeline.arrRef spec7 0) (by decide)).symm)
  | ⟨1, _⟩ => ((dat7 (V14 m ρ) c).arrAt_in 1 rfl _).trans ((A_eq7 (V14 m ρ) c 1).trans (W15_of_ne m ρ c (Pipeline.arrRef spec7 1) (by decide)).symm)
  | ⟨2, _⟩ => ((dat7 (V14 m ρ) c).arrAt_in 2 rfl _).trans ((A_eq7 (V14 m ρ) c 2).trans (W15_of_ne m ρ c (Pipeline.arrRef spec7 2) (by decide)).symm)
  | ⟨3, _⟩ => ((dat7 (V14 m ρ) c).arrAt_in 3 rfl _).trans ((A_eq7 (V14 m ρ) c 3).trans (W15_of_ne m ρ c (Pipeline.arrRef spec7 3) (by decide)).symm)
  | ⟨4, _⟩ => (W15_out4 m ρ c).symm
  | ⟨n + 5, h⟩ => absurd h (Nat.not_lt.2 (Nat.le_add_left _ _))
theorem hrest7 (c : Dev nD) : ∀ b, b ∉ Finset.univ.image (Pipeline.arrRef spec7) → V15 m ρ c b = V14 m ρ c b :=
  fun b hb => W15_of_ne m ρ c b (fun e => hb (Finset.mem_image.mpr ⟨4, Finset.mem_univ _, e⟩))

/-- After the host stretch hostOps8. -/
abbrev W16 : Dev nD → Valuation τ sig (Elt F) := fun c => StableHlo.after hostOps8 (W15 m ρ c)
abbrev V16 : (c : Dev nD) → (b : Ref sig .tc) → Buf (Elt F) ((c : Thread nD τ).loc b) := fun c b => W16 m ρ c b
theorem W16_keep (c : Dev nD) (r : Ref sig .tc) (h : r ∉ hostOps8_W) : W16 m ρ c (Proc.devRef .tc r) = W15 m ρ c (Proc.devRef .tc r) :=
  StableHlo.after_of_writes_sub hostOps8 _ hostOps8_writes h

/-- At region 8's exit: each output array at what the write-backs leave, every other buffer as entered. -/
def W17 (c : Dev nD) : Valuation τ sig (Elt F) :=
  (Function.update (W16 m ρ c) (Proc.devRef .tc (Pipeline.arrRef spec8 4)) ((dat8 (V16 m ρ) c).arrAt 4 cfg8.N))
theorem W17_out4 (c : Dev nD) : W17 m ρ c (Proc.devRef .tc (Pipeline.arrRef spec8 4)) = ((dat8 (V16 m ρ) c).arrAt 4 cfg8.N) := by
  unfold W17
  exact Function.update_self ..
theorem W17_of_ne (c : Dev nD) (b : Ref sig .tc) (h4 : Pipeline.arrRef spec8 4 ≠ b) :
    W17 m ρ c (Proc.devRef .tc b) = W16 m ρ c (Proc.devRef .tc b) := by
  unfold W17
  rw [Function.update_of_ne (StableHlo.devRef_ne_of_ne (Ne.symm h4))]
abbrev V17 : (c : Dev nD) → (b : Ref sig .tc) → Buf (Elt F) ((c : Thread nD τ).loc b) := fun c b => W17 m ρ c b
theorem hF8 (c : Dev nD) : ∀ w : Fin cfg8.W, (dat8 (V16 m ρ) c).arrAt w cfg8.N = V17 m ρ c (Pipeline.arrRef spec8 w)
  | ⟨0, _⟩ => ((dat8 (V16 m ρ) c).arrAt_in 0 rfl _).trans ((A_eq8 (V16 m ρ) c 0).trans (W17_of_ne m ρ c (Pipeline.arrRef spec8 0) (by decide)).symm)
  | ⟨1, _⟩ => ((dat8 (V16 m ρ) c).arrAt_in 1 rfl _).trans ((A_eq8 (V16 m ρ) c 1).trans (W17_of_ne m ρ c (Pipeline.arrRef spec8 1) (by decide)).symm)
  | ⟨2, _⟩ => ((dat8 (V16 m ρ) c).arrAt_in 2 rfl _).trans ((A_eq8 (V16 m ρ) c 2).trans (W17_of_ne m ρ c (Pipeline.arrRef spec8 2) (by decide)).symm)
  | ⟨3, _⟩ => ((dat8 (V16 m ρ) c).arrAt_in 3 rfl _).trans ((A_eq8 (V16 m ρ) c 3).trans (W17_of_ne m ρ c (Pipeline.arrRef spec8 3) (by decide)).symm)
  | ⟨4, _⟩ => (W17_out4 m ρ c).symm
  | ⟨n + 5, h⟩ => absurd h (Nat.not_lt.2 (Nat.le_add_left _ _))
theorem hrest8 (c : Dev nD) : ∀ b, b ∉ Finset.univ.image (Pipeline.arrRef spec8) → V17 m ρ c b = V16 m ρ c b :=
  fun b hb => W17_of_ne m ρ c b (fun e => hb (Finset.mem_image.mpr ⟨4, Finset.mem_univ _, e⟩))

/-- After the host stretch hostOps9. -/
abbrev W18 : Dev nD → Valuation τ sig (Elt F) := fun c => StableHlo.after hostOps9 (W17 m ρ c)
abbrev V18 : (c : Dev nD) → (b : Ref sig .tc) → Buf (Elt F) ((c : Thread nD τ).loc b) := fun c b => W18 m ρ c b
theorem W18_keep (c : Dev nD) (r : Ref sig .tc) (h : r ∉ hostOps9_W) : W18 m ρ c (Proc.devRef .tc r) = W17 m ρ c (Proc.devRef .tc r) :=
  StableHlo.after_of_writes_sub hostOps9 _ hostOps9_writes h

/-- At region 9's exit: each output array at what the write-backs leave, every other buffer as entered. -/
def W19 (c : Dev nD) : Valuation τ sig (Elt F) :=
  (Function.update (W18 m ρ c) (Proc.devRef .tc (Pipeline.arrRef spec9 4)) ((dat9 (V18 m ρ) c).arrAt 4 cfg9.N))
theorem W19_out4 (c : Dev nD) : W19 m ρ c (Proc.devRef .tc (Pipeline.arrRef spec9 4)) = ((dat9 (V18 m ρ) c).arrAt 4 cfg9.N) := by
  unfold W19
  exact Function.update_self ..
theorem W19_of_ne (c : Dev nD) (b : Ref sig .tc) (h4 : Pipeline.arrRef spec9 4 ≠ b) :
    W19 m ρ c (Proc.devRef .tc b) = W18 m ρ c (Proc.devRef .tc b) := by
  unfold W19
  rw [Function.update_of_ne (StableHlo.devRef_ne_of_ne (Ne.symm h4))]
abbrev V19 : (c : Dev nD) → (b : Ref sig .tc) → Buf (Elt F) ((c : Thread nD τ).loc b) := fun c b => W19 m ρ c b
theorem hF9 (c : Dev nD) : ∀ w : Fin cfg9.W, (dat9 (V18 m ρ) c).arrAt w cfg9.N = V19 m ρ c (Pipeline.arrRef spec9 w)
  | ⟨0, _⟩ => ((dat9 (V18 m ρ) c).arrAt_in 0 rfl _).trans ((A_eq9 (V18 m ρ) c 0).trans (W19_of_ne m ρ c (Pipeline.arrRef spec9 0) (by decide)).symm)
  | ⟨1, _⟩ => ((dat9 (V18 m ρ) c).arrAt_in 1 rfl _).trans ((A_eq9 (V18 m ρ) c 1).trans (W19_of_ne m ρ c (Pipeline.arrRef spec9 1) (by decide)).symm)
  | ⟨2, _⟩ => ((dat9 (V18 m ρ) c).arrAt_in 2 rfl _).trans ((A_eq9 (V18 m ρ) c 2).trans (W19_of_ne m ρ c (Pipeline.arrRef spec9 2) (by decide)).symm)
  | ⟨3, _⟩ => ((dat9 (V18 m ρ) c).arrAt_in 3 rfl _).trans ((A_eq9 (V18 m ρ) c 3).trans (W19_of_ne m ρ c (Pipeline.arrRef spec9 3) (by decide)).symm)
  | ⟨4, _⟩ => (W19_out4 m ρ c).symm
  | ⟨n + 5, h⟩ => absurd h (Nat.not_lt.2 (Nat.le_add_left _ _))
theorem hrest9 (c : Dev nD) : ∀ b, b ∉ Finset.univ.image (Pipeline.arrRef spec9) → V19 m ρ c b = V18 m ρ c b :=
  fun b hb => W19_of_ne m ρ c b (fun e => hb (Finset.mem_image.mpr ⟨4, Finset.mem_univ _, e⟩))

/-- After the host stretch hostOps10. -/
abbrev W20 : Dev nD → Valuation τ sig (Elt F) := fun c => StableHlo.after hostOps10 (W19 m ρ c)
abbrev V20 : (c : Dev nD) → (b : Ref sig .tc) → Buf (Elt F) ((c : Thread nD τ).loc b) := fun c b => W20 m ρ c b
theorem W20_keep (c : Dev nD) (r : Ref sig .tc) (h : r ∉ hostOps10_W) : W20 m ρ c (Proc.devRef .tc r) = W19 m ρ c (Proc.devRef .tc r) :=
  StableHlo.after_of_writes_sub hostOps10 _ hostOps10_writes h

/-- At region 10's exit: each output array at what the write-backs leave, every other buffer as entered. -/
def W21 (c : Dev nD) : Valuation τ sig (Elt F) :=
  (Function.update (W20 m ρ c) (Proc.devRef .tc (Pipeline.arrRef spec10 5)) ((dat10 (V20 m ρ) c).arrAt 5 cfg10.N))
theorem W21_out5 (c : Dev nD) : W21 m ρ c (Proc.devRef .tc (Pipeline.arrRef spec10 5)) = ((dat10 (V20 m ρ) c).arrAt 5 cfg10.N) := by
  unfold W21
  exact Function.update_self ..
theorem W21_of_ne (c : Dev nD) (b : Ref sig .tc) (h5 : Pipeline.arrRef spec10 5 ≠ b) :
    W21 m ρ c (Proc.devRef .tc b) = W20 m ρ c (Proc.devRef .tc b) := by
  unfold W21
  rw [Function.update_of_ne (StableHlo.devRef_ne_of_ne (Ne.symm h5))]
abbrev V21 : (c : Dev nD) → (b : Ref sig .tc) → Buf (Elt F) ((c : Thread nD τ).loc b) := fun c b => W21 m ρ c b
theorem hF10 (c : Dev nD) : ∀ w : Fin cfg10.W, (dat10 (V20 m ρ) c).arrAt w cfg10.N = V21 m ρ c (Pipeline.arrRef spec10 w)
  | ⟨0, _⟩ => ((dat10 (V20 m ρ) c).arrAt_in 0 rfl _).trans ((A_eq10 (V20 m ρ) c 0).trans (W21_of_ne m ρ c (Pipeline.arrRef spec10 0) (by decide)).symm)
  | ⟨1, _⟩ => ((dat10 (V20 m ρ) c).arrAt_in 1 rfl _).trans ((A_eq10 (V20 m ρ) c 1).trans (W21_of_ne m ρ c (Pipeline.arrRef spec10 1) (by decide)).symm)
  | ⟨2, _⟩ => ((dat10 (V20 m ρ) c).arrAt_in 2 rfl _).trans ((A_eq10 (V20 m ρ) c 2).trans (W21_of_ne m ρ c (Pipeline.arrRef spec10 2) (by decide)).symm)
  | ⟨3, _⟩ => ((dat10 (V20 m ρ) c).arrAt_in 3 rfl _).trans ((A_eq10 (V20 m ρ) c 3).trans (W21_of_ne m ρ c (Pipeline.arrRef spec10 3) (by decide)).symm)
  | ⟨4, _⟩ => ((dat10 (V20 m ρ) c).arrAt_in 4 rfl _).trans ((A_eq10 (V20 m ρ) c 4).trans (W21_of_ne m ρ c (Pipeline.arrRef spec10 4) (by decide)).symm)
  | ⟨5, _⟩ => (W21_out5 m ρ c).symm
  | ⟨n + 6, h⟩ => absurd h (Nat.not_lt.2 (Nat.le_add_left _ _))
theorem hrest10 (c : Dev nD) : ∀ b, b ∉ Finset.univ.image (Pipeline.arrRef spec10) → V21 m ρ c b = V20 m ρ c b :=
  fun b hb => W21_of_ne m ρ c b (fun e => hb (Finset.mem_image.mpr ⟨5, Finset.mem_univ _, e⟩))

/-! ## The arguments end as launched -/

theorem W21_main_arg0 (c : Dev nD) : W21 m ρ c (Proc.devRef .tc main_arg0) = m ((c : Thread nD τ).loc main_arg0) :=
  calc W21 m ρ c (Proc.devRef .tc main_arg0)
    _ = W20 m ρ c (Proc.devRef .tc main_arg0) := W21_of_ne m ρ c main_arg0 (by decide)
    _ = W19 m ρ c (Proc.devRef .tc main_arg0) := W20_keep m ρ c main_arg0 (by decide)
    _ = W18 m ρ c (Proc.devRef .tc main_arg0) := W19_of_ne m ρ c main_arg0 (by decide)
    _ = W17 m ρ c (Proc.devRef .tc main_arg0) := W18_keep m ρ c main_arg0 (by decide)
    _ = W16 m ρ c (Proc.devRef .tc main_arg0) := W17_of_ne m ρ c main_arg0 (by decide)
    _ = W15 m ρ c (Proc.devRef .tc main_arg0) := W16_keep m ρ c main_arg0 (by decide)
    _ = W14 m ρ c (Proc.devRef .tc main_arg0) := W15_of_ne m ρ c main_arg0 (by decide)
    _ = W13 m ρ c (Proc.devRef .tc main_arg0) := W14_keep m ρ c main_arg0 (by decide)
    _ = W12 m ρ c (Proc.devRef .tc main_arg0) := W13_of_ne m ρ c main_arg0 (by decide)
    _ = W11 m ρ c (Proc.devRef .tc main_arg0) := W12_keep m ρ c main_arg0 (by decide)
    _ = W10 m ρ c (Proc.devRef .tc main_arg0) := W11_of_ne m ρ c main_arg0 (by decide)
    _ = W9 m ρ c (Proc.devRef .tc main_arg0) := W10_keep m ρ c main_arg0 (by decide)
    _ = W8 m ρ c (Proc.devRef .tc main_arg0) := W9_of_ne m ρ c main_arg0 (by decide)
    _ = W7 m ρ c (Proc.devRef .tc main_arg0) := W8_keep m ρ c main_arg0 (by decide)
    _ = W6 m ρ c (Proc.devRef .tc main_arg0) := W7_of_ne m ρ c main_arg0 (by decide)
    _ = W5 m ρ c (Proc.devRef .tc main_arg0) := W6_keep m ρ c main_arg0 (by decide)
    _ = W4 m ρ c (Proc.devRef .tc main_arg0) := W5_of_ne m ρ c main_arg0 (by decide)
    _ = W3 m ρ c (Proc.devRef .tc main_arg0) := W4_keep m ρ c main_arg0 (by decide)
    _ = W2 m ρ c (Proc.devRef .tc main_arg0) := W3_of_ne m ρ c main_arg0 (by decide)
    _ = W1 m ρ c (Proc.devRef .tc main_arg0) := W2_of_ne m ρ c main_arg0 (by decide) (by decide)
    _ = W0 m ρ c (Proc.devRef .tc main_arg0) := W1_keep m ρ c main_arg0 (by decide)
    _ = m ((c : Thread nD τ).loc main_arg0) := rfl

theorem W21_main_arg1 (c : Dev nD) : W21 m ρ c (Proc.devRef .tc main_arg1) = m ((c : Thread nD τ).loc main_arg1) :=
  calc W21 m ρ c (Proc.devRef .tc main_arg1)
    _ = W20 m ρ c (Proc.devRef .tc main_arg1) := W21_of_ne m ρ c main_arg1 (by decide)
    _ = W19 m ρ c (Proc.devRef .tc main_arg1) := W20_keep m ρ c main_arg1 (by decide)
    _ = W18 m ρ c (Proc.devRef .tc main_arg1) := W19_of_ne m ρ c main_arg1 (by decide)
    _ = W17 m ρ c (Proc.devRef .tc main_arg1) := W18_keep m ρ c main_arg1 (by decide)
    _ = W16 m ρ c (Proc.devRef .tc main_arg1) := W17_of_ne m ρ c main_arg1 (by decide)
    _ = W15 m ρ c (Proc.devRef .tc main_arg1) := W16_keep m ρ c main_arg1 (by decide)
    _ = W14 m ρ c (Proc.devRef .tc main_arg1) := W15_of_ne m ρ c main_arg1 (by decide)
    _ = W13 m ρ c (Proc.devRef .tc main_arg1) := W14_keep m ρ c main_arg1 (by decide)
    _ = W12 m ρ c (Proc.devRef .tc main_arg1) := W13_of_ne m ρ c main_arg1 (by decide)
    _ = W11 m ρ c (Proc.devRef .tc main_arg1) := W12_keep m ρ c main_arg1 (by decide)
    _ = W10 m ρ c (Proc.devRef .tc main_arg1) := W11_of_ne m ρ c main_arg1 (by decide)
    _ = W9 m ρ c (Proc.devRef .tc main_arg1) := W10_keep m ρ c main_arg1 (by decide)
    _ = W8 m ρ c (Proc.devRef .tc main_arg1) := W9_of_ne m ρ c main_arg1 (by decide)
    _ = W7 m ρ c (Proc.devRef .tc main_arg1) := W8_keep m ρ c main_arg1 (by decide)
    _ = W6 m ρ c (Proc.devRef .tc main_arg1) := W7_of_ne m ρ c main_arg1 (by decide)
    _ = W5 m ρ c (Proc.devRef .tc main_arg1) := W6_keep m ρ c main_arg1 (by decide)
    _ = W4 m ρ c (Proc.devRef .tc main_arg1) := W5_of_ne m ρ c main_arg1 (by decide)
    _ = W3 m ρ c (Proc.devRef .tc main_arg1) := W4_keep m ρ c main_arg1 (by decide)
    _ = W2 m ρ c (Proc.devRef .tc main_arg1) := W3_of_ne m ρ c main_arg1 (by decide)
    _ = W1 m ρ c (Proc.devRef .tc main_arg1) := W2_of_ne m ρ c main_arg1 (by decide) (by decide)
    _ = W0 m ρ c (Proc.devRef .tc main_arg1) := W1_keep m ρ c main_arg1 (by decide)
    _ = m ((c : Thread nD τ).loc main_arg1) := rfl

theorem W21_main_arg2 (c : Dev nD) : W21 m ρ c (Proc.devRef .tc main_arg2) = m ((c : Thread nD τ).loc main_arg2) :=
  calc W21 m ρ c (Proc.devRef .tc main_arg2)
    _ = W20 m ρ c (Proc.devRef .tc main_arg2) := W21_of_ne m ρ c main_arg2 (by decide)
    _ = W19 m ρ c (Proc.devRef .tc main_arg2) := W20_keep m ρ c main_arg2 (by decide)
    _ = W18 m ρ c (Proc.devRef .tc main_arg2) := W19_of_ne m ρ c main_arg2 (by decide)
    _ = W17 m ρ c (Proc.devRef .tc main_arg2) := W18_keep m ρ c main_arg2 (by decide)
    _ = W16 m ρ c (Proc.devRef .tc main_arg2) := W17_of_ne m ρ c main_arg2 (by decide)
    _ = W15 m ρ c (Proc.devRef .tc main_arg2) := W16_keep m ρ c main_arg2 (by decide)
    _ = W14 m ρ c (Proc.devRef .tc main_arg2) := W15_of_ne m ρ c main_arg2 (by decide)
    _ = W13 m ρ c (Proc.devRef .tc main_arg2) := W14_keep m ρ c main_arg2 (by decide)
    _ = W12 m ρ c (Proc.devRef .tc main_arg2) := W13_of_ne m ρ c main_arg2 (by decide)
    _ = W11 m ρ c (Proc.devRef .tc main_arg2) := W12_keep m ρ c main_arg2 (by decide)
    _ = W10 m ρ c (Proc.devRef .tc main_arg2) := W11_of_ne m ρ c main_arg2 (by decide)
    _ = W9 m ρ c (Proc.devRef .tc main_arg2) := W10_keep m ρ c main_arg2 (by decide)
    _ = W8 m ρ c (Proc.devRef .tc main_arg2) := W9_of_ne m ρ c main_arg2 (by decide)
    _ = W7 m ρ c (Proc.devRef .tc main_arg2) := W8_keep m ρ c main_arg2 (by decide)
    _ = W6 m ρ c (Proc.devRef .tc main_arg2) := W7_of_ne m ρ c main_arg2 (by decide)
    _ = W5 m ρ c (Proc.devRef .tc main_arg2) := W6_keep m ρ c main_arg2 (by decide)
    _ = W4 m ρ c (Proc.devRef .tc main_arg2) := W5_of_ne m ρ c main_arg2 (by decide)
    _ = W3 m ρ c (Proc.devRef .tc main_arg2) := W4_keep m ρ c main_arg2 (by decide)
    _ = W2 m ρ c (Proc.devRef .tc main_arg2) := W3_of_ne m ρ c main_arg2 (by decide)
    _ = W1 m ρ c (Proc.devRef .tc main_arg2) := W2_of_ne m ρ c main_arg2 (by decide) (by decide)
    _ = W0 m ρ c (Proc.devRef .tc main_arg2) := W1_keep m ρ c main_arg2 (by decide)
    _ = m ((c : Thread nD τ).loc main_arg2) := rfl

theorem W21_main_arg3 (c : Dev nD) : W21 m ρ c (Proc.devRef .tc main_arg3) = m ((c : Thread nD τ).loc main_arg3) :=
  calc W21 m ρ c (Proc.devRef .tc main_arg3)
    _ = W20 m ρ c (Proc.devRef .tc main_arg3) := W21_of_ne m ρ c main_arg3 (by decide)
    _ = W19 m ρ c (Proc.devRef .tc main_arg3) := W20_keep m ρ c main_arg3 (by decide)
    _ = W18 m ρ c (Proc.devRef .tc main_arg3) := W19_of_ne m ρ c main_arg3 (by decide)
    _ = W17 m ρ c (Proc.devRef .tc main_arg3) := W18_keep m ρ c main_arg3 (by decide)
    _ = W16 m ρ c (Proc.devRef .tc main_arg3) := W17_of_ne m ρ c main_arg3 (by decide)
    _ = W15 m ρ c (Proc.devRef .tc main_arg3) := W16_keep m ρ c main_arg3 (by decide)
    _ = W14 m ρ c (Proc.devRef .tc main_arg3) := W15_of_ne m ρ c main_arg3 (by decide)
    _ = W13 m ρ c (Proc.devRef .tc main_arg3) := W14_keep m ρ c main_arg3 (by decide)
    _ = W12 m ρ c (Proc.devRef .tc main_arg3) := W13_of_ne m ρ c main_arg3 (by decide)
    _ = W11 m ρ c (Proc.devRef .tc main_arg3) := W12_keep m ρ c main_arg3 (by decide)
    _ = W10 m ρ c (Proc.devRef .tc main_arg3) := W11_of_ne m ρ c main_arg3 (by decide)
    _ = W9 m ρ c (Proc.devRef .tc main_arg3) := W10_keep m ρ c main_arg3 (by decide)
    _ = W8 m ρ c (Proc.devRef .tc main_arg3) := W9_of_ne m ρ c main_arg3 (by decide)
    _ = W7 m ρ c (Proc.devRef .tc main_arg3) := W8_keep m ρ c main_arg3 (by decide)
    _ = W6 m ρ c (Proc.devRef .tc main_arg3) := W7_of_ne m ρ c main_arg3 (by decide)
    _ = W5 m ρ c (Proc.devRef .tc main_arg3) := W6_keep m ρ c main_arg3 (by decide)
    _ = W4 m ρ c (Proc.devRef .tc main_arg3) := W5_of_ne m ρ c main_arg3 (by decide)
    _ = W3 m ρ c (Proc.devRef .tc main_arg3) := W4_keep m ρ c main_arg3 (by decide)
    _ = W2 m ρ c (Proc.devRef .tc main_arg3) := W3_of_ne m ρ c main_arg3 (by decide)
    _ = W1 m ρ c (Proc.devRef .tc main_arg3) := W2_of_ne m ρ c main_arg3 (by decide) (by decide)
    _ = W0 m ρ c (Proc.devRef .tc main_arg3) := W1_keep m ρ c main_arg3 (by decide)
    _ = m ((c : Thread nD τ).loc main_arg3) := rfl

theorem W21_main_arg4 (c : Dev nD) : W21 m ρ c (Proc.devRef .tc main_arg4) = m ((c : Thread nD τ).loc main_arg4) :=
  calc W21 m ρ c (Proc.devRef .tc main_arg4)
    _ = W20 m ρ c (Proc.devRef .tc main_arg4) := W21_of_ne m ρ c main_arg4 (by decide)
    _ = W19 m ρ c (Proc.devRef .tc main_arg4) := W20_keep m ρ c main_arg4 (by decide)
    _ = W18 m ρ c (Proc.devRef .tc main_arg4) := W19_of_ne m ρ c main_arg4 (by decide)
    _ = W17 m ρ c (Proc.devRef .tc main_arg4) := W18_keep m ρ c main_arg4 (by decide)
    _ = W16 m ρ c (Proc.devRef .tc main_arg4) := W17_of_ne m ρ c main_arg4 (by decide)
    _ = W15 m ρ c (Proc.devRef .tc main_arg4) := W16_keep m ρ c main_arg4 (by decide)
    _ = W14 m ρ c (Proc.devRef .tc main_arg4) := W15_of_ne m ρ c main_arg4 (by decide)
    _ = W13 m ρ c (Proc.devRef .tc main_arg4) := W14_keep m ρ c main_arg4 (by decide)
    _ = W12 m ρ c (Proc.devRef .tc main_arg4) := W13_of_ne m ρ c main_arg4 (by decide)
    _ = W11 m ρ c (Proc.devRef .tc main_arg4) := W12_keep m ρ c main_arg4 (by decide)
    _ = W10 m ρ c (Proc.devRef .tc main_arg4) := W11_of_ne m ρ c main_arg4 (by decide)
    _ = W9 m ρ c (Proc.devRef .tc main_arg4) := W10_keep m ρ c main_arg4 (by decide)
    _ = W8 m ρ c (Proc.devRef .tc main_arg4) := W9_of_ne m ρ c main_arg4 (by decide)
    _ = W7 m ρ c (Proc.devRef .tc main_arg4) := W8_keep m ρ c main_arg4 (by decide)
    _ = W6 m ρ c (Proc.devRef .tc main_arg4) := W7_of_ne m ρ c main_arg4 (by decide)
    _ = W5 m ρ c (Proc.devRef .tc main_arg4) := W6_keep m ρ c main_arg4 (by decide)
    _ = W4 m ρ c (Proc.devRef .tc main_arg4) := W5_of_ne m ρ c main_arg4 (by decide)
    _ = W3 m ρ c (Proc.devRef .tc main_arg4) := W4_keep m ρ c main_arg4 (by decide)
    _ = W2 m ρ c (Proc.devRef .tc main_arg4) := W3_of_ne m ρ c main_arg4 (by decide)
    _ = W1 m ρ c (Proc.devRef .tc main_arg4) := W2_of_ne m ρ c main_arg4 (by decide) (by decide)
    _ = W0 m ρ c (Proc.devRef .tc main_arg4) := W1_keep m ρ c main_arg4 (by decide)
    _ = m ((c : Thread nD τ).loc main_arg4) := rfl

theorem W21_main_arg5 (c : Dev nD) : W21 m ρ c (Proc.devRef .tc main_arg5) = m ((c : Thread nD τ).loc main_arg5) :=
  calc W21 m ρ c (Proc.devRef .tc main_arg5)
    _ = W20 m ρ c (Proc.devRef .tc main_arg5) := W21_of_ne m ρ c main_arg5 (by decide)
    _ = W19 m ρ c (Proc.devRef .tc main_arg5) := W20_keep m ρ c main_arg5 (by decide)
    _ = W18 m ρ c (Proc.devRef .tc main_arg5) := W19_of_ne m ρ c main_arg5 (by decide)
    _ = W17 m ρ c (Proc.devRef .tc main_arg5) := W18_keep m ρ c main_arg5 (by decide)
    _ = W16 m ρ c (Proc.devRef .tc main_arg5) := W17_of_ne m ρ c main_arg5 (by decide)
    _ = W15 m ρ c (Proc.devRef .tc main_arg5) := W16_keep m ρ c main_arg5 (by decide)
    _ = W14 m ρ c (Proc.devRef .tc main_arg5) := W15_of_ne m ρ c main_arg5 (by decide)
    _ = W13 m ρ c (Proc.devRef .tc main_arg5) := W14_keep m ρ c main_arg5 (by decide)
    _ = W12 m ρ c (Proc.devRef .tc main_arg5) := W13_of_ne m ρ c main_arg5 (by decide)
    _ = W11 m ρ c (Proc.devRef .tc main_arg5) := W12_keep m ρ c main_arg5 (by decide)
    _ = W10 m ρ c (Proc.devRef .tc main_arg5) := W11_of_ne m ρ c main_arg5 (by decide)
    _ = W9 m ρ c (Proc.devRef .tc main_arg5) := W10_keep m ρ c main_arg5 (by decide)
    _ = W8 m ρ c (Proc.devRef .tc main_arg5) := W9_of_ne m ρ c main_arg5 (by decide)
    _ = W7 m ρ c (Proc.devRef .tc main_arg5) := W8_keep m ρ c main_arg5 (by decide)
    _ = W6 m ρ c (Proc.devRef .tc main_arg5) := W7_of_ne m ρ c main_arg5 (by decide)
    _ = W5 m ρ c (Proc.devRef .tc main_arg5) := W6_keep m ρ c main_arg5 (by decide)
    _ = W4 m ρ c (Proc.devRef .tc main_arg5) := W5_of_ne m ρ c main_arg5 (by decide)
    _ = W3 m ρ c (Proc.devRef .tc main_arg5) := W4_keep m ρ c main_arg5 (by decide)
    _ = W2 m ρ c (Proc.devRef .tc main_arg5) := W3_of_ne m ρ c main_arg5 (by decide)
    _ = W1 m ρ c (Proc.devRef .tc main_arg5) := W2_of_ne m ρ c main_arg5 (by decide) (by decide)
    _ = W0 m ρ c (Proc.devRef .tc main_arg5) := W1_keep m ρ c main_arg5 (by decide)
    _ = m ((c : Thread nD τ).loc main_arg5) := rfl

theorem W21_main_arg6 (c : Dev nD) : W21 m ρ c (Proc.devRef .tc main_arg6) = m ((c : Thread nD τ).loc main_arg6) :=
  calc W21 m ρ c (Proc.devRef .tc main_arg6)
    _ = W20 m ρ c (Proc.devRef .tc main_arg6) := W21_of_ne m ρ c main_arg6 (by decide)
    _ = W19 m ρ c (Proc.devRef .tc main_arg6) := W20_keep m ρ c main_arg6 (by decide)
    _ = W18 m ρ c (Proc.devRef .tc main_arg6) := W19_of_ne m ρ c main_arg6 (by decide)
    _ = W17 m ρ c (Proc.devRef .tc main_arg6) := W18_keep m ρ c main_arg6 (by decide)
    _ = W16 m ρ c (Proc.devRef .tc main_arg6) := W17_of_ne m ρ c main_arg6 (by decide)
    _ = W15 m ρ c (Proc.devRef .tc main_arg6) := W16_keep m ρ c main_arg6 (by decide)
    _ = W14 m ρ c (Proc.devRef .tc main_arg6) := W15_of_ne m ρ c main_arg6 (by decide)
    _ = W13 m ρ c (Proc.devRef .tc main_arg6) := W14_keep m ρ c main_arg6 (by decide)
    _ = W12 m ρ c (Proc.devRef .tc main_arg6) := W13_of_ne m ρ c main_arg6 (by decide)
    _ = W11 m ρ c (Proc.devRef .tc main_arg6) := W12_keep m ρ c main_arg6 (by decide)
    _ = W10 m ρ c (Proc.devRef .tc main_arg6) := W11_of_ne m ρ c main_arg6 (by decide)
    _ = W9 m ρ c (Proc.devRef .tc main_arg6) := W10_keep m ρ c main_arg6 (by decide)
    _ = W8 m ρ c (Proc.devRef .tc main_arg6) := W9_of_ne m ρ c main_arg6 (by decide)
    _ = W7 m ρ c (Proc.devRef .tc main_arg6) := W8_keep m ρ c main_arg6 (by decide)
    _ = W6 m ρ c (Proc.devRef .tc main_arg6) := W7_of_ne m ρ c main_arg6 (by decide)
    _ = W5 m ρ c (Proc.devRef .tc main_arg6) := W6_keep m ρ c main_arg6 (by decide)
    _ = W4 m ρ c (Proc.devRef .tc main_arg6) := W5_of_ne m ρ c main_arg6 (by decide)
    _ = W3 m ρ c (Proc.devRef .tc main_arg6) := W4_keep m ρ c main_arg6 (by decide)
    _ = W2 m ρ c (Proc.devRef .tc main_arg6) := W3_of_ne m ρ c main_arg6 (by decide)
    _ = W1 m ρ c (Proc.devRef .tc main_arg6) := W2_of_ne m ρ c main_arg6 (by decide) (by decide)
    _ = W0 m ρ c (Proc.devRef .tc main_arg6) := W1_keep m ρ c main_arg6 (by decide)
    _ = m ((c : Thread nD τ).loc main_arg6) := rfl

theorem W21_main_arg7 (c : Dev nD) : W21 m ρ c (Proc.devRef .tc main_arg7) = m ((c : Thread nD τ).loc main_arg7) :=
  calc W21 m ρ c (Proc.devRef .tc main_arg7)
    _ = W20 m ρ c (Proc.devRef .tc main_arg7) := W21_of_ne m ρ c main_arg7 (by decide)
    _ = W19 m ρ c (Proc.devRef .tc main_arg7) := W20_keep m ρ c main_arg7 (by decide)
    _ = W18 m ρ c (Proc.devRef .tc main_arg7) := W19_of_ne m ρ c main_arg7 (by decide)
    _ = W17 m ρ c (Proc.devRef .tc main_arg7) := W18_keep m ρ c main_arg7 (by decide)
    _ = W16 m ρ c (Proc.devRef .tc main_arg7) := W17_of_ne m ρ c main_arg7 (by decide)
    _ = W15 m ρ c (Proc.devRef .tc main_arg7) := W16_keep m ρ c main_arg7 (by decide)
    _ = W14 m ρ c (Proc.devRef .tc main_arg7) := W15_of_ne m ρ c main_arg7 (by decide)
    _ = W13 m ρ c (Proc.devRef .tc main_arg7) := W14_keep m ρ c main_arg7 (by decide)
    _ = W12 m ρ c (Proc.devRef .tc main_arg7) := W13_of_ne m ρ c main_arg7 (by decide)
    _ = W11 m ρ c (Proc.devRef .tc main_arg7) := W12_keep m ρ c main_arg7 (by decide)
    _ = W10 m ρ c (Proc.devRef .tc main_arg7) := W11_of_ne m ρ c main_arg7 (by decide)
    _ = W9 m ρ c (Proc.devRef .tc main_arg7) := W10_keep m ρ c main_arg7 (by decide)
    _ = W8 m ρ c (Proc.devRef .tc main_arg7) := W9_of_ne m ρ c main_arg7 (by decide)
    _ = W7 m ρ c (Proc.devRef .tc main_arg7) := W8_keep m ρ c main_arg7 (by decide)
    _ = W6 m ρ c (Proc.devRef .tc main_arg7) := W7_of_ne m ρ c main_arg7 (by decide)
    _ = W5 m ρ c (Proc.devRef .tc main_arg7) := W6_keep m ρ c main_arg7 (by decide)
    _ = W4 m ρ c (Proc.devRef .tc main_arg7) := W5_of_ne m ρ c main_arg7 (by decide)
    _ = W3 m ρ c (Proc.devRef .tc main_arg7) := W4_keep m ρ c main_arg7 (by decide)
    _ = W2 m ρ c (Proc.devRef .tc main_arg7) := W3_of_ne m ρ c main_arg7 (by decide)
    _ = W1 m ρ c (Proc.devRef .tc main_arg7) := W2_of_ne m ρ c main_arg7 (by decide) (by decide)
    _ = W0 m ρ c (Proc.devRef .tc main_arg7) := W1_keep m ρ c main_arg7 (by decide)
    _ = m ((c : Thread nD τ).loc main_arg7) := rfl

theorem W21_main_arg8 (c : Dev nD) : W21 m ρ c (Proc.devRef .tc main_arg8) = m ((c : Thread nD τ).loc main_arg8) :=
  calc W21 m ρ c (Proc.devRef .tc main_arg8)
    _ = W20 m ρ c (Proc.devRef .tc main_arg8) := W21_of_ne m ρ c main_arg8 (by decide)
    _ = W19 m ρ c (Proc.devRef .tc main_arg8) := W20_keep m ρ c main_arg8 (by decide)
    _ = W18 m ρ c (Proc.devRef .tc main_arg8) := W19_of_ne m ρ c main_arg8 (by decide)
    _ = W17 m ρ c (Proc.devRef .tc main_arg8) := W18_keep m ρ c main_arg8 (by decide)
    _ = W16 m ρ c (Proc.devRef .tc main_arg8) := W17_of_ne m ρ c main_arg8 (by decide)
    _ = W15 m ρ c (Proc.devRef .tc main_arg8) := W16_keep m ρ c main_arg8 (by decide)
    _ = W14 m ρ c (Proc.devRef .tc main_arg8) := W15_of_ne m ρ c main_arg8 (by decide)
    _ = W13 m ρ c (Proc.devRef .tc main_arg8) := W14_keep m ρ c main_arg8 (by decide)
    _ = W12 m ρ c (Proc.devRef .tc main_arg8) := W13_of_ne m ρ c main_arg8 (by decide)
    _ = W11 m ρ c (Proc.devRef .tc main_arg8) := W12_keep m ρ c main_arg8 (by decide)
    _ = W10 m ρ c (Proc.devRef .tc main_arg8) := W11_of_ne m ρ c main_arg8 (by decide)
    _ = W9 m ρ c (Proc.devRef .tc main_arg8) := W10_keep m ρ c main_arg8 (by decide)
    _ = W8 m ρ c (Proc.devRef .tc main_arg8) := W9_of_ne m ρ c main_arg8 (by decide)
    _ = W7 m ρ c (Proc.devRef .tc main_arg8) := W8_keep m ρ c main_arg8 (by decide)
    _ = W6 m ρ c (Proc.devRef .tc main_arg8) := W7_of_ne m ρ c main_arg8 (by decide)
    _ = W5 m ρ c (Proc.devRef .tc main_arg8) := W6_keep m ρ c main_arg8 (by decide)
    _ = W4 m ρ c (Proc.devRef .tc main_arg8) := W5_of_ne m ρ c main_arg8 (by decide)
    _ = W3 m ρ c (Proc.devRef .tc main_arg8) := W4_keep m ρ c main_arg8 (by decide)
    _ = W2 m ρ c (Proc.devRef .tc main_arg8) := W3_of_ne m ρ c main_arg8 (by decide)
    _ = W1 m ρ c (Proc.devRef .tc main_arg8) := W2_of_ne m ρ c main_arg8 (by decide) (by decide)
    _ = W0 m ρ c (Proc.devRef .tc main_arg8) := W1_keep m ρ c main_arg8 (by decide)
    _ = m ((c : Thread nD τ).loc main_arg8) := rfl

theorem W21_main_arg9 (c : Dev nD) : W21 m ρ c (Proc.devRef .tc main_arg9) = m ((c : Thread nD τ).loc main_arg9) :=
  calc W21 m ρ c (Proc.devRef .tc main_arg9)
    _ = W20 m ρ c (Proc.devRef .tc main_arg9) := W21_of_ne m ρ c main_arg9 (by decide)
    _ = W19 m ρ c (Proc.devRef .tc main_arg9) := W20_keep m ρ c main_arg9 (by decide)
    _ = W18 m ρ c (Proc.devRef .tc main_arg9) := W19_of_ne m ρ c main_arg9 (by decide)
    _ = W17 m ρ c (Proc.devRef .tc main_arg9) := W18_keep m ρ c main_arg9 (by decide)
    _ = W16 m ρ c (Proc.devRef .tc main_arg9) := W17_of_ne m ρ c main_arg9 (by decide)
    _ = W15 m ρ c (Proc.devRef .tc main_arg9) := W16_keep m ρ c main_arg9 (by decide)
    _ = W14 m ρ c (Proc.devRef .tc main_arg9) := W15_of_ne m ρ c main_arg9 (by decide)
    _ = W13 m ρ c (Proc.devRef .tc main_arg9) := W14_keep m ρ c main_arg9 (by decide)
    _ = W12 m ρ c (Proc.devRef .tc main_arg9) := W13_of_ne m ρ c main_arg9 (by decide)
    _ = W11 m ρ c (Proc.devRef .tc main_arg9) := W12_keep m ρ c main_arg9 (by decide)
    _ = W10 m ρ c (Proc.devRef .tc main_arg9) := W11_of_ne m ρ c main_arg9 (by decide)
    _ = W9 m ρ c (Proc.devRef .tc main_arg9) := W10_keep m ρ c main_arg9 (by decide)
    _ = W8 m ρ c (Proc.devRef .tc main_arg9) := W9_of_ne m ρ c main_arg9 (by decide)
    _ = W7 m ρ c (Proc.devRef .tc main_arg9) := W8_keep m ρ c main_arg9 (by decide)
    _ = W6 m ρ c (Proc.devRef .tc main_arg9) := W7_of_ne m ρ c main_arg9 (by decide)
    _ = W5 m ρ c (Proc.devRef .tc main_arg9) := W6_keep m ρ c main_arg9 (by decide)
    _ = W4 m ρ c (Proc.devRef .tc main_arg9) := W5_of_ne m ρ c main_arg9 (by decide)
    _ = W3 m ρ c (Proc.devRef .tc main_arg9) := W4_keep m ρ c main_arg9 (by decide)
    _ = W2 m ρ c (Proc.devRef .tc main_arg9) := W3_of_ne m ρ c main_arg9 (by decide)
    _ = W1 m ρ c (Proc.devRef .tc main_arg9) := W2_of_ne m ρ c main_arg9 (by decide) (by decide)
    _ = W0 m ρ c (Proc.devRef .tc main_arg9) := W1_keep m ρ c main_arg9 (by decide)
    _ = m ((c : Thread nD τ).loc main_arg9) := rfl

theorem W21_main_arg10 (c : Dev nD) : W21 m ρ c (Proc.devRef .tc main_arg10) = m ((c : Thread nD τ).loc main_arg10) :=
  calc W21 m ρ c (Proc.devRef .tc main_arg10)
    _ = W20 m ρ c (Proc.devRef .tc main_arg10) := W21_of_ne m ρ c main_arg10 (by decide)
    _ = W19 m ρ c (Proc.devRef .tc main_arg10) := W20_keep m ρ c main_arg10 (by decide)
    _ = W18 m ρ c (Proc.devRef .tc main_arg10) := W19_of_ne m ρ c main_arg10 (by decide)
    _ = W17 m ρ c (Proc.devRef .tc main_arg10) := W18_keep m ρ c main_arg10 (by decide)
    _ = W16 m ρ c (Proc.devRef .tc main_arg10) := W17_of_ne m ρ c main_arg10 (by decide)
    _ = W15 m ρ c (Proc.devRef .tc main_arg10) := W16_keep m ρ c main_arg10 (by decide)
    _ = W14 m ρ c (Proc.devRef .tc main_arg10) := W15_of_ne m ρ c main_arg10 (by decide)
    _ = W13 m ρ c (Proc.devRef .tc main_arg10) := W14_keep m ρ c main_arg10 (by decide)
    _ = W12 m ρ c (Proc.devRef .tc main_arg10) := W13_of_ne m ρ c main_arg10 (by decide)
    _ = W11 m ρ c (Proc.devRef .tc main_arg10) := W12_keep m ρ c main_arg10 (by decide)
    _ = W10 m ρ c (Proc.devRef .tc main_arg10) := W11_of_ne m ρ c main_arg10 (by decide)
    _ = W9 m ρ c (Proc.devRef .tc main_arg10) := W10_keep m ρ c main_arg10 (by decide)
    _ = W8 m ρ c (Proc.devRef .tc main_arg10) := W9_of_ne m ρ c main_arg10 (by decide)
    _ = W7 m ρ c (Proc.devRef .tc main_arg10) := W8_keep m ρ c main_arg10 (by decide)
    _ = W6 m ρ c (Proc.devRef .tc main_arg10) := W7_of_ne m ρ c main_arg10 (by decide)
    _ = W5 m ρ c (Proc.devRef .tc main_arg10) := W6_keep m ρ c main_arg10 (by decide)
    _ = W4 m ρ c (Proc.devRef .tc main_arg10) := W5_of_ne m ρ c main_arg10 (by decide)
    _ = W3 m ρ c (Proc.devRef .tc main_arg10) := W4_keep m ρ c main_arg10 (by decide)
    _ = W2 m ρ c (Proc.devRef .tc main_arg10) := W3_of_ne m ρ c main_arg10 (by decide)
    _ = W1 m ρ c (Proc.devRef .tc main_arg10) := W2_of_ne m ρ c main_arg10 (by decide) (by decide)
    _ = W0 m ρ c (Proc.devRef .tc main_arg10) := W1_keep m ρ c main_arg10 (by decide)
    _ = m ((c : Thread nD τ).loc main_arg10) := rfl

/-! ## The proof data family and the thread state -/

abbrev adm : (p : Fin 11) → (pcfgs (F := F) p).Adm := fun p => (cfgs p).toPCfg_adm
/-- Every pipeline's proof data, each at its region's entry contents: a literal match on the pipeline's number. -/
def pdats : (p : Fin 11) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V12 m ρ) c
  | ⟨7, _⟩ => fun c => dat7 (V14 m ρ) c
  | ⟨8, _⟩ => fun c => dat8 (V16 m ρ) c
  | ⟨9, _⟩ => fun c => dat9 (V18 m ρ) c
  | ⟨10, _⟩ => fun c => dat10 (V20 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W21 m ρ c) ∗ ∃ r, prngReg c r)

/-! ## The regions as segments -/

set_option backward.isDefEq.respectTransparency.types false in
/-- Region 0: entered from every unscoped buffer at boundary 1's contents, left at boundary 2's.  Its arrays are split out
    of the unscoped buffers and put back at the exit contents; the generator register goes into the invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at boundary 2's contents, left at boundary 3's.  Its arrays are split out
    of the unscoped buffers and put back at the exit contents; the generator register goes into the invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: as the others, except that its arrays are dealt from and returned to the unscoped buffers by the two lemmas
    above, the array of the initial features being read through two windows. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit : (unscopedBufs c (V4 m ρ c) : sProp 𝕄) ⊢ iprop((pdats m ρ 2 c).arrays ((pdats m ρ 2 c).arrAt · 0)
        ∗ Pipeline.unscopedRest (Ix := Unit) (Name := ℕ) (U := UR sig nD τ) (Lvl := ℕ) spec2 c (V4 m ρ c)) := entry2 (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N)
        ∗ Pipeline.unscopedRest (Ix := Unit) (Name := ℕ) (U := UR sig nD τ) (Lvl := ℕ) spec2 c (V4 m ρ c)) ⊢ (unscopedBufs c (V5 m ρ c) : sProp 𝕄) :=
      exit2 (V4 m ρ) c (V5 m ρ c) _ (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at boundary 6's contents, left at boundary 7's.  Its arrays are split out
    of the unscoped buffers and put back at the exit contents; the generator register goes into the invariant and out. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at boundary 8's contents, left at boundary 9's.  Its arrays are split out
    of the unscoped buffers and put back at the exit contents; the generator register goes into the invariant and out. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at boundary 10's contents, left at boundary 11's.  Its arrays are split out
    of the unscoped buffers and put back at the exit contents; the generator register goes into the invariant and out. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at boundary 12's contents, left at boundary 13's.  Its arrays are split out
    of the unscoped buffers and put back at the exit contents; the generator register goes into the invariant and out. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at boundary 14's contents, left at boundary 15's.  Its arrays are split out
    of the unscoped buffers and put back at the exit contents; the generator register goes into the invariant and out. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec7 c (V14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V14 m ρ c) (V15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at boundary 16's contents, left at boundary 17's.  Its arrays are split out
    of the unscoped buffers and put back at the exit contents; the generator register goes into the invariant and out. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V16 m ρ) c).loose
  hwaits := Pipeline.hwaits_of_owed_zero _ _ _ _ L lv 8 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec8 c (V16 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V16 m ρ c) (V17 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from every unscoped buffer at boundary 18's contents, left at boundary 19's.  Its arrays are split out
    of the unscoped buffers and put back at the exit contents; the generator register goes into the invariant and out. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V18 m ρ) c).loose
  hwaits := Pipeline.hwaits_of_owed_zero _ _ _ _ L lv 9 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec9 c (V18 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V18 m ρ c) (V19 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10: entered from every unscoped buffer at boundary 20's contents, left at boundary 21's.  Its arrays are split out
    of the unscoped buffers and put back at the exit contents; the generator register goes into the invariant and out. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V20 m ρ) c).loose
  hwaits := Pipeline.hwaits_of_owed_zero _ _ _ _ L lv 10 fun _ _ => rfl
  pre c := iprop(StableHlo.held (c : Thread nD τ) (Pipeline.ucRefs τ sig) (W20 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec10 c (V20 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V20 m ρ c) (V21 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)),
    .region (reg7 m ρ),
    .host (hseg hostOps8 hostOps8_sub hostOps8_fresh (W15 m ρ)),
    .region (reg8 m ρ),
    .host (hseg hostOps9 hostOps9_sub hostOps9_fresh (W17 m ρ)),
    .region (reg9 m ρ),
    .host (hseg hostOps10 hostOps10_sub hostOps10_fresh (W19 m ρ)),
    .region (reg10 m ρ) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W21_main_arg0 m ρ c),
    (h c _ (mem_uc main_arg1 (by decide))).trans (W21_main_arg1 m ρ c),
    (h c _ (mem_uc main_arg2 (by decide))).trans (W21_main_arg2 m ρ c),
    (h c _ (mem_uc main_arg3 (by decide))).trans (W21_main_arg3 m ρ c),
    (h c _ (mem_uc main_arg4 (by decide))).trans (W21_main_arg4 m ρ c),
    (h c _ (mem_uc main_arg5 (by decide))).trans (W21_main_arg5 m ρ c),
    (h c _ (mem_uc main_arg6 (by decide))).trans (W21_main_arg6 m ρ c),
    (h c _ (mem_uc main_arg7 (by decide))).trans (W21_main_arg7 m ρ c),
    (h c _ (mem_uc main_arg8 (by decide))).trans (W21_main_arg8 m ρ c),
    (h c _ (mem_uc main_arg9 (by decide))).trans (W21_main_arg9 m ρ c),
    (h c _ (mem_uc main_arg10 (by decide))).trans (W21_main_arg10 m ρ c)⟩) (run_all m ρ)

end Cert.KernelIdeal.Hand

end
-- ==== Proof.Spec.lean ====
/-
  The function both programs compute, written once over the extended reals, index by index, with every
  index a literal `Fin`.  `x` is the feature array of the two views, `net` the two adjacency arrays.
  Per view: the columns of `x` are normalised by their mean and variance (the variance as the mean of
  squares minus the squared mean), scaled and shifted, multiplied by the input weights, shifted by the
  bias and passed through the leaky rectifier: `x0`.  Eight propagation layers follow,
  `h ↦ max (b₁·s + b₂·(s W), 0)` with `s = ½·(net h) + ½·x0`.  The two views' last layers are laid side by
  side (`hidden`), projected, rectified (`emb`) and classified (`pred`).
  Float literals are kept as the words the programs print; the same word denotes the same extended real on
  both sides, so none is ever evaluated.
-/
import Idealize.ShloMosaic.PureOps.Ideal
import Mathlib.Algebra.BigOperators.Group.Finset.Basic

noncomputable section

namespace Cert.Spec

open Idealize.ShloMosaic

/-- The extended real an f32 word denotes. -/
def lit (w : BitVec 32) : EReal := Ideal.ofBits .f32 w

/-- The leaky rectifier with the slope word both programs print (the f32 nearest 0.01). -/
def leaky (z : EReal) : EReal := if lit 0x00000000#32 ≤ z then z else lit 0x3C23D70A#32 * z

section Norm
variable (s q : Fin 2 → Fin 5000 → EReal) (x : Fin 2 → Fin 5000 → Fin 5000 → EReal) (γ β : Fin 2 → Fin 5000 → EReal)

/-- Column mean from the column sums `s`; column variance from the sums of squares `q` as mean of squares minus
    squared mean. -/
def mean (v : Fin 2) (k : Fin 5000) : EReal := Ideal.div (s v k) (lit 0x459C4000#32)
def var (v : Fin 2) (k : Fin 5000) : EReal := Ideal.div (q v k) (lit 0x459C4000#32) - mean s v k * mean s v k
/-- The scale of column `k`: `γ · (var + ε)^(-1/2)`. -/
def scale (v : Fin 2) (k : Fin 5000) : EReal := γ v k * Ideal.rsqrt (var s q v k + lit 0x3727C5AC#32)
/-- The normalised entry. -/
def xhat (v : Fin 2) (r k : Fin 5000) : EReal := (x v r k - mean s v k) * scale s q γ v k + β v k
end Norm

/-- Column sums and column sums of squares of view `v`. -/
def colSum (x : Fin 2 → Fin 5000 → Fin 5000 → EReal) (v : Fin 2) (k : Fin 5000) : EReal := ∑ r : Fin 5000, x v r k
def colSq (x : Fin 2 → Fin 5000 → Fin 5000 → EReal) (v : Fin 2) (k : Fin 5000) : EReal := ∑ r : Fin 5000, x v r k * x v r k

/-- The input projection of the features normalised with the statistics `s`, `q`. -/
def x0 (s q : Fin 2 → Fin 5000 → EReal) (x : Fin 2 → Fin 5000 → Fin 5000 → EReal) (γ β : Fin 2 → Fin 5000 → EReal)
    (Win : Fin 2 → Fin 5000 → Fin 128 → EReal) (bin : Fin 2 → Fin 128 → EReal)
    (v : Fin 2) (r : Fin 5000) (j : Fin 128) : EReal :=
  leaky ((∑ k : Fin 5000, xhat s q x γ β v r k * Win v k j) + bin v j)
/-- The same with the statistics those of `x` itself. -/
def X0 (x : Fin 2 → Fin 5000 → Fin 5000 → EReal) (γ β : Fin 2 → Fin 5000 → EReal)
    (Win : Fin 2 → Fin 5000 → Fin 128 → EReal) (bin : Fin 2 → Fin 128 → EReal) : Fin 2 → Fin 5000 → Fin 128 → EReal :=
  x0 (colSum x) (colSq x) x γ β Win bin

section Layer
variable (net : Fin 2 → Fin 5000 → Fin 5000 → EReal) (h x0 : Fin 2 → Fin 5000 → Fin 128 → EReal)
  (W : Fin 2 → Fin 128 → Fin 128 → EReal)

/-- One propagation step `net h`, and its even mix with the initial features. -/
def prop (v : Fin 2) (r : Fin 5000) (j : Fin 128) : EReal := ∑ k : Fin 5000, net v r k * h v k j
def mix (v : Fin 2) (r : Fin 5000) (j : Fin 128) : EReal :=
  lit 0x3F000000#32 * prop net h v r j + lit 0x3F000000#32 * x0 v r j
/-- One layer with the two printed coefficient words `b1` (on `s`) and `b2` (on `s W`). -/
def layer (b1 b2 : BitVec 32) (v : Fin 2) (r : Fin 5000) (j : Fin 128) : EReal :=
  max (lit b1 * mix net h x0 v r j + lit b2 * ∑ q : Fin 128, mix net h x0 v r q * W v q j) (lit 0x00000000#32)
end Layer

/-- Layer `l`'s weights out of the stack. -/
def wOf (Wg : Fin 2 → Fin 8 → Fin 128 → Fin 128 → EReal) (l : Fin 8) : Fin 2 → Fin 128 → Fin 128 → EReal :=
  fun v q j => Wg v l q j

/-- The eight layers in order, each with its two coefficient words. -/
def h1 (net x0 Wg) := layer net x0 x0 (wOf Wg 0) 0x3F183370#32 0x3ECF991F#32
def h2 (net x0 Wg) := layer net (h1 net x0 Wg) x0 (wOf Wg 1) 0x3F46E010#32 0x3E647FBE#32
def h3 (net x0 Wg) := layer net (h2 net x0 Wg) x0 (wOf Wg 2) 0x3F588995#32 0x3E1DD9AD#32
def h4 (net x0 Wg) := layer net (h3 net x0 Wg) x0 (wOf Wg 3) 0x3F61D8F9#32 0x3DF1383B#32
def h5 (net x0 Wg) := layer net (h4 net x0 Wg) x0 (wOf Wg 4) 0x3F6799C1#32 0x3DC331FC#32
def h6 (net x0 Wg) := layer net (h5 net x0 Wg) x0 (wOf Wg 5) 0x3F6B8252#32 0x3DA3ED6E#32
def h7 (net x0 Wg) := layer net (h6 net x0 Wg) x0 (wOf Wg 6) 0x3F6E567C#32 0x3D8D4C22#32
def h8 (net x0 Wg) := layer net (h7 net x0 Wg) x0 (wOf Wg 7) 0x3F707AE8#32 0x3D785186#32

/-- The two views side by side: columns 0–127 are view 0's, 128–255 view 1's. -/
def hidden (h : Fin 2 → Fin 5000 → Fin 128 → EReal) (r : Fin 5000) (q : Fin 256) : EReal :=
  if hq : q.val < 128 then h 0 r ⟨q.val, hq⟩ else h 1 r ⟨q.val - 128, by omega⟩

section Head
variable (hid : Fin 5000 → Fin 256 → EReal) (Wc : Fin 256 → Fin 128 → EReal) (bc : Fin 128 → EReal)
  (Wo : Fin 128 → Fin 5000 → EReal) (bo : Fin 5000 → EReal)

/-- The projection of the side-by-side features, rectified; and the classifier on top. -/
def emb (r : Fin 5000) (j : Fin 128) : EReal := leaky ((∑ q : Fin 256, hid r q * Wc q j) + bc j)
def pred (r : Fin 5000) (t : Fin 5000) : EReal := (∑ j : Fin 128, emb hid Wc bc r j * Wo j t) + bo t
end Head

/-- The whole model: the result at row `r`, class `t`. -/
def model (x net : Fin 2 → Fin 5000 → Fin 5000 → EReal) (γ β : Fin 2 → Fin 5000 → EReal)
    (Win : Fin 2 → Fin 5000 → Fin 128 → EReal) (bin : Fin 2 → Fin 128 → EReal)
    (Wg : Fin 2 → Fin 8 → Fin 128 → Fin 128 → EReal) (Wc : Fin 256 → Fin 128 → EReal) (bc : Fin 128 → EReal)
    (Wo : Fin 128 → Fin 5000 → EReal) (bo : Fin 5000 → EReal) : Fin 5000 → Fin 5000 → EReal :=
  pred (hidden (h8 net (X0 x γ β Win bin) Wg)) Wc bc Wo bo

end Cert.Spec

end
-- ==== Proof.KI.Host.lean ====
/-
  The kernel program's host stretches read at an index.  Between its eleven regions the program runs layout
  operations only: reshapes that add or drop a unit axis, a precision conversion that is the identity over the
  extended reals, the eight weight matrices cut out of their stack, and the two views' last layers laid side by side.
  For an arbitrary valuation `W` of the buffers a stretch starts from, each buffer the stretch writes is read here at
  an index given by coordinates, as a buffer of `W` at coordinates; every buffer a stretch does not write is unchanged.
-/
import proofs.«129426_g120259084709_cont_main3_741_6_alg».proof.Proof.Gen.KernelIdeal.Regions
import proofs.«129426_g120259084709_cont_main3_741_6_alg».proof.Proof.Spec
import Idealize.ShloMosaic.Lib.ValueLayout

set_option maxRecDepth 1152

noncomputable section

namespace Cert.KernelIdeal.HandHost

open Idealize.ShloMosaic Idealize.ShloMosaic.TcCoe Idealize.ShloMosaic.ValueIdx
open Cert.KernelIdeal Cert.KernelIdeal.Gen

variable (W : Valuation τ sig (Elt Ideal))

/-! ## Shape casts and slices read at an index given by coordinates -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b, c]` array cast to `[a, b, c]` reads, at `(i, j, k)`, the operand at `(i, 0, j, k)`. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    rw [Nat.mul_one, Nat.add_zero])

/-- A rank-3 array cut along axis 0 from `o` reads, at `(j, c, e)`, the source at `(k, c, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (c : Fin n1) (e : Fin n2) (k : Fin n0) (hk : k.val = o + j.val) :
    extractStridedSlice ⟨3, ![m, n1, n2]⟩ ![o, 0, 0] X h (ix3 j c e) = X (ix3 k c e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A pair of stacks of square matrices cut at layer `o`, its unit axis then dropped, reads at `(v, q, j)` the pair at
    `(v, l, q, j)` with `l = o`. -/
theorem sliceCast_at {n m : ℕ} (X : (⟨4, ![2, n, m, m]⟩ : Shape).Idx → α) (o : Nat)
    (hs : (⟨4, ![2, n, m, m]⟩ : Shape).Slices ![0, o, 0, 0] ⟨4, ![2, 1, m, m]⟩)
    (hc : (⟨4, ![2, 1, m, m]⟩ : Shape).ShapeCasts ⟨3, ![2, m, m]⟩)
    (v : Fin 2) (l : Fin n) (hl : l.val = o) (q j : Fin m) :
    shapeCast ⟨3, ![2, m, m]⟩ (extractStridedSlice ⟨4, ![2, 1, m, m]⟩ ![0, o, 0, 0] X hs) hc (ix3 v q j) = X (ix4 v l q j) :=
  (shapeCast_a1bc_abc_apply _ hc v q j).trans (slice4_axis1_apply o X hs v (0 : Fin 1) q j l (by rw [hl]; rfl))

/-- The cut alone, at `(v, u, q, j)` with `u` the unit coordinate. -/
theorem slice_at {n m : ℕ} (X : (⟨4, ![2, n, m, m]⟩ : Shape).Idx → α) (o : Nat)
    (hs : (⟨4, ![2, n, m, m]⟩ : Shape).Slices ![0, o, 0, 0] ⟨4, ![2, 1, m, m]⟩)
    (v : Fin 2) (u : Fin 1) (l : Fin n) (hl : l.val = o) (q j : Fin m) :
    extractStridedSlice ⟨4, ![2, 1, m, m]⟩ ![0, o, 0, 0] X hs (ix4 v u q j) = X (ix4 v l q j) :=
  slice4_axis1_apply o X hs v u q j l (by have := u.isLt; omega)

end Layout

/-! ## The stretch before the first region: three reshapes that add a unit axis -/

theorem v0_term :
    (StableHlo.after (hostOps0 (F := Ideal)) W (Proc.devRef .tc main_v0) : S2x1x5000.Idx → EReal)
      = shapeCast S2x1x5000 (W (Proc.devRef .tc main_arg2) : S2x5000.Idx → EReal) Facts₀.shapeCasts_S2x5000_S2x1x5000 := by
  after_results <;> rfl
theorem v1_term :
    (StableHlo.after (hostOps0 (F := Ideal)) W (Proc.devRef .tc main_v1) : S2x1x5000.Idx → EReal)
      = shapeCast S2x1x5000 (W (Proc.devRef .tc main_arg3) : S2x5000.Idx → EReal) Facts₀.shapeCasts_S2x5000_S2x1x5000 := by
  after_results <;> rfl
theorem v2_term :
    (StableHlo.after (hostOps0 (F := Ideal)) W (Proc.devRef .tc main_v2) : S2x1x128.Idx → EReal)
      = shapeCast S2x1x128 (W (Proc.devRef .tc main_arg5) : S2x128.Idx → EReal) Facts₀.shapeCasts_S2x128_S2x1x128 := by
  after_results <;> rfl

/-- The scale vectors with a unit axis added. -/
theorem v0_at (v : Fin 2) (u : Fin 1) (k : Fin 5000) :
    (StableHlo.after (hostOps0 (F := Ideal)) W (Proc.devRef .tc main_v0) : S2x1x5000.Idx → EReal) (ix3 v u k)
      = (W (Proc.devRef .tc main_arg2) : S2x5000.Idx → EReal) (ix2 v k) := by
  rw [v0_term]
  exact shapeCast_ab_a1b_apply _ _ v u k
/-- The shift vectors with a unit axis added. -/
theorem v1_at (v : Fin 2) (u : Fin 1) (k : Fin 5000) :
    (StableHlo.after (hostOps0 (F := Ideal)) W (Proc.devRef .tc main_v1) : S2x1x5000.Idx → EReal) (ix3 v u k)
      = (W (Proc.devRef .tc main_arg3) : S2x5000.Idx → EReal) (ix2 v k) := by
  rw [v1_term]
  exact shapeCast_ab_a1b_apply _ _ v u k
/-- The input biases with a unit axis added. -/
theorem v2_at (v : Fin 2) (u : Fin 1) (j : Fin 128) :
    (StableHlo.after (hostOps0 (F := Ideal)) W (Proc.devRef .tc main_v2) : S2x1x128.Idx → EReal) (ix3 v u j)
      = (W (Proc.devRef .tc main_arg5) : S2x128.Idx → EReal) (ix2 v j) := by
  rw [v2_term]
  exact shapeCast_ab_a1b_apply _ _ v u j
/-- Every other buffer is as before. -/
theorem host0_of (r : Ref sig .tc) (h : r ∉ hostOps0_W) :
    StableHlo.after (hostOps0 (F := Ideal)) W (Proc.devRef .tc r) = W (Proc.devRef .tc r) :=
  StableHlo.after_of_writes_sub hostOps0 W hostOps0_writes h

/-! ## The stretch before the first layer: the adjacency converted (the identity here), the first weight matrix cut out -/

theorem v5_term :
    (StableHlo.after (hostOps2 (F := Ideal)) W (Proc.devRef .tc main_v5) : S2x5000x5000.Idx → EReal)
      = (W (Proc.devRef .tc main_arg1) : S2x5000x5000.Idx → EReal) := by
  after_results <;> rfl
theorem v6_term :
    (StableHlo.after (hostOps2 (F := Ideal)) W (Proc.devRef .tc main_v6) : S2x1x128x128.Idx → EReal)
      = extractStridedSlice S2x1x128x128 ![0, 0, 0, 0] (W (Proc.devRef .tc main_arg6) : S2x8x128x128.Idx → EReal)
          Facts₀.slices_S2x8x128x128_S2x1x128x128_0_0_0_0 := by
  after_results <;> rfl
theorem v7_term :
    (StableHlo.after (hostOps2 (F := Ideal)) W (Proc.devRef .tc main_v7) : S2x128x128.Idx → EReal)
      = shapeCast S2x128x128 (extractStridedSlice S2x1x128x128 ![0, 0, 0, 0] (W (Proc.devRef .tc main_arg6) : S2x8x128x128.Idx → EReal)
          Facts₀.slices_S2x8x128x128_S2x1x128x128_0_0_0_0) Facts₀.shapeCasts_S2x1x128x128_S2x128x128 := by
  after_results <;> rfl

/-- The adjacency arrays at the lower precision: the same extended reals. -/
theorem v5_at (v : Fin 2) (r k : Fin 5000) :
    (StableHlo.after (hostOps2 (F := Ideal)) W (Proc.devRef .tc main_v5) : S2x5000x5000.Idx → EReal) (ix3 v r k)
      = (W (Proc.devRef .tc main_arg1) : S2x5000x5000.Idx → EReal) (ix3 v r k) := by
  rw [v5_term]
theorem v6_at (v : Fin 2) (u : Fin 1) (q j : Fin 128) :
    (StableHlo.after (hostOps2 (F := Ideal)) W (Proc.devRef .tc main_v6) : S2x1x128x128.Idx → EReal) (ix4 v u q j)
      = (W (Proc.devRef .tc main_arg6) : S2x8x128x128.Idx → EReal) (ix4 v (0 : Fin 8) q j) := by
  rw [v6_term]
  exact slice_at _ 0 _ v u 0 rfl q j
/-- Layer 0's weights. -/
theorem v7_at (v : Fin 2) (q j : Fin 128) :
    (StableHlo.after (hostOps2 (F := Ideal)) W (Proc.devRef .tc main_v7) : S2x128x128.Idx → EReal) (ix3 v q j)
      = (W (Proc.devRef .tc main_arg6) : S2x8x128x128.Idx → EReal) (ix4 v (0 : Fin 8) q j) := by
  rw [v7_term]
  exact sliceCast_at _ 0 _ _ v 0 rfl q j
theorem host2_of (r : Ref sig .tc) (h : r ∉ hostOps2_W) :
    StableHlo.after (hostOps2 (F := Ideal)) W (Proc.devRef .tc r) = W (Proc.devRef .tc r) :=
  StableHlo.after_of_writes_sub hostOps2 W hostOps2_writes h

/-! ## The stretch before layer 1: its weight matrix cut out of the stack -/

theorem v9_term :
    (StableHlo.after (hostOps3 (F := Ideal)) W (Proc.devRef .tc main_v9) : S2x1x128x128.Idx → EReal)
      = extractStridedSlice S2x1x128x128 ![0, 1, 0, 0] (W (Proc.devRef .tc main_arg6) : S2x8x128x128.Idx → EReal)
          Facts₀.slices_S2x8x128x128_S2x1x128x128_0_1_0_0 := by
  after_results <;> rfl
theorem v10_term :
    (StableHlo.after (hostOps3 (F := Ideal)) W (Proc.devRef .tc main_v10) : S2x128x128.Idx → EReal)
      = shapeCast S2x128x128 (extractStridedSlice S2x1x128x128 ![0, 1, 0, 0] (W (Proc.devRef .tc main_arg6) : S2x8x128x128.Idx → EReal)
          Facts₀.slices_S2x8x128x128_S2x1x128x128_0_1_0_0) Facts₀.shapeCasts_S2x1x128x128_S2x128x128 := by
  after_results <;> rfl
theorem v9_at (v : Fin 2) (u : Fin 1) (q j : Fin 128) :
    (StableHlo.after (hostOps3 (F := Ideal)) W (Proc.devRef .tc main_v9) : S2x1x128x128.Idx → EReal) (ix4 v u q j)
      = (W (Proc.devRef .tc main_arg6) : S2x8x128x128.Idx → EReal) (ix4 v (1 : Fin 8) q j) := by
  rw [v9_term]
  exact slice_at _ 1 _ v u 1 rfl q j
/-- Layer 1's weights. -/
theorem v10_at (v : Fin 2) (q j : Fin 128) :
    (StableHlo.after (hostOps3 (F := Ideal)) W (Proc.devRef .tc main_v10) : S2x128x128.Idx → EReal) (ix3 v q j)
      = (W (Proc.devRef .tc main_arg6) : S2x8x128x128.Idx → EReal) (ix4 v (1 : Fin 8) q j) := by
  rw [v10_term]
  exact sliceCast_at _ 1 _ _ v 1 rfl q j
theorem host3_of (r : Ref sig .tc) (h : r ∉ hostOps3_W) :
    StableHlo.after (hostOps3 (F := Ideal)) W (Proc.devRef .tc r) = W (Proc.devRef .tc r) :=
  StableHlo.after_of_writes_sub hostOps3 W hostOps3_writes h

/-! ## The stretch before layer 2: its weight matrix cut out of the stack -/

theorem v12_term :
    (StableHlo.after (hostOps4 (F := Ideal)) W (Proc.devRef .tc main_v12) : S2x1x128x128.Idx → EReal)
      = extractStridedSlice S2x1x128x128 ![0, 2, 0, 0] (W (Proc.devRef .tc main_arg6) : S2x8x128x128.Idx → EReal)
          Facts₀.slices_S2x8x128x128_S2x1x128x128_0_2_0_0 := by
  after_results <;> rfl
theorem v13_term :
    (StableHlo.after (hostOps4 (F := Ideal)) W (Proc.devRef .tc main_v13) : S2x128x128.Idx → EReal)
      = shapeCast S2x128x128 (extractStridedSlice S2x1x128x128 ![0, 2, 0, 0] (W (Proc.devRef .tc main_arg6) : S2x8x128x128.Idx → EReal)
          Facts₀.slices_S2x8x128x128_S2x1x128x128_0_2_0_0) Facts₀.shapeCasts_S2x1x128x128_S2x128x128 := by
  after_results <;> rfl
theorem v12_at (v : Fin 2) (u : Fin 1) (q j : Fin 128) :
    (StableHlo.after (hostOps4 (F := Ideal)) W (Proc.devRef .tc main_v12) : S2x1x128x128.Idx → EReal) (ix4 v u q j)
      = (W (Proc.devRef .tc main_arg6) : S2x8x128x128.Idx → EReal) (ix4 v (2 : Fin 8) q j) := by
  rw [v12_term]
  exact slice_at _ 2 _ v u 2 rfl q j
/-- Layer 2's weights. -/
theorem v13_at (v : Fin 2) (q j : Fin 128) :
    (StableHlo.after (hostOps4 (F := Ideal)) W (Proc.devRef .tc main_v13) : S2x128x128.Idx → EReal) (ix3 v q j)
      = (W (Proc.devRef .tc main_arg6) : S2x8x128x128.Idx → EReal) (ix4 v (2 : Fin 8) q j) := by
  rw [v13_term]
  exact sliceCast_at _ 2 _ _ v 2 rfl q j
theorem host4_of (r : Ref sig .tc) (h : r ∉ hostOps4_W) :
    StableHlo.after (hostOps4 (F := Ideal)) W (Proc.devRef .tc r) = W (Proc.devRef .tc r) :=
  StableHlo.after_of_writes_sub hostOps4 W hostOps4_writes h

/-! ## The stretch before layer 3: its weight matrix cut out of the stack -/

theorem v15_term :
    (StableHlo.after (hostOps5 (F := Ideal)) W (Proc.devRef .tc main_v15) : S2x1x128x128.Idx → EReal)
      = extractStridedSlice S2x1x128x128 ![0, 3, 0, 0] (W (Proc.devRef .tc main_arg6) : S2x8x128x128.Idx → EReal)
          Facts₀.slices_S2x8x128x128_S2x1x128x128_0_3_0_0 := by
  after_results <;> rfl
theorem v16_term :
    (StableHlo.after (hostOps5 (F := Ideal)) W (Proc.devRef .tc main_v16) : S2x128x128.Idx → EReal)
      = shapeCast S2x128x128 (extractStridedSlice S2x1x128x128 ![0, 3, 0, 0] (W (Proc.devRef .tc main_arg6) : S2x8x128x128.Idx → EReal)
          Facts₀.slices_S2x8x128x128_S2x1x128x128_0_3_0_0) Facts₀.shapeCasts_S2x1x128x128_S2x128x128 := by
  after_results <;> rfl
theorem v15_at (v : Fin 2) (u : Fin 1) (q j : Fin 128) :
    (StableHlo.after (hostOps5 (F := Ideal)) W (Proc.devRef .tc main_v15) : S2x1x128x128.Idx → EReal) (ix4 v u q j)
      = (W (Proc.devRef .tc main_arg6) : S2x8x128x128.Idx → EReal) (ix4 v (3 : Fin 8) q j) := by
  rw [v15_term]
  exact slice_at _ 3 _ v u 3 rfl q j
/-- Layer 3's weights. -/
theorem v16_at (v : Fin 2) (q j : Fin 128) :
    (StableHlo.after (hostOps5 (F := Ideal)) W (Proc.devRef .tc main_v16) : S2x128x128.Idx → EReal) (ix3 v q j)
      = (W (Proc.devRef .tc main_arg6) : S2x8x128x128.Idx → EReal) (ix4 v (3 : Fin 8) q j) := by
  rw [v16_term]
  exact sliceCast_at _ 3 _ _ v 3 rfl q j
theorem host5_of (r : Ref sig .tc) (h : r ∉ hostOps5_W) :
    StableHlo.after (hostOps5 (F := Ideal)) W (Proc.devRef .tc r) = W (Proc.devRef .tc r) :=
  StableHlo.after_of_writes_sub hostOps5 W hostOps5_writes h

/-! ## The stretch before layer 4: its weight matrix cut out of the stack -/

theorem v18_term :
    (StableHlo.after (hostOps6 (F := Ideal)) W (Proc.devRef .tc main_v18) : S2x1x128x128.Idx → EReal)
      = extractStridedSlice S2x1x128x128 ![0, 4, 0, 0] (W (Proc.devRef .tc main_arg6) : S2x8x128x128.Idx → EReal)
          Facts₀.slices_S2x8x128x128_S2x1x128x128_0_4_0_0 := by
  after_results <;> rfl
theorem v19_term :
    (StableHlo.after (hostOps6 (F := Ideal)) W (Proc.devRef .tc main_v19) : S2x128x128.Idx → EReal)
      = shapeCast S2x128x128 (extractStridedSlice S2x1x128x128 ![0, 4, 0, 0] (W (Proc.devRef .tc main_arg6) : S2x8x128x128.Idx → EReal)
          Facts₀.slices_S2x8x128x128_S2x1x128x128_0_4_0_0) Facts₀.shapeCasts_S2x1x128x128_S2x128x128 := by
  after_results <;> rfl
theorem v18_at (v : Fin 2) (u : Fin 1) (q j : Fin 128) :
    (StableHlo.after (hostOps6 (F := Ideal)) W (Proc.devRef .tc main_v18) : S2x1x128x128.Idx → EReal) (ix4 v u q j)
      = (W (Proc.devRef .tc main_arg6) : S2x8x128x128.Idx → EReal) (ix4 v (4 : Fin 8) q j) := by
  rw [v18_term]
  exact slice_at _ 4 _ v u 4 rfl q j
/-- Layer 4's weights. -/
theorem v19_at (v : Fin 2) (q j : Fin 128) :
    (StableHlo.after (hostOps6 (F := Ideal)) W (Proc.devRef .tc main_v19) : S2x128x128.Idx → EReal) (ix3 v q j)
      = (W (Proc.devRef .tc main_arg6) : S2x8x128x128.Idx → EReal) (ix4 v (4 : Fin 8) q j) := by
  rw [v19_term]
  exact sliceCast_at _ 4 _ _ v 4 rfl q j
theorem host6_of (r : Ref sig .tc) (h : r ∉ hostOps6_W) :
    StableHlo.after (hostOps6 (F := Ideal)) W (Proc.devRef .tc r) = W (Proc.devRef .tc r) :=
  StableHlo.after_of_writes_sub hostOps6 W hostOps6_writes h

/-! ## The stretch before layer 5: its weight matrix cut out of the stack -/

theorem v21_term :
    (StableHlo.after (hostOps7 (F := Ideal)) W (Proc.devRef .tc main_v21) : S2x1x128x128.Idx → EReal)
      = extractStridedSlice S2x1x128x128 ![0, 5, 0, 0] (W (Proc.devRef .tc main_arg6) : S2x8x128x128.Idx → EReal)
          Facts₀.slices_S2x8x128x128_S2x1x128x128_0_5_0_0 := by
  after_results <;> rfl
theorem v22_term :
    (StableHlo.after (hostOps7 (F := Ideal)) W (Proc.devRef .tc main_v22) : S2x128x128.Idx → EReal)
      = shapeCast S2x128x128 (extractStridedSlice S2x1x128x128 ![0, 5, 0, 0] (W (Proc.devRef .tc main_arg6) : S2x8x128x128.Idx → EReal)
          Facts₀.slices_S2x8x128x128_S2x1x128x128_0_5_0_0) Facts₀.shapeCasts_S2x1x128x128_S2x128x128 := by
  after_results <;> rfl
theorem v21_at (v : Fin 2) (u : Fin 1) (q j : Fin 128) :
    (StableHlo.after (hostOps7 (F := Ideal)) W (Proc.devRef .tc main_v21) : S2x1x128x128.Idx → EReal) (ix4 v u q j)
      = (W (Proc.devRef .tc main_arg6) : S2x8x128x128.Idx → EReal) (ix4 v (5 : Fin 8) q j) := by
  rw [v21_term]
  exact slice_at _ 5 _ v u 5 rfl q j
/-- Layer 5's weights. -/
theorem v22_at (v : Fin 2) (q j : Fin 128) :
    (StableHlo.after (hostOps7 (F := Ideal)) W (Proc.devRef .tc main_v22) : S2x128x128.Idx → EReal) (ix3 v q j)
      = (W (Proc.devRef .tc main_arg6) : S2x8x128x128.Idx → EReal) (ix4 v (5 : Fin 8) q j) := by
  rw [v22_term]
  exact sliceCast_at _ 5 _ _ v 5 rfl q j
theorem host7_of (r : Ref sig .tc) (h : r ∉ hostOps7_W) :
    StableHlo.after (hostOps7 (F := Ideal)) W (Proc.devRef .tc r) = W (Proc.devRef .tc r) :=
  StableHlo.after_of_writes_sub hostOps7 W hostOps7_writes h

/-! ## The stretch before layer 6: its weight matrix cut out of the stack -/

theorem v24_term :
    (StableHlo.after (hostOps8 (F := Ideal)) W (Proc.devRef .tc main_v24) : S2x1x128x128.Idx → EReal)
      = extractStridedSlice S2x1x128x128 ![0, 6, 0, 0] (W (Proc.devRef .tc main_arg6) : S2x8x128x128.Idx → EReal)
          Facts₀.slices_S2x8x128x128_S2x1x128x128_0_6_0_0 := by
  after_results <;> rfl
theorem v25_term :
    (StableHlo.after (hostOps8 (F := Ideal)) W (Proc.devRef .tc main_v25) : S2x128x128.Idx → EReal)
      = shapeCast S2x128x128 (extractStridedSlice S2x1x128x128 ![0, 6, 0, 0] (W (Proc.devRef .tc main_arg6) : S2x8x128x128.Idx → EReal)
          Facts₀.slices_S2x8x128x128_S2x1x128x128_0_6_0_0) Facts₀.shapeCasts_S2x1x128x128_S2x128x128 := by
  after_results <;> rfl
theorem v24_at (v : Fin 2) (u : Fin 1) (q j : Fin 128) :
    (StableHlo.after (hostOps8 (F := Ideal)) W (Proc.devRef .tc main_v24) : S2x1x128x128.Idx → EReal) (ix4 v u q j)
      = (W (Proc.devRef .tc main_arg6) : S2x8x128x128.Idx → EReal) (ix4 v (6 : Fin 8) q j) := by
  rw [v24_term]
  exact slice_at _ 6 _ v u 6 rfl q j
/-- Layer 6's weights. -/
theorem v25_at (v : Fin 2) (q j : Fin 128) :
    (StableHlo.after (hostOps8 (F := Ideal)) W (Proc.devRef .tc main_v25) : S2x128x128.Idx → EReal) (ix3 v q j)
      = (W (Proc.devRef .tc main_arg6) : S2x8x128x128.Idx → EReal) (ix4 v (6 : Fin 8) q j) := by
  rw [v25_term]
  exact sliceCast_at _ 6 _ _ v 6 rfl q j
theorem host8_of (r : Ref sig .tc) (h : r ∉ hostOps8_W) :
    StableHlo.after (hostOps8 (F := Ideal)) W (Proc.devRef .tc r) = W (Proc.devRef .tc r) :=
  StableHlo.after_of_writes_sub hostOps8 W hostOps8_writes h

/-! ## The stretch before layer 7: its weight matrix cut out of the stack -/

theorem v27_term :
    (StableHlo.after (hostOps9 (F := Ideal)) W (Proc.devRef .tc main_v27) : S2x1x128x128.Idx → EReal)
      = extractStridedSlice S2x1x128x128 ![0, 7, 0, 0] (W (Proc.devRef .tc main_arg6) : S2x8x128x128.Idx → EReal)
          Facts₀.slices_S2x8x128x128_S2x1x128x128_0_7_0_0 := by
  after_results <;> rfl
theorem v28_term :
    (StableHlo.after (hostOps9 (F := Ideal)) W (Proc.devRef .tc main_v28) : S2x128x128.Idx → EReal)
      = shapeCast S2x128x128 (extractStridedSlice S2x1x128x128 ![0, 7, 0, 0] (W (Proc.devRef .tc main_arg6) : S2x8x128x128.Idx → EReal)
          Facts₀.slices_S2x8x128x128_S2x1x128x128_0_7_0_0) Facts₀.shapeCasts_S2x1x128x128_S2x128x128 := by
  after_results <;> rfl
theorem v27_at (v : Fin 2) (u : Fin 1) (q j : Fin 128) :
    (StableHlo.after (hostOps9 (F := Ideal)) W (Proc.devRef .tc main_v27) : S2x1x128x128.Idx → EReal) (ix4 v u q j)
      = (W (Proc.devRef .tc main_arg6) : S2x8x128x128.Idx → EReal) (ix4 v (7 : Fin 8) q j) := by
  rw [v27_term]
  exact slice_at _ 7 _ v u 7 rfl q j
/-- Layer 7's weights. -/
theorem v28_at (v : Fin 2) (q j : Fin 128) :
    (StableHlo.after (hostOps9 (F := Ideal)) W (Proc.devRef .tc main_v28) : S2x128x128.Idx → EReal) (ix3 v q j)
      = (W (Proc.devRef .tc main_arg6) : S2x8x128x128.Idx → EReal) (ix4 v (7 : Fin 8) q j) := by
  rw [v28_term]
  exact sliceCast_at _ 7 _ _ v 7 rfl q j
theorem host9_of (r : Ref sig .tc) (h : r ∉ hostOps9_W) :
    StableHlo.after (hostOps9 (F := Ideal)) W (Proc.devRef .tc r) = W (Proc.devRef .tc r) :=
  StableHlo.after_of_writes_sub hostOps9 W hostOps9_writes h

/-! ## The stretch before the last region: the two views' last layers laid side by side, two vectors given a unit axis -/

theorem v30_term :
    (StableHlo.after (hostOps10 (F := Ideal)) W (Proc.devRef .tc main_v30) : S1x5000x128.Idx → EReal)
      = extractStridedSlice S1x5000x128 ![0, 0, 0] (W (Proc.devRef .tc main_v29) : S2x5000x128.Idx → EReal)
          Facts₀.slices_S2x5000x128_S1x5000x128_0_0_0 := by
  after_results <;> rfl
theorem v31_term :
    (StableHlo.after (hostOps10 (F := Ideal)) W (Proc.devRef .tc main_v31) : S5000x128.Idx → EReal)
      = shapeCast S5000x128 (extractStridedSlice S1x5000x128 ![0, 0, 0] (W (Proc.devRef .tc main_v29) : S2x5000x128.Idx → EReal)
          Facts₀.slices_S2x5000x128_S1x5000x128_0_0_0) Facts₀.shapeCasts_S1x5000x128_S5000x128 := by
  after_results <;> rfl
theorem v32_term :
    (StableHlo.after (hostOps10 (F := Ideal)) W (Proc.devRef .tc main_v32) : S1x5000x128.Idx → EReal)
      = extractStridedSlice S1x5000x128 ![1, 0, 0] (W (Proc.devRef .tc main_v29) : S2x5000x128.Idx → EReal)
          Facts₀.slices_S2x5000x128_S1x5000x128_1_0_0 := by
  after_results <;> rfl
theorem v33_term :
    (StableHlo.after (hostOps10 (F := Ideal)) W (Proc.devRef .tc main_v33) : S5000x128.Idx → EReal)
      = shapeCast S5000x128 (extractStridedSlice S1x5000x128 ![1, 0, 0] (W (Proc.devRef .tc main_v29) : S2x5000x128.Idx → EReal)
          Facts₀.slices_S2x5000x128_S1x5000x128_1_0_0) Facts₀.shapeCasts_S1x5000x128_S5000x128 := by
  after_results <;> rfl
theorem v34_term :
    (StableHlo.after (hostOps10 (F := Ideal)) W (Proc.devRef .tc main_v34) : S5000x256.Idx → EReal)
      = concatenate S5000x256 1
          [⟨S5000x128, shapeCast S5000x128 (extractStridedSlice S1x5000x128 ![0, 0, 0] (W (Proc.devRef .tc main_v29) : S2x5000x128.Idx → EReal)
              Facts₀.slices_S2x5000x128_S1x5000x128_0_0_0) Facts₀.shapeCasts_S1x5000x128_S5000x128⟩,
           ⟨S5000x128, shapeCast S5000x128 (extractStridedSlice S1x5000x128 ![1, 0, 0] (W (Proc.devRef .tc main_v29) : S2x5000x128.Idx → EReal)
              Facts₀.slices_S2x5000x128_S1x5000x128_1_0_0) Facts₀.shapeCasts_S1x5000x128_S5000x128⟩]
          Facts₀.concatenates_S5000x128_S5000x128_S5000x256_d1 := by
  after_results <;> rfl
theorem v35_term :
    (StableHlo.after (hostOps10 (F := Ideal)) W (Proc.devRef .tc main_v35) : S1x128.Idx → EReal)
      = shapeCast S1x128 (W (Proc.devRef .tc main_arg8) : S128.Idx → EReal) Facts₀.shapeCasts_S128_S1x128 := by
  after_results <;> rfl
theorem v36_term :
    (StableHlo.after (hostOps10 (F := Ideal)) W (Proc.devRef .tc main_v36) : S1x5000.Idx → EReal)
      = shapeCast S1x5000 (W (Proc.devRef .tc main_arg10) : S5000.Idx → EReal) Facts₀.shapeCasts_S5000_S1x5000 := by
  after_results <;> rfl

/-- View `o`'s last layer cut out of the pair and its unit axis dropped, read at `(r, j)`. -/
theorem viewCast_at (X : S2x5000x128.Idx → EReal) (o : Nat) (hs : S2x5000x128.Slices ![o, 0, 0] S1x5000x128)
    (hc : S1x5000x128.ShapeCasts S5000x128) (v : Fin 2) (hv : v.val = o) (r : Fin 5000) (j : Fin 128) :
    shapeCast S5000x128 (extractStridedSlice S1x5000x128 ![o, 0, 0] X hs) hc (ix2 r j) = X (ix3 v r j) :=
  (shapeCast_1ab_ab_apply _ hc r j).trans (slice3_axis0_apply o X hs (0 : Fin 1) r j v (by rw [hv]; rfl))

theorem v30_at (u : Fin 1) (r : Fin 5000) (j : Fin 128) :
    (StableHlo.after (hostOps10 (F := Ideal)) W (Proc.devRef .tc main_v30) : S1x5000x128.Idx → EReal) (ix3 u r j)
      = (W (Proc.devRef .tc main_v29) : S2x5000x128.Idx → EReal) (ix3 (0 : Fin 2) r j) := by
  rw [v30_term]
  exact slice3_axis0_apply 0 _ _ u r j 0 (by have := u.isLt; show (0 : ℕ) = 0 + u.val; omega)
theorem v31_at (r : Fin 5000) (j : Fin 128) :
    (StableHlo.after (hostOps10 (F := Ideal)) W (Proc.devRef .tc main_v31) : S5000x128.Idx → EReal) (ix2 r j)
      = (W (Proc.devRef .tc main_v29) : S2x5000x128.Idx → EReal) (ix3 (0 : Fin 2) r j) := by
  rw [v31_term]
  exact viewCast_at _ 0 _ _ 0 rfl r j
theorem v32_at (u : Fin 1) (r : Fin 5000) (j : Fin 128) :
    (StableHlo.after (hostOps10 (F := Ideal)) W (Proc.devRef .tc main_v32) : S1x5000x128.Idx → EReal) (ix3 u r j)
      = (W (Proc.devRef .tc main_v29) : S2x5000x128.Idx → EReal) (ix3 (1 : Fin 2) r j) := by
  rw [v32_term]
  exact slice3_axis0_apply 1 _ _ u r j 1 (by have := u.isLt; show (1 : ℕ) = 1 + u.val; omega)
theorem v33_at (r : Fin 5000) (j : Fin 128) :
    (StableHlo.after (hostOps10 (F := Ideal)) W (Proc.devRef .tc main_v33) : S5000x128.Idx → EReal) (ix2 r j)
      = (W (Proc.devRef .tc main_v29) : S2x5000x128.Idx → EReal) (ix3 (1 : Fin 2) r j) := by
  rw [v33_term]
  exact viewCast_at _ 1 _ _ 1 rfl r j

/-- The side-by-side array: columns 0–127 are view 0's last layer, columns 128–255 view 1's. -/
theorem v34_at (r : Fin 5000) (q : Fin 256) :
    (StableHlo.after (hostOps10 (F := Ideal)) W (Proc.devRef .tc main_v34) : S5000x256.Idx → EReal) (ix2 r q)
      = Cert.Spec.hidden (fun v r j => (W (Proc.devRef .tc main_v29) : S2x5000x128.Idx → EReal) (ix3 v r j)) r q := by
  rw [v34_term]
  unfold Cert.Spec.hidden
  by_cases hq : q.val < 128
  · rw [dif_pos hq]
    refine (concatenate_pair_apply_left (t := S5000x256) (s₁ := S5000x128) (s₂ := S5000x128) (1 : Fin 2) _ _ _ (ix2 r q) rfl (ix2 r (⟨q.val, hq⟩ : Fin 128)) (fun b => ?_)).trans ?_
    · match b with
      | ⟨0, _⟩ => rfl
      | ⟨1, _⟩ => rfl
    · exact viewCast_at _ 0 _ _ 0 rfl r _
  · rw [dif_neg hq]
    refine (concatenate_pair_apply_right (t := S5000x256) (s₁ := S5000x128) (s₂ := S5000x128) (1 : Fin 2) _ _ _ (ix2 r q) rfl rfl (ix2 r (⟨q.val - 128, by omega⟩ : Fin 128)) (fun b hb => ?_) ?_).trans ?_
    · match b, hb with
      | ⟨0, _⟩, _ => rfl
      | ⟨1, _⟩, hb => exact absurd rfl hb
    · show q.val - 128 + 128 = q.val
      omega
    · exact viewCast_at _ 1 _ _ 1 rfl r _
/-- The projection bias as a one-row matrix. -/
theorem v35_at (u : Fin 1) (j : Fin 128) :
    (StableHlo.after (hostOps10 (F := Ideal)) W (Proc.devRef .tc main_v35) : S1x128.Idx → EReal) (ix2 u j)
      = (W (Proc.devRef .tc main_arg8) : S128.Idx → EReal) (ix1 j) := by
  rw [v35_term]
  exact shapeCast_a_1a_apply _ _ u j
/-- The classifier bias as a one-row matrix. -/
theorem v36_at (u : Fin 1) (t : Fin 5000) :
    (StableHlo.after (hostOps10 (F := Ideal)) W (Proc.devRef .tc main_v36) : S1x5000.Idx → EReal) (ix2 u t)
      = (W (Proc.devRef .tc main_arg10) : S5000.Idx → EReal) (ix1 t) := by
  rw [v36_term]
  exact shapeCast_a_1a_apply _ _ u t
theorem host10_of (r : Ref sig .tc) (h : r ∉ hostOps10_W) :
    StableHlo.after (hostOps10 (F := Ideal)) W (Proc.devRef .tc r) = W (Proc.devRef .tc r) :=
  StableHlo.after_of_writes_sub hostOps10 W hostOps10_writes h

end Cert.KernelIdeal.HandHost

end
-- ==== Proof.KI.Chain.lean ====
/-
  The kernel side's value chain.  The program's buffers are followed through its 22 boundaries — the launch, then
  alternately a stretch of layout operations and a region — as valuations `U0 … U21`.  Given that each stretch is
  the fold of its operations, that each region changes only its output arrays, and that each region's output read at
  an index is the corresponding stage of the specification over the buffers at the region's entry, the last region's
  output read at an index is the whole model over the launch arguments.  Every buffer a stage reads is walked back to
  where it was written: an argument is never written, a stretch's result is read through the stretch, a region's
  output persists until it is read.
-/
import proofs.«129426_g120259084709_cont_main3_741_6_alg».proof.Proof.KI.Host
import proofs.«129426_g120259084709_cont_main3_741_6_alg».proof.Proof.Spec

set_option maxRecDepth 1152

noncomputable section

namespace Cert.KernelIdeal.HandChain

open Idealize.ShloMosaic Idealize.ShloMosaic.TcCoe Idealize.ShloMosaic.ValueIdx
open Cert.KernelIdeal Cert.KernelIdeal.Gen Cert.KernelIdeal.HandHost

/-! ## The specification's stages respect pointwise equality of their arguments -/

section Congr
open Cert.Spec

theorem colSum_congr {x x' : Fin 2 → Fin 5000 → Fin 5000 → EReal} (e : ∀ v r k, x v r k = x' v r k) (v : Fin 2) (k : Fin 5000) :
    colSum x v k = colSum x' v k := by
  obtain rfl : x = x' := funext fun v => funext fun r => funext fun k => e v r k
  rfl
theorem colSq_congr {x x' : Fin 2 → Fin 5000 → Fin 5000 → EReal} (e : ∀ v r k, x v r k = x' v r k) (v : Fin 2) (k : Fin 5000) :
    colSq x v k = colSq x' v k := by
  obtain rfl : x = x' := funext fun v => funext fun r => funext fun k => e v r k
  rfl
theorem x0_congr {s s' q q' : Fin 2 → Fin 5000 → EReal} {x x' : Fin 2 → Fin 5000 → Fin 5000 → EReal}
    {γ γ' β β' : Fin 2 → Fin 5000 → EReal} {Win Win' : Fin 2 → Fin 5000 → Fin 128 → EReal} {bin bin' : Fin 2 → Fin 128 → EReal}
    (es : ∀ v k, s v k = s' v k) (eq : ∀ v k, q v k = q' v k) (ex : ∀ v r k, x v r k = x' v r k)
    (eγ : ∀ v k, γ v k = γ' v k) (eβ : ∀ v k, β v k = β' v k) (eW : ∀ v k j, Win v k j = Win' v k j)
    (eb : ∀ v j, bin v j = bin' v j) (v : Fin 2) (r : Fin 5000) (j : Fin 128) :
    x0 s q x γ β Win bin v r j = x0 s' q' x' γ' β' Win' bin' v r j := by
  obtain rfl : s = s' := funext fun v => funext fun k => es v k
  obtain rfl : q = q' := funext fun v => funext fun k => eq v k
  obtain rfl : x = x' := funext fun v => funext fun r => funext fun k => ex v r k
  obtain rfl : γ = γ' := funext fun v => funext fun k => eγ v k
  obtain rfl : β = β' := funext fun v => funext fun k => eβ v k
  obtain rfl : Win = Win' := funext fun v => funext fun k => funext fun j => eW v k j
  obtain rfl : bin = bin' := funext fun v => funext fun j => eb v j
  rfl
theorem layer_congr {net net' : Fin 2 → Fin 5000 → Fin 5000 → EReal} {h h' x0 x0' : Fin 2 → Fin 5000 → Fin 128 → EReal}
    {W W' : Fin 2 → Fin 128 → Fin 128 → EReal} (b1 b2 : BitVec 32)
    (en : ∀ v r k, net v r k = net' v r k) (eh : ∀ v k j, h v k j = h' v k j) (ex : ∀ v r j, x0 v r j = x0' v r j)
    (eW : ∀ v q j, W v q j = W' v q j) (v : Fin 2) (r : Fin 5000) (j : Fin 128) :
    layer net h x0 W b1 b2 v r j = layer net' h' x0' W' b1 b2 v r j := by
  obtain rfl : net = net' := funext fun v => funext fun r => funext fun k => en v r k
  obtain rfl : h = h' := funext fun v => funext fun k => funext fun j => eh v k j
  obtain rfl : x0 = x0' := funext fun v => funext fun r => funext fun j => ex v r j
  obtain rfl : W = W' := funext fun v => funext fun q => funext fun j => eW v q j
  rfl
theorem hidden_congr {h h' : Fin 2 → Fin 5000 → Fin 128 → EReal} (e : ∀ v r j, h v r j = h' v r j) (r : Fin 5000) (q : Fin 256) :
    hidden h r q = hidden h' r q := by
  obtain rfl : h = h' := funext fun v => funext fun r => funext fun j => e v r j
  rfl
theorem pred_congr {hid hid' : Fin 5000 → Fin 256 → EReal} {Wc Wc' : Fin 256 → Fin 128 → EReal} {bc bc' : Fin 128 → EReal}
    {Wo Wo' : Fin 128 → Fin 5000 → EReal} {bo bo' : Fin 5000 → EReal}
    (eh : ∀ r q, hid r q = hid' r q) (eWc : ∀ q j, Wc q j = Wc' q j) (ebc : ∀ j, bc j = bc' j)
    (eWo : ∀ j t, Wo j t = Wo' j t) (ebo : ∀ t, bo t = bo' t) (r t : Fin 5000) :
    pred hid Wc bc Wo bo r t = pred hid' Wc' bc' Wo' bo' r t := by
  obtain rfl : hid = hid' := funext fun r => funext fun q => eh r q
  obtain rfl : Wc = Wc' := funext fun q => funext fun j => eWc q j
  obtain rfl : bc = bc' := funext fun j => ebc j
  obtain rfl : Wo = Wo' := funext fun j => funext fun t => eWo j t
  obtain rfl : bo = bo' := funext fun t => ebo t
  rfl

end Congr

/-! ## The launch arguments as the specification's arrays -/

section Args
variable (U0 : Valuation τ sig (Elt Ideal))
abbrev aX : Fin 2 → Fin 5000 → Fin 5000 → EReal := fun v r k => (U0 (Proc.devRef .tc main_arg0) : S2x5000x5000.Idx → EReal) (ix3 v r k)
abbrev aNet : Fin 2 → Fin 5000 → Fin 5000 → EReal := fun v r k => (U0 (Proc.devRef .tc main_arg1) : S2x5000x5000.Idx → EReal) (ix3 v r k)
abbrev aGam : Fin 2 → Fin 5000 → EReal := fun v k => (U0 (Proc.devRef .tc main_arg2) : S2x5000.Idx → EReal) (ix2 v k)
abbrev aBet : Fin 2 → Fin 5000 → EReal := fun v k => (U0 (Proc.devRef .tc main_arg3) : S2x5000.Idx → EReal) (ix2 v k)
abbrev aWin : Fin 2 → Fin 5000 → Fin 128 → EReal := fun v k j => (U0 (Proc.devRef .tc main_arg4) : S2x5000x128.Idx → EReal) (ix3 v k j)
abbrev aBin : Fin 2 → Fin 128 → EReal := fun v j => (U0 (Proc.devRef .tc main_arg5) : S2x128.Idx → EReal) (ix2 v j)
abbrev aWg : Fin 2 → Fin 8 → Fin 128 → Fin 128 → EReal := fun v l q j => (U0 (Proc.devRef .tc main_arg6) : S2x8x128x128.Idx → EReal) (ix4 v l q j)
abbrev aWc : Fin 256 → Fin 128 → EReal := fun q j => (U0 (Proc.devRef .tc main_arg7) : S256x128.Idx → EReal) (ix2 q j)
abbrev aBc : Fin 128 → EReal := fun j => (U0 (Proc.devRef .tc main_arg8) : S128.Idx → EReal) (ix1 j)
abbrev aWo : Fin 128 → Fin 5000 → EReal := fun j t => (U0 (Proc.devRef .tc main_arg9) : S128x5000.Idx → EReal) (ix2 j t)
abbrev aBo : Fin 5000 → EReal := fun t => (U0 (Proc.devRef .tc main_arg10) : S5000.Idx → EReal) (ix1 t)
/-- The input projection of the launch features. -/
abbrev aX0 : Fin 2 → Fin 5000 → Fin 128 → EReal := Cert.Spec.X0 (aX U0) (aGam U0) (aBet U0) (aWin U0) (aBin U0)
end Args

/-! ## The hypotheses: what the stretches and the regions do to the buffers -/

/-- The buffers at the 22 boundaries: each stretch is the fold of its operations (`hh`), each region keeps every
    array it does not output (`k`), and each region's output is its stage of the specification over the buffers at
    its entry (`o`). -/
structure Chain (U0 U1 U2 U3 U4 U5 U6 U7 U8 U9 U10 U11 U12 U13 U14 U15 U16 U17 U18 U19 U20 U21 : Valuation τ sig (Elt Ideal)) : Prop where
  hh1 : U1 = StableHlo.after (hostOps0 (F := Ideal)) U0
  hh4 : U4 = StableHlo.after (hostOps2 (F := Ideal)) U3
  hh6 : U6 = StableHlo.after (hostOps3 (F := Ideal)) U5
  hh8 : U8 = StableHlo.after (hostOps4 (F := Ideal)) U7
  hh10 : U10 = StableHlo.after (hostOps5 (F := Ideal)) U9
  hh12 : U12 = StableHlo.after (hostOps6 (F := Ideal)) U11
  hh14 : U14 = StableHlo.after (hostOps7 (F := Ideal)) U13
  hh16 : U16 = StableHlo.after (hostOps8 (F := Ideal)) U15
  hh18 : U18 = StableHlo.after (hostOps9 (F := Ideal)) U17
  hh20 : U20 = StableHlo.after (hostOps10 (F := Ideal)) U19
  k2 : ∀ b : Ref sig .tc, b ≠ main_v3_0 → b ≠ main_v3_1 → U2 (Proc.devRef .tc b) = U1 (Proc.devRef .tc b)
  k3 : ∀ b : Ref sig .tc, b ≠ main_v4 → U3 (Proc.devRef .tc b) = U2 (Proc.devRef .tc b)
  k5 : ∀ b : Ref sig .tc, b ≠ main_v8 → U5 (Proc.devRef .tc b) = U4 (Proc.devRef .tc b)
  k7 : ∀ b : Ref sig .tc, b ≠ main_v11 → U7 (Proc.devRef .tc b) = U6 (Proc.devRef .tc b)
  k9 : ∀ b : Ref sig .tc, b ≠ main_v14 → U9 (Proc.devRef .tc b) = U8 (Proc.devRef .tc b)
  k11 : ∀ b : Ref sig .tc, b ≠ main_v17 → U11 (Proc.devRef .tc b) = U10 (Proc.devRef .tc b)
  k13 : ∀ b : Ref sig .tc, b ≠ main_v20 → U13 (Proc.devRef .tc b) = U12 (Proc.devRef .tc b)
  k15 : ∀ b : Ref sig .tc, b ≠ main_v23 → U15 (Proc.devRef .tc b) = U14 (Proc.devRef .tc b)
  k17 : ∀ b : Ref sig .tc, b ≠ main_v26 → U17 (Proc.devRef .tc b) = U16 (Proc.devRef .tc b)
  k19 : ∀ b : Ref sig .tc, b ≠ main_v29 → U19 (Proc.devRef .tc b) = U18 (Proc.devRef .tc b)
  k21 : ∀ b : Ref sig .tc, b ≠ main_v37 → U21 (Proc.devRef .tc b) = U20 (Proc.devRef .tc b)
  o0a : ∀ (v : Fin 2) (k : Fin 5000), (U2 (Proc.devRef .tc main_v3_0) : S2x1x5000.Idx → EReal) (ix3 v (0 : Fin 1) k)
      = Cert.Spec.colSum (fun v r k => (U1 (Proc.devRef .tc main_arg0) : S2x5000x5000.Idx → EReal) (ix3 v r k)) v k
  o0b : ∀ (v : Fin 2) (k : Fin 5000), (U2 (Proc.devRef .tc main_v3_1) : S2x1x5000.Idx → EReal) (ix3 v (0 : Fin 1) k)
      = Cert.Spec.colSq (fun v r k => (U1 (Proc.devRef .tc main_arg0) : S2x5000x5000.Idx → EReal) (ix3 v r k)) v k
  o1 : ∀ (v : Fin 2) (r : Fin 5000) (j : Fin 128), (U3 (Proc.devRef .tc main_v4) : S2x5000x128.Idx → EReal) (ix3 v r j)
      = Cert.Spec.x0 (fun v k => (U2 (Proc.devRef .tc main_v3_0) : S2x1x5000.Idx → EReal) (ix3 v (0 : Fin 1) k)) (fun v k => (U2 (Proc.devRef .tc main_v3_1) : S2x1x5000.Idx → EReal) (ix3 v (0 : Fin 1) k))
          (fun v r k => (U2 (Proc.devRef .tc main_arg0) : S2x5000x5000.Idx → EReal) (ix3 v r k)) (fun v k => (U2 (Proc.devRef .tc main_v0) : S2x1x5000.Idx → EReal) (ix3 v (0 : Fin 1) k))
          (fun v k => (U2 (Proc.devRef .tc main_v1) : S2x1x5000.Idx → EReal) (ix3 v (0 : Fin 1) k)) (fun v k j => (U2 (Proc.devRef .tc main_arg4) : S2x5000x128.Idx → EReal) (ix3 v k j))
          (fun v j => (U2 (Proc.devRef .tc main_v2) : S2x1x128.Idx → EReal) (ix3 v (0 : Fin 1) j)) v r j
  o2 : ∀ (v : Fin 2) (r : Fin 5000) (j : Fin 128), (U5 (Proc.devRef .tc main_v8) : S2x5000x128.Idx → EReal) (ix3 v r j)
      = Cert.Spec.layer (fun v r k => (U4 (Proc.devRef .tc main_v5) : S2x5000x5000.Idx → EReal) (ix3 v r k)) (fun v k j => (U4 (Proc.devRef .tc main_v4) : S2x5000x128.Idx → EReal) (ix3 v k j))
          (fun v r j => (U4 (Proc.devRef .tc main_v4) : S2x5000x128.Idx → EReal) (ix3 v r j)) (fun v q j => (U4 (Proc.devRef .tc main_v7) : S2x128x128.Idx → EReal) (ix3 v q j))
          0x3F183370#32 0x3ECF991F#32 v r j
  o3 : ∀ (v : Fin 2) (r : Fin 5000) (j : Fin 128), (U7 (Proc.devRef .tc main_v11) : S2x5000x128.Idx → EReal) (ix3 v r j)
      = Cert.Spec.layer (fun v r k => (U6 (Proc.devRef .tc main_v5) : S2x5000x5000.Idx → EReal) (ix3 v r k)) (fun v k j => (U6 (Proc.devRef .tc main_v8) : S2x5000x128.Idx → EReal) (ix3 v k j))
          (fun v r j => (U6 (Proc.devRef .tc main_v4) : S2x5000x128.Idx → EReal) (ix3 v r j)) (fun v q j => (U6 (Proc.devRef .tc main_v10) : S2x128x128.Idx → EReal) (ix3 v q j))
          0x3F46E010#32 0x3E647FBE#32 v r j
  o4 : ∀ (v : Fin 2) (r : Fin 5000) (j : Fin 128), (U9 (Proc.devRef .tc main_v14) : S2x5000x128.Idx → EReal) (ix3 v r j)
      = Cert.Spec.layer (fun v r k => (U8 (Proc.devRef .tc main_v5) : S2x5000x5000.Idx → EReal) (ix3 v r k)) (fun v k j => (U8 (Proc.devRef .tc main_v11) : S2x5000x128.Idx → EReal) (ix3 v k j))
          (fun v r j => (U8 (Proc.devRef .tc main_v4) : S2x5000x128.Idx → EReal) (ix3 v r j)) (fun v q j => (U8 (Proc.devRef .tc main_v13) : S2x128x128.Idx → EReal) (ix3 v q j))
          0x3F588995#32 0x3E1DD9AD#32 v r j
  o5 : ∀ (v : Fin 2) (r : Fin 5000) (j : Fin 128), (U11 (Proc.devRef .tc main_v17) : S2x5000x128.Idx → EReal) (ix3 v r j)
      = Cert.Spec.layer (fun v r k => (U10 (Proc.devRef .tc main_v5) : S2x5000x5000.Idx → EReal) (ix3 v r k)) (fun v k j => (U10 (Proc.devRef .tc main_v14) : S2x5000x128.Idx → EReal) (ix3 v k j))
          (fun v r j => (U10 (Proc.devRef .tc main_v4) : S2x5000x128.Idx → EReal) (ix3 v r j)) (fun v q j => (U10 (Proc.devRef .tc main_v16) : S2x128x128.Idx → EReal) (ix3 v q j))
          0x3F61D8F9#32 0x3DF1383B#32 v r j
  o6 : ∀ (v : Fin 2) (r : Fin 5000) (j : Fin 128), (U13 (Proc.devRef .tc main_v20) : S2x5000x128.Idx → EReal) (ix3 v r j)
      = Cert.Spec.layer (fun v r k => (U12 (Proc.devRef .tc main_v5) : S2x5000x5000.Idx → EReal) (ix3 v r k)) (fun v k j => (U12 (Proc.devRef .tc main_v17) : S2x5000x128.Idx → EReal) (ix3 v k j))
          (fun v r j => (U12 (Proc.devRef .tc main_v4) : S2x5000x128.Idx → EReal) (ix3 v r j)) (fun v q j => (U12 (Proc.devRef .tc main_v19) : S2x128x128.Idx → EReal) (ix3 v q j))
          0x3F6799C1#32 0x3DC331FC#32 v r j
  o7 : ∀ (v : Fin 2) (r : Fin 5000) (j : Fin 128), (U15 (Proc.devRef .tc main_v23) : S2x5000x128.Idx → EReal) (ix3 v r j)
      = Cert.Spec.layer (fun v r k => (U14 (Proc.devRef .tc main_v5) : S2x5000x5000.Idx → EReal) (ix3 v r k)) (fun v k j => (U14 (Proc.devRef .tc main_v20) : S2x5000x128.Idx → EReal) (ix3 v k j))
          (fun v r j => (U14 (Proc.devRef .tc main_v4) : S2x5000x128.Idx → EReal) (ix3 v r j)) (fun v q j => (U14 (Proc.devRef .tc main_v22) : S2x128x128.Idx → EReal) (ix3 v q j))
          0x3F6B8252#32 0x3DA3ED6E#32 v r j
  o8 : ∀ (v : Fin 2) (r : Fin 5000) (j : Fin 128), (U17 (Proc.devRef .tc main_v26) : S2x5000x128.Idx → EReal) (ix3 v r j)
      = Cert.Spec.layer (fun v r k => (U16 (Proc.devRef .tc main_v5) : S2x5000x5000.Idx → EReal) (ix3 v r k)) (fun v k j => (U16 (Proc.devRef .tc main_v23) : S2x5000x128.Idx → EReal) (ix3 v k j))
          (fun v r j => (U16 (Proc.devRef .tc main_v4) : S2x5000x128.Idx → EReal) (ix3 v r j)) (fun v q j => (U16 (Proc.devRef .tc main_v25) : S2x128x128.Idx → EReal) (ix3 v q j))
          0x3F6E567C#32 0x3D8D4C22#32 v r j
  o9 : ∀ (v : Fin 2) (r : Fin 5000) (j : Fin 128), (U19 (Proc.devRef .tc main_v29) : S2x5000x128.Idx → EReal) (ix3 v r j)
      = Cert.Spec.layer (fun v r k => (U18 (Proc.devRef .tc main_v5) : S2x5000x5000.Idx → EReal) (ix3 v r k)) (fun v k j => (U18 (Proc.devRef .tc main_v26) : S2x5000x128.Idx → EReal) (ix3 v k j))
          (fun v r j => (U18 (Proc.devRef .tc main_v4) : S2x5000x128.Idx → EReal) (ix3 v r j)) (fun v q j => (U18 (Proc.devRef .tc main_v28) : S2x128x128.Idx → EReal) (ix3 v q j))
          0x3F707AE8#32 0x3D785186#32 v r j
  o10 : ∀ (r t : Fin 5000), (U21 (Proc.devRef .tc main_v37) : S5000x5000.Idx → EReal) (ix2 r t)
      = Cert.Spec.pred (fun r q => (U20 (Proc.devRef .tc main_v34) : S5000x256.Idx → EReal) (ix2 r q)) (fun q j => (U20 (Proc.devRef .tc main_arg7) : S256x128.Idx → EReal) (ix2 q j))
          (fun j => (U20 (Proc.devRef .tc main_v35) : S1x128.Idx → EReal) (ix2 (0 : Fin 1) j)) (fun j t => (U20 (Proc.devRef .tc main_arg9) : S128x5000.Idx → EReal) (ix2 j t))
          (fun t => (U20 (Proc.devRef .tc main_v36) : S1x5000.Idx → EReal) (ix2 (0 : Fin 1) t)) r t

section Walk
variable {U0 U1 U2 U3 U4 U5 U6 U7 U8 U9 U10 U11 U12 U13 U14 U15 U16 U17 U18 U19 U20 U21 : Valuation τ sig (Elt Ideal)} (C : Chain U0 U1 U2 U3 U4 U5 U6 U7 U8 U9 U10 U11 U12 U13 U14 U15 U16 U17 U18 U19 U20 U21)
include C

/-! ## A stretch keeps what it does not write -/

theorem s1 (b : Ref sig .tc) (h : b ∉ hostOps0_W) : U1 (Proc.devRef .tc b) = U0 (Proc.devRef .tc b) := by
  rw [C.hh1]; exact host0_of U0 b h
theorem s4 (b : Ref sig .tc) (h : b ∉ hostOps2_W) : U4 (Proc.devRef .tc b) = U3 (Proc.devRef .tc b) := by
  rw [C.hh4]; exact host2_of U3 b h
theorem s6 (b : Ref sig .tc) (h : b ∉ hostOps3_W) : U6 (Proc.devRef .tc b) = U5 (Proc.devRef .tc b) := by
  rw [C.hh6]; exact host3_of U5 b h
theorem s8 (b : Ref sig .tc) (h : b ∉ hostOps4_W) : U8 (Proc.devRef .tc b) = U7 (Proc.devRef .tc b) := by
  rw [C.hh8]; exact host4_of U7 b h
theorem s10 (b : Ref sig .tc) (h : b ∉ hostOps5_W) : U10 (Proc.devRef .tc b) = U9 (Proc.devRef .tc b) := by
  rw [C.hh10]; exact host5_of U9 b h
theorem s12 (b : Ref sig .tc) (h : b ∉ hostOps6_W) : U12 (Proc.devRef .tc b) = U11 (Proc.devRef .tc b) := by
  rw [C.hh12]; exact host6_of U11 b h
theorem s14 (b : Ref sig .tc) (h : b ∉ hostOps7_W) : U14 (Proc.devRef .tc b) = U13 (Proc.devRef .tc b) := by
  rw [C.hh14]; exact host7_of U13 b h
theorem s16 (b : Ref sig .tc) (h : b ∉ hostOps8_W) : U16 (Proc.devRef .tc b) = U15 (Proc.devRef .tc b) := by
  rw [C.hh16]; exact host8_of U15 b h
theorem s18 (b : Ref sig .tc) (h : b ∉ hostOps9_W) : U18 (Proc.devRef .tc b) = U17 (Proc.devRef .tc b) := by
  rw [C.hh18]; exact host9_of U17 b h
theorem s20 (b : Ref sig .tc) (h : b ∉ hostOps10_W) : U20 (Proc.devRef .tc b) = U19 (Proc.devRef .tc b) := by
  rw [C.hh20]; exact host10_of U19 b h

/-! ## Buffers that persist from where they were written to where they are read -/

theorem kp_arg0_1 : U1 (Proc.devRef .tc main_arg0) = U0 (Proc.devRef .tc main_arg0) :=
  (s1 C main_arg0 (by decide))
theorem kp_arg0_2 : U2 (Proc.devRef .tc main_arg0) = U0 (Proc.devRef .tc main_arg0) :=
  (C.k2 main_arg0 (by decide) (by decide)).trans ((kp_arg0_1 C))
theorem kp_v0_2 : U2 (Proc.devRef .tc main_v0) = U1 (Proc.devRef .tc main_v0) :=
  (C.k2 main_v0 (by decide) (by decide))
theorem kp_v1_2 : U2 (Proc.devRef .tc main_v1) = U1 (Proc.devRef .tc main_v1) :=
  (C.k2 main_v1 (by decide) (by decide))
theorem kp_v2_2 : U2 (Proc.devRef .tc main_v2) = U1 (Proc.devRef .tc main_v2) :=
  (C.k2 main_v2 (by decide) (by decide))
theorem kp_arg4_2 : U2 (Proc.devRef .tc main_arg4) = U0 (Proc.devRef .tc main_arg4) :=
  (C.k2 main_arg4 (by decide) (by decide)).trans ((s1 C main_arg4 (by decide)))
theorem kp_arg1_3 : U3 (Proc.devRef .tc main_arg1) = U0 (Proc.devRef .tc main_arg1) :=
  (C.k3 main_arg1 (by decide)).trans ((C.k2 main_arg1 (by decide) (by decide)).trans ((s1 C main_arg1 (by decide))))
theorem kp_arg6_3 : U3 (Proc.devRef .tc main_arg6) = U0 (Proc.devRef .tc main_arg6) :=
  (C.k3 main_arg6 (by decide)).trans ((C.k2 main_arg6 (by decide) (by decide)).trans ((s1 C main_arg6 (by decide))))
theorem kp_arg6_5 : U5 (Proc.devRef .tc main_arg6) = U0 (Proc.devRef .tc main_arg6) :=
  (C.k5 main_arg6 (by decide)).trans ((s4 C main_arg6 (by decide)).trans ((kp_arg6_3 C)))
theorem kp_arg6_7 : U7 (Proc.devRef .tc main_arg6) = U0 (Proc.devRef .tc main_arg6) :=
  (C.k7 main_arg6 (by decide)).trans ((s6 C main_arg6 (by decide)).trans ((kp_arg6_5 C)))
theorem kp_arg6_9 : U9 (Proc.devRef .tc main_arg6) = U0 (Proc.devRef .tc main_arg6) :=
  (C.k9 main_arg6 (by decide)).trans ((s8 C main_arg6 (by decide)).trans ((kp_arg6_7 C)))
theorem kp_arg6_11 : U11 (Proc.devRef .tc main_arg6) = U0 (Proc.devRef .tc main_arg6) :=
  (C.k11 main_arg6 (by decide)).trans ((s10 C main_arg6 (by decide)).trans ((kp_arg6_9 C)))
theorem kp_arg6_13 : U13 (Proc.devRef .tc main_arg6) = U0 (Proc.devRef .tc main_arg6) :=
  (C.k13 main_arg6 (by decide)).trans ((s12 C main_arg6 (by decide)).trans ((kp_arg6_11 C)))
theorem kp_arg6_15 : U15 (Proc.devRef .tc main_arg6) = U0 (Proc.devRef .tc main_arg6) :=
  (C.k15 main_arg6 (by decide)).trans ((s14 C main_arg6 (by decide)).trans ((kp_arg6_13 C)))
theorem kp_arg6_17 : U17 (Proc.devRef .tc main_arg6) = U0 (Proc.devRef .tc main_arg6) :=
  (C.k17 main_arg6 (by decide)).trans ((s16 C main_arg6 (by decide)).trans ((kp_arg6_15 C)))
theorem kp_v4_4 : U4 (Proc.devRef .tc main_v4) = U3 (Proc.devRef .tc main_v4) :=
  (s4 C main_v4 (by decide))
theorem kp_v4_6 : U6 (Proc.devRef .tc main_v4) = U3 (Proc.devRef .tc main_v4) :=
  (s6 C main_v4 (by decide)).trans ((C.k5 main_v4 (by decide)).trans ((kp_v4_4 C)))
theorem kp_v4_8 : U8 (Proc.devRef .tc main_v4) = U3 (Proc.devRef .tc main_v4) :=
  (s8 C main_v4 (by decide)).trans ((C.k7 main_v4 (by decide)).trans ((kp_v4_6 C)))
theorem kp_v4_10 : U10 (Proc.devRef .tc main_v4) = U3 (Proc.devRef .tc main_v4) :=
  (s10 C main_v4 (by decide)).trans ((C.k9 main_v4 (by decide)).trans ((kp_v4_8 C)))
theorem kp_v4_12 : U12 (Proc.devRef .tc main_v4) = U3 (Proc.devRef .tc main_v4) :=
  (s12 C main_v4 (by decide)).trans ((C.k11 main_v4 (by decide)).trans ((kp_v4_10 C)))
theorem kp_v4_14 : U14 (Proc.devRef .tc main_v4) = U3 (Proc.devRef .tc main_v4) :=
  (s14 C main_v4 (by decide)).trans ((C.k13 main_v4 (by decide)).trans ((kp_v4_12 C)))
theorem kp_v4_16 : U16 (Proc.devRef .tc main_v4) = U3 (Proc.devRef .tc main_v4) :=
  (s16 C main_v4 (by decide)).trans ((C.k15 main_v4 (by decide)).trans ((kp_v4_14 C)))
theorem kp_v4_18 : U18 (Proc.devRef .tc main_v4) = U3 (Proc.devRef .tc main_v4) :=
  (s18 C main_v4 (by decide)).trans ((C.k17 main_v4 (by decide)).trans ((kp_v4_16 C)))
theorem kp_v5_6 : U6 (Proc.devRef .tc main_v5) = U4 (Proc.devRef .tc main_v5) :=
  (s6 C main_v5 (by decide)).trans ((C.k5 main_v5 (by decide)))
theorem kp_v5_8 : U8 (Proc.devRef .tc main_v5) = U4 (Proc.devRef .tc main_v5) :=
  (s8 C main_v5 (by decide)).trans ((C.k7 main_v5 (by decide)).trans ((kp_v5_6 C)))
theorem kp_v5_10 : U10 (Proc.devRef .tc main_v5) = U4 (Proc.devRef .tc main_v5) :=
  (s10 C main_v5 (by decide)).trans ((C.k9 main_v5 (by decide)).trans ((kp_v5_8 C)))
theorem kp_v5_12 : U12 (Proc.devRef .tc main_v5) = U4 (Proc.devRef .tc main_v5) :=
  (s12 C main_v5 (by decide)).trans ((C.k11 main_v5 (by decide)).trans ((kp_v5_10 C)))
theorem kp_v5_14 : U14 (Proc.devRef .tc main_v5) = U4 (Proc.devRef .tc main_v5) :=
  (s14 C main_v5 (by decide)).trans ((C.k13 main_v5 (by decide)).trans ((kp_v5_12 C)))
theorem kp_v5_16 : U16 (Proc.devRef .tc main_v5) = U4 (Proc.devRef .tc main_v5) :=
  (s16 C main_v5 (by decide)).trans ((C.k15 main_v5 (by decide)).trans ((kp_v5_14 C)))
theorem kp_v5_18 : U18 (Proc.devRef .tc main_v5) = U4 (Proc.devRef .tc main_v5) :=
  (s18 C main_v5 (by decide)).trans ((C.k17 main_v5 (by decide)).trans ((kp_v5_16 C)))
theorem kp_arg7_20 : U20 (Proc.devRef .tc main_arg7) = U0 (Proc.devRef .tc main_arg7) :=
  (s20 C main_arg7 (by decide)).trans ((C.k19 main_arg7 (by decide)).trans ((s18 C main_arg7 (by decide)).trans ((C.k17 main_arg7 (by decide)).trans ((s16 C main_arg7 (by decide)).trans ((C.k15 main_arg7 (by decide)).trans ((s14 C main_arg7 (by decide)).trans ((C.k13 main_arg7 (by decide)).trans ((s12 C main_arg7 (by decide)).trans ((C.k11 main_arg7 (by decide)).trans ((s10 C main_arg7 (by decide)).trans ((C.k9 main_arg7 (by decide)).trans ((s8 C main_arg7 (by decide)).trans ((C.k7 main_arg7 (by decide)).trans ((s6 C main_arg7 (by decide)).trans ((C.k5 main_arg7 (by decide)).trans ((s4 C main_arg7 (by decide)).trans ((C.k3 main_arg7 (by decide)).trans ((C.k2 main_arg7 (by decide) (by decide)).trans ((s1 C main_arg7 (by decide)))))))))))))))))))))
theorem kp_arg9_20 : U20 (Proc.devRef .tc main_arg9) = U0 (Proc.devRef .tc main_arg9) :=
  (s20 C main_arg9 (by decide)).trans ((C.k19 main_arg9 (by decide)).trans ((s18 C main_arg9 (by decide)).trans ((C.k17 main_arg9 (by decide)).trans ((s16 C main_arg9 (by decide)).trans ((C.k15 main_arg9 (by decide)).trans ((s14 C main_arg9 (by decide)).trans ((C.k13 main_arg9 (by decide)).trans ((s12 C main_arg9 (by decide)).trans ((C.k11 main_arg9 (by decide)).trans ((s10 C main_arg9 (by decide)).trans ((C.k9 main_arg9 (by decide)).trans ((s8 C main_arg9 (by decide)).trans ((C.k7 main_arg9 (by decide)).trans ((s6 C main_arg9 (by decide)).trans ((C.k5 main_arg9 (by decide)).trans ((s4 C main_arg9 (by decide)).trans ((C.k3 main_arg9 (by decide)).trans ((C.k2 main_arg9 (by decide) (by decide)).trans ((s1 C main_arg9 (by decide)))))))))))))))))))))
theorem kp_arg8_19 : U19 (Proc.devRef .tc main_arg8) = U0 (Proc.devRef .tc main_arg8) :=
  (C.k19 main_arg8 (by decide)).trans ((s18 C main_arg8 (by decide)).trans ((C.k17 main_arg8 (by decide)).trans ((s16 C main_arg8 (by decide)).trans ((C.k15 main_arg8 (by decide)).trans ((s14 C main_arg8 (by decide)).trans ((C.k13 main_arg8 (by decide)).trans ((s12 C main_arg8 (by decide)).trans ((C.k11 main_arg8 (by decide)).trans ((s10 C main_arg8 (by decide)).trans ((C.k9 main_arg8 (by decide)).trans ((s8 C main_arg8 (by decide)).trans ((C.k7 main_arg8 (by decide)).trans ((s6 C main_arg8 (by decide)).trans ((C.k5 main_arg8 (by decide)).trans ((s4 C main_arg8 (by decide)).trans ((C.k3 main_arg8 (by decide)).trans ((C.k2 main_arg8 (by decide) (by decide)).trans ((s1 C main_arg8 (by decide))))))))))))))))))))
theorem kp_arg10_19 : U19 (Proc.devRef .tc main_arg10) = U0 (Proc.devRef .tc main_arg10) :=
  (C.k19 main_arg10 (by decide)).trans ((s18 C main_arg10 (by decide)).trans ((C.k17 main_arg10 (by decide)).trans ((s16 C main_arg10 (by decide)).trans ((C.k15 main_arg10 (by decide)).trans ((s14 C main_arg10 (by decide)).trans ((C.k13 main_arg10 (by decide)).trans ((s12 C main_arg10 (by decide)).trans ((C.k11 main_arg10 (by decide)).trans ((s10 C main_arg10 (by decide)).trans ((C.k9 main_arg10 (by decide)).trans ((s8 C main_arg10 (by decide)).trans ((C.k7 main_arg10 (by decide)).trans ((s6 C main_arg10 (by decide)).trans ((C.k5 main_arg10 (by decide)).trans ((s4 C main_arg10 (by decide)).trans ((C.k3 main_arg10 (by decide)).trans ((C.k2 main_arg10 (by decide) (by decide)).trans ((s1 C main_arg10 (by decide))))))))))))))))))))

/-! ## The input projection -/

theorem colSum_at (v : Fin 2) (k : Fin 5000) :
    (U2 (Proc.devRef .tc main_v3_0) : S2x1x5000.Idx → EReal) (ix3 v (0 : Fin 1) k) = Cert.Spec.colSum (aX U0) v k :=
  (C.o0a v k).trans (colSum_congr (fun v r k => by rw [kp_arg0_1 C]) v k)
theorem colSq_at (v : Fin 2) (k : Fin 5000) :
    (U2 (Proc.devRef .tc main_v3_1) : S2x1x5000.Idx → EReal) (ix3 v (0 : Fin 1) k) = Cert.Spec.colSq (aX U0) v k :=
  (C.o0b v k).trans (colSq_congr (fun v r k => by rw [kp_arg0_1 C]) v k)
theorem gam_at (v : Fin 2) (k : Fin 5000) : (U2 (Proc.devRef .tc main_v0) : S2x1x5000.Idx → EReal) (ix3 v (0 : Fin 1) k) = aGam U0 v k := by
  rw [kp_v0_2 C, C.hh1]; exact v0_at U0 v 0 k
theorem bet_at (v : Fin 2) (k : Fin 5000) : (U2 (Proc.devRef .tc main_v1) : S2x1x5000.Idx → EReal) (ix3 v (0 : Fin 1) k) = aBet U0 v k := by
  rw [kp_v1_2 C, C.hh1]; exact v1_at U0 v 0 k
theorem bin_at (v : Fin 2) (j : Fin 128) : (U2 (Proc.devRef .tc main_v2) : S2x1x128.Idx → EReal) (ix3 v (0 : Fin 1) j) = aBin U0 v j := by
  rw [kp_v2_2 C, C.hh1]; exact v2_at U0 v 0 j

/-- Region 1's output is the input projection of the launch features. -/
theorem x0_eq (v : Fin 2) (r : Fin 5000) (j : Fin 128) : (U3 (Proc.devRef .tc main_v4) : S2x5000x128.Idx → EReal) (ix3 v r j) = aX0 U0 v r j :=
  (C.o1 v r j).trans (x0_congr (colSum_at C) (colSq_at C) (fun v r k => by rw [kp_arg0_2 C]) (gam_at C) (bet_at C)
    (fun v k j => by rw [kp_arg4_2 C]) (bin_at C) v r j)

/-! ## What every layer reads: the adjacency, the input projection, its weights -/

theorem net_4 (v : Fin 2) (r k : Fin 5000) : (U4 (Proc.devRef .tc main_v5) : S2x5000x5000.Idx → EReal) (ix3 v r k) = aNet U0 v r k := by
  rw [C.hh4]; exact (v5_at U3 v r k).trans (by rw [kp_arg1_3 C])
theorem x0_4 (v : Fin 2) (r : Fin 5000) (j : Fin 128) : (U4 (Proc.devRef .tc main_v4) : S2x5000x128.Idx → EReal) (ix3 v r j) = aX0 U0 v r j := by
  rw [kp_v4_4 C]; exact x0_eq C v r j
theorem net_6 (v : Fin 2) (r k : Fin 5000) : (U6 (Proc.devRef .tc main_v5) : S2x5000x5000.Idx → EReal) (ix3 v r k) = aNet U0 v r k := by
  rw [kp_v5_6 C]; exact net_4 C v r k
theorem x0_6 (v : Fin 2) (r : Fin 5000) (j : Fin 128) : (U6 (Proc.devRef .tc main_v4) : S2x5000x128.Idx → EReal) (ix3 v r j) = aX0 U0 v r j := by
  rw [kp_v4_6 C]; exact x0_eq C v r j
theorem net_8 (v : Fin 2) (r k : Fin 5000) : (U8 (Proc.devRef .tc main_v5) : S2x5000x5000.Idx → EReal) (ix3 v r k) = aNet U0 v r k := by
  rw [kp_v5_8 C]; exact net_4 C v r k
theorem x0_8 (v : Fin 2) (r : Fin 5000) (j : Fin 128) : (U8 (Proc.devRef .tc main_v4) : S2x5000x128.Idx → EReal) (ix3 v r j) = aX0 U0 v r j := by
  rw [kp_v4_8 C]; exact x0_eq C v r j
theorem net_10 (v : Fin 2) (r k : Fin 5000) : (U10 (Proc.devRef .tc main_v5) : S2x5000x5000.Idx → EReal) (ix3 v r k) = aNet U0 v r k := by
  rw [kp_v5_10 C]; exact net_4 C v r k
theorem x0_10 (v : Fin 2) (r : Fin 5000) (j : Fin 128) : (U10 (Proc.devRef .tc main_v4) : S2x5000x128.Idx → EReal) (ix3 v r j) = aX0 U0 v r j := by
  rw [kp_v4_10 C]; exact x0_eq C v r j
theorem net_12 (v : Fin 2) (r k : Fin 5000) : (U12 (Proc.devRef .tc main_v5) : S2x5000x5000.Idx → EReal) (ix3 v r k) = aNet U0 v r k := by
  rw [kp_v5_12 C]; exact net_4 C v r k
theorem x0_12 (v : Fin 2) (r : Fin 5000) (j : Fin 128) : (U12 (Proc.devRef .tc main_v4) : S2x5000x128.Idx → EReal) (ix3 v r j) = aX0 U0 v r j := by
  rw [kp_v4_12 C]; exact x0_eq C v r j
theorem net_14 (v : Fin 2) (r k : Fin 5000) : (U14 (Proc.devRef .tc main_v5) : S2x5000x5000.Idx → EReal) (ix3 v r k) = aNet U0 v r k := by
  rw [kp_v5_14 C]; exact net_4 C v r k
theorem x0_14 (v : Fin 2) (r : Fin 5000) (j : Fin 128) : (U14 (Proc.devRef .tc main_v4) : S2x5000x128.Idx → EReal) (ix3 v r j) = aX0 U0 v r j := by
  rw [kp_v4_14 C]; exact x0_eq C v r j
theorem net_16 (v : Fin 2) (r k : Fin 5000) : (U16 (Proc.devRef .tc main_v5) : S2x5000x5000.Idx → EReal) (ix3 v r k) = aNet U0 v r k := by
  rw [kp_v5_16 C]; exact net_4 C v r k
theorem x0_16 (v : Fin 2) (r : Fin 5000) (j : Fin 128) : (U16 (Proc.devRef .tc main_v4) : S2x5000x128.Idx → EReal) (ix3 v r j) = aX0 U0 v r j := by
  rw [kp_v4_16 C]; exact x0_eq C v r j
theorem net_18 (v : Fin 2) (r k : Fin 5000) : (U18 (Proc.devRef .tc main_v5) : S2x5000x5000.Idx → EReal) (ix3 v r k) = aNet U0 v r k := by
  rw [kp_v5_18 C]; exact net_4 C v r k
theorem x0_18 (v : Fin 2) (r : Fin 5000) (j : Fin 128) : (U18 (Proc.devRef .tc main_v4) : S2x5000x128.Idx → EReal) (ix3 v r j) = aX0 U0 v r j := by
  rw [kp_v4_18 C]; exact x0_eq C v r j
theorem w_4 (v : Fin 2) (q j : Fin 128) : (U4 (Proc.devRef .tc main_v7) : S2x128x128.Idx → EReal) (ix3 v q j) = Cert.Spec.wOf (aWg U0) 0 v q j := by
  rw [C.hh4]; exact (v7_at U3 v q j).trans (by rw [kp_arg6_3 C] <;> rfl)
theorem w_6 (v : Fin 2) (q j : Fin 128) : (U6 (Proc.devRef .tc main_v10) : S2x128x128.Idx → EReal) (ix3 v q j) = Cert.Spec.wOf (aWg U0) 1 v q j := by
  rw [C.hh6]; exact (v10_at U5 v q j).trans (by rw [kp_arg6_5 C] <;> rfl)
theorem w_8 (v : Fin 2) (q j : Fin 128) : (U8 (Proc.devRef .tc main_v13) : S2x128x128.Idx → EReal) (ix3 v q j) = Cert.Spec.wOf (aWg U0) 2 v q j := by
  rw [C.hh8]; exact (v13_at U7 v q j).trans (by rw [kp_arg6_7 C] <;> rfl)
theorem w_10 (v : Fin 2) (q j : Fin 128) : (U10 (Proc.devRef .tc main_v16) : S2x128x128.Idx → EReal) (ix3 v q j) = Cert.Spec.wOf (aWg U0) 3 v q j := by
  rw [C.hh10]; exact (v16_at U9 v q j).trans (by rw [kp_arg6_9 C] <;> rfl)
theorem w_12 (v : Fin 2) (q j : Fin 128) : (U12 (Proc.devRef .tc main_v19) : S2x128x128.Idx → EReal) (ix3 v q j) = Cert.Spec.wOf (aWg U0) 4 v q j := by
  rw [C.hh12]; exact (v19_at U11 v q j).trans (by rw [kp_arg6_11 C] <;> rfl)
theorem w_14 (v : Fin 2) (q j : Fin 128) : (U14 (Proc.devRef .tc main_v22) : S2x128x128.Idx → EReal) (ix3 v q j) = Cert.Spec.wOf (aWg U0) 5 v q j := by
  rw [C.hh14]; exact (v22_at U13 v q j).trans (by rw [kp_arg6_13 C] <;> rfl)
theorem w_16 (v : Fin 2) (q j : Fin 128) : (U16 (Proc.devRef .tc main_v25) : S2x128x128.Idx → EReal) (ix3 v q j) = Cert.Spec.wOf (aWg U0) 6 v q j := by
  rw [C.hh16]; exact (v25_at U15 v q j).trans (by rw [kp_arg6_15 C] <;> rfl)
theorem w_18 (v : Fin 2) (q j : Fin 128) : (U18 (Proc.devRef .tc main_v28) : S2x128x128.Idx → EReal) (ix3 v q j) = Cert.Spec.wOf (aWg U0) 7 v q j := by
  rw [C.hh18]; exact (v28_at U17 v q j).trans (by rw [kp_arg6_17 C] <;> rfl)

/-! ## The eight layers, each from the one before -/
/-- Region 2's output is layer 1 of the model. -/
theorem L1 (v : Fin 2) (r : Fin 5000) (j : Fin 128) :
    (U5 (Proc.devRef .tc main_v8) : S2x5000x128.Idx → EReal) (ix3 v r j) = Cert.Spec.h1 (aNet U0) (aX0 U0) (aWg U0) v r j :=
  (C.o2 v r j).trans (layer_congr _ _ (net_4 C) (x0_4 C) (x0_4 C) (w_4 C) v r j)
theorem hp_6 (v : Fin 2) (r : Fin 5000) (j : Fin 128) :
    (U6 (Proc.devRef .tc main_v8) : S2x5000x128.Idx → EReal) (ix3 v r j) = Cert.Spec.h1 (aNet U0) (aX0 U0) (aWg U0) v r j := by
  rw [s6 C main_v8 (by decide)]; exact L1 C v r j
/-- Region 3's output is layer 2 of the model. -/
theorem L2 (v : Fin 2) (r : Fin 5000) (j : Fin 128) :
    (U7 (Proc.devRef .tc main_v11) : S2x5000x128.Idx → EReal) (ix3 v r j) = Cert.Spec.h2 (aNet U0) (aX0 U0) (aWg U0) v r j :=
  (C.o3 v r j).trans (layer_congr _ _ (net_6 C) (hp_6 C) (x0_6 C) (w_6 C) v r j)
theorem hp_8 (v : Fin 2) (r : Fin 5000) (j : Fin 128) :
    (U8 (Proc.devRef .tc main_v11) : S2x5000x128.Idx → EReal) (ix3 v r j) = Cert.Spec.h2 (aNet U0) (aX0 U0) (aWg U0) v r j := by
  rw [s8 C main_v11 (by decide)]; exact L2 C v r j
/-- Region 4's output is layer 3 of the model. -/
theorem L3 (v : Fin 2) (r : Fin 5000) (j : Fin 128) :
    (U9 (Proc.devRef .tc main_v14) : S2x5000x128.Idx → EReal) (ix3 v r j) = Cert.Spec.h3 (aNet U0) (aX0 U0) (aWg U0) v r j :=
  (C.o4 v r j).trans (layer_congr _ _ (net_8 C) (hp_8 C) (x0_8 C) (w_8 C) v r j)
theorem hp_10 (v : Fin 2) (r : Fin 5000) (j : Fin 128) :
    (U10 (Proc.devRef .tc main_v14) : S2x5000x128.Idx → EReal) (ix3 v r j) = Cert.Spec.h3 (aNet U0) (aX0 U0) (aWg U0) v r j := by
  rw [s10 C main_v14 (by decide)]; exact L3 C v r j
/-- Region 5's output is layer 4 of the model. -/
theorem L4 (v : Fin 2) (r : Fin 5000) (j : Fin 128) :
    (U11 (Proc.devRef .tc main_v17) : S2x5000x128.Idx → EReal) (ix3 v r j) = Cert.Spec.h4 (aNet U0) (aX0 U0) (aWg U0) v r j :=
  (C.o5 v r j).trans (layer_congr _ _ (net_10 C) (hp_10 C) (x0_10 C) (w_10 C) v r j)
theorem hp_12 (v : Fin 2) (r : Fin 5000) (j : Fin 128) :
    (U12 (Proc.devRef .tc main_v17) : S2x5000x128.Idx → EReal) (ix3 v r j) = Cert.Spec.h4 (aNet U0) (aX0 U0) (aWg U0) v r j := by
  rw [s12 C main_v17 (by decide)]; exact L4 C v r j
/-- Region 6's output is layer 5 of the model. -/
theorem L5 (v : Fin 2) (r : Fin 5000) (j : Fin 128) :
    (U13 (Proc.devRef .tc main_v20) : S2x5000x128.Idx → EReal) (ix3 v r j) = Cert.Spec.h5 (aNet U0) (aX0 U0) (aWg U0) v r j :=
  (C.o6 v r j).trans (layer_congr _ _ (net_12 C) (hp_12 C) (x0_12 C) (w_12 C) v r j)
theorem hp_14 (v : Fin 2) (r : Fin 5000) (j : Fin 128) :
    (U14 (Proc.devRef .tc main_v20) : S2x5000x128.Idx → EReal) (ix3 v r j) = Cert.Spec.h5 (aNet U0) (aX0 U0) (aWg U0) v r j := by
  rw [s14 C main_v20 (by decide)]; exact L5 C v r j
/-- Region 7's output is layer 6 of the model. -/
theorem L6 (v : Fin 2) (r : Fin 5000) (j : Fin 128) :
    (U15 (Proc.devRef .tc main_v23) : S2x5000x128.Idx → EReal) (ix3 v r j) = Cert.Spec.h6 (aNet U0) (aX0 U0) (aWg U0) v r j :=
  (C.o7 v r j).trans (layer_congr _ _ (net_14 C) (hp_14 C) (x0_14 C) (w_14 C) v r j)
theorem hp_16 (v : Fin 2) (r : Fin 5000) (j : Fin 128) :
    (U16 (Proc.devRef .tc main_v23) : S2x5000x128.Idx → EReal) (ix3 v r j) = Cert.Spec.h6 (aNet U0) (aX0 U0) (aWg U0) v r j := by
  rw [s16 C main_v23 (by decide)]; exact L6 C v r j
/-- Region 8's output is layer 7 of the model. -/
theorem L7 (v : Fin 2) (r : Fin 5000) (j : Fin 128) :
    (U17 (Proc.devRef .tc main_v26) : S2x5000x128.Idx → EReal) (ix3 v r j) = Cert.Spec.h7 (aNet U0) (aX0 U0) (aWg U0) v r j :=
  (C.o8 v r j).trans (layer_congr _ _ (net_16 C) (hp_16 C) (x0_16 C) (w_16 C) v r j)
theorem hp_18 (v : Fin 2) (r : Fin 5000) (j : Fin 128) :
    (U18 (Proc.devRef .tc main_v26) : S2x5000x128.Idx → EReal) (ix3 v r j) = Cert.Spec.h7 (aNet U0) (aX0 U0) (aWg U0) v r j := by
  rw [s18 C main_v26 (by decide)]; exact L7 C v r j
/-- Region 9's output is layer 8 of the model. -/
theorem L8 (v : Fin 2) (r : Fin 5000) (j : Fin 128) :
    (U19 (Proc.devRef .tc main_v29) : S2x5000x128.Idx → EReal) (ix3 v r j) = Cert.Spec.h8 (aNet U0) (aX0 U0) (aWg U0) v r j :=
  (C.o9 v r j).trans (layer_congr _ _ (net_18 C) (hp_18 C) (x0_18 C) (w_18 C) v r j)

/-! ## The head -/

theorem hid_20 (r : Fin 5000) (q : Fin 256) :
    (U20 (Proc.devRef .tc main_v34) : S5000x256.Idx → EReal) (ix2 r q) = Cert.Spec.hidden (Cert.Spec.h8 (aNet U0) (aX0 U0) (aWg U0)) r q := by
  rw [C.hh20]; exact (v34_at U19 r q).trans (hidden_congr (L8 C) r q)
theorem wc_20 (q : Fin 256) (j : Fin 128) : (U20 (Proc.devRef .tc main_arg7) : S256x128.Idx → EReal) (ix2 q j) = aWc U0 q j := by
  rw [kp_arg7_20 C]
theorem bc_20 (j : Fin 128) : (U20 (Proc.devRef .tc main_v35) : S1x128.Idx → EReal) (ix2 (0 : Fin 1) j) = aBc U0 j := by
  rw [C.hh20]; exact (v35_at U19 0 j).trans (by rw [kp_arg8_19 C])
theorem wo_20 (j : Fin 128) (t : Fin 5000) : (U20 (Proc.devRef .tc main_arg9) : S128x5000.Idx → EReal) (ix2 j t) = aWo U0 j t := by
  rw [kp_arg9_20 C]
theorem bo_20 (t : Fin 5000) : (U20 (Proc.devRef .tc main_v36) : S1x5000.Idx → EReal) (ix2 (0 : Fin 1) t) = aBo U0 t := by
  rw [C.hh20]; exact (v36_at U19 0 t).trans (by rw [kp_arg10_19 C])

/-- The last region's output is the whole model over the launch arguments. -/
theorem model_eq (r t : Fin 5000) :
    (U21 (Proc.devRef .tc main_v37) : S5000x5000.Idx → EReal) (ix2 r t)
      = Cert.Spec.model (aX U0) (aNet U0) (aGam U0) (aBet U0) (aWin U0) (aBin U0) (aWg U0) (aWc U0) (aBc U0) (aWo U0) (aBo U0) r t :=
  (C.o10 r t).trans (pred_congr (hid_20 C) (wc_20 C) (bc_20 C) (wo_20 C) (bo_20 C) r t)

end Walk

/-! ## The same with the hypotheses listed -/

theorem kernel_value (U0 U1 U2 U3 U4 U5 U6 U7 U8 U9 U10 U11 U12 U13 U14 U15 U16 U17 U18 U19 U20 U21 : Valuation τ sig (Elt Ideal))
    (hh1 : U1 = StableHlo.after (hostOps0 (F := Ideal)) U0)
    (hh4 : U4 = StableHlo.after (hostOps2 (F := Ideal)) U3)
    (hh6 : U6 = StableHlo.after (hostOps3 (F := Ideal)) U5)
    (hh8 : U8 = StableHlo.after (hostOps4 (F := Ideal)) U7)
    (hh10 : U10 = StableHlo.after (hostOps5 (F := Ideal)) U9)
    (hh12 : U12 = StableHlo.after (hostOps6 (F := Ideal)) U11)
    (hh14 : U14 = StableHlo.after (hostOps7 (F := Ideal)) U13)
    (hh16 : U16 = StableHlo.after (hostOps8 (F := Ideal)) U15)
    (hh18 : U18 = StableHlo.after (hostOps9 (F := Ideal)) U17)
    (hh20 : U20 = StableHlo.after (hostOps10 (F := Ideal)) U19)
    (k2 : ∀ b : Ref sig .tc, b ≠ main_v3_0 → b ≠ main_v3_1 → U2 (Proc.devRef .tc b) = U1 (Proc.devRef .tc b))
    (k3 : ∀ b : Ref sig .tc, b ≠ main_v4 → U3 (Proc.devRef .tc b) = U2 (Proc.devRef .tc b))
    (k5 : ∀ b : Ref sig .tc, b ≠ main_v8 → U5 (Proc.devRef .tc b) = U4 (Proc.devRef .tc b))
    (k7 : ∀ b : Ref sig .tc, b ≠ main_v11 → U7 (Proc.devRef .tc b) = U6 (Proc.devRef .tc b))
    (k9 : ∀ b : Ref sig .tc, b ≠ main_v14 → U9 (Proc.devRef .tc b) = U8 (Proc.devRef .tc b))
    (k11 : ∀ b : Ref sig .tc, b ≠ main_v17 → U11 (Proc.devRef .tc b) = U10 (Proc.devRef .tc b))
    (k13 : ∀ b : Ref sig .tc, b ≠ main_v20 → U13 (Proc.devRef .tc b) = U12 (Proc.devRef .tc b))
    (k15 : ∀ b : Ref sig .tc, b ≠ main_v23 → U15 (Proc.devRef .tc b) = U14 (Proc.devRef .tc b))
    (k17 : ∀ b : Ref sig .tc, b ≠ main_v26 → U17 (Proc.devRef .tc b) = U16 (Proc.devRef .tc b))
    (k19 : ∀ b : Ref sig .tc, b ≠ main_v29 → U19 (Proc.devRef .tc b) = U18 (Proc.devRef .tc b))
    (k21 : ∀ b : Ref sig .tc, b ≠ main_v37 → U21 (Proc.devRef .tc b) = U20 (Proc.devRef .tc b))
    (o0a : ∀ (v : Fin 2) (k : Fin 5000), (U2 (Proc.devRef .tc main_v3_0) : S2x1x5000.Idx → EReal) (ix3 v (0 : Fin 1) k)
      = Cert.Spec.colSum (fun v r k => (U1 (Proc.devRef .tc main_arg0) : S2x5000x5000.Idx → EReal) (ix3 v r k)) v k)
    (o0b : ∀ (v : Fin 2) (k : Fin 5000), (U2 (Proc.devRef .tc main_v3_1) : S2x1x5000.Idx → EReal) (ix3 v (0 : Fin 1) k)
      = Cert.Spec.colSq (fun v r k => (U1 (Proc.devRef .tc main_arg0) : S2x5000x5000.Idx → EReal) (ix3 v r k)) v k)
    (o1 : ∀ (v : Fin 2) (r : Fin 5000) (j : Fin 128), (U3 (Proc.devRef .tc main_v4) : S2x5000x128.Idx → EReal) (ix3 v r j)
      = Cert.Spec.x0 (fun v k => (U2 (Proc.devRef .tc main_v3_0) : S2x1x5000.Idx → EReal) (ix3 v (0 : Fin 1) k)) (fun v k => (U2 (Proc.devRef .tc main_v3_1) : S2x1x5000.Idx → EReal) (ix3 v (0 : Fin 1) k))
          (fun v r k => (U2 (Proc.devRef .tc main_arg0) : S2x5000x5000.Idx → EReal) (ix3 v r k)) (fun v k => (U2 (Proc.devRef .tc main_v0) : S2x1x5000.Idx → EReal) (ix3 v (0 : Fin 1) k))
          (fun v k => (U2 (Proc.devRef .tc main_v1) : S2x1x5000.Idx → EReal) (ix3 v (0 : Fin 1) k)) (fun v k j => (U2 (Proc.devRef .tc main_arg4) : S2x5000x128.Idx → EReal) (ix3 v k j))
          (fun v j => (U2 (Proc.devRef .tc main_v2) : S2x1x128.Idx → EReal) (ix3 v (0 : Fin 1) j)) v r j)
    (o2 : ∀ (v : Fin 2) (r : Fin 5000) (j : Fin 128), (U5 (Proc.devRef .tc main_v8) : S2x5000x128.Idx → EReal) (ix3 v r j)
      = Cert.Spec.layer (fun v r k => (U4 (Proc.devRef .tc main_v5) : S2x5000x5000.Idx → EReal) (ix3 v r k)) (fun v k j => (U4 (Proc.devRef .tc main_v4) : S2x5000x128.Idx → EReal) (ix3 v k j))
          (fun v r j => (U4 (Proc.devRef .tc main_v4) : S2x5000x128.Idx → EReal) (ix3 v r j)) (fun v q j => (U4 (Proc.devRef .tc main_v7) : S2x128x128.Idx → EReal) (ix3 v q j))
          0x3F183370#32 0x3ECF991F#32 v r j)
    (o3 : ∀ (v : Fin 2) (r : Fin 5000) (j : Fin 128), (U7 (Proc.devRef .tc main_v11) : S2x5000x128.Idx → EReal) (ix3 v r j)
      = Cert.Spec.layer (fun v r k => (U6 (Proc.devRef .tc main_v5) : S2x5000x5000.Idx → EReal) (ix3 v r k)) (fun v k j => (U6 (Proc.devRef .tc main_v8) : S2x5000x128.Idx → EReal) (ix3 v k j))
          (fun v r j => (U6 (Proc.devRef .tc main_v4) : S2x5000x128.Idx → EReal) (ix3 v r j)) (fun v q j => (U6 (Proc.devRef .tc main_v10) : S2x128x128.Idx → EReal) (ix3 v q j))
          0x3F46E010#32 0x3E647FBE#32 v r j)
    (o4 : ∀ (v : Fin 2) (r : Fin 5000) (j : Fin 128), (U9 (Proc.devRef .tc main_v14) : S2x5000x128.Idx → EReal) (ix3 v r j)
      = Cert.Spec.layer (fun v r k => (U8 (Proc.devRef .tc main_v5) : S2x5000x5000.Idx → EReal) (ix3 v r k)) (fun v k j => (U8 (Proc.devRef .tc main_v11) : S2x5000x128.Idx → EReal) (ix3 v k j))
          (fun v r j => (U8 (Proc.devRef .tc main_v4) : S2x5000x128.Idx → EReal) (ix3 v r j)) (fun v q j => (U8 (Proc.devRef .tc main_v13) : S2x128x128.Idx → EReal) (ix3 v q j))
          0x3F588995#32 0x3E1DD9AD#32 v r j)
    (o5 : ∀ (v : Fin 2) (r : Fin 5000) (j : Fin 128), (U11 (Proc.devRef .tc main_v17) : S2x5000x128.Idx → EReal) (ix3 v r j)
      = Cert.Spec.layer (fun v r k => (U10 (Proc.devRef .tc main_v5) : S2x5000x5000.Idx → EReal) (ix3 v r k)) (fun v k j => (U10 (Proc.devRef .tc main_v14) : S2x5000x128.Idx → EReal) (ix3 v k j))
          (fun v r j => (U10 (Proc.devRef .tc main_v4) : S2x5000x128.Idx → EReal) (ix3 v r j)) (fun v q j => (U10 (Proc.devRef .tc main_v16) : S2x128x128.Idx → EReal) (ix3 v q j))
          0x3F61D8F9#32 0x3DF1383B#32 v r j)
    (o6 : ∀ (v : Fin 2) (r : Fin 5000) (j : Fin 128), (U13 (Proc.devRef .tc main_v20) : S2x5000x128.Idx → EReal) (ix3 v r j)
      = Cert.Spec.layer (fun v r k => (U12 (Proc.devRef .tc main_v5) : S2x5000x5000.Idx → EReal) (ix3 v r k)) (fun v k j => (U12 (Proc.devRef .tc main_v17) : S2x5000x128.Idx → EReal) (ix3 v k j))
          (fun v r j => (U12 (Proc.devRef .tc main_v4) : S2x5000x128.Idx → EReal) (ix3 v r j)) (fun v q j => (U12 (Proc.devRef .tc main_v19) : S2x128x128.Idx → EReal) (ix3 v q j))
          0x3F6799C1#32 0x3DC331FC#32 v r j)
    (o7 : ∀ (v : Fin 2) (r : Fin 5000) (j : Fin 128), (U15 (Proc.devRef .tc main_v23) : S2x5000x128.Idx → EReal) (ix3 v r j)
      = Cert.Spec.layer (fun v r k => (U14 (Proc.devRef .tc main_v5) : S2x5000x5000.Idx → EReal) (ix3 v r k)) (fun v k j => (U14 (Proc.devRef .tc main_v20) : S2x5000x128.Idx → EReal) (ix3 v k j))
          (fun v r j => (U14 (Proc.devRef .tc main_v4) : S2x5000x128.Idx → EReal) (ix3 v r j)) (fun v q j => (U14 (Proc.devRef .tc main_v22) : S2x128x128.Idx → EReal) (ix3 v q j))
          0x3F6B8252#32 0x3DA3ED6E#32 v r j)
    (o8 : ∀ (v : Fin 2) (r : Fin 5000) (j : Fin 128), (U17 (Proc.devRef .tc main_v26) : S2x5000x128.Idx → EReal) (ix3 v r j)
      = Cert.Spec.layer (fun v r k => (U16 (Proc.devRef .tc main_v5) : S2x5000x5000.Idx → EReal) (ix3 v r k)) (fun v k j => (U16 (Proc.devRef .tc main_v23) : S2x5000x128.Idx → EReal) (ix3 v k j))
          (fun v r j => (U16 (Proc.devRef .tc main_v4) : S2x5000x128.Idx → EReal) (ix3 v r j)) (fun v q j => (U16 (Proc.devRef .tc main_v25) : S2x128x128.Idx → EReal) (ix3 v q j))
          0x3F6E567C#32 0x3D8D4C22#32 v r j)
    (o9 : ∀ (v : Fin 2) (r : Fin 5000) (j : Fin 128), (U19 (Proc.devRef .tc main_v29) : S2x5000x128.Idx → EReal) (ix3 v r j)
      = Cert.Spec.layer (fun v r k => (U18 (Proc.devRef .tc main_v5) : S2x5000x5000.Idx → EReal) (ix3 v r k)) (fun v k j => (U18 (Proc.devRef .tc main_v26) : S2x5000x128.Idx → EReal) (ix3 v k j))
          (fun v r j => (U18 (Proc.devRef .tc main_v4) : S2x5000x128.Idx → EReal) (ix3 v r j)) (fun v q j => (U18 (Proc.devRef .tc main_v28) : S2x128x128.Idx → EReal) (ix3 v q j))
          0x3F707AE8#32 0x3D785186#32 v r j)
    (o10 : ∀ (r t : Fin 5000), (U21 (Proc.devRef .tc main_v37) : S5000x5000.Idx → EReal) (ix2 r t)
      = Cert.Spec.pred (fun r q => (U20 (Proc.devRef .tc main_v34) : S5000x256.Idx → EReal) (ix2 r q)) (fun q j => (U20 (Proc.devRef .tc main_arg7) : S256x128.Idx → EReal) (ix2 q j))
          (fun j => (U20 (Proc.devRef .tc main_v35) : S1x128.Idx → EReal) (ix2 (0 : Fin 1) j)) (fun j t => (U20 (Proc.devRef .tc main_arg9) : S128x5000.Idx → EReal) (ix2 j t))
          (fun t => (U20 (Proc.devRef .tc main_v36) : S1x5000.Idx → EReal) (ix2 (0 : Fin 1) t)) r t) :
    ∀ r t : Fin 5000, (U21 (Proc.devRef .tc main_v37) : S5000x5000.Idx → EReal) (ix2 r t)
      = Cert.Spec.model (fun v r k => (U0 (Proc.devRef .tc main_arg0) : S2x5000x5000.Idx → EReal) (ix3 v r k)) (fun v r k => (U0 (Proc.devRef .tc main_arg1) : S2x5000x5000.Idx → EReal) (ix3 v r k))
          (fun v k => (U0 (Proc.devRef .tc main_arg2) : S2x5000.Idx → EReal) (ix2 v k)) (fun v k => (U0 (Proc.devRef .tc main_arg3) : S2x5000.Idx → EReal) (ix2 v k))
          (fun v k j => (U0 (Proc.devRef .tc main_arg4) : S2x5000x128.Idx → EReal) (ix3 v k j)) (fun v j => (U0 (Proc.devRef .tc main_arg5) : S2x128.Idx → EReal) (ix2 v j))
          (fun v l q j => (U0 (Proc.devRef .tc main_arg6) : S2x8x128x128.Idx → EReal) (ix4 v l q j)) (fun q j => (U0 (Proc.devRef .tc main_arg7) : S256x128.Idx → EReal) (ix2 q j))
          (fun j => (U0 (Proc.devRef .tc main_arg8) : S128.Idx → EReal) (ix1 j)) (fun j t => (U0 (Proc.devRef .tc main_arg9) : S128x5000.Idx → EReal) (ix2 j t))
          (fun t => (U0 (Proc.devRef .tc main_arg10) : S5000.Idx → EReal) (ix1 t)) r t :=
  model_eq (Chain.mk hh1 hh4 hh6 hh8 hh10 hh12 hh14 hh16 hh18 hh20 k2 k3 k5 k7 k9 k11 k13 k15 k17 k19 k21 o0a o0b o1 o2 o3 o4 o5 o6 o7 o8 o9 o10)

end Cert.KernelIdeal.HandChain

end
-- ==== Proof.KI.Val0.lean ====
/-
  Region 0 (the column statistics), the value at the extended reals: after the region the two output arrays hold,
  at view `v` and column `k`, the sum over all 5000 rows of the entries (of their squares) of the input array —
  the five row blocks' lane sums added in the grid's order, regrouped as one sum.
-/
import proofs.«129426_g120259084709_cont_main3_741_6_alg».proof.Proof.KI.Reg0
import proofs.«129426_g120259084709_cont_main3_741_6_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.HandVal0

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## The payloads at an index -/

/-- The block's column sums: column `k` is the sum of the block's 1000 rows there. -/
theorem pay2_apply (x0 : Vec Ideal S1x1000x5000 .f32) (k : Fin 5000) :
    k0_pay2 x0 (ix2 0 k) = ∑ r : Fin 1000, x0 (ix3 0 r k) := by
  unfold k0_pay2
  refine (shapeCast_apply _ _ (ix2 (0 : Fin 1) k) (ix1 k) ?_).trans ?_
  · rw [Shape.rowMajor_val_one, Shape.rowMajor_val_two]
    show k.val = 0 * 5000 + k.val
    omega
  refine (Ideal.multiReduction_add_single (φ := .f32) _ 0x00000000#32 reduces_S1000x5000_S5000 (.inl rfl) rfl (ix1 k)).trans ?_
  show ∑ r : Fin 1000, _ = _
  refine Finset.sum_congr rfl fun r _ => ?_
  unfold k0_pay1
  refine shapeCast_apply _ _ _ (ix3 (0 : Fin 1) r k) ?_
  rw [Shape.rowMajor_val_three, Shape.rowMajor_val_two]
  show (0 * 1000 + r.val) * 5000 + k.val = r.val * 5000 + k.val
  omega

/-- The block's column sums of squares. -/
theorem pay3_apply (x0 : Vec Ideal S1x1000x5000 .f32) (k : Fin 5000) :
    k0_pay3 x0 (ix2 0 k) = ∑ r : Fin 1000, x0 (ix3 0 r k) * x0 (ix3 0 r k) := by
  unfold k0_pay3
  refine (shapeCast_apply _ _ (ix2 (0 : Fin 1) k) (ix1 k) ?_).trans ?_
  · rw [Shape.rowMajor_val_one, Shape.rowMajor_val_two]
    show k.val = 0 * 5000 + k.val
    omega
  refine (Ideal.multiReduction_add_single (φ := .f32) _ 0x00000000#32 reduces_S1000x5000_S5000 (.inl rfl) rfl (ix1 k)).trans ?_
  show ∑ r : Fin 1000, _ = _
  refine Finset.sum_congr rfl fun r _ => ?_
  have e : k0_pay1 x0 (reduces_S1000x5000_S5000.lift (ix1 k) r) = x0 (ix3 0 r k) := by
    unfold k0_pay1
    refine shapeCast_apply _ _ _ (ix3 (0 : Fin 1) r k) ?_
    rw [Shape.rowMajor_val_three, Shape.rowMajor_val_two]
    show (0 * 1000 + r.val) * 5000 + k.val = r.val * 5000 + k.val
    omega
  exact (mulf_apply _ _ _).trans (by rw [e])

theorem pay4_apply (x0 : Vec Ideal S1x1000x5000 .f32) (k : Fin 5000) :
    k0_pay4 x0 (ix3 0 0 k) = ∑ r : Fin 1000, x0 (ix3 0 r k) := by
  unfold k0_pay4
  refine (shapeCast_apply _ _ (ix3 (0 : Fin 1) (0 : Fin 1) k) (ix2 (0 : Fin 1) k) ?_).trans (pay2_apply x0 k)
  rw [Shape.rowMajor_val_three, Shape.rowMajor_val_two]
  show 0 * 5000 + k.val = (0 * 1 + 0) * 5000 + k.val
  omega

theorem pay5_apply (x0 : Vec Ideal S1x1000x5000 .f32) (k : Fin 5000) :
    k0_pay5 x0 (ix3 0 0 k) = ∑ r : Fin 1000, x0 (ix3 0 r k) * x0 (ix3 0 r k) := by
  unfold k0_pay5
  refine (shapeCast_apply _ _ (ix3 (0 : Fin 1) (0 : Fin 1) k) (ix2 (0 : Fin 1) k) ?_).trans (pay3_apply x0 k)
  rw [Shape.rowMajor_val_three, Shape.rowMajor_val_two]
  show 0 * 5000 + k.val = (0 * 1 + 0) * 5000 + k.val
  omega

/-- A later row block adds its column sums to the running ones. -/
theorem pay6_apply (x0 : Vec Ideal S1x1000x5000 .f32) (xo : Vec Ideal S1x1x5000 .f32) (k : Fin 5000) :
    k0_pay6 x0 xo (ix3 0 0 k) = xo (ix3 0 0 k) + ∑ r : Fin 1000, x0 (ix3 0 r k) := by
  unfold k0_pay6
  refine (shapeCast_apply _ _ (ix3 (0 : Fin 1) (0 : Fin 1) k) (ix2 (0 : Fin 1) k) ?_).trans ?_
  · rw [Shape.rowMajor_val_three, Shape.rowMajor_val_two]
    show 0 * 5000 + k.val = (0 * 1 + 0) * 5000 + k.val
    omega
  refine (addf_apply _ _ _).trans ?_
  refine congrArg₂ (· + ·) ?_ (pay2_apply x0 k)
  refine shapeCast_apply _ _ _ (ix3 (0 : Fin 1) (0 : Fin 1) k) ?_
  rw [Shape.rowMajor_val_three, Shape.rowMajor_val_two]
  show (0 * 1 + 0) * 5000 + k.val = 0 * 5000 + k.val
  omega

theorem pay7_apply (x0 : Vec Ideal S1x1000x5000 .f32) (xo : Vec Ideal S1x1x5000 .f32) (k : Fin 5000) :
    k0_pay7 x0 xo (ix3 0 0 k) = xo (ix3 0 0 k) + ∑ r : Fin 1000, x0 (ix3 0 r k) * x0 (ix3 0 r k) := by
  unfold k0_pay7
  refine (shapeCast_apply _ _ (ix3 (0 : Fin 1) (0 : Fin 1) k) (ix2 (0 : Fin 1) k) ?_).trans ?_
  · rw [Shape.rowMajor_val_three, Shape.rowMajor_val_two]
    show 0 * 5000 + k.val = (0 * 1 + 0) * 5000 + k.val
    omega
  refine (addf_apply _ _ _).trans ?_
  refine congrArg₂ (· + ·) ?_ (pay3_apply x0 k)
  refine shapeCast_apply _ _ _ (ix3 (0 : Fin 1) (0 : Fin 1) k) ?_
  rw [Shape.rowMajor_val_three, Shape.rowMajor_val_two]
  show (0 * 1 + 0) * 5000 + k.val = 0 * 5000 + k.val
  omega

/-! ## The input block at coordinates -/

section Value
variable (V : (c : Dev nD) → (b : Ref sig .tc) → Buf (Elt Ideal) ((c : Thread nD τ).loc b))

/-- The input array as the region finds it, read at coordinates. -/
abbrev X (c : Dev nD) (v : Fin 2) (r k : Fin 5000) : EReal := (V c main_arg0 : S2x5000x5000.Idx → EReal) (ix3 v r k)

theorem index0_0 : ∀ t : Fin cfg0.N, win0_0.index t 0 = t.val / 5 ∧ win0_0.index t 1 = t.val % 5 ∧ win0_0.index t 2 = 0 :=
  (by decide +kernel : ∀ t : Fin grid0.N, win0_0.index t 0 = t.val / 5 ∧ win0_0.index t 1 = t.val % 5 ∧ win0_0.index t 2 = 0)
theorem index0_1 : ∀ t : Fin cfg0.N, win0_1.index t 0 = t.val / 5 ∧ win0_1.index t 1 = 0 ∧ win0_1.index t 2 = 0 :=
  (by decide +kernel : ∀ t : Fin grid0.N, win0_1.index t 0 = t.val / 5 ∧ win0_1.index t 1 = 0 ∧ win0_1.index t 2 = 0)
theorem index0_2 : ∀ t : Fin cfg0.N, win0_2.index t 0 = t.val / 5 ∧ win0_2.index t 1 = 0 ∧ win0_2.index t 2 = 0 :=
  (by decide +kernel : ∀ t : Fin grid0.N, win0_2.index t 0 = t.val / 5 ∧ win0_2.index t 1 = 0 ∧ win0_2.index t 2 = 0)

/-- The input window's block at point `t` is rows `1000 (t mod 5) …` of view `t / 5`. -/
theorem iblk_apply (c : Dev nD) (t : Fin cfg0.N) (x : S1x1000x5000.Idx) (k : S2x5000x5000.Idx)
    (hk0 : (k 0).val = t.val / 5 + (x 0).val) (hk1 : (k 1).val = 1000 * (t.val % 5) + (x 1).val) (hk2 : (k 2).val = (x 2).val) :
    (iblk0 V c 0 t : Vec Ideal S1x1000x5000 .f32) x = (V c main_arg0 : S2x5000x5000.Idx → EReal) k := by
  have hi := index0_0 t
  unfold iblk0
  rw [View.read_apply]
  show V c main_arg0 _ = V c main_arg0 _
  congr 1
  funext a
  apply Fin.ext
  match a with
  | ⟨0, _⟩ => show win0_0.index t 0 * 1 + 1 * (x 0).val = (k 0).val; rw [hi.1, hk0]; omega
  | ⟨1, _⟩ => show win0_0.index t 1 * 1000 + 1 * (x 1).val = (k 1).val; rw [hi.2.1, hk1]; omega
  | ⟨2, _⟩ => show win0_0.index t 2 * 5000 + 1 * (x 2).val = (k 2).val; rw [hi.2.2, hk2]; omega

/-! ## The fold over a view's five row blocks -/

/-- Row block `s` of view `v` summed over its 1000 rows at column `k`, and the same of the squares. -/
def blkSum (c : Dev nD) (v : Fin 2) (s : ℕ) (k : Fin 5000) : EReal :=
  ∑ b : Fin 1000, X V c v ⟨1000 * (s % 5) + b.val, by have := b.isLt; omega⟩ k
def blkSq (c : Dev nD) (v : Fin 2) (s : ℕ) (k : Fin 5000) : EReal :=
  ∑ b : Fin 1000, X V c v ⟨1000 * (s % 5) + b.val, by have := b.isLt; omega⟩ k * X V c v ⟨1000 * (s % 5) + b.val, by have := b.isLt; omega⟩ k

theorem blk_entry (c : Dev nD) (v : Fin 2) (j : ℕ) (hj : j < 5) (h : 5 * v.val + j < cfg0.N) (k : Fin 5000) (r : Fin 1000) :
    (iblk0 V c 0 ⟨5 * v.val + j, h⟩ : Vec Ideal S1x1000x5000 .f32) (ix3 0 r k)
      = X V c v ⟨1000 * (j % 5) + r.val, by have := r.isLt; omega⟩ k := by
  refine iblk_apply V c ⟨5 * v.val + j, h⟩ (ix3 0 r k) (ix3 v ⟨1000 * (j % 5) + r.val, by have := r.isLt; omega⟩ k) ?_ ?_ ?_
  · show v.val = (5 * v.val + j) / 5 + 0; omega
  · show 1000 * (j % 5) + r.val = 1000 * ((5 * v.val + j) % 5) + r.val; omega
  · rfl

theorem sumAt0_congr (c : Dev nD) {n n' : ℕ} (e : n = n') (h : n < cfg0.N) (h' : n' < cfg0.N) :
    sumAt0 V c n h = sumAt0 V c n' h' := by subst e; rfl
theorem sqAt0_congr (c : Dev nD) {n n' : ℕ} (e : n = n') (h : n < cfg0.N) (h' : n' < cfg0.N) :
    sqAt0 V c n h = sqAt0 V c n' h' := by subst e; rfl

/-- After row block `j` of view `v` the first output buffer holds the column sums of the view's row blocks `0 … j`. -/
theorem sumAt0_fold (c : Dev nD) (v : Fin 2) : ∀ (j : ℕ) (hj : j < 5) (h : 5 * v.val + j < cfg0.N) (k : Fin 5000),
    sumAt0 V c (5 * v.val + j) h (ix3 0 0 k) = ∑ s ∈ Finset.range (j + 1), blkSum V c v s k
  | 0, hj, h, k => by
    rw [Finset.sum_range_one]
    have hA := sumAt0_A V c ⟨5 * v.val + 0, h⟩ (by show (5 * v.val + 0) % 5 = 0; omega)
    refine (congrFun hA (ix3 0 0 k)).trans ?_
    refine (pay4_apply (iblk0 V c 0 ⟨5 * v.val + 0, h⟩) k).trans ?_
    exact Finset.sum_congr rfl fun r _ => blk_entry V c v 0 hj h k r
  | j + 1, hj, h, k => by
    rw [Finset.sum_range_succ]
    have hB := sumAt0_B V c ⟨5 * v.val + (j + 1), h⟩ (by show ¬(5 * v.val + (j + 1)) % 5 = 0; omega)
    refine (congrFun hB (ix3 0 0 k)).trans ?_
    refine (pay6_apply (iblk0 V c 0 ⟨5 * v.val + (j + 1), h⟩) _ k).trans ?_
    refine congrArg₂ (· + ·) ?_ (Finset.sum_congr rfl fun r _ => blk_entry V c v (j + 1) hj h k r)
    exact (congrFun (sumAt0_congr V c (by show 5 * v.val + (j + 1) - 1 = 5 * v.val + j; omega) _ (by omega)) _).trans
      (sumAt0_fold c v j (by omega) (by omega) k)

theorem sqAt0_fold (c : Dev nD) (v : Fin 2) : ∀ (j : ℕ) (hj : j < 5) (h : 5 * v.val + j < cfg0.N) (k : Fin 5000),
    sqAt0 V c (5 * v.val + j) h (ix3 0 0 k) = ∑ s ∈ Finset.range (j + 1), blkSq V c v s k
  | 0, hj, h, k => by
    rw [Finset.sum_range_one]
    have hA := sqAt0_A V c ⟨5 * v.val + 0, h⟩ (by show (5 * v.val + 0) % 5 = 0; omega)
    refine (congrFun hA (ix3 0 0 k)).trans ?_
    refine (pay5_apply (iblk0 V c 0 ⟨5 * v.val + 0, h⟩) k).trans ?_
    exact Finset.sum_congr rfl fun r _ => by rw [blk_entry V c v 0 hj h k r]
  | j + 1, hj, h, k => by
    rw [Finset.sum_range_succ]
    have hB := sqAt0_B V c ⟨5 * v.val + (j + 1), h⟩ (by show ¬(5 * v.val + (j + 1)) % 5 = 0; omega)
    refine (congrFun hB (ix3 0 0 k)).trans ?_
    refine (pay7_apply (iblk0 V c 0 ⟨5 * v.val + (j + 1), h⟩) _ k).trans ?_
    refine congrArg₂ (· + ·) ?_ (Finset.sum_congr rfl fun r _ => by rw [blk_entry V c v (j + 1) hj h k r])
    exact (congrFun (sqAt0_congr V c (by show 5 * v.val + (j + 1) - 1 = 5 * v.val + j; omega) _ (by omega)) _).trans
      (sqAt0_fold c v j (by omega) (by omega) k)

/-- Five blocks of 1000 rows are the 5000 rows. -/
theorem regroup (f : Fin 5000 → EReal) :
    ∑ s ∈ Finset.range 5, ∑ b : Fin 1000, f ⟨1000 * (s % 5) + b.val, by have := b.isLt; omega⟩ = ∑ r : Fin 5000, f r := by
  rw [Finset.sum_range (fun s => ∑ b : Fin 1000, f ⟨1000 * (s % 5) + b.val, by have := b.isLt; omega⟩)]
  rw [← Equiv.sum_comp (finProdFinEquiv : Fin 5 × Fin 1000 ≃ Fin 5000) f, Fintype.sum_prod_type]
  refine Finset.sum_congr rfl fun a _ => Finset.sum_congr rfl fun b _ => congrArg f (Fin.ext ?_)
  show 1000 * (a.val % 5) + b.val = b.val + 1000 * a.val
  have := a.isLt; omega

/-! ## The two output arrays after the region -/

/-- What the two output arrays end holding. -/
def G1 (c : Dev nD) : S2x1x5000.Idx → EReal := fun i => Cert.Spec.colSum (X V c) (i 0) (i 2)
def G2 (c : Dev nD) : S2x1x5000.Idx → EReal := fun i => Cert.Spec.colSq (X V c) (i 0) (i 2)

theorem N0 : cfg0.N = 10 := N_0

/-- At the last row block of a view the first output buffer holds the view's column sums. -/
theorem sum_last (c : Dev nD) (t : Fin cfg0.N) (h4 : t.val % 5 = 4) (y : S1x1x5000.Idx) (i : S2x1x5000.Idx)
    (hi0 : (i 0).val = t.val / 5) (hi2 : (i 2).val = (y 2).val) :
    sumAt0 V c t.val t.isLt y = G1 V c i := by
  have hN : t.val < 10 := lt_of_lt_of_eq t.isLt N0
  have h0 : (y 0).val < 1 := (y 0).isLt
  have h1 : (y 1).val < 1 := (y 1).isLt
  have hy : y = ix3 0 0 (y 2) := by
    funext d
    match d with
    | ⟨0, _⟩ => exact Fin.ext (by show (y 0).val = 0; omega)
    | ⟨1, _⟩ => exact Fin.ext (by show (y 1).val = 0; omega)
    | ⟨2, _⟩ => rfl
  have hv : t.val / 5 < 2 := by omega
  have e := sumAt0_fold V c ⟨t.val / 5, hv⟩ 4 (by omega) (lt_of_lt_of_eq (by show 5 * (t.val / 5) + 4 < 10; omega) N0.symm) (y 2)
  rw [hy]
  refine (congrFun (sumAt0_congr V c (show t.val = 5 * (t.val / 5) + 4 by omega) _ _) _).trans (e.trans ?_)
  unfold G1 Cert.Spec.colSum blkSum
  refine (regroup (fun r => X V c ⟨t.val / 5, hv⟩ r (y 2))).trans ?_
  have e0 : (⟨t.val / 5, hv⟩ : Fin 2) = i 0 := Fin.ext hi0.symm
  have e2 : y 2 = i 2 := Fin.ext hi2.symm
  rw [e0, e2]

theorem sq_last (c : Dev nD) (t : Fin cfg0.N) (h4 : t.val % 5 = 4) (y : S1x1x5000.Idx) (i : S2x1x5000.Idx)
    (hi0 : (i 0).val = t.val / 5) (hi2 : (i 2).val = (y 2).val) :
    sqAt0 V c t.val t.isLt y = G2 V c i := by
  have hN : t.val < 10 := lt_of_lt_of_eq t.isLt N0
  have h0 : (y 0).val < 1 := (y 0).isLt
  have h1 : (y 1).val < 1 := (y 1).isLt
  have hy : y = ix3 0 0 (y 2) := by
    funext d
    match d with
    | ⟨0, _⟩ => exact Fin.ext (by show (y 0).val = 0; omega)
    | ⟨1, _⟩ => exact Fin.ext (by show (y 1).val = 0; omega)
    | ⟨2, _⟩ => rfl
  have hv : t.val / 5 < 2 := by omega
  have e := sqAt0_fold V c ⟨t.val / 5, hv⟩ 4 (by omega) (lt_of_lt_of_eq (by show 5 * (t.val / 5) + 4 < 10; omega) N0.symm) (y 2)
  rw [hy]
  refine (congrFun (sqAt0_congr V c (show t.val = 5 * (t.val / 5) + 4 by omega) _ _) _).trans (e.trans ?_)
  unfold G2 Cert.Spec.colSq blkSq
  refine (regroup (fun r => X V c ⟨t.val / 5, hv⟩ r (y 2) * X V c ⟨t.val / 5, hv⟩ r (y 2))).trans ?_
  have e0 : (⟨t.val / 5, hv⟩ : Fin 2) = i 0 := Fin.ext hi0.symm
  have e2 : y 2 = i 2 := Fin.ext hi2.symm
  rw [e0, e2]

end Value

/-! ## The write-backs and the arrays -/

section Final
variable (V : (c : Dev nD) → (b : Ref sig .tc) → Buf (Elt Ideal) ((c : Thread nD τ).loc b))

/-- The write-back at the last row block of a view writes the view's column sums: its block of `G1`. -/
theorem flushed1_eq (c : Dev nD) (t : Fin cfg0.N) (hf : (cfg0.win 1).flush t = true) :
    (dat0 V c).flushed 1 t = ((cfg0.win 1).blk t).view.read (Elt Ideal) (G1 V c) := by
  have h4 : t.val % 5 = 4 := (flush0_1 t).mp hf
  have hi := index0_1 t
  show (cfg0.win 1).cut (grid0.coords t) ((dat0 V c).after 1 t) = _
  rw [after0_1]
  funext y
  rw [View.read_apply]
  have h0 : (y 0).val < 1 := (y 0).isLt
  refine sum_last V c t h4 ((cfg0.win 1).xinj (grid0.coords t) y) (((cfg0.win 1).blk t).view.emb y) ?_ ?_
  · show win0_1.index t 0 * 1 + 1 * (y 0).val = t.val / 5
    rw [hi.1]; omega
  · show win0_1.index t 2 * 5000 + 1 * (y 2).val = (y 2).val
    rw [hi.2.2]; omega

theorem flushed2_eq (c : Dev nD) (t : Fin cfg0.N) (hf : (cfg0.win 2).flush t = true) :
    (dat0 V c).flushed 2 t = ((cfg0.win 2).blk t).view.read (Elt Ideal) (G2 V c) := by
  have h4 : t.val % 5 = 4 := (flush0_2 t).mp hf
  have hi := index0_2 t
  show (cfg0.win 2).cut (grid0.coords t) ((dat0 V c).after 2 t) = _
  rw [after0_2]
  funext y
  rw [View.read_apply]
  have h0 : (y 0).val < 1 := (y 0).isLt
  refine sq_last V c t h4 ((cfg0.win 2).xinj (grid0.coords t) y) (((cfg0.win 2).blk t).view.emb y) ?_ ?_
  · show win0_2.index t 0 * 1 + 1 * (y 0).val = t.val / 5
    rw [hi.1]; omega
  · show win0_2.index t 2 * 5000 + 1 * (y 2).val = (y 2).val
    rw [hi.2.2]; omega

/-- Every entry of an output array lies in the block its view's last row block writes back. -/
theorem cover1 (i : S2x1x5000.Idx) : ∃ t : Fin cfg0.N, (cfg0.win 1).flush t = true ∧ i ∈ ((cfg0.win 1).blk t).view.set := by
  have h0 : (i 0).val < 2 := (i 0).isLt
  have h1 : (i 1).val < 1 := (i 1).isLt
  have h2 : (i 2).val < 5000 := (i 2).isLt
  have hb : 5 * (i 0).val + 4 < cfg0.N := lt_of_lt_of_eq (by omega) N0.symm
  have hi := index0_1 ⟨5 * (i 0).val + 4, hb⟩
  have ht : (5 * (i 0).val + 4) / 5 = (i 0).val := by omega
  refine ⟨⟨5 * (i 0).val + 4, hb⟩, (flush0_1 _).mpr (by show (5 * (i 0).val + 4) % 5 = 4; omega), ?_⟩
  show i ∈ ((View.whole main_v3_0).slice (win0_1.rect ⟨5 * (i 0).val + 4, hb⟩)).set
  rw [View.set_slice_whole, Rect.mem_set_unit]
  intro a
  match a with
  | ⟨0, _⟩ =>
    show win0_1.index ⟨5 * (i 0).val + 4, hb⟩ 0 * 1 ≤ (i 0 : Nat) ∧ (i 0 : Nat) < win0_1.index ⟨5 * (i 0).val + 4, hb⟩ 0 * 1 + 1
    rw [hi.1]; show (5 * (i 0).val + 4) / 5 * 1 ≤ (i 0).val ∧ (i 0).val < (5 * (i 0).val + 4) / 5 * 1 + 1; omega
  | ⟨1, _⟩ =>
    show win0_1.index ⟨5 * (i 0).val + 4, hb⟩ 1 * 1 ≤ (i 1 : Nat) ∧ (i 1 : Nat) < win0_1.index ⟨5 * (i 0).val + 4, hb⟩ 1 * 1 + 1
    rw [hi.2.1]; omega
  | ⟨2, _⟩ =>
    show win0_1.index ⟨5 * (i 0).val + 4, hb⟩ 2 * 5000 ≤ (i 2 : Nat) ∧ (i 2 : Nat) < win0_1.index ⟨5 * (i 0).val + 4, hb⟩ 2 * 5000 + 5000
    rw [hi.2.2]; omega

theorem cover2 (i : S2x1x5000.Idx) : ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 5000 := (i 2).isLt
  have hb : 5 * (i 0).val + 4 < cfg0.N := lt_of_lt_of_eq (by omega) N0.symm
  have hi := index0_2 ⟨5 * (i 0).val + 4, hb⟩
  have ht : (5 * (i 0).val + 4) / 5 = (i 0).val := by omega
  refine ⟨⟨5 * (i 0).val + 4, hb⟩, (flush0_2 _).mpr (by show (5 * (i 0).val + 4) % 5 = 4; omega), ?_⟩
  show i ∈ ((View.whole main_v3_1).slice (win0_2.rect ⟨5 * (i 0).val + 4, hb⟩)).set
  rw [View.set_slice_whole, Rect.mem_set_unit]
  intro a
  match a with
  | ⟨0, _⟩ =>
    show win0_2.index ⟨5 * (i 0).val + 4, hb⟩ 0 * 1 ≤ (i 0 : Nat) ∧ (i 0 : Nat) < win0_2.index ⟨5 * (i 0).val + 4, hb⟩ 0 * 1 + 1
    rw [hi.1]; show (5 * (i 0).val + 4) / 5 * 1 ≤ (i 0).val ∧ (i 0).val < (5 * (i 0).val + 4) / 5 * 1 + 1; omega
  | ⟨1, _⟩ =>
    show win0_2.index ⟨5 * (i 0).val + 4, hb⟩ 1 * 1 ≤ (i 1 : Nat) ∧ (i 1 : Nat) < win0_2.index ⟨5 * (i 0).val + 4, hb⟩ 1 * 1 + 1
    rw [hi.2.1]; omega
  | ⟨2, _⟩ =>
    show win0_2.index ⟨5 * (i 0).val + 4, hb⟩ 2 * 5000 ≤ (i 2 : Nat) ∧ (i 2 : Nat) < win0_2.index ⟨5 * (i 0).val + 4, hb⟩ 2 * 5000 + 5000
    rw [hi.2.2]; omega

/-- After the region the first output array holds the column sums, the second the column sums of squares. -/
theorem final1 (c : Dev nD) : (dat0 V c).arrAt 1 cfg0.N = G1 V c :=
  (dat0 V c).arrAt_eq_of_cover 1 (G1 V c) (flushed1_eq V c) cover1

theorem final2 (c : Dev nD) : (dat0 V c).arrAt 2 cfg0.N = G2 V c :=
  (dat0 V c).arrAt_eq_of_cover 2 (G2 V c) (flushed2_eq V c) cover2

/-- The same at coordinates: view `v`, column `k`. -/
theorem val0_sum (c : Dev nD) (v : Fin 2) (k : Fin 5000) :
    ((dat0 (F := Ideal) V c).arrAt 1 cfg0.N : S2x1x5000.Idx → EReal) (ix3 v 0 k)
      = Cert.Spec.colSum (fun v r k => (V c main_arg0 : S2x5000x5000.Idx → EReal) (ix3 v r k)) v k :=
  congrFun (final1 V c) (ix3 v 0 k)

theorem val0_sq (c : Dev nD) (v : Fin 2) (k : Fin 5000) :
    ((dat0 (F := Ideal) V c).arrAt 2 cfg0.N : S2x1x5000.Idx → EReal) (ix3 v 0 k)
      = Cert.Spec.colSq (fun v r k => (V c main_arg0 : S2x5000x5000.Idx → EReal) (ix3 v r k)) v k :=
  congrFun (final2 V c) (ix3 v 0 k)

end Final

end Cert.KernelIdeal.HandVal0

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.KI.Pay1.lean ====
/-
  The body of the normalise / input-projection call read at one entry, at the ideal values.
  For loaded blocks `x0` (features, 1000 rows), `x1`, `x2` (column sums and sums of squares), `x3`, `x4` (scale and
  shift rows), `x5` (input weights), `x6` (bias row), the stored block at row `p`, column `j` is the leaky
  rectifier of the bias plus the sum over the 5000 columns `k` of the normalised entry times the weight.
-/
import proofs.«129426_g120259084709_cont_main3_741_6_alg».proof.Proof.Gen.KernelIdeal.Skeleton
import proofs.«129426_g120259084709_cont_main3_741_6_alg».proof.Proof.LibPlainDot
import proofs.«129426_g120259084709_cont_main3_741_6_alg».proof.Proof.Spec
import Idealize.ShloMosaic.Lib.ValueIdx
import Idealize.ShloMosaic.Lib.ValueLayout

noncomputable section

namespace Cert.KernelIdeal.HandVal

open Cert.KernelIdeal Cert.KernelIdeal.Gen
open Idealize.ShloMosaic Idealize.ShloMosaic.ValueIdx

/-- A vector reciprocal square root read at an index. -/
theorem rsqrt_apply {s : Shape} {φ : FTy} (a : FVec Ideal s φ) (i : s.Idx) : rsqrt a i = Ideal.rsqrt (a i) := rfl

section Pay
variable (x0 : Vec Ideal S1x1000x5000 .f32) (x1 x2 x3 x4 : Vec Ideal S1x1x5000 .f32)
  (x5 : Vec Ideal S1x5000x128 .f32) (x6 : Vec Ideal S1x1x128 .f32)

/-- The normalised entry at row `p` of the block, column `k`: the mean and the variance of column `k` from the sums
    `x1`, `x2`, the scale from `x3`, the shift `x4`. -/
def blockXhat (p : Fin 1000) (k : Fin 5000) : EReal :=
  (x0 (ix3 (0 : Fin 1) p k) - Ideal.div (x1 (ix3 (0 : Fin 1) (0 : Fin 1) k)) (Cert.Spec.lit 0x459C4000#32))
    * (x3 (ix3 (0 : Fin 1) (0 : Fin 1) k) * Ideal.rsqrt (Ideal.div (x2 (ix3 (0 : Fin 1) (0 : Fin 1) k)) (Cert.Spec.lit 0x459C4000#32)
        - Ideal.div (x1 (ix3 (0 : Fin 1) (0 : Fin 1) k)) (Cert.Spec.lit 0x459C4000#32) * Ideal.div (x1 (ix3 (0 : Fin 1) (0 : Fin 1) k)) (Cert.Spec.lit 0x459C4000#32)
        + Cert.Spec.lit 0x3727C5AC#32))
    + x4 (ix3 (0 : Fin 1) (0 : Fin 1) k)

/-- The projection before the rectifier, at row `p`, column `j`. -/
theorem pay2_apply (p : Fin 1000) (j : Fin 128) :
    k1_pay2 x0 x1 x2 x3 x4 x5 x6 (ix2 p j)
      = (∑ k : Fin 5000, blockXhat x0 x1 x2 x3 x4 p k * x5 (ix3 (0 : Fin 1) k j)) + x6 (ix3 (0 : Fin 1) (0 : Fin 1) j) := by
  unfold k1_pay2 blockXhat
  simp only [addf_apply, mulf_apply, subf_apply, divf_apply, rsqrt_apply, broadcast_apply,
    Cert.PlainDot.matmul_zero_ix2 dot_S1000x5000_S5000x128_S1000x128_1_0_0_1_n_n rfl,
    broadcastTo_1b_ab_apply, shapeCast_1ab_ab_apply]
  rfl

/-- The rectifier on the stored block, at row `p`, column `j`. -/
theorem pay1_apply (z : FVec Ideal S1000x128 .f32) (p : Fin 1000) (j : Fin 128) :
    k1_pay1 z (ix3 (0 : Fin 1) p j) = Cert.Spec.leaky (z (ix2 p j)) := by
  unfold k1_pay1
  refine (shapeCast_ab_1ab_apply _ _ (0 : Fin 1) p j).trans ?_
  show Scalar.select (Ideal.cmp .oge (z (ix2 p j)) (Ideal.ofBits .f32 0x00000000#32)) (z (ix2 p j))
      (Ideal.ofBits .f32 0x3C23D70A#32 * z (ix2 p j)) = _
  unfold Cert.Spec.leaky Cert.Spec.lit Ideal.cmp
  by_cases h : Ideal.ofBits .f32 0x00000000#32 ≤ z (ix2 p j)
  · rw [if_pos h, decide_eq_true h]; exact select_one _ _
  · rw [if_neg h, decide_eq_false h]; exact select_zero _ _

/-- The stored block at row `p`, column `j`. -/
theorem pay_apply (p : Fin 1000) (j : Fin 128) :
    k1_pay1 (k1_pay2 x0 x1 x2 x3 x4 x5 x6) (ix3 (0 : Fin 1) p j)
      = Cert.Spec.leaky ((∑ k : Fin 5000, blockXhat x0 x1 x2 x3 x4 p k * x5 (ix3 (0 : Fin 1) k j)) + x6 (ix3 (0 : Fin 1) (0 : Fin 1) j)) := by
  rw [pay1_apply, pay2_apply]

end Pay

end Cert.KernelIdeal.HandVal

end
-- ==== Proof.KI.Val1.lean ====
/-
  Region 1 read as a value, at the ideal instance: after the region, the output array holds, at view `v`, row `r`,
  column `j`, the input projection `Cert.Spec.x0` of the arrays the region found, read at coordinates.
  Each grid point `t` is view `t / 5`, row block `t % 5`; its stored block is the projection's rows
  `1000 (t % 5) … 1000 (t % 5) + 999` of view `t / 5`, and the ten blocks tile the array.
-/
import proofs.«129426_g120259084709_cont_main3_741_6_alg».proof.Proof.KI.Reg1
import proofs.«129426_g120259084709_cont_main3_741_6_alg».proof.Proof.KI.Pay1
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem zero3 : (![0, 0, 0] : Fin 3 → Nat) = fun _ => 0 := funext fun a => by fin_cases a <;> rfl

/-- The projection of the arrays the region finds, as one function of the output array's index. -/
def proj1 (c : Dev nD) : S2x5000x128.Idx → EReal := fun i =>
  Cert.Spec.x0 (fun v k => V c main_v3_0 (ix3 v (0 : Fin 1) k)) (fun v k => V c main_v3_1 (ix3 v (0 : Fin 1) k))
    (fun v r k => V c main_arg0 (ix3 v r k)) (fun v k => V c main_v0 (ix3 v (0 : Fin 1) k)) (fun v k => V c main_v1 (ix3 v (0 : Fin 1) k))
    (fun v k j => V c main_arg4 (ix3 v k j)) (fun v j => V c main_v2 (ix3 v (0 : Fin 1) j)) (i 0) (i 1) (i 2)

/-- The printed index maps over the grid: every window's leading block index is the view `t / 5`; the feature and
    output windows' second is the row block `t % 5`; every other block index is zero. -/
theorem idx_facts1 : ∀ t : Fin cfg1.N,
    (win1_0.index t (0 : Fin 3) = t.val / 5 ∧ win1_0.index t (1 : Fin 3) = t.val % 5 ∧ win1_0.index t (2 : Fin 3) = 0)
    ∧ (win1_1.index t (0 : Fin 3) = t.val / 5 ∧ win1_1.index t (1 : Fin 3) = 0 ∧ win1_1.index t (2 : Fin 3) = 0)
    ∧ (win1_2.index t (0 : Fin 3) = t.val / 5 ∧ win1_2.index t (1 : Fin 3) = 0 ∧ win1_2.index t (2 : Fin 3) = 0)
    ∧ (win1_3.index t (0 : Fin 3) = t.val / 5 ∧ win1_3.index t (1 : Fin 3) = 0 ∧ win1_3.index t (2 : Fin 3) = 0)
    ∧ (win1_4.index t (0 : Fin 3) = t.val / 5 ∧ win1_4.index t (1 : Fin 3) = 0 ∧ win1_4.index t (2 : Fin 3) = 0)
    ∧ (win1_5.index t (0 : Fin 3) = t.val / 5 ∧ win1_5.index t (1 : Fin 3) = 0 ∧ win1_5.index t (2 : Fin 3) = 0)
    ∧ (win1_6.index t (0 : Fin 3) = t.val / 5 ∧ win1_6.index t (1 : Fin 3) = 0 ∧ win1_6.index t (2 : Fin 3) = 0)
    ∧ (win1_7.index t (0 : Fin 3) = t.val / 5 ∧ win1_7.index t (1 : Fin 3) = t.val % 5 ∧ win1_7.index t (2 : Fin 3) = 0) :=
  (by decide +kernel : ∀ t : Fin grid1.N, _)

/-- The view and the row of the array that point `t`'s block row `p` is. -/
def viewAt (t : Fin cfg1.N) : Fin 2 := ⟨t.val / 5, by have := t.isLt; have hN : cfg1.N = 10 := N_1; omega⟩
def rowAt (t : Fin cfg1.N) (p : Fin 1000) : Fin 5000 := ⟨t.val % 5 * 1000 + p.val, by have := p.isLt; omega⟩

/-! ## Each window's block at a point, read at coordinates, is its array read at coordinates -/

theorem read1_0 (c : Dev nD) (t : Fin cfg1.N) (p : Fin 1000) (k : Fin 5000) :
    iblk1 V c 0 t (ix3 (0 : Fin 1) p k) = V c main_arg0 (ix3 (viewAt t) (rowAt t p) k) := by
  obtain ⟨⟨e0, e1, e2⟩, -⟩ := idx_facts1 t
  show V c main_arg0 (((cfg1.win 0).blk t).view.emb (ix3 (0 : Fin 1) p k)) = _
  refine congrArg (V c main_arg0) (funext fun a => Fin.ext ?_)
  match a with
  | ⟨0, _⟩ => show win1_0.index t (0 : Fin 3) * 1 + 1 * 0 = t.val / 5; omega
  | ⟨1, _⟩ => show win1_0.index t (1 : Fin 3) * 1000 + 1 * p.val = t.val % 5 * 1000 + p.val; omega
  | ⟨2, _⟩ => show win1_0.index t (2 : Fin 3) * 5000 + 1 * k.val = k.val; omega

theorem read1_1 (c : Dev nD) (t : Fin cfg1.N) (k : Fin 5000) :
    iblk1 V c 1 t (ix3 (0 : Fin 1) (0 : Fin 1) k) = V c main_v3_0 (ix3 (viewAt t) (0 : Fin 1) k) := by
  obtain ⟨-, ⟨e0, e1, e2⟩, -⟩ := idx_facts1 t
  show V c main_v3_0 (((cfg1.win 1).blk t).view.emb (ix3 (0 : Fin 1) (0 : Fin 1) k)) = _
  refine congrArg (V c main_v3_0) (funext fun a => Fin.ext ?_)
  match a with
  | ⟨0, _⟩ => show win1_1.index t (0 : Fin 3) * 1 + 1 * 0 = t.val / 5; omega
  | ⟨1, _⟩ => show win1_1.index t (1 : Fin 3) * 1 + 1 * 0 = 0; omega
  | ⟨2, _⟩ => show win1_1.index t (2 : Fin 3) * 5000 + 1 * k.val = k.val; omega

theorem read1_2 (c : Dev nD) (t : Fin cfg1.N) (k : Fin 5000) :
    iblk1 V c 2 t (ix3 (0 : Fin 1) (0 : Fin 1) k) = V c main_v3_1 (ix3 (viewAt t) (0 : Fin 1) k) := by
  obtain ⟨-, -, ⟨e0, e1, e2⟩, -⟩ := idx_facts1 t
  show V c main_v3_1 (((cfg1.win 2).blk t).view.emb (ix3 (0 : Fin 1) (0 : Fin 1) k)) = _
  refine congrArg (V c main_v3_1) (funext fun a => Fin.ext ?_)
  match a with
  | ⟨0, _⟩ => show win1_2.index t (0 : Fin 3) * 1 + 1 * 0 = t.val / 5; omega
  | ⟨1, _⟩ => show win1_2.index t (1 : Fin 3) * 1 + 1 * 0 = 0; omega
  | ⟨2, _⟩ => show win1_2.index t (2 : Fin 3) * 5000 + 1 * k.val = k.val; omega

theorem read1_3 (c : Dev nD) (t : Fin cfg1.N) (k : Fin 5000) :
    iblk1 V c 3 t (ix3 (0 : Fin 1) (0 : Fin 1) k) = V c main_v0 (ix3 (viewAt t) (0 : Fin 1) k) := by
  obtain ⟨-, -, -, ⟨e0, e1, e2⟩, -⟩ := idx_facts1 t
  show V c main_v0 (((cfg1.win 3).blk t).view.emb (ix3 (0 : Fin 1) (0 : Fin 1) k)) = _
  refine congrArg (V c main_v0) (funext fun a => Fin.ext ?_)
  match a with
  | ⟨0, _⟩ => show win1_3.index t (0 : Fin 3) * 1 + 1 * 0 = t.val / 5; omega
  | ⟨1, _⟩ => show win1_3.index t (1 : Fin 3) * 1 + 1 * 0 = 0; omega
  | ⟨2, _⟩ => show win1_3.index t (2 : Fin 3) * 5000 + 1 * k.val = k.val; omega

theorem read1_4 (c : Dev nD) (t : Fin cfg1.N) (k : Fin 5000) :
    iblk1 V c 4 t (ix3 (0 : Fin 1) (0 : Fin 1) k) = V c main_v1 (ix3 (viewAt t) (0 : Fin 1) k) := by
  obtain ⟨-, -, -, -, ⟨e0, e1, e2⟩, -⟩ := idx_facts1 t
  show V c main_v1 (((cfg1.win 4).blk t).view.emb (ix3 (0 : Fin 1) (0 : Fin 1) k)) = _
  refine congrArg (V c main_v1) (funext fun a => Fin.ext ?_)
  match a with
  | ⟨0, _⟩ => show win1_4.index t (0 : Fin 3) * 1 + 1 * 0 = t.val / 5; omega
  | ⟨1, _⟩ => show win1_4.index t (1 : Fin 3) * 1 + 1 * 0 = 0; omega
  | ⟨2, _⟩ => show win1_4.index t (2 : Fin 3) * 5000 + 1 * k.val = k.val; omega

theorem read1_5 (c : Dev nD) (t : Fin cfg1.N) (k : Fin 5000) (j : Fin 128) :
    iblk1 V c 5 t (ix3 (0 : Fin 1) k j) = V c main_arg4 (ix3 (viewAt t) k j) := by
  obtain ⟨-, -, -, -, -, ⟨e0, e1, e2⟩, -⟩ := idx_facts1 t
  show V c main_arg4 (((cfg1.win 5).blk t).view.emb (ix3 (0 : Fin 1) k j)) = _
  refine congrArg (V c main_arg4) (funext fun a => Fin.ext ?_)
  match a with
  | ⟨0, _⟩ => show win1_5.index t (0 : Fin 3) * 1 + 1 * 0 = t.val / 5; omega
  | ⟨1, _⟩ => show win1_5.index t (1 : Fin 3) * 5000 + 1 * k.val = k.val; omega
  | ⟨2, _⟩ => show win1_5.index t (2 : Fin 3) * 128 + 1 * j.val = j.val; omega

theorem read1_6 (c : Dev nD) (t : Fin cfg1.N) (j : Fin 128) :
    iblk1 V c 6 t (ix3 (0 : Fin 1) (0 : Fin 1) j) = V c main_v2 (ix3 (viewAt t) (0 : Fin 1) j) := by
  obtain ⟨-, -, -, -, -, -, ⟨e0, e1, e2⟩, -⟩ := idx_facts1 t
  show V c main_v2 (((cfg1.win 6).blk t).view.emb (ix3 (0 : Fin 1) (0 : Fin 1) j)) = _
  refine congrArg (V c main_v2) (funext fun a => Fin.ext ?_)
  match a with
  | ⟨0, _⟩ => show win1_6.index t (0 : Fin 3) * 1 + 1 * 0 = t.val / 5; omega
  | ⟨1, _⟩ => show win1_6.index t (1 : Fin 3) * 1 + 1 * 0 = 0; omega
  | ⟨2, _⟩ => show win1_6.index t (2 : Fin 3) * 128 + 1 * j.val = j.val; omega

/-- Where the output block's entry `(0, p, j)` at point `t` sits in the array. -/
theorem emb1_7 (t : Fin cfg1.N) (p : Fin 1000) (j : Fin 128) :
    ((cfg1.win 7).blk t).view.emb (ix3 (0 : Fin 1) p j) = (ix3 (viewAt t) (rowAt t p) j : S2x5000x128.Idx) := by
  obtain ⟨-, -, -, -, -, -, -, e0, e1, e2⟩ := idx_facts1 t
  refine funext fun a => Fin.ext ?_
  match a with
  | ⟨0, _⟩ => show win1_7.index t (0 : Fin 3) * 1 + 1 * 0 = t.val / 5; omega
  | ⟨1, _⟩ => show win1_7.index t (1 : Fin 3) * 1000 + 1 * p.val = t.val % 5 * 1000 + p.val; omega
  | ⟨2, _⟩ => show win1_7.index t (2 : Fin 3) * 128 + 1 * j.val = j.val; omega

/-! ## What a point writes back -/

/-- The normalised block entry is the specification's normalised entry of the arrays, at the point's view and row. -/
theorem blockXhat_eq (c : Dev nD) (t : Fin cfg1.N) (p : Fin 1000) (k : Fin 5000) :
    blockXhat (iblk1 V c 0 t) (iblk1 V c 1 t) (iblk1 V c 2 t) (iblk1 V c 3 t) (iblk1 V c 4 t) p k
      = Cert.Spec.xhat (fun v k => V c main_v3_0 (ix3 v (0 : Fin 1) k)) (fun v k => V c main_v3_1 (ix3 v (0 : Fin 1) k))
          (fun v r k => V c main_arg0 (ix3 v r k)) (fun v k => V c main_v0 (ix3 v (0 : Fin 1) k)) (fun v k => V c main_v1 (ix3 v (0 : Fin 1) k))
          (viewAt t) (rowAt t p) k := by
  unfold blockXhat
  rw [read1_0 V c t p k, read1_1 V c t k, read1_2 V c t k, read1_3 V c t k, read1_4 V c t k]
  rfl

/-- What point `t` writes back is block `t` of the projection. -/
theorem flushed1_7_eq (c : Dev nD) (t : Fin cfg1.N) :
    (dat1 V c).flushed 7 t = ((cfg1.win 7).blk t).view.read (Elt Ideal) (proj1 V c) := by
  show (cfg1.win 7).cut (grid1.coords t) ((dat1 V c).after 7 t) = _
  rw [after1_7]
  unfold out1_7
  rw [View.canon_unit_zero zero3]
  simp only [View.ld_unit_zero (S := S1x1000x5000) zero3, View.ld_unit_zero (S := S1x1x5000) zero3,
    View.ld_unit_zero (S := S1x5000x128) zero3, View.ld_unit_zero (S := S1x1x128) zero3]
  funext y
  obtain ⟨u, p, j, rfl⟩ : ∃ (u : Fin 1) (p : Fin 1000) (j : Fin 128), y = ix3 u p j := ⟨y 0, y 1, y 2, eq_ix3 y⟩
  obtain rfl : u = 0 := Subsingleton.elim _ _
  show k1_pay1 (k1_pay2 (iblk1 V c 0 t) (iblk1 V c 1 t) (iblk1 V c 2 t) (iblk1 V c 3 t) (iblk1 V c 4 t) (iblk1 V c 5 t) (iblk1 V c 6 t)) (ix3 (0 : Fin 1) p j)
    = proj1 V c (((cfg1.win 7).blk t).view.emb (ix3 (0 : Fin 1) p j))
  rw [emb1_7 t p j]
  refine (pay_apply (iblk1 V c 0 t) (iblk1 V c 1 t) (iblk1 V c 2 t) (iblk1 V c 3 t) (iblk1 V c 4 t) (iblk1 V c 5 t) (iblk1 V c 6 t) p j).trans ?_
  show _ = Cert.Spec.leaky ((∑ k : Fin 5000, Cert.Spec.xhat _ _ _ _ _ (viewAt t) (rowAt t p) k * V c main_arg4 (ix3 (viewAt t) k j)) + V c main_v2 (ix3 (viewAt t) (0 : Fin 1) j))
  rw [read1_6 V c t j]
  refine congrArg (fun z => Cert.Spec.leaky (z + _)) (Finset.sum_congr rfl fun k _ => ?_)
  rw [blockXhat_eq V c t p k, read1_5 V c t k j]

/-! ## The blocks tile the array -/

/-- An index of the array is in point `t`'s block iff each coordinate is in the block's range on its axis. -/
theorem mem_blk1_7 (t : Fin cfg1.N) (i : S2x5000x128.Idx) :
    i ∈ ((cfg1.win 7).blk t).view.set ↔ ∀ a : Fin 3, win1_7.index t a * S1x1000x128.size a ≤ (i a).val ∧ (i a).val < win1_7.index t a * S1x1000x128.size a + S1x1000x128.size a := by
  show i ∈ ((View.whole main_v4).slice (win1_7.rect t)).set ↔ _
  rw [View.set_slice_whole, Rect.mem_set_unit]
  exact Iff.rfl

/-- Every index is in the block of the point of its view and row block, which writes back. -/
theorem cover1_out (i : S2x5000x128.Idx) :
    ∃ t : Fin cfg1.N, (cfg1.win 7).flush t = true ∧ i ∈ ((cfg1.win 7).blk t).view.set := by
  have h0 : (i 0).val < 2 := (i 0).isLt
  have h1 : (i 1).val < 5000 := (i 1).isLt
  have h2 : (i 2).val < 128 := (i 2).isLt
  have hN : cfg1.N = 10 := N_1
  have ht : (i 0).val * 5 + (i 1).val / 1000 < cfg1.N := by omega
  obtain ⟨-, -, -, -, -, -, -, e0, e1, e2⟩ := idx_facts1 ⟨(i 0).val * 5 + (i 1).val / 1000, ht⟩
  have e0' : win1_7.index ⟨(i 0).val * 5 + (i 1).val / 1000, ht⟩ (0 : Fin 3) = ((i 0).val * 5 + (i 1).val / 1000) / 5 := e0
  have e1' : win1_7.index ⟨(i 0).val * 5 + (i 1).val / 1000, ht⟩ (1 : Fin 3) = ((i 0).val * 5 + (i 1).val / 1000) % 5 := e1
  refine ⟨⟨(i 0).val * 5 + (i 1).val / 1000, ht⟩, flush1_7 _, ?_⟩
  rw [mem_blk1_7]
  intro a
  match a with
  | ⟨0, _⟩ => show win1_7.index _ (0 : Fin 3) * 1 ≤ (i 0).val ∧ (i 0).val < win1_7.index _ (0 : Fin 3) * 1 + 1; omega
  | ⟨1, _⟩ => show win1_7.index _ (1 : Fin 3) * 1000 ≤ (i 1).val ∧ (i 1).val < win1_7.index _ (1 : Fin 3) * 1000 + 1000; omega
  | ⟨2, _⟩ => show win1_7.index _ (2 : Fin 3) * 128 ≤ (i 2).val ∧ (i 2).val < win1_7.index _ (2 : Fin 3) * 128 + 128; omega

/-! ## The output array after the region -/

/-- The whole output array after the region is the projection. -/
theorem arr1_7_eq (c : Dev nD) : (dat1 (F := Ideal) V c).arrAt 7 cfg1.N = proj1 V c :=
  (dat1 V c).arrAt_eq_of_cover 7 (proj1 V c) (fun t _ => flushed1_7_eq V c t) cover1_out

/-- At view `v`, row `r`, column `j`: the input projection of the arrays the region found. -/
theorem val1 (c : Dev nD) (v : Fin 2) (r : Fin 5000) (j : Fin 128) :
    (dat1 (F := Ideal) V c).arrAt 7 cfg1.N (ix3 v r j)
      = Cert.Spec.x0 (fun v k => V c main_v3_0 (ix3 v (0 : Fin 1) k)) (fun v k => V c main_v3_1 (ix3 v (0 : Fin 1) k))
          (fun v r k => V c main_arg0 (ix3 v r k)) (fun v k => V c main_v0 (ix3 v (0 : Fin 1) k)) (fun v k => V c main_v1 (ix3 v (0 : Fin 1) k))
          (fun v k j => V c main_arg4 (ix3 v k j)) (fun v j => V c main_v2 (ix3 v (0 : Fin 1) j)) v r j := by
  rw [arr1_7_eq V c]
  rfl

end Cert.KernelIdeal.HandVal

end
-- ==== Proof.KI.LayerPay.lean ====
/-
  One propagation layer's block computation read at an entry, at the ideal instance.

  The layer kernel's stored value, as a function of its four loaded blocks — the adjacency rows `x0` [1,1000,5000],
  the previous layer `x1` [1,5000,128], the initial features' rows `x2` [1,1000,128] and the layer's weights `x3`
  [1,128,128] — with the two coefficient words as parameters (`layerPay`): each region's printed payload is this
  function at its two words, by unfolding.  At entry (p, j) it is
  `max (b₁ · s p j + b₂ · ∑ q, s p q · x3 q j) 0` with `s p j = ½ · ∑ k, x0 p k · x1 k j + ½ · x2 p j`.
-/
import proofs.«129426_g120259084709_cont_main3_741_6_alg».proof.Proof.Gen.KernelIdeal.Skeleton
import proofs.«129426_g120259084709_cont_main3_741_6_alg».proof.Proof.LibPlainDot
import proofs.«129426_g120259084709_cont_main3_741_6_alg».proof.Proof.Spec
import Idealize.ShloMosaic.Lib.ValueIdx
import Idealize.ShloMosaic.Lib.ValueLayout
import Idealize.ShloMosaic.PureOps.Ideal.Laws

noncomputable section

namespace Cert.KernelIdeal.HandVal

open Cert.KernelIdeal Cert.KernelIdeal.Gen
open Idealize.ShloMosaic Idealize.ShloMosaic.ValueIdx

section Generic
variable {F : FTy → Type} [FloatOps F]

/-- The even mix of the propagated features and the initial ones, on a block of 1000 rows. -/
def mixPay (v0 : Vec F S1x5000x128 .f32) (v3 : Vec F S1x1000x5000 .bf16) (v8 : Vec F S1x1000x128 .f32) : FVec F S1000x128 .f32 :=
  have v1 : FVec F S5000x128 .f32 := shapeCast S5000x128 v0 shapeCasts_S1x5000x128_S5000x128
  have v2 : FVec F S5000x128 .bf16 := truncf .bf16 v1 bitsLt_bf16_f32
  have v4 : FVec F S1000x5000 .bf16 := shapeCast S1000x5000 v3 shapeCasts_S1x1000x5000_S1000x5000
  have cst : FVec F S1000x128 .f32 := constant S1000x128 .f32 0x00000000#32
  have v5 : FVec F S1000x128 .f32 := matmul dot_S1000x5000_S5000x128_S1000x128_1_0_0_1_n_n none v4 v2 cst
  have cst_5 : F .f32 := Scalar.ofBits .f32 0x3F000000#32
  have v6 : FVec F S1000x128 .f32 := broadcast S1000x128 cst_5
  have v7 : FVec F S1000x128 .f32 := mulf v6 v5
  have v9 : FVec F S1000x128 .f32 := shapeCast S1000x128 v8 shapeCasts_S1x1000x128_S1000x128
  have cst_9 : F .f32 := Scalar.ofBits .f32 0x3F000000#32
  have v10 : FVec F S1000x128 .f32 := broadcast S1000x128 cst_9
  have v11 : FVec F S1000x128 .f32 := mulf v10 v9
  addf v7 v11

/-- The layer's stored block from the mix `v12` and the weights, with coefficient words `b1` (on the mix) and `b2`
    (on its product with the weights). -/
def outPay (b1 b2 : BitVec 32) (v12 : FVec F S1000x128 .f32) (v15 : Vec F S1x128x128 .f32) : FVec F S1x1000x128 .f32 :=
  have cst_10 : F .f32 := Scalar.ofBits .f32 b1
  have v13 : FVec F S1000x128 .f32 := broadcast S1000x128 cst_10
  have v14 : FVec F S1000x128 .f32 := mulf v13 v12
  have v16 : FVec F S128x128 .f32 := shapeCast S128x128 v15 shapeCasts_S1x128x128_S128x128
  have cst_14 : FVec F S1000x128 .f32 := constant S1000x128 .f32 0x00000000#32
  have v17 : FVec F S1000x128 .f32 := matmul dot_S1000x128_S128x128_S1000x128_1_0_0_1_n_n none v12 v16 cst_14
  have cst_15 : F .f32 := Scalar.ofBits .f32 b2
  have v18 : FVec F S1000x128 .f32 := broadcast S1000x128 cst_15
  have v19 : FVec F S1000x128 .f32 := mulf v18 v17
  have v20 : FVec F S1000x128 .f32 := addf v14 v19
  have cst_16 : F .f32 := Scalar.ofBits .f32 0x00000000#32
  have v21 : FVec F S1000x128 .f32 := broadcast S1000x128 cst_16
  have v22 : FVec F S1000x128 .f32 := maximumf v20 v21
  shapeCast S1x1000x128 v22 shapeCasts_S1000x128_S1x1000x128

/-- The layer's stored block from its four loaded blocks. -/
def layerPay (b1 b2 : BitVec 32) (v0 : Vec F S1x5000x128 .f32) (v3 : Vec F S1x1000x5000 .bf16) (v8 : Vec F S1x1000x128 .f32)
    (v15 : Vec F S1x128x128 .f32) : FVec F S1x1000x128 .f32 :=
  outPay b1 b2 (mixPay v0 v3 v8) v15

/-- Each region's printed payload is the layer's block computation at its two coefficient words. -/
theorem k2_pay1_eq : k2_pay1 (F := F) = layerPay 0x3F183370#32 0x3ECF991F#32 := rfl
theorem k3_pay1_eq : k3_pay1 (F := F) = layerPay 0x3F46E010#32 0x3E647FBE#32 := rfl
theorem k4_pay1_eq : k4_pay1 (F := F) = layerPay 0x3F588995#32 0x3E1DD9AD#32 := rfl
theorem k5_pay1_eq : k5_pay1 (F := F) = layerPay 0x3F61D8F9#32 0x3DF1383B#32 := rfl
theorem k6_pay1_eq : k6_pay1 (F := F) = layerPay 0x3F6799C1#32 0x3DC331FC#32 := rfl
theorem k7_pay1_eq : k7_pay1 (F := F) = layerPay 0x3F6B8252#32 0x3DA3ED6E#32 := rfl
theorem k8_pay1_eq : k8_pay1 (F := F) = layerPay 0x3F6E567C#32 0x3D8D4C22#32 := rfl
theorem k9_pay1_eq : k9_pay1 (F := F) = layerPay 0x3F707AE8#32 0x3D785186#32 := rfl

end Generic

/-! ## At the ideal instance, entry by entry -/

open Cert.Spec (lit)

/-- The mix on a block, at entry (p, j), from the blocks' entries. -/
def blockMix (x0 : Vec Ideal S1x1000x5000 .bf16) (x1 : Vec Ideal S1x5000x128 .f32) (x2 : Vec Ideal S1x1000x128 .f32)
    (p : Fin 1000) (j : Fin 128) : EReal :=
  lit 0x3F000000#32 * (∑ k : Fin 5000, x0 (ix3 (0 : Fin 1) p k) * x1 (ix3 (0 : Fin 1) k j))
    + lit 0x3F000000#32 * x2 (ix3 (0 : Fin 1) p j)

theorem mixPay_apply (x1 : Vec Ideal S1x5000x128 .f32) (x0 : Vec Ideal S1x1000x5000 .bf16) (x2 : Vec Ideal S1x1000x128 .f32)
    (p : Fin 1000) (j : Fin 128) :
    mixPay (F := Ideal) x1 x0 x2 (ix2 p j) = blockMix x0 x1 x2 p j := by
  unfold mixPay blockMix
  refine congrArg₂ (· + ·) (congrArg (lit 0x3F000000#32 * ·) ?_) (congrArg (lit 0x3F000000#32 * ·) ?_)
  · refine (Cert.PlainDot.matmul_zero_ix2 dot_S1000x5000_S5000x128_S1000x128_1_0_0_1_n_n rfl none _ _ p j).trans ?_
    refine Finset.sum_congr rfl fun k _ => ?_
    refine congrArg₂ (· * ·) (shapeCast_1ab_ab_apply _ _ p k) ?_
    exact shapeCast_1ab_ab_apply x1 _ k j
  · exact shapeCast_1ab_ab_apply x2 _ p j

theorem outPay_apply (b1 b2 : BitVec 32) (s : FVec Ideal S1000x128 .f32) (x3 : Vec Ideal S1x128x128 .f32)
    (u : Fin 1) (p : Fin 1000) (j : Fin 128) :
    outPay (F := Ideal) b1 b2 s x3 (ix3 u p j)
      = max (lit b1 * s (ix2 p j) + lit b2 * ∑ q : Fin 128, s (ix2 p q) * x3 (ix3 (0 : Fin 1) q j)) (lit 0x00000000#32) := by
  unfold outPay
  refine (shapeCast_ab_1ab_apply _ _ u p j).trans ?_
  refine congrArg₂ max (congrArg₂ (· + ·) rfl (congrArg (lit b2 * ·) ?_)) rfl
  refine (Cert.PlainDot.matmul_zero_ix2 dot_S1000x128_S128x128_S1000x128_1_0_0_1_n_n rfl none _ _ p j).trans ?_
  refine Finset.sum_congr rfl fun q _ => ?_
  exact congrArg (s (ix2 p q) * ·) (shapeCast_1ab_ab_apply x3 _ q j)

/-- THE LAYER'S BLOCK AT AN ENTRY. -/
theorem layerPay_apply (b1 b2 : BitVec 32) (x1 : Vec Ideal S1x5000x128 .f32) (x0 : Vec Ideal S1x1000x5000 .bf16)
    (x2 : Vec Ideal S1x1000x128 .f32) (x3 : Vec Ideal S1x128x128 .f32) (u : Fin 1) (p : Fin 1000) (j : Fin 128) :
    layerPay (F := Ideal) b1 b2 x1 x0 x2 x3 (ix3 u p j)
      = max (lit b1 * blockMix x0 x1 x2 p j + lit b2 * ∑ q : Fin 128, blockMix x0 x1 x2 p q * x3 (ix3 (0 : Fin 1) q j))
          (lit 0x00000000#32) := by
  unfold layerPay
  rw [outPay_apply]
  simp only [mixPay_apply]

end Cert.KernelIdeal.HandVal

end
-- ==== Proof.KI.Val2.lean ====
/-
  Region 2, read: after the region the layer's output array holds, entry by entry, the specification's layer
  function of the region's input arrays (the adjacency, the previous layer, the initial features, the layer's
  weights) as the region finds them.  Each point of the grid (2, 5) writes back one block of 1000 rows of one view;
  the block is the layer's block computation of the point's input blocks (the body's one store), the input blocks
  are restrictions of the arrays (the printed index maps, decided over the grid), and the ten blocks cover the array.
-/
import proofs.«129426_g120259084709_cont_main3_741_6_alg».proof.Proof.KI.Reg2
import proofs.«129426_g120259084709_cont_main3_741_6_alg».proof.Proof.KI.LayerPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0, 0] : Fin 3 → Nat) = fun _ => 0 := funext fun a => by fin_cases a <;> rfl

/-- What the output array ends holding: the layer function of the input arrays, index by index. -/
def G2 (c : Dev nD) : S2x5000x128.Idx → EReal := fun i =>
  Cert.Spec.layer (fun v r k => V c main_v5 (ix3 v r k)) (fun v k j => V c main_v4 (ix3 v k j))
    (fun v r j => V c main_v4 (ix3 v r j)) (fun v q j => V c main_v7 (ix3 v q j)) 0x3F183370#32 0x3ECF991F#32 (i 0) (i 1) (i 2)

/-- The printed index maps, decided over the grid: every window's view coordinate is the output's; the adjacency's and
    the initial features' row-block coordinate is the output's; every other coordinate is 0. -/
theorem idx_facts2 : ∀ t : Fin cfg2.N,
    win2_0.index t (0 : Fin 3) = win2_4.index t (0 : Fin 3) ∧ win2_0.index t (1 : Fin 3) = win2_4.index t (1 : Fin 3)
    ∧ win2_0.index t (2 : Fin 3) = 0
    ∧ win2_1.index t (0 : Fin 3) = win2_4.index t (0 : Fin 3) ∧ win2_1.index t (1 : Fin 3) = 0 ∧ win2_1.index t (2 : Fin 3) = 0
    ∧ win2_2.index t (0 : Fin 3) = win2_4.index t (0 : Fin 3) ∧ win2_2.index t (1 : Fin 3) = win2_4.index t (1 : Fin 3)
    ∧ win2_2.index t (2 : Fin 3) = 0
    ∧ win2_3.index t (0 : Fin 3) = win2_4.index t (0 : Fin 3) ∧ win2_3.index t (1 : Fin 3) = 0 ∧ win2_3.index t (2 : Fin 3) = 0
    ∧ win2_4.index t (0 : Fin 3) ≤ 1 ∧ win2_4.index t (1 : Fin 3) ≤ 4 ∧ win2_4.index t (2 : Fin 3) = 0 :=
  (by decide +kernel : ∀ t : Fin grid2.N, _)

/-- Every block of the output array is some point's. -/
theorem idx_onto2 : ∀ (q0 : Fin 2) (q1 : Fin 5), ∃ t : Fin cfg2.N, win2_4.index t = ![q0.val, q1.val, 0] :=
  (by decide +kernel : ∀ (q0 : Fin 2) (q1 : Fin 5), ∃ t : Fin grid2.N, win2_4.index t = ![q0.val, q1.val, 0])

/-! ## The input blocks at a point are restrictions of the arrays -/

section Blocks
variable (c : Dev nD) (t : Fin cfg2.N) (v : Fin 2) (m : Fin 5)
  (hv : win2_4.index t (0 : Fin 3) = v.val) (hm : win2_4.index t (1 : Fin 3) = m.val)
include hv hm

theorem blk2_0 (u : Fin 1) (p : Fin 1000) (k : Fin 5000) :
    iblk2 V c 0 t (ix3 u p k) = V c main_v5 (ix3 v ⟨m.val * 1000 + p.val, by omega⟩ k) := by
  obtain ⟨e00, e01, e02, e10, e11, e12, e20, e21, e22, e30, e31, e32, -, -, -⟩ := idx_facts2 t
  show V c main_v5 (((cfg2.win 0).blk t).view.emb (ix3 u p k)) = _
  refine congrArg (V c main_v5) ?_
  funext a; apply Fin.ext
  match a with
  | ⟨0, _⟩ => show win2_0.index t (0 : Fin 3) * 1 + 1 * u.val = v.val; omega
  | ⟨1, _⟩ => show win2_0.index t (1 : Fin 3) * 1000 + 1 * p.val = m.val * 1000 + p.val; omega
  | ⟨2, _⟩ => show win2_0.index t (2 : Fin 3) * 5000 + 1 * k.val = k.val; omega

theorem blk2_1 (u : Fin 1) (k : Fin 5000) (j : Fin 128) :
    iblk2 V c 1 t (ix3 u k j) = V c main_v4 (ix3 v k j) := by
  obtain ⟨e00, e01, e02, e10, e11, e12, e20, e21, e22, e30, e31, e32, -, -, -⟩ := idx_facts2 t
  show V c main_v4 (((cfg2.win 1).blk t).view.emb (ix3 u k j)) = _
  refine congrArg (V c main_v4) ?_
  funext a; apply Fin.ext
  match a with
  | ⟨0, _⟩ => show win2_1.index t (0 : Fin 3) * 1 + 1 * u.val = v.val; omega
  | ⟨1, _⟩ => show win2_1.index t (1 : Fin 3) * 5000 + 1 * k.val = k.val; omega
  | ⟨2, _⟩ => show win2_1.index t (2 : Fin 3) * 128 + 1 * j.val = j.val; omega

theorem blk2_2 (u : Fin 1) (p : Fin 1000) (j : Fin 128) :
    iblk2 V c 2 t (ix3 u p j) = V c main_v4 (ix3 v ⟨m.val * 1000 + p.val, by omega⟩ j) := by
  obtain ⟨e00, e01, e02, e10, e11, e12, e20, e21, e22, e30, e31, e32, -, -, -⟩ := idx_facts2 t
  show V c main_v4 (((cfg2.win 2).blk t).view.emb (ix3 u p j)) = _
  refine congrArg (V c main_v4) ?_
  funext a; apply Fin.ext
  match a with
  | ⟨0, _⟩ => show win2_2.index t (0 : Fin 3) * 1 + 1 * u.val = v.val; omega
  | ⟨1, _⟩ => show win2_2.index t (1 : Fin 3) * 1000 + 1 * p.val = m.val * 1000 + p.val; omega
  | ⟨2, _⟩ => show win2_2.index t (2 : Fin 3) * 128 + 1 * j.val = j.val; omega

theorem blk2_3 (u : Fin 1) (q : Fin 128) (j : Fin 128) :
    iblk2 V c 3 t (ix3 u q j) = V c main_v7 (ix3 v q j) := by
  obtain ⟨e00, e01, e02, e10, e11, e12, e20, e21, e22, e30, e31, e32, -, -, -⟩ := idx_facts2 t
  show V c main_v7 (((cfg2.win 3).blk t).view.emb (ix3 u q j)) = _
  refine congrArg (V c main_v7) ?_
  funext a; apply Fin.ext
  match a with
  | ⟨0, _⟩ => show win2_3.index t (0 : Fin 3) * 1 + 1 * u.val = v.val; omega
  | ⟨1, _⟩ => show win2_3.index t (1 : Fin 3) * 128 + 1 * q.val = q.val; omega
  | ⟨2, _⟩ => show win2_3.index t (2 : Fin 3) * 128 + 1 * j.val = j.val; omega

/-- The output block's entry (u, p, j) is the array's entry (v, 1000 m + p, j). -/
theorem emb2_4 (u : Fin 1) (p : Fin 1000) (j : Fin 128) :
    ((cfg2.win 4).blk t).view.emb (ix3 u p j) = (ix3 v ⟨m.val * 1000 + p.val, by omega⟩ j : S2x5000x128.Idx) := by
  obtain ⟨-, -, -, -, -, -, -, -, -, -, -, -, -, -, e42⟩ := idx_facts2 t
  funext a; apply Fin.ext
  match a with
  | ⟨0, _⟩ => show win2_4.index t (0 : Fin 3) * 1 + 1 * u.val = v.val; omega
  | ⟨1, _⟩ => show win2_4.index t (1 : Fin 3) * 1000 + 1 * p.val = m.val * 1000 + p.val; omega
  | ⟨2, _⟩ => show win2_4.index t (2 : Fin 3) * 128 + 1 * j.val = j.val; omega

end Blocks

/-- WHAT POINT `t` WRITES BACK is block `t` of the layer function of the input arrays as the region finds them. -/
theorem flushed2_eq (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero hz2]
  simp only [View.ld_unit_zero (S := S1x5000x128) hz2, View.ld_unit_zero (S := S1x1000x5000) hz2,
    View.ld_unit_zero (S := S1x1000x128) hz2, View.ld_unit_zero (S := S1x128x128) hz2]
  rw [k2_pay1_eq]
  obtain ⟨-, -, -, -, -, -, -, -, -, -, -, -, l0, l1, -⟩ := idx_facts2 t
  have hv : win2_4.index t (0 : Fin 3) = (⟨win2_4.index t (0 : Fin 3), by omega⟩ : Fin 2).val := rfl
  have hm : win2_4.index t (1 : Fin 3) = (⟨win2_4.index t (1 : Fin 3), by omega⟩ : Fin 5).val := rfl
  funext y
  obtain ⟨u, p, j, rfl⟩ : ∃ (u : Fin 1) (p : Fin 1000) (j : Fin 128), y = ix3 u p j := ⟨y 0, y 1, y 2, eq_ix3 y⟩
  show layerPay 0x3F183370#32 0x3ECF991F#32 (iblk2 V c 1 t) (iblk2 V c 0 t) (iblk2 V c 2 t) (iblk2 V c 3 t) (ix3 u p j)
    = G2 V c (((cfg2.win 4).blk t).view.emb (ix3 u p j))
  rw [emb2_4 t _ _ hv hm u p j]
  refine (layerPay_apply 0x3F183370#32 0x3ECF991F#32 (iblk2 V c 1 t) (iblk2 V c 0 t) (iblk2 V c 2 t) (iblk2 V c 3 t) u p j).trans ?_
  unfold blockMix
  simp only [blk2_0 V c t _ _ hv hm, blk2_1 V c t _ _ hv hm, blk2_2 V c t _ _ hv hm, blk2_3 V c t _ _ hv hm]
  rfl

/-- An index of the array is in point `t`'s block iff each coordinate is in the block's range on its axis. -/
theorem mem_blk2 (t : Fin cfg2.N) (i : S2x5000x128.Idx) :
    i ∈ ((cfg2.win 4).blk t).view.set ↔ ∀ a : Fin 3, win2_4.index t a * S1x1000x128.size a ≤ (i a).val ∧ (i a).val < win2_4.index t a * S1x1000x128.size a + S1x1000x128.size a := by
  show i ∈ ((View.whole main_v8).slice (win2_4.rect t)).set ↔ _
  rw [View.set_slice_whole, Rect.mem_set_unit]
  exact Iff.rfl

/-- The ten blocks cover the array: row `r` of view `v` is in the block of the point with block index (v, r / 1000, 0). -/
theorem cover2 (i : S2x5000x128.Idx) : ∃ t : Fin cfg2.N, (cfg2.win 4).flush t = true ∧ i ∈ ((cfg2.win 4).blk t).view.set := by
  have hi0 : (i 0).val < 2 := (i 0).isLt
  have hi1 : (i 1).val < 5000 := (i 1).isLt
  have hi2 : (i 2).val < 128 := (i 2).isLt
  obtain ⟨t, ht⟩ := idx_onto2 ⟨(i 0).val, hi0⟩ ⟨(i 1).val / 1000, by omega⟩
  have q0 : win2_4.index t (0 : Fin 3) = (i 0).val := congrFun ht 0
  have q1 : win2_4.index t (1 : Fin 3) = (i 1).val / 1000 := congrFun ht 1
  have q2 : win2_4.index t (2 : Fin 3) = 0 := congrFun ht 2
  refine ⟨t, flush2_4 t, ?_⟩
  rw [mem_blk2]
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 1000 ≤ (i 1).val ∧ (i 1).val < win2_4.index t (1 : Fin 3) * 1000 + 1000; omega
  | ⟨2, _⟩ => show win2_4.index t (2 : Fin 3) * 128 ≤ (i 2).val ∧ (i 2).val < win2_4.index t (2 : Fin 3) * 128 + 128; omega

/-- THE ARRAY after the region: the layer function of the input arrays. -/
theorem final2 (c : Dev nD) : (dat2 V c).arrAt 4 cfg2.N = G2 V c :=
  (dat2 V c).arrAt_eq_of_cover 4 (G2 V c) (fun t _ => flushed2_eq V c t) cover2

/-- Read at an entry written by coordinates. -/
theorem val2 (c : Dev nD) (v : Fin 2) (r : Fin 5000) (j : Fin 128) :
    (dat2 (F := Ideal) V c).arrAt 4 cfg2.N (ix3 v r j)
      = Cert.Spec.layer (fun v r k => V c main_v5 (ix3 v r k)) (fun v k j => V c main_v4 (ix3 v k j))
          (fun v r j => V c main_v4 (ix3 v r j)) (fun v q j => V c main_v7 (ix3 v q j)) 0x3F183370#32 0x3ECF991F#32 v r j := by
  rw [final2]; rfl

end Cert.KernelIdeal.HandVal

end
-- ==== Proof.KI.Val3.lean ====
/-
  Region 3, read: after the region the layer's output array holds, entry by entry, the specification's layer
  function of the region's input arrays (the adjacency, the previous layer, the initial features, the layer's
  weights) as the region finds them.  Each point of the grid (2, 5) writes back one block of 1000 rows of one view;
  the block is the layer's block computation of the point's input blocks (the body's one store), the input blocks
  are restrictions of the arrays (the printed index maps, decided over the grid), and the ten blocks cover the array.
-/
import proofs.«129426_g120259084709_cont_main3_741_6_alg».proof.Proof.KI.Reg3
import proofs.«129426_g120259084709_cont_main3_741_6_alg».proof.Proof.KI.LayerPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- What the output array ends holding: the layer function of the input arrays, index by index. -/
def G3 (c : Dev nD) : S2x5000x128.Idx → EReal := fun i =>
  Cert.Spec.layer (fun v r k => V c main_v5 (ix3 v r k)) (fun v k j => V c main_v8 (ix3 v k j))
    (fun v r j => V c main_v4 (ix3 v r j)) (fun v q j => V c main_v10 (ix3 v q j)) 0x3F46E010#32 0x3E647FBE#32 (i 0) (i 1) (i 2)

/-- The printed index maps, decided over the grid: every window's view coordinate is the output's; the adjacency's and
    the initial features' row-block coordinate is the output's; every other coordinate is 0. -/
theorem idx_facts3 : ∀ t : Fin cfg3.N,
    win3_0.index t (0 : Fin 3) = win3_4.index t (0 : Fin 3) ∧ win3_0.index t (1 : Fin 3) = win3_4.index t (1 : Fin 3)
    ∧ win3_0.index t (2 : Fin 3) = 0
    ∧ win3_1.index t (0 : Fin 3) = win3_4.index t (0 : Fin 3) ∧ win3_1.index t (1 : Fin 3) = 0 ∧ win3_1.index t (2 : Fin 3) = 0
    ∧ win3_2.index t (0 : Fin 3) = win3_4.index t (0 : Fin 3) ∧ win3_2.index t (1 : Fin 3) = win3_4.index t (1 : Fin 3)
    ∧ win3_2.index t (2 : Fin 3) = 0
    ∧ win3_3.index t (0 : Fin 3) = win3_4.index t (0 : Fin 3) ∧ win3_3.index t (1 : Fin 3) = 0 ∧ win3_3.index t (2 : Fin 3) = 0
    ∧ win3_4.index t (0 : Fin 3) ≤ 1 ∧ win3_4.index t (1 : Fin 3) ≤ 4 ∧ win3_4.index t (2 : Fin 3) = 0 :=
  (by decide +kernel : ∀ t : Fin grid3.N, _)

/-- Every block of the output array is some point's. -/
theorem idx_onto3 : ∀ (q0 : Fin 2) (q1 : Fin 5), ∃ t : Fin cfg3.N, win3_4.index t = ![q0.val, q1.val, 0] :=
  (by decide +kernel : ∀ (q0 : Fin 2) (q1 : Fin 5), ∃ t : Fin grid3.N, win3_4.index t = ![q0.val, q1.val, 0])

/-! ## The input blocks at a point are restrictions of the arrays -/

section Blocks
variable (c : Dev nD) (t : Fin cfg3.N) (v : Fin 2) (m : Fin 5)
  (hv : win3_4.index t (0 : Fin 3) = v.val) (hm : win3_4.index t (1 : Fin 3) = m.val)
include hv hm

theorem blk3_0 (u : Fin 1) (p : Fin 1000) (k : Fin 5000) :
    iblk3 V c 0 t (ix3 u p k) = V c main_v5 (ix3 v ⟨m.val * 1000 + p.val, by omega⟩ k) := by
  obtain ⟨e00, e01, e02, e10, e11, e12, e20, e21, e22, e30, e31, e32, -, -, -⟩ := idx_facts3 t
  show V c main_v5 (((cfg3.win 0).blk t).view.emb (ix3 u p k)) = _
  refine congrArg (V c main_v5) ?_
  funext a; apply Fin.ext
  match a with
  | ⟨0, _⟩ => show win3_0.index t (0 : Fin 3) * 1 + 1 * u.val = v.val; omega
  | ⟨1, _⟩ => show win3_0.index t (1 : Fin 3) * 1000 + 1 * p.val = m.val * 1000 + p.val; omega
  | ⟨2, _⟩ => show win3_0.index t (2 : Fin 3) * 5000 + 1 * k.val = k.val; omega

theorem blk3_1 (u : Fin 1) (k : Fin 5000) (j : Fin 128) :
    iblk3 V c 1 t (ix3 u k j) = V c main_v8 (ix3 v k j) := by
  obtain ⟨e00, e01, e02, e10, e11, e12, e20, e21, e22, e30, e31, e32, -, -, -⟩ := idx_facts3 t
  show V c main_v8 (((cfg3.win 1).blk t).view.emb (ix3 u k j)) = _
  refine congrArg (V c main_v8) ?_
  funext a; apply Fin.ext
  match a with
  | ⟨0, _⟩ => show win3_1.index t (0 : Fin 3) * 1 + 1 * u.val = v.val; omega
  | ⟨1, _⟩ => show win3_1.index t (1 : Fin 3) * 5000 + 1 * k.val = k.val; omega
  | ⟨2, _⟩ => show win3_1.index t (2 : Fin 3) * 128 + 1 * j.val = j.val; omega

theorem blk3_2 (u : Fin 1) (p : Fin 1000) (j : Fin 128) :
    iblk3 V c 2 t (ix3 u p j) = V c main_v4 (ix3 v ⟨m.val * 1000 + p.val, by omega⟩ j) := by
  obtain ⟨e00, e01, e02, e10, e11, e12, e20, e21, e22, e30, e31, e32, -, -, -⟩ := idx_facts3 t
  show V c main_v4 (((cfg3.win 2).blk t).view.emb (ix3 u p j)) = _
  refine congrArg (V c main_v4) ?_
  funext a; apply Fin.ext
  match a with
  | ⟨0, _⟩ => show win3_2.index t (0 : Fin 3) * 1 + 1 * u.val = v.val; omega
  | ⟨1, _⟩ => show win3_2.index t (1 : Fin 3) * 1000 + 1 * p.val = m.val * 1000 + p.val; omega
  | ⟨2, _⟩ => show win3_2.index t (2 : Fin 3) * 128 + 1 * j.val = j.val; omega

theorem blk3_3 (u : Fin 1) (q : Fin 128) (j : Fin 128) :
    iblk3 V c 3 t (ix3 u q j) = V c main_v10 (ix3 v q j) := by
  obtain ⟨e00, e01, e02, e10, e11, e12, e20, e21, e22, e30, e31, e32, -, -, -⟩ := idx_facts3 t
  show V c main_v10 (((cfg3.win 3).blk t).view.emb (ix3 u q j)) = _
  refine congrArg (V c main_v10) ?_
  funext a; apply Fin.ext
  match a with
  | ⟨0, _⟩ => show win3_3.index t (0 : Fin 3) * 1 + 1 * u.val = v.val; omega
  | ⟨1, _⟩ => show win3_3.index t (1 : Fin 3) * 128 + 1 * q.val = q.val; omega
  | ⟨2, _⟩ => show win3_3.index t (2 : Fin 3) * 128 + 1 * j.val = j.val; omega

/-- The output block's entry (u, p, j) is the array's entry (v, 1000 m + p, j). -/
theorem emb3_4 (u : Fin 1) (p : Fin 1000) (j : Fin 128) :
    ((cfg3.win 4).blk t).view.emb (ix3 u p j) = (ix3 v ⟨m.val * 1000 + p.val, by omega⟩ j : S2x5000x128.Idx) := by
  obtain ⟨-, -, -, -, -, -, -, -, -, -, -, -, -, -, e42⟩ := idx_facts3 t
  funext a; apply Fin.ext
  match a with
  | ⟨0, _⟩ => show win3_4.index t (0 : Fin 3) * 1 + 1 * u.val = v.val; omega
  | ⟨1, _⟩ => show win3_4.index t (1 : Fin 3) * 1000 + 1 * p.val = m.val * 1000 + p.val; omega
  | ⟨2, _⟩ => show win3_4.index t (2 : Fin 3) * 128 + 1 * j.val = j.val; omega

end Blocks

/-- WHAT POINT `t` WRITES BACK is block `t` of the layer function of the input arrays as the region finds them. -/
theorem flushed3_eq (c : Dev nD) (t : Fin cfg3.N) :
    (dat3 V c).flushed 4 t = ((cfg3.win 4).blk t).view.read (Elt Ideal) (G3 V c) := by
  show (cfg3.win 4).cut (grid3.coords t) ((dat3 V c).after 4 t) = _
  rw [after3_4]
  unfold out3_4
  rw [View.canon_unit_zero hz3]
  simp only [View.ld_unit_zero (S := S1x5000x128) hz3, View.ld_unit_zero (S := S1x1000x5000) hz3,
    View.ld_unit_zero (S := S1x1000x128) hz3, View.ld_unit_zero (S := S1x128x128) hz3]
  rw [k3_pay1_eq]
  obtain ⟨-, -, -, -, -, -, -, -, -, -, -, -, l0, l1, -⟩ := idx_facts3 t
  have hv : win3_4.index t (0 : Fin 3) = (⟨win3_4.index t (0 : Fin 3), by omega⟩ : Fin 2).val := rfl
  have hm : win3_4.index t (1 : Fin 3) = (⟨win3_4.index t (1 : Fin 3), by omega⟩ : Fin 5).val := rfl
  funext y
  obtain ⟨u, p, j, rfl⟩ : ∃ (u : Fin 1) (p : Fin 1000) (j : Fin 128), y = ix3 u p j := ⟨y 0, y 1, y 2, eq_ix3 y⟩
  show layerPay 0x3F46E010#32 0x3E647FBE#32 (iblk3 V c 1 t) (iblk3 V c 0 t) (iblk3 V c 2 t) (iblk3 V c 3 t) (ix3 u p j)
    = G3 V c (((cfg3.win 4).blk t).view.emb (ix3 u p j))
  rw [emb3_4 t _ _ hv hm u p j]
  refine (layerPay_apply 0x3F46E010#32 0x3E647FBE#32 (iblk3 V c 1 t) (iblk3 V c 0 t) (iblk3 V c 2 t) (iblk3 V c 3 t) u p j).trans ?_
  unfold blockMix
  simp only [blk3_0 V c t _ _ hv hm, blk3_1 V c t _ _ hv hm, blk3_2 V c t _ _ hv hm, blk3_3 V c t _ _ hv hm]
  rfl

/-- An index of the array is in point `t`'s block iff each coordinate is in the block's range on its axis. -/
theorem mem_blk3 (t : Fin cfg3.N) (i : S2x5000x128.Idx) :
    i ∈ ((cfg3.win 4).blk t).view.set ↔ ∀ a : Fin 3, win3_4.index t a * S1x1000x128.size a ≤ (i a).val ∧ (i a).val < win3_4.index t a * S1x1000x128.size a + S1x1000x128.size a := by
  show i ∈ ((View.whole main_v11).slice (win3_4.rect t)).set ↔ _
  rw [View.set_slice_whole, Rect.mem_set_unit]
  exact Iff.rfl

/-- The ten blocks cover the array: row `r` of view `v` is in the block of the point with block index (v, r / 1000, 0). -/
theorem cover3 (i : S2x5000x128.Idx) : ∃ t : Fin cfg3.N, (cfg3.win 4).flush t = true ∧ i ∈ ((cfg3.win 4).blk t).view.set := by
  have hi0 : (i 0).val < 2 := (i 0).isLt
  have hi1 : (i 1).val < 5000 := (i 1).isLt
  have hi2 : (i 2).val < 128 := (i 2).isLt
  obtain ⟨t, ht⟩ := idx_onto3 ⟨(i 0).val, hi0⟩ ⟨(i 1).val / 1000, by omega⟩
  have q0 : win3_4.index t (0 : Fin 3) = (i 0).val := congrFun ht 0
  have q1 : win3_4.index t (1 : Fin 3) = (i 1).val / 1000 := congrFun ht 1
  have q2 : win3_4.index t (2 : Fin 3) = 0 := congrFun ht 2
  refine ⟨t, flush3_4 t, ?_⟩
  rw [mem_blk3]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 1000 ≤ (i 1).val ∧ (i 1).val < win3_4.index t (1 : Fin 3) * 1000 + 1000; omega
  | ⟨2, _⟩ => show win3_4.index t (2 : Fin 3) * 128 ≤ (i 2).val ∧ (i 2).val < win3_4.index t (2 : Fin 3) * 128 + 128; omega

/-- THE ARRAY after the region: the layer function of the input arrays. -/
theorem final3 (c : Dev nD) : (dat3 V c).arrAt 4 cfg3.N = G3 V c :=
  (dat3 V c).arrAt_eq_of_cover 4 (G3 V c) (fun t _ => flushed3_eq V c t) cover3

/-- Read at an entry written by coordinates. -/
theorem val3 (c : Dev nD) (v : Fin 2) (r : Fin 5000) (j : Fin 128) :
    (dat3 (F := Ideal) V c).arrAt 4 cfg3.N (ix3 v r j)
      = Cert.Spec.layer (fun v r k => V c main_v5 (ix3 v r k)) (fun v k j => V c main_v8 (ix3 v k j))
          (fun v r j => V c main_v4 (ix3 v r j)) (fun v q j => V c main_v10 (ix3 v q j)) 0x3F46E010#32 0x3E647FBE#32 v r j := by
  rw [final3]; rfl

end Cert.KernelIdeal.HandVal

end
-- ==== Proof.KI.Val4.lean ====
/-
  Region 4, read: after the region the layer's output array holds, entry by entry, the specification's layer
  function of the region's input arrays (the adjacency, the previous layer, the initial features, the layer's
  weights) as the region finds them.  Each point of the grid (2, 5) writes back one block of 1000 rows of one view;
  the block is the layer's block computation of the point's input blocks (the body's one store), the input blocks
  are restrictions of the arrays (the printed index maps, decided over the grid), and the ten blocks cover the array.
-/
import proofs.«129426_g120259084709_cont_main3_741_6_alg».proof.Proof.KI.Reg4
import proofs.«129426_g120259084709_cont_main3_741_6_alg».proof.Proof.KI.LayerPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0, 0] : Fin 3 → Nat) = fun _ => 0 := funext fun a => by fin_cases a <;> rfl

/-- What the output array ends holding: the layer function of the input arrays, index by index. -/
def G4 (c : Dev nD) : S2x5000x128.Idx → EReal := fun i =>
  Cert.Spec.layer (fun v r k => V c main_v5 (ix3 v r k)) (fun v k j => V c main_v11 (ix3 v k j))
    (fun v r j => V c main_v4 (ix3 v r j)) (fun v q j => V c main_v13 (ix3 v q j)) 0x3F588995#32 0x3E1DD9AD#32 (i 0) (i 1) (i 2)

/-- The printed index maps, decided over the grid: every window's view coordinate is the output's; the adjacency's and
    the initial features' row-block coordinate is the output's; every other coordinate is 0. -/
theorem idx_facts4 : ∀ t : Fin cfg4.N,
    win4_0.index t (0 : Fin 3) = win4_4.index t (0 : Fin 3) ∧ win4_0.index t (1 : Fin 3) = win4_4.index t (1 : Fin 3)
    ∧ win4_0.index t (2 : Fin 3) = 0
    ∧ win4_1.index t (0 : Fin 3) = win4_4.index t (0 : Fin 3) ∧ win4_1.index t (1 : Fin 3) = 0 ∧ win4_1.index t (2 : Fin 3) = 0
    ∧ win4_2.index t (0 : Fin 3) = win4_4.index t (0 : Fin 3) ∧ win4_2.index t (1 : Fin 3) = win4_4.index t (1 : Fin 3)
    ∧ win4_2.index t (2 : Fin 3) = 0
    ∧ win4_3.index t (0 : Fin 3) = win4_4.index t (0 : Fin 3) ∧ win4_3.index t (1 : Fin 3) = 0 ∧ win4_3.index t (2 : Fin 3) = 0
    ∧ win4_4.index t (0 : Fin 3) ≤ 1 ∧ win4_4.index t (1 : Fin 3) ≤ 4 ∧ win4_4.index t (2 : Fin 3) = 0 :=
  (by decide +kernel : ∀ t : Fin grid4.N, _)

/-- Every block of the output array is some point's. -/
theorem idx_onto4 : ∀ (q0 : Fin 2) (q1 : Fin 5), ∃ t : Fin cfg4.N, win4_4.index t = ![q0.val, q1.val, 0] :=
  (by decide +kernel : ∀ (q0 : Fin 2) (q1 : Fin 5), ∃ t : Fin grid4.N, win4_4.index t = ![q0.val, q1.val, 0])

/-! ## The input blocks at a point are restrictions of the arrays -/

section Blocks
variable (c : Dev nD) (t : Fin cfg4.N) (v : Fin 2) (m : Fin 5)
  (hv : win4_4.index t (0 : Fin 3) = v.val) (hm : win4_4.index t (1 : Fin 3) = m.val)
include hv hm

theorem blk4_0 (u : Fin 1) (p : Fin 1000) (k : Fin 5000) :
    iblk4 V c 0 t (ix3 u p k) = V c main_v5 (ix3 v ⟨m.val * 1000 + p.val, by omega⟩ k) := by
  obtain ⟨e00, e01, e02, e10, e11, e12, e20, e21, e22, e30, e31, e32, -, -, -⟩ := idx_facts4 t
  show V c main_v5 (((cfg4.win 0).blk t).view.emb (ix3 u p k)) = _
  refine congrArg (V c main_v5) ?_
  funext a; apply Fin.ext
  match a with
  | ⟨0, _⟩ => show win4_0.index t (0 : Fin 3) * 1 + 1 * u.val = v.val; omega
  | ⟨1, _⟩ => show win4_0.index t (1 : Fin 3) * 1000 + 1 * p.val = m.val * 1000 + p.val; omega
  | ⟨2, _⟩ => show win4_0.index t (2 : Fin 3) * 5000 + 1 * k.val = k.val; omega

theorem blk4_1 (u : Fin 1) (k : Fin 5000) (j : Fin 128) :
    iblk4 V c 1 t (ix3 u k j) = V c main_v11 (ix3 v k j) := by
  obtain ⟨e00, e01, e02, e10, e11, e12, e20, e21, e22, e30, e31, e32, -, -, -⟩ := idx_facts4 t
  show V c main_v11 (((cfg4.win 1).blk t).view.emb (ix3 u k j)) = _
  refine congrArg (V c main_v11) ?_
  funext a; apply Fin.ext
  match a with
  | ⟨0, _⟩ => show win4_1.index t (0 : Fin 3) * 1 + 1 * u.val = v.val; omega
  | ⟨1, _⟩ => show win4_1.index t (1 : Fin 3) * 5000 + 1 * k.val = k.val; omega
  | ⟨2, _⟩ => show win4_1.index t (2 : Fin 3) * 128 + 1 * j.val = j.val; omega

theorem blk4_2 (u : Fin 1) (p : Fin 1000) (j : Fin 128) :
    iblk4 V c 2 t (ix3 u p j) = V c main_v4 (ix3 v ⟨m.val * 1000 + p.val, by omega⟩ j) := by
  obtain ⟨e00, e01, e02, e10, e11, e12, e20, e21, e22, e30, e31, e32, -, -, -⟩ := idx_facts4 t
  show V c main_v4 (((cfg4.win 2).blk t).view.emb (ix3 u p j)) = _
  refine congrArg (V c main_v4) ?_
  funext a; apply Fin.ext
  match a with
  | ⟨0, _⟩ => show win4_2.index t (0 : Fin 3) * 1 + 1 * u.val = v.val; omega
  | ⟨1, _⟩ => show win4_2.index t (1 : Fin 3) * 1000 + 1 * p.val = m.val * 1000 + p.val; omega
  | ⟨2, _⟩ => show win4_2.index t (2 : Fin 3) * 128 + 1 * j.val = j.val; omega

theorem blk4_3 (u : Fin 1) (q : Fin 128) (j : Fin 128) :
    iblk4 V c 3 t (ix3 u q j) = V c main_v13 (ix3 v q j) := by
  obtain ⟨e00, e01, e02, e10, e11, e12, e20, e21, e22, e30, e31, e32, -, -, -⟩ := idx_facts4 t
  show V c main_v13 (((cfg4.win 3).blk t).view.emb (ix3 u q j)) = _
  refine congrArg (V c main_v13) ?_
  funext a; apply Fin.ext
  match a with
  | ⟨0, _⟩ => show win4_3.index t (0 : Fin 3) * 1 + 1 * u.val = v.val; omega
  | ⟨1, _⟩ => show win4_3.index t (1 : Fin 3) * 128 + 1 * q.val = q.val; omega
  | ⟨2, _⟩ => show win4_3.index t (2 : Fin 3) * 128 + 1 * j.val = j.val; omega

/-- The output block's entry (u, p, j) is the array's entry (v, 1000 m + p, j). -/
theorem emb4_4 (u : Fin 1) (p : Fin 1000) (j : Fin 128) :
    ((cfg4.win 4).blk t).view.emb (ix3 u p j) = (ix3 v ⟨m.val * 1000 + p.val, by omega⟩ j : S2x5000x128.Idx) := by
  obtain ⟨-, -, -, -, -, -, -, -, -, -, -, -, -, -, e42⟩ := idx_facts4 t
  funext a; apply Fin.ext
  match a with
  | ⟨0, _⟩ => show win4_4.index t (0 : Fin 3) * 1 + 1 * u.val = v.val; omega
  | ⟨1, _⟩ => show win4_4.index t (1 : Fin 3) * 1000 + 1 * p.val = m.val * 1000 + p.val; omega
  | ⟨2, _⟩ => show win4_4.index t (2 : Fin 3) * 128 + 1 * j.val = j.val; omega

end Blocks

/-- WHAT POINT `t` WRITES BACK is block `t` of the layer function of the input arrays as the region finds them. -/
theorem flushed4_eq (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4]
  unfold out4_4
  rw [View.canon_unit_zero hz4]
  simp only [View.ld_unit_zero (S := S1x5000x128) hz4, View.ld_unit_zero (S := S1x1000x5000) hz4,
    View.ld_unit_zero (S := S1x1000x128) hz4, View.ld_unit_zero (S := S1x128x128) hz4]
  rw [k4_pay1_eq]
  obtain ⟨-, -, -, -, -, -, -, -, -, -, -, -, l0, l1, -⟩ := idx_facts4 t
  have hv : win4_4.index t (0 : Fin 3) = (⟨win4_4.index t (0 : Fin 3), by omega⟩ : Fin 2).val := rfl
  have hm : win4_4.index t (1 : Fin 3) = (⟨win4_4.index t (1 : Fin 3), by omega⟩ : Fin 5).val := rfl
  funext y
  obtain ⟨u, p, j, rfl⟩ : ∃ (u : Fin 1) (p : Fin 1000) (j : Fin 128), y = ix3 u p j := ⟨y 0, y 1, y 2, eq_ix3 y⟩
  show layerPay 0x3F588995#32 0x3E1DD9AD#32 (iblk4 V c 1 t) (iblk4 V c 0 t) (iblk4 V c 2 t) (iblk4 V c 3 t) (ix3 u p j)
    = G4 V c (((cfg4.win 4).blk t).view.emb (ix3 u p j))
  rw [emb4_4 t _ _ hv hm u p j]
  refine (layerPay_apply 0x3F588995#32 0x3E1DD9AD#32 (iblk4 V c 1 t) (iblk4 V c 0 t) (iblk4 V c 2 t) (iblk4 V c 3 t) u p j).trans ?_
  unfold blockMix
  simp only [blk4_0 V c t _ _ hv hm, blk4_1 V c t _ _ hv hm, blk4_2 V c t _ _ hv hm, blk4_3 V c t _ _ hv hm]
  rfl

/-- An index of the array is in point `t`'s block iff each coordinate is in the block's range on its axis. -/
theorem mem_blk4 (t : Fin cfg4.N) (i : S2x5000x128.Idx) :
    i ∈ ((cfg4.win 4).blk t).view.set ↔ ∀ a : Fin 3, win4_4.index t a * S1x1000x128.size a ≤ (i a).val ∧ (i a).val < win4_4.index t a * S1x1000x128.size a + S1x1000x128.size a := by
  show i ∈ ((View.whole main_v14).slice (win4_4.rect t)).set ↔ _
  rw [View.set_slice_whole, Rect.mem_set_unit]
  exact Iff.rfl

/-- The ten blocks cover the array: row `r` of view `v` is in the block of the point with block index (v, r / 1000, 0). -/
theorem cover4 (i : S2x5000x128.Idx) : ∃ t : Fin cfg4.N, (cfg4.win 4).flush t = true ∧ i ∈ ((cfg4.win 4).blk t).view.set := by
  have hi0 : (i 0).val < 2 := (i 0).isLt
  have hi1 : (i 1).val < 5000 := (i 1).isLt
  have hi2 : (i 2).val < 128 := (i 2).isLt
  obtain ⟨t, ht⟩ := idx_onto4 ⟨(i 0).val, hi0⟩ ⟨(i 1).val / 1000, by omega⟩
  have q0 : win4_4.index t (0 : Fin 3) = (i 0).val := congrFun ht 0
  have q1 : win4_4.index t (1 : Fin 3) = (i 1).val / 1000 := congrFun ht 1
  have q2 : win4_4.index t (2 : Fin 3) = 0 := congrFun ht 2
  refine ⟨t, flush4_4 t, ?_⟩
  rw [mem_blk4]
  intro a
  match a with
  | ⟨0, _⟩ => show win4_4.index t (0 : Fin 3) * 1 ≤ (i 0).val ∧ (i 0).val < win4_4.index t (0 : Fin 3) * 1 + 1; omega
  | ⟨1, _⟩ => show win4_4.index t (1 : Fin 3) * 1000 ≤ (i 1).val ∧ (i 1).val < win4_4.index t (1 : Fin 3) * 1000 + 1000; omega
  | ⟨2, _⟩ => show win4_4.index t (2 : Fin 3) * 128 ≤ (i 2).val ∧ (i 2).val < win4_4.index t (2 : Fin 3) * 128 + 128; omega

/-- THE ARRAY after the region: the layer function of the input arrays. -/
theorem final4 (c : Dev nD) : (dat4 V c).arrAt 4 cfg4.N = G4 V c :=
  (dat4 V c).arrAt_eq_of_cover 4 (G4 V c) (fun t _ => flushed4_eq V c t) cover4

/-- Read at an entry written by coordinates. -/
theorem val4 (c : Dev nD) (v : Fin 2) (r : Fin 5000) (j : Fin 128) :
    (dat4 (F := Ideal) V c).arrAt 4 cfg4.N (ix3 v r j)
      = Cert.Spec.layer (fun v r k => V c main_v5 (ix3 v r k)) (fun v k j => V c main_v11 (ix3 v k j))
          (fun v r j => V c main_v4 (ix3 v r j)) (fun v q j => V c main_v13 (ix3 v q j)) 0x3F588995#32 0x3E1DD9AD#32 v r j := by
  rw [final4]; rfl

end Cert.KernelIdeal.HandVal

end
-- ==== Proof.KI.Val5.lean ====
/-
  Region 5, read: after the region the layer's output array holds, entry by entry, the specification's layer
  function of the region's input arrays (the adjacency, the previous layer, the initial features, the layer's
  weights) as the region finds them.  Each point of the grid (2, 5) writes back one block of 1000 rows of one view;
  the block is the layer's block computation of the point's input blocks (the body's one store), the input blocks
  are restrictions of the arrays (the printed index maps, decided over the grid), and the ten blocks cover the array.
-/
import proofs.«129426_g120259084709_cont_main3_741_6_alg».proof.Proof.KI.Reg5
import proofs.«129426_g120259084709_cont_main3_741_6_alg».proof.Proof.KI.LayerPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0, 0] : Fin 3 → Nat) = fun _ => 0 := funext fun a => by fin_cases a <;> rfl

/-- What the output array ends holding: the layer function of the input arrays, index by index. -/
def G5 (c : Dev nD) : S2x5000x128.Idx → EReal := fun i =>
  Cert.Spec.layer (fun v r k => V c main_v5 (ix3 v r k)) (fun v k j => V c main_v14 (ix3 v k j))
    (fun v r j => V c main_v4 (ix3 v r j)) (fun v q j => V c main_v16 (ix3 v q j)) 0x3F61D8F9#32 0x3DF1383B#32 (i 0) (i 1) (i 2)

/-- The printed index maps, decided over the grid: every window's view coordinate is the output's; the adjacency's and
    the initial features' row-block coordinate is the output's; every other coordinate is 0. -/
theorem idx_facts5 : ∀ t : Fin cfg5.N,
    win5_0.index t (0 : Fin 3) = win5_4.index t (0 : Fin 3) ∧ win5_0.index t (1 : Fin 3) = win5_4.index t (1 : Fin 3)
    ∧ win5_0.index t (2 : Fin 3) = 0
    ∧ win5_1.index t (0 : Fin 3) = win5_4.index t (0 : Fin 3) ∧ win5_1.index t (1 : Fin 3) = 0 ∧ win5_1.index t (2 : Fin 3) = 0
    ∧ win5_2.index t (0 : Fin 3) = win5_4.index t (0 : Fin 3) ∧ win5_2.index t (1 : Fin 3) = win5_4.index t (1 : Fin 3)
    ∧ win5_2.index t (2 : Fin 3) = 0
    ∧ win5_3.index t (0 : Fin 3) = win5_4.index t (0 : Fin 3) ∧ win5_3.index t (1 : Fin 3) = 0 ∧ win5_3.index t (2 : Fin 3) = 0
    ∧ win5_4.index t (0 : Fin 3) ≤ 1 ∧ win5_4.index t (1 : Fin 3) ≤ 4 ∧ win5_4.index t (2 : Fin 3) = 0 :=
  (by decide +kernel : ∀ t : Fin grid5.N, _)

/-- Every block of the output array is some point's. -/
theorem idx_onto5 : ∀ (q0 : Fin 2) (q1 : Fin 5), ∃ t : Fin cfg5.N, win5_4.index t = ![q0.val, q1.val, 0] :=
  (by decide +kernel : ∀ (q0 : Fin 2) (q1 : Fin 5), ∃ t : Fin grid5.N, win5_4.index t = ![q0.val, q1.val, 0])

/-! ## The input blocks at a point are restrictions of the arrays -/

section Blocks
variable (c : Dev nD) (t : Fin cfg5.N) (v : Fin 2) (m : Fin 5)
  (hv : win5_4.index t (0 : Fin 3) = v.val) (hm : win5_4.index t (1 : Fin 3) = m.val)
include hv hm

theorem blk5_0 (u : Fin 1) (p : Fin 1000) (k : Fin 5000) :
    iblk5 V c 0 t (ix3 u p k) = V c main_v5 (ix3 v ⟨m.val * 1000 + p.val, by omega⟩ k) := by
  obtain ⟨e00, e01, e02, e10, e11, e12, e20, e21, e22, e30, e31, e32, -, -, -⟩ := idx_facts5 t
  show V c main_v5 (((cfg5.win 0).blk t).view.emb (ix3 u p k)) = _
  refine congrArg (V c main_v5) ?_
  funext a; apply Fin.ext
  match a with
  | ⟨0, _⟩ => show win5_0.index t (0 : Fin 3) * 1 + 1 * u.val = v.val; omega
  | ⟨1, _⟩ => show win5_0.index t (1 : Fin 3) * 1000 + 1 * p.val = m.val * 1000 + p.val; omega
  | ⟨2, _⟩ => show win5_0.index t (2 : Fin 3) * 5000 + 1 * k.val = k.val; omega

theorem blk5_1 (u : Fin 1) (k : Fin 5000) (j : Fin 128) :
    iblk5 V c 1 t (ix3 u k j) = V c main_v14 (ix3 v k j) := by
  obtain ⟨e00, e01, e02, e10, e11, e12, e20, e21, e22, e30, e31, e32, -, -, -⟩ := idx_facts5 t
  show V c main_v14 (((cfg5.win 1).blk t).view.emb (ix3 u k j)) = _
  refine congrArg (V c main_v14) ?_
  funext a; apply Fin.ext
  match a with
  | ⟨0, _⟩ => show win5_1.index t (0 : Fin 3) * 1 + 1 * u.val = v.val; omega
  | ⟨1, _⟩ => show win5_1.index t (1 : Fin 3) * 5000 + 1 * k.val = k.val; omega
  | ⟨2, _⟩ => show win5_1.index t (2 : Fin 3) * 128 + 1 * j.val = j.val; omega

theorem blk5_2 (u : Fin 1) (p : Fin 1000) (j : Fin 128) :
    iblk5 V c 2 t (ix3 u p j) = V c main_v4 (ix3 v ⟨m.val * 1000 + p.val, by omega⟩ j) := by
  obtain ⟨e00, e01, e02, e10, e11, e12, e20, e21, e22, e30, e31, e32, -, -, -⟩ := idx_facts5 t
  show V c main_v4 (((cfg5.win 2).blk t).view.emb (ix3 u p j)) = _
  refine congrArg (V c main_v4) ?_
  funext a; apply Fin.ext
  match a with
  | ⟨0, _⟩ => show win5_2.index t (0 : Fin 3) * 1 + 1 * u.val = v.val; omega
  | ⟨1, _⟩ => show win5_2.index t (1 : Fin 3) * 1000 + 1 * p.val = m.val * 1000 + p.val; omega
  | ⟨2, _⟩ => show win5_2.index t (2 : Fin 3) * 128 + 1 * j.val = j.val; omega

theorem blk5_3 (u : Fin 1) (q : Fin 128) (j : Fin 128) :
    iblk5 V c 3 t (ix3 u q j) = V c main_v16 (ix3 v q j) := by
  obtain ⟨e00, e01, e02, e10, e11, e12, e20, e21, e22, e30, e31, e32, -, -, -⟩ := idx_facts5 t
  show V c main_v16 (((cfg5.win 3).blk t).view.emb (ix3 u q j)) = _
  refine congrArg (V c main_v16) ?_
  funext a; apply Fin.ext
  match a with
  | ⟨0, _⟩ => show win5_3.index t (0 : Fin 3) * 1 + 1 * u.val = v.val; omega
  | ⟨1, _⟩ => show win5_3.index t (1 : Fin 3) * 128 + 1 * q.val = q.val; omega
  | ⟨2, _⟩ => show win5_3.index t (2 : Fin 3) * 128 + 1 * j.val = j.val; omega

/-- The output block's entry (u, p, j) is the array's entry (v, 1000 m + p, j). -/
theorem emb5_4 (u : Fin 1) (p : Fin 1000) (j : Fin 128) :
    ((cfg5.win 4).blk t).view.emb (ix3 u p j) = (ix3 v ⟨m.val * 1000 + p.val, by omega⟩ j : S2x5000x128.Idx) := by
  obtain ⟨-, -, -, -, -, -, -, -, -, -, -, -, -, -, e42⟩ := idx_facts5 t
  funext a; apply Fin.ext
  match a with
  | ⟨0, _⟩ => show win5_4.index t (0 : Fin 3) * 1 + 1 * u.val = v.val; omega
  | ⟨1, _⟩ => show win5_4.index t (1 : Fin 3) * 1000 + 1 * p.val = m.val * 1000 + p.val; omega
  | ⟨2, _⟩ => show win5_4.index t (2 : Fin 3) * 128 + 1 * j.val = j.val; omega

end Blocks

/-- WHAT POINT `t` WRITES BACK is block `t` of the layer function of the input arrays as the region finds them. -/
theorem flushed5_eq (c : Dev nD) (t : Fin cfg5.N) :
    (dat5 V c).flushed 4 t = ((cfg5.win 4).blk t).view.read (Elt Ideal) (G5 V c) := by
  show (cfg5.win 4).cut (grid5.coords t) ((dat5 V c).after 4 t) = _
  rw [after5_4]
  unfold out5_4
  rw [View.canon_unit_zero hz5]
  simp only [View.ld_unit_zero (S := S1x5000x128) hz5, View.ld_unit_zero (S := S1x1000x5000) hz5,
    View.ld_unit_zero (S := S1x1000x128) hz5, View.ld_unit_zero (S := S1x128x128) hz5]
  rw [k5_pay1_eq]
  obtain ⟨-, -, -, -, -, -, -, -, -, -, -, -, l0, l1, -⟩ := idx_facts5 t
  have hv : win5_4.index t (0 : Fin 3) = (⟨win5_4.index t (0 : Fin 3), by omega⟩ : Fin 2).val := rfl
  have hm : win5_4.index t (1 : Fin 3) = (⟨win5_4.index t (1 : Fin 3), by omega⟩ : Fin 5).val := rfl
  funext y
  obtain ⟨u, p, j, rfl⟩ : ∃ (u : Fin 1) (p : Fin 1000) (j : Fin 128), y = ix3 u p j := ⟨y 0, y 1, y 2, eq_ix3 y⟩
  show layerPay 0x3F61D8F9#32 0x3DF1383B#32 (iblk5 V c 1 t) (iblk5 V c 0 t) (iblk5 V c 2 t) (iblk5 V c 3 t) (ix3 u p j)
    = G5 V c (((cfg5.win 4).blk t).view.emb (ix3 u p j))
  rw [emb5_4 t _ _ hv hm u p j]
  refine (layerPay_apply 0x3F61D8F9#32 0x3DF1383B#32 (iblk5 V c 1 t) (iblk5 V c 0 t) (iblk5 V c 2 t) (iblk5 V c 3 t) u p j).trans ?_
  unfold blockMix
  simp only [blk5_0 V c t _ _ hv hm, blk5_1 V c t _ _ hv hm, blk5_2 V c t _ _ hv hm, blk5_3 V c t _ _ hv hm]
  rfl

/-- An index of the array is in point `t`'s block iff each coordinate is in the block's range on its axis. -/
theorem mem_blk5 (t : Fin cfg5.N) (i : S2x5000x128.Idx) :
    i ∈ ((cfg5.win 4).blk t).view.set ↔ ∀ a : Fin 3, win5_4.index t a * S1x1000x128.size a ≤ (i a).val ∧ (i a).val < win5_4.index t a * S1x1000x128.size a + S1x1000x128.size a := by
  show i ∈ ((View.whole main_v17).slice (win5_4.rect t)).set ↔ _
  rw [View.set_slice_whole, Rect.mem_set_unit]
  exact Iff.rfl

/-- The ten blocks cover the array: row `r` of view `v` is in the block of the point with block index (v, r / 1000, 0). -/
theorem cover5 (i : S2x5000x128.Idx) : ∃ t : Fin cfg5.N, (cfg5.win 4).flush t = true ∧ i ∈ ((cfg5.win 4).blk t).view.set := by
  have hi0 : (i 0).val < 2 := (i 0).isLt
  have hi1 : (i 1).val < 5000 := (i 1).isLt
  have hi2 : (i 2).val < 128 := (i 2).isLt
  obtain ⟨t, ht⟩ := idx_onto5 ⟨(i 0).val, hi0⟩ ⟨(i 1).val / 1000, by omega⟩
  have q0 : win5_4.index t (0 : Fin 3) = (i 0).val := congrFun ht 0
  have q1 : win5_4.index t (1 : Fin 3) = (i 1).val / 1000 := congrFun ht 1
  have q2 : win5_4.index t (2 : Fin 3) = 0 := congrFun ht 2
  refine ⟨t, flush5_4 t, ?_⟩
  rw [mem_blk5]
  intro a
  match a with
  | ⟨0, _⟩ => show win5_4.index t (0 : Fin 3) * 1 ≤ (i 0).val ∧ (i 0).val < win5_4.index t (0 : Fin 3) * 1 + 1; omega
  | ⟨1, _⟩ => show win5_4.index t (1 : Fin 3) * 1000 ≤ (i 1).val ∧ (i 1).val < win5_4.index t (1 : Fin 3) * 1000 + 1000; omega
  | ⟨2, _⟩ => show win5_4.index t (2 : Fin 3) * 128 ≤ (i 2).val ∧ (i 2).val < win5_4.index t (2 : Fin 3) * 128 + 128; omega

/-- THE ARRAY after the region: the layer function of the input arrays. -/
theorem final5 (c : Dev nD) : (dat5 V c).arrAt 4 cfg5.N = G5 V c :=
  (dat5 V c).arrAt_eq_of_cover 4 (G5 V c) (fun t _ => flushed5_eq V c t) cover5

/-- Read at an entry written by coordinates. -/
theorem val5 (c : Dev nD) (v : Fin 2) (r : Fin 5000) (j : Fin 128) :
    (dat5 (F := Ideal) V c).arrAt 4 cfg5.N (ix3 v r j)
      = Cert.Spec.layer (fun v r k => V c main_v5 (ix3 v r k)) (fun v k j => V c main_v14 (ix3 v k j))
          (fun v r j => V c main_v4 (ix3 v r j)) (fun v q j => V c main_v16 (ix3 v q j)) 0x3F61D8F9#32 0x3DF1383B#32 v r j := by
  rw [final5]; rfl

end Cert.KernelIdeal.HandVal

end
-- ==== Proof.KI.Val6.lean ====
/-
  Region 6, read: after the region the layer's output array holds, entry by entry, the specification's layer
  function of the region's input arrays (the adjacency, the previous layer, the initial features, the layer's
  weights) as the region finds them.  Each point of the grid (2, 5) writes back one block of 1000 rows of one view;
  the block is the layer's block computation of the point's input blocks (the body's one store), the input blocks
  are restrictions of the arrays (the printed index maps, decided over the grid), and the ten blocks cover the array.
-/
import proofs.«129426_g120259084709_cont_main3_741_6_alg».proof.Proof.KI.Reg6
import proofs.«129426_g120259084709_cont_main3_741_6_alg».proof.Proof.KI.LayerPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz6 : (![0, 0, 0] : Fin 3 → Nat) = fun _ => 0 := funext fun a => by fin_cases a <;> rfl

/-- What the output array ends holding: the layer function of the input arrays, index by index. -/
def G6 (c : Dev nD) : S2x5000x128.Idx → EReal := fun i =>
  Cert.Spec.layer (fun v r k => V c main_v5 (ix3 v r k)) (fun v k j => V c main_v17 (ix3 v k j))
    (fun v r j => V c main_v4 (ix3 v r j)) (fun v q j => V c main_v19 (ix3 v q j)) 0x3F6799C1#32 0x3DC331FC#32 (i 0) (i 1) (i 2)

/-- The printed index maps, decided over the grid: every window's view coordinate is the output's; the adjacency's and
    the initial features' row-block coordinate is the output's; every other coordinate is 0. -/
theorem idx_facts6 : ∀ t : Fin cfg6.N,
    win6_0.index t (0 : Fin 3) = win6_4.index t (0 : Fin 3) ∧ win6_0.index t (1 : Fin 3) = win6_4.index t (1 : Fin 3)
    ∧ win6_0.index t (2 : Fin 3) = 0
    ∧ win6_1.index t (0 : Fin 3) = win6_4.index t (0 : Fin 3) ∧ win6_1.index t (1 : Fin 3) = 0 ∧ win6_1.index t (2 : Fin 3) = 0
    ∧ win6_2.index t (0 : Fin 3) = win6_4.index t (0 : Fin 3) ∧ win6_2.index t (1 : Fin 3) = win6_4.index t (1 : Fin 3)
    ∧ win6_2.index t (2 : Fin 3) = 0
    ∧ win6_3.index t (0 : Fin 3) = win6_4.index t (0 : Fin 3) ∧ win6_3.index t (1 : Fin 3) = 0 ∧ win6_3.index t (2 : Fin 3) = 0
    ∧ win6_4.index t (0 : Fin 3) ≤ 1 ∧ win6_4.index t (1 : Fin 3) ≤ 4 ∧ win6_4.index t (2 : Fin 3) = 0 :=
  (by decide +kernel : ∀ t : Fin grid6.N, _)

/-- Every block of the output array is some point's. -/
theorem idx_onto6 : ∀ (q0 : Fin 2) (q1 : Fin 5), ∃ t : Fin cfg6.N, win6_4.index t = ![q0.val, q1.val, 0] :=
  (by decide +kernel : ∀ (q0 : Fin 2) (q1 : Fin 5), ∃ t : Fin grid6.N, win6_4.index t = ![q0.val, q1.val, 0])

/-! ## The input blocks at a point are restrictions of the arrays -/

section Blocks
variable (c : Dev nD) (t : Fin cfg6.N) (v : Fin 2) (m : Fin 5)
  (hv : win6_4.index t (0 : Fin 3) = v.val) (hm : win6_4.index t (1 : Fin 3) = m.val)
include hv hm

theorem blk6_0 (u : Fin 1) (p : Fin 1000) (k : Fin 5000) :
    iblk6 V c 0 t (ix3 u p k) = V c main_v5 (ix3 v ⟨m.val * 1000 + p.val, by omega⟩ k) := by
  obtain ⟨e00, e01, e02, e10, e11, e12, e20, e21, e22, e30, e31, e32, -, -, -⟩ := idx_facts6 t
  show V c main_v5 (((cfg6.win 0).blk t).view.emb (ix3 u p k)) = _
  refine congrArg (V c main_v5) ?_
  funext a; apply Fin.ext
  match a with
  | ⟨0, _⟩ => show win6_0.index t (0 : Fin 3) * 1 + 1 * u.val = v.val; omega
  | ⟨1, _⟩ => show win6_0.index t (1 : Fin 3) * 1000 + 1 * p.val = m.val * 1000 + p.val; omega
  | ⟨2, _⟩ => show win6_0.index t (2 : Fin 3) * 5000 + 1 * k.val = k.val; omega

theorem blk6_1 (u : Fin 1) (k : Fin 5000) (j : Fin 128) :
    iblk6 V c 1 t (ix3 u k j) = V c main_v17 (ix3 v k j) := by
  obtain ⟨e00, e01, e02, e10, e11, e12, e20, e21, e22, e30, e31, e32, -, -, -⟩ := idx_facts6 t
  show V c main_v17 (((cfg6.win 1).blk t).view.emb (ix3 u k j)) = _
  refine congrArg (V c main_v17) ?_
  funext a; apply Fin.ext
  match a with
  | ⟨0, _⟩ => show win6_1.index t (0 : Fin 3) * 1 + 1 * u.val = v.val; omega
  | ⟨1, _⟩ => show win6_1.index t (1 : Fin 3) * 5000 + 1 * k.val = k.val; omega
  | ⟨2, _⟩ => show win6_1.index t (2 : Fin 3) * 128 + 1 * j.val = j.val; omega

theorem blk6_2 (u : Fin 1) (p : Fin 1000) (j : Fin 128) :
    iblk6 V c 2 t (ix3 u p j) = V c main_v4 (ix3 v ⟨m.val * 1000 + p.val, by omega⟩ j) := by
  obtain ⟨e00, e01, e02, e10, e11, e12, e20, e21, e22, e30, e31, e32, -, -, -⟩ := idx_facts6 t
  show V c main_v4 (((cfg6.win 2).blk t).view.emb (ix3 u p j)) = _
  refine congrArg (V c main_v4) ?_
  funext a; apply Fin.ext
  match a with
  | ⟨0, _⟩ => show win6_2.index t (0 : Fin 3) * 1 + 1 * u.val = v.val; omega
  | ⟨1, _⟩ => show win6_2.index t (1 : Fin 3) * 1000 + 1 * p.val = m.val * 1000 + p.val; omega
  | ⟨2, _⟩ => show win6_2.index t (2 : Fin 3) * 128 + 1 * j.val = j.val; omega

theorem blk6_3 (u : Fin 1) (q : Fin 128) (j : Fin 128) :
    iblk6 V c 3 t (ix3 u q j) = V c main_v19 (ix3 v q j) := by
  obtain ⟨e00, e01, e02, e10, e11, e12, e20, e21, e22, e30, e31, e32, -, -, -⟩ := idx_facts6 t
  show V c main_v19 (((cfg6.win 3).blk t).view.emb (ix3 u q j)) = _
  refine congrArg (V c main_v19) ?_
  funext a; apply Fin.ext
  match a with
  | ⟨0, _⟩ => show win6_3.index t (0 : Fin 3) * 1 + 1 * u.val = v.val; omega
  | ⟨1, _⟩ => show win6_3.index t (1 : Fin 3) * 128 + 1 * q.val = q.val; omega
  | ⟨2, _⟩ => show win6_3.index t (2 : Fin 3) * 128 + 1 * j.val = j.val; omega

/-- The output block's entry (u, p, j) is the array's entry (v, 1000 m + p, j). -/
theorem emb6_4 (u : Fin 1) (p : Fin 1000) (j : Fin 128) :
    ((cfg6.win 4).blk t).view.emb (ix3 u p j) = (ix3 v ⟨m.val * 1000 + p.val, by omega⟩ j : S2x5000x128.Idx) := by
  obtain ⟨-, -, -, -, -, -, -, -, -, -, -, -, -, -, e42⟩ := idx_facts6 t
  funext a; apply Fin.ext
  match a with
  | ⟨0, _⟩ => show win6_4.index t (0 : Fin 3) * 1 + 1 * u.val = v.val; omega
  | ⟨1, _⟩ => show win6_4.index t (1 : Fin 3) * 1000 + 1 * p.val = m.val * 1000 + p.val; omega
  | ⟨2, _⟩ => show win6_4.index t (2 : Fin 3) * 128 + 1 * j.val = j.val; omega

end Blocks

/-- WHAT POINT `t` WRITES BACK is block `t` of the layer function of the input arrays as the region finds them. -/
theorem flushed6_eq (c : Dev nD) (t : Fin cfg6.N) :
    (dat6 V c).flushed 4 t = ((cfg6.win 4).blk t).view.read (Elt Ideal) (G6 V c) := by
  show (cfg6.win 4).cut (grid6.coords t) ((dat6 V c).after 4 t) = _
  rw [after6_4]
  unfold out6_4
  rw [View.canon_unit_zero hz6]
  simp only [View.ld_unit_zero (S := S1x5000x128) hz6, View.ld_unit_zero (S := S1x1000x5000) hz6,
    View.ld_unit_zero (S := S1x1000x128) hz6, View.ld_unit_zero (S := S1x128x128) hz6]
  rw [k6_pay1_eq]
  obtain ⟨-, -, -, -, -, -, -, -, -, -, -, -, l0, l1, -⟩ := idx_facts6 t
  have hv : win6_4.index t (0 : Fin 3) = (⟨win6_4.index t (0 : Fin 3), by omega⟩ : Fin 2).val := rfl
  have hm : win6_4.index t (1 : Fin 3) = (⟨win6_4.index t (1 : Fin 3), by omega⟩ : Fin 5).val := rfl
  funext y
  obtain ⟨u, p, j, rfl⟩ : ∃ (u : Fin 1) (p : Fin 1000) (j : Fin 128), y = ix3 u p j := ⟨y 0, y 1, y 2, eq_ix3 y⟩
  show layerPay 0x3F6799C1#32 0x3DC331FC#32 (iblk6 V c 1 t) (iblk6 V c 0 t) (iblk6 V c 2 t) (iblk6 V c 3 t) (ix3 u p j)
    = G6 V c (((cfg6.win 4).blk t).view.emb (ix3 u p j))
  rw [emb6_4 t _ _ hv hm u p j]
  refine (layerPay_apply 0x3F6799C1#32 0x3DC331FC#32 (iblk6 V c 1 t) (iblk6 V c 0 t) (iblk6 V c 2 t) (iblk6 V c 3 t) u p j).trans ?_
  unfold blockMix
  simp only [blk6_0 V c t _ _ hv hm, blk6_1 V c t _ _ hv hm, blk6_2 V c t _ _ hv hm, blk6_3 V c t _ _ hv hm]
  rfl

/-- An index of the array is in point `t`'s block iff each coordinate is in the block's range on its axis. -/
theorem mem_blk6 (t : Fin cfg6.N) (i : S2x5000x128.Idx) :
    i ∈ ((cfg6.win 4).blk t).view.set ↔ ∀ a : Fin 3, win6_4.index t a * S1x1000x128.size a ≤ (i a).val ∧ (i a).val < win6_4.index t a * S1x1000x128.size a + S1x1000x128.size a := by
  show i ∈ ((View.whole main_v20).slice (win6_4.rect t)).set ↔ _
  rw [View.set_slice_whole, Rect.mem_set_unit]
  exact Iff.rfl

/-- The ten blocks cover the array: row `r` of view `v` is in the block of the point with block index (v, r / 1000, 0). -/
theorem cover6 (i : S2x5000x128.Idx) : ∃ t : Fin cfg6.N, (cfg6.win 4).flush t = true ∧ i ∈ ((cfg6.win 4).blk t).view.set := by
  have hi0 : (i 0).val < 2 := (i 0).isLt
  have hi1 : (i 1).val < 5000 := (i 1).isLt
  have hi2 : (i 2).val < 128 := (i 2).isLt
  obtain ⟨t, ht⟩ := idx_onto6 ⟨(i 0).val, hi0⟩ ⟨(i 1).val / 1000, by omega⟩
  have q0 : win6_4.index t (0 : Fin 3) = (i 0).val := congrFun ht 0
  have q1 : win6_4.index t (1 : Fin 3) = (i 1).val / 1000 := congrFun ht 1
  have q2 : win6_4.index t (2 : Fin 3) = 0 := congrFun ht 2
  refine ⟨t, flush6_4 t, ?_⟩
  rw [mem_blk6]
  intro a
  match a with
  | ⟨0, _⟩ => show win6_4.index t (0 : Fin 3) * 1 ≤ (i 0).val ∧ (i 0).val < win6_4.index t (0 : Fin 3) * 1 + 1; omega
  | ⟨1, _⟩ => show win6_4.index t (1 : Fin 3) * 1000 ≤ (i 1).val ∧ (i 1).val < win6_4.index t (1 : Fin 3) * 1000 + 1000; omega
  | ⟨2, _⟩ => show win6_4.index t (2 : Fin 3) * 128 ≤ (i 2).val ∧ (i 2).val < win6_4.index t (2 : Fin 3) * 128 + 128; omega

/-- THE ARRAY after the region: the layer function of the input arrays. -/
theorem final6 (c : Dev nD) : (dat6 V c).arrAt 4 cfg6.N = G6 V c :=
  (dat6 V c).arrAt_eq_of_cover 4 (G6 V c) (fun t _ => flushed6_eq V c t) cover6

/-- Read at an entry written by coordinates. -/
theorem val6 (c : Dev nD) (v : Fin 2) (r : Fin 5000) (j : Fin 128) :
    (dat6 (F := Ideal) V c).arrAt 4 cfg6.N (ix3 v r j)
      = Cert.Spec.layer (fun v r k => V c main_v5 (ix3 v r k)) (fun v k j => V c main_v17 (ix3 v k j))
          (fun v r j => V c main_v4 (ix3 v r j)) (fun v q j => V c main_v19 (ix3 v q j)) 0x3F6799C1#32 0x3DC331FC#32 v r j := by
  rw [final6]; rfl

end Cert.KernelIdeal.HandVal

end
-- ==== Proof.KI.Val7.lean ====
/-
  Region 7, read: after the region the layer's output array holds, entry by entry, the specification's layer
  function of the region's input arrays (the adjacency, the previous layer, the initial features, the layer's
  weights) as the region finds them.  Each point of the grid (2, 5) writes back one block of 1000 rows of one view;
  the block is the layer's block computation of the point's input blocks (the body's one store), the input blocks
  are restrictions of the arrays (the printed index maps, decided over the grid), and the ten blocks cover the array.
-/
import proofs.«129426_g120259084709_cont_main3_741_6_alg».proof.Proof.KI.Reg7
import proofs.«129426_g120259084709_cont_main3_741_6_alg».proof.Proof.KI.LayerPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz7 : (![0, 0, 0] : Fin 3 → Nat) = fun _ => 0 := funext fun a => by fin_cases a <;> rfl

/-- What the output array ends holding: the layer function of the input arrays, index by index. -/
def G7 (c : Dev nD) : S2x5000x128.Idx → EReal := fun i =>
  Cert.Spec.layer (fun v r k => V c main_v5 (ix3 v r k)) (fun v k j => V c main_v20 (ix3 v k j))
    (fun v r j => V c main_v4 (ix3 v r j)) (fun v q j => V c main_v22 (ix3 v q j)) 0x3F6B8252#32 0x3DA3ED6E#32 (i 0) (i 1) (i 2)

/-- The printed index maps, decided over the grid: every window's view coordinate is the output's; the adjacency's and
    the initial features' row-block coordinate is the output's; every other coordinate is 0. -/
theorem idx_facts7 : ∀ t : Fin cfg7.N,
    win7_0.index t (0 : Fin 3) = win7_4.index t (0 : Fin 3) ∧ win7_0.index t (1 : Fin 3) = win7_4.index t (1 : Fin 3)
    ∧ win7_0.index t (2 : Fin 3) = 0
    ∧ win7_1.index t (0 : Fin 3) = win7_4.index t (0 : Fin 3) ∧ win7_1.index t (1 : Fin 3) = 0 ∧ win7_1.index t (2 : Fin 3) = 0
    ∧ win7_2.index t (0 : Fin 3) = win7_4.index t (0 : Fin 3) ∧ win7_2.index t (1 : Fin 3) = win7_4.index t (1 : Fin 3)
    ∧ win7_2.index t (2 : Fin 3) = 0
    ∧ win7_3.index t (0 : Fin 3) = win7_4.index t (0 : Fin 3) ∧ win7_3.index t (1 : Fin 3) = 0 ∧ win7_3.index t (2 : Fin 3) = 0
    ∧ win7_4.index t (0 : Fin 3) ≤ 1 ∧ win7_4.index t (1 : Fin 3) ≤ 4 ∧ win7_4.index t (2 : Fin 3) = 0 :=
  (by decide +kernel : ∀ t : Fin grid7.N, _)

/-- Every block of the output array is some point's. -/
theorem idx_onto7 : ∀ (q0 : Fin 2) (q1 : Fin 5), ∃ t : Fin cfg7.N, win7_4.index t = ![q0.val, q1.val, 0] :=
  (by decide +kernel : ∀ (q0 : Fin 2) (q1 : Fin 5), ∃ t : Fin grid7.N, win7_4.index t = ![q0.val, q1.val, 0])

/-! ## The input blocks at a point are restrictions of the arrays -/

section Blocks
variable (c : Dev nD) (t : Fin cfg7.N) (v : Fin 2) (m : Fin 5)
  (hv : win7_4.index t (0 : Fin 3) = v.val) (hm : win7_4.index t (1 : Fin 3) = m.val)
include hv hm

theorem blk7_0 (u : Fin 1) (p : Fin 1000) (k : Fin 5000) :
    iblk7 V c 0 t (ix3 u p k) = V c main_v5 (ix3 v ⟨m.val * 1000 + p.val, by omega⟩ k) := by
  obtain ⟨e00, e01, e02, e10, e11, e12, e20, e21, e22, e30, e31, e32, -, -, -⟩ := idx_facts7 t
  show V c main_v5 (((cfg7.win 0).blk t).view.emb (ix3 u p k)) = _
  refine congrArg (V c main_v5) ?_
  funext a; apply Fin.ext
  match a with
  | ⟨0, _⟩ => show win7_0.index t (0 : Fin 3) * 1 + 1 * u.val = v.val; omega
  | ⟨1, _⟩ => show win7_0.index t (1 : Fin 3) * 1000 + 1 * p.val = m.val * 1000 + p.val; omega
  | ⟨2, _⟩ => show win7_0.index t (2 : Fin 3) * 5000 + 1 * k.val = k.val; omega

theorem blk7_1 (u : Fin 1) (k : Fin 5000) (j : Fin 128) :
    iblk7 V c 1 t (ix3 u k j) = V c main_v20 (ix3 v k j) := by
  obtain ⟨e00, e01, e02, e10, e11, e12, e20, e21, e22, e30, e31, e32, -, -, -⟩ := idx_facts7 t
  show V c main_v20 (((cfg7.win 1).blk t).view.emb (ix3 u k j)) = _
  refine congrArg (V c main_v20) ?_
  funext a; apply Fin.ext
  match a with
  | ⟨0, _⟩ => show win7_1.index t (0 : Fin 3) * 1 + 1 * u.val = v.val; omega
  | ⟨1, _⟩ => show win7_1.index t (1 : Fin 3) * 5000 + 1 * k.val = k.val; omega
  | ⟨2, _⟩ => show win7_1.index t (2 : Fin 3) * 128 + 1 * j.val = j.val; omega

theorem blk7_2 (u : Fin 1) (p : Fin 1000) (j : Fin 128) :
    iblk7 V c 2 t (ix3 u p j) = V c main_v4 (ix3 v ⟨m.val * 1000 + p.val, by omega⟩ j) := by
  obtain ⟨e00, e01, e02, e10, e11, e12, e20, e21, e22, e30, e31, e32, -, -, -⟩ := idx_facts7 t
  show V c main_v4 (((cfg7.win 2).blk t).view.emb (ix3 u p j)) = _
  refine congrArg (V c main_v4) ?_
  funext a; apply Fin.ext
  match a with
  | ⟨0, _⟩ => show win7_2.index t (0 : Fin 3) * 1 + 1 * u.val = v.val; omega
  | ⟨1, _⟩ => show win7_2.index t (1 : Fin 3) * 1000 + 1 * p.val = m.val * 1000 + p.val; omega
  | ⟨2, _⟩ => show win7_2.index t (2 : Fin 3) * 128 + 1 * j.val = j.val; omega

theorem blk7_3 (u : Fin 1) (q : Fin 128) (j : Fin 128) :
    iblk7 V c 3 t (ix3 u q j) = V c main_v22 (ix3 v q j) := by
  obtain ⟨e00, e01, e02, e10, e11, e12, e20, e21, e22, e30, e31, e32, -, -, -⟩ := idx_facts7 t
  show V c main_v22 (((cfg7.win 3).blk t).view.emb (ix3 u q j)) = _
  refine congrArg (V c main_v22) ?_
  funext a; apply Fin.ext
  match a with
  | ⟨0, _⟩ => show win7_3.index t (0 : Fin 3) * 1 + 1 * u.val = v.val; omega
  | ⟨1, _⟩ => show win7_3.index t (1 : Fin 3) * 128 + 1 * q.val = q.val; omega
  | ⟨2, _⟩ => show win7_3.index t (2 : Fin 3) * 128 + 1 * j.val = j.val; omega

/-- The output block's entry (u, p, j) is the array's entry (v, 1000 m + p, j). -/
theorem emb7_4 (u : Fin 1) (p : Fin 1000) (j : Fin 128) :
    ((cfg7.win 4).blk t).view.emb (ix3 u p j) = (ix3 v ⟨m.val * 1000 + p.val, by omega⟩ j : S2x5000x128.Idx) := by
  obtain ⟨-, -, -, -, -, -, -, -, -, -, -, -, -, -, e42⟩ := idx_facts7 t
  funext a; apply Fin.ext
  match a with
  | ⟨0, _⟩ => show win7_4.index t (0 : Fin 3) * 1 + 1 * u.val = v.val; omega
  | ⟨1, _⟩ => show win7_4.index t (1 : Fin 3) * 1000 + 1 * p.val = m.val * 1000 + p.val; omega
  | ⟨2, _⟩ => show win7_4.index t (2 : Fin 3) * 128 + 1 * j.val = j.val; omega

end Blocks

/-- WHAT POINT `t` WRITES BACK is block `t` of the layer function of the input arrays as the region finds them. -/
theorem flushed7_eq (c : Dev nD) (t : Fin cfg7.N) :
    (dat7 V c).flushed 4 t = ((cfg7.win 4).blk t).view.read (Elt Ideal) (G7 V c) := by
  show (cfg7.win 4).cut (grid7.coords t) ((dat7 V c).after 4 t) = _
  rw [after7_4]
  unfold out7_4
  rw [View.canon_unit_zero hz7]
  simp only [View.ld_unit_zero (S := S1x5000x128) hz7, View.ld_unit_zero (S := S1x1000x5000) hz7,
    View.ld_unit_zero (S := S1x1000x128) hz7, View.ld_unit_zero (S := S1x128x128) hz7]
  rw [k7_pay1_eq]
  obtain ⟨-, -, -, -, -, -, -, -, -, -, -, -, l0, l1, -⟩ := idx_facts7 t
  have hv : win7_4.index t (0 : Fin 3) = (⟨win7_4.index t (0 : Fin 3), by omega⟩ : Fin 2).val := rfl
  have hm : win7_4.index t (1 : Fin 3) = (⟨win7_4.index t (1 : Fin 3), by omega⟩ : Fin 5).val := rfl
  funext y
  obtain ⟨u, p, j, rfl⟩ : ∃ (u : Fin 1) (p : Fin 1000) (j : Fin 128), y = ix3 u p j := ⟨y 0, y 1, y 2, eq_ix3 y⟩
  show layerPay 0x3F6B8252#32 0x3DA3ED6E#32 (iblk7 V c 1 t) (iblk7 V c 0 t) (iblk7 V c 2 t) (iblk7 V c 3 t) (ix3 u p j)
    = G7 V c (((cfg7.win 4).blk t).view.emb (ix3 u p j))
  rw [emb7_4 t _ _ hv hm u p j]
  refine (layerPay_apply 0x3F6B8252#32 0x3DA3ED6E#32 (iblk7 V c 1 t) (iblk7 V c 0 t) (iblk7 V c 2 t) (iblk7 V c 3 t) u p j).trans ?_
  unfold blockMix
  simp only [blk7_0 V c t _ _ hv hm, blk7_1 V c t _ _ hv hm, blk7_2 V c t _ _ hv hm, blk7_3 V c t _ _ hv hm]
  rfl

/-- An index of the array is in point `t`'s block iff each coordinate is in the block's range on its axis. -/
theorem mem_blk7 (t : Fin cfg7.N) (i : S2x5000x128.Idx) :
    i ∈ ((cfg7.win 4).blk t).view.set ↔ ∀ a : Fin 3, win7_4.index t a * S1x1000x128.size a ≤ (i a).val ∧ (i a).val < win7_4.index t a * S1x1000x128.size a + S1x1000x128.size a := by
  show i ∈ ((View.whole main_v23).slice (win7_4.rect t)).set ↔ _
  rw [View.set_slice_whole, Rect.mem_set_unit]
  exact Iff.rfl

/-- The ten blocks cover the array: row `r` of view `v` is in the block of the point with block index (v, r / 1000, 0). -/
theorem cover7 (i : S2x5000x128.Idx) : ∃ t : Fin cfg7.N, (cfg7.win 4).flush t = true ∧ i ∈ ((cfg7.win 4).blk t).view.set := by
  have hi0 : (i 0).val < 2 := (i 0).isLt
  have hi1 : (i 1).val < 5000 := (i 1).isLt
  have hi2 : (i 2).val < 128 := (i 2).isLt
  obtain ⟨t, ht⟩ := idx_onto7 ⟨(i 0).val, hi0⟩ ⟨(i 1).val / 1000, by omega⟩
  have q0 : win7_4.index t (0 : Fin 3) = (i 0).val := congrFun ht 0
  have q1 : win7_4.index t (1 : Fin 3) = (i 1).val / 1000 := congrFun ht 1
  have q2 : win7_4.index t (2 : Fin 3) = 0 := congrFun ht 2
  refine ⟨t, flush7_4 t, ?_⟩
  rw [mem_blk7]
  intro a
  match a with
  | ⟨0, _⟩ => show win7_4.index t (0 : Fin 3) * 1 ≤ (i 0).val ∧ (i 0).val < win7_4.index t (0 : Fin 3) * 1 + 1; omega
  | ⟨1, _⟩ => show win7_4.index t (1 : Fin 3) * 1000 ≤ (i 1).val ∧ (i 1).val < win7_4.index t (1 : Fin 3) * 1000 + 1000; omega
  | ⟨2, _⟩ => show win7_4.index t (2 : Fin 3) * 128 ≤ (i 2).val ∧ (i 2).val < win7_4.index t (2 : Fin 3) * 128 + 128; omega

/-- THE ARRAY after the region: the layer function of the input arrays. -/
theorem final7 (c : Dev nD) : (dat7 V c).arrAt 4 cfg7.N = G7 V c :=
  (dat7 V c).arrAt_eq_of_cover 4 (G7 V c) (fun t _ => flushed7_eq V c t) cover7

/-- Read at an entry written by coordinates. -/
theorem val7 (c : Dev nD) (v : Fin 2) (r : Fin 5000) (j : Fin 128) :
    (dat7 (F := Ideal) V c).arrAt 4 cfg7.N (ix3 v r j)
      = Cert.Spec.layer (fun v r k => V c main_v5 (ix3 v r k)) (fun v k j => V c main_v20 (ix3 v k j))
          (fun v r j => V c main_v4 (ix3 v r j)) (fun v q j => V c main_v22 (ix3 v q j)) 0x3F6B8252#32 0x3DA3ED6E#32 v r j := by
  rw [final7]; rfl

end Cert.KernelIdeal.HandVal

end
-- ==== Proof.KI.Val8.lean ====
/-
  Region 8, read: after the region the layer's output array holds, entry by entry, the specification's layer
  function of the region's input arrays (the adjacency, the previous layer, the initial features, the layer's
  weights) as the region finds them.  Each point of the grid (2, 5) writes back one block of 1000 rows of one view;
  the block is the layer's block computation of the point's input blocks (the body's one store), the input blocks
  are restrictions of the arrays (the printed index maps, decided over the grid), and the ten blocks cover the array.
-/
import proofs.«129426_g120259084709_cont_main3_741_6_alg».proof.Proof.KI.Reg8
import proofs.«129426_g120259084709_cont_main3_741_6_alg».proof.Proof.KI.LayerPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz8 : (![0, 0, 0] : Fin 3 → Nat) = fun _ => 0 := funext fun a => by fin_cases a <;> rfl

/-- What the output array ends holding: the layer function of the input arrays, index by index. -/
def G8 (c : Dev nD) : S2x5000x128.Idx → EReal := fun i =>
  Cert.Spec.layer (fun v r k => V c main_v5 (ix3 v r k)) (fun v k j => V c main_v23 (ix3 v k j))
    (fun v r j => V c main_v4 (ix3 v r j)) (fun v q j => V c main_v25 (ix3 v q j)) 0x3F6E567C#32 0x3D8D4C22#32 (i 0) (i 1) (i 2)

/-- The printed index maps, decided over the grid: every window's view coordinate is the output's; the adjacency's and
    the initial features' row-block coordinate is the output's; every other coordinate is 0. -/
theorem idx_facts8 : ∀ t : Fin cfg8.N,
    win8_0.index t (0 : Fin 3) = win8_4.index t (0 : Fin 3) ∧ win8_0.index t (1 : Fin 3) = win8_4.index t (1 : Fin 3)
    ∧ win8_0.index t (2 : Fin 3) = 0
    ∧ win8_1.index t (0 : Fin 3) = win8_4.index t (0 : Fin 3) ∧ win8_1.index t (1 : Fin 3) = 0 ∧ win8_1.index t (2 : Fin 3) = 0
    ∧ win8_2.index t (0 : Fin 3) = win8_4.index t (0 : Fin 3) ∧ win8_2.index t (1 : Fin 3) = win8_4.index t (1 : Fin 3)
    ∧ win8_2.index t (2 : Fin 3) = 0
    ∧ win8_3.index t (0 : Fin 3) = win8_4.index t (0 : Fin 3) ∧ win8_3.index t (1 : Fin 3) = 0 ∧ win8_3.index t (2 : Fin 3) = 0
    ∧ win8_4.index t (0 : Fin 3) ≤ 1 ∧ win8_4.index t (1 : Fin 3) ≤ 4 ∧ win8_4.index t (2 : Fin 3) = 0 :=
  (by decide +kernel : ∀ t : Fin grid8.N, _)

/-- Every block of the output array is some point's. -/
theorem idx_onto8 : ∀ (q0 : Fin 2) (q1 : Fin 5), ∃ t : Fin cfg8.N, win8_4.index t = ![q0.val, q1.val, 0] :=
  (by decide +kernel : ∀ (q0 : Fin 2) (q1 : Fin 5), ∃ t : Fin grid8.N, win8_4.index t = ![q0.val, q1.val, 0])

/-! ## The input blocks at a point are restrictions of the arrays -/

section Blocks
variable (c : Dev nD) (t : Fin cfg8.N) (v : Fin 2) (m : Fin 5)
  (hv : win8_4.index t (0 : Fin 3) = v.val) (hm : win8_4.index t (1 : Fin 3) = m.val)
include hv hm

theorem blk8_0 (u : Fin 1) (p : Fin 1000) (k : Fin 5000) :
    iblk8 V c 0 t (ix3 u p k) = V c main_v5 (ix3 v ⟨m.val * 1000 + p.val, by omega⟩ k) := by
  obtain ⟨e00, e01, e02, e10, e11, e12, e20, e21, e22, e30, e31, e32, -, -, -⟩ := idx_facts8 t
  show V c main_v5 (((cfg8.win 0).blk t).view.emb (ix3 u p k)) = _
  refine congrArg (V c main_v5) ?_
  funext a; apply Fin.ext
  match a with
  | ⟨0, _⟩ => show win8_0.index t (0 : Fin 3) * 1 + 1 * u.val = v.val; omega
  | ⟨1, _⟩ => show win8_0.index t (1 : Fin 3) * 1000 + 1 * p.val = m.val * 1000 + p.val; omega
  | ⟨2, _⟩ => show win8_0.index t (2 : Fin 3) * 5000 + 1 * k.val = k.val; omega

theorem blk8_1 (u : Fin 1) (k : Fin 5000) (j : Fin 128) :
    iblk8 V c 1 t (ix3 u k j) = V c main_v23 (ix3 v k j) := by
  obtain ⟨e00, e01, e02, e10, e11, e12, e20, e21, e22, e30, e31, e32, -, -, -⟩ := idx_facts8 t
  show V c main_v23 (((cfg8.win 1).blk t).view.emb (ix3 u k j)) = _
  refine congrArg (V c main_v23) ?_
  funext a; apply Fin.ext
  match a with
  | ⟨0, _⟩ => show win8_1.index t (0 : Fin 3) * 1 + 1 * u.val = v.val; omega
  | ⟨1, _⟩ => show win8_1.index t (1 : Fin 3) * 5000 + 1 * k.val = k.val; omega
  | ⟨2, _⟩ => show win8_1.index t (2 : Fin 3) * 128 + 1 * j.val = j.val; omega

theorem blk8_2 (u : Fin 1) (p : Fin 1000) (j : Fin 128) :
    iblk8 V c 2 t (ix3 u p j) = V c main_v4 (ix3 v ⟨m.val * 1000 + p.val, by omega⟩ j) := by
  obtain ⟨e00, e01, e02, e10, e11, e12, e20, e21, e22, e30, e31, e32, -, -, -⟩ := idx_facts8 t
  show V c main_v4 (((cfg8.win 2).blk t).view.emb (ix3 u p j)) = _
  refine congrArg (V c main_v4) ?_
  funext a; apply Fin.ext
  match a with
  | ⟨0, _⟩ => show win8_2.index t (0 : Fin 3) * 1 + 1 * u.val = v.val; omega
  | ⟨1, _⟩ => show win8_2.index t (1 : Fin 3) * 1000 + 1 * p.val = m.val * 1000 + p.val; omega
  | ⟨2, _⟩ => show win8_2.index t (2 : Fin 3) * 128 + 1 * j.val = j.val; omega

theorem blk8_3 (u : Fin 1) (q : Fin 128) (j : Fin 128) :
    iblk8 V c 3 t (ix3 u q j) = V c main_v25 (ix3 v q j) := by
  obtain ⟨e00, e01, e02, e10, e11, e12, e20, e21, e22, e30, e31, e32, -, -, -⟩ := idx_facts8 t
  show V c main_v25 (((cfg8.win 3).blk t).view.emb (ix3 u q j)) = _
  refine congrArg (V c main_v25) ?_
  funext a; apply Fin.ext
  match a with
  | ⟨0, _⟩ => show win8_3.index t (0 : Fin 3) * 1 + 1 * u.val = v.val; omega
  | ⟨1, _⟩ => show win8_3.index t (1 : Fin 3) * 128 + 1 * q.val = q.val; omega
  | ⟨2, _⟩ => show win8_3.index t (2 : Fin 3) * 128 + 1 * j.val = j.val; omega

/-- The output block's entry (u, p, j) is the array's entry (v, 1000 m + p, j). -/
theorem emb8_4 (u : Fin 1) (p : Fin 1000) (j : Fin 128) :
    ((cfg8.win 4).blk t).view.emb (ix3 u p j) = (ix3 v ⟨m.val * 1000 + p.val, by omega⟩ j : S2x5000x128.Idx) := by
  obtain ⟨-, -, -, -, -, -, -, -, -, -, -, -, -, -, e42⟩ := idx_facts8 t
  funext a; apply Fin.ext
  match a with
  | ⟨0, _⟩ => show win8_4.index t (0 : Fin 3) * 1 + 1 * u.val = v.val; omega
  | ⟨1, _⟩ => show win8_4.index t (1 : Fin 3) * 1000 + 1 * p.val = m.val * 1000 + p.val; omega
  | ⟨2, _⟩ => show win8_4.index t (2 : Fin 3) * 128 + 1 * j.val = j.val; omega

end Blocks

/-- WHAT POINT `t` WRITES BACK is block `t` of the layer function of the input arrays as the region finds them. -/
theorem flushed8_eq (c : Dev nD) (t : Fin cfg8.N) :
    (dat8 V c).flushed 4 t = ((cfg8.win 4).blk t).view.read (Elt Ideal) (G8 V c) := by
  show (cfg8.win 4).cut (grid8.coords t) ((dat8 V c).after 4 t) = _
  rw [after8_4]
  unfold out8_4
  rw [View.canon_unit_zero hz8]
  simp only [View.ld_unit_zero (S := S1x5000x128) hz8, View.ld_unit_zero (S := S1x1000x5000) hz8,
    View.ld_unit_zero (S := S1x1000x128) hz8, View.ld_unit_zero (S := S1x128x128) hz8]
  rw [k8_pay1_eq]
  obtain ⟨-, -, -, -, -, -, -, -, -, -, -, -, l0, l1, -⟩ := idx_facts8 t
  have hv : win8_4.index t (0 : Fin 3) = (⟨win8_4.index t (0 : Fin 3), by omega⟩ : Fin 2).val := rfl
  have hm : win8_4.index t (1 : Fin 3) = (⟨win8_4.index t (1 : Fin 3), by omega⟩ : Fin 5).val := rfl
  funext y
  obtain ⟨u, p, j, rfl⟩ : ∃ (u : Fin 1) (p : Fin 1000) (j : Fin 128), y = ix3 u p j := ⟨y 0, y 1, y 2, eq_ix3 y⟩
  show layerPay 0x3F6E567C#32 0x3D8D4C22#32 (iblk8 V c 1 t) (iblk8 V c 0 t) (iblk8 V c 2 t) (iblk8 V c 3 t) (ix3 u p j)
    = G8 V c (((cfg8.win 4).blk t).view.emb (ix3 u p j))
  rw [emb8_4 t _ _ hv hm u p j]
  refine (layerPay_apply 0x3F6E567C#32 0x3D8D4C22#32 (iblk8 V c 1 t) (iblk8 V c 0 t) (iblk8 V c 2 t) (iblk8 V c 3 t) u p j).trans ?_
  unfold blockMix
  simp only [blk8_0 V c t _ _ hv hm, blk8_1 V c t _ _ hv hm, blk8_2 V c t _ _ hv hm, blk8_3 V c t _ _ hv hm]
  rfl

/-- An index of the array is in point `t`'s block iff each coordinate is in the block's range on its axis. -/
theorem mem_blk8 (t : Fin cfg8.N) (i : S2x5000x128.Idx) :
    i ∈ ((cfg8.win 4).blk t).view.set ↔ ∀ a : Fin 3, win8_4.index t a * S1x1000x128.size a ≤ (i a).val ∧ (i a).val < win8_4.index t a * S1x1000x128.size a + S1x1000x128.size a := by
  show i ∈ ((View.whole main_v26).slice (win8_4.rect t)).set ↔ _
  rw [View.set_slice_whole, Rect.mem_set_unit]
  exact Iff.rfl

/-- The ten blocks cover the array: row `r` of view `v` is in the block of the point with block index (v, r / 1000, 0). -/
theorem cover8 (i : S2x5000x128.Idx) : ∃ t : Fin cfg8.N, (cfg8.win 4).flush t = true ∧ i ∈ ((cfg8.win 4).blk t).view.set := by
  have hi0 : (i 0).val < 2 := (i 0).isLt
  have hi1 : (i 1).val < 5000 := (i 1).isLt
  have hi2 : (i 2).val < 128 := (i 2).isLt
  obtain ⟨t, ht⟩ := idx_onto8 ⟨(i 0).val, hi0⟩ ⟨(i 1).val / 1000, by omega⟩
  have q0 : win8_4.index t (0 : Fin 3) = (i 0).val := congrFun ht 0
  have q1 : win8_4.index t (1 : Fin 3) = (i 1).val / 1000 := congrFun ht 1
  have q2 : win8_4.index t (2 : Fin 3) = 0 := congrFun ht 2
  refine ⟨t, flush8_4 t, ?_⟩
  rw [mem_blk8]
  intro a
  match a with
  | ⟨0, _⟩ => show win8_4.index t (0 : Fin 3) * 1 ≤ (i 0).val ∧ (i 0).val < win8_4.index t (0 : Fin 3) * 1 + 1; omega
  | ⟨1, _⟩ => show win8_4.index t (1 : Fin 3) * 1000 ≤ (i 1).val ∧ (i 1).val < win8_4.index t (1 : Fin 3) * 1000 + 1000; omega
  | ⟨2, _⟩ => show win8_4.index t (2 : Fin 3) * 128 ≤ (i 2).val ∧ (i 2).val < win8_4.index t (2 : Fin 3) * 128 + 128; omega

/-- THE ARRAY after the region: the layer function of the input arrays. -/
theorem final8 (c : Dev nD) : (dat8 V c).arrAt 4 cfg8.N = G8 V c :=
  (dat8 V c).arrAt_eq_of_cover 4 (G8 V c) (fun t _ => flushed8_eq V c t) cover8

/-- Read at an entry written by coordinates. -/
theorem val8 (c : Dev nD) (v : Fin 2) (r : Fin 5000) (j : Fin 128) :
    (dat8 (F := Ideal) V c).arrAt 4 cfg8.N (ix3 v r j)
      = Cert.Spec.layer (fun v r k => V c main_v5 (ix3 v r k)) (fun v k j => V c main_v23 (ix3 v k j))
          (fun v r j => V c main_v4 (ix3 v r j)) (fun v q j => V c main_v25 (ix3 v q j)) 0x3F6E567C#32 0x3D8D4C22#32 v r j := by
  rw [final8]; rfl

end Cert.KernelIdeal.HandVal

end
-- ==== Proof.KI.Val9.lean ====
/-
  Region 9, read: after the region the layer's output array holds, entry by entry, the specification's layer
  function of the region's input arrays (the adjacency, the previous layer, the initial features, the layer's
  weights) as the region finds them.  Each point of the grid (2, 5) writes back one block of 1000 rows of one view;
  the block is the layer's block computation of the point's input blocks (the body's one store), the input blocks
  are restrictions of the arrays (the printed index maps, decided over the grid), and the ten blocks cover the array.
-/
import proofs.«129426_g120259084709_cont_main3_741_6_alg».proof.Proof.KI.Reg9
import proofs.«129426_g120259084709_cont_main3_741_6_alg».proof.Proof.KI.LayerPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz9 : (![0, 0, 0] : Fin 3 → Nat) = fun _ => 0 := funext fun a => by fin_cases a <;> rfl

/-- What the output array ends holding: the layer function of the input arrays, index by index. -/
def G9 (c : Dev nD) : S2x5000x128.Idx → EReal := fun i =>
  Cert.Spec.layer (fun v r k => V c main_v5 (ix3 v r k)) (fun v k j => V c main_v26 (ix3 v k j))
    (fun v r j => V c main_v4 (ix3 v r j)) (fun v q j => V c main_v28 (ix3 v q j)) 0x3F707AE8#32 0x3D785186#32 (i 0) (i 1) (i 2)

/-- The printed index maps, decided over the grid: every window's view coordinate is the output's; the adjacency's and
    the initial features' row-block coordinate is the output's; every other coordinate is 0. -/
theorem idx_facts9 : ∀ t : Fin cfg9.N,
    win9_0.index t (0 : Fin 3) = win9_4.index t (0 : Fin 3) ∧ win9_0.index t (1 : Fin 3) = win9_4.index t (1 : Fin 3)
    ∧ win9_0.index t (2 : Fin 3) = 0
    ∧ win9_1.index t (0 : Fin 3) = win9_4.index t (0 : Fin 3) ∧ win9_1.index t (1 : Fin 3) = 0 ∧ win9_1.index t (2 : Fin 3) = 0
    ∧ win9_2.index t (0 : Fin 3) = win9_4.index t (0 : Fin 3) ∧ win9_2.index t (1 : Fin 3) = win9_4.index t (1 : Fin 3)
    ∧ win9_2.index t (2 : Fin 3) = 0
    ∧ win9_3.index t (0 : Fin 3) = win9_4.index t (0 : Fin 3) ∧ win9_3.index t (1 : Fin 3) = 0 ∧ win9_3.index t (2 : Fin 3) = 0
    ∧ win9_4.index t (0 : Fin 3) ≤ 1 ∧ win9_4.index t (1 : Fin 3) ≤ 4 ∧ win9_4.index t (2 : Fin 3) = 0 :=
  (by decide +kernel : ∀ t : Fin grid9.N, _)

/-- Every block of the output array is some point's. -/
theorem idx_onto9 : ∀ (q0 : Fin 2) (q1 : Fin 5), ∃ t : Fin cfg9.N, win9_4.index t = ![q0.val, q1.val, 0] :=
  (by decide +kernel : ∀ (q0 : Fin 2) (q1 : Fin 5), ∃ t : Fin grid9.N, win9_4.index t = ![q0.val, q1.val, 0])

/-! ## The input blocks at a point are restrictions of the arrays -/

section Blocks
variable (c : Dev nD) (t : Fin cfg9.N) (v : Fin 2) (m : Fin 5)
  (hv : win9_4.index t (0 : Fin 3) = v.val) (hm : win9_4.index t (1 : Fin 3) = m.val)
include hv hm

theorem blk9_0 (u : Fin 1) (p : Fin 1000) (k : Fin 5000) :
    iblk9 V c 0 t (ix3 u p k) = V c main_v5 (ix3 v ⟨m.val * 1000 + p.val, by omega⟩ k) := by
  obtain ⟨e00, e01, e02, e10, e11, e12, e20, e21, e22, e30, e31, e32, -, -, -⟩ := idx_facts9 t
  show V c main_v5 (((cfg9.win 0).blk t).view.emb (ix3 u p k)) = _
  refine congrArg (V c main_v5) ?_
  funext a; apply Fin.ext
  match a with
  | ⟨0, _⟩ => show win9_0.index t (0 : Fin 3) * 1 + 1 * u.val = v.val; omega
  | ⟨1, _⟩ => show win9_0.index t (1 : Fin 3) * 1000 + 1 * p.val = m.val * 1000 + p.val; omega
  | ⟨2, _⟩ => show win9_0.index t (2 : Fin 3) * 5000 + 1 * k.val = k.val; omega

theorem blk9_1 (u : Fin 1) (k : Fin 5000) (j : Fin 128) :
    iblk9 V c 1 t (ix3 u k j) = V c main_v26 (ix3 v k j) := by
  obtain ⟨e00, e01, e02, e10, e11, e12, e20, e21, e22, e30, e31, e32, -, -, -⟩ := idx_facts9 t
  show V c main_v26 (((cfg9.win 1).blk t).view.emb (ix3 u k j)) = _
  refine congrArg (V c main_v26) ?_
  funext a; apply Fin.ext
  match a with
  | ⟨0, _⟩ => show win9_1.index t (0 : Fin 3) * 1 + 1 * u.val = v.val; omega
  | ⟨1, _⟩ => show win9_1.index t (1 : Fin 3) * 5000 + 1 * k.val = k.val; omega
  | ⟨2, _⟩ => show win9_1.index t (2 : Fin 3) * 128 + 1 * j.val = j.val; omega

theorem blk9_2 (u : Fin 1) (p : Fin 1000) (j : Fin 128) :
    iblk9 V c 2 t (ix3 u p j) = V c main_v4 (ix3 v ⟨m.val * 1000 + p.val, by omega⟩ j) := by
  obtain ⟨e00, e01, e02, e10, e11, e12, e20, e21, e22, e30, e31, e32, -, -, -⟩ := idx_facts9 t
  show V c main_v4 (((cfg9.win 2).blk t).view.emb (ix3 u p j)) = _
  refine congrArg (V c main_v4) ?_
  funext a; apply Fin.ext
  match a with
  | ⟨0, _⟩ => show win9_2.index t (0 : Fin 3) * 1 + 1 * u.val = v.val; omega
  | ⟨1, _⟩ => show win9_2.index t (1 : Fin 3) * 1000 + 1 * p.val = m.val * 1000 + p.val; omega
  | ⟨2, _⟩ => show win9_2.index t (2 : Fin 3) * 128 + 1 * j.val = j.val; omega

theorem blk9_3 (u : Fin 1) (q : Fin 128) (j : Fin 128) :
    iblk9 V c 3 t (ix3 u q j) = V c main_v28 (ix3 v q j) := by
  obtain ⟨e00, e01, e02, e10, e11, e12, e20, e21, e22, e30, e31, e32, -, -, -⟩ := idx_facts9 t
  show V c main_v28 (((cfg9.win 3).blk t).view.emb (ix3 u q j)) = _
  refine congrArg (V c main_v28) ?_
  funext a; apply Fin.ext
  match a with
  | ⟨0, _⟩ => show win9_3.index t (0 : Fin 3) * 1 + 1 * u.val = v.val; omega
  | ⟨1, _⟩ => show win9_3.index t (1 : Fin 3) * 128 + 1 * q.val = q.val; omega
  | ⟨2, _⟩ => show win9_3.index t (2 : Fin 3) * 128 + 1 * j.val = j.val; omega

/-- The output block's entry (u, p, j) is the array's entry (v, 1000 m + p, j). -/
theorem emb9_4 (u : Fin 1) (p : Fin 1000) (j : Fin 128) :
    ((cfg9.win 4).blk t).view.emb (ix3 u p j) = (ix3 v ⟨m.val * 1000 + p.val, by omega⟩ j : S2x5000x128.Idx) := by
  obtain ⟨-, -, -, -, -, -, -, -, -, -, -, -, -, -, e42⟩ := idx_facts9 t
  funext a; apply Fin.ext
  match a with
  | ⟨0, _⟩ => show win9_4.index t (0 : Fin 3) * 1 + 1 * u.val = v.val; omega
  | ⟨1, _⟩ => show win9_4.index t (1 : Fin 3) * 1000 + 1 * p.val = m.val * 1000 + p.val; omega
  | ⟨2, _⟩ => show win9_4.index t (2 : Fin 3) * 128 + 1 * j.val = j.val; omega

end Blocks

/-- WHAT POINT `t` WRITES BACK is block `t` of the layer function of the input arrays as the region finds them. -/
theorem flushed9_eq (c : Dev nD) (t : Fin cfg9.N) :
    (dat9 V c).flushed 4 t = ((cfg9.win 4).blk t).view.read (Elt Ideal) (G9 V c) := by
  show (cfg9.win 4).cut (grid9.coords t) ((dat9 V c).after 4 t) = _
  rw [after9_4]
  unfold out9_4
  rw [View.canon_unit_zero hz9]
  simp only [View.ld_unit_zero (S := S1x5000x128) hz9, View.ld_unit_zero (S := S1x1000x5000) hz9,
    View.ld_unit_zero (S := S1x1000x128) hz9, View.ld_unit_zero (S := S1x128x128) hz9]
  rw [k9_pay1_eq]
  obtain ⟨-, -, -, -, -, -, -, -, -, -, -, -, l0, l1, -⟩ := idx_facts9 t
  have hv : win9_4.index t (0 : Fin 3) = (⟨win9_4.index t (0 : Fin 3), by omega⟩ : Fin 2).val := rfl
  have hm : win9_4.index t (1 : Fin 3) = (⟨win9_4.index t (1 : Fin 3), by omega⟩ : Fin 5).val := rfl
  funext y
  obtain ⟨u, p, j, rfl⟩ : ∃ (u : Fin 1) (p : Fin 1000) (j : Fin 128), y = ix3 u p j := ⟨y 0, y 1, y 2, eq_ix3 y⟩
  show layerPay 0x3F707AE8#32 0x3D785186#32 (iblk9 V c 1 t) (iblk9 V c 0 t) (iblk9 V c 2 t) (iblk9 V c 3 t) (ix3 u p j)
    = G9 V c (((cfg9.win 4).blk t).view.emb (ix3 u p j))
  rw [emb9_4 t _ _ hv hm u p j]
  refine (layerPay_apply 0x3F707AE8#32 0x3D785186#32 (iblk9 V c 1 t) (iblk9 V c 0 t) (iblk9 V c 2 t) (iblk9 V c 3 t) u p j).trans ?_
  unfold blockMix
  simp only [blk9_0 V c t _ _ hv hm, blk9_1 V c t _ _ hv hm, blk9_2 V c t _ _ hv hm, blk9_3 V c t _ _ hv hm]
  rfl

/-- An index of the array is in point `t`'s block iff each coordinate is in the block's range on its axis. -/
theorem mem_blk9 (t : Fin cfg9.N) (i : S2x5000x128.Idx) :
    i ∈ ((cfg9.win 4).blk t).view.set ↔ ∀ a : Fin 3, win9_4.index t a * S1x1000x128.size a ≤ (i a).val ∧ (i a).val < win9_4.index t a * S1x1000x128.size a + S1x1000x128.size a := by
  show i ∈ ((View.whole main_v29).slice (win9_4.rect t)).set ↔ _
  rw [View.set_slice_whole, Rect.mem_set_unit]
  exact Iff.rfl

/-- The ten blocks cover the array: row `r` of view `v` is in the block of the point with block index (v, r / 1000, 0). -/
theorem cover9 (i : S2x5000x128.Idx) : ∃ t : Fin cfg9.N, (cfg9.win 4).flush t = true ∧ i ∈ ((cfg9.win 4).blk t).view.set := by
  have hi0 : (i 0).val < 2 := (i 0).isLt
  have hi1 : (i 1).val < 5000 := (i 1).isLt
  have hi2 : (i 2).val < 128 := (i 2).isLt
  obtain ⟨t, ht⟩ := idx_onto9 ⟨(i 0).val, hi0⟩ ⟨(i 1).val / 1000, by omega⟩
  have q0 : win9_4.index t (0 : Fin 3) = (i 0).val := congrFun ht 0
  have q1 : win9_4.index t (1 : Fin 3) = (i 1).val / 1000 := congrFun ht 1
  have q2 : win9_4.index t (2 : Fin 3) = 0 := congrFun ht 2
  refine ⟨t, flush9_4 t, ?_⟩
  rw [mem_blk9]
  intro a
  match a with
  | ⟨0, _⟩ => show win9_4.index t (0 : Fin 3) * 1 ≤ (i 0).val ∧ (i 0).val < win9_4.index t (0 : Fin 3) * 1 + 1; omega
  | ⟨1, _⟩ => show win9_4.index t (1 : Fin 3) * 1000 ≤ (i 1).val ∧ (i 1).val < win9_4.index t (1 : Fin 3) * 1000 + 1000; omega
  | ⟨2, _⟩ => show win9_4.index t (2 : Fin 3) * 128 ≤ (i 2).val ∧ (i 2).val < win9_4.index t (2 : Fin 3) * 128 + 128; omega

/-- THE ARRAY after the region: the layer function of the input arrays. -/
theorem final9 (c : Dev nD) : (dat9 V c).arrAt 4 cfg9.N = G9 V c :=
  (dat9 V c).arrAt_eq_of_cover 4 (G9 V c) (fun t _ => flushed9_eq V c t) cover9

/-- Read at an entry written by coordinates. -/
theorem val9 (c : Dev nD) (v : Fin 2) (r : Fin 5000) (j : Fin 128) :
    (dat9 (F := Ideal) V c).arrAt 4 cfg9.N (ix3 v r j)
      = Cert.Spec.layer (fun v r k => V c main_v5 (ix3 v r k)) (fun v k j => V c main_v26 (ix3 v k j))
          (fun v r j => V c main_v4 (ix3 v r j)) (fun v q j => V c main_v28 (ix3 v q j)) 0x3F707AE8#32 0x3D785186#32 v r j := by
  rw [final9]; rfl

end Cert.KernelIdeal.HandVal

end
-- ==== Proof.KI.Val10.lean ====
/-
  Region 10 at the ideal instance: what the head of the network leaves in its result array.  The body's one payload,
  read at an entry, is the classifier on the rectified projection of one row of the side-by-side features; the
  row blocks of the result tile the array, so the array after the region is that function of the arrays the region
  finds, entry by entry.
-/
import proofs.«129426_g120259084709_cont_main3_741_6_alg».proof.Proof.KI.Reg10
import proofs.«129426_g120259084709_cont_main3_741_6_alg».proof.Proof.Spec
import proofs.«129426_g120259084709_cont_main3_741_6_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## The payload at an entry -/

/-- The projection of a block of rows with its bias row added. -/
def pre10 (x0 : FVec Ideal S1000x256 .f32) (x1 : FVec Ideal S256x128 .f32) (x2 : FVec Ideal S1x128 .f32) : FVec Ideal S1000x128 .f32 :=
  addf (matmul dot_S1000x256_S256x128_S1000x128_1_0_0_1_n_n none (shapeCast S1000x256 x0 shapeCasts_S1000x256_S1000x256) x1
      (constant S1000x128 .f32 0x00000000#32))
    (broadcastTo S1000x128 (shapeCast S1x128 (shapeCast S128 x2 shapeCasts_S1x128_S128) shapeCasts_S128_S1x128) broadcasts_S1x128_S1000x128)

/-- The leaky rectifier, entry by entry. -/
def act10 (z : FVec Ideal S1000x128 .f32) : FVec Ideal S1000x128 .f32 :=
  select (cmpf .oge z (broadcast S1000x128 (Scalar.ofBits .f32 0x00000000#32))) z
    (mulf (broadcast S1000x128 (Scalar.ofBits .f32 0x3C23D70A#32)) z)

/-- The classifier on a block of rows with its bias row added. -/
def post10 (e : FVec Ideal S1000x128 .f32) (x3 : FVec Ideal S128x5000 .f32) (x4 : FVec Ideal S1x5000 .f32) : FVec Ideal S1000x5000 .f32 :=
  addf (matmul dot_S1000x128_S128x5000_S1000x5000_1_0_0_1_n_n none e x3 (constant S1000x5000 .f32 0x00000000#32))
    (broadcastTo S1000x5000 (shapeCast S1x5000 (shapeCast S5000 x4 shapeCasts_S1x5000_S5000) shapeCasts_S5000_S1x5000) broadcasts_S1x5000_S1000x5000)

/-- The printed payload is the three stages composed. -/
theorem pay10_eq (x0 : Vec Ideal S1000x256 .f32) (x1 : Vec Ideal S256x128 .f32) (x2 : Vec Ideal S1x128 .f32)
    (x3 : Vec Ideal S128x5000 .f32) (x4 : Vec Ideal S1x5000 .f32) :
    k10_pay1 (F := Ideal) x0 x1 x2 x3 x4 = post10 (act10 (pre10 x0 x1 x2)) x3 x4 := rfl

theorem pre10_apply (x0 : FVec Ideal S1000x256 .f32) (x1 : FVec Ideal S256x128 .f32) (x2 : FVec Ideal S1x128 .f32)
    (p : Fin 1000) (j : Fin 128) :
    pre10 x0 x1 x2 (ix2 p j) = (∑ q : Fin 256, x0 (ix2 p q) * x1 (ix2 q j)) + x2 (ix2 0 j) := by
  unfold pre10
  rw [addf_apply, shapeCast_self, shapeCast_shapeCast, broadcastTo_1b_ab_apply]
  exact congrArg (· + x2 (ix2 0 j)) (Cert.PlainDot.matmul_zero_ix2 dot_S1000x256_S256x128_S1000x128_1_0_0_1_n_n rfl none x0 x1 p j)

theorem act10_apply (z : FVec Ideal S1000x128 .f32) (i : S1000x128.Idx) : act10 z i = Cert.Spec.leaky (z i) := by
  unfold act10 Cert.Spec.leaky Cert.Spec.lit
  show (if BitVec.ofBool (decide (Ideal.ofBits .f32 0x00000000#32 ≤ z i)) = 1#1 then z i else Ideal.ofBits .f32 0x3C23D70A#32 * z i) = _
  by_cases h : Ideal.ofBits .f32 0x00000000#32 ≤ z i
  · rw [if_pos h, decide_eq_true h]; rfl
  · rw [if_neg h, decide_eq_false h]; rfl

theorem post10_apply (e : FVec Ideal S1000x128 .f32) (x3 : FVec Ideal S128x5000 .f32) (x4 : FVec Ideal S1x5000 .f32)
    (p : Fin 1000) (u : Fin 5000) :
    post10 e x3 x4 (ix2 p u) = (∑ j : Fin 128, e (ix2 p j) * x3 (ix2 j u)) + x4 (ix2 0 u) := by
  unfold post10
  rw [addf_apply, shapeCast_shapeCast, broadcastTo_1b_ab_apply]
  exact congrArg (· + x4 (ix2 0 u)) (Cert.PlainDot.matmul_zero_ix2 dot_S1000x128_S128x5000_S1000x5000_1_0_0_1_n_n rfl none e x3 p u)

/-- The payload at entry `(p, u)` of the block. -/
theorem pay10_apply (x0 : Vec Ideal S1000x256 .f32) (x1 : Vec Ideal S256x128 .f32) (x2 : Vec Ideal S1x128 .f32)
    (x3 : Vec Ideal S128x5000 .f32) (x4 : Vec Ideal S1x5000 .f32) (p : Fin 1000) (u : Fin 5000) :
    k10_pay1 (F := Ideal) x0 x1 x2 x3 x4 (ix2 p u)
      = (∑ j : Fin 128, Cert.Spec.leaky ((∑ q : Fin 256, x0 (ix2 p q) * x1 (ix2 q j)) + x2 (ix2 0 j)) * x3 (ix2 j u)) + x4 (ix2 0 u) := by
  rw [pay10_eq, post10_apply]
  simp only [act10_apply, pre10_apply]

/-! ## From blocks to the array -/

-- the arrays when the region is entered
variable (V : (c : Dev nD) → (b : Ref sig .tc) → Buf (Elt Ideal) ((c : Thread nD τ).loc b))

theorem hz10 : (![0, 0] : Fin 2 → Nat) = fun _ => 0 := funext fun a => by fin_cases a <;> rfl

/-- The printed index maps, decided over the grid: the row block of the features moves with the result's, the
    weights and bias rows stay at their one block, and the result's row block index is below five. -/
theorem idx_facts10 : ∀ t : Fin cfg10.N,
    win10_0.index t (0 : Fin 2) = win10_5.index t (0 : Fin 2) ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) ≤ 4 ∧ win10_5.index t (1 : Fin 2) = 0 :=
  (by decide +kernel : ∀ t : Fin grid10.N, _)

/-- Every row block of the result is some point's. -/
theorem idx_onto10 : ∀ q0 : Fin 5, ∃ t : Fin cfg10.N, win10_5.index t = ![q0.val, 0] :=
  (by decide +kernel : ∀ q0 : Fin 5, ∃ t : Fin grid10.N, win10_5.index t = ![q0.val, 0])

/-- The arrays the region finds, read by coordinates: the side-by-side features, the projection's weights and bias
    row, the classifier's weights and bias row. -/
abbrev hid10 (c : Dev nD) : Fin 5000 → Fin 256 → EReal := fun r q => V c main_v34 (ix2 r q)
abbrev wc10 (c : Dev nD) : Fin 256 → Fin 128 → EReal := fun q j => V c main_arg7 (ix2 q j)
abbrev bc10 (c : Dev nD) : Fin 128 → EReal := fun j => V c main_v35 (ix2 0 j)
abbrev wo10 (c : Dev nD) : Fin 128 → Fin 5000 → EReal := fun j t => V c main_arg9 (ix2 j t)
abbrev bo10 (c : Dev nD) : Fin 5000 → EReal := fun t => V c main_v36 (ix2 0 t)

/-- The result array as one function of the arrays the region finds, entry by entry. -/
def G10 (c : Dev nD) : S5000x5000.Idx → EReal := fun i =>
  Cert.Spec.pred (hid10 V c) (wc10 V c) (bc10 V c) (wo10 V c) (bo10 V c) (i 0) (i 1)

/-! The input blocks at a point, read where the result's row block says. -/

theorem iblk10_0_apply (c : Dev nD) (t : Fin cfg10.N) (p : Fin 1000) (q : Fin 256) (r : Fin 5000)
    (hr : r.val = win10_5.index t (0 : Fin 2) * 1000 + p.val) :
    iblk10 V c 0 t (ix2 p q) = V c main_v34 (ix2 r q) := by
  obtain ⟨e0, e1, -⟩ := idx_facts10 t
  show V c main_v34 (((cfg10.win 0).blk t).view.emb (ix2 p q)) = V c main_v34 (ix2 r q)
  refine congrArg (V c main_v34) (funext fun a => Fin.ext ?_)
  match a with
  | ⟨0, _⟩ => show win10_0.index t (0 : Fin 2) * 1000 + 1 * p.val = r.val; omega
  | ⟨1, _⟩ => show win10_0.index t (1 : Fin 2) * 256 + 1 * q.val = q.val; omega

theorem iblk10_1_apply (c : Dev nD) (t : Fin cfg10.N) (q : Fin 256) (j : Fin 128) :
    iblk10 V c 1 t (ix2 q j) = V c main_arg7 (ix2 q j) := by
  obtain ⟨-, -, e2, e3, -⟩ := idx_facts10 t
  show V c main_arg7 (((cfg10.win 1).blk t).view.emb (ix2 q j)) = V c main_arg7 (ix2 q j)
  refine congrArg (V c main_arg7) (funext fun a => Fin.ext ?_)
  match a with
  | ⟨0, _⟩ => show win10_1.index t (0 : Fin 2) * 256 + 1 * q.val = q.val; omega
  | ⟨1, _⟩ => show win10_1.index t (1 : Fin 2) * 128 + 1 * j.val = j.val; omega

theorem iblk10_2_apply (c : Dev nD) (t : Fin cfg10.N) (j : Fin 128) :
    iblk10 V c 2 t (ix2 (0 : Fin 1) j) = V c main_v35 (ix2 (0 : Fin 1) j) := by
  obtain ⟨-, -, -, -, e4, e5, -⟩ := idx_facts10 t
  show V c main_v35 (((cfg10.win 2).blk t).view.emb (ix2 (0 : Fin 1) j)) = V c main_v35 (ix2 (0 : Fin 1) j)
  refine congrArg (V c main_v35) (funext fun a => Fin.ext ?_)
  match a with
  | ⟨0, _⟩ => show win10_2.index t (0 : Fin 2) * 1 + 1 * 0 = 0; omega
  | ⟨1, _⟩ => show win10_2.index t (1 : Fin 2) * 128 + 1 * j.val = j.val; omega

theorem iblk10_3_apply (c : Dev nD) (t : Fin cfg10.N) (j : Fin 128) (u : Fin 5000) :
    iblk10 V c 3 t (ix2 j u) = V c main_arg9 (ix2 j u) := by
  obtain ⟨-, -, -, -, -, -, e6, e7, -⟩ := idx_facts10 t
  show V c main_arg9 (((cfg10.win 3).blk t).view.emb (ix2 j u)) = V c main_arg9 (ix2 j u)
  refine congrArg (V c main_arg9) (funext fun a => Fin.ext ?_)
  match a with
  | ⟨0, _⟩ => show win10_3.index t (0 : Fin 2) * 128 + 1 * j.val = j.val; omega
  | ⟨1, _⟩ => show win10_3.index t (1 : Fin 2) * 5000 + 1 * u.val = u.val; omega

theorem iblk10_4_apply (c : Dev nD) (t : Fin cfg10.N) (u : Fin 5000) :
    iblk10 V c 4 t (ix2 (0 : Fin 1) u) = V c main_v36 (ix2 (0 : Fin 1) u) := by
  obtain ⟨-, -, -, -, -, -, -, -, e8, e9, -⟩ := idx_facts10 t
  show V c main_v36 (((cfg10.win 4).blk t).view.emb (ix2 (0 : Fin 1) u)) = V c main_v36 (ix2 (0 : Fin 1) u)
  refine congrArg (V c main_v36) (funext fun a => Fin.ext ?_)
  match a with
  | ⟨0, _⟩ => show win10_4.index t (0 : Fin 2) * 1 + 1 * 0 = 0; omega
  | ⟨1, _⟩ => show win10_4.index t (1 : Fin 2) * 5000 + 1 * u.val = u.val; omega

/-- Where entry `(p, u)` of point `t`'s result block sits in the array. -/
theorem emb10_5 (t : Fin cfg10.N) (p : Fin 1000) (u : Fin 5000) (r : Fin 5000)
    (hr : r.val = win10_5.index t (0 : Fin 2) * 1000 + p.val) :
    ((cfg10.win 5).blk t).view.emb (ix2 p u) = ix2 r u := by
  obtain ⟨-, -, -, -, -, -, -, -, -, -, e10, e11⟩ := idx_facts10 t
  refine funext fun a => Fin.ext ?_
  match a with
  | ⟨0, _⟩ => show win10_5.index t (0 : Fin 2) * 1000 + 1 * p.val = r.val; omega
  | ⟨1, _⟩ => show win10_5.index t (1 : Fin 2) * 5000 + 1 * u.val = u.val; omega

/-- What point `t` writes back is block `t` of `G10`. -/
theorem flushed10_eq (c : Dev nD) (t : Fin cfg10.N) :
    (dat10 (F := Ideal) V c).flushed 5 t = ((cfg10.win 5).blk t).view.read (Elt Ideal) (G10 V c) := by
  show (cfg10.win 5).cut (grid10.coords t) ((dat10 (F := Ideal) V c).after 5 t) = _
  rw [after10_5]
  unfold out10_5
  rw [View.canon_unit_zero hz10]
  simp only [View.ld_unit_zero (S := S1000x256) hz10, View.ld_unit_zero (S := S256x128) hz10, View.ld_unit_zero (S := S1x128) hz10,
    View.ld_unit_zero (S := S128x5000) hz10, View.ld_unit_zero (S := S1x5000) hz10]
  funext j
  obtain ⟨p, u, rfl⟩ : ∃ (p : Fin 1000) (u : Fin 5000), j = ix2 p u := ⟨j 0, j 1, eq_ix2 j⟩
  have hlt : win10_5.index t (0 : Fin 2) * 1000 + p.val < 5000 := by
    obtain ⟨-, -, -, -, -, -, -, -, -, -, e10, -⟩ := idx_facts10 t
    have := p.isLt; omega
  refine (pay10_apply (iblk10 V c 0 t) (iblk10 V c 1 t) (iblk10 V c 2 t) (iblk10 V c 3 t) (iblk10 V c 4 t) p u).trans ?_
  show _ = G10 V c (((cfg10.win 5).blk t).view.emb (ix2 p u))
  rw [emb10_5 t p u ⟨win10_5.index t (0 : Fin 2) * 1000 + p.val, hlt⟩ rfl]
  show _ = (∑ j : Fin 128, Cert.Spec.leaky ((∑ q : Fin 256, hid10 V c ⟨win10_5.index t (0 : Fin 2) * 1000 + p.val, hlt⟩ q * wc10 V c q j)
      + bc10 V c j) * wo10 V c j u) + bo10 V c u
  refine congrArg₂ (· + ·) (Finset.sum_congr rfl fun j _ => congrArg₂ (· * ·) (congrArg Cert.Spec.leaky
    (congrArg₂ (· + ·) (Finset.sum_congr rfl fun q _ => congrArg₂ (· * ·) (iblk10_0_apply V c t p q _ rfl) (iblk10_1_apply V c t q j))
      (iblk10_2_apply V c t j))) (iblk10_3_apply V c t j u)) (iblk10_4_apply V c t u)

/-- An index of the array is in point `t`'s block iff each coordinate is in the block's range on its axis. -/
theorem mem_blk10 (t : Fin cfg10.N) (i : S5000x5000.Idx) :
    i ∈ ((cfg10.win 5).blk t).view.set ↔ ∀ a : Fin 2, win10_5.index t a * S1000x5000.size a ≤ (i a).val ∧ (i a).val < win10_5.index t a * S1000x5000.size a + S1000x5000.size a := by
  show i ∈ ((View.whole main_v37).slice (win10_5.rect t)).set ↔ _
  rw [View.set_slice_whole, Rect.mem_set_unit]
  exact Iff.rfl

/-- The row blocks tile the array. -/
theorem cover10 (i : S5000x5000.Idx) : ∃ t : Fin cfg10.N, (cfg10.win 5).flush t = true ∧ i ∈ ((cfg10.win 5).blk t).view.set := by
  have hi0 : (i 0).val < 5000 := (i 0).isLt
  have hi1 : (i 1).val < 5000 := (i 1).isLt
  obtain ⟨t, ht⟩ := idx_onto10 ⟨(i 0).val / 1000, by omega⟩
  have q0 : win10_5.index t (0 : Fin 2) = (i 0).val / 1000 := congrFun ht 0
  have q1 : win10_5.index t (1 : Fin 2) = 0 := congrFun ht 1
  refine ⟨t, flush10_5 t, ?_⟩
  rw [mem_blk10]
  intro a
  match a with
  | ⟨0, _⟩ => show win10_5.index t (0 : Fin 2) * 1000 ≤ (i 0).val ∧ (i 0).val < win10_5.index t (0 : Fin 2) * 1000 + 1000; omega
  | ⟨1, _⟩ => show win10_5.index t (1 : Fin 2) * 5000 ≤ (i 1).val ∧ (i 1).val < win10_5.index t (1 : Fin 2) * 5000 + 5000; omega

/-- The result array after the region. -/
theorem final10 (c : Dev nD) : (dat10 (F := Ideal) V c).arrAt 5 cfg10.N = G10 V c :=
  (dat10 (F := Ideal) V c).arrAt_eq_of_cover 5 (G10 V c) (fun t _ => flushed10_eq V c t) cover10

/-- The result array after the region, entry by entry: the classifier on the rectified projection of the
    side-by-side features, of the arrays the region finds. -/
theorem val10 (c : Dev nD) (r t : Fin 5000) :
    (dat10 (F := Ideal) V c).arrAt 5 cfg10.N (ValueIdx.ix2 r t)
      = Cert.Spec.pred (fun r q => V c main_v34 (ValueIdx.ix2 r q)) (fun q j => V c main_arg7 (ValueIdx.ix2 q j))
          (fun j => V c main_v35 (ValueIdx.ix2 0 j)) (fun j t => V c main_arg9 (ValueIdx.ix2 j t))
          (fun t => V c main_v36 (ValueIdx.ix2 0 t)) r t := by
  rw [final10]
  rfl

end Cert.KernelIdeal.HandVal

end
-- ==== Proof.KI.Result.lean ====
/-
  The kernel program's result as the specification.  The buffer contents at the 22 boundaries of the run satisfy the
  hypotheses of the value chain: a host stretch's boundary is the fold of its operations by definition, a region keeps every
  array it does not output, and each region's output array read at an index is its stage of the specification over the
  buffers at its entry.  Hence the result array after the run, read at (r, t), is the model of the launch arguments.
-/
import proofs.«129426_g120259084709_cont_main3_741_6_alg».proof.Proof.KI.Run
import proofs.«129426_g120259084709_cont_main3_741_6_alg».proof.Proof.KI.Chain
import proofs.«129426_g120259084709_cont_main3_741_6_alg».proof.Proof.KI.Val0
import proofs.«129426_g120259084709_cont_main3_741_6_alg».proof.Proof.KI.Val1
import proofs.«129426_g120259084709_cont_main3_741_6_alg».proof.Proof.KI.Val2
import proofs.«129426_g120259084709_cont_main3_741_6_alg».proof.Proof.KI.Val3
import proofs.«129426_g120259084709_cont_main3_741_6_alg».proof.Proof.KI.Val4
import proofs.«129426_g120259084709_cont_main3_741_6_alg».proof.Proof.KI.Val5
import proofs.«129426_g120259084709_cont_main3_741_6_alg».proof.Proof.KI.Val6
import proofs.«129426_g120259084709_cont_main3_741_6_alg».proof.Proof.KI.Val7
import proofs.«129426_g120259084709_cont_main3_741_6_alg».proof.Proof.KI.Val8
import proofs.«129426_g120259084709_cont_main3_741_6_alg».proof.Proof.KI.Val9
import proofs.«129426_g120259084709_cont_main3_741_6_alg».proof.Proof.KI.Val10

set_option maxRecDepth 16384

noncomputable section

namespace Cert.KernelIdeal.HandResult

open Idealize.ShloMosaic Idealize.ShloMosaic.TcCoe Idealize.ShloMosaic.ValueIdx Idealize.SL.Sem
open Cert.KernelIdeal Cert.KernelIdeal.Gen Cert.KernelIdeal.Hand Cert.KernelIdeal.HandVal Cert.KernelIdeal.HandChain

variable (m : (ℓ : Loc nD τ sig) → Buf (Elt Ideal) ℓ) (ρ : Dev nD → PrngReg) (c : Dev nD)

/-- The boundaries of the run satisfy the value chain's hypotheses. -/
theorem chain : Chain (W0 m ρ c) (W1 m ρ c) (W2 m ρ c) (W3 m ρ c) (W4 m ρ c) (W5 m ρ c) (W6 m ρ c) (W7 m ρ c) (W8 m ρ c) (W9 m ρ c) (W10 m ρ c) (W11 m ρ c) (W12 m ρ c) (W13 m ρ c) (W14 m ρ c) (W15 m ρ c) (W16 m ρ c) (W17 m ρ c) (W18 m ρ c) (W19 m ρ c) (W20 m ρ c) (W21 m ρ c) where
  hh1 := rfl
  hh4 := rfl
  hh6 := rfl
  hh8 := rfl
  hh10 := rfl
  hh12 := rfl
  hh14 := rfl
  hh16 := rfl
  hh18 := rfl
  hh20 := rfl
  k2 := fun b h1 h2 => W2_of_ne m ρ c b (Ne.symm h1) (Ne.symm h2)
  k3 := fun b h => W3_of_ne m ρ c b (Ne.symm h)
  k5 := fun b h => W5_of_ne m ρ c b (Ne.symm h)
  k7 := fun b h => W7_of_ne m ρ c b (Ne.symm h)
  k9 := fun b h => W9_of_ne m ρ c b (Ne.symm h)
  k11 := fun b h => W11_of_ne m ρ c b (Ne.symm h)
  k13 := fun b h => W13_of_ne m ρ c b (Ne.symm h)
  k15 := fun b h => W15_of_ne m ρ c b (Ne.symm h)
  k17 := fun b h => W17_of_ne m ρ c b (Ne.symm h)
  k19 := fun b h => W19_of_ne m ρ c b (Ne.symm h)
  k21 := fun b h => W21_of_ne m ρ c b (Ne.symm h)
  o0a := fun v k => (congrFun (W2_out1 m ρ c) _).trans (Cert.KernelIdeal.HandVal0.val0_sum (V1 m ρ) c v k)
  o0b := fun v k => (congrFun (W2_out2 m ρ c) _).trans (Cert.KernelIdeal.HandVal0.val0_sq (V1 m ρ) c v k)
  o1 := fun v r j => (congrFun (W3_out7 m ρ c) _).trans (val1 (V2 m ρ) c v r j)
  o2 := fun v r j => (congrFun (W5_out4 m ρ c) _).trans (val2 (V4 m ρ) c v r j)
  o3 := fun v r j => (congrFun (W7_out4 m ρ c) _).trans (val3 (V6 m ρ) c v r j)
  o4 := fun v r j => (congrFun (W9_out4 m ρ c) _).trans (val4 (V8 m ρ) c v r j)
  o5 := fun v r j => (congrFun (W11_out4 m ρ c) _).trans (val5 (V10 m ρ) c v r j)
  o6 := fun v r j => (congrFun (W13_out4 m ρ c) _).trans (val6 (V12 m ρ) c v r j)
  o7 := fun v r j => (congrFun (W15_out4 m ρ c) _).trans (val7 (V14 m ρ) c v r j)
  o8 := fun v r j => (congrFun (W17_out4 m ρ c) _).trans (val8 (V16 m ρ) c v r j)
  o9 := fun v r j => (congrFun (W19_out4 m ρ c) _).trans (val9 (V18 m ρ) c v r j)
  o10 := fun r t => (congrFun (W21_out5 m ρ c) _).trans (val10 (V20 m ρ) c r t)

/-- The result array after the run, read at (r, t), is the model of the launch arguments. -/
theorem result (r t : Fin 5000) :
    (W21 m ρ c (Proc.devRef .tc main_v37) : S5000x5000.Idx → EReal) (ix2 r t)
      = Cert.Spec.model (aX (W0 m ρ c)) (aNet (W0 m ρ c)) (aGam (W0 m ρ c)) (aBet (W0 m ρ c)) (aWin (W0 m ρ c)) (aBin (W0 m ρ c))
          (aWg (W0 m ρ c)) (aWc (W0 m ρ c)) (aBc (W0 m ρ c)) (aWo (W0 m ρ c)) (aBo (W0 m ρ c)) r t :=
  model_eq (chain m ρ c) r t

end Cert.KernelIdeal.HandResult

end
-- ==== Proof.Ref.Ops0.lean ====
/-
  Window `main_part0` of the reference program's @main as the list of its 89 host operations, in program order
  (operations 1 … 89 of 517): @main's own lines as printed; where @main calls a function, the
  function's operations stand in the call's place over the call's own buffers (a call inside a called function
  likewise). The window is the straight line of that list; the list touches TensorCore references only; and a
  buffer none of its operations writes keeps its contents through it.
-/
import proofs.«129426_g120259084709_cont_main3_741_6_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part0`, in order. -/
abbrev ops0 : List (HloOp τ sig (Elt F)) :=
  [ StableHlo.unary main_arg0 main_v0 ((extractStridedSlice S1x5000x5000 ![0, 0, 0] · slices_S2x5000x5000_S1x5000x5000_0_0_0) : (⟨S2x5000x5000, .f32⟩ : BufTy).Contents (Elt F) → (⟨S1x5000x5000, .f32⟩ : BufTy).Contents (Elt F)),
    StableHlo.reshape main_v0 main_v1 rfl shapeCasts_S1x5000x5000_S5000x5000,
    StableHlo.nullary main_cst (constant S_ .f32 0x00000000#32),
    StableHlo.binary main_v1 main_cst main_v2 ((fun x v => Host.reduceAdd x v reducesTo_S5000x5000_S5000_d0 h_S_) : (⟨S5000x5000, .f32⟩ : BufTy).Contents (Elt F) → (⟨S_, .f32⟩ : BufTy).Contents (Elt F) → (⟨S5000, .f32⟩ : BufTy).Contents (Elt F)),
    StableHlo.nullary main_cst_0 (constant S_ .f32 0x459C4000#32),
    StableHlo.unary main_cst_0 main_v3 (broadcastInDim S5000 ![] bcast_S_S5000 : (⟨S_, .f32⟩ : BufTy).Contents (Elt F) → (⟨S5000, .f32⟩ : BufTy).Contents (Elt F)),
    StableHlo.binary main_v2 main_v3 main_v4 (Host.divf : (⟨S5000, .f32⟩ : BufTy).Contents (Elt F) → (⟨S5000, .f32⟩ : BufTy).Contents (Elt F) → (⟨S5000, .f32⟩ : BufTy).Contents (Elt F)),
    StableHlo.nullary main_c (constantI S_ 32 0#32),
    TRef.nullary (TRef.of (T := ⟨S_, .f32⟩) main_call0_cst) (constant S_ .f32 0x00000000#32),
    TRef.binary (TRef.of (T := ⟨S5000x5000, .f32⟩) main_v1) (TRef.of (T := ⟨S_, .f32⟩) main_call0_cst) (TRef.of (T := ⟨S5000, .f32⟩) main_call0_v0) (fun x v => Host.reduceAdd x v reducesTo_S5000x5000_S5000_d0 h_S_),
    TRef.unary (TRef.of (T := ⟨S5000, .f32⟩) main_call0_v0) (TRef.of (T := ⟨S1x5000, .f32⟩) main_call0_v1) (broadcastInDim S1x5000 ![1] bcast_S5000_S1x5000_1),
    TRef.nullary (TRef.of (T := ⟨S_, .f32⟩) main_call0_cst_0) (constant S_ .f32 0x459C4000#32),
    TRef.unary (TRef.of (T := ⟨S_, .f32⟩) main_call0_cst_0) (TRef.of (T := ⟨S1x5000, .f32⟩) main_call0_v2) (broadcastInDim S1x5000 ![] bcast_S_S1x5000),
    TRef.binary (TRef.of (T := ⟨S1x5000, .f32⟩) main_call0_v1) (TRef.of (T := ⟨S1x5000, .f32⟩) main_call0_v2) (TRef.of (T := ⟨S1x5000, .f32⟩) main_call0_v3) Host.divf,
    TRef.unary (TRef.of (T := ⟨S1x5000, .f32⟩) main_call0_v3) (TRef.of (T := ⟨S5000x5000, .f32⟩) main_call0_v4) (broadcastInDim S5000x5000 ![0, 1] bcast_S1x5000_S5000x5000_0_1),
    TRef.binary (TRef.of (T := ⟨S5000x5000, .f32⟩) main_v1) (TRef.of (T := ⟨S5000x5000, .f32⟩) main_call0_v4) (TRef.of (T := ⟨S5000x5000, .f32⟩) main_call0_v5) subf,
    TRef.binary (TRef.of (T := ⟨S5000x5000, .f32⟩) main_call0_v5) (TRef.of (T := ⟨S5000x5000, .f32⟩) main_call0_v5) (TRef.of (T := ⟨S5000x5000, .f32⟩) main_call0_v6) mulf,
    TRef.unary (TRef.of (T := ⟨S_, .i32⟩) main_c) (TRef.of (T := ⟨S_, .f32⟩) main_call0_v7) (sitofp .f32),
    TRef.nullary (TRef.of (T := ⟨S_, .f32⟩) main_call0_cst_1) (constant S_ .f32 0x459C4000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S5000x5000, .f32⟩) main_call0_v6) (TRef.of (T := ⟨S_, .f32⟩) main_call0_cst_2) (TRef.of (T := ⟨S5000, .f32⟩) main_call0_v9) (fun x v => Host.reduceAdd x v reducesTo_S5000x5000_S5000_d0 h_S_),
    TRef.unary (TRef.of (T := ⟨S_, .f32⟩) main_call0_v8) (TRef.of (T := ⟨S5000, .f32⟩) main_call0_v10) (broadcastInDim S5000 ![] bcast_S_S5000),
    TRef.binary (TRef.of (T := ⟨S5000, .f32⟩) main_call0_v9) (TRef.of (T := ⟨S5000, .f32⟩) main_call0_v10) (TRef.of (T := ⟨S5000, .f32⟩) main_call0_v11) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v12) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S5000, .f32⟩) main_call0_call0_v1) (broadcastInDim S5000 ![] bcast_S_S5000),
    TRef.ternary (TRef.of (T := ⟨S_, .i1⟩) main_call0_v12) (TRef.of (T := ⟨S5000, .f32⟩) main_call0_v11) (TRef.of (T := ⟨S5000, .f32⟩) main_call0_call0_v1) (TRef.of (T := ⟨S5000, .f32⟩) main_v5) (fun p a b => select (broadcastInDim S5000 ![] bcast_S_S5000 p) a b),
    StableHlo.unary main_v4 main_v6 (broadcastInDim S1x5000 ![1] bcast_S5000_S1x5000_1 : (⟨S5000, .f32⟩ : BufTy).Contents (Elt F) → (⟨S1x5000, .f32⟩ : BufTy).Contents (Elt F)),
    StableHlo.unary main_v6 main_v7 (broadcastInDim S5000x5000 ![0, 1] bcast_S1x5000_S5000x5000_0_1 : (⟨S1x5000, .f32⟩ : BufTy).Contents (Elt F) → (⟨S5000x5000, .f32⟩ : BufTy).Contents (Elt F)),
    StableHlo.binary main_v1 main_v7 main_v8 (subf : (⟨S5000x5000, .f32⟩ : BufTy).Contents (Elt F) → (⟨S5000x5000, .f32⟩ : BufTy).Contents (Elt F) → (⟨S5000x5000, .f32⟩ : BufTy).Contents (Elt F)),
    StableHlo.nullary main_cst_1 (constant S_ .f32 0x3727C5AC#32),
    StableHlo.unary main_cst_1 main_v9 (broadcastInDim S5000 ![] bcast_S_S5000 : (⟨S_, .f32⟩ : BufTy).Contents (Elt F) → (⟨S5000, .f32⟩ : BufTy).Contents (Elt F)),
    StableHlo.binary main_v5 main_v9 main_v10 (addf : (⟨S5000, .f32⟩ : BufTy).Contents (Elt F) → (⟨S5000, .f32⟩ : BufTy).Contents (Elt F) → (⟨S5000, .f32⟩ : BufTy).Contents (Elt F)),
    StableHlo.unary main_v10 main_v11 (Host.sqrt : (⟨S5000, .f32⟩ : BufTy).Contents (Elt F) → (⟨S5000, .f32⟩ : BufTy).Contents (Elt F)),
    StableHlo.unary main_v11 main_v12 (broadcastInDim S1x5000 ![1] bcast_S5000_S1x5000_1 : (⟨S5000, .f32⟩ : BufTy).Contents (Elt F) → (⟨S1x5000, .f32⟩ : BufTy).Contents (Elt F)),
    StableHlo.unary main_v12 main_v13 (broadcastInDim S5000x5000 ![0, 1] bcast_S1x5000_S5000x5000_0_1 : (⟨S1x5000, .f32⟩ : BufTy).Contents (Elt F) → (⟨S5000x5000, .f32⟩ : BufTy).Contents (Elt F)),
    StableHlo.binary main_v8 main_v13 main_v14 (Host.divf : (⟨S5000x5000, .f32⟩ : BufTy).Contents (Elt F) → (⟨S5000x5000, .f32⟩ : BufTy).Contents (Elt F) → (⟨S5000x5000, .f32⟩ : BufTy).Contents (Elt F)),
    StableHlo.unary main_arg2 main_v15 ((extractStridedSlice S1x5000 ![0, 0] · slices_S2x5000_S1x5000_0_0) : (⟨S2x5000, .f32⟩ : BufTy).Contents (Elt F) → (⟨S1x5000, .f32⟩ : BufTy).Contents (Elt F)),
    StableHlo.reshape main_v15 main_v16 rfl shapeCasts_S1x5000_S5000,
    StableHlo.unary main_v16 main_v17 (broadcastInDim S1x5000 ![1] bcast_S5000_S1x5000_1 : (⟨S5000, .f32⟩ : BufTy).Contents (Elt F) → (⟨S1x5000, .f32⟩ : BufTy).Contents (Elt F)),
    StableHlo.unary main_v17 main_v18 (broadcastInDim S5000x5000 ![0, 1] bcast_S1x5000_S5000x5000_0_1 : (⟨S1x5000, .f32⟩ : BufTy).Contents (Elt F) → (⟨S5000x5000, .f32⟩ : BufTy).Contents (Elt F)),
    StableHlo.binary main_v14 main_v18 main_v19 (mulf : (⟨S5000x5000, .f32⟩ : BufTy).Contents (Elt F) → (⟨S5000x5000, .f32⟩ : BufTy).Contents (Elt F) → (⟨S5000x5000, .f32⟩ : BufTy).Contents (Elt F)),
    StableHlo.unary main_arg3 main_v20 ((extractStridedSlice S1x5000 ![0, 0] · slices_S2x5000_S1x5000_0_0) : (⟨S2x5000, .f32⟩ : BufTy).Contents (Elt F) → (⟨S1x5000, .f32⟩ : BufTy).Contents (Elt F)),
    StableHlo.reshape main_v20 main_v21 rfl shapeCasts_S1x5000_S5000,
    StableHlo.unary main_v21 main_v22 (broadcastInDim S1x5000 ![1] bcast_S5000_S1x5000_1 : (⟨S5000, .f32⟩ : BufTy).Contents (Elt F) → (⟨S1x5000, .f32⟩ : BufTy).Contents (Elt F)),
    StableHlo.unary main_v22 main_v23 (broadcastInDim S5000x5000 ![0, 1] bcast_S1x5000_S5000x5000_0_1 : (⟨S1x5000, .f32⟩ : BufTy).Contents (Elt F) → (⟨S5000x5000, .f32⟩ : BufTy).Contents (Elt F)),
    StableHlo.binary main_v19 main_v23 main_v24 (addf : (⟨S5000x5000, .f32⟩ : BufTy).Contents (Elt F) → (⟨S5000x5000, .f32⟩ : BufTy).Contents (Elt F) → (⟨S5000x5000, .f32⟩ : BufTy).Contents (Elt F)),
    StableHlo.unary main_arg4 main_v25 ((extractStridedSlice S1x5000x128 ![0, 0, 0] · slices_S2x5000x128_S1x5000x128_0_0_0) : (⟨S2x5000x128, .f32⟩ : BufTy).Contents (Elt F) → (⟨S1x5000x128, .f32⟩ : BufTy).Contents (Elt F)),
    StableHlo.reshape main_v25 main_v26 rfl shapeCasts_S1x5000x128_S5000x128,
    StableHlo.binary main_v24 main_v26 main_v27 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.unary main_arg5 main_v28 ((extractStridedSlice S1x128 ![0, 0] · slices_S2x128_S1x128_0_0) : (⟨S2x128, .f32⟩ : BufTy).Contents (Elt F) → (⟨S1x128, .f32⟩ : BufTy).Contents (Elt F)),
    StableHlo.reshape main_v28 main_v29 rfl shapeCasts_S1x128_S128,
    StableHlo.unary main_v29 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S5000x128 ![0, 1] bcast_S1x128_S5000x128_0_1 : (⟨S1x128, .f32⟩ : BufTy).Contents (Elt F) → (⟨S5000x128, .f32⟩ : BufTy).Contents (Elt F)),
    StableHlo.binary main_v27 main_v31 main_v32 (addf : (⟨S5000x128, .f32⟩ : BufTy).Contents (Elt F) → (⟨S5000x128, .f32⟩ : BufTy).Contents (Elt F) → (⟨S5000x128, .f32⟩ : BufTy).Contents (Elt F)),
    StableHlo.nullary main_cst_2 (constant S_ .f32 0x3C23D70A#32),
    TRef.nullary (TRef.of (T := ⟨S_, .f32⟩) main_call1_cst) (constant S_ .f32 0x00000000#32),
    TRef.unary (TRef.of (T := ⟨S_, .f32⟩) main_call1_cst) (TRef.of (T := ⟨S5000x128, .f32⟩) main_call1_v0) (broadcastInDim S5000x128 ![] bcast_S_S5000x128),
    TRef.binary (TRef.of (T := ⟨S5000x128, .f32⟩) main_v32) (TRef.of (T := ⟨S5000x128, .f32⟩) main_call1_v0) (TRef.of (T := ⟨S5000x128, .i1⟩) main_call1_v1) (cmpf .oge),
    TRef.unary (TRef.of (T := ⟨S_, .f32⟩) main_cst_2) (TRef.of (T := ⟨S_, .f32⟩) main_call1_v2) id,
    TRef.unary (TRef.of (T := ⟨S_, .f32⟩) main_call1_v2) (TRef.of (T := ⟨S5000x128, .f32⟩) main_call1_v3) (broadcastInDim S5000x128 ![] bcast_S_S5000x128),
    TRef.binary (TRef.of (T := ⟨S5000x128, .f32⟩) main_call1_v3) (TRef.of (T := ⟨S5000x128, .f32⟩) main_v32) (TRef.of (T := ⟨S5000x128, .f32⟩) main_call1_v4) mulf,
    TRef.ternary (TRef.of (T := ⟨S5000x128, .i1⟩) main_call1_v1) (TRef.of (T := ⟨S5000x128, .f32⟩) main_v32) (TRef.of (T := ⟨S5000x128, .f32⟩) main_call1_v4) (TRef.of (T := ⟨S5000x128, .f32⟩) main_v33) select,
    StableHlo.unary main_arg1 main_v34 ((extractStridedSlice S1x5000x5000 ![0, 0, 0] · slices_S2x5000x5000_S1x5000x5000_0_0_0) : (⟨S2x5000x5000, .f32⟩ : BufTy).Contents (Elt F) → (⟨S1x5000x5000, .f32⟩ : BufTy).Contents (Elt F)),
    StableHlo.reshape main_v34 main_v35 rfl shapeCasts_S1x5000x5000_S5000x5000,
    StableHlo.binary main_v35 main_v33 main_v36 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_3 (constant S_ .f32 0x3F000000#32),
    StableHlo.unary main_cst_3 main_v37 (broadcastInDim S5000x128 ![] bcast_S_S5000x128 : (⟨S_, .f32⟩ : BufTy).Contents (Elt F) → (⟨S5000x128, .f32⟩ : BufTy).Contents (Elt F)),
    StableHlo.binary main_v37 main_v36 main_v38 (mulf : (⟨S5000x128, .f32⟩ : BufTy).Contents (Elt F) → (⟨S5000x128, .f32⟩ : BufTy).Contents (Elt F) → (⟨S5000x128, .f32⟩ : BufTy).Contents (Elt F)),
    StableHlo.nullary main_cst_4 (constant S_ .f32 0x3F000000#32),
    StableHlo.unary main_cst_4 main_v39 (broadcastInDim S5000x128 ![] bcast_S_S5000x128 : (⟨S_, .f32⟩ : BufTy).Contents (Elt F) → (⟨S5000x128, .f32⟩ : BufTy).Contents (Elt F)),
    StableHlo.binary main_v39 main_v33 main_v40 (mulf : (⟨S5000x128, .f32⟩ : BufTy).Contents (Elt F) → (⟨S5000x128, .f32⟩ : BufTy).Contents (Elt F) → (⟨S5000x128, .f32⟩ : BufTy).Contents (Elt F)),
    StableHlo.binary main_v38 main_v40 main_v41 (addf : (⟨S5000x128, .f32⟩ : BufTy).Contents (Elt F) → (⟨S5000x128, .f32⟩ : BufTy).Contents (Elt F) → (⟨S5000x128, .f32⟩ : BufTy).Contents (Elt F)),
    StableHlo.nullary main_cst_5 (constant S_ .f32 0x3F183370#32),
    StableHlo.unary main_cst_5 main_v42 (broadcastInDim S5000x128 ![] bcast_S_S5000x128 : (⟨S_, .f32⟩ : BufTy).Contents (Elt F) → (⟨S5000x128, .f32⟩ : BufTy).Contents (Elt F)),
    StableHlo.binary main_v42 main_v41 main_v43 (mulf : (⟨S5000x128, .f32⟩ : BufTy).Contents (Elt F) → (⟨S5000x128, .f32⟩ : BufTy).Contents (Elt F) → (⟨S5000x128, .f32⟩ : BufTy).Contents (Elt F)),
    StableHlo.unary main_arg6 main_v44 ((extractStridedSlice S1x1x128x128 ![0, 0, 0, 0] · slices_S2x8x128x128_S1x1x128x128_0_0_0_0) : (⟨S2x8x128x128, .f32⟩ : BufTy).Contents (Elt F) → (⟨S1x1x128x128, .f32⟩ : BufTy).Contents (Elt F)),
    StableHlo.reshape main_v44 main_v45 rfl shapeCasts_S1x1x128x128_S128x128,
    StableHlo.binary main_v41 main_v45 main_v46 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_6 (constant S_ .f32 0x3ECF991F#32),
    StableHlo.unary main_cst_6 main_v47 (broadcastInDim S5000x128 ![] bcast_S_S5000x128 : (⟨S_, .f32⟩ : BufTy).Contents (Elt F) → (⟨S5000x128, .f32⟩ : BufTy).Contents (Elt F)),
    StableHlo.binary main_v47 main_v46 main_v48 (mulf : (⟨S5000x128, .f32⟩ : BufTy).Contents (Elt F) → (⟨S5000x128, .f32⟩ : BufTy).Contents (Elt F) → (⟨S5000x128, .f32⟩ : BufTy).Contents (Elt F)),
    StableHlo.binary main_v43 main_v48 main_v49 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S5000x128, .f32⟩) main_call2_v0) (broadcastInDim S5000x128 ![] bcast_S_S5000x128),
    TRef.binary (TRef.of (T := ⟨S5000x128, .f32⟩) main_v49) (TRef.of (T := ⟨S5000x128, .f32⟩) main_call2_v0) (TRef.of (T := ⟨S5000x128, .f32⟩) main_v50) maximumf ]

set_option maxRecDepth 8192 in
set_option maxHeartbeats 4000000 in
/-- The window is the straight line of its operations: the called functions unfold at their calls. -/
theorem main_part0_eq (c : Dev nD) : main_part0 (F := F) c = seq ops0 := rfl

set_option maxRecDepth 8192 in
/-- Every operation of the window touches TensorCore references only. -/
theorem ops0_sub : (ops0 : List (HloOp τ sig (Elt F))).Forall fun op => op.bufs ⊆ tcRefs τ sig :=
  ⟨unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., unary_bufs_sub .., reshape_bufs_sub .., unary_bufs_sub ..,
    unary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., reshape_bufs_sub .., binary_bufs_sub .., nullary_bufs_sub .., unary_bufs_sub .., binary_bufs_sub ..,
    nullary_bufs_sub .., unary_bufs_sub .., binary_bufs_sub .., binary_bufs_sub .., nullary_bufs_sub .., unary_bufs_sub ..,
    binary_bufs_sub .., unary_bufs_sub .., reshape_bufs_sub .., binary_bufs_sub .., nullary_bufs_sub .., unary_bufs_sub ..,
    binary_bufs_sub .., binary_bufs_sub .., nullary_bufs_sub .., unary_bufs_sub .., binary_bufs_sub ..⟩

set_option maxRecDepth 8192 in
/-- Every operation of the window determines its results (none allocates). -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops0_W : List (Ref sig .tc) :=
  [main_v0, main_v1, main_cst, main_v2, main_cst_0, main_v3, main_v4, main_c, main_call0_cst, main_call0_v0,
    main_call0_v1, main_call0_cst_0, main_call0_v2, main_call0_v3, main_call0_v4, main_call0_v5, main_call0_v6, main_call0_v7, main_call0_cst_1, main_call0_v8,
    main_call0_cst_2, main_call0_v9, main_call0_v10, main_call0_v11, main_call0_cst_3, main_call0_v12, main_call0_cst_4, main_call0_call0_v0, main_call0_call0_v1, main_v5,
    main_v6, main_v7, main_v8, main_cst_1, main_v9, main_v10, main_v11, main_v12, main_v13, main_v14,
    main_v15, main_v16, main_v17, main_v18, main_v19, main_v20, main_v21, main_v22, main_v23, main_v24,
    main_v25, main_v26, main_v27, main_v28, main_v29, main_v30, main_v31, main_v32, main_cst_2, main_call1_cst,
    main_call1_v0, main_call1_v1, main_call1_v2, main_call1_v3, main_call1_v4, main_v33, main_v34, main_v35, main_v36, main_cst_3,
    main_v37, main_v38, main_cst_4, main_v39, main_v40, main_v41, main_cst_5, main_v42, main_v43, main_v44,
    main_v45, main_v46, main_cst_6, main_v47, main_v48, main_v49, main_call2_cst, main_call2_v0, main_v50]

set_option maxRecDepth 8192 in
set_option maxHeartbeats 4000000 in
/-- Each operation writes its one result buffer, which is in that list. -/
theorem ops0_writes : (ops0 : List (HloOp τ sig (Elt F))).Forall fun op => op.writes ⊆ (ops0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

/-- A buffer the window does not write keeps its contents through it. -/
theorem ops0_keep (V : Valuation τ sig (Elt F)) (r : Ref sig .tc) (h : r ∉ ops0_W) :
    after ops0 V (Proc.devRef .tc r) = V (Proc.devRef .tc r) :=
  after_of_writes_sub ops0 V ops0_writes h

end Cert.ReferenceIdeal.RefRun

end
-- ==== Proof.Ref.Ops1.lean ====
/-
  Window `main_part1` of the reference program's @main as the list of its 64 host operations, in program order
  (operations 90 … 153 of 517): @main's own lines as printed; where @main calls a function, the
  function's operations stand in the call's place over the call's own buffers (a call inside a called function
  likewise). The window is the straight line of that list; the list touches TensorCore references only; and a
  buffer none of its operations writes keeps its contents through it.
-/
import proofs.«129426_g120259084709_cont_main3_741_6_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part1`, in order. -/
abbrev ops1 : List (HloOp τ sig (Elt F)) :=
  [ StableHlo.unary main_arg1 main_v51 ((extractStridedSlice S1x5000x5000 ![0, 0, 0] · slices_S2x5000x5000_S1x5000x5000_0_0_0) : (⟨S2x5000x5000, .f32⟩ : BufTy).Contents (Elt F) → (⟨S1x5000x5000, .f32⟩ : BufTy).Contents (Elt F)),
    StableHlo.reshape main_v51 main_v52 rfl shapeCasts_S1x5000x5000_S5000x5000,
    StableHlo.binary main_v52 main_v50 main_v53 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_7 (constant S_ .f32 0x3F000000#32),
    StableHlo.unary main_cst_7 main_v54 (broadcastInDim S5000x128 ![] bcast_S_S5000x128 : (⟨S_, .f32⟩ : BufTy).Contents (Elt F) → (⟨S5000x128, .f32⟩ : BufTy).Contents (Elt F)),
    StableHlo.binary main_v54 main_v53 main_v55 (mulf : (⟨S5000x128, .f32⟩ : BufTy).Contents (Elt F) → (⟨S5000x128, .f32⟩ : BufTy).Contents (Elt F) → (⟨S5000x128, .f32⟩ : BufTy).Contents (Elt F)),
    StableHlo.nullary main_cst_8 (constant S_ .f32 0x3F000000#32),
    StableHlo.unary main_cst_8 main_v56 (broadcastInDim S5000x128 ![] bcast_S_S5000x128 : (⟨S_, .f32⟩ : BufTy).Contents (Elt F) → (⟨S5000x128, .f32⟩ : BufTy).Contents (Elt F)),
    StableHlo.binary main_v56 main_v33 main_v57 (mulf : (⟨S5000x128, .f32⟩ : BufTy).Contents (Elt F) → (⟨S5000x128, .f32⟩ : BufTy).Contents (Elt F) → (⟨S5000x128, .f32⟩ : BufTy).Contents (Elt F)),
    StableHlo.binary main_v55 main_v57 main_v58 (addf : (⟨S5000x128, .f32⟩ : BufTy).Contents (Elt F) → (⟨S5000x128, .f32⟩ : BufTy).Contents (Elt F) → (⟨S5000x128, .f32⟩ : BufTy).Contents (Elt F)),
    StableHlo.nullary main_cst_9 (constant S_ .f32 0x3F46E010#32),
    StableHlo.unary main_cst_9 main_v59 (broadcastInDim S5000x128 ![] bcast_S_S5000x128 : (⟨S_, .f32⟩ : BufTy).Contents (Elt F) → (⟨S5000x128, .f32⟩ : BufTy).Contents (Elt F)),
    StableHlo.binary main_v59 main_v58 main_v60 (mulf : (⟨S5000x128, .f32⟩ : BufTy).Contents (Elt F) → (⟨S5000x128, .f32⟩ : BufTy).Contents (Elt F) → (⟨S5000x128, .f32⟩ : BufTy).Contents (Elt F)),
    StableHlo.unary main_arg6 main_v61 ((extractStridedSlice S1x1x128x128 ![0, 1, 0, 0] · slices_S2x8x128x128_S1x1x128x128_0_1_0_0) : (⟨S2x8x128x128, .f32⟩ : BufTy).Contents (Elt F) → (⟨S1x1x128x128, .f32⟩ : BufTy).Contents (Elt F)),
    StableHlo.reshape main_v61 main_v62 rfl shapeCasts_S1x1x128x128_S128x128,
    StableHlo.binary main_v58 main_v62 main_v63 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_10 (constant S_ .f32 0x3E647FBE#32),
    StableHlo.unary main_cst_10 main_v64 (broadcastInDim S5000x128 ![] bcast_S_S5000x128 : (⟨S_, .f32⟩ : BufTy).Contents (Elt F) → (⟨S5000x128, .f32⟩ : BufTy).Contents (Elt F)),
    StableHlo.binary main_v64 main_v63 main_v65 (mulf : (⟨S5000x128, .f32⟩ : BufTy).Contents (Elt F) → (⟨S5000x128, .f32⟩ : BufTy).Contents (Elt F) → (⟨S5000x128, .f32⟩ : BufTy).Contents (Elt F)),
    StableHlo.binary main_v60 main_v65 main_v66 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S5000x128, .f32⟩) main_call3_v0) (broadcastInDim S5000x128 ![] bcast_S_S5000x128),
    TRef.binary (TRef.of (T := ⟨S5000x128, .f32⟩) main_v66) (TRef.of (T := ⟨S5000x128, .f32⟩) main_call3_v0) (TRef.of (T := ⟨S5000x128, .f32⟩) main_v67) maximumf,
    StableHlo.unary main_arg1 main_v68 ((extractStridedSlice S1x5000x5000 ![0, 0, 0] · slices_S2x5000x5000_S1x5000x5000_0_0_0) : (⟨S2x5000x5000, .f32⟩ : BufTy).Contents (Elt F) → (⟨S1x5000x5000, .f32⟩ : BufTy).Contents (Elt F)),
    StableHlo.reshape main_v68 main_v69 rfl shapeCasts_S1x5000x5000_S5000x5000,
    StableHlo.binary main_v69 main_v67 main_v70 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_11 (constant S_ .f32 0x3F000000#32),
    StableHlo.unary main_cst_11 main_v71 (broadcastInDim S5000x128 ![] bcast_S_S5000x128 : (⟨S_, .f32⟩ : BufTy).Contents (Elt F) → (⟨S5000x128, .f32⟩ : BufTy).Contents (Elt F)),
    StableHlo.binary main_v71 main_v70 main_v72 (mulf : (⟨S5000x128, .f32⟩ : BufTy).Contents (Elt F) → (⟨S5000x128, .f32⟩ : BufTy).Contents (Elt F) → (⟨S5000x128, .f32⟩ : BufTy).Contents (Elt F)),
    StableHlo.nullary main_cst_12 (constant S_ .f32 0x3F000000#32),
    StableHlo.unary main_cst_12 main_v73 (broadcastInDim S5000x128 ![] bcast_S_S5000x128 : (⟨S_, .f32⟩ : BufTy).Contents (Elt F) → (⟨S5000x128, .f32⟩ : BufTy).Contents (Elt F)),
    StableHlo.binary main_v73 main_v33 main_v74 (mulf : (⟨S5000x128, .f32⟩ : BufTy).Contents (Elt F) → (⟨S5000x128, .f32⟩ : BufTy).Contents (Elt F) → (⟨S5000x128, .f32⟩ : BufTy).Contents (Elt F)),
    StableHlo.binary main_v72 main_v74 main_v75 (addf : (⟨S5000x128, .f32⟩ : BufTy).Contents (Elt F) → (⟨S5000x128, .f32⟩ : BufTy).Contents (Elt F) → (⟨S5000x128, .f32⟩ : BufTy).Contents (Elt F)),
    StableHlo.nullary main_cst_13 (constant S_ .f32 0x3F588995#32),
    StableHlo.unary main_cst_13 main_v76 (broadcastInDim S5000x128 ![] bcast_S_S5000x128 : (⟨S_, .f32⟩ : BufTy).Contents (Elt F) → (⟨S5000x128, .f32⟩ : BufTy).Contents (Elt F)),
    StableHlo.binary main_v76 main_v75 main_v77 (mulf : (⟨S5000x128, .f32⟩ : BufTy).Contents (Elt F) → (⟨S5000x128, .f32⟩ : BufTy).Contents (Elt F) → (⟨S5000x128, .f32⟩ : BufTy).Contents (Elt F)),
    StableHlo.unary main_arg6 main_v78 ((extractStridedSlice S1x1x128x128 ![0, 2, 0, 0] · slices_S2x8x128x128_S1x1x128x128_0_2_0_0) : (⟨S2x8x128x128, .f32⟩ : BufTy).Contents (Elt F) → (⟨S1x1x128x128, .f32⟩ : BufTy).Contents (Elt F)),
    StableHlo.reshape main_v78 main_v79 rfl shapeCasts_S1x1x128x128_S128x128,
    StableHlo.binary main_v75 main_v79 main_v80 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_14 (constant S_ .f32 0x3E1DD9AD#32),
    StableHlo.unary main_cst_14 main_v81 (broadcastInDim S5000x128 ![] bcast_S_S5000x128 : (⟨S_, .f32⟩ : BufTy).Contents (Elt F) → (⟨S5000x128, .f32⟩ : BufTy).Contents (Elt F)),
    StableHlo.binary main_v81 main_v80 main_v82 (mulf : (⟨S5000x128, .f32⟩ : BufTy).Contents (Elt F) → (⟨S5000x128, .f32⟩ : BufTy).Contents (Elt F) → (⟨S5000x128, .f32⟩ : BufTy).Contents (Elt F)),
    StableHlo.binary main_v77 main_v82 main_v83 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S5000x128, .f32⟩) main_call4_v0) (broadcastInDim S5000x128 ![] bcast_S_S5000x128),
    TRef.binary (TRef.of (T := ⟨S5000x128, .f32⟩) main_v83) (TRef.of (T := ⟨S5000x128, .f32⟩) main_call4_v0) (TRef.of (T := ⟨S5000x128, .f32⟩) main_v84) maximumf,
    StableHlo.unary main_arg1 main_v85 ((extractStridedSlice S1x5000x5000 ![0, 0, 0] · slices_S2x5000x5000_S1x5000x5000_0_0_0) : (⟨S2x5000x5000, .f32⟩ : BufTy).Contents (Elt F) → (⟨S1x5000x5000, .f32⟩ : BufTy).Contents (Elt F)),
    StableHlo.reshape main_v85 main_v86 rfl shapeCasts_S1x5000x5000_S5000x5000,
    StableHlo.binary main_v86 main_v84 main_v87 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_15 (constant S_ .f32 0x3F000000#32),
    StableHlo.unary main_cst_15 main_v88 (broadcastInDim S5000x128 ![] bcast_S_S5000x128 : (⟨S_, .f32⟩ : BufTy).Contents (Elt F) → (⟨S5000x128, .f32⟩ : BufTy).Contents (Elt F)),
    StableHlo.binary main_v88 main_v87 main_v89 (mulf : (⟨S5000x128, .f32⟩ : BufTy).Contents (Elt F) → (⟨S5000x128, .f32⟩ : BufTy).Contents (Elt F) → (⟨S5000x128, .f32⟩ : BufTy).Contents (Elt F)),
    StableHlo.nullary main_cst_16 (constant S_ .f32 0x3F000000#32),
    StableHlo.unary main_cst_16 main_v90 (broadcastInDim S5000x128 ![] bcast_S_S5000x128 : (⟨S_, .f32⟩ : BufTy).Contents (Elt F) → (⟨S5000x128, .f32⟩ : BufTy).Contents (Elt F)),
    StableHlo.binary main_v90 main_v33 main_v91 (mulf : (⟨S5000x128, .f32⟩ : BufTy).Contents (Elt F) → (⟨S5000x128, .f32⟩ : BufTy).Contents (Elt F) → (⟨S5000x128, .f32⟩ : BufTy).Contents (Elt F)),
    StableHlo.binary main_v89 main_v91 main_v92 (addf : (⟨S5000x128, .f32⟩ : BufTy).Contents (Elt F) → (⟨S5000x128, .f32⟩ : BufTy).Contents (Elt F) → (⟨S5000x128, .f32⟩ : BufTy).Contents (Elt F)),
    StableHlo.nullary main_cst_17 (constant S_ .f32 0x3F61D8F9#32),
    StableHlo.unary main_cst_17 main_v93 (broadcastInDim S5000x128 ![] bcast_S_S5000x128 : (⟨S_, .f32⟩ : BufTy).Contents (Elt F) → (⟨S5000x128, .f32⟩ : BufTy).Contents (Elt F)),
    StableHlo.binary main_v93 main_v92 main_v94 (mulf : (⟨S5000x128, .f32⟩ : BufTy).Contents (Elt F) → (⟨S5000x128, .f32⟩ : BufTy).Contents (Elt F) → (⟨S5000x128, .f32⟩ : BufTy).Contents (Elt F)),
    StableHlo.unary main_arg6 main_v95 ((extractStridedSlice S1x1x128x128 ![0, 3, 0, 0] · slices_S2x8x128x128_S1x1x128x128_0_3_0_0) : (⟨S2x8x128x128, .f32⟩ : BufTy).Contents (Elt F) → (⟨S1x1x128x128, .f32⟩ : BufTy).Contents (Elt F)),
    StableHlo.reshape main_v95 main_v96 rfl shapeCasts_S1x1x128x128_S128x128,
    StableHlo.binary main_v92 main_v96 main_v97 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_18 (constant S_ .f32 0x3DF1383B#32),
    StableHlo.unary main_cst_18 main_v98 (broadcastInDim S5000x128 ![] bcast_S_S5000x128 : (⟨S_, .f32⟩ : BufTy).Contents (Elt F) → (⟨S5000x128, .f32⟩ : BufTy).Contents (Elt F)) ]

set_option maxRecDepth 8192 in
set_option maxHeartbeats 4000000 in
/-- The window is the straight line of its operations: the called functions unfold at their calls. -/
theorem main_part1_eq (c : Dev nD) : main_part1 (F := F) c = seq ops1 := rfl

set_option maxRecDepth 8192 in
/-- Every operation of the window touches TensorCore references only. -/
theorem ops1_sub : (ops1 : List (HloOp τ sig (Elt F))).Forall fun op => op.bufs ⊆ tcRefs τ sig :=
  ⟨unary_bufs_sub .., reshape_bufs_sub .., binary_bufs_sub .., nullary_bufs_sub .., unary_bufs_sub .., binary_bufs_sub ..,
    nullary_bufs_sub .., unary_bufs_sub .., binary_bufs_sub .., binary_bufs_sub .., nullary_bufs_sub .., unary_bufs_sub ..,
    binary_bufs_sub .., unary_bufs_sub .., reshape_bufs_sub .., binary_bufs_sub .., nullary_bufs_sub .., unary_bufs_sub ..,
    binary_bufs_sub .., binary_bufs_sub .., nullary_bufs_sub .., unary_bufs_sub .., binary_bufs_sub .., unary_bufs_sub ..,
    reshape_bufs_sub .., binary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    unary_bufs_sub .., reshape_bufs_sub .., binary_bufs_sub .., nullary_bufs_sub .., unary_bufs_sub .., binary_bufs_sub ..,
    binary_bufs_sub .., nullary_bufs_sub .., unary_bufs_sub .., binary_bufs_sub .., unary_bufs_sub .., reshape_bufs_sub ..,
    binary_bufs_sub .., nullary_bufs_sub .., unary_bufs_sub .., binary_bufs_sub .., nullary_bufs_sub .., unary_bufs_sub ..,
    binary_bufs_sub .., binary_bufs_sub .., nullary_bufs_sub .., unary_bufs_sub .., binary_bufs_sub .., unary_bufs_sub ..,
    reshape_bufs_sub .., binary_bufs_sub .., nullary_bufs_sub .., unary_bufs_sub ..⟩

set_option maxRecDepth 8192 in
/-- Every operation of the window determines its results (none allocates). -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops1_W : List (Ref sig .tc) :=
  [main_v51, main_v52, main_v53, main_cst_7, main_v54, main_v55, main_cst_8, main_v56, main_v57, main_v58,
    main_cst_9, main_v59, main_v60, main_v61, main_v62, main_v63, main_cst_10, main_v64, main_v65, main_v66,
    main_call3_cst, main_call3_v0, main_v67, main_v68, main_v69, main_v70, main_cst_11, main_v71, main_v72, main_cst_12,
    main_v73, main_v74, main_v75, main_cst_13, main_v76, main_v77, main_v78, main_v79, main_v80, main_cst_14,
    main_v81, main_v82, main_v83, main_call4_cst, main_call4_v0, main_v84, main_v85, main_v86, main_v87, main_cst_15,
    main_v88, main_v89, main_cst_16, main_v90, main_v91, main_v92, main_cst_17, main_v93, main_v94, main_v95,
    main_v96, main_v97, main_cst_18, main_v98]

set_option maxRecDepth 8192 in
set_option maxHeartbeats 4000000 in
/-- Each operation writes its one result buffer, which is in that list. -/
theorem ops1_writes : (ops1 : List (HloOp τ sig (Elt F))).Forall fun op => op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

/-- A buffer the window does not write keeps its contents through it. -/
theorem ops1_keep (V : Valuation τ sig (Elt F)) (r : Ref sig .tc) (h : r ∉ ops1_W) :
    after ops1 V (Proc.devRef .tc r) = V (Proc.devRef .tc r) :=
  after_of_writes_sub ops1 V ops1_writes h

end Cert.ReferenceIdeal.RefRun

end
-- ==== Proof.Ref.Ops2.lean ====
/-
  Window `main_part2` of the reference program's @main as the list of its 66 host operations, in program order
  (operations 154 … 219 of 517): @main's own lines as printed; where @main calls a function, the
  function's operations stand in the call's place over the call's own buffers (a call inside a called function
  likewise). The window is the straight line of that list; the list touches TensorCore references only; and a
  buffer none of its operations writes keeps its contents through it.
-/
import proofs.«129426_g120259084709_cont_main3_741_6_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part2`, in order. -/
abbrev ops2 : List (HloOp τ sig (Elt F)) :=
  [ StableHlo.binary main_v98 main_v97 main_v99 (mulf : (⟨S5000x128, .f32⟩ : BufTy).Contents (Elt F) → (⟨S5000x128, .f32⟩ : BufTy).Contents (Elt F) → (⟨S5000x128, .f32⟩ : BufTy).Contents (Elt F)),
    StableHlo.binary main_v94 main_v99 main_v100 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S5000x128, .f32⟩) main_call5_v0) (broadcastInDim S5000x128 ![] bcast_S_S5000x128),
    TRef.binary (TRef.of (T := ⟨S5000x128, .f32⟩) main_v100) (TRef.of (T := ⟨S5000x128, .f32⟩) main_call5_v0) (TRef.of (T := ⟨S5000x128, .f32⟩) main_v101) maximumf,
    StableHlo.unary main_arg1 main_v102 ((extractStridedSlice S1x5000x5000 ![0, 0, 0] · slices_S2x5000x5000_S1x5000x5000_0_0_0) : (⟨S2x5000x5000, .f32⟩ : BufTy).Contents (Elt F) → (⟨S1x5000x5000, .f32⟩ : BufTy).Contents (Elt F)),
    StableHlo.reshape main_v102 main_v103 rfl shapeCasts_S1x5000x5000_S5000x5000,
    StableHlo.binary main_v103 main_v101 main_v104 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_19 (constant S_ .f32 0x3F000000#32),
    StableHlo.unary main_cst_19 main_v105 (broadcastInDim S5000x128 ![] bcast_S_S5000x128 : (⟨S_, .f32⟩ : BufTy).Contents (Elt F) → (⟨S5000x128, .f32⟩ : BufTy).Contents (Elt F)),
    StableHlo.binary main_v105 main_v104 main_v106 (mulf : (⟨S5000x128, .f32⟩ : BufTy).Contents (Elt F) → (⟨S5000x128, .f32⟩ : BufTy).Contents (Elt F) → (⟨S5000x128, .f32⟩ : BufTy).Contents (Elt F)),
    StableHlo.nullary main_cst_20 (constant S_ .f32 0x3F000000#32),
    StableHlo.unary main_cst_20 main_v107 (broadcastInDim S5000x128 ![] bcast_S_S5000x128 : (⟨S_, .f32⟩ : BufTy).Contents (Elt F) → (⟨S5000x128, .f32⟩ : BufTy).Contents (Elt F)),
    StableHlo.binary main_v107 main_v33 main_v108 (mulf : (⟨S5000x128, .f32⟩ : BufTy).Contents (Elt F) → (⟨S5000x128, .f32⟩ : BufTy).Contents (Elt F) → (⟨S5000x128, .f32⟩ : BufTy).Contents (Elt F)),
    StableHlo.binary main_v106 main_v108 main_v109 (addf : (⟨S5000x128, .f32⟩ : BufTy).Contents (Elt F) → (⟨S5000x128, .f32⟩ : BufTy).Contents (Elt F) → (⟨S5000x128, .f32⟩ : BufTy).Contents (Elt F)),
    StableHlo.nullary main_cst_21 (constant S_ .f32 0x3F6799C1#32),
    StableHlo.unary main_cst_21 main_v110 (broadcastInDim S5000x128 ![] bcast_S_S5000x128 : (⟨S_, .f32⟩ : BufTy).Contents (Elt F) → (⟨S5000x128, .f32⟩ : BufTy).Contents (Elt F)),
    StableHlo.binary main_v110 main_v109 main_v111 (mulf : (⟨S5000x128, .f32⟩ : BufTy).Contents (Elt F) → (⟨S5000x128, .f32⟩ : BufTy).Contents (Elt F) → (⟨S5000x128, .f32⟩ : BufTy).Contents (Elt F)),
    StableHlo.unary main_arg6 main_v112 ((extractStridedSlice S1x1x128x128 ![0, 4, 0, 0] · slices_S2x8x128x128_S1x1x128x128_0_4_0_0) : (⟨S2x8x128x128, .f32⟩ : BufTy).Contents (Elt F) → (⟨S1x1x128x128, .f32⟩ : BufTy).Contents (Elt F)),
    StableHlo.reshape main_v112 main_v113 rfl shapeCasts_S1x1x128x128_S128x128,
    StableHlo.binary main_v109 main_v113 main_v114 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_22 (constant S_ .f32 0x3DC331FC#32),
    StableHlo.unary main_cst_22 main_v115 (broadcastInDim S5000x128 ![] bcast_S_S5000x128 : (⟨S_, .f32⟩ : BufTy).Contents (Elt F) → (⟨S5000x128, .f32⟩ : BufTy).Contents (Elt F)),
    StableHlo.binary main_v115 main_v114 main_v116 (mulf : (⟨S5000x128, .f32⟩ : BufTy).Contents (Elt F) → (⟨S5000x128, .f32⟩ : BufTy).Contents (Elt F) → (⟨S5000x128, .f32⟩ : BufTy).Contents (Elt F)),
    StableHlo.binary main_v111 main_v116 main_v117 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S5000x128, .f32⟩) main_call6_v0) (broadcastInDim S5000x128 ![] bcast_S_S5000x128),
    TRef.binary (TRef.of (T := ⟨S5000x128, .f32⟩) main_v117) (TRef.of (T := ⟨S5000x128, .f32⟩) main_call6_v0) (TRef.of (T := ⟨S5000x128, .f32⟩) main_v118) maximumf,
    StableHlo.unary main_arg1 main_v119 ((extractStridedSlice S1x5000x5000 ![0, 0, 0] · slices_S2x5000x5000_S1x5000x5000_0_0_0) : (⟨S2x5000x5000, .f32⟩ : BufTy).Contents (Elt F) → (⟨S1x5000x5000, .f32⟩ : BufTy).Contents (Elt F)),
    StableHlo.reshape main_v119 main_v120 rfl shapeCasts_S1x5000x5000_S5000x5000,
    StableHlo.binary main_v120 main_v118 main_v121 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_23 (constant S_ .f32 0x3F000000#32),
    StableHlo.unary main_cst_23 main_v122 (broadcastInDim S5000x128 ![] bcast_S_S5000x128 : (⟨S_, .f32⟩ : BufTy).Contents (Elt F) → (⟨S5000x128, .f32⟩ : BufTy).Contents (Elt F)),
    StableHlo.binary main_v122 main_v121 main_v123 (mulf : (⟨S5000x128, .f32⟩ : BufTy).Contents (Elt F) → (⟨S5000x128, .f32⟩ : BufTy).Contents (Elt F) → (⟨S5000x128, .f32⟩ : BufTy).Contents (Elt F)),
    StableHlo.nullary main_cst_24 (constant S_ .f32 0x3F000000#32),
    StableHlo.unary main_cst_24 main_v124 (broadcastInDim S5000x128 ![] bcast_S_S5000x128 : (⟨S_, .f32⟩ : BufTy).Contents (Elt F) → (⟨S5000x128, .f32⟩ : BufTy).Contents (Elt F)),
    StableHlo.binary main_v124 main_v33 main_v125 (mulf : (⟨S5000x128, .f32⟩ : BufTy).Contents (Elt F) → (⟨S5000x128, .f32⟩ : BufTy).Contents (Elt F) → (⟨S5000x128, .f32⟩ : BufTy).Contents (Elt F)),
    StableHlo.binary main_v123 main_v125 main_v126 (addf : (⟨S5000x128, .f32⟩ : BufTy).Contents (Elt F) → (⟨S5000x128, .f32⟩ : BufTy).Contents (Elt F) → (⟨S5000x128, .f32⟩ : BufTy).Contents (Elt F)),
    StableHlo.nullary main_cst_25 (constant S_ .f32 0x3F6B8252#32),
    StableHlo.unary main_cst_25 main_v127 (broadcastInDim S5000x128 ![] bcast_S_S5000x128 : (⟨S_, .f32⟩ : BufTy).Contents (Elt F) → (⟨S5000x128, .f32⟩ : BufTy).Contents (Elt F)),
    StableHlo.binary main_v127 main_v126 main_v128 (mulf : (⟨S5000x128, .f32⟩ : BufTy).Contents (Elt F) → (⟨S5000x128, .f32⟩ : BufTy).Contents (Elt F) → (⟨S5000x128, .f32⟩ : BufTy).Contents (Elt F)),
    StableHlo.unary main_arg6 main_v129 ((extractStridedSlice S1x1x128x128 ![0, 5, 0, 0] · slices_S2x8x128x128_S1x1x128x128_0_5_0_0) : (⟨S2x8x128x128, .f32⟩ : BufTy).Contents (Elt F) → (⟨S1x1x128x128, .f32⟩ : BufTy).Contents (Elt F)),
    StableHlo.reshape main_v129 main_v130 rfl shapeCasts_S1x1x128x128_S128x128,
    StableHlo.binary main_v126 main_v130 main_v131 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_26 (constant S_ .f32 0x3DA3ED6E#32),
    StableHlo.unary main_cst_26 main_v132 (broadcastInDim S5000x128 ![] bcast_S_S5000x128 : (⟨S_, .f32⟩ : BufTy).Contents (Elt F) → (⟨S5000x128, .f32⟩ : BufTy).Contents (Elt F)),
    StableHlo.binary main_v132 main_v131 main_v133 (mulf : (⟨S5000x128, .f32⟩ : BufTy).Contents (Elt F) → (⟨S5000x128, .f32⟩ : BufTy).Contents (Elt F) → (⟨S5000x128, .f32⟩ : BufTy).Contents (Elt F)),
    StableHlo.binary main_v128 main_v133 main_v134 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S5000x128, .f32⟩) main_call7_v0) (broadcastInDim S5000x128 ![] bcast_S_S5000x128),
    TRef.binary (TRef.of (T := ⟨S5000x128, .f32⟩) main_v134) (TRef.of (T := ⟨S5000x128, .f32⟩) main_call7_v0) (TRef.of (T := ⟨S5000x128, .f32⟩) main_v135) maximumf,
    StableHlo.unary main_arg1 main_v136 ((extractStridedSlice S1x5000x5000 ![0, 0, 0] · slices_S2x5000x5000_S1x5000x5000_0_0_0) : (⟨S2x5000x5000, .f32⟩ : BufTy).Contents (Elt F) → (⟨S1x5000x5000, .f32⟩ : BufTy).Contents (Elt F)),
    StableHlo.reshape main_v136 main_v137 rfl shapeCasts_S1x5000x5000_S5000x5000,
    StableHlo.binary main_v137 main_v135 main_v138 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_27 (constant S_ .f32 0x3F000000#32),
    StableHlo.unary main_cst_27 main_v139 (broadcastInDim S5000x128 ![] bcast_S_S5000x128 : (⟨S_, .f32⟩ : BufTy).Contents (Elt F) → (⟨S5000x128, .f32⟩ : BufTy).Contents (Elt F)),
    StableHlo.binary main_v139 main_v138 main_v140 (mulf : (⟨S5000x128, .f32⟩ : BufTy).Contents (Elt F) → (⟨S5000x128, .f32⟩ : BufTy).Contents (Elt F) → (⟨S5000x128, .f32⟩ : BufTy).Contents (Elt F)),
    StableHlo.nullary main_cst_28 (constant S_ .f32 0x3F000000#32),
    StableHlo.unary main_cst_28 main_v141 (broadcastInDim S5000x128 ![] bcast_S_S5000x128 : (⟨S_, .f32⟩ : BufTy).Contents (Elt F) → (⟨S5000x128, .f32⟩ : BufTy).Contents (Elt F)),
    StableHlo.binary main_v141 main_v33 main_v142 (mulf : (⟨S5000x128, .f32⟩ : BufTy).Contents (Elt F) → (⟨S5000x128, .f32⟩ : BufTy).Contents (Elt F) → (⟨S5000x128, .f32⟩ : BufTy).Contents (Elt F)),
    StableHlo.binary main_v140 main_v142 main_v143 (addf : (⟨S5000x128, .f32⟩ : BufTy).Contents (Elt F) → (⟨S5000x128, .f32⟩ : BufTy).Contents (Elt F) → (⟨S5000x128, .f32⟩ : BufTy).Contents (Elt F)),
    StableHlo.nullary main_cst_29 (constant S_ .f32 0x3F6E567C#32),
    StableHlo.unary main_cst_29 main_v144 (broadcastInDim S5000x128 ![] bcast_S_S5000x128 : (⟨S_, .f32⟩ : BufTy).Contents (Elt F) → (⟨S5000x128, .f32⟩ : BufTy).Contents (Elt F)),
    StableHlo.binary main_v144 main_v143 main_v145 (mulf : (⟨S5000x128, .f32⟩ : BufTy).Contents (Elt F) → (⟨S5000x128, .f32⟩ : BufTy).Contents (Elt F) → (⟨S5000x128, .f32⟩ : BufTy).Contents (Elt F)),
    StableHlo.unary main_arg6 main_v146 ((extractStridedSlice S1x1x128x128 ![0, 6, 0, 0] · slices_S2x8x128x128_S1x1x128x128_0_6_0_0) : (⟨S2x8x128x128, .f32⟩ : BufTy).Contents (Elt F) → (⟨S1x1x128x128, .f32⟩ : BufTy).Contents (Elt F)),
    StableHlo.reshape main_v146 main_v147 rfl shapeCasts_S1x1x128x128_S128x128 ]

set_option maxRecDepth 8192 in
set_option maxHeartbeats 4000000 in
/-- The window is the straight line of its operations: the called functions unfold at their calls. -/
theorem main_part2_eq (c : Dev nD) : main_part2 (F := F) c = seq ops2 := rfl

set_option maxRecDepth 8192 in
/-- Every operation of the window touches TensorCore references only. -/
theorem ops2_sub : (ops2 : List (HloOp τ sig (Elt F))).Forall fun op => op.bufs ⊆ tcRefs τ sig :=
  ⟨binary_bufs_sub .., binary_bufs_sub .., nullary_bufs_sub .., unary_bufs_sub .., binary_bufs_sub .., unary_bufs_sub ..,
    reshape_bufs_sub .., binary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    unary_bufs_sub .., reshape_bufs_sub .., binary_bufs_sub .., nullary_bufs_sub .., unary_bufs_sub .., binary_bufs_sub ..,
    binary_bufs_sub .., nullary_bufs_sub .., unary_bufs_sub .., binary_bufs_sub .., unary_bufs_sub .., reshape_bufs_sub ..,
    binary_bufs_sub .., nullary_bufs_sub .., unary_bufs_sub .., binary_bufs_sub .., nullary_bufs_sub .., unary_bufs_sub ..,
    binary_bufs_sub .., binary_bufs_sub .., nullary_bufs_sub .., unary_bufs_sub .., binary_bufs_sub .., unary_bufs_sub ..,
    reshape_bufs_sub .., binary_bufs_sub .., nullary_bufs_sub .., unary_bufs_sub .., binary_bufs_sub .., binary_bufs_sub ..,
    nullary_bufs_sub .., unary_bufs_sub .., binary_bufs_sub .., unary_bufs_sub .., reshape_bufs_sub .., binary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub .., unary_bufs_sub .., reshape_bufs_sub ..⟩

set_option maxRecDepth 8192 in
/-- Every operation of the window determines its results (none allocates). -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops2_W : List (Ref sig .tc) :=
  [main_v99, main_v100, main_call5_cst, main_call5_v0, main_v101, main_v102, main_v103, main_v104, main_cst_19, main_v105,
    main_v106, main_cst_20, main_v107, main_v108, main_v109, main_cst_21, main_v110, main_v111, main_v112, main_v113,
    main_v114, main_cst_22, main_v115, main_v116, main_v117, main_call6_cst, main_call6_v0, main_v118, main_v119, main_v120,
    main_v121, main_cst_23, main_v122, main_v123, main_cst_24, main_v124, main_v125, main_v126, main_cst_25, main_v127,
    main_v128, main_v129, main_v130, main_v131, main_cst_26, main_v132, main_v133, main_v134, main_call7_cst, main_call7_v0,
    main_v135, main_v136, main_v137, main_v138, main_cst_27, main_v139, main_v140, main_cst_28, main_v141, main_v142,
    main_v143, main_cst_29, main_v144, main_v145, main_v146, main_v147]

set_option maxRecDepth 8192 in
set_option maxHeartbeats 4000000 in
/-- Each operation writes its one result buffer, which is in that list. -/
theorem ops2_writes : (ops2 : List (HloOp τ sig (Elt F))).Forall fun op => op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

/-- A buffer the window does not write keeps its contents through it. -/
theorem ops2_keep (V : Valuation τ sig (Elt F)) (r : Ref sig .tc) (h : r ∉ ops2_W) :
    after ops2 V (Proc.devRef .tc r) = V (Proc.devRef .tc r) :=
  after_of_writes_sub ops2 V ops2_writes h

end Cert.ReferenceIdeal.RefRun

end
-- ==== Proof.Ref.Ops3.lean ====
/-
  Window `main_part3` of the reference program's @main as the list of its 85 host operations, in program order
  (operations 220 … 304 of 517): @main's own lines as printed; where @main calls a function, the
  function's operations stand in the call's place over the call's own buffers (a call inside a called function
  likewise). The window is the straight line of that list; the list touches TensorCore references only; and a
  buffer none of its operations writes keeps its contents through it.
-/
import proofs.«129426_g120259084709_cont_main3_741_6_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part3`, in order. -/
abbrev ops3 : List (HloOp τ sig (Elt F)) :=
  [ StableHlo.binary main_v143 main_v147 main_v148 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_30 (constant S_ .f32 0x3D8D4C22#32),
    StableHlo.unary main_cst_30 main_v149 (broadcastInDim S5000x128 ![] bcast_S_S5000x128 : (⟨S_, .f32⟩ : BufTy).Contents (Elt F) → (⟨S5000x128, .f32⟩ : BufTy).Contents (Elt F)),
    StableHlo.binary main_v149 main_v148 main_v150 (mulf : (⟨S5000x128, .f32⟩ : BufTy).Contents (Elt F) → (⟨S5000x128, .f32⟩ : BufTy).Contents (Elt F) → (⟨S5000x128, .f32⟩ : BufTy).Contents (Elt F)),
    StableHlo.binary main_v145 main_v150 main_v151 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S5000x128, .f32⟩) main_call8_v0) (broadcastInDim S5000x128 ![] bcast_S_S5000x128),
    TRef.binary (TRef.of (T := ⟨S5000x128, .f32⟩) main_v151) (TRef.of (T := ⟨S5000x128, .f32⟩) main_call8_v0) (TRef.of (T := ⟨S5000x128, .f32⟩) main_v152) maximumf,
    StableHlo.unary main_arg1 main_v153 ((extractStridedSlice S1x5000x5000 ![0, 0, 0] · slices_S2x5000x5000_S1x5000x5000_0_0_0) : (⟨S2x5000x5000, .f32⟩ : BufTy).Contents (Elt F) → (⟨S1x5000x5000, .f32⟩ : BufTy).Contents (Elt F)),
    StableHlo.reshape main_v153 main_v154 rfl shapeCasts_S1x5000x5000_S5000x5000,
    StableHlo.binary main_v154 main_v152 main_v155 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_31 (constant S_ .f32 0x3F000000#32),
    StableHlo.unary main_cst_31 main_v156 (broadcastInDim S5000x128 ![] bcast_S_S5000x128 : (⟨S_, .f32⟩ : BufTy).Contents (Elt F) → (⟨S5000x128, .f32⟩ : BufTy).Contents (Elt F)),
    StableHlo.binary main_v156 main_v155 main_v157 (mulf : (⟨S5000x128, .f32⟩ : BufTy).Contents (Elt F) → (⟨S5000x128, .f32⟩ : BufTy).Contents (Elt F) → (⟨S5000x128, .f32⟩ : BufTy).Contents (Elt F)),
    StableHlo.nullary main_cst_32 (constant S_ .f32 0x3F000000#32),
    StableHlo.unary main_cst_32 main_v158 (broadcastInDim S5000x128 ![] bcast_S_S5000x128 : (⟨S_, .f32⟩ : BufTy).Contents (Elt F) → (⟨S5000x128, .f32⟩ : BufTy).Contents (Elt F)),
    StableHlo.binary main_v158 main_v33 main_v159 (mulf : (⟨S5000x128, .f32⟩ : BufTy).Contents (Elt F) → (⟨S5000x128, .f32⟩ : BufTy).Contents (Elt F) → (⟨S5000x128, .f32⟩ : BufTy).Contents (Elt F)),
    StableHlo.binary main_v157 main_v159 main_v160 (addf : (⟨S5000x128, .f32⟩ : BufTy).Contents (Elt F) → (⟨S5000x128, .f32⟩ : BufTy).Contents (Elt F) → (⟨S5000x128, .f32⟩ : BufTy).Contents (Elt F)),
    StableHlo.nullary main_cst_33 (constant S_ .f32 0x3F707AE8#32),
    StableHlo.unary main_cst_33 main_v161 (broadcastInDim S5000x128 ![] bcast_S_S5000x128 : (⟨S_, .f32⟩ : BufTy).Contents (Elt F) → (⟨S5000x128, .f32⟩ : BufTy).Contents (Elt F)),
    StableHlo.binary main_v161 main_v160 main_v162 (mulf : (⟨S5000x128, .f32⟩ : BufTy).Contents (Elt F) → (⟨S5000x128, .f32⟩ : BufTy).Contents (Elt F) → (⟨S5000x128, .f32⟩ : BufTy).Contents (Elt F)),
    StableHlo.unary main_arg6 main_v163 ((extractStridedSlice S1x1x128x128 ![0, 7, 0, 0] · slices_S2x8x128x128_S1x1x128x128_0_7_0_0) : (⟨S2x8x128x128, .f32⟩ : BufTy).Contents (Elt F) → (⟨S1x1x128x128, .f32⟩ : BufTy).Contents (Elt F)),
    StableHlo.reshape main_v163 main_v164 rfl shapeCasts_S1x1x128x128_S128x128,
    StableHlo.binary main_v160 main_v164 main_v165 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_34 (constant S_ .f32 0x3D785186#32),
    StableHlo.unary main_cst_34 main_v166 (broadcastInDim S5000x128 ![] bcast_S_S5000x128 : (⟨S_, .f32⟩ : BufTy).Contents (Elt F) → (⟨S5000x128, .f32⟩ : BufTy).Contents (Elt F)),
    StableHlo.binary main_v166 main_v165 main_v167 (mulf : (⟨S5000x128, .f32⟩ : BufTy).Contents (Elt F) → (⟨S5000x128, .f32⟩ : BufTy).Contents (Elt F) → (⟨S5000x128, .f32⟩ : BufTy).Contents (Elt F)),
    StableHlo.binary main_v162 main_v167 main_v168 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S5000x128, .f32⟩) main_call9_v0) (broadcastInDim S5000x128 ![] bcast_S_S5000x128),
    TRef.binary (TRef.of (T := ⟨S5000x128, .f32⟩) main_v168) (TRef.of (T := ⟨S5000x128, .f32⟩) main_call9_v0) (TRef.of (T := ⟨S5000x128, .f32⟩) main_v169) maximumf,
    StableHlo.unary main_arg0 main_v170 ((extractStridedSlice S1x5000x5000 ![1, 0, 0] · slices_S2x5000x5000_S1x5000x5000_1_0_0) : (⟨S2x5000x5000, .f32⟩ : BufTy).Contents (Elt F) → (⟨S1x5000x5000, .f32⟩ : BufTy).Contents (Elt F)),
    StableHlo.reshape main_v170 main_v171 rfl shapeCasts_S1x5000x5000_S5000x5000,
    StableHlo.nullary main_cst_35 (constant S_ .f32 0x00000000#32),
    StableHlo.binary main_v171 main_cst_35 main_v172 ((fun x v => Host.reduceAdd x v reducesTo_S5000x5000_S5000_d0 h_S_) : (⟨S5000x5000, .f32⟩ : BufTy).Contents (Elt F) → (⟨S_, .f32⟩ : BufTy).Contents (Elt F) → (⟨S5000, .f32⟩ : BufTy).Contents (Elt F)),
    StableHlo.nullary main_cst_36 (constant S_ .f32 0x459C4000#32),
    StableHlo.unary main_cst_36 main_v173 (broadcastInDim S5000 ![] bcast_S_S5000 : (⟨S_, .f32⟩ : BufTy).Contents (Elt F) → (⟨S5000, .f32⟩ : BufTy).Contents (Elt F)),
    StableHlo.binary main_v172 main_v173 main_v174 (Host.divf : (⟨S5000, .f32⟩ : BufTy).Contents (Elt F) → (⟨S5000, .f32⟩ : BufTy).Contents (Elt F) → (⟨S5000, .f32⟩ : BufTy).Contents (Elt F)),
    StableHlo.nullary main_c_37 (constantI S_ 32 0#32),
    TRef.nullary (TRef.of (T := ⟨S_, .f32⟩) main_call10_cst) (constant S_ .f32 0x00000000#32),
    TRef.binary (TRef.of (T := ⟨S5000x5000, .f32⟩) main_v171) (TRef.of (T := ⟨S_, .f32⟩) main_call10_cst) (TRef.of (T := ⟨S5000, .f32⟩) main_call10_v0) (fun x v => Host.reduceAdd x v reducesTo_S5000x5000_S5000_d0 h_S_),
    TRef.unary (TRef.of (T := ⟨S5000, .f32⟩) main_call10_v0) (TRef.of (T := ⟨S1x5000, .f32⟩) main_call10_v1) (broadcastInDim S1x5000 ![1] bcast_S5000_S1x5000_1),
    TRef.nullary (TRef.of (T := ⟨S_, .f32⟩) main_call10_cst_0) (constant S_ .f32 0x459C4000#32),
    TRef.unary (TRef.of (T := ⟨S_, .f32⟩) main_call10_cst_0) (TRef.of (T := ⟨S1x5000, .f32⟩) main_call10_v2) (broadcastInDim S1x5000 ![] bcast_S_S1x5000),
    TRef.binary (TRef.of (T := ⟨S1x5000, .f32⟩) main_call10_v1) (TRef.of (T := ⟨S1x5000, .f32⟩) main_call10_v2) (TRef.of (T := ⟨S1x5000, .f32⟩) main_call10_v3) Host.divf,
    TRef.unary (TRef.of (T := ⟨S1x5000, .f32⟩) main_call10_v3) (TRef.of (T := ⟨S5000x5000, .f32⟩) main_call10_v4) (broadcastInDim S5000x5000 ![0, 1] bcast_S1x5000_S5000x5000_0_1),
    TRef.binary (TRef.of (T := ⟨S5000x5000, .f32⟩) main_v171) (TRef.of (T := ⟨S5000x5000, .f32⟩) main_call10_v4) (TRef.of (T := ⟨S5000x5000, .f32⟩) main_call10_v5) subf,
    TRef.binary (TRef.of (T := ⟨S5000x5000, .f32⟩) main_call10_v5) (TRef.of (T := ⟨S5000x5000, .f32⟩) main_call10_v5) (TRef.of (T := ⟨S5000x5000, .f32⟩) main_call10_v6) mulf,
    TRef.unary (TRef.of (T := ⟨S_, .i32⟩) main_c_37) (TRef.of (T := ⟨S_, .f32⟩) main_call10_v7) (sitofp .f32),
    TRef.nullary (TRef.of (T := ⟨S_, .f32⟩) main_call10_cst_1) (constant S_ .f32 0x459C4000#32),
    TRef.binary (TRef.of (T := ⟨S_, .f32⟩) main_call10_cst_1) (TRef.of (T := ⟨S_, .f32⟩) main_call10_v7) (TRef.of (T := ⟨S_, .f32⟩) main_call10_v8) subf,
    TRef.nullary (TRef.of (T := ⟨S_, .f32⟩) main_call10_cst_2) (constant S_ .f32 0x00000000#32),
    TRef.binary (TRef.of (T := ⟨S5000x5000, .f32⟩) main_call10_v6) (TRef.of (T := ⟨S_, .f32⟩) main_call10_cst_2) (TRef.of (T := ⟨S5000, .f32⟩) main_call10_v9) (fun x v => Host.reduceAdd x v reducesTo_S5000x5000_S5000_d0 h_S_),
    TRef.unary (TRef.of (T := ⟨S_, .f32⟩) main_call10_v8) (TRef.of (T := ⟨S5000, .f32⟩) main_call10_v10) (broadcastInDim S5000 ![] bcast_S_S5000),
    TRef.binary (TRef.of (T := ⟨S5000, .f32⟩) main_call10_v9) (TRef.of (T := ⟨S5000, .f32⟩) main_call10_v10) (TRef.of (T := ⟨S5000, .f32⟩) main_call10_v11) Host.divf,
    TRef.nullary (TRef.of (T := ⟨S_, .f32⟩) main_call10_cst_3) (constant S_ .f32 0x00000000#32),
    TRef.binary (TRef.of (T := ⟨S_, .f32⟩) main_call10_v8) (TRef.of (T := ⟨S_, .f32⟩) main_call10_cst_3) (TRef.of (T := ⟨S_, .i1⟩) main_call10_v12) (cmpf .ogt),
    TRef.nullary (TRef.of (T := ⟨S_, .f32⟩) main_call10_cst_4) (constant S_ .f32 0x7FC00000#32),
    TRef.unary (TRef.of (T := ⟨S_, .f32⟩) main_call10_cst_4) (TRef.of (T := ⟨S_, .f32⟩) main_call10_call0_v0) id,
    TRef.unary (TRef.of (T := ⟨S_, .f32⟩) main_call10_call0_v0) (TRef.of (T := ⟨S5000, .f32⟩) main_call10_call0_v1) (broadcastInDim S5000 ![] bcast_S_S5000),
    TRef.ternary (TRef.of (T := ⟨S_, .i1⟩) main_call10_v12) (TRef.of (T := ⟨S5000, .f32⟩) main_call10_v11) (TRef.of (T := ⟨S5000, .f32⟩) main_call10_call0_v1) (TRef.of (T := ⟨S5000, .f32⟩) main_v175) (fun p a b => select (broadcastInDim S5000 ![] bcast_S_S5000 p) a b),
    StableHlo.unary main_v174 main_v176 (broadcastInDim S1x5000 ![1] bcast_S5000_S1x5000_1 : (⟨S5000, .f32⟩ : BufTy).Contents (Elt F) → (⟨S1x5000, .f32⟩ : BufTy).Contents (Elt F)),
    StableHlo.unary main_v176 main_v177 (broadcastInDim S5000x5000 ![0, 1] bcast_S1x5000_S5000x5000_0_1 : (⟨S1x5000, .f32⟩ : BufTy).Contents (Elt F) → (⟨S5000x5000, .f32⟩ : BufTy).Contents (Elt F)),
    StableHlo.binary main_v171 main_v177 main_v178 (subf : (⟨S5000x5000, .f32⟩ : BufTy).Contents (Elt F) → (⟨S5000x5000, .f32⟩ : BufTy).Contents (Elt F) → (⟨S5000x5000, .f32⟩ : BufTy).Contents (Elt F)),
    StableHlo.nullary main_cst_38 (constant S_ .f32 0x3727C5AC#32),
    StableHlo.unary main_cst_38 main_v179 (broadcastInDim S5000 ![] bcast_S_S5000 : (⟨S_, .f32⟩ : BufTy).Contents (Elt F) → (⟨S5000, .f32⟩ : BufTy).Contents (Elt F)),
    StableHlo.binary main_v175 main_v179 main_v180 (addf : (⟨S5000, .f32⟩ : BufTy).Contents (Elt F) → (⟨S5000, .f32⟩ : BufTy).Contents (Elt F) → (⟨S5000, .f32⟩ : BufTy).Contents (Elt F)),
    StableHlo.unary main_v180 main_v181 (Host.sqrt : (⟨S5000, .f32⟩ : BufTy).Contents (Elt F) → (⟨S5000, .f32⟩ : BufTy).Contents (Elt F)),
    StableHlo.unary main_v181 main_v182 (broadcastInDim S1x5000 ![1] bcast_S5000_S1x5000_1 : (⟨S5000, .f32⟩ : BufTy).Contents (Elt F) → (⟨S1x5000, .f32⟩ : BufTy).Contents (Elt F)),
    StableHlo.unary main_v182 main_v183 (broadcastInDim S5000x5000 ![0, 1] bcast_S1x5000_S5000x5000_0_1 : (⟨S1x5000, .f32⟩ : BufTy).Contents (Elt F) → (⟨S5000x5000, .f32⟩ : BufTy).Contents (Elt F)),
    StableHlo.binary main_v178 main_v183 main_v184 (Host.divf : (⟨S5000x5000, .f32⟩ : BufTy).Contents (Elt F) → (⟨S5000x5000, .f32⟩ : BufTy).Contents (Elt F) → (⟨S5000x5000, .f32⟩ : BufTy).Contents (Elt F)),
    StableHlo.unary main_arg2 main_v185 ((extractStridedSlice S1x5000 ![1, 0] · slices_S2x5000_S1x5000_1_0) : (⟨S2x5000, .f32⟩ : BufTy).Contents (Elt F) → (⟨S1x5000, .f32⟩ : BufTy).Contents (Elt F)),
    StableHlo.reshape main_v185 main_v186 rfl shapeCasts_S1x5000_S5000,
    StableHlo.unary main_v186 main_v187 (broadcastInDim S1x5000 ![1] bcast_S5000_S1x5000_1 : (⟨S5000, .f32⟩ : BufTy).Contents (Elt F) → (⟨S1x5000, .f32⟩ : BufTy).Contents (Elt F)),
    StableHlo.unary main_v187 main_v188 (broadcastInDim S5000x5000 ![0, 1] bcast_S1x5000_S5000x5000_0_1 : (⟨S1x5000, .f32⟩ : BufTy).Contents (Elt F) → (⟨S5000x5000, .f32⟩ : BufTy).Contents (Elt F)),
    StableHlo.binary main_v184 main_v188 main_v189 (mulf : (⟨S5000x5000, .f32⟩ : BufTy).Contents (Elt F) → (⟨S5000x5000, .f32⟩ : BufTy).Contents (Elt F) → (⟨S5000x5000, .f32⟩ : BufTy).Contents (Elt F)),
    StableHlo.unary main_arg3 main_v190 ((extractStridedSlice S1x5000 ![1, 0] · slices_S2x5000_S1x5000_1_0) : (⟨S2x5000, .f32⟩ : BufTy).Contents (Elt F) → (⟨S1x5000, .f32⟩ : BufTy).Contents (Elt F)),
    StableHlo.reshape main_v190 main_v191 rfl shapeCasts_S1x5000_S5000,
    StableHlo.unary main_v191 main_v192 (broadcastInDim S1x5000 ![1] bcast_S5000_S1x5000_1 : (⟨S5000, .f32⟩ : BufTy).Contents (Elt F) → (⟨S1x5000, .f32⟩ : BufTy).Contents (Elt F)),
    StableHlo.unary main_v192 main_v193 (broadcastInDim S5000x5000 ![0, 1] bcast_S1x5000_S5000x5000_0_1 : (⟨S1x5000, .f32⟩ : BufTy).Contents (Elt F) → (⟨S5000x5000, .f32⟩ : BufTy).Contents (Elt F)),
    StableHlo.binary main_v189 main_v193 main_v194 (addf : (⟨S5000x5000, .f32⟩ : BufTy).Contents (Elt F) → (⟨S5000x5000, .f32⟩ : BufTy).Contents (Elt F) → (⟨S5000x5000, .f32⟩ : BufTy).Contents (Elt F)),
    StableHlo.unary main_arg4 main_v195 ((extractStridedSlice S1x5000x128 ![1, 0, 0] · slices_S2x5000x128_S1x5000x128_1_0_0) : (⟨S2x5000x128, .f32⟩ : BufTy).Contents (Elt F) → (⟨S1x5000x128, .f32⟩ : BufTy).Contents (Elt F)),
    StableHlo.reshape main_v195 main_v196 rfl shapeCasts_S1x5000x128_S5000x128,
    StableHlo.binary main_v194 main_v196 main_v197 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.unary main_arg5 main_v198 ((extractStridedSlice S1x128 ![1, 0] · slices_S2x128_S1x128_1_0) : (⟨S2x128, .f32⟩ : BufTy).Contents (Elt F) → (⟨S1x128, .f32⟩ : BufTy).Contents (Elt F)) ]

set_option maxRecDepth 8192 in
set_option maxHeartbeats 4000000 in
/-- The window is the straight line of its operations: the called functions unfold at their calls. -/
theorem main_part3_eq (c : Dev nD) : main_part3 (F := F) c = seq ops3 := rfl

set_option maxRecDepth 8192 in
/-- Every operation of the window touches TensorCore references only. -/
theorem ops3_sub : (ops3 : List (HloOp τ sig (Elt F))).Forall fun op => op.bufs ⊆ tcRefs τ sig :=
  ⟨binary_bufs_sub .., nullary_bufs_sub .., unary_bufs_sub .., binary_bufs_sub .., binary_bufs_sub .., nullary_bufs_sub ..,
    unary_bufs_sub .., binary_bufs_sub .., unary_bufs_sub .., reshape_bufs_sub .., binary_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., unary_bufs_sub .., reshape_bufs_sub .., binary_bufs_sub ..,
    nullary_bufs_sub .., unary_bufs_sub .., binary_bufs_sub .., binary_bufs_sub .., nullary_bufs_sub .., unary_bufs_sub ..,
    binary_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    reshape_bufs_sub .., unary_bufs_sub .., unary_bufs_sub .., binary_bufs_sub .., unary_bufs_sub .., reshape_bufs_sub ..,
    unary_bufs_sub .., unary_bufs_sub .., binary_bufs_sub .., unary_bufs_sub .., reshape_bufs_sub .., binary_bufs_sub ..,
    unary_bufs_sub ..⟩

set_option maxRecDepth 8192 in
/-- Every operation of the window determines its results (none allocates). -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops3_W : List (Ref sig .tc) :=
  [main_v148, main_cst_30, main_v149, main_v150, main_v151, main_call8_cst, main_call8_v0, main_v152, main_v153, main_v154,
    main_v155, main_cst_31, main_v156, main_v157, main_cst_32, main_v158, main_v159, main_v160, main_cst_33, main_v161,
    main_v162, main_v163, main_v164, main_v165, main_cst_34, main_v166, main_v167, main_v168, main_call9_cst, main_call9_v0,
    main_v169, main_v170, main_v171, main_cst_35, main_v172, main_cst_36, main_v173, main_v174, main_c_37, main_call10_cst,
    main_call10_v0, main_call10_v1, main_call10_cst_0, main_call10_v2, main_call10_v3, main_call10_v4, main_call10_v5, main_call10_v6, main_call10_v7, main_call10_cst_1,
    main_call10_v8, main_call10_cst_2, main_call10_v9, main_call10_v10, main_call10_v11, main_call10_cst_3, main_call10_v12, main_call10_cst_4, main_call10_call0_v0, main_call10_call0_v1,
    main_v175, main_v176, main_v177, main_v178, main_cst_38, main_v179, main_v180, main_v181, main_v182, main_v183,
    main_v184, main_v185, main_v186, main_v187, main_v188, main_v189, main_v190, main_v191, main_v192, main_v193,
    main_v194, main_v195, main_v196, main_v197, main_v198]

set_option maxRecDepth 8192 in
set_option maxHeartbeats 4000000 in
/-- Each operation writes its one result buffer, which is in that list. -/
theorem ops3_writes : (ops3 : List (HloOp τ sig (Elt F))).Forall fun op => op.writes ⊆ (ops3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

/-- A buffer the window does not write keeps its contents through it. -/
theorem ops3_keep (V : Valuation τ sig (Elt F)) (r : Ref sig .tc) (h : r ∉ ops3_W) :
    after ops3 V (Proc.devRef .tc r) = V (Proc.devRef .tc r) :=
  after_of_writes_sub ops3 V ops3_writes h

end Cert.ReferenceIdeal.RefRun

end
-- ==== Proof.Ref.Ops4.lean ====
/-
  Window `main_part4` of the reference program's @main as the list of its 70 host operations, in program order
  (operations 305 … 374 of 517): @main's own lines as printed; where @main calls a function, the
  function's operations stand in the call's place over the call's own buffers (a call inside a called function
  likewise). The window is the straight line of that list; the list touches TensorCore references only; and a
  buffer none of its operations writes keeps its contents through it.
-/
import proofs.«129426_g120259084709_cont_main3_741_6_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part4`, in order. -/
abbrev ops4 : List (HloOp τ sig (Elt F)) :=
  [ StableHlo.reshape main_v198 main_v199 rfl shapeCasts_S1x128_S128,
    StableHlo.unary main_v199 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S5000x128 ![0, 1] bcast_S1x128_S5000x128_0_1 : (⟨S1x128, .f32⟩ : BufTy).Contents (Elt F) → (⟨S5000x128, .f32⟩ : BufTy).Contents (Elt F)),
    StableHlo.binary main_v197 main_v201 main_v202 (addf : (⟨S5000x128, .f32⟩ : BufTy).Contents (Elt F) → (⟨S5000x128, .f32⟩ : BufTy).Contents (Elt F) → (⟨S5000x128, .f32⟩ : BufTy).Contents (Elt F)),
    StableHlo.nullary main_cst_39 (constant S_ .f32 0x3C23D70A#32),
    TRef.nullary (TRef.of (T := ⟨S_, .f32⟩) main_call11_cst) (constant S_ .f32 0x00000000#32),
    TRef.unary (TRef.of (T := ⟨S_, .f32⟩) main_call11_cst) (TRef.of (T := ⟨S5000x128, .f32⟩) main_call11_v0) (broadcastInDim S5000x128 ![] bcast_S_S5000x128),
    TRef.binary (TRef.of (T := ⟨S5000x128, .f32⟩) main_v202) (TRef.of (T := ⟨S5000x128, .f32⟩) main_call11_v0) (TRef.of (T := ⟨S5000x128, .i1⟩) main_call11_v1) (cmpf .oge),
    TRef.unary (TRef.of (T := ⟨S_, .f32⟩) main_cst_39) (TRef.of (T := ⟨S_, .f32⟩) main_call11_v2) id,
    TRef.unary (TRef.of (T := ⟨S_, .f32⟩) main_call11_v2) (TRef.of (T := ⟨S5000x128, .f32⟩) main_call11_v3) (broadcastInDim S5000x128 ![] bcast_S_S5000x128),
    TRef.binary (TRef.of (T := ⟨S5000x128, .f32⟩) main_call11_v3) (TRef.of (T := ⟨S5000x128, .f32⟩) main_v202) (TRef.of (T := ⟨S5000x128, .f32⟩) main_call11_v4) mulf,
    TRef.ternary (TRef.of (T := ⟨S5000x128, .i1⟩) main_call11_v1) (TRef.of (T := ⟨S5000x128, .f32⟩) main_v202) (TRef.of (T := ⟨S5000x128, .f32⟩) main_call11_v4) (TRef.of (T := ⟨S5000x128, .f32⟩) main_v203) select,
    StableHlo.unary main_arg1 main_v204 ((extractStridedSlice S1x5000x5000 ![1, 0, 0] · slices_S2x5000x5000_S1x5000x5000_1_0_0) : (⟨S2x5000x5000, .f32⟩ : BufTy).Contents (Elt F) → (⟨S1x5000x5000, .f32⟩ : BufTy).Contents (Elt F)),
    StableHlo.reshape main_v204 main_v205 rfl shapeCasts_S1x5000x5000_S5000x5000,
    StableHlo.binary main_v205 main_v203 main_v206 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_40 (constant S_ .f32 0x3F000000#32),
    StableHlo.unary main_cst_40 main_v207 (broadcastInDim S5000x128 ![] bcast_S_S5000x128 : (⟨S_, .f32⟩ : BufTy).Contents (Elt F) → (⟨S5000x128, .f32⟩ : BufTy).Contents (Elt F)),
    StableHlo.binary main_v207 main_v206 main_v208 (mulf : (⟨S5000x128, .f32⟩ : BufTy).Contents (Elt F) → (⟨S5000x128, .f32⟩ : BufTy).Contents (Elt F) → (⟨S5000x128, .f32⟩ : BufTy).Contents (Elt F)),
    StableHlo.nullary main_cst_41 (constant S_ .f32 0x3F000000#32),
    StableHlo.unary main_cst_41 main_v209 (broadcastInDim S5000x128 ![] bcast_S_S5000x128 : (⟨S_, .f32⟩ : BufTy).Contents (Elt F) → (⟨S5000x128, .f32⟩ : BufTy).Contents (Elt F)),
    StableHlo.binary main_v209 main_v203 main_v210 (mulf : (⟨S5000x128, .f32⟩ : BufTy).Contents (Elt F) → (⟨S5000x128, .f32⟩ : BufTy).Contents (Elt F) → (⟨S5000x128, .f32⟩ : BufTy).Contents (Elt F)),
    StableHlo.binary main_v208 main_v210 main_v211 (addf : (⟨S5000x128, .f32⟩ : BufTy).Contents (Elt F) → (⟨S5000x128, .f32⟩ : BufTy).Contents (Elt F) → (⟨S5000x128, .f32⟩ : BufTy).Contents (Elt F)),
    StableHlo.nullary main_cst_42 (constant S_ .f32 0x3F183370#32),
    StableHlo.unary main_cst_42 main_v212 (broadcastInDim S5000x128 ![] bcast_S_S5000x128 : (⟨S_, .f32⟩ : BufTy).Contents (Elt F) → (⟨S5000x128, .f32⟩ : BufTy).Contents (Elt F)),
    StableHlo.binary main_v212 main_v211 main_v213 (mulf : (⟨S5000x128, .f32⟩ : BufTy).Contents (Elt F) → (⟨S5000x128, .f32⟩ : BufTy).Contents (Elt F) → (⟨S5000x128, .f32⟩ : BufTy).Contents (Elt F)),
    StableHlo.unary main_arg6 main_v214 ((extractStridedSlice S1x1x128x128 ![1, 0, 0, 0] · slices_S2x8x128x128_S1x1x128x128_1_0_0_0) : (⟨S2x8x128x128, .f32⟩ : BufTy).Contents (Elt F) → (⟨S1x1x128x128, .f32⟩ : BufTy).Contents (Elt F)),
    StableHlo.reshape main_v214 main_v215 rfl shapeCasts_S1x1x128x128_S128x128,
    StableHlo.binary main_v211 main_v215 main_v216 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_43 (constant S_ .f32 0x3ECF991F#32),
    StableHlo.unary main_cst_43 main_v217 (broadcastInDim S5000x128 ![] bcast_S_S5000x128 : (⟨S_, .f32⟩ : BufTy).Contents (Elt F) → (⟨S5000x128, .f32⟩ : BufTy).Contents (Elt F)),
    StableHlo.binary main_v217 main_v216 main_v218 (mulf : (⟨S5000x128, .f32⟩ : BufTy).Contents (Elt F) → (⟨S5000x128, .f32⟩ : BufTy).Contents (Elt F) → (⟨S5000x128, .f32⟩ : BufTy).Contents (Elt F)),
    StableHlo.binary main_v213 main_v218 main_v219 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S5000x128, .f32⟩) main_call12_v0) (broadcastInDim S5000x128 ![] bcast_S_S5000x128),
    TRef.binary (TRef.of (T := ⟨S5000x128, .f32⟩) main_v219) (TRef.of (T := ⟨S5000x128, .f32⟩) main_call12_v0) (TRef.of (T := ⟨S5000x128, .f32⟩) main_v220) maximumf,
    StableHlo.unary main_arg1 main_v221 ((extractStridedSlice S1x5000x5000 ![1, 0, 0] · slices_S2x5000x5000_S1x5000x5000_1_0_0) : (⟨S2x5000x5000, .f32⟩ : BufTy).Contents (Elt F) → (⟨S1x5000x5000, .f32⟩ : BufTy).Contents (Elt F)),
    StableHlo.reshape main_v221 main_v222 rfl shapeCasts_S1x5000x5000_S5000x5000,
    StableHlo.binary main_v222 main_v220 main_v223 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_44 (constant S_ .f32 0x3F000000#32),
    StableHlo.unary main_cst_44 main_v224 (broadcastInDim S5000x128 ![] bcast_S_S5000x128 : (⟨S_, .f32⟩ : BufTy).Contents (Elt F) → (⟨S5000x128, .f32⟩ : BufTy).Contents (Elt F)),
    StableHlo.binary main_v224 main_v223 main_v225 (mulf : (⟨S5000x128, .f32⟩ : BufTy).Contents (Elt F) → (⟨S5000x128, .f32⟩ : BufTy).Contents (Elt F) → (⟨S5000x128, .f32⟩ : BufTy).Contents (Elt F)),
    StableHlo.nullary main_cst_45 (constant S_ .f32 0x3F000000#32),
    StableHlo.unary main_cst_45 main_v226 (broadcastInDim S5000x128 ![] bcast_S_S5000x128 : (⟨S_, .f32⟩ : BufTy).Contents (Elt F) → (⟨S5000x128, .f32⟩ : BufTy).Contents (Elt F)),
    StableHlo.binary main_v226 main_v203 main_v227 (mulf : (⟨S5000x128, .f32⟩ : BufTy).Contents (Elt F) → (⟨S5000x128, .f32⟩ : BufTy).Contents (Elt F) → (⟨S5000x128, .f32⟩ : BufTy).Contents (Elt F)),
    StableHlo.binary main_v225 main_v227 main_v228 (addf : (⟨S5000x128, .f32⟩ : BufTy).Contents (Elt F) → (⟨S5000x128, .f32⟩ : BufTy).Contents (Elt F) → (⟨S5000x128, .f32⟩ : BufTy).Contents (Elt F)),
    StableHlo.nullary main_cst_46 (constant S_ .f32 0x3F46E010#32),
    StableHlo.unary main_cst_46 main_v229 (broadcastInDim S5000x128 ![] bcast_S_S5000x128 : (⟨S_, .f32⟩ : BufTy).Contents (Elt F) → (⟨S5000x128, .f32⟩ : BufTy).Contents (Elt F)),
    StableHlo.binary main_v229 main_v228 main_v230 (mulf : (⟨S5000x128, .f32⟩ : BufTy).Contents (Elt F) → (⟨S5000x128, .f32⟩ : BufTy).Contents (Elt F) → (⟨S5000x128, .f32⟩ : BufTy).Contents (Elt F)),
    StableHlo.unary main_arg6 main_v231 ((extractStridedSlice S1x1x128x128 ![1, 1, 0, 0] · slices_S2x8x128x128_S1x1x128x128_1_1_0_0) : (⟨S2x8x128x128, .f32⟩ : BufTy).Contents (Elt F) → (⟨S1x1x128x128, .f32⟩ : BufTy).Contents (Elt F)),
    StableHlo.reshape main_v231 main_v232 rfl shapeCasts_S1x1x128x128_S128x128,
    StableHlo.binary main_v228 main_v232 main_v233 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_47 (constant S_ .f32 0x3E647FBE#32),
    StableHlo.unary main_cst_47 main_v234 (broadcastInDim S5000x128 ![] bcast_S_S5000x128 : (⟨S_, .f32⟩ : BufTy).Contents (Elt F) → (⟨S5000x128, .f32⟩ : BufTy).Contents (Elt F)),
    StableHlo.binary main_v234 main_v233 main_v235 (mulf : (⟨S5000x128, .f32⟩ : BufTy).Contents (Elt F) → (⟨S5000x128, .f32⟩ : BufTy).Contents (Elt F) → (⟨S5000x128, .f32⟩ : BufTy).Contents (Elt F)),
    StableHlo.binary main_v230 main_v235 main_v236 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S5000x128, .f32⟩) main_call13_v0) (broadcastInDim S5000x128 ![] bcast_S_S5000x128),
    TRef.binary (TRef.of (T := ⟨S5000x128, .f32⟩) main_v236) (TRef.of (T := ⟨S5000x128, .f32⟩) main_call13_v0) (TRef.of (T := ⟨S5000x128, .f32⟩) main_v237) maximumf,
    StableHlo.unary main_arg1 main_v238 ((extractStridedSlice S1x5000x5000 ![1, 0, 0] · slices_S2x5000x5000_S1x5000x5000_1_0_0) : (⟨S2x5000x5000, .f32⟩ : BufTy).Contents (Elt F) → (⟨S1x5000x5000, .f32⟩ : BufTy).Contents (Elt F)),
    StableHlo.reshape main_v238 main_v239 rfl shapeCasts_S1x5000x5000_S5000x5000,
    StableHlo.binary main_v239 main_v237 main_v240 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_48 (constant S_ .f32 0x3F000000#32),
    StableHlo.unary main_cst_48 main_v241 (broadcastInDim S5000x128 ![] bcast_S_S5000x128 : (⟨S_, .f32⟩ : BufTy).Contents (Elt F) → (⟨S5000x128, .f32⟩ : BufTy).Contents (Elt F)),
    StableHlo.binary main_v241 main_v240 main_v242 (mulf : (⟨S5000x128, .f32⟩ : BufTy).Contents (Elt F) → (⟨S5000x128, .f32⟩ : BufTy).Contents (Elt F) → (⟨S5000x128, .f32⟩ : BufTy).Contents (Elt F)),
    StableHlo.nullary main_cst_49 (constant S_ .f32 0x3F000000#32),
    StableHlo.unary main_cst_49 main_v243 (broadcastInDim S5000x128 ![] bcast_S_S5000x128 : (⟨S_, .f32⟩ : BufTy).Contents (Elt F) → (⟨S5000x128, .f32⟩ : BufTy).Contents (Elt F)),
    StableHlo.binary main_v243 main_v203 main_v244 (mulf : (⟨S5000x128, .f32⟩ : BufTy).Contents (Elt F) → (⟨S5000x128, .f32⟩ : BufTy).Contents (Elt F) → (⟨S5000x128, .f32⟩ : BufTy).Contents (Elt F)),
    StableHlo.binary main_v242 main_v244 main_v245 (addf : (⟨S5000x128, .f32⟩ : BufTy).Contents (Elt F) → (⟨S5000x128, .f32⟩ : BufTy).Contents (Elt F) → (⟨S5000x128, .f32⟩ : BufTy).Contents (Elt F)),
    StableHlo.nullary main_cst_50 (constant S_ .f32 0x3F588995#32),
    StableHlo.unary main_cst_50 main_v246 (broadcastInDim S5000x128 ![] bcast_S_S5000x128 : (⟨S_, .f32⟩ : BufTy).Contents (Elt F) → (⟨S5000x128, .f32⟩ : BufTy).Contents (Elt F)) ]

set_option maxRecDepth 8192 in
set_option maxHeartbeats 4000000 in
/-- The window is the straight line of its operations: the called functions unfold at their calls. -/
theorem main_part4_eq (c : Dev nD) : main_part4 (F := F) c = seq ops4 := rfl

set_option maxRecDepth 8192 in
/-- Every operation of the window touches TensorCore references only. -/
theorem ops4_sub : (ops4 : List (HloOp τ sig (Elt F))).Forall fun op => op.bufs ⊆ tcRefs τ sig :=
  ⟨reshape_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., reshape_bufs_sub .., binary_bufs_sub .., nullary_bufs_sub .., unary_bufs_sub .., binary_bufs_sub ..,
    nullary_bufs_sub .., unary_bufs_sub .., binary_bufs_sub .., binary_bufs_sub .., nullary_bufs_sub .., unary_bufs_sub ..,
    binary_bufs_sub .., unary_bufs_sub .., reshape_bufs_sub .., binary_bufs_sub .., nullary_bufs_sub .., unary_bufs_sub ..,
    binary_bufs_sub .., binary_bufs_sub .., nullary_bufs_sub .., unary_bufs_sub .., binary_bufs_sub .., unary_bufs_sub ..,
    reshape_bufs_sub .., binary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    unary_bufs_sub .., reshape_bufs_sub .., binary_bufs_sub .., nullary_bufs_sub .., unary_bufs_sub .., binary_bufs_sub ..,
    binary_bufs_sub .., nullary_bufs_sub .., unary_bufs_sub .., binary_bufs_sub .., unary_bufs_sub .., reshape_bufs_sub ..,
    binary_bufs_sub .., nullary_bufs_sub .., unary_bufs_sub .., binary_bufs_sub .., nullary_bufs_sub .., unary_bufs_sub ..,
    binary_bufs_sub .., binary_bufs_sub .., nullary_bufs_sub .., unary_bufs_sub ..⟩

set_option maxRecDepth 8192 in
/-- Every operation of the window determines its results (none allocates). -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops4_W : List (Ref sig .tc) :=
  [main_v199, main_v200, main_v201, main_v202, main_cst_39, main_call11_cst, main_call11_v0, main_call11_v1, main_call11_v2, main_call11_v3,
    main_call11_v4, main_v203, main_v204, main_v205, main_v206, main_cst_40, main_v207, main_v208, main_cst_41, main_v209,
    main_v210, main_v211, main_cst_42, main_v212, main_v213, main_v214, main_v215, main_v216, main_cst_43, main_v217,
    main_v218, main_v219, main_call12_cst, main_call12_v0, main_v220, main_v221, main_v222, main_v223, main_cst_44, main_v224,
    main_v225, main_cst_45, main_v226, main_v227, main_v228, main_cst_46, main_v229, main_v230, main_v231, main_v232,
    main_v233, main_cst_47, main_v234, main_v235, main_v236, main_call13_cst, main_call13_v0, main_v237, main_v238, main_v239,
    main_v240, main_cst_48, main_v241, main_v242, main_cst_49, main_v243, main_v244, main_v245, main_cst_50, main_v246]

set_option maxRecDepth 8192 in
set_option maxHeartbeats 4000000 in
/-- Each operation writes its one result buffer, which is in that list. -/
theorem ops4_writes : (ops4 : List (HloOp τ sig (Elt F))).Forall fun op => op.writes ⊆ (ops4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

/-- A buffer the window does not write keeps its contents through it. -/
theorem ops4_keep (V : Valuation τ sig (Elt F)) (r : Ref sig .tc) (h : r ∉ ops4_W) :
    after ops4 V (Proc.devRef .tc r) = V (Proc.devRef .tc r) :=
  after_of_writes_sub ops4 V ops4_writes h

end Cert.ReferenceIdeal.RefRun

end
-- ==== Proof.Ref.Ops5.lean ====
/-
  Window `main_part5` of the reference program's @main as the list of its 66 host operations, in program order
  (operations 375 … 440 of 517): @main's own lines as printed; where @main calls a function, the
  function's operations stand in the call's place over the call's own buffers (a call inside a called function
  likewise). The window is the straight line of that list; the list touches TensorCore references only; and a
  buffer none of its operations writes keeps its contents through it.
-/
import proofs.«129426_g120259084709_cont_main3_741_6_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part5`, in order. -/
abbrev ops5 : List (HloOp τ sig (Elt F)) :=
  [ StableHlo.binary main_v246 main_v245 main_v247 (mulf : (⟨S5000x128, .f32⟩ : BufTy).Contents (Elt F) → (⟨S5000x128, .f32⟩ : BufTy).Contents (Elt F) → (⟨S5000x128, .f32⟩ : BufTy).Contents (Elt F)),
    StableHlo.unary main_arg6 main_v248 ((extractStridedSlice S1x1x128x128 ![1, 2, 0, 0] · slices_S2x8x128x128_S1x1x128x128_1_2_0_0) : (⟨S2x8x128x128, .f32⟩ : BufTy).Contents (Elt F) → (⟨S1x1x128x128, .f32⟩ : BufTy).Contents (Elt F)),
    StableHlo.reshape main_v248 main_v249 rfl shapeCasts_S1x1x128x128_S128x128,
    StableHlo.binary main_v245 main_v249 main_v250 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_51 (constant S_ .f32 0x3E1DD9AD#32),
    StableHlo.unary main_cst_51 main_v251 (broadcastInDim S5000x128 ![] bcast_S_S5000x128 : (⟨S_, .f32⟩ : BufTy).Contents (Elt F) → (⟨S5000x128, .f32⟩ : BufTy).Contents (Elt F)),
    StableHlo.binary main_v251 main_v250 main_v252 (mulf : (⟨S5000x128, .f32⟩ : BufTy).Contents (Elt F) → (⟨S5000x128, .f32⟩ : BufTy).Contents (Elt F) → (⟨S5000x128, .f32⟩ : BufTy).Contents (Elt F)),
    StableHlo.binary main_v247 main_v252 main_v253 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S5000x128, .f32⟩) main_call14_v0) (broadcastInDim S5000x128 ![] bcast_S_S5000x128),
    TRef.binary (TRef.of (T := ⟨S5000x128, .f32⟩) main_v253) (TRef.of (T := ⟨S5000x128, .f32⟩) main_call14_v0) (TRef.of (T := ⟨S5000x128, .f32⟩) main_v254) maximumf,
    StableHlo.unary main_arg1 main_v255 ((extractStridedSlice S1x5000x5000 ![1, 0, 0] · slices_S2x5000x5000_S1x5000x5000_1_0_0) : (⟨S2x5000x5000, .f32⟩ : BufTy).Contents (Elt F) → (⟨S1x5000x5000, .f32⟩ : BufTy).Contents (Elt F)),
    StableHlo.reshape main_v255 main_v256 rfl shapeCasts_S1x5000x5000_S5000x5000,
    StableHlo.binary main_v256 main_v254 main_v257 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_52 (constant S_ .f32 0x3F000000#32),
    StableHlo.unary main_cst_52 main_v258 (broadcastInDim S5000x128 ![] bcast_S_S5000x128 : (⟨S_, .f32⟩ : BufTy).Contents (Elt F) → (⟨S5000x128, .f32⟩ : BufTy).Contents (Elt F)),
    StableHlo.binary main_v258 main_v257 main_v259 (mulf : (⟨S5000x128, .f32⟩ : BufTy).Contents (Elt F) → (⟨S5000x128, .f32⟩ : BufTy).Contents (Elt F) → (⟨S5000x128, .f32⟩ : BufTy).Contents (Elt F)),
    StableHlo.nullary main_cst_53 (constant S_ .f32 0x3F000000#32),
    StableHlo.unary main_cst_53 main_v260 (broadcastInDim S5000x128 ![] bcast_S_S5000x128 : (⟨S_, .f32⟩ : BufTy).Contents (Elt F) → (⟨S5000x128, .f32⟩ : BufTy).Contents (Elt F)),
    StableHlo.binary main_v260 main_v203 main_v261 (mulf : (⟨S5000x128, .f32⟩ : BufTy).Contents (Elt F) → (⟨S5000x128, .f32⟩ : BufTy).Contents (Elt F) → (⟨S5000x128, .f32⟩ : BufTy).Contents (Elt F)),
    StableHlo.binary main_v259 main_v261 main_v262 (addf : (⟨S5000x128, .f32⟩ : BufTy).Contents (Elt F) → (⟨S5000x128, .f32⟩ : BufTy).Contents (Elt F) → (⟨S5000x128, .f32⟩ : BufTy).Contents (Elt F)),
    StableHlo.nullary main_cst_54 (constant S_ .f32 0x3F61D8F9#32),
    StableHlo.unary main_cst_54 main_v263 (broadcastInDim S5000x128 ![] bcast_S_S5000x128 : (⟨S_, .f32⟩ : BufTy).Contents (Elt F) → (⟨S5000x128, .f32⟩ : BufTy).Contents (Elt F)),
    StableHlo.binary main_v263 main_v262 main_v264 (mulf : (⟨S5000x128, .f32⟩ : BufTy).Contents (Elt F) → (⟨S5000x128, .f32⟩ : BufTy).Contents (Elt F) → (⟨S5000x128, .f32⟩ : BufTy).Contents (Elt F)),
    StableHlo.unary main_arg6 main_v265 ((extractStridedSlice S1x1x128x128 ![1, 3, 0, 0] · slices_S2x8x128x128_S1x1x128x128_1_3_0_0) : (⟨S2x8x128x128, .f32⟩ : BufTy).Contents (Elt F) → (⟨S1x1x128x128, .f32⟩ : BufTy).Contents (Elt F)),
    StableHlo.reshape main_v265 main_v266 rfl shapeCasts_S1x1x128x128_S128x128,
    StableHlo.binary main_v262 main_v266 main_v267 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_55 (constant S_ .f32 0x3DF1383B#32),
    StableHlo.unary main_cst_55 main_v268 (broadcastInDim S5000x128 ![] bcast_S_S5000x128 : (⟨S_, .f32⟩ : BufTy).Contents (Elt F) → (⟨S5000x128, .f32⟩ : BufTy).Contents (Elt F)),
    StableHlo.binary main_v268 main_v267 main_v269 (mulf : (⟨S5000x128, .f32⟩ : BufTy).Contents (Elt F) → (⟨S5000x128, .f32⟩ : BufTy).Contents (Elt F) → (⟨S5000x128, .f32⟩ : BufTy).Contents (Elt F)),
    StableHlo.binary main_v264 main_v269 main_v270 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S5000x128, .f32⟩) main_call15_v0) (broadcastInDim S5000x128 ![] bcast_S_S5000x128),
    TRef.binary (TRef.of (T := ⟨S5000x128, .f32⟩) main_v270) (TRef.of (T := ⟨S5000x128, .f32⟩) main_call15_v0) (TRef.of (T := ⟨S5000x128, .f32⟩) main_v271) maximumf,
    StableHlo.unary main_arg1 main_v272 ((extractStridedSlice S1x5000x5000 ![1, 0, 0] · slices_S2x5000x5000_S1x5000x5000_1_0_0) : (⟨S2x5000x5000, .f32⟩ : BufTy).Contents (Elt F) → (⟨S1x5000x5000, .f32⟩ : BufTy).Contents (Elt F)),
    StableHlo.reshape main_v272 main_v273 rfl shapeCasts_S1x5000x5000_S5000x5000,
    StableHlo.binary main_v273 main_v271 main_v274 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_56 (constant S_ .f32 0x3F000000#32),
    StableHlo.unary main_cst_56 main_v275 (broadcastInDim S5000x128 ![] bcast_S_S5000x128 : (⟨S_, .f32⟩ : BufTy).Contents (Elt F) → (⟨S5000x128, .f32⟩ : BufTy).Contents (Elt F)),
    StableHlo.binary main_v275 main_v274 main_v276 (mulf : (⟨S5000x128, .f32⟩ : BufTy).Contents (Elt F) → (⟨S5000x128, .f32⟩ : BufTy).Contents (Elt F) → (⟨S5000x128, .f32⟩ : BufTy).Contents (Elt F)),
    StableHlo.nullary main_cst_57 (constant S_ .f32 0x3F000000#32),
    StableHlo.unary main_cst_57 main_v277 (broadcastInDim S5000x128 ![] bcast_S_S5000x128 : (⟨S_, .f32⟩ : BufTy).Contents (Elt F) → (⟨S5000x128, .f32⟩ : BufTy).Contents (Elt F)),
    StableHlo.binary main_v277 main_v203 main_v278 (mulf : (⟨S5000x128, .f32⟩ : BufTy).Contents (Elt F) → (⟨S5000x128, .f32⟩ : BufTy).Contents (Elt F) → (⟨S5000x128, .f32⟩ : BufTy).Contents (Elt F)),
    StableHlo.binary main_v276 main_v278 main_v279 (addf : (⟨S5000x128, .f32⟩ : BufTy).Contents (Elt F) → (⟨S5000x128, .f32⟩ : BufTy).Contents (Elt F) → (⟨S5000x128, .f32⟩ : BufTy).Contents (Elt F)),
    StableHlo.nullary main_cst_58 (constant S_ .f32 0x3F6799C1#32),
    StableHlo.unary main_cst_58 main_v280 (broadcastInDim S5000x128 ![] bcast_S_S5000x128 : (⟨S_, .f32⟩ : BufTy).Contents (Elt F) → (⟨S5000x128, .f32⟩ : BufTy).Contents (Elt F)),
    StableHlo.binary main_v280 main_v279 main_v281 (mulf : (⟨S5000x128, .f32⟩ : BufTy).Contents (Elt F) → (⟨S5000x128, .f32⟩ : BufTy).Contents (Elt F) → (⟨S5000x128, .f32⟩ : BufTy).Contents (Elt F)),
    StableHlo.unary main_arg6 main_v282 ((extractStridedSlice S1x1x128x128 ![1, 4, 0, 0] · slices_S2x8x128x128_S1x1x128x128_1_4_0_0) : (⟨S2x8x128x128, .f32⟩ : BufTy).Contents (Elt F) → (⟨S1x1x128x128, .f32⟩ : BufTy).Contents (Elt F)),
    StableHlo.reshape main_v282 main_v283 rfl shapeCasts_S1x1x128x128_S128x128,
    StableHlo.binary main_v279 main_v283 main_v284 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_59 (constant S_ .f32 0x3DC331FC#32),
    StableHlo.unary main_cst_59 main_v285 (broadcastInDim S5000x128 ![] bcast_S_S5000x128 : (⟨S_, .f32⟩ : BufTy).Contents (Elt F) → (⟨S5000x128, .f32⟩ : BufTy).Contents (Elt F)),
    StableHlo.binary main_v285 main_v284 main_v286 (mulf : (⟨S5000x128, .f32⟩ : BufTy).Contents (Elt F) → (⟨S5000x128, .f32⟩ : BufTy).Contents (Elt F) → (⟨S5000x128, .f32⟩ : BufTy).Contents (Elt F)),
    StableHlo.binary main_v281 main_v286 main_v287 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S5000x128, .f32⟩) main_call16_v0) (broadcastInDim S5000x128 ![] bcast_S_S5000x128),
    TRef.binary (TRef.of (T := ⟨S5000x128, .f32⟩) main_v287) (TRef.of (T := ⟨S5000x128, .f32⟩) main_call16_v0) (TRef.of (T := ⟨S5000x128, .f32⟩) main_v288) maximumf,
    StableHlo.unary main_arg1 main_v289 ((extractStridedSlice S1x5000x5000 ![1, 0, 0] · slices_S2x5000x5000_S1x5000x5000_1_0_0) : (⟨S2x5000x5000, .f32⟩ : BufTy).Contents (Elt F) → (⟨S1x5000x5000, .f32⟩ : BufTy).Contents (Elt F)),
    StableHlo.reshape main_v289 main_v290 rfl shapeCasts_S1x5000x5000_S5000x5000,
    StableHlo.binary main_v290 main_v288 main_v291 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_60 (constant S_ .f32 0x3F000000#32),
    StableHlo.unary main_cst_60 main_v292 (broadcastInDim S5000x128 ![] bcast_S_S5000x128 : (⟨S_, .f32⟩ : BufTy).Contents (Elt F) → (⟨S5000x128, .f32⟩ : BufTy).Contents (Elt F)),
    StableHlo.binary main_v292 main_v291 main_v293 (mulf : (⟨S5000x128, .f32⟩ : BufTy).Contents (Elt F) → (⟨S5000x128, .f32⟩ : BufTy).Contents (Elt F) → (⟨S5000x128, .f32⟩ : BufTy).Contents (Elt F)),
    StableHlo.nullary main_cst_61 (constant S_ .f32 0x3F000000#32),
    StableHlo.unary main_cst_61 main_v294 (broadcastInDim S5000x128 ![] bcast_S_S5000x128 : (⟨S_, .f32⟩ : BufTy).Contents (Elt F) → (⟨S5000x128, .f32⟩ : BufTy).Contents (Elt F)),
    StableHlo.binary main_v294 main_v203 main_v295 (mulf : (⟨S5000x128, .f32⟩ : BufTy).Contents (Elt F) → (⟨S5000x128, .f32⟩ : BufTy).Contents (Elt F) → (⟨S5000x128, .f32⟩ : BufTy).Contents (Elt F)) ]

set_option maxRecDepth 8192 in
set_option maxHeartbeats 4000000 in
/-- The window is the straight line of its operations: the called functions unfold at their calls. -/
theorem main_part5_eq (c : Dev nD) : main_part5 (F := F) c = seq ops5 := rfl

set_option maxRecDepth 8192 in
/-- Every operation of the window touches TensorCore references only. -/
theorem ops5_sub : (ops5 : List (HloOp τ sig (Elt F))).Forall fun op => op.bufs ⊆ tcRefs τ sig :=
  ⟨binary_bufs_sub .., unary_bufs_sub .., reshape_bufs_sub .., binary_bufs_sub .., nullary_bufs_sub .., unary_bufs_sub ..,
    binary_bufs_sub .., binary_bufs_sub .., nullary_bufs_sub .., unary_bufs_sub .., binary_bufs_sub .., unary_bufs_sub ..,
    reshape_bufs_sub .., binary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    unary_bufs_sub .., reshape_bufs_sub .., binary_bufs_sub .., nullary_bufs_sub .., unary_bufs_sub .., binary_bufs_sub ..,
    binary_bufs_sub .., nullary_bufs_sub .., unary_bufs_sub .., binary_bufs_sub .., unary_bufs_sub .., reshape_bufs_sub ..,
    binary_bufs_sub .., nullary_bufs_sub .., unary_bufs_sub .., binary_bufs_sub .., nullary_bufs_sub .., unary_bufs_sub ..,
    binary_bufs_sub .., binary_bufs_sub .., nullary_bufs_sub .., unary_bufs_sub .., binary_bufs_sub .., unary_bufs_sub ..,
    reshape_bufs_sub .., binary_bufs_sub .., nullary_bufs_sub .., unary_bufs_sub .., binary_bufs_sub .., binary_bufs_sub ..,
    nullary_bufs_sub .., unary_bufs_sub .., binary_bufs_sub .., unary_bufs_sub .., reshape_bufs_sub .., binary_bufs_sub ..,
    nullary_bufs_sub .., unary_bufs_sub .., binary_bufs_sub .., nullary_bufs_sub .., unary_bufs_sub .., binary_bufs_sub ..⟩

set_option maxRecDepth 8192 in
/-- Every operation of the window determines its results (none allocates). -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops5_W : List (Ref sig .tc) :=
  [main_v247, main_v248, main_v249, main_v250, main_cst_51, main_v251, main_v252, main_v253, main_call14_cst, main_call14_v0,
    main_v254, main_v255, main_v256, main_v257, main_cst_52, main_v258, main_v259, main_cst_53, main_v260, main_v261,
    main_v262, main_cst_54, main_v263, main_v264, main_v265, main_v266, main_v267, main_cst_55, main_v268, main_v269,
    main_v270, main_call15_cst, main_call15_v0, main_v271, main_v272, main_v273, main_v274, main_cst_56, main_v275, main_v276,
    main_cst_57, main_v277, main_v278, main_v279, main_cst_58, main_v280, main_v281, main_v282, main_v283, main_v284,
    main_cst_59, main_v285, main_v286, main_v287, main_call16_cst, main_call16_v0, main_v288, main_v289, main_v290, main_v291,
    main_cst_60, main_v292, main_v293, main_cst_61, main_v294, main_v295]

set_option maxRecDepth 8192 in
set_option maxHeartbeats 4000000 in
/-- Each operation writes its one result buffer, which is in that list. -/
theorem ops5_writes : (ops5 : List (HloOp τ sig (Elt F))).Forall fun op => op.writes ⊆ (ops5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

/-- A buffer the window does not write keeps its contents through it. -/
theorem ops5_keep (V : Valuation τ sig (Elt F)) (r : Ref sig .tc) (h : r ∉ ops5_W) :
    after ops5 V (Proc.devRef .tc r) = V (Proc.devRef .tc r) :=
  after_of_writes_sub ops5 V ops5_writes h

end Cert.ReferenceIdeal.RefRun

end
-- ==== Proof.Ref.Ops6.lean ====
/-
  Window `main_part6` of the reference program's @main as the list of its 66 host operations, in program order
  (operations 441 … 506 of 517): @main's own lines as printed; where @main calls a function, the
  function's operations stand in the call's place over the call's own buffers (a call inside a called function
  likewise). The window is the straight line of that list; the list touches TensorCore references only; and a
  buffer none of its operations writes keeps its contents through it.
-/
import proofs.«129426_g120259084709_cont_main3_741_6_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part6`, in order. -/
abbrev ops6 : List (HloOp τ sig (Elt F)) :=
  [ StableHlo.binary main_v293 main_v295 main_v296 (addf : (⟨S5000x128, .f32⟩ : BufTy).Contents (Elt F) → (⟨S5000x128, .f32⟩ : BufTy).Contents (Elt F) → (⟨S5000x128, .f32⟩ : BufTy).Contents (Elt F)),
    StableHlo.nullary main_cst_62 (constant S_ .f32 0x3F6B8252#32),
    StableHlo.unary main_cst_62 main_v297 (broadcastInDim S5000x128 ![] bcast_S_S5000x128 : (⟨S_, .f32⟩ : BufTy).Contents (Elt F) → (⟨S5000x128, .f32⟩ : BufTy).Contents (Elt F)),
    StableHlo.binary main_v297 main_v296 main_v298 (mulf : (⟨S5000x128, .f32⟩ : BufTy).Contents (Elt F) → (⟨S5000x128, .f32⟩ : BufTy).Contents (Elt F) → (⟨S5000x128, .f32⟩ : BufTy).Contents (Elt F)),
    StableHlo.unary main_arg6 main_v299 ((extractStridedSlice S1x1x128x128 ![1, 5, 0, 0] · slices_S2x8x128x128_S1x1x128x128_1_5_0_0) : (⟨S2x8x128x128, .f32⟩ : BufTy).Contents (Elt F) → (⟨S1x1x128x128, .f32⟩ : BufTy).Contents (Elt F)),
    StableHlo.reshape main_v299 main_v300 rfl shapeCasts_S1x1x128x128_S128x128,
    StableHlo.binary main_v296 main_v300 main_v301 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_63 (constant S_ .f32 0x3DA3ED6E#32),
    StableHlo.unary main_cst_63 main_v302 (broadcastInDim S5000x128 ![] bcast_S_S5000x128 : (⟨S_, .f32⟩ : BufTy).Contents (Elt F) → (⟨S5000x128, .f32⟩ : BufTy).Contents (Elt F)),
    StableHlo.binary main_v302 main_v301 main_v303 (mulf : (⟨S5000x128, .f32⟩ : BufTy).Contents (Elt F) → (⟨S5000x128, .f32⟩ : BufTy).Contents (Elt F) → (⟨S5000x128, .f32⟩ : BufTy).Contents (Elt F)),
    StableHlo.binary main_v298 main_v303 main_v304 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S5000x128, .f32⟩) main_call17_v0) (broadcastInDim S5000x128 ![] bcast_S_S5000x128),
    TRef.binary (TRef.of (T := ⟨S5000x128, .f32⟩) main_v304) (TRef.of (T := ⟨S5000x128, .f32⟩) main_call17_v0) (TRef.of (T := ⟨S5000x128, .f32⟩) main_v305) maximumf,
    StableHlo.unary main_arg1 main_v306 ((extractStridedSlice S1x5000x5000 ![1, 0, 0] · slices_S2x5000x5000_S1x5000x5000_1_0_0) : (⟨S2x5000x5000, .f32⟩ : BufTy).Contents (Elt F) → (⟨S1x5000x5000, .f32⟩ : BufTy).Contents (Elt F)),
    StableHlo.reshape main_v306 main_v307 rfl shapeCasts_S1x5000x5000_S5000x5000,
    StableHlo.binary main_v307 main_v305 main_v308 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_64 (constant S_ .f32 0x3F000000#32),
    StableHlo.unary main_cst_64 main_v309 (broadcastInDim S5000x128 ![] bcast_S_S5000x128 : (⟨S_, .f32⟩ : BufTy).Contents (Elt F) → (⟨S5000x128, .f32⟩ : BufTy).Contents (Elt F)),
    StableHlo.binary main_v309 main_v308 main_v310 (mulf : (⟨S5000x128, .f32⟩ : BufTy).Contents (Elt F) → (⟨S5000x128, .f32⟩ : BufTy).Contents (Elt F) → (⟨S5000x128, .f32⟩ : BufTy).Contents (Elt F)),
    StableHlo.nullary main_cst_65 (constant S_ .f32 0x3F000000#32),
    StableHlo.unary main_cst_65 main_v311 (broadcastInDim S5000x128 ![] bcast_S_S5000x128 : (⟨S_, .f32⟩ : BufTy).Contents (Elt F) → (⟨S5000x128, .f32⟩ : BufTy).Contents (Elt F)),
    StableHlo.binary main_v311 main_v203 main_v312 (mulf : (⟨S5000x128, .f32⟩ : BufTy).Contents (Elt F) → (⟨S5000x128, .f32⟩ : BufTy).Contents (Elt F) → (⟨S5000x128, .f32⟩ : BufTy).Contents (Elt F)),
    StableHlo.binary main_v310 main_v312 main_v313 (addf : (⟨S5000x128, .f32⟩ : BufTy).Contents (Elt F) → (⟨S5000x128, .f32⟩ : BufTy).Contents (Elt F) → (⟨S5000x128, .f32⟩ : BufTy).Contents (Elt F)),
    StableHlo.nullary main_cst_66 (constant S_ .f32 0x3F6E567C#32),
    StableHlo.unary main_cst_66 main_v314 (broadcastInDim S5000x128 ![] bcast_S_S5000x128 : (⟨S_, .f32⟩ : BufTy).Contents (Elt F) → (⟨S5000x128, .f32⟩ : BufTy).Contents (Elt F)),
    StableHlo.binary main_v314 main_v313 main_v315 (mulf : (⟨S5000x128, .f32⟩ : BufTy).Contents (Elt F) → (⟨S5000x128, .f32⟩ : BufTy).Contents (Elt F) → (⟨S5000x128, .f32⟩ : BufTy).Contents (Elt F)),
    StableHlo.unary main_arg6 main_v316 ((extractStridedSlice S1x1x128x128 ![1, 6, 0, 0] · slices_S2x8x128x128_S1x1x128x128_1_6_0_0) : (⟨S2x8x128x128, .f32⟩ : BufTy).Contents (Elt F) → (⟨S1x1x128x128, .f32⟩ : BufTy).Contents (Elt F)),
    StableHlo.reshape main_v316 main_v317 rfl shapeCasts_S1x1x128x128_S128x128,
    StableHlo.binary main_v313 main_v317 main_v318 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_67 (constant S_ .f32 0x3D8D4C22#32),
    StableHlo.unary main_cst_67 main_v319 (broadcastInDim S5000x128 ![] bcast_S_S5000x128 : (⟨S_, .f32⟩ : BufTy).Contents (Elt F) → (⟨S5000x128, .f32⟩ : BufTy).Contents (Elt F)),
    StableHlo.binary main_v319 main_v318 main_v320 (mulf : (⟨S5000x128, .f32⟩ : BufTy).Contents (Elt F) → (⟨S5000x128, .f32⟩ : BufTy).Contents (Elt F) → (⟨S5000x128, .f32⟩ : BufTy).Contents (Elt F)),
    StableHlo.binary main_v315 main_v320 main_v321 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S5000x128, .f32⟩) main_call18_v0) (broadcastInDim S5000x128 ![] bcast_S_S5000x128),
    TRef.binary (TRef.of (T := ⟨S5000x128, .f32⟩) main_v321) (TRef.of (T := ⟨S5000x128, .f32⟩) main_call18_v0) (TRef.of (T := ⟨S5000x128, .f32⟩) main_v322) maximumf,
    StableHlo.unary main_arg1 main_v323 ((extractStridedSlice S1x5000x5000 ![1, 0, 0] · slices_S2x5000x5000_S1x5000x5000_1_0_0) : (⟨S2x5000x5000, .f32⟩ : BufTy).Contents (Elt F) → (⟨S1x5000x5000, .f32⟩ : BufTy).Contents (Elt F)),
    StableHlo.reshape main_v323 main_v324 rfl shapeCasts_S1x5000x5000_S5000x5000,
    StableHlo.binary main_v324 main_v322 main_v325 ((fun l r => Host.dotGeneral dot_S5000x5000_S5000x128_S5000x128_1_0_0_1_n_n none l r) : (⟨S5000x5000, .f32⟩ : BufTy).Contents (Elt F) → (⟨S5000x128, .f32⟩ : BufTy).Contents (Elt F) → (⟨S5000x128, .f32⟩ : BufTy).Contents (Elt F)),
    StableHlo.nullary main_cst_68 (constant S_ .f32 0x3F000000#32),
    StableHlo.unary main_cst_68 main_v326 (broadcastInDim S5000x128 ![] bcast_S_S5000x128 : (⟨S_, .f32⟩ : BufTy).Contents (Elt F) → (⟨S5000x128, .f32⟩ : BufTy).Contents (Elt F)),
    StableHlo.binary main_v326 main_v325 main_v327 (mulf : (⟨S5000x128, .f32⟩ : BufTy).Contents (Elt F) → (⟨S5000x128, .f32⟩ : BufTy).Contents (Elt F) → (⟨S5000x128, .f32⟩ : BufTy).Contents (Elt F)),
    StableHlo.nullary main_cst_69 (constant S_ .f32 0x3F000000#32),
    StableHlo.unary main_cst_69 main_v328 (broadcastInDim S5000x128 ![] bcast_S_S5000x128 : (⟨S_, .f32⟩ : BufTy).Contents (Elt F) → (⟨S5000x128, .f32⟩ : BufTy).Contents (Elt F)),
    StableHlo.binary main_v328 main_v203 main_v329 (mulf : (⟨S5000x128, .f32⟩ : BufTy).Contents (Elt F) → (⟨S5000x128, .f32⟩ : BufTy).Contents (Elt F) → (⟨S5000x128, .f32⟩ : BufTy).Contents (Elt F)),
    StableHlo.binary main_v327 main_v329 main_v330 (addf : (⟨S5000x128, .f32⟩ : BufTy).Contents (Elt F) → (⟨S5000x128, .f32⟩ : BufTy).Contents (Elt F) → (⟨S5000x128, .f32⟩ : BufTy).Contents (Elt F)),
    StableHlo.nullary main_cst_70 (constant S_ .f32 0x3F707AE8#32),
    StableHlo.unary main_cst_70 main_v331 (broadcastInDim S5000x128 ![] bcast_S_S5000x128 : (⟨S_, .f32⟩ : BufTy).Contents (Elt F) → (⟨S5000x128, .f32⟩ : BufTy).Contents (Elt F)),
    StableHlo.binary main_v331 main_v330 main_v332 (mulf : (⟨S5000x128, .f32⟩ : BufTy).Contents (Elt F) → (⟨S5000x128, .f32⟩ : BufTy).Contents (Elt F) → (⟨S5000x128, .f32⟩ : BufTy).Contents (Elt F)),
    StableHlo.unary main_arg6 main_v333 ((extractStridedSlice S1x1x128x128 ![1, 7, 0, 0] · slices_S2x8x128x128_S1x1x128x128_1_7_0_0) : (⟨S2x8x128x128, .f32⟩ : BufTy).Contents (Elt F) → (⟨S1x1x128x128, .f32⟩ : BufTy).Contents (Elt F)),
    StableHlo.reshape main_v333 main_v334 rfl shapeCasts_S1x1x128x128_S128x128,
    StableHlo.binary main_v330 main_v334 main_v335 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_cst_71 (constant S_ .f32 0x3D785186#32),
    StableHlo.unary main_cst_71 main_v336 (broadcastInDim S5000x128 ![] bcast_S_S5000x128 : (⟨S_, .f32⟩ : BufTy).Contents (Elt F) → (⟨S5000x128, .f32⟩ : BufTy).Contents (Elt F)),
    StableHlo.binary main_v336 main_v335 main_v337 (mulf : (⟨S5000x128, .f32⟩ : BufTy).Contents (Elt F) → (⟨S5000x128, .f32⟩ : BufTy).Contents (Elt F) → (⟨S5000x128, .f32⟩ : BufTy).Contents (Elt F)),
    StableHlo.binary main_v332 main_v337 main_v338 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S5000x128, .f32⟩) main_call19_v0) (broadcastInDim S5000x128 ![] bcast_S_S5000x128),
    TRef.binary (TRef.of (T := ⟨S5000x128, .f32⟩) main_v338) (TRef.of (T := ⟨S5000x128, .f32⟩) main_call19_v0) (TRef.of (T := ⟨S5000x128, .f32⟩) main_v339) maximumf,
    StableHlo.binary main_v169 main_v339 main_v340 ((fun a b => concatenate S5000x256 1 [⟨S5000x128, a⟩, ⟨S5000x128, b⟩] concatenates_S5000x128_S5000x128_S5000x256_d1) : (⟨S5000x128, .f32⟩ : BufTy).Contents (Elt F) → (⟨S5000x128, .f32⟩ : BufTy).Contents (Elt F) → (⟨S5000x256, .f32⟩ : BufTy).Contents (Elt F)),
    StableHlo.binary main_v340 main_arg7 main_v341 ((fun l r => Host.dotGeneral dot_S5000x256_S256x128_S5000x128_1_0_0_1_n_n none l r) : (⟨S5000x256, .f32⟩ : BufTy).Contents (Elt F) → (⟨S256x128, .f32⟩ : BufTy).Contents (Elt F) → (⟨S5000x128, .f32⟩ : BufTy).Contents (Elt F)),
    StableHlo.unary main_arg8 main_v342 (broadcastInDim S1x128 ![1] bcast_S128_S1x128_1 : (⟨S128, .f32⟩ : BufTy).Contents (Elt F) → (⟨S1x128, .f32⟩ : BufTy).Contents (Elt F)),
    StableHlo.unary main_v342 main_v343 (broadcastInDim S5000x128 ![0, 1] bcast_S1x128_S5000x128_0_1 : (⟨S1x128, .f32⟩ : BufTy).Contents (Elt F) → (⟨S5000x128, .f32⟩ : BufTy).Contents (Elt F)),
    StableHlo.binary main_v341 main_v343 main_v344 (addf : (⟨S5000x128, .f32⟩ : BufTy).Contents (Elt F) → (⟨S5000x128, .f32⟩ : BufTy).Contents (Elt F) → (⟨S5000x128, .f32⟩ : BufTy).Contents (Elt F)),
    StableHlo.nullary main_cst_72 (constant S_ .f32 0x3C23D70A#32) ]

set_option maxRecDepth 8192 in
set_option maxHeartbeats 4000000 in
/-- The window is the straight line of its operations: the called functions unfold at their calls. -/
theorem main_part6_eq (c : Dev nD) : main_part6 (F := F) c = seq ops6 := rfl

set_option maxRecDepth 8192 in
/-- Every operation of the window touches TensorCore references only. -/
theorem ops6_sub : (ops6 : List (HloOp τ sig (Elt F))).Forall fun op => op.bufs ⊆ tcRefs τ sig :=
  ⟨binary_bufs_sub .., nullary_bufs_sub .., unary_bufs_sub .., binary_bufs_sub .., unary_bufs_sub .., reshape_bufs_sub ..,
    binary_bufs_sub .., nullary_bufs_sub .., unary_bufs_sub .., binary_bufs_sub .., binary_bufs_sub .., nullary_bufs_sub ..,
    unary_bufs_sub .., binary_bufs_sub .., unary_bufs_sub .., reshape_bufs_sub .., binary_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., unary_bufs_sub .., reshape_bufs_sub .., binary_bufs_sub ..,
    nullary_bufs_sub .., unary_bufs_sub .., binary_bufs_sub .., binary_bufs_sub .., nullary_bufs_sub .., unary_bufs_sub ..,
    binary_bufs_sub .., unary_bufs_sub .., reshape_bufs_sub .., binary_bufs_sub .., nullary_bufs_sub .., unary_bufs_sub ..,
    binary_bufs_sub .., nullary_bufs_sub .., unary_bufs_sub .., binary_bufs_sub .., binary_bufs_sub .., nullary_bufs_sub ..,
    unary_bufs_sub .., binary_bufs_sub .., unary_bufs_sub .., reshape_bufs_sub .., binary_bufs_sub .., nullary_bufs_sub ..,
    unary_bufs_sub .., binary_bufs_sub .., binary_bufs_sub .., nullary_bufs_sub .., unary_bufs_sub .., binary_bufs_sub ..,
    binary_bufs_sub .., binary_bufs_sub .., unary_bufs_sub .., unary_bufs_sub .., binary_bufs_sub .., nullary_bufs_sub ..⟩

set_option maxRecDepth 8192 in
/-- Every operation of the window determines its results (none allocates). -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops6_W : List (Ref sig .tc) :=
  [main_v296, main_cst_62, main_v297, main_v298, main_v299, main_v300, main_v301, main_cst_63, main_v302, main_v303,
    main_v304, main_call17_cst, main_call17_v0, main_v305, main_v306, main_v307, main_v308, main_cst_64, main_v309, main_v310,
    main_cst_65, main_v311, main_v312, main_v313, main_cst_66, main_v314, main_v315, main_v316, main_v317, main_v318,
    main_cst_67, main_v319, main_v320, main_v321, main_call18_cst, main_call18_v0, main_v322, main_v323, main_v324, main_v325,
    main_cst_68, main_v326, main_v327, main_cst_69, main_v328, main_v329, main_v330, main_cst_70, main_v331, main_v332,
    main_v333, main_v334, main_v335, main_cst_71, main_v336, main_v337, main_v338, main_call19_cst, main_call19_v0, main_v339,
    main_v340, main_v341, main_v342, main_v343, main_v344, main_cst_72]

set_option maxRecDepth 8192 in
set_option maxHeartbeats 4000000 in
/-- Each operation writes its one result buffer, which is in that list. -/
theorem ops6_writes : (ops6 : List (HloOp τ sig (Elt F))).Forall fun op => op.writes ⊆ (ops6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

/-- A buffer the window does not write keeps its contents through it. -/
theorem ops6_keep (V : Valuation τ sig (Elt F)) (r : Ref sig .tc) (h : r ∉ ops6_W) :
    after ops6 V (Proc.devRef .tc r) = V (Proc.devRef .tc r) :=
  after_of_writes_sub ops6 V ops6_writes h

end Cert.ReferenceIdeal.RefRun

end
-- ==== Proof.Ref.Ops7.lean ====
/-
  Window `main_part7` of the reference program's @main as the list of its 11 host operations, in program order
  (operations 507 … 517 of 517): @main's own lines as printed; where @main calls a function, the
  function's operations stand in the call's place over the call's own buffers (a call inside a called function
  likewise). The window is the straight line of that list; the list touches TensorCore references only; and a
  buffer none of its operations writes keeps its contents through it.
-/
import proofs.«129426_g120259084709_cont_main3_741_6_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part7`, in order. -/
abbrev ops7 : List (HloOp τ sig (Elt F)) :=
  [ TRef.nullary (TRef.of (T := ⟨S_, .f32⟩) main_call20_cst) (constant S_ .f32 0x00000000#32),
    TRef.unary (TRef.of (T := ⟨S_, .f32⟩) main_call20_cst) (TRef.of (T := ⟨S5000x128, .f32⟩) main_call20_v0) (broadcastInDim S5000x128 ![] bcast_S_S5000x128),
    TRef.binary (TRef.of (T := ⟨S5000x128, .f32⟩) main_v344) (TRef.of (T := ⟨S5000x128, .f32⟩) main_call20_v0) (TRef.of (T := ⟨S5000x128, .i1⟩) main_call20_v1) (cmpf .oge),
    TRef.unary (TRef.of (T := ⟨S_, .f32⟩) main_cst_72) (TRef.of (T := ⟨S_, .f32⟩) main_call20_v2) id,
    TRef.unary (TRef.of (T := ⟨S_, .f32⟩) main_call20_v2) (TRef.of (T := ⟨S5000x128, .f32⟩) main_call20_v3) (broadcastInDim S5000x128 ![] bcast_S_S5000x128),
    TRef.binary (TRef.of (T := ⟨S5000x128, .f32⟩) main_call20_v3) (TRef.of (T := ⟨S5000x128, .f32⟩) main_v344) (TRef.of (T := ⟨S5000x128, .f32⟩) main_call20_v4) mulf,
    TRef.ternary (TRef.of (T := ⟨S5000x128, .i1⟩) main_call20_v1) (TRef.of (T := ⟨S5000x128, .f32⟩) main_v344) (TRef.of (T := ⟨S5000x128, .f32⟩) main_call20_v4) (TRef.of (T := ⟨S5000x128, .f32⟩) main_v345) select,
    StableHlo.binary main_v345 main_arg9 main_v346 ((fun l r => Host.dotGeneral dot_S5000x128_S128x5000_S5000x5000_1_0_0_1_n_n none l r) : (⟨S5000x128, .f32⟩ : BufTy).Contents (Elt F) → (⟨S128x5000, .f32⟩ : BufTy).Contents (Elt F) → (⟨S5000x5000, .f32⟩ : BufTy).Contents (Elt F)),
    StableHlo.unary main_arg10 main_v347 (broadcastInDim S1x5000 ![1] bcast_S5000_S1x5000_1 : (⟨S5000, .f32⟩ : BufTy).Contents (Elt F) → (⟨S1x5000, .f32⟩ : BufTy).Contents (Elt F)),
    StableHlo.unary main_v347 main_v348 (broadcastInDim S5000x5000 ![0, 1] bcast_S1x5000_S5000x5000_0_1 : (⟨S1x5000, .f32⟩ : BufTy).Contents (Elt F) → (⟨S5000x5000, .f32⟩ : BufTy).Contents (Elt F)),
    StableHlo.binary main_v346 main_v348 main_v349 (addf : (⟨S5000x5000, .f32⟩ : BufTy).Contents (Elt F) → (⟨S5000x5000, .f32⟩ : BufTy).Contents (Elt F) → (⟨S5000x5000, .f32⟩ : BufTy).Contents (Elt F)) ]

set_option maxRecDepth 8192 in
set_option maxHeartbeats 4000000 in
/-- The window is the straight line of its operations: the called functions unfold at their calls. -/
theorem main_part7_eq (c : Dev nD) : main_part7 (F := F) c = seq ops7 := rfl

set_option maxRecDepth 8192 in
/-- Every operation of the window touches TensorCore references only. -/
theorem ops7_sub : (ops7 : List (HloOp τ sig (Elt F))).Forall fun op => op.bufs ⊆ tcRefs τ sig :=
  ⟨nullary_bufs_sub .., unary_bufs_sub .., binary_bufs_sub .., unary_bufs_sub .., unary_bufs_sub .., binary_bufs_sub ..,
    ternary_bufs_sub .., binary_bufs_sub .., unary_bufs_sub .., unary_bufs_sub .., binary_bufs_sub ..⟩

set_option maxRecDepth 8192 in
/-- Every operation of the window determines its results (none allocates). -/
theorem ops7_fresh : (ops7 : List (HloOp τ sig (Elt F))).Forall fun op => op.fresh = ∅ :=
  ⟨rfl, rfl, rfl, rfl, rfl, rfl, rfl, rfl, rfl, rfl, rfl⟩

/-- The buffers the window's operations write, in order. -/
abbrev ops7_W : List (Ref sig .tc) :=
  [main_call20_cst, main_call20_v0, main_call20_v1, main_call20_v2, main_call20_v3, main_call20_v4, main_v345, main_v346, main_v347, main_v348,
    main_v349]

set_option maxRecDepth 8192 in
set_option maxHeartbeats 4000000 in
/-- Each operation writes its one result buffer, which is in that list. -/
theorem ops7_writes : (ops7 : List (HloOp τ sig (Elt F))).Forall fun op => op.writes ⊆ (ops7_W.map (Proc.devRef (τ := τ) .tc)).toFinset := by
  simp only [List.Forall]
  refine ⟨?_, ?_, ?_, ?_, ?_, ?_, ?_, ?_, ?_, ?_, ?_⟩ <;>
    exact Finset.singleton_subset_iff.mpr (List.mem_toFinset.mpr (List.mem_map_of_mem (by decide)))

/-- A buffer the window does not write keeps its contents through it. -/
theorem ops7_keep (V : Valuation τ sig (Elt F)) (r : Ref sig .tc) (h : r ∉ ops7_W) :
    after ops7 V (Proc.devRef .tc r) = V (Proc.devRef .tc r) :=
  after_of_writes_sub ops7 V ops7_writes h

end Cert.ReferenceIdeal.RefRun

end
-- ==== Proof.Ref.Run.lean ====
/-
  The reference program's run. @main is the straight line of its 517 host operations `ops` — its eight windows'
  lists one after the other, the called functions' operations in their calls' places —, so from any memory with zero
  counters every weakly fair execution terminates, the result buffer `main_v349` holding the fold of `ops` over the
  device's launch contents, and the eleven arguments what they held: no operation writes an argument.
-/
import proofs.«129426_g120259084709_cont_main3_741_6_alg».proof.Proof.Ref.Ops0
import proofs.«129426_g120259084709_cont_main3_741_6_alg».proof.Proof.Ref.Ops1
import proofs.«129426_g120259084709_cont_main3_741_6_alg».proof.Proof.Ref.Ops2
import proofs.«129426_g120259084709_cont_main3_741_6_alg».proof.Proof.Ref.Ops3
import proofs.«129426_g120259084709_cont_main3_741_6_alg».proof.Proof.Ref.Ops4
import proofs.«129426_g120259084709_cont_main3_741_6_alg».proof.Proof.Ref.Ops5
import proofs.«129426_g120259084709_cont_main3_741_6_alg».proof.Proof.Ref.Ops6
import proofs.«129426_g120259084709_cont_main3_741_6_alg».proof.Proof.Ref.Ops7
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 517 operations, in order: the windows' lists one after the other. -/
abbrev ops : List (HloOp τ sig (Elt F)) :=
  ops0 ++ (ops1 ++ (ops2 ++ (ops3 ++ (ops4 ++ (ops5 ++ (ops6 ++ (ops7)))))))

/-- @main runs its windows in order, and each window is the straight line of its list. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c]
  rfl

/-- The fold of `ops`, window by window. -/
theorem after_ops (V : Valuation τ sig (Elt F)) :
    after ops V = after ops7 (after ops6 (after ops5 (after ops4 (after ops3 (after ops2 (after ops1 (after ops0 V))))))) := by
  simp only [ops, after_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h]

theorem ops_fresh : ∀ op ∈ (ops : List (HloOp τ sig (Elt F))), op.fresh = ∅ := fun op h => by
  simp only [ops, List.mem_append] at h
  rcases h with h | h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h]

/-- A buffer no window writes keeps its contents through the whole line. -/
theorem ops_keep (V : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) :
    after ops V (Proc.devRef .tc r) = V (Proc.devRef .tc r) := by
  rw [after_ops, ops7_keep _ r h7, ops6_keep _ r h6, ops5_keep _ r h5, ops4_keep _ r h4, ops3_keep _ r h3, ops2_keep _ r h2, ops1_keep _ r h1, ops0_keep _ r h0]

theorem main_arg0_keep (V : Valuation τ sig (Elt F)) : after ops V (Proc.devRef .tc main_arg0) = V (Proc.devRef .tc main_arg0) :=
  ops_keep V main_arg0 (by decide) (by decide) (by decide) (by decide) (by decide) (by decide) (by decide) (by decide)
theorem main_arg1_keep (V : Valuation τ sig (Elt F)) : after ops V (Proc.devRef .tc main_arg1) = V (Proc.devRef .tc main_arg1) :=
  ops_keep V main_arg1 (by decide) (by decide) (by decide) (by decide) (by decide) (by decide) (by decide) (by decide)
theorem main_arg2_keep (V : Valuation τ sig (Elt F)) : after ops V (Proc.devRef .tc main_arg2) = V (Proc.devRef .tc main_arg2) :=
  ops_keep V main_arg2 (by decide) (by decide) (by decide) (by decide) (by decide) (by decide) (by decide) (by decide)
theorem main_arg3_keep (V : Valuation τ sig (Elt F)) : after ops V (Proc.devRef .tc main_arg3) = V (Proc.devRef .tc main_arg3) :=
  ops_keep V main_arg3 (by decide) (by decide) (by decide) (by decide) (by decide) (by decide) (by decide) (by decide)
theorem main_arg4_keep (V : Valuation τ sig (Elt F)) : after ops V (Proc.devRef .tc main_arg4) = V (Proc.devRef .tc main_arg4) :=
  ops_keep V main_arg4 (by decide) (by decide) (by decide) (by decide) (by decide) (by decide) (by decide) (by decide)
theorem main_arg5_keep (V : Valuation τ sig (Elt F)) : after ops V (Proc.devRef .tc main_arg5) = V (Proc.devRef .tc main_arg5) :=
  ops_keep V main_arg5 (by decide) (by decide) (by decide) (by decide) (by decide) (by decide) (by decide) (by decide)
theorem main_arg6_keep (V : Valuation τ sig (Elt F)) : after ops V (Proc.devRef .tc main_arg6) = V (Proc.devRef .tc main_arg6) :=
  ops_keep V main_arg6 (by decide) (by decide) (by decide) (by decide) (by decide) (by decide) (by decide) (by decide)
theorem main_arg7_keep (V : Valuation τ sig (Elt F)) : after ops V (Proc.devRef .tc main_arg7) = V (Proc.devRef .tc main_arg7) :=
  ops_keep V main_arg7 (by decide) (by decide) (by decide) (by decide) (by decide) (by decide) (by decide) (by decide)
theorem main_arg8_keep (V : Valuation τ sig (Elt F)) : after ops V (Proc.devRef .tc main_arg8) = V (Proc.devRef .tc main_arg8) :=
  ops_keep V main_arg8 (by decide) (by decide) (by decide) (by decide) (by decide) (by decide) (by decide) (by decide)
theorem main_arg9_keep (V : Valuation τ sig (Elt F)) : after ops V (Proc.devRef .tc main_arg9) = V (Proc.devRef .tc main_arg9) :=
  ops_keep V main_arg9 (by decide) (by decide) (by decide) (by decide) (by decide) (by decide) (by decide) (by decide)
theorem main_arg10_keep (V : Valuation τ sig (Elt F)) : after ops V (Proc.devRef .tc main_arg10) = V (Proc.devRef .tc main_arg10) :=
  ops_keep V main_arg10 (by decide) (by decide) (by decide) (by decide) (by decide) (by decide) (by decide) (by decide)

/-- On every device, for any float values, from any memory with zero counters: every weakly fair execution of @main
    terminates with the result buffer at the fold of the operations over the device's launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v349) = after ops (fun b => m (c, b)) (Proc.devRef .tc main_v349)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v349,
      (h c main_arg0).trans (main_arg0_keep _),
      (h c main_arg1).trans (main_arg1_keep _),
      (h c main_arg2).trans (main_arg2_keep _),
      (h c main_arg3).trans (main_arg3_keep _),
      (h c main_arg4).trans (main_arg4_keep _),
      (h c main_arg5).trans (main_arg5_keep _),
      (h c main_arg6).trans (main_arg6_keep _),
      (h c main_arg7).trans (main_arg7_keep _),
      (h c main_arg8).trans (main_arg8_keep _),
      (h c main_arg9).trans (main_arg9_keep _),
      (h c main_arg10).trans (main_arg10_keep _)⟩)
    (run_seq scopedRefs_eq scopedSems_eq defs main (fun _ => ops) main_eq (fun _ => ops_sub) m ρ (fun _ => ops_fresh))

end Cert.ReferenceIdeal.RefRun

end
-- ==== Proof.SpecRef.lean ====
/-
  The reference's own arrangement of the batch normalisation, index by index over the extended reals, and the
  model built on it.  Per view the columns of `x` are centred by their mean, divided by the square root of the
  variance (the mean of the squared deviations) plus the printed epsilon word, scaled and shifted, in exactly the
  order the reference applies the operations.  The layers and the head are the formulas of `Cert.Spec`, unchanged.
-/
import proofs.«129426_g120259084709_cont_main3_741_6_alg».proof.Proof.Spec

noncomputable section

namespace Cert.SpecRef

open Idealize.ShloMosaic Cert.Spec

/-- The count the variance divides by, as the reference forms it: the word of 5000 less the integer zero
    (the degrees-of-freedom correction, here none) converted to a real. -/
def cntR : EReal := lit 0x459C4000#32 - ((0 : ℝ) : EReal)

theorem cntR_eq : cntR = lit 0x459C4000#32 := by
  unfold cntR; rw [EReal.coe_zero, sub_zero]

section Norm
variable (x : Fin 2 → Fin 5000 → Fin 5000 → EReal) (γ β : Fin 2 → Fin 5000 → EReal)

/-- Column mean: the column sum divided by the word of 5000. -/
def meanR (v : Fin 2) (k : Fin 5000) : EReal := Ideal.div (∑ r : Fin 5000, x v r k) (lit 0x459C4000#32)
/-- Column variance: the sum of the squared deviations from the mean, divided by the count `cntR`. -/
def varR (v : Fin 2) (k : Fin 5000) : EReal :=
  Ideal.div (∑ r : Fin 5000, (x v r k - meanR x v k) * (x v r k - meanR x v k)) cntR
/-- The normalised entry, in the reference's order: centre, divide by the root, scale, shift. -/
def xhatR (v : Fin 2) (r k : Fin 5000) : EReal :=
  Ideal.div (x v r k - meanR x v k) (Ideal.sqrt (varR x v k + lit 0x3727C5AC#32)) * γ v k + β v k
end Norm

/-- The input projection of the normalised features, shifted by the bias, through the leaky rectifier. -/
def X0R (x : Fin 2 → Fin 5000 → Fin 5000 → EReal) (γ β : Fin 2 → Fin 5000 → EReal)
    (Win : Fin 2 → Fin 5000 → Fin 128 → EReal) (bin : Fin 2 → Fin 128 → EReal)
    (v : Fin 2) (r : Fin 5000) (j : Fin 128) : EReal :=
  leaky ((∑ k : Fin 5000, xhatR x γ β v r k * Win v k j) + bin v j)

/-- The whole model on the reference's normalisation: the result at row `r`, class `t`. -/
def modelRef (x net : Fin 2 → Fin 5000 → Fin 5000 → EReal) (γ β : Fin 2 → Fin 5000 → EReal)
    (Win : Fin 2 → Fin 5000 → Fin 128 → EReal) (bin : Fin 2 → Fin 128 → EReal)
    (Wg : Fin 2 → Fin 8 → Fin 128 → Fin 128 → EReal) (Wc : Fin 256 → Fin 128 → EReal) (bc : Fin 128 → EReal)
    (Wo : Fin 128 → Fin 5000 → EReal) (bo : Fin 5000 → EReal) : Fin 5000 → Fin 5000 → EReal :=
  pred (hidden (h8 net (X0R x γ β Win bin) Wg)) Wc bc Wo bo

end Cert.SpecRef

end
-- ==== Proof.Ref.ValLib.lean ====
/-
  Reading the reference's operations at an index, at the ideal values.

  The reference is a straight line of whole-array operations.  This module names the composite arrays it builds
  (a view of a stacked argument, the normalised features, the input projection, one propagation layer, the head) as
  functions of the argument arrays, and reads each at an index as the corresponding formula of the specification.
-/
import proofs.«129426_g120259084709_cont_main3_741_6_alg».proof.ReferenceIdeal
import proofs.«129426_g120259084709_cont_main3_741_6_alg».proof.Proof.SpecRef
import proofs.«129426_g120259084709_cont_main3_741_6_alg».proof.Proof.LibPlainDot
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.RefValue

open Idealize.ShloMosaic Idealize.ShloMosaic.ValueIdx Cert.Spec Cert.SpecRef

/-! ## Layout operations at an index -/

section Layout
variable {α : Type}

/-- View `v` of a stacked rank-3 array, its unit axis dropped. -/
theorem view3_apply {a b : Nat} (o : Nat) (X : (⟨3, ![2, a, b]⟩ : Shape).Idx → α)
    (h : (⟨3, ![2, a, b]⟩ : Shape).Slices ![o, 0, 0] ⟨3, ![1, a, b]⟩)
    (hn : (⟨3, ![1, a, b]⟩ : Shape).ShapeCasts ⟨2, ![a, b]⟩) (v : Fin 2) (hv : v.val = o) (i : Fin a) (j : Fin b) :
    shapeCast ⟨2, ![a, b]⟩ (extractStridedSlice ⟨3, ![1, a, b]⟩ ![o, 0, 0] X h) hn (ix2 i j) = X (ix3 v i j) :=
  (shapeCast_1ab_ab_apply _ hn i j).trans (extractStridedSlice_apply _ _ _ _ _ (fun ax => by
    match ax with
    | ⟨0, _⟩ => exact hv.trans (Nat.add_zero _).symm
    | ⟨1, _⟩ => exact (Nat.zero_add _).symm
    | ⟨2, _⟩ => exact (Nat.zero_add _).symm))

/-- Row `v` of a stacked rank-2 array, its unit axis dropped. -/
theorem view2_apply {a : Nat} (o : Nat) (X : (⟨2, ![2, a]⟩ : Shape).Idx → α)
    (h : (⟨2, ![2, a]⟩ : Shape).Slices ![o, 0] ⟨2, ![1, a]⟩)
    (hn : (⟨2, ![1, a]⟩ : Shape).ShapeCasts ⟨1, ![a]⟩) (v : Fin 2) (hv : v.val = o) (i : Fin a) :
    shapeCast ⟨1, ![a]⟩ (extractStridedSlice ⟨2, ![1, a]⟩ ![o, 0] X h) hn (ix1 i) = X (ix2 v i) :=
  (shapeCast_1a_a_apply _ hn i).trans (extractStridedSlice_apply _ _ _ _ _ (fun ax => by
    match ax with
    | ⟨0, _⟩ => exact hv.trans (Nat.add_zero _).symm
    | ⟨1, _⟩ => exact (Nat.zero_add _).symm))

/-- Matrix `(v, l)` of a doubly stacked rank-4 array, its two unit axes dropped. -/
theorem view4_apply {c a b : Nat} (o l : Nat) (X : (⟨4, ![2, c, a, b]⟩ : Shape).Idx → α)
    (h : (⟨4, ![2, c, a, b]⟩ : Shape).Slices ![o, l, 0, 0] ⟨4, ![1, 1, a, b]⟩)
    (hn : (⟨4, ![1, 1, a, b]⟩ : Shape).ShapeCasts ⟨2, ![a, b]⟩) (v : Fin 2) (hv : v.val = o) (w : Fin c) (hw : w.val = l)
    (i : Fin a) (j : Fin b) :
    shapeCast ⟨2, ![a, b]⟩ (extractStridedSlice ⟨4, ![1, 1, a, b]⟩ ![o, l, 0, 0] X h) hn (ix2 i j) = X (ix4 v w i j) :=
  (shapeCast_apply _ hn (ix2 i j) (ix4 (0 : Fin 1) (0 : Fin 1) i j) (by
    rw [Shape.rowMajor_val_four, Shape.rowMajor_val_two]
    show ((0 * 1 + 0) * a + i.val) * b + j.val = i.val * b + j.val
    simp)).trans
  (extractStridedSlice_apply _ _ _ _ _ (fun ax => by
    match ax with
    | ⟨0, _⟩ => exact hv.trans (Nat.add_zero _).symm
    | ⟨1, _⟩ => exact hw.trans (Nat.add_zero _).symm
    | ⟨2, _⟩ => exact (Nat.zero_add _).symm
    | ⟨3, _⟩ => exact (Nat.zero_add _).symm))

/-- A vector laid as one row. -/
theorem row_apply {n : Nat} (h : (⟨1, ![n]⟩ : Shape).BroadcastsInDim ⟨2, ![1, n]⟩ ![1])
    (x : (⟨1, ![n]⟩ : Shape).Idx → α) (u : Fin 1) (i : Fin n) :
    broadcastInDim ⟨2, ![1, n]⟩ ![1] h x (ix2 u i) = x (ix1 i) := by
  refine broadcastInDim_apply ![1] h x (ix2 u i) (ix1 i) ?_
  intro a
  match a with
  | ⟨0, _⟩ =>
    show i.val = if n = 1 then 0 else i.val
    split_ifs with hn
    · have := i.isLt; omega
    · rfl

/-- A vector laid as one row and repeated down the rows. -/
theorem rows_apply {m n : Nat} (h : (⟨1, ![n]⟩ : Shape).BroadcastsInDim ⟨2, ![1, n]⟩ ![1])
    (h' : (⟨2, ![1, n]⟩ : Shape).BroadcastsInDim ⟨2, ![m, n]⟩ ![0, 1])
    (x : (⟨1, ![n]⟩ : Shape).Idx → α) (r : Fin m) (i : Fin n) :
    broadcastInDim ⟨2, ![m, n]⟩ ![0, 1] h' (broadcastInDim ⟨2, ![1, n]⟩ ![1] h x) (ix2 r i) = x (ix1 i) :=
  (broadcastInDim_oneRow_apply h' _ r i).trans (row_apply h x 0 i)

end Layout

end Cert.ReferenceIdeal.RefValue

end
-- ==== Proof.Ref.ValArr.lean ====
/-
  The reference's composite arrays as functions of the argument arrays, each read at an index.

  Per view: the column means and variances of the features, the normalised features, the input projection through
  the leaky rectifier; one propagation layer; the head on the two views side by side.  Each definition is the
  reference's own composition of whole-array operations, and each `_apply` lemma reads it at an index as the
  formula of the specification.
-/
import proofs.«129426_g120259084709_cont_main3_741_6_alg».proof.Proof.Ref.ValLib

noncomputable section

namespace Cert.ReferenceIdeal.RefValue

open Idealize.ShloMosaic Idealize.ShloMosaic.ValueIdx Cert.Spec Cert.SpecRef

variable [Facts]
open Facts₀

/-! ## Scalars -/

/-- The word of 5000 is the real 5000. -/
theorem lit5000 : lit 0x459C4000#32 = ((5000 : ℝ) : EReal) := by
  simp [lit, Ideal.ofBits, Ideal.ieee]
  norm_cast
  norm_num

theorem lit5000_pos : (0 : EReal) < lit 0x459C4000#32 := by
  rw [lit5000]; exact_mod_cast (by norm_num : (0 : ℝ) < 5000)

/-- The count the variance divides by is positive: the degrees-of-freedom test selects the quotient. -/
theorem cnt_test : Ideal.cmp .ogt (Ideal.ofBits .f32 0x459C4000#32 - (((0#32 : BitVec 32).toInt : ℝ) : EReal))
    (Ideal.ofBits .f32 0x00000000#32) = 1#1 := by
  have h : (Ideal.ofBits .f32 0x459C4000#32 - (((0#32 : BitVec 32).toInt : ℝ) : EReal)) = lit 0x459C4000#32 := by
    simp [lit]
  rw [h, Ideal.ofBits_zero_f32]
  simp [Ideal.cmp, lit5000_pos]

theorem cnt_eq : (Ideal.ofBits .f32 0x459C4000#32 - (((0#32 : BitVec 32).toInt : ℝ) : EReal)) = cntR := by
  simp [cntR, lit]

/-- The rectifier's comparison and selection is the specification's leaky rectifier. -/
theorem leaky_select (z : EReal) :
    Scalar.select (Ideal.cmp .oge z (Ideal.ofBits .f32 0x00000000#32)) z (Ideal.ofBits .f32 0x3C23D70A#32 * z) = leaky z := by
  unfold leaky lit
  rw [Ideal.ofBits_zero_f32]
  by_cases h : (0 : EReal) ≤ z
  · rw [if_pos h]; simp [Ideal.cmp, h, select_one]
  · rw [if_neg h]; simp [Ideal.cmp, h, select_zero]

/-! ## Whole-array pieces -/

/-- A scalar constant. -/
abbrev kc (w : BitVec 32) : FVec Ideal S_ .f32 := constant (F := Ideal) S_ .f32 w

/-- A vector of 5000 repeated down 5000 rows; a vector of 128 repeated down 5000 rows. -/
abbrev rowsN (y : FVec Ideal S5000 .f32) : FVec Ideal S5000x5000 .f32 :=
  broadcastInDim S5000x5000 ![0, 1] bcast_S1x5000_S5000x5000_0_1 (broadcastInDim S1x5000 ![1] bcast_S5000_S1x5000_1 y)
abbrev rowsD (y : FVec Ideal S128 .f32) : FVec Ideal S5000x128 .f32 :=
  broadcastInDim S5000x128 ![0, 1] bcast_S1x128_S5000x128_0_1 (broadcastInDim S1x128 ![1] bcast_S128_S1x128_1 y)
abbrev fillD (c : FVec Ideal S_ .f32) : FVec Ideal S5000x128 .f32 := broadcastInDim S5000x128 ![] bcast_S_S5000x128 c
abbrev fillN (c : FVec Ideal S_ .f32) : FVec Ideal S5000 .f32 := broadcastInDim S5000 ![] bcast_S_S5000 c

/-- Column sums. -/
abbrev colSumA (x : FVec Ideal S5000x5000 .f32) : FVec Ideal S5000 .f32 :=
  Host.reduceAdd x (kc 0x00000000#32) reducesTo_S5000x5000_S5000_d0 h_S_

/-- Column means. -/
def meanA (x : FVec Ideal S5000x5000 .f32) : FVec Ideal S5000 .f32 := Host.divf (colSumA x) (fillN (kc 0x459C4000#32))

/-- The count the variance divides by. -/
abbrev cntA : FVec Ideal S_ .f32 := subf (kc 0x459C4000#32) (sitofp .f32 (constantI S_ 32 0#32))

/-- Deviations from the column means, as the variance forms them. -/
abbrev devA (x : FVec Ideal S5000x5000 .f32) : FVec Ideal S5000x5000 .f32 :=
  subf x (broadcastInDim S5000x5000 ![0, 1] bcast_S1x5000_S5000x5000_0_1
    (Host.divf (broadcastInDim S1x5000 ![1] bcast_S5000_S1x5000_1 (colSumA x))
      (broadcastInDim S1x5000 ![] bcast_S_S1x5000 (kc 0x459C4000#32))))

/-- Column variances. -/
def varA (x : FVec Ideal S5000x5000 .f32) : FVec Ideal S5000 .f32 :=
  select (broadcastInDim S5000 ![] bcast_S_S5000 (cmpf .ogt cntA (kc 0x00000000#32)))
    (Host.divf (colSumA (mulf (devA x) (devA x))) (fillN cntA))
    (fillN (id (kc 0x7FC00000#32)))

/-- The normalised features. -/
def xhatA (x : FVec Ideal S5000x5000 .f32) (g b : FVec Ideal S5000 .f32) : FVec Ideal S5000x5000 .f32 :=
  addf (mulf (Host.divf (subf x (rowsN (meanA x))) (rowsN (Host.sqrt (addf (varA x) (fillN (kc 0x3727C5AC#32)))))) (rowsN g))
    (rowsN b)

/-- The leaky rectifier on a 5000 × 128 array. -/
def leakyA (z : FVec Ideal S5000x128 .f32) (c : FVec Ideal S_ .f32) : FVec Ideal S5000x128 .f32 :=
  select (cmpf .oge z (fillD (kc 0x00000000#32))) z (mulf (fillD (id c)) z)

/-- The input projection. -/
def x0A (x : FVec Ideal S5000x5000 .f32) (g b : FVec Ideal S5000 .f32) (w : FVec Ideal S5000x128 .f32)
    (bi : FVec Ideal S128 .f32) : FVec Ideal S5000x128 .f32 :=
  leakyA (addf (Host.dotGeneral dot_S5000x5000_S5000x128_S5000x128_1_0_0_1_n_n none (xhatA x g b) w) (rowsD bi))
    (kc 0x3C23D70A#32)

/-- The even mix of one propagation step with the initial features. -/
def mixA (net : FVec Ideal S5000x5000 .f32) (h x0 : FVec Ideal S5000x128 .f32) : FVec Ideal S5000x128 .f32 :=
  addf (mulf (fillD (kc 0x3F000000#32)) (Host.dotGeneral dot_S5000x5000_S5000x128_S5000x128_1_0_0_1_n_n none net h))
    (mulf (fillD (kc 0x3F000000#32)) x0)

/-- The rectifier. -/
abbrev reluA (z : FVec Ideal S5000x128 .f32) : FVec Ideal S5000x128 .f32 := maximumf z (fillD (kc 0x00000000#32))

/-- One layer from its mix. -/
def layerOfMixA (b1 b2 : BitVec 32) (s : FVec Ideal S5000x128 .f32) (W : FVec Ideal S128x128 .f32) : FVec Ideal S5000x128 .f32 :=
  reluA (addf (mulf (fillD (kc b1)) s)
    (mulf (fillD (kc b2)) (Host.dotGeneral dot_S5000x128_S128x128_S5000x128_1_0_0_1_n_n none s W)))

/-- One layer. -/
def layerA (b1 b2 : BitVec 32) (net : FVec Ideal S5000x5000 .f32) (h x0 : FVec Ideal S5000x128 .f32)
    (W : FVec Ideal S128x128 .f32) : FVec Ideal S5000x128 .f32 :=
  layerOfMixA b1 b2 (mixA net h x0) W

/-- The head. -/
def headA (h0 h1 : FVec Ideal S5000x128 .f32) (Wc : FVec Ideal S256x128 .f32) (bc : FVec Ideal S128 .f32)
    (Wo : FVec Ideal S128x5000 .f32) (bo : FVec Ideal S5000 .f32) : FVec Ideal S5000x5000 .f32 :=
  addf (Host.dotGeneral dot_S5000x128_S128x5000_S5000x5000_1_0_0_1_n_n none
      (leakyA (addf (Host.dotGeneral dot_S5000x256_S256x128_S5000x128_1_0_0_1_n_n none
          (concatenate S5000x256 1 [⟨S5000x128, h0⟩, ⟨S5000x128, h1⟩] concatenates_S5000x128_S5000x128_S5000x256_d1) Wc)
        (rowsD bc)) (kc 0x3C23D70A#32)) Wo)
    (rowsN bo)

/-! ## At an index -/

theorem colSumA_apply (x : FVec Ideal S5000x5000 .f32) (k : Fin 5000) : colSumA x (ix1 k) = ∑ r : Fin 5000, x (ix2 r k) := by
  show Host.reduceAdd x (kc 0x00000000#32) reducesTo_S5000x5000_S5000_d0 h_S_ (ix1 k) = _
  rw [hostReduceAdd_apply, Ideal.hostReduceAdd_single reducesTo_S5000x5000_S5000_d0 (by decide)]
  rw [show (kc 0x00000000#32) (Shape.Idx.first h_S_) = 0 from Ideal.ofBits_zero_f32, zero_add]
  refine Finset.sum_congr rfl fun r _ => congrArg x ?_
  funext a
  match a with
  | ⟨0, _⟩ => rfl
  | ⟨1, _⟩ => rfl

theorem rowsN_apply (y : FVec Ideal S5000 .f32) (r k : Fin 5000) : rowsN y (ix2 r k) = y (ix1 k) :=
  rows_apply bcast_S5000_S1x5000_1 bcast_S1x5000_S5000x5000_0_1 y r k

theorem rowsD_apply (y : FVec Ideal S128 .f32) (r : Fin 5000) (j : Fin 128) : rowsD y (ix2 r j) = y (ix1 j) :=
  rows_apply bcast_S128_S1x128_1 bcast_S1x128_S5000x128_0_1 y r j

theorem fillD_apply (c : FVec Ideal S_ .f32) (i : S5000x128.Idx) : fillD c i = c ix0 :=
  broadcastInDim_scalar_apply bcast_S_S5000x128 c i

theorem fillN_apply (c : FVec Ideal S_ .f32) (i : S5000.Idx) : fillN c i = c ix0 :=
  broadcastInDim_scalar_apply bcast_S_S5000 c i

theorem meanA_apply (x : FVec Ideal S5000x5000 .f32) (k : Fin 5000) :
    meanA x (ix1 k) = Ideal.div (∑ r : Fin 5000, x (ix2 r k)) (lit 0x459C4000#32) := by
  show Ideal.div (colSumA x (ix1 k)) (fillN (kc 0x459C4000#32) (ix1 k)) = _
  rw [colSumA_apply, fillN_apply]; rfl

theorem devA_apply (x : FVec Ideal S5000x5000 .f32) (r k : Fin 5000) :
    devA x (ix2 r k) = x (ix2 r k) - Ideal.div (∑ r' : Fin 5000, x (ix2 r' k)) (lit 0x459C4000#32) := by
  show x (ix2 r k) - broadcastInDim S5000x5000 ![0, 1] bcast_S1x5000_S5000x5000_0_1
    (Host.divf (broadcastInDim S1x5000 ![1] bcast_S5000_S1x5000_1 (colSumA x))
      (broadcastInDim S1x5000 ![] bcast_S_S1x5000 (kc 0x459C4000#32))) (ix2 r k) = _
  rw [broadcastInDim_oneRow_apply]
  show x (ix2 r k) - Ideal.div (broadcastInDim S1x5000 ![1] bcast_S5000_S1x5000_1 (colSumA x) (ix2 0 k))
    (broadcastInDim S1x5000 ![] bcast_S_S1x5000 (kc 0x459C4000#32) (ix2 0 k)) = _
  rw [row_apply, colSumA_apply, broadcastInDim_scalar_apply]; rfl

theorem varA_apply (x : FVec Ideal S5000x5000 .f32) (k : Fin 5000) :
    varA x (ix1 k) = Ideal.div (∑ r : Fin 5000,
        (x (ix2 r k) - Ideal.div (∑ r' : Fin 5000, x (ix2 r' k)) (lit 0x459C4000#32))
          * (x (ix2 r k) - Ideal.div (∑ r' : Fin 5000, x (ix2 r' k)) (lit 0x459C4000#32))) cntR := by
  show Scalar.select (broadcastInDim S5000 ![] bcast_S_S5000 (cmpf .ogt cntA (kc 0x00000000#32)) (ix1 k))
    (Ideal.div (colSumA (mulf (devA x) (devA x)) (ix1 k)) (fillN cntA (ix1 k))) (fillN (id (kc 0x7FC00000#32)) (ix1 k)) = _
  rw [broadcastInDim_scalar_apply, fillN_apply, colSumA_apply]
  have ht : (cmpf .ogt cntA (kc 0x00000000#32) : IVec S_ 1) ix0 = 1#1 := cnt_test
  have hc : (cntA : FVec Ideal S_ .f32) ix0 = cntR := cnt_eq
  rw [ht, hc, select_one]
  congr 1
  refine Finset.sum_congr rfl fun r _ => ?_
  show devA x (ix2 r k) * devA x (ix2 r k) = _
  rw [devA_apply]

theorem xhatA_apply (x : FVec Ideal S5000x5000 .f32) (g b : FVec Ideal S5000 .f32) (r k : Fin 5000) :
    xhatA x g b (ix2 r k) = Ideal.div (x (ix2 r k) - meanA x (ix1 k))
      (Ideal.sqrt (varA x (ix1 k) + lit 0x3727C5AC#32)) * g (ix1 k) + b (ix1 k) := by
  show Ideal.div (x (ix2 r k) - rowsN (meanA x) (ix2 r k))
      (rowsN (Host.sqrt (addf (varA x) (fillN (kc 0x3727C5AC#32)))) (ix2 r k)) * rowsN g (ix2 r k) + rowsN b (ix2 r k) = _
  rw [rowsN_apply, rowsN_apply, rowsN_apply, rowsN_apply]
  show Ideal.div (x (ix2 r k) - meanA x (ix1 k))
      (Ideal.sqrt (varA x (ix1 k) + fillN (kc 0x3727C5AC#32) (ix1 k))) * g (ix1 k) + b (ix1 k) = _
  rw [fillN_apply]; rfl

theorem leakyA_apply (z : FVec Ideal S5000x128 .f32) (i : S5000x128.Idx) :
    leakyA z (kc 0x3C23D70A#32) i = leaky (z i) := by
  show Scalar.select (Ideal.cmp .oge (z i) (fillD (kc 0x00000000#32) i)) (z i) (fillD (id (kc 0x3C23D70A#32)) i * z i) = _
  rw [fillD_apply, fillD_apply]
  exact leaky_select (z i)

end Cert.ReferenceIdeal.RefValue

end
-- ==== Proof.Ref.ValIdx.lean ====
/-
  The reference's composite arrays at an index, as the specification's formulas: the views of the stacked arguments,
  the input projection, one propagation layer, the head.
-/
import proofs.«129426_g120259084709_cont_main3_741_6_alg».proof.Proof.Ref.ValArr

noncomputable section

namespace Cert.ReferenceIdeal.RefValue

open Idealize.ShloMosaic Idealize.ShloMosaic.ValueIdx Cert.Spec Cert.SpecRef

variable [Facts]
open Facts₀

/-! ## Views of the stacked arguments -/

abbrev xView (o : Nat) (h : S2x5000x5000.Slices ![o, 0, 0] S1x5000x5000) (X : FVec Ideal S2x5000x5000 .f32) :
    FVec Ideal S5000x5000 .f32 :=
  shapeCast S5000x5000 (extractStridedSlice S1x5000x5000 ![o, 0, 0] X h) shapeCasts_S1x5000x5000_S5000x5000
abbrev gView (o : Nat) (h : S2x5000.Slices ![o, 0] S1x5000) (G : FVec Ideal S2x5000 .f32) : FVec Ideal S5000 .f32 :=
  shapeCast S5000 (extractStridedSlice S1x5000 ![o, 0] G h) shapeCasts_S1x5000_S5000
abbrev wView (o : Nat) (h : S2x5000x128.Slices ![o, 0, 0] S1x5000x128) (W : FVec Ideal S2x5000x128 .f32) :
    FVec Ideal S5000x128 .f32 :=
  shapeCast S5000x128 (extractStridedSlice S1x5000x128 ![o, 0, 0] W h) shapeCasts_S1x5000x128_S5000x128
abbrev bView (o : Nat) (h : S2x128.Slices ![o, 0] S1x128) (b : FVec Ideal S2x128 .f32) : FVec Ideal S128 .f32 :=
  shapeCast S128 (extractStridedSlice S1x128 ![o, 0] b h) shapeCasts_S1x128_S128
abbrev mView (o l : Nat) (h : S2x8x128x128.Slices ![o, l, 0, 0] S1x1x128x128) (Wg : FVec Ideal S2x8x128x128 .f32) :
    FVec Ideal S128x128 .f32 :=
  shapeCast S128x128 (extractStridedSlice S1x1x128x128 ![o, l, 0, 0] Wg h) shapeCasts_S1x1x128x128_S128x128

section Views
variable (o : Nat) (v : Fin 2) (hv : v.val = o)
include hv

theorem xView_apply (h) (X : FVec Ideal S2x5000x5000 .f32) (r k : Fin 5000) : xView o h X (ix2 r k) = X (ix3 v r k) :=
  view3_apply o X h _ v hv r k
theorem gView_apply (h) (G : FVec Ideal S2x5000 .f32) (k : Fin 5000) : gView o h G (ix1 k) = G (ix2 v k) :=
  view2_apply o G h _ v hv k
theorem wView_apply (h) (W : FVec Ideal S2x5000x128 .f32) (k : Fin 5000) (j : Fin 128) : wView o h W (ix2 k j) = W (ix3 v k j) :=
  view3_apply o W h _ v hv k j
theorem bView_apply (h) (b : FVec Ideal S2x128 .f32) (j : Fin 128) : bView o h b (ix1 j) = b (ix2 v j) :=
  view2_apply o b h _ v hv j
theorem mView_apply (l : Nat) (w : Fin 8) (hw : w.val = l) (h) (Wg : FVec Ideal S2x8x128x128 .f32) (q j : Fin 128) :
    mView o l h Wg (ix2 q j) = Wg (ix4 v w q j) :=
  view4_apply o l Wg h _ v hv w hw q j

end Views

/-! ## Products -/

theorem dotN_apply (l : FVec Ideal S5000x5000 .f32) (r : FVec Ideal S5000x128 .f32) (p : Fin 5000) (j : Fin 128) :
    Host.dotGeneral dot_S5000x5000_S5000x128_S5000x128_1_0_0_1_n_n none l r (ix2 p j) = ∑ q : Fin 5000, l (ix2 p q) * r (ix2 q j) :=
  Cert.PlainDot.dotGeneral_ix2 _ rfl none l r p j
theorem dotD_apply (l : FVec Ideal S5000x128 .f32) (r : FVec Ideal S128x128 .f32) (p : Fin 5000) (j : Fin 128) :
    Host.dotGeneral dot_S5000x128_S128x128_S5000x128_1_0_0_1_n_n none l r (ix2 p j) = ∑ q : Fin 128, l (ix2 p q) * r (ix2 q j) :=
  Cert.PlainDot.dotGeneral_ix2 _ rfl none l r p j
theorem dotC_apply (l : FVec Ideal S5000x256 .f32) (r : FVec Ideal S256x128 .f32) (p : Fin 5000) (j : Fin 128) :
    Host.dotGeneral dot_S5000x256_S256x128_S5000x128_1_0_0_1_n_n none l r (ix2 p j) = ∑ q : Fin 256, l (ix2 p q) * r (ix2 q j) :=
  Cert.PlainDot.dotGeneral_ix2 _ rfl none l r p j
theorem dotO_apply (l : FVec Ideal S5000x128 .f32) (r : FVec Ideal S128x5000 .f32) (p : Fin 5000) (j : Fin 5000) :
    Host.dotGeneral dot_S5000x128_S128x5000_S5000x5000_1_0_0_1_n_n none l r (ix2 p j) = ∑ q : Fin 128, l (ix2 p q) * r (ix2 q j) :=
  Cert.PlainDot.dotGeneral_ix2 _ rfl none l r p j

/-! ## The input projection -/

theorem x0A_apply (x : FVec Ideal S5000x5000 .f32) (g b : FVec Ideal S5000 .f32) (w : FVec Ideal S5000x128 .f32)
    (bi : FVec Ideal S128 .f32) (r : Fin 5000) (j : Fin 128) :
    x0A x g b w bi (ix2 r j) = leaky ((∑ k : Fin 5000, xhatA x g b (ix2 r k) * w (ix2 k j)) + bi (ix1 j)) := by
  unfold x0A
  rw [leakyA_apply]
  show leaky (Host.dotGeneral dot_S5000x5000_S5000x128_S5000x128_1_0_0_1_n_n none (xhatA x g b) w (ix2 r j) + rowsD bi (ix2 r j)) = _
  rw [dotN_apply, rowsD_apply]

/-- The input projection of view `v` is the specification's, on the reference's normalisation. -/
theorem x0A_view (o : Nat) (v : Fin 2) (hv : v.val = o) (hX hG hW hb)
    (X : FVec Ideal S2x5000x5000 .f32) (G B : FVec Ideal S2x5000 .f32) (W : FVec Ideal S2x5000x128 .f32)
    (bi : FVec Ideal S2x128 .f32) (r : Fin 5000) (j : Fin 128) :
    x0A (xView o hX X) (gView o hG G) (gView o hG B) (wView o hW W) (bView o hb bi) (ix2 r j)
      = X0R (fun v r k => X (ix3 v r k)) (fun v k => G (ix2 v k)) (fun v k => B (ix2 v k)) (fun v k j => W (ix3 v k j))
          (fun v j => bi (ix2 v j)) v r j := by
  rw [x0A_apply, bView_apply o v hv]
  unfold X0R
  congr 2
  refine Finset.sum_congr rfl fun k _ => ?_
  rw [xhatA_apply, meanA_apply, varA_apply, wView_apply o v hv, gView_apply o v hv, gView_apply o v hv]
  simp only [xView_apply o v hv]
  rfl

/-! ## One layer -/

theorem mixA_apply (net : FVec Ideal S5000x5000 .f32) (h x0 : FVec Ideal S5000x128 .f32) (r : Fin 5000) (j : Fin 128) :
    mixA net h x0 (ix2 r j)
      = lit 0x3F000000#32 * (∑ k : Fin 5000, net (ix2 r k) * h (ix2 k j)) + lit 0x3F000000#32 * x0 (ix2 r j) := by
  show fillD (kc 0x3F000000#32) (ix2 r j) * Host.dotGeneral dot_S5000x5000_S5000x128_S5000x128_1_0_0_1_n_n none net h (ix2 r j)
    + fillD (kc 0x3F000000#32) (ix2 r j) * x0 (ix2 r j) = _
  rw [fillD_apply, dotN_apply]; rfl

theorem layerOfMixA_apply (b1 b2 : BitVec 32) (s : FVec Ideal S5000x128 .f32) (W : FVec Ideal S128x128 .f32)
    (r : Fin 5000) (j : Fin 128) :
    layerOfMixA b1 b2 s W (ix2 r j)
      = max (lit b1 * s (ix2 r j) + lit b2 * ∑ q : Fin 128, s (ix2 r q) * W (ix2 q j)) (lit 0x00000000#32) := by
  show max (fillD (kc b1) (ix2 r j) * s (ix2 r j)
    + fillD (kc b2) (ix2 r j) * Host.dotGeneral dot_S5000x128_S128x128_S5000x128_1_0_0_1_n_n none s W (ix2 r j))
      (fillD (kc 0x00000000#32) (ix2 r j)) = _
  rw [fillD_apply, fillD_apply, fillD_apply, dotD_apply]; rfl

/-- One layer of view `v`: if the operand arrays read as the specification's functions at view `v`, so does the layer. -/
theorem layerA_spec (b1 b2 : BitVec 32) (netA : FVec Ideal S5000x5000 .f32) (hA xA : FVec Ideal S5000x128 .f32)
    (WA : FVec Ideal S128x128 .f32) (net : Fin 2 → Fin 5000 → Fin 5000 → EReal) (h x0 : Fin 2 → Fin 5000 → Fin 128 → EReal)
    (W : Fin 2 → Fin 128 → Fin 128 → EReal) (v : Fin 2)
    (hnet : ∀ r k, netA (ix2 r k) = net v r k) (hh : ∀ k j, hA (ix2 k j) = h v k j) (hx : ∀ r j, xA (ix2 r j) = x0 v r j)
    (hW : ∀ q j, WA (ix2 q j) = W v q j) (r : Fin 5000) (j : Fin 128) :
    layerA b1 b2 netA hA xA WA (ix2 r j) = layer net h x0 W b1 b2 v r j := by
  unfold layerA
  rw [layerOfMixA_apply]
  unfold layer mix prop
  simp only [mixA_apply, hnet, hh, hx, hW]

/-! ## The head -/

theorem hiddenA_apply (h0 h1 : FVec Ideal S5000x128 .f32) (r : Fin 5000) (q : Fin 256) :
    concatenate S5000x256 1 [⟨S5000x128, h0⟩, ⟨S5000x128, h1⟩] concatenates_S5000x128_S5000x128_S5000x256_d1 (ix2 r q)
      = if hq : q.val < 128 then h0 (ix2 r ⟨q.val, hq⟩) else h1 (ix2 r ⟨q.val - 128, by omega⟩) := by
  split_ifs with hq
  · exact concatenate_pair_apply_left 1 h0 h1 _ (ix2 r q) rfl (ix2 r ⟨q.val, hq⟩)
      (fun b => by match b with | ⟨0, _⟩ => rfl | ⟨1, _⟩ => rfl)
  · exact concatenate_pair_apply_right 1 h0 h1 _ (ix2 r q) rfl rfl (ix2 r ⟨q.val - 128, by omega⟩)
      (fun b hb => by
        match b with
        | ⟨0, _⟩ => rfl
        | ⟨1, _⟩ => exact absurd rfl hb)
      (by show q.val - 128 + 128 = q.val; omega)

theorem headA_apply (h0 h1 : FVec Ideal S5000x128 .f32) (Wc : FVec Ideal S256x128 .f32) (bc : FVec Ideal S128 .f32)
    (Wo : FVec Ideal S128x5000 .f32) (bo : FVec Ideal S5000 .f32) (hf : Fin 2 → Fin 5000 → Fin 128 → EReal)
    (e0 : ∀ r j, h0 (ix2 r j) = hf 0 r j) (e1 : ∀ r j, h1 (ix2 r j) = hf 1 r j) (r t : Fin 5000) :
    headA h0 h1 Wc bc Wo bo (ix2 r t)
      = pred (hidden hf) (fun q j => Wc (ix2 q j)) (fun j => bc (ix1 j)) (fun j t => Wo (ix2 j t)) (fun t => bo (ix1 t)) r t := by
  show Host.dotGeneral dot_S5000x128_S128x5000_S5000x5000_1_0_0_1_n_n none _ Wo (ix2 r t) + rowsN bo (ix2 r t) = _
  rw [dotO_apply, rowsN_apply]
  unfold pred emb
  refine congrArg₂ (· + ·) (Finset.sum_congr rfl fun j _ => ?_) rfl
  rw [leakyA_apply]
  refine congrArg₂ (· * ·) (congrArg leaky ?_) rfl
  show Host.dotGeneral dot_S5000x256_S256x128_S5000x128_1_0_0_1_n_n none _ Wc (ix2 r j) + rowsD bc (ix2 r j) = _
  rw [dotC_apply, rowsD_apply]
  refine congrArg₂ (· + ·) (Finset.sum_congr rfl fun q _ => ?_) rfl
  rw [hiddenA_apply]
  unfold Spec.hidden
  simp only [e0, e1]

end Cert.ReferenceIdeal.RefValue

end
-- ==== Proof.Ref.ValStages.lean ====
/-
  The reference's stages as whole arrays over a valuation of the argument buffers: per view the input projection and
  the eight layers, then the result; and the argument arrays read by coordinates.
-/
import proofs.«129426_g120259084709_cont_main3_741_6_alg».proof.Proof.Gen.ReferenceIdeal
import proofs.«129426_g120259084709_cont_main3_741_6_alg».proof.Proof.Ref.ValIdx

noncomputable section

namespace Cert.ReferenceIdeal.RefValue

open Cert.ReferenceIdeal Idealize.ShloMosaic Idealize.ShloMosaic.TcCoe Idealize.SL.Sem
open Idealize.ShloMosaic.ValueIdx Cert.Spec Cert.SpecRef
open Facts₀

/-! ## The four products at their operand types -/

abbrev dotNA (l : FVec Ideal S5000x5000 .f32) (r : FVec Ideal S5000x128 .f32) : FVec Ideal S5000x128 .f32 :=
  Host.dotGeneral dot_S5000x5000_S5000x128_S5000x128_1_0_0_1_n_n none l r
abbrev dotDA (l : FVec Ideal S5000x128 .f32) (r : FVec Ideal S128x128 .f32) : FVec Ideal S5000x128 .f32 :=
  Host.dotGeneral dot_S5000x128_S128x128_S5000x128_1_0_0_1_n_n none l r
abbrev dotCA (l : FVec Ideal S5000x256 .f32) (r : FVec Ideal S256x128 .f32) : FVec Ideal S5000x128 .f32 :=
  Host.dotGeneral dot_S5000x256_S256x128_S5000x128_1_0_0_1_n_n none l r
abbrev dotOA (l : FVec Ideal S5000x128 .f32) (r : FVec Ideal S128x5000 .f32) : FVec Ideal S5000x5000 .f32 :=
  Host.dotGeneral dot_S5000x128_S128x5000_S5000x5000_1_0_0_1_n_n none l r

/-! ## The argument arrays by coordinates -/

section Args
variable (V : Valuation τ sig (Elt Ideal))

def argX : Fin 2 → Fin 5000 → Fin 5000 → EReal := fun v r k => (V (Proc.devRef .tc main_arg0) : FVec Ideal S2x5000x5000 .f32) (ix3 v r k)
def argNet : Fin 2 → Fin 5000 → Fin 5000 → EReal := fun v r k => (V (Proc.devRef .tc main_arg1) : FVec Ideal S2x5000x5000 .f32) (ix3 v r k)
def argG : Fin 2 → Fin 5000 → EReal := fun v k => (V (Proc.devRef .tc main_arg2) : FVec Ideal S2x5000 .f32) (ix2 v k)
def argB : Fin 2 → Fin 5000 → EReal := fun v k => (V (Proc.devRef .tc main_arg3) : FVec Ideal S2x5000 .f32) (ix2 v k)
def argWin : Fin 2 → Fin 5000 → Fin 128 → EReal := fun v k j => (V (Proc.devRef .tc main_arg4) : FVec Ideal S2x5000x128 .f32) (ix3 v k j)
def argBin : Fin 2 → Fin 128 → EReal := fun v j => (V (Proc.devRef .tc main_arg5) : FVec Ideal S2x128 .f32) (ix2 v j)
def argWg : Fin 2 → Fin 8 → Fin 128 → Fin 128 → EReal := fun v l q j => (V (Proc.devRef .tc main_arg6) : FVec Ideal S2x8x128x128 .f32) (ix4 v l q j)
def argWc : Fin 256 → Fin 128 → EReal := fun q j => (V (Proc.devRef .tc main_arg7) : FVec Ideal S256x128 .f32) (ix2 q j)
def argBc : Fin 128 → EReal := fun j => (V (Proc.devRef .tc main_arg8) : FVec Ideal S128 .f32) (ix1 j)
def argWo : Fin 128 → Fin 5000 → EReal := fun j t => (V (Proc.devRef .tc main_arg9) : FVec Ideal S128x5000 .f32) (ix2 j t)
def argBo : Fin 5000 → EReal := fun t => (V (Proc.devRef .tc main_arg10) : FVec Ideal S5000 .f32) (ix1 t)

/-! ## The stages -/

/-- View 0: the adjacency array, the layer weights, the input projection. -/
abbrev netV0 : FVec Ideal S5000x5000 .f32 := xView 0 slices_S2x5000x5000_S1x5000x5000_0_0_0 (V (Proc.devRef .tc main_arg1))
abbrev mV0_0 : FVec Ideal S128x128 .f32 := mView 0 0 slices_S2x8x128x128_S1x1x128x128_0_0_0_0 (V (Proc.devRef .tc main_arg6))
abbrev mV0_1 : FVec Ideal S128x128 .f32 := mView 0 1 slices_S2x8x128x128_S1x1x128x128_0_1_0_0 (V (Proc.devRef .tc main_arg6))
abbrev mV0_2 : FVec Ideal S128x128 .f32 := mView 0 2 slices_S2x8x128x128_S1x1x128x128_0_2_0_0 (V (Proc.devRef .tc main_arg6))
abbrev mV0_3 : FVec Ideal S128x128 .f32 := mView 0 3 slices_S2x8x128x128_S1x1x128x128_0_3_0_0 (V (Proc.devRef .tc main_arg6))
abbrev mV0_4 : FVec Ideal S128x128 .f32 := mView 0 4 slices_S2x8x128x128_S1x1x128x128_0_4_0_0 (V (Proc.devRef .tc main_arg6))
abbrev mV0_5 : FVec Ideal S128x128 .f32 := mView 0 5 slices_S2x8x128x128_S1x1x128x128_0_5_0_0 (V (Proc.devRef .tc main_arg6))
abbrev mV0_6 : FVec Ideal S128x128 .f32 := mView 0 6 slices_S2x8x128x128_S1x1x128x128_0_6_0_0 (V (Proc.devRef .tc main_arg6))
abbrev mV0_7 : FVec Ideal S128x128 .f32 := mView 0 7 slices_S2x8x128x128_S1x1x128x128_0_7_0_0 (V (Proc.devRef .tc main_arg6))
abbrev xhatV0 : FVec Ideal S5000x5000 .f32 :=
  xhatA (xView 0 slices_S2x5000x5000_S1x5000x5000_0_0_0 (V (Proc.devRef .tc main_arg0)))
    (gView 0 slices_S2x5000_S1x5000_0_0 (V (Proc.devRef .tc main_arg2))) (gView 0 slices_S2x5000_S1x5000_0_0 (V (Proc.devRef .tc main_arg3)))
def X0V0 : FVec Ideal S5000x128 .f32 :=
  x0A (xView 0 slices_S2x5000x5000_S1x5000x5000_0_0_0 (V (Proc.devRef .tc main_arg0)))
    (gView 0 slices_S2x5000_S1x5000_0_0 (V (Proc.devRef .tc main_arg2))) (gView 0 slices_S2x5000_S1x5000_0_0 (V (Proc.devRef .tc main_arg3)))
    (wView 0 slices_S2x5000x128_S1x5000x128_0_0_0 (V (Proc.devRef .tc main_arg4))) (bView 0 slices_S2x128_S1x128_0_0 (V (Proc.devRef .tc main_arg5)))
def H0_1 : FVec Ideal S5000x128 .f32 := layerA 0x3F183370#32 0x3ECF991F#32 (netV0 V) (X0V0 V) (X0V0 V) (mV0_0 V)
def H0_2 : FVec Ideal S5000x128 .f32 := layerA 0x3F46E010#32 0x3E647FBE#32 (netV0 V) (H0_1 V) (X0V0 V) (mV0_1 V)
def H0_3 : FVec Ideal S5000x128 .f32 := layerA 0x3F588995#32 0x3E1DD9AD#32 (netV0 V) (H0_2 V) (X0V0 V) (mV0_2 V)
def H0_4 : FVec Ideal S5000x128 .f32 := layerA 0x3F61D8F9#32 0x3DF1383B#32 (netV0 V) (H0_3 V) (X0V0 V) (mV0_3 V)
def H0_5 : FVec Ideal S5000x128 .f32 := layerA 0x3F6799C1#32 0x3DC331FC#32 (netV0 V) (H0_4 V) (X0V0 V) (mV0_4 V)
def H0_6 : FVec Ideal S5000x128 .f32 := layerA 0x3F6B8252#32 0x3DA3ED6E#32 (netV0 V) (H0_5 V) (X0V0 V) (mV0_5 V)
def H0_7 : FVec Ideal S5000x128 .f32 := layerA 0x3F6E567C#32 0x3D8D4C22#32 (netV0 V) (H0_6 V) (X0V0 V) (mV0_6 V)
def H0_8 : FVec Ideal S5000x128 .f32 := layerA 0x3F707AE8#32 0x3D785186#32 (netV0 V) (H0_7 V) (X0V0 V) (mV0_7 V)

/-- View 1: the adjacency array, the layer weights, the input projection. -/
abbrev netV1 : FVec Ideal S5000x5000 .f32 := xView 1 slices_S2x5000x5000_S1x5000x5000_1_0_0 (V (Proc.devRef .tc main_arg1))
abbrev mV1_0 : FVec Ideal S128x128 .f32 := mView 1 0 slices_S2x8x128x128_S1x1x128x128_1_0_0_0 (V (Proc.devRef .tc main_arg6))
abbrev mV1_1 : FVec Ideal S128x128 .f32 := mView 1 1 slices_S2x8x128x128_S1x1x128x128_1_1_0_0 (V (Proc.devRef .tc main_arg6))
abbrev mV1_2 : FVec Ideal S128x128 .f32 := mView 1 2 slices_S2x8x128x128_S1x1x128x128_1_2_0_0 (V (Proc.devRef .tc main_arg6))
abbrev mV1_3 : FVec Ideal S128x128 .f32 := mView 1 3 slices_S2x8x128x128_S1x1x128x128_1_3_0_0 (V (Proc.devRef .tc main_arg6))
abbrev mV1_4 : FVec Ideal S128x128 .f32 := mView 1 4 slices_S2x8x128x128_S1x1x128x128_1_4_0_0 (V (Proc.devRef .tc main_arg6))
abbrev mV1_5 : FVec Ideal S128x128 .f32 := mView 1 5 slices_S2x8x128x128_S1x1x128x128_1_5_0_0 (V (Proc.devRef .tc main_arg6))
abbrev mV1_6 : FVec Ideal S128x128 .f32 := mView 1 6 slices_S2x8x128x128_S1x1x128x128_1_6_0_0 (V (Proc.devRef .tc main_arg6))
abbrev mV1_7 : FVec Ideal S128x128 .f32 := mView 1 7 slices_S2x8x128x128_S1x1x128x128_1_7_0_0 (V (Proc.devRef .tc main_arg6))
abbrev xhatV1 : FVec Ideal S5000x5000 .f32 :=
  xhatA (xView 1 slices_S2x5000x5000_S1x5000x5000_1_0_0 (V (Proc.devRef .tc main_arg0)))
    (gView 1 slices_S2x5000_S1x5000_1_0 (V (Proc.devRef .tc main_arg2))) (gView 1 slices_S2x5000_S1x5000_1_0 (V (Proc.devRef .tc main_arg3)))
def X0V1 : FVec Ideal S5000x128 .f32 :=
  x0A (xView 1 slices_S2x5000x5000_S1x5000x5000_1_0_0 (V (Proc.devRef .tc main_arg0)))
    (gView 1 slices_S2x5000_S1x5000_1_0 (V (Proc.devRef .tc main_arg2))) (gView 1 slices_S2x5000_S1x5000_1_0 (V (Proc.devRef .tc main_arg3)))
    (wView 1 slices_S2x5000x128_S1x5000x128_1_0_0 (V (Proc.devRef .tc main_arg4))) (bView 1 slices_S2x128_S1x128_1_0 (V (Proc.devRef .tc main_arg5)))
def H1_1 : FVec Ideal S5000x128 .f32 := layerA 0x3F183370#32 0x3ECF991F#32 (netV1 V) (X0V1 V) (X0V1 V) (mV1_0 V)
def H1_2 : FVec Ideal S5000x128 .f32 := layerA 0x3F46E010#32 0x3E647FBE#32 (netV1 V) (H1_1 V) (X0V1 V) (mV1_1 V)
def H1_3 : FVec Ideal S5000x128 .f32 := layerA 0x3F588995#32 0x3E1DD9AD#32 (netV1 V) (H1_2 V) (X0V1 V) (mV1_2 V)
def H1_4 : FVec Ideal S5000x128 .f32 := layerA 0x3F61D8F9#32 0x3DF1383B#32 (netV1 V) (H1_3 V) (X0V1 V) (mV1_3 V)
def H1_5 : FVec Ideal S5000x128 .f32 := layerA 0x3F6799C1#32 0x3DC331FC#32 (netV1 V) (H1_4 V) (X0V1 V) (mV1_4 V)
def H1_6 : FVec Ideal S5000x128 .f32 := layerA 0x3F6B8252#32 0x3DA3ED6E#32 (netV1 V) (H1_5 V) (X0V1 V) (mV1_5 V)
def H1_7 : FVec Ideal S5000x128 .f32 := layerA 0x3F6E567C#32 0x3D8D4C22#32 (netV1 V) (H1_6 V) (X0V1 V) (mV1_6 V)
def H1_8 : FVec Ideal S5000x128 .f32 := layerA 0x3F707AE8#32 0x3D785186#32 (netV1 V) (H1_7 V) (X0V1 V) (mV1_7 V)

/-- The result array. -/
def refArr : FVec Ideal S5000x5000 .f32 :=
  headA (H0_8 V) (H1_8 V) (V (Proc.devRef .tc main_arg7)) (V (Proc.devRef .tc main_arg8)) (V (Proc.devRef .tc main_arg9))
    (V (Proc.devRef .tc main_arg10))

end Args

end Cert.ReferenceIdeal.RefValue

end
-- ==== Proof.Ref.Win0.lean ====
/-
  What window 0 of the reference leaves in the buffers later windows read, as whole arrays over the contents before it.
-/
import proofs.«129426_g120259084709_cont_main3_741_6_alg».proof.Proof.Ref.Ops0
import proofs.«129426_g120259084709_cont_main3_741_6_alg».proof.Proof.Ref.ValStages

set_option maxHeartbeats 4000000
set_option maxRecDepth 8192
noncomputable section

namespace Cert.ReferenceIdeal.RefValue

open Cert.ReferenceIdeal Cert.ReferenceIdeal.RefRun Idealize.ShloMosaic Idealize.ShloMosaic.TcCoe Idealize.SL.Sem
open Idealize.ShloMosaic.StableHlo Idealize.ShloMosaic.ValueIdx Cert.Spec Cert.SpecRef
open Facts₀

local notation "𝕍" => Valuation τ sig (Elt Ideal)

/-- View 0's input projection. -/
theorem win0_v33 (V : 𝕍) :
    after (ops0 (F := Ideal)) V (Proc.devRef .tc main_v33)
      = X0V0 V := by
  after_results_simp
  all_goals (unfold X0V0; rfl)

/-- View 0's first layer. -/
theorem win0_v50 (V : 𝕍) :
    after (ops0 (F := Ideal)) V (Proc.devRef .tc main_v50)
      = H0_1 V := by
  after_results_simp
  all_goals (unfold H0_1 X0V0; rfl)

end Cert.ReferenceIdeal.RefValue

end
-- ==== Proof.Ref.Win1.lean ====
/-
  What window 1 of the reference leaves in the buffers later windows read, as whole arrays over the contents before it.
-/
import proofs.«129426_g120259084709_cont_main3_741_6_alg».proof.Proof.Ref.Ops1
import proofs.«129426_g120259084709_cont_main3_741_6_alg».proof.Proof.Ref.ValStages

set_option maxHeartbeats 4000000
set_option maxRecDepth 8192
noncomputable section

namespace Cert.ReferenceIdeal.RefValue

open Cert.ReferenceIdeal Cert.ReferenceIdeal.RefRun Idealize.ShloMosaic Idealize.ShloMosaic.TcCoe Idealize.SL.Sem
open Idealize.ShloMosaic.StableHlo Idealize.ShloMosaic.ValueIdx Cert.Spec Cert.SpecRef
open Facts₀

local notation "𝕍" => Valuation τ sig (Elt Ideal)

/-- View 0, layer 4: the first coefficient times the mix of layer 3 with the projection. -/
theorem win1_v94 (V : 𝕍) :
    after (ops1 (F := Ideal)) V (Proc.devRef .tc main_v94)
      = mulf (fillD (kc 0x3F61D8F9#32)) (mixA (netV0 V) (layerA 0x3F588995#32 0x3E1DD9AD#32 (netV0 V) (layerA 0x3F46E010#32 0x3E647FBE#32 (netV0 V) (V (Proc.devRef .tc main_v50)) (V (Proc.devRef .tc main_v33)) (mV0_1 V)) (V (Proc.devRef .tc main_v33)) (mV0_2 V)) (V (Proc.devRef .tc main_v33))) := by
  after_results_simp
  all_goals rfl

/-- View 0, layer 4: the mix times the layer's weights. -/
theorem win1_v97 (V : 𝕍) :
    after (ops1 (F := Ideal)) V (Proc.devRef .tc main_v97)
      = dotDA (mixA (netV0 V) (layerA 0x3F588995#32 0x3E1DD9AD#32 (netV0 V) (layerA 0x3F46E010#32 0x3E647FBE#32 (netV0 V) (V (Proc.devRef .tc main_v50)) (V (Proc.devRef .tc main_v33)) (mV0_1 V)) (V (Proc.devRef .tc main_v33)) (mV0_2 V)) (V (Proc.devRef .tc main_v33))) (mV0_3 V) := by
  after_results_simp
  all_goals rfl

/-- View 0, layer 4: the second coefficient, filled. -/
theorem win1_v98 (V : 𝕍) :
    after (ops1 (F := Ideal)) V (Proc.devRef .tc main_v98)
      = fillD (kc 0x3DF1383B#32) := by
  after_results_simp
  all_goals rfl

end Cert.ReferenceIdeal.RefValue

end
-- ==== Proof.Ref.Win2.lean ====
/-
  What window 2 of the reference leaves in the buffers later windows read, as whole arrays over the contents before it.
-/
import proofs.«129426_g120259084709_cont_main3_741_6_alg».proof.Proof.Ref.Ops2
import proofs.«129426_g120259084709_cont_main3_741_6_alg».proof.Proof.Ref.ValStages

set_option maxHeartbeats 4000000
set_option maxRecDepth 8192
noncomputable section

namespace Cert.ReferenceIdeal.RefValue

open Cert.ReferenceIdeal Cert.ReferenceIdeal.RefRun Idealize.ShloMosaic Idealize.ShloMosaic.TcCoe Idealize.SL.Sem
open Idealize.ShloMosaic.StableHlo Idealize.ShloMosaic.ValueIdx Cert.Spec Cert.SpecRef
open Facts₀

local notation "𝕍" => Valuation τ sig (Elt Ideal)

/-- View 0, layer 7: the mix. -/
theorem win2_v143 (V : 𝕍) :
    after (ops2 (F := Ideal)) V (Proc.devRef .tc main_v143)
      = (mixA (netV0 V) (layerA 0x3F6B8252#32 0x3DA3ED6E#32 (netV0 V) (layerA 0x3F6799C1#32 0x3DC331FC#32 (netV0 V) (reluA (addf (V (Proc.devRef .tc main_v94)) (mulf (V (Proc.devRef .tc main_v98)) (V (Proc.devRef .tc main_v97))))) (V (Proc.devRef .tc main_v33)) (mV0_4 V)) (V (Proc.devRef .tc main_v33)) (mV0_5 V)) (V (Proc.devRef .tc main_v33))) := by
  after_results_simp
  all_goals rfl

/-- View 0, layer 7: the first coefficient times the mix. -/
theorem win2_v145 (V : 𝕍) :
    after (ops2 (F := Ideal)) V (Proc.devRef .tc main_v145)
      = mulf (fillD (kc 0x3F6E567C#32)) (mixA (netV0 V) (layerA 0x3F6B8252#32 0x3DA3ED6E#32 (netV0 V) (layerA 0x3F6799C1#32 0x3DC331FC#32 (netV0 V) (reluA (addf (V (Proc.devRef .tc main_v94)) (mulf (V (Proc.devRef .tc main_v98)) (V (Proc.devRef .tc main_v97))))) (V (Proc.devRef .tc main_v33)) (mV0_4 V)) (V (Proc.devRef .tc main_v33)) (mV0_5 V)) (V (Proc.devRef .tc main_v33))) := by
  after_results_simp
  all_goals rfl

/-- View 0, layer 7: the layer's weights. -/
theorem win2_v147 (V : 𝕍) :
    after (ops2 (F := Ideal)) V (Proc.devRef .tc main_v147)
      = (mV0_6 V) := by
  after_results_simp
  all_goals rfl

end Cert.ReferenceIdeal.RefValue

end
-- ==== Proof.Ref.Win3.lean ====
/-
  What window 3 of the reference leaves in the buffers later windows read, as whole arrays over the contents before it.
-/
import proofs.«129426_g120259084709_cont_main3_741_6_alg».proof.Proof.Ref.Ops3
import proofs.«129426_g120259084709_cont_main3_741_6_alg».proof.Proof.Ref.ValStages

set_option maxHeartbeats 4000000
set_option maxRecDepth 8192
noncomputable section

namespace Cert.ReferenceIdeal.RefValue

open Cert.ReferenceIdeal Cert.ReferenceIdeal.RefRun Idealize.ShloMosaic Idealize.ShloMosaic.TcCoe Idealize.SL.Sem
open Idealize.ShloMosaic.StableHlo Idealize.ShloMosaic.ValueIdx Cert.Spec Cert.SpecRef
open Facts₀

local notation "𝕍" => Valuation τ sig (Elt Ideal)

/-- View 0's last layer. -/
theorem win3_v169 (V : 𝕍) :
    after (ops3 (F := Ideal)) V (Proc.devRef .tc main_v169)
      = (layerA 0x3F707AE8#32 0x3D785186#32 (netV0 V) (reluA (addf (V (Proc.devRef .tc main_v145)) (mulf (fillD (kc 0x3D8D4C22#32)) (dotDA (V (Proc.devRef .tc main_v143)) (V (Proc.devRef .tc main_v147)))))) (V (Proc.devRef .tc main_v33)) (mV0_7 V)) := by
  after_results_simp
  all_goals rfl

/-- View 1: the normalised features times the input weights. -/
theorem win3_v197 (V : 𝕍) :
    after (ops3 (F := Ideal)) V (Proc.devRef .tc main_v197)
      = dotNA (xhatV1 V) (wView 1 slices_S2x5000x128_S1x5000x128_1_0_0 (V (Proc.devRef .tc main_arg4))) := by
  after_results_simp
  all_goals rfl

/-- View 1: the input bias row, still with its unit axis. -/
theorem win3_v198 (V : 𝕍) :
    after (ops3 (F := Ideal)) V (Proc.devRef .tc main_v198)
      = extractStridedSlice S1x128 ![1, 0] (V (Proc.devRef .tc main_arg5) : FVec Ideal S2x128 .f32) slices_S2x128_S1x128_1_0 := by
  after_results_simp
  all_goals rfl

end Cert.ReferenceIdeal.RefValue

end
-- ==== Proof.Ref.Win4.lean ====
/-
  What window 4 of the reference leaves in the buffers later windows read, as whole arrays over the contents before it.
-/
import proofs.«129426_g120259084709_cont_main3_741_6_alg».proof.Proof.Ref.Ops4
import proofs.«129426_g120259084709_cont_main3_741_6_alg».proof.Proof.Ref.ValStages

set_option maxHeartbeats 4000000
set_option maxRecDepth 8192
noncomputable section

namespace Cert.ReferenceIdeal.RefValue

open Cert.ReferenceIdeal Cert.ReferenceIdeal.RefRun Idealize.ShloMosaic Idealize.ShloMosaic.TcCoe Idealize.SL.Sem
open Idealize.ShloMosaic.StableHlo Idealize.ShloMosaic.ValueIdx Cert.Spec Cert.SpecRef
open Facts₀

local notation "𝕍" => Valuation τ sig (Elt Ideal)

/-- View 1's input projection from the product and the bias row. -/
theorem win4_v203 (V : 𝕍) :
    after (ops4 (F := Ideal)) V (Proc.devRef .tc main_v203)
      = (leakyA (addf (V (Proc.devRef .tc main_v197)) (rowsD (shapeCast S128 (V (Proc.devRef .tc main_v198) : FVec Ideal S1x128 .f32) shapeCasts_S1x128_S128))) (kc 0x3C23D70A#32)) := by
  after_results_simp
  rfl

/-- View 1, layer 3: the mix. -/
theorem win4_v245 (V : 𝕍) :
    after (ops4 (F := Ideal)) V (Proc.devRef .tc main_v245)
      = (mixA (netV1 V) (layerA 0x3F46E010#32 0x3E647FBE#32 (netV1 V) (layerA 0x3F183370#32 0x3ECF991F#32 (netV1 V) (leakyA (addf (V (Proc.devRef .tc main_v197)) (rowsD (shapeCast S128 (V (Proc.devRef .tc main_v198) : FVec Ideal S1x128 .f32) shapeCasts_S1x128_S128))) (kc 0x3C23D70A#32)) (leakyA (addf (V (Proc.devRef .tc main_v197)) (rowsD (shapeCast S128 (V (Proc.devRef .tc main_v198) : FVec Ideal S1x128 .f32) shapeCasts_S1x128_S128))) (kc 0x3C23D70A#32)) (mV1_0 V)) (leakyA (addf (V (Proc.devRef .tc main_v197)) (rowsD (shapeCast S128 (V (Proc.devRef .tc main_v198) : FVec Ideal S1x128 .f32) shapeCasts_S1x128_S128))) (kc 0x3C23D70A#32)) (mV1_1 V)) (leakyA (addf (V (Proc.devRef .tc main_v197)) (rowsD (shapeCast S128 (V (Proc.devRef .tc main_v198) : FVec Ideal S1x128 .f32) shapeCasts_S1x128_S128))) (kc 0x3C23D70A#32))) := by
  after_results_simp
  rfl

/-- View 1, layer 3: the first coefficient, filled. -/
theorem win4_v246 (V : 𝕍) :
    after (ops4 (F := Ideal)) V (Proc.devRef .tc main_v246)
      = fillD (kc 0x3F588995#32) := by
  after_results_simp

end Cert.ReferenceIdeal.RefValue

end
-- ==== Proof.Ref.Win5.lean ====
/-
  What window 5 of the reference leaves in the buffers later windows read, as whole arrays over the contents before it.
-/
import proofs.«129426_g120259084709_cont_main3_741_6_alg».proof.Proof.Ref.Ops5
import proofs.«129426_g120259084709_cont_main3_741_6_alg».proof.Proof.Ref.ValStages

set_option maxHeartbeats 4000000
set_option maxRecDepth 8192
noncomputable section

namespace Cert.ReferenceIdeal.RefValue

open Cert.ReferenceIdeal Cert.ReferenceIdeal.RefRun Idealize.ShloMosaic Idealize.ShloMosaic.TcCoe Idealize.SL.Sem
open Idealize.ShloMosaic.StableHlo Idealize.ShloMosaic.ValueIdx Cert.Spec Cert.SpecRef
open Facts₀

local notation "𝕍" => Valuation τ sig (Elt Ideal)

/-- View 1, layer 6: half the propagation step. -/
theorem win5_v293 (V : 𝕍) :
    after (ops5 (F := Ideal)) V (Proc.devRef .tc main_v293)
      = mulf (fillD (kc 0x3F000000#32)) (dotNA (netV1 V) (layerA 0x3F6799C1#32 0x3DC331FC#32 (netV1 V) (layerA 0x3F61D8F9#32 0x3DF1383B#32 (netV1 V) (reluA (addf (mulf (V (Proc.devRef .tc main_v246)) (V (Proc.devRef .tc main_v245))) (mulf (fillD (kc 0x3E1DD9AD#32)) (dotDA (V (Proc.devRef .tc main_v245)) (mV1_2 V))))) (V (Proc.devRef .tc main_v203)) (mV1_3 V)) (V (Proc.devRef .tc main_v203)) (mV1_4 V))) := by
  after_results_simp
  all_goals rfl

/-- View 1, layer 6: half the projection. -/
theorem win5_v295 (V : 𝕍) :
    after (ops5 (F := Ideal)) V (Proc.devRef .tc main_v295)
      = mulf (fillD (kc 0x3F000000#32)) (V (Proc.devRef .tc main_v203)) := by
  after_results_simp
  all_goals rfl

end Cert.ReferenceIdeal.RefValue

end
-- ==== Proof.Ref.ValueArrA.lean ====
/-
  What the reference's buffers hold after each of its first six windows, as whole arrays of the argument buffers:
  the window lemmas chained through the valuations between the windows.
-/
import proofs.«129426_g120259084709_cont_main3_741_6_alg».proof.Proof.Ref.Win0
import proofs.«129426_g120259084709_cont_main3_741_6_alg».proof.Proof.Ref.Win1
import proofs.«129426_g120259084709_cont_main3_741_6_alg».proof.Proof.Ref.Win2
import proofs.«129426_g120259084709_cont_main3_741_6_alg».proof.Proof.Ref.Win3
import proofs.«129426_g120259084709_cont_main3_741_6_alg».proof.Proof.Ref.Win4
import proofs.«129426_g120259084709_cont_main3_741_6_alg».proof.Proof.Ref.Win5

set_option maxHeartbeats 2000000
set_option maxRecDepth 8192

noncomputable section

namespace Cert.ReferenceIdeal.RefValue

open Cert.ReferenceIdeal Cert.ReferenceIdeal.RefRun Idealize.ShloMosaic Idealize.ShloMosaic.TcCoe Idealize.SL.Sem
open Idealize.ShloMosaic.StableHlo Idealize.ShloMosaic.ValueIdx Cert.Spec Cert.SpecRef
open Facts₀

local notation "𝕍" => Valuation τ sig (Elt Ideal)

/-! ## The arguments keep their contents through the windows -/
theorem keep0_arg0 (V : 𝕍) : (after (ops0 (F := Ideal)) V) (no_index (Proc.devRef .tc main_arg0)) = V (Proc.devRef .tc main_arg0) := by
  rw [ops0_keep _ main_arg0 (by decide)]
theorem keep0_arg1 (V : 𝕍) : (after (ops0 (F := Ideal)) V) (no_index (Proc.devRef .tc main_arg1)) = V (Proc.devRef .tc main_arg1) := by
  rw [ops0_keep _ main_arg1 (by decide)]
theorem keep0_arg2 (V : 𝕍) : (after (ops0 (F := Ideal)) V) (no_index (Proc.devRef .tc main_arg2)) = V (Proc.devRef .tc main_arg2) := by
  rw [ops0_keep _ main_arg2 (by decide)]
theorem keep0_arg3 (V : 𝕍) : (after (ops0 (F := Ideal)) V) (no_index (Proc.devRef .tc main_arg3)) = V (Proc.devRef .tc main_arg3) := by
  rw [ops0_keep _ main_arg3 (by decide)]
theorem keep0_arg4 (V : 𝕍) : (after (ops0 (F := Ideal)) V) (no_index (Proc.devRef .tc main_arg4)) = V (Proc.devRef .tc main_arg4) := by
  rw [ops0_keep _ main_arg4 (by decide)]
theorem keep0_arg5 (V : 𝕍) : (after (ops0 (F := Ideal)) V) (no_index (Proc.devRef .tc main_arg5)) = V (Proc.devRef .tc main_arg5) := by
  rw [ops0_keep _ main_arg5 (by decide)]
theorem keep0_arg6 (V : 𝕍) : (after (ops0 (F := Ideal)) V) (no_index (Proc.devRef .tc main_arg6)) = V (Proc.devRef .tc main_arg6) := by
  rw [ops0_keep _ main_arg6 (by decide)]
theorem keep0_arg7 (V : 𝕍) : (after (ops0 (F := Ideal)) V) (no_index (Proc.devRef .tc main_arg7)) = V (Proc.devRef .tc main_arg7) := by
  rw [ops0_keep _ main_arg7 (by decide)]
theorem keep0_arg8 (V : 𝕍) : (after (ops0 (F := Ideal)) V) (no_index (Proc.devRef .tc main_arg8)) = V (Proc.devRef .tc main_arg8) := by
  rw [ops0_keep _ main_arg8 (by decide)]
theorem keep0_arg9 (V : 𝕍) : (after (ops0 (F := Ideal)) V) (no_index (Proc.devRef .tc main_arg9)) = V (Proc.devRef .tc main_arg9) := by
  rw [ops0_keep _ main_arg9 (by decide)]
theorem keep0_arg10 (V : 𝕍) : (after (ops0 (F := Ideal)) V) (no_index (Proc.devRef .tc main_arg10)) = V (Proc.devRef .tc main_arg10) := by
  rw [ops0_keep _ main_arg10 (by decide)]
theorem keep1_arg0 (V : 𝕍) : (after (ops1 (F := Ideal)) (after (ops0 (F := Ideal)) V)) (no_index (Proc.devRef .tc main_arg0)) = V (Proc.devRef .tc main_arg0) := by
  rw [ops1_keep _ main_arg0 (by decide), keep0_arg0]
theorem keep1_arg1 (V : 𝕍) : (after (ops1 (F := Ideal)) (after (ops0 (F := Ideal)) V)) (no_index (Proc.devRef .tc main_arg1)) = V (Proc.devRef .tc main_arg1) := by
  rw [ops1_keep _ main_arg1 (by decide), keep0_arg1]
theorem keep1_arg2 (V : 𝕍) : (after (ops1 (F := Ideal)) (after (ops0 (F := Ideal)) V)) (no_index (Proc.devRef .tc main_arg2)) = V (Proc.devRef .tc main_arg2) := by
  rw [ops1_keep _ main_arg2 (by decide), keep0_arg2]
theorem keep1_arg3 (V : 𝕍) : (after (ops1 (F := Ideal)) (after (ops0 (F := Ideal)) V)) (no_index (Proc.devRef .tc main_arg3)) = V (Proc.devRef .tc main_arg3) := by
  rw [ops1_keep _ main_arg3 (by decide), keep0_arg3]
theorem keep1_arg4 (V : 𝕍) : (after (ops1 (F := Ideal)) (after (ops0 (F := Ideal)) V)) (no_index (Proc.devRef .tc main_arg4)) = V (Proc.devRef .tc main_arg4) := by
  rw [ops1_keep _ main_arg4 (by decide), keep0_arg4]
theorem keep1_arg5 (V : 𝕍) : (after (ops1 (F := Ideal)) (after (ops0 (F := Ideal)) V)) (no_index (Proc.devRef .tc main_arg5)) = V (Proc.devRef .tc main_arg5) := by
  rw [ops1_keep _ main_arg5 (by decide), keep0_arg5]
theorem keep1_arg6 (V : 𝕍) : (after (ops1 (F := Ideal)) (after (ops0 (F := Ideal)) V)) (no_index (Proc.devRef .tc main_arg6)) = V (Proc.devRef .tc main_arg6) := by
  rw [ops1_keep _ main_arg6 (by decide), keep0_arg6]
theorem keep1_arg7 (V : 𝕍) : (after (ops1 (F := Ideal)) (after (ops0 (F := Ideal)) V)) (no_index (Proc.devRef .tc main_arg7)) = V (Proc.devRef .tc main_arg7) := by
  rw [ops1_keep _ main_arg7 (by decide), keep0_arg7]
theorem keep1_arg8 (V : 𝕍) : (after (ops1 (F := Ideal)) (after (ops0 (F := Ideal)) V)) (no_index (Proc.devRef .tc main_arg8)) = V (Proc.devRef .tc main_arg8) := by
  rw [ops1_keep _ main_arg8 (by decide), keep0_arg8]
theorem keep1_arg9 (V : 𝕍) : (after (ops1 (F := Ideal)) (after (ops0 (F := Ideal)) V)) (no_index (Proc.devRef .tc main_arg9)) = V (Proc.devRef .tc main_arg9) := by
  rw [ops1_keep _ main_arg9 (by decide), keep0_arg9]
theorem keep1_arg10 (V : 𝕍) : (after (ops1 (F := Ideal)) (after (ops0 (F := Ideal)) V)) (no_index (Proc.devRef .tc main_arg10)) = V (Proc.devRef .tc main_arg10) := by
  rw [ops1_keep _ main_arg10 (by decide), keep0_arg10]
theorem keep2_arg0 (V : 𝕍) : (after (ops2 (F := Ideal)) (after (ops1 (F := Ideal)) (after (ops0 (F := Ideal)) V))) (no_index (Proc.devRef .tc main_arg0)) = V (Proc.devRef .tc main_arg0) := by
  rw [ops2_keep _ main_arg0 (by decide), keep1_arg0]
theorem keep2_arg1 (V : 𝕍) : (after (ops2 (F := Ideal)) (after (ops1 (F := Ideal)) (after (ops0 (F := Ideal)) V))) (no_index (Proc.devRef .tc main_arg1)) = V (Proc.devRef .tc main_arg1) := by
  rw [ops2_keep _ main_arg1 (by decide), keep1_arg1]
theorem keep2_arg2 (V : 𝕍) : (after (ops2 (F := Ideal)) (after (ops1 (F := Ideal)) (after (ops0 (F := Ideal)) V))) (no_index (Proc.devRef .tc main_arg2)) = V (Proc.devRef .tc main_arg2) := by
  rw [ops2_keep _ main_arg2 (by decide), keep1_arg2]
theorem keep2_arg3 (V : 𝕍) : (after (ops2 (F := Ideal)) (after (ops1 (F := Ideal)) (after (ops0 (F := Ideal)) V))) (no_index (Proc.devRef .tc main_arg3)) = V (Proc.devRef .tc main_arg3) := by
  rw [ops2_keep _ main_arg3 (by decide), keep1_arg3]
theorem keep2_arg4 (V : 𝕍) : (after (ops2 (F := Ideal)) (after (ops1 (F := Ideal)) (after (ops0 (F := Ideal)) V))) (no_index (Proc.devRef .tc main_arg4)) = V (Proc.devRef .tc main_arg4) := by
  rw [ops2_keep _ main_arg4 (by decide), keep1_arg4]
theorem keep2_arg5 (V : 𝕍) : (after (ops2 (F := Ideal)) (after (ops1 (F := Ideal)) (after (ops0 (F := Ideal)) V))) (no_index (Proc.devRef .tc main_arg5)) = V (Proc.devRef .tc main_arg5) := by
  rw [ops2_keep _ main_arg5 (by decide), keep1_arg5]
theorem keep2_arg6 (V : 𝕍) : (after (ops2 (F := Ideal)) (after (ops1 (F := Ideal)) (after (ops0 (F := Ideal)) V))) (no_index (Proc.devRef .tc main_arg6)) = V (Proc.devRef .tc main_arg6) := by
  rw [ops2_keep _ main_arg6 (by decide), keep1_arg6]
theorem keep2_arg7 (V : 𝕍) : (after (ops2 (F := Ideal)) (after (ops1 (F := Ideal)) (after (ops0 (F := Ideal)) V))) (no_index (Proc.devRef .tc main_arg7)) = V (Proc.devRef .tc main_arg7) := by
  rw [ops2_keep _ main_arg7 (by decide), keep1_arg7]
theorem keep2_arg8 (V : 𝕍) : (after (ops2 (F := Ideal)) (after (ops1 (F := Ideal)) (after (ops0 (F := Ideal)) V))) (no_index (Proc.devRef .tc main_arg8)) = V (Proc.devRef .tc main_arg8) := by
  rw [ops2_keep _ main_arg8 (by decide), keep1_arg8]
theorem keep2_arg9 (V : 𝕍) : (after (ops2 (F := Ideal)) (after (ops1 (F := Ideal)) (after (ops0 (F := Ideal)) V))) (no_index (Proc.devRef .tc main_arg9)) = V (Proc.devRef .tc main_arg9) := by
  rw [ops2_keep _ main_arg9 (by decide), keep1_arg9]
theorem keep2_arg10 (V : 𝕍) : (after (ops2 (F := Ideal)) (after (ops1 (F := Ideal)) (after (ops0 (F := Ideal)) V))) (no_index (Proc.devRef .tc main_arg10)) = V (Proc.devRef .tc main_arg10) := by
  rw [ops2_keep _ main_arg10 (by decide), keep1_arg10]
theorem keep3_arg1 (V : 𝕍) : (after (ops3 (F := Ideal)) (after (ops2 (F := Ideal)) (after (ops1 (F := Ideal)) (after (ops0 (F := Ideal)) V)))) (no_index (Proc.devRef .tc main_arg1)) = V (Proc.devRef .tc main_arg1) := by
  rw [ops3_keep _ main_arg1 (by decide), keep2_arg1]
theorem keep3_arg6 (V : 𝕍) : (after (ops3 (F := Ideal)) (after (ops2 (F := Ideal)) (after (ops1 (F := Ideal)) (after (ops0 (F := Ideal)) V)))) (no_index (Proc.devRef .tc main_arg6)) = V (Proc.devRef .tc main_arg6) := by
  rw [ops3_keep _ main_arg6 (by decide), keep2_arg6]
theorem keep3_arg7 (V : 𝕍) : (after (ops3 (F := Ideal)) (after (ops2 (F := Ideal)) (after (ops1 (F := Ideal)) (after (ops0 (F := Ideal)) V)))) (no_index (Proc.devRef .tc main_arg7)) = V (Proc.devRef .tc main_arg7) := by
  rw [ops3_keep _ main_arg7 (by decide), keep2_arg7]
theorem keep3_arg8 (V : 𝕍) : (after (ops3 (F := Ideal)) (after (ops2 (F := Ideal)) (after (ops1 (F := Ideal)) (after (ops0 (F := Ideal)) V)))) (no_index (Proc.devRef .tc main_arg8)) = V (Proc.devRef .tc main_arg8) := by
  rw [ops3_keep _ main_arg8 (by decide), keep2_arg8]
theorem keep3_arg9 (V : 𝕍) : (after (ops3 (F := Ideal)) (after (ops2 (F := Ideal)) (after (ops1 (F := Ideal)) (after (ops0 (F := Ideal)) V)))) (no_index (Proc.devRef .tc main_arg9)) = V (Proc.devRef .tc main_arg9) := by
  rw [ops3_keep _ main_arg9 (by decide), keep2_arg9]
theorem keep3_arg10 (V : 𝕍) : (after (ops3 (F := Ideal)) (after (ops2 (F := Ideal)) (after (ops1 (F := Ideal)) (after (ops0 (F := Ideal)) V)))) (no_index (Proc.devRef .tc main_arg10)) = V (Proc.devRef .tc main_arg10) := by
  rw [ops3_keep _ main_arg10 (by decide), keep2_arg10]
theorem keep4_arg1 (V : 𝕍) : (after (ops4 (F := Ideal)) (after (ops3 (F := Ideal)) (after (ops2 (F := Ideal)) (after (ops1 (F := Ideal)) (after (ops0 (F := Ideal)) V))))) (no_index (Proc.devRef .tc main_arg1)) = V (Proc.devRef .tc main_arg1) := by
  rw [ops4_keep _ main_arg1 (by decide), keep3_arg1]
theorem keep4_arg6 (V : 𝕍) : (after (ops4 (F := Ideal)) (after (ops3 (F := Ideal)) (after (ops2 (F := Ideal)) (after (ops1 (F := Ideal)) (after (ops0 (F := Ideal)) V))))) (no_index (Proc.devRef .tc main_arg6)) = V (Proc.devRef .tc main_arg6) := by
  rw [ops4_keep _ main_arg6 (by decide), keep3_arg6]
theorem keep4_arg7 (V : 𝕍) : (after (ops4 (F := Ideal)) (after (ops3 (F := Ideal)) (after (ops2 (F := Ideal)) (after (ops1 (F := Ideal)) (after (ops0 (F := Ideal)) V))))) (no_index (Proc.devRef .tc main_arg7)) = V (Proc.devRef .tc main_arg7) := by
  rw [ops4_keep _ main_arg7 (by decide), keep3_arg7]
theorem keep4_arg8 (V : 𝕍) : (after (ops4 (F := Ideal)) (after (ops3 (F := Ideal)) (after (ops2 (F := Ideal)) (after (ops1 (F := Ideal)) (after (ops0 (F := Ideal)) V))))) (no_index (Proc.devRef .tc main_arg8)) = V (Proc.devRef .tc main_arg8) := by
  rw [ops4_keep _ main_arg8 (by decide), keep3_arg8]
theorem keep4_arg9 (V : 𝕍) : (after (ops4 (F := Ideal)) (after (ops3 (F := Ideal)) (after (ops2 (F := Ideal)) (after (ops1 (F := Ideal)) (after (ops0 (F := Ideal)) V))))) (no_index (Proc.devRef .tc main_arg9)) = V (Proc.devRef .tc main_arg9) := by
  rw [ops4_keep _ main_arg9 (by decide), keep3_arg9]
theorem keep4_arg10 (V : 𝕍) : (after (ops4 (F := Ideal)) (after (ops3 (F := Ideal)) (after (ops2 (F := Ideal)) (after (ops1 (F := Ideal)) (after (ops0 (F := Ideal)) V))))) (no_index (Proc.devRef .tc main_arg10)) = V (Proc.devRef .tc main_arg10) := by
  rw [ops4_keep _ main_arg10 (by decide), keep3_arg10]
theorem keep5_arg1 (V : 𝕍) : (after (ops5 (F := Ideal)) (after (ops4 (F := Ideal)) (after (ops3 (F := Ideal)) (after (ops2 (F := Ideal)) (after (ops1 (F := Ideal)) (after (ops0 (F := Ideal)) V)))))) (no_index (Proc.devRef .tc main_arg1)) = V (Proc.devRef .tc main_arg1) := by
  rw [ops5_keep _ main_arg1 (by decide), keep4_arg1]
theorem keep5_arg6 (V : 𝕍) : (after (ops5 (F := Ideal)) (after (ops4 (F := Ideal)) (after (ops3 (F := Ideal)) (after (ops2 (F := Ideal)) (after (ops1 (F := Ideal)) (after (ops0 (F := Ideal)) V)))))) (no_index (Proc.devRef .tc main_arg6)) = V (Proc.devRef .tc main_arg6) := by
  rw [ops5_keep _ main_arg6 (by decide), keep4_arg6]
theorem keep5_arg7 (V : 𝕍) : (after (ops5 (F := Ideal)) (after (ops4 (F := Ideal)) (after (ops3 (F := Ideal)) (after (ops2 (F := Ideal)) (after (ops1 (F := Ideal)) (after (ops0 (F := Ideal)) V)))))) (no_index (Proc.devRef .tc main_arg7)) = V (Proc.devRef .tc main_arg7) := by
  rw [ops5_keep _ main_arg7 (by decide), keep4_arg7]
theorem keep5_arg8 (V : 𝕍) : (after (ops5 (F := Ideal)) (after (ops4 (F := Ideal)) (after (ops3 (F := Ideal)) (after (ops2 (F := Ideal)) (after (ops1 (F := Ideal)) (after (ops0 (F := Ideal)) V)))))) (no_index (Proc.devRef .tc main_arg8)) = V (Proc.devRef .tc main_arg8) := by
  rw [ops5_keep _ main_arg8 (by decide), keep4_arg8]
theorem keep5_arg9 (V : 𝕍) : (after (ops5 (F := Ideal)) (after (ops4 (F := Ideal)) (after (ops3 (F := Ideal)) (after (ops2 (F := Ideal)) (after (ops1 (F := Ideal)) (after (ops0 (F := Ideal)) V)))))) (no_index (Proc.devRef .tc main_arg9)) = V (Proc.devRef .tc main_arg9) := by
  rw [ops5_keep _ main_arg9 (by decide), keep4_arg9]
theorem keep5_arg10 (V : 𝕍) : (after (ops5 (F := Ideal)) (after (ops4 (F := Ideal)) (after (ops3 (F := Ideal)) (after (ops2 (F := Ideal)) (after (ops1 (F := Ideal)) (after (ops0 (F := Ideal)) V)))))) (no_index (Proc.devRef .tc main_arg10)) = V (Proc.devRef .tc main_arg10) := by
  rw [ops5_keep _ main_arg10 (by decide), keep4_arg10]

/-! ## What each window leaves, over the argument buffers -/

/-- After window 0: view 0's input projection. -/
theorem at0_v33 (V : 𝕍) :
    (after (ops0 (F := Ideal)) V) (no_index (Proc.devRef .tc main_v33))
      = X0V0 V := by
  rw [win0_v33]

/-- After window 0: view 0's first layer. -/
theorem at0_v50 (V : 𝕍) :
    (after (ops0 (F := Ideal)) V) (no_index (Proc.devRef .tc main_v50))
      = H0_1 V := by
  rw [win0_v50]

/-- After window 1: layer 4's first term. -/
theorem at1_v94 (V : 𝕍) :
    (after (ops1 (F := Ideal)) (after (ops0 (F := Ideal)) V)) (no_index (Proc.devRef .tc main_v94))
      = mulf (fillD (kc 0x3F61D8F9#32)) (mixA (netV0 V) (H0_3 V) (X0V0 V)) := by
  rw [win1_v94]
  all_goals (try simp only [netV0, netV1, xhatV1, mV0_0, mV0_1, mV0_2, mV0_3, mV0_4, mV0_5, mV0_6, mV0_7, mV1_0, mV1_1, mV1_2, mV1_3, mV1_4, mV1_5, mV1_6, mV1_7, at0_v33, at0_v50, keep0_arg1, keep0_arg6])
  all_goals (try unfold H0_3 H0_2)
  all_goals (try rfl)

/-- After window 1: layer 4's mix times its weights. -/
theorem at1_v97 (V : 𝕍) :
    (after (ops1 (F := Ideal)) (after (ops0 (F := Ideal)) V)) (no_index (Proc.devRef .tc main_v97))
      = dotDA (mixA (netV0 V) (H0_3 V) (X0V0 V)) (mV0_3 V) := by
  rw [win1_v97]
  all_goals (try simp only [netV0, netV1, xhatV1, mV0_0, mV0_1, mV0_2, mV0_3, mV0_4, mV0_5, mV0_6, mV0_7, mV1_0, mV1_1, mV1_2, mV1_3, mV1_4, mV1_5, mV1_6, mV1_7, at0_v33, at0_v50, keep0_arg1, keep0_arg6])
  all_goals (try unfold H0_3 H0_2)
  all_goals (try rfl)

/-- After window 1: layer 4's second coefficient. -/
theorem at1_v98 (V : 𝕍) :
    (after (ops1 (F := Ideal)) (after (ops0 (F := Ideal)) V)) (no_index (Proc.devRef .tc main_v98))
      = fillD (kc 0x3DF1383B#32) := by
  rw [win1_v98]
  all_goals (try simp only [netV0, netV1, xhatV1, mV0_0, mV0_1, mV0_2, mV0_3, mV0_4, mV0_5, mV0_6, mV0_7, mV1_0, mV1_1, mV1_2, mV1_3, mV1_4, mV1_5, mV1_6, mV1_7, at0_v33, at0_v50, keep0_arg1, keep0_arg6])
  all_goals (try rfl)

/-- After window 1: view 0's input projection still. -/
theorem at1_v33 (V : 𝕍) :
    (after (ops1 (F := Ideal)) (after (ops0 (F := Ideal)) V)) (no_index (Proc.devRef .tc main_v33))
      = X0V0 V := by
  rw [ops1_keep _ main_v33 (by decide), at0_v33]

/-- After window 2: layer 7's mix. -/
theorem at2_v143 (V : 𝕍) :
    (after (ops2 (F := Ideal)) (after (ops1 (F := Ideal)) (after (ops0 (F := Ideal)) V))) (no_index (Proc.devRef .tc main_v143))
      = mixA (netV0 V) (H0_6 V) (X0V0 V) := by
  rw [win2_v143]
  all_goals (try simp only [netV0, netV1, xhatV1, mV0_0, mV0_1, mV0_2, mV0_3, mV0_4, mV0_5, mV0_6, mV0_7, mV1_0, mV1_1, mV1_2, mV1_3, mV1_4, mV1_5, mV1_6, mV1_7, at1_v94, at1_v97, at1_v98, at1_v33, keep1_arg1, keep1_arg6])
  all_goals (try unfold H0_6 H0_5 H0_4 layerA layerOfMixA)
  all_goals (try rfl)

/-- After window 2: layer 7's first term. -/
theorem at2_v145 (V : 𝕍) :
    (after (ops2 (F := Ideal)) (after (ops1 (F := Ideal)) (after (ops0 (F := Ideal)) V))) (no_index (Proc.devRef .tc main_v145))
      = mulf (fillD (kc 0x3F6E567C#32)) (mixA (netV0 V) (H0_6 V) (X0V0 V)) := by
  rw [win2_v145]
  all_goals (try simp only [netV0, netV1, xhatV1, mV0_0, mV0_1, mV0_2, mV0_3, mV0_4, mV0_5, mV0_6, mV0_7, mV1_0, mV1_1, mV1_2, mV1_3, mV1_4, mV1_5, mV1_6, mV1_7, at1_v94, at1_v97, at1_v98, at1_v33, keep1_arg1, keep1_arg6])
  all_goals (try unfold H0_6 H0_5 H0_4 layerA layerOfMixA)
  all_goals (try rfl)

/-- After window 2: layer 7's weights. -/
theorem at2_v147 (V : 𝕍) :
    (after (ops2 (F := Ideal)) (after (ops1 (F := Ideal)) (after (ops0 (F := Ideal)) V))) (no_index (Proc.devRef .tc main_v147))
      = mV0_6 V := by
  rw [win2_v147]
  all_goals (try simp only [netV0, netV1, xhatV1, mV0_0, mV0_1, mV0_2, mV0_3, mV0_4, mV0_5, mV0_6, mV0_7, mV1_0, mV1_1, mV1_2, mV1_3, mV1_4, mV1_5, mV1_6, mV1_7, at1_v94, at1_v97, at1_v98, at1_v33, keep1_arg1, keep1_arg6])
  all_goals (try rfl)

/-- After window 2: view 0's input projection still. -/
theorem at2_v33 (V : 𝕍) :
    (after (ops2 (F := Ideal)) (after (ops1 (F := Ideal)) (after (ops0 (F := Ideal)) V))) (no_index (Proc.devRef .tc main_v33))
      = X0V0 V := by
  rw [ops2_keep _ main_v33 (by decide), at1_v33]

/-- After window 3: view 0's last layer. -/
theorem at3_v169 (V : 𝕍) :
    (after (ops3 (F := Ideal)) (after (ops2 (F := Ideal)) (after (ops1 (F := Ideal)) (after (ops0 (F := Ideal)) V)))) (no_index (Proc.devRef .tc main_v169))
      = H0_8 V := by
  rw [win3_v169]
  all_goals (try simp only [netV0, netV1, xhatV1, mV0_0, mV0_1, mV0_2, mV0_3, mV0_4, mV0_5, mV0_6, mV0_7, mV1_0, mV1_1, mV1_2, mV1_3, mV1_4, mV1_5, mV1_6, mV1_7, at2_v143, at2_v145, at2_v147, at2_v33, keep2_arg0, keep2_arg1, keep2_arg2, keep2_arg3, keep2_arg4, keep2_arg5, keep2_arg6])
  all_goals (try unfold H0_8 H0_7 layerA layerOfMixA)
  all_goals (try rfl)

/-- After window 3: view 1's normalised features times the input weights. -/
theorem at3_v197 (V : 𝕍) :
    (after (ops3 (F := Ideal)) (after (ops2 (F := Ideal)) (after (ops1 (F := Ideal)) (after (ops0 (F := Ideal)) V)))) (no_index (Proc.devRef .tc main_v197))
      = dotNA (xhatV1 V) (wView 1 slices_S2x5000x128_S1x5000x128_1_0_0 (V (Proc.devRef .tc main_arg4))) := by
  rw [win3_v197]
  all_goals (try simp only [netV0, netV1, xhatV1, mV0_0, mV0_1, mV0_2, mV0_3, mV0_4, mV0_5, mV0_6, mV0_7, mV1_0, mV1_1, mV1_2, mV1_3, mV1_4, mV1_5, mV1_6, mV1_7, at2_v143, at2_v145, at2_v147, at2_v33, keep2_arg0, keep2_arg1, keep2_arg2, keep2_arg3, keep2_arg4, keep2_arg5, keep2_arg6])
  all_goals (try rfl)

/-- After window 3: view 1's input bias row. -/
theorem at3_v198 (V : 𝕍) :
    (after (ops3 (F := Ideal)) (after (ops2 (F := Ideal)) (after (ops1 (F := Ideal)) (after (ops0 (F := Ideal)) V)))) (no_index (Proc.devRef .tc main_v198))
      = extractStridedSlice S1x128 ![1, 0] (V (Proc.devRef .tc main_arg5) : FVec Ideal S2x128 .f32) slices_S2x128_S1x128_1_0 := by
  rw [win3_v198]
  all_goals (try simp only [netV0, netV1, xhatV1, mV0_0, mV0_1, mV0_2, mV0_3, mV0_4, mV0_5, mV0_6, mV0_7, mV1_0, mV1_1, mV1_2, mV1_3, mV1_4, mV1_5, mV1_6, mV1_7, at2_v143, at2_v145, at2_v147, at2_v33, keep2_arg0, keep2_arg1, keep2_arg2, keep2_arg3, keep2_arg4, keep2_arg5, keep2_arg6])
  all_goals (try rfl)

/-- After window 4: view 1's input projection. -/
theorem at4_v203 (V : 𝕍) :
    (after (ops4 (F := Ideal)) (after (ops3 (F := Ideal)) (after (ops2 (F := Ideal)) (after (ops1 (F := Ideal)) (after (ops0 (F := Ideal)) V))))) (no_index (Proc.devRef .tc main_v203))
      = X0V1 V := by
  rw [win4_v203]
  all_goals (try simp only [netV0, netV1, xhatV1, mV0_0, mV0_1, mV0_2, mV0_3, mV0_4, mV0_5, mV0_6, mV0_7, mV1_0, mV1_1, mV1_2, mV1_3, mV1_4, mV1_5, mV1_6, mV1_7, at3_v169, at3_v197, at3_v198, keep3_arg1, keep3_arg6])
  all_goals (try unfold X0V1 x0A)
  all_goals (try rfl)

/-- After window 4: layer 3's mix. -/
theorem at4_v245 (V : 𝕍) :
    (after (ops4 (F := Ideal)) (after (ops3 (F := Ideal)) (after (ops2 (F := Ideal)) (after (ops1 (F := Ideal)) (after (ops0 (F := Ideal)) V))))) (no_index (Proc.devRef .tc main_v245))
      = mixA (netV1 V) (H1_2 V) (X0V1 V) := by
  rw [win4_v245]
  all_goals (try simp only [netV0, netV1, xhatV1, mV0_0, mV0_1, mV0_2, mV0_3, mV0_4, mV0_5, mV0_6, mV0_7, mV1_0, mV1_1, mV1_2, mV1_3, mV1_4, mV1_5, mV1_6, mV1_7, at3_v169, at3_v197, at3_v198, keep3_arg1, keep3_arg6])
  all_goals (try unfold H1_2 H1_1 X0V1 x0A)
  all_goals (try rfl)

/-- After window 4: layer 3's first coefficient. -/
theorem at4_v246 (V : 𝕍) :
    (after (ops4 (F := Ideal)) (after (ops3 (F := Ideal)) (after (ops2 (F := Ideal)) (after (ops1 (F := Ideal)) (after (ops0 (F := Ideal)) V))))) (no_index (Proc.devRef .tc main_v246))
      = fillD (kc 0x3F588995#32) := by
  rw [win4_v246]
  all_goals (try simp only [netV0, netV1, xhatV1, mV0_0, mV0_1, mV0_2, mV0_3, mV0_4, mV0_5, mV0_6, mV0_7, mV1_0, mV1_1, mV1_2, mV1_3, mV1_4, mV1_5, mV1_6, mV1_7, at3_v169, at3_v197, at3_v198, keep3_arg1, keep3_arg6])
  all_goals (try rfl)

/-- After window 4: view 0's last layer still. -/
theorem at4_v169 (V : 𝕍) :
    (after (ops4 (F := Ideal)) (after (ops3 (F := Ideal)) (after (ops2 (F := Ideal)) (after (ops1 (F := Ideal)) (after (ops0 (F := Ideal)) V))))) (no_index (Proc.devRef .tc main_v169))
      = H0_8 V := by
  rw [ops4_keep _ main_v169 (by decide), at3_v169]

/-- After window 5: half of layer 6's propagation step. -/
theorem at5_v293 (V : 𝕍) :
    (after (ops5 (F := Ideal)) (after (ops4 (F := Ideal)) (after (ops3 (F := Ideal)) (after (ops2 (F := Ideal)) (after (ops1 (F := Ideal)) (after (ops0 (F := Ideal)) V)))))) (no_index (Proc.devRef .tc main_v293))
      = mulf (fillD (kc 0x3F000000#32)) (dotNA (netV1 V) (H1_5 V)) := by
  rw [win5_v293]
  all_goals (try simp only [netV0, netV1, xhatV1, mV0_0, mV0_1, mV0_2, mV0_3, mV0_4, mV0_5, mV0_6, mV0_7, mV1_0, mV1_1, mV1_2, mV1_3, mV1_4, mV1_5, mV1_6, mV1_7, at4_v203, at4_v245, at4_v246, at4_v169, keep4_arg1, keep4_arg6])
  all_goals (try unfold H1_5 H1_4 H1_3 layerA layerOfMixA)
  all_goals (try rfl)

/-- After window 5: half of view 1's projection. -/
theorem at5_v295 (V : 𝕍) :
    (after (ops5 (F := Ideal)) (after (ops4 (F := Ideal)) (after (ops3 (F := Ideal)) (after (ops2 (F := Ideal)) (after (ops1 (F := Ideal)) (after (ops0 (F := Ideal)) V)))))) (no_index (Proc.devRef .tc main_v295))
      = mulf (fillD (kc 0x3F000000#32)) (X0V1 V) := by
  rw [win5_v295]
  all_goals (try simp only [netV0, netV1, xhatV1, mV0_0, mV0_1, mV0_2, mV0_3, mV0_4, mV0_5, mV0_6, mV0_7, mV1_0, mV1_1, mV1_2, mV1_3, mV1_4, mV1_5, mV1_6, mV1_7, at4_v203, at4_v245, at4_v246, at4_v169, keep4_arg1, keep4_arg6])
  all_goals (try rfl)

/-- After window 5: view 1's input projection still. -/
theorem at5_v203 (V : 𝕍) :
    (after (ops5 (F := Ideal)) (after (ops4 (F := Ideal)) (after (ops3 (F := Ideal)) (after (ops2 (F := Ideal)) (after (ops1 (F := Ideal)) (after (ops0 (F := Ideal)) V)))))) (no_index (Proc.devRef .tc main_v203))
      = X0V1 V := by
  rw [ops5_keep _ main_v203 (by decide), at4_v203]

/-- After window 5: view 0's last layer still. -/
theorem at5_v169 (V : 𝕍) :
    (after (ops5 (F := Ideal)) (after (ops4 (F := Ideal)) (after (ops3 (F := Ideal)) (after (ops2 (F := Ideal)) (after (ops1 (F := Ideal)) (after (ops0 (F := Ideal)) V)))))) (no_index (Proc.devRef .tc main_v169))
      = H0_8 V := by
  rw [ops5_keep _ main_v169 (by decide), at4_v169]

end Cert.ReferenceIdeal.RefValue

end
-- ==== Proof.Ref.Win6.lean ====
/-
  What window 6 of the reference leaves in the buffers later windows read, as whole arrays over the contents before it.
-/
import proofs.«129426_g120259084709_cont_main3_741_6_alg».proof.Proof.Ref.Ops6
import proofs.«129426_g120259084709_cont_main3_741_6_alg».proof.Proof.Ref.ValStages

set_option maxHeartbeats 4000000
set_option maxRecDepth 8192
noncomputable section

namespace Cert.ReferenceIdeal.RefValue

open Cert.ReferenceIdeal Cert.ReferenceIdeal.RefRun Idealize.ShloMosaic Idealize.ShloMosaic.TcCoe Idealize.SL.Sem
open Idealize.ShloMosaic.StableHlo Idealize.ShloMosaic.ValueIdx Cert.Spec Cert.SpecRef
open Facts₀

local notation "𝕍" => Valuation τ sig (Elt Ideal)

/-- The projection of the two views side by side, shifted by its bias. -/
theorem win6_v344 (V : 𝕍) :
    after (ops6 (F := Ideal)) V (Proc.devRef .tc main_v344)
      = addf (dotCA (concatenate S5000x256 1 [⟨S5000x128, (V (Proc.devRef .tc main_v169))⟩, ⟨S5000x128, (layerA 0x3F707AE8#32 0x3D785186#32 (netV1 V) (layerA 0x3F6E567C#32 0x3D8D4C22#32 (netV1 V) (layerOfMixA 0x3F6B8252#32 0x3DA3ED6E#32 (addf (V (Proc.devRef .tc main_v293)) (V (Proc.devRef .tc main_v295))) (mV1_5 V)) (V (Proc.devRef .tc main_v203)) (mV1_6 V)) (V (Proc.devRef .tc main_v203)) (mV1_7 V))⟩] concatenates_S5000x128_S5000x128_S5000x256_d1) (V (Proc.devRef .tc main_arg7))) (rowsD (V (Proc.devRef .tc main_arg8))) := by
  after_results_simp
  all_goals rfl

/-- The rectifier's slope. -/
theorem win6_cst72 (V : 𝕍) :
    after (ops6 (F := Ideal)) V (Proc.devRef .tc main_cst_72)
      = kc 0x3C23D70A#32 := by
  after_results_simp
  all_goals rfl

end Cert.ReferenceIdeal.RefValue

end
-- ==== Proof.Ref.Win7.lean ====
/-
  What the last window of the reference leaves in the result buffer, as a whole array.
-/
import proofs.«129426_g120259084709_cont_main3_741_6_alg».proof.Proof.Ref.Ops7
import proofs.«129426_g120259084709_cont_main3_741_6_alg».proof.Proof.Ref.ValStages

noncomputable section

namespace Cert.ReferenceIdeal.RefValue

open Cert.ReferenceIdeal Cert.ReferenceIdeal.RefRun Idealize.ShloMosaic Idealize.ShloMosaic.TcCoe Idealize.SL.Sem
open Idealize.ShloMosaic.StableHlo Idealize.ShloMosaic.ValueIdx Cert.Spec Cert.SpecRef
open Facts₀

local notation "𝕍" => Valuation τ sig (Elt Ideal)

/-- The result: the classifier on the rectified projection held before the window. -/
theorem win7_v349 (V : 𝕍) :
    after (ops7 (F := Ideal)) V (Proc.devRef .tc main_v349)
      = addf (dotOA (leakyA (V (Proc.devRef .tc main_v344)) (V (Proc.devRef .tc main_cst_72))) (V (Proc.devRef .tc main_arg9)))
        (rowsN (V (Proc.devRef .tc main_arg10))) := by
  after_results_simp
  rfl

end Cert.ReferenceIdeal.RefValue

end
-- ==== Proof.Ref.ValueArr.lean ====
/-
  The reference's result buffer after all its windows, as a whole array of the argument buffers: the last two windows
  chained onto the first six.
-/
import proofs.«129426_g120259084709_cont_main3_741_6_alg».proof.Proof.Ref.ValueArrA
import proofs.«129426_g120259084709_cont_main3_741_6_alg».proof.Proof.Ref.Win6
import proofs.«129426_g120259084709_cont_main3_741_6_alg».proof.Proof.Ref.Win7
import proofs.«129426_g120259084709_cont_main3_741_6_alg».proof.Proof.Ref.Run

set_option maxHeartbeats 2000000
set_option maxRecDepth 8192

noncomputable section

namespace Cert.ReferenceIdeal.RefValue

open Cert.ReferenceIdeal Cert.ReferenceIdeal.RefRun Idealize.ShloMosaic Idealize.ShloMosaic.TcCoe Idealize.SL.Sem
open Idealize.ShloMosaic.StableHlo Idealize.ShloMosaic.ValueIdx Cert.Spec Cert.SpecRef
open Facts₀

local notation "𝕍" => Valuation τ sig (Elt Ideal)

/-! ## The arguments keep their contents through window 6 -/
theorem keep6_arg9 (V : 𝕍) : (after (ops6 (F := Ideal)) (after (ops5 (F := Ideal)) (after (ops4 (F := Ideal)) (after (ops3 (F := Ideal)) (after (ops2 (F := Ideal)) (after (ops1 (F := Ideal)) (after (ops0 (F := Ideal)) V))))))) (no_index (Proc.devRef .tc main_arg9)) = V (Proc.devRef .tc main_arg9) := by
  rw [ops6_keep _ main_arg9 (by decide), keep5_arg9]
theorem keep6_arg10 (V : 𝕍) : (after (ops6 (F := Ideal)) (after (ops5 (F := Ideal)) (after (ops4 (F := Ideal)) (after (ops3 (F := Ideal)) (after (ops2 (F := Ideal)) (after (ops1 (F := Ideal)) (after (ops0 (F := Ideal)) V))))))) (no_index (Proc.devRef .tc main_arg10)) = V (Proc.devRef .tc main_arg10) := by
  rw [ops6_keep _ main_arg10 (by decide), keep5_arg10]

/-- After window 6: the projection of the two views side by side, shifted. -/
theorem at6_v344 (V : 𝕍) :
    (after (ops6 (F := Ideal)) (after (ops5 (F := Ideal)) (after (ops4 (F := Ideal)) (after (ops3 (F := Ideal)) (after (ops2 (F := Ideal)) (after (ops1 (F := Ideal)) (after (ops0 (F := Ideal)) V))))))) (no_index (Proc.devRef .tc main_v344))
      = addf (dotCA (concatenate S5000x256 1 [⟨S5000x128, H0_8 V⟩, ⟨S5000x128, H1_8 V⟩] concatenates_S5000x128_S5000x128_S5000x256_d1) (V (Proc.devRef .tc main_arg7))) (rowsD (V (Proc.devRef .tc main_arg8))) := by
  rw [win6_v344]
  simp only [netV1, mV1_5, mV1_6, mV1_7]
  rw [at5_v293, at5_v295, at5_v203, at5_v169, keep5_arg1, keep5_arg6, keep5_arg7, keep5_arg8]
  unfold H1_8 H1_7 H1_6 layerA mixA
  rfl

/-- After window 6: the rectifier's slope. -/
theorem at6_cst72 (V : 𝕍) :
    (after (ops6 (F := Ideal)) (after (ops5 (F := Ideal)) (after (ops4 (F := Ideal)) (after (ops3 (F := Ideal)) (after (ops2 (F := Ideal)) (after (ops1 (F := Ideal)) (after (ops0 (F := Ideal)) V))))))) (no_index (Proc.devRef .tc main_cst_72))
      = kc 0x3C23D70A#32 := by
  rw [win6_cst72]
  all_goals (try simp only [netV0, netV1, xhatV1, mV0_0, mV0_1, mV0_2, mV0_3, mV0_4, mV0_5, mV0_6, mV0_7, mV1_0, mV1_1, mV1_2, mV1_3, mV1_4, mV1_5, mV1_6, mV1_7, at5_v293, at5_v295, at5_v203, at5_v169, keep5_arg1, keep5_arg6, keep5_arg7, keep5_arg8])
  all_goals (try rfl)

/-! ## The result -/

/-- The result buffer after the whole line is the result array of the argument buffers. -/
theorem value_arr (V : 𝕍) : after (ops (F := Ideal)) V (Proc.devRef .tc main_v349) = refArr V := by
  rw [after_ops, win7_v349]
  simp only [at6_v344, at6_cst72, keep6_arg9, keep6_arg10]
  unfold refArr headA
  all_goals (try rfl)

end Cert.ReferenceIdeal.RefValue

end
-- ==== Proof.Ref.ValChain.lean ====
/-
  The reference's result array read at an entry is the model on the reference's normalisation: per view the input
  projection, then the eight layers one after the other, each reading the layer before it, then the head on the two
  views side by side.
-/
import proofs.«129426_g120259084709_cont_main3_741_6_alg».proof.Proof.Ref.ValStages

noncomputable section

namespace Cert.ReferenceIdeal.RefValue

open Cert.ReferenceIdeal Idealize.ShloMosaic Idealize.ShloMosaic.TcCoe Idealize.SL.Sem
open Idealize.ShloMosaic.ValueIdx Cert.Spec Cert.SpecRef
open Facts₀

variable (V : Valuation τ sig (Elt Ideal))

/-- The input projection of the argument arrays, on the reference's normalisation. -/
abbrev XR : Fin 2 → Fin 5000 → Fin 128 → EReal := X0R (argX V) (argG V) (argB V) (argWin V) (argBin V)

/-! ## The views of the adjacency and of the layer weights -/

theorem netV0_apply (r k : Fin 5000) : netV0 V (ix2 r k) = argNet V 0 r k :=
  xView_apply 0 0 rfl _ (V (Proc.devRef .tc main_arg1)) r k
theorem netV1_apply (r k : Fin 5000) : netV1 V (ix2 r k) = argNet V 1 r k :=
  xView_apply 1 1 rfl _ (V (Proc.devRef .tc main_arg1)) r k
theorem mV0_0_apply (q j : Fin 128) : mV0_0 V (ix2 q j) = wOf (argWg V) 0 0 q j :=
  mView_apply 0 0 rfl 0 0 rfl _ (V (Proc.devRef .tc main_arg6)) q j
theorem mV0_1_apply (q j : Fin 128) : mV0_1 V (ix2 q j) = wOf (argWg V) 1 0 q j :=
  mView_apply 0 0 rfl 1 1 rfl _ (V (Proc.devRef .tc main_arg6)) q j
theorem mV0_2_apply (q j : Fin 128) : mV0_2 V (ix2 q j) = wOf (argWg V) 2 0 q j :=
  mView_apply 0 0 rfl 2 2 rfl _ (V (Proc.devRef .tc main_arg6)) q j
theorem mV0_3_apply (q j : Fin 128) : mV0_3 V (ix2 q j) = wOf (argWg V) 3 0 q j :=
  mView_apply 0 0 rfl 3 3 rfl _ (V (Proc.devRef .tc main_arg6)) q j
theorem mV0_4_apply (q j : Fin 128) : mV0_4 V (ix2 q j) = wOf (argWg V) 4 0 q j :=
  mView_apply 0 0 rfl 4 4 rfl _ (V (Proc.devRef .tc main_arg6)) q j
theorem mV0_5_apply (q j : Fin 128) : mV0_5 V (ix2 q j) = wOf (argWg V) 5 0 q j :=
  mView_apply 0 0 rfl 5 5 rfl _ (V (Proc.devRef .tc main_arg6)) q j
theorem mV0_6_apply (q j : Fin 128) : mV0_6 V (ix2 q j) = wOf (argWg V) 6 0 q j :=
  mView_apply 0 0 rfl 6 6 rfl _ (V (Proc.devRef .tc main_arg6)) q j
theorem mV0_7_apply (q j : Fin 128) : mV0_7 V (ix2 q j) = wOf (argWg V) 7 0 q j :=
  mView_apply 0 0 rfl 7 7 rfl _ (V (Proc.devRef .tc main_arg6)) q j
theorem mV1_0_apply (q j : Fin 128) : mV1_0 V (ix2 q j) = wOf (argWg V) 0 1 q j :=
  mView_apply 1 1 rfl 0 0 rfl _ (V (Proc.devRef .tc main_arg6)) q j
theorem mV1_1_apply (q j : Fin 128) : mV1_1 V (ix2 q j) = wOf (argWg V) 1 1 q j :=
  mView_apply 1 1 rfl 1 1 rfl _ (V (Proc.devRef .tc main_arg6)) q j
theorem mV1_2_apply (q j : Fin 128) : mV1_2 V (ix2 q j) = wOf (argWg V) 2 1 q j :=
  mView_apply 1 1 rfl 2 2 rfl _ (V (Proc.devRef .tc main_arg6)) q j
theorem mV1_3_apply (q j : Fin 128) : mV1_3 V (ix2 q j) = wOf (argWg V) 3 1 q j :=
  mView_apply 1 1 rfl 3 3 rfl _ (V (Proc.devRef .tc main_arg6)) q j
theorem mV1_4_apply (q j : Fin 128) : mV1_4 V (ix2 q j) = wOf (argWg V) 4 1 q j :=
  mView_apply 1 1 rfl 4 4 rfl _ (V (Proc.devRef .tc main_arg6)) q j
theorem mV1_5_apply (q j : Fin 128) : mV1_5 V (ix2 q j) = wOf (argWg V) 5 1 q j :=
  mView_apply 1 1 rfl 5 5 rfl _ (V (Proc.devRef .tc main_arg6)) q j
theorem mV1_6_apply (q j : Fin 128) : mV1_6 V (ix2 q j) = wOf (argWg V) 6 1 q j :=
  mView_apply 1 1 rfl 6 6 rfl _ (V (Proc.devRef .tc main_arg6)) q j
theorem mV1_7_apply (q j : Fin 128) : mV1_7 V (ix2 q j) = wOf (argWg V) 7 1 q j :=
  mView_apply 1 1 rfl 7 7 rfl _ (V (Proc.devRef .tc main_arg6)) q j

/-! ## The input projections -/

theorem X0V0_apply (r : Fin 5000) (j : Fin 128) : X0V0 V (ix2 r j) = XR V 0 r j := by
  unfold X0V0
  exact x0A_view 0 0 rfl _ _ _ _ (V (Proc.devRef .tc main_arg0)) (V (Proc.devRef .tc main_arg2)) (V (Proc.devRef .tc main_arg3))
    (V (Proc.devRef .tc main_arg4)) (V (Proc.devRef .tc main_arg5)) r j

theorem X0V1_apply (r : Fin 5000) (j : Fin 128) : X0V1 V (ix2 r j) = XR V 1 r j := by
  unfold X0V1
  exact x0A_view 1 1 rfl _ _ _ _ (V (Proc.devRef .tc main_arg0)) (V (Proc.devRef .tc main_arg2)) (V (Proc.devRef .tc main_arg3))
    (V (Proc.devRef .tc main_arg4)) (V (Proc.devRef .tc main_arg5)) r j

/-! ## The layers, each from the one before -/

theorem H0_1_apply (r : Fin 5000) (j : Fin 128) : H0_1 V (ix2 r j) = h1 (argNet V) (XR V) (argWg V) 0 r j := by
  unfold H0_1 h1
  exact layerA_spec 0x3F183370#32 0x3ECF991F#32 (netV0 V) (X0V0 V) (X0V0 V) (mV0_0 V) (argNet V) (XR V) (XR V)
    (wOf (argWg V) 0) 0 (netV0_apply V) (X0V0_apply V) (X0V0_apply V) (mV0_0_apply V) r j

theorem H0_2_apply (r : Fin 5000) (j : Fin 128) : H0_2 V (ix2 r j) = h2 (argNet V) (XR V) (argWg V) 0 r j := by
  unfold H0_2 h2
  exact layerA_spec 0x3F46E010#32 0x3E647FBE#32 (netV0 V) (H0_1 V) (X0V0 V) (mV0_1 V) (argNet V) (h1 (argNet V) (XR V) (argWg V)) (XR V)
    (wOf (argWg V) 1) 0 (netV0_apply V) (H0_1_apply V) (X0V0_apply V) (mV0_1_apply V) r j

theorem H0_3_apply (r : Fin 5000) (j : Fin 128) : H0_3 V (ix2 r j) = h3 (argNet V) (XR V) (argWg V) 0 r j := by
  unfold H0_3 h3
  exact layerA_spec 0x3F588995#32 0x3E1DD9AD#32 (netV0 V) (H0_2 V) (X0V0 V) (mV0_2 V) (argNet V) (h2 (argNet V) (XR V) (argWg V)) (XR V)
    (wOf (argWg V) 2) 0 (netV0_apply V) (H0_2_apply V) (X0V0_apply V) (mV0_2_apply V) r j

theorem H0_4_apply (r : Fin 5000) (j : Fin 128) : H0_4 V (ix2 r j) = h4 (argNet V) (XR V) (argWg V) 0 r j := by
  unfold H0_4 h4
  exact layerA_spec 0x3F61D8F9#32 0x3DF1383B#32 (netV0 V) (H0_3 V) (X0V0 V) (mV0_3 V) (argNet V) (h3 (argNet V) (XR V) (argWg V)) (XR V)
    (wOf (argWg V) 3) 0 (netV0_apply V) (H0_3_apply V) (X0V0_apply V) (mV0_3_apply V) r j

theorem H0_5_apply (r : Fin 5000) (j : Fin 128) : H0_5 V (ix2 r j) = h5 (argNet V) (XR V) (argWg V) 0 r j := by
  unfold H0_5 h5
  exact layerA_spec 0x3F6799C1#32 0x3DC331FC#32 (netV0 V) (H0_4 V) (X0V0 V) (mV0_4 V) (argNet V) (h4 (argNet V) (XR V) (argWg V)) (XR V)
    (wOf (argWg V) 4) 0 (netV0_apply V) (H0_4_apply V) (X0V0_apply V) (mV0_4_apply V) r j

theorem H0_6_apply (r : Fin 5000) (j : Fin 128) : H0_6 V (ix2 r j) = h6 (argNet V) (XR V) (argWg V) 0 r j := by
  unfold H0_6 h6
  exact layerA_spec 0x3F6B8252#32 0x3DA3ED6E#32 (netV0 V) (H0_5 V) (X0V0 V) (mV0_5 V) (argNet V) (h5 (argNet V) (XR V) (argWg V)) (XR V)
    (wOf (argWg V) 5) 0 (netV0_apply V) (H0_5_apply V) (X0V0_apply V) (mV0_5_apply V) r j

theorem H0_7_apply (r : Fin 5000) (j : Fin 128) : H0_7 V (ix2 r j) = h7 (argNet V) (XR V) (argWg V) 0 r j := by
  unfold H0_7 h7
  exact layerA_spec 0x3F6E567C#32 0x3D8D4C22#32 (netV0 V) (H0_6 V) (X0V0 V) (mV0_6 V) (argNet V) (h6 (argNet V) (XR V) (argWg V)) (XR V)
    (wOf (argWg V) 6) 0 (netV0_apply V) (H0_6_apply V) (X0V0_apply V) (mV0_6_apply V) r j

theorem H0_8_apply (r : Fin 5000) (j : Fin 128) : H0_8 V (ix2 r j) = h8 (argNet V) (XR V) (argWg V) 0 r j := by
  unfold H0_8 h8
  exact layerA_spec 0x3F707AE8#32 0x3D785186#32 (netV0 V) (H0_7 V) (X0V0 V) (mV0_7 V) (argNet V) (h7 (argNet V) (XR V) (argWg V)) (XR V)
    (wOf (argWg V) 7) 0 (netV0_apply V) (H0_7_apply V) (X0V0_apply V) (mV0_7_apply V) r j

theorem H1_1_apply (r : Fin 5000) (j : Fin 128) : H1_1 V (ix2 r j) = h1 (argNet V) (XR V) (argWg V) 1 r j := by
  unfold H1_1 h1
  exact layerA_spec 0x3F183370#32 0x3ECF991F#32 (netV1 V) (X0V1 V) (X0V1 V) (mV1_0 V) (argNet V) (XR V) (XR V)
    (wOf (argWg V) 0) 1 (netV1_apply V) (X0V1_apply V) (X0V1_apply V) (mV1_0_apply V) r j

theorem H1_2_apply (r : Fin 5000) (j : Fin 128) : H1_2 V (ix2 r j) = h2 (argNet V) (XR V) (argWg V) 1 r j := by
  unfold H1_2 h2
  exact layerA_spec 0x3F46E010#32 0x3E647FBE#32 (netV1 V) (H1_1 V) (X0V1 V) (mV1_1 V) (argNet V) (h1 (argNet V) (XR V) (argWg V)) (XR V)
    (wOf (argWg V) 1) 1 (netV1_apply V) (H1_1_apply V) (X0V1_apply V) (mV1_1_apply V) r j

theorem H1_3_apply (r : Fin 5000) (j : Fin 128) : H1_3 V (ix2 r j) = h3 (argNet V) (XR V) (argWg V) 1 r j := by
  unfold H1_3 h3
  exact layerA_spec 0x3F588995#32 0x3E1DD9AD#32 (netV1 V) (H1_2 V) (X0V1 V) (mV1_2 V) (argNet V) (h2 (argNet V) (XR V) (argWg V)) (XR V)
    (wOf (argWg V) 2) 1 (netV1_apply V) (H1_2_apply V) (X0V1_apply V) (mV1_2_apply V) r j

theorem H1_4_apply (r : Fin 5000) (j : Fin 128) : H1_4 V (ix2 r j) = h4 (argNet V) (XR V) (argWg V) 1 r j := by
  unfold H1_4 h4
  exact layerA_spec 0x3F61D8F9#32 0x3DF1383B#32 (netV1 V) (H1_3 V) (X0V1 V) (mV1_3 V) (argNet V) (h3 (argNet V) (XR V) (argWg V)) (XR V)
    (wOf (argWg V) 3) 1 (netV1_apply V) (H1_3_apply V) (X0V1_apply V) (mV1_3_apply V) r j

theorem H1_5_apply (r : Fin 5000) (j : Fin 128) : H1_5 V (ix2 r j) = h5 (argNet V) (XR V) (argWg V) 1 r j := by
  unfold H1_5 h5
  exact layerA_spec 0x3F6799C1#32 0x3DC331FC#32 (netV1 V) (H1_4 V) (X0V1 V) (mV1_4 V) (argNet V) (h4 (argNet V) (XR V) (argWg V)) (XR V)
    (wOf (argWg V) 4) 1 (netV1_apply V) (H1_4_apply V) (X0V1_apply V) (mV1_4_apply V) r j

theorem H1_6_apply (r : Fin 5000) (j : Fin 128) : H1_6 V (ix2 r j) = h6 (argNet V) (XR V) (argWg V) 1 r j := by
  unfold H1_6 h6
  exact layerA_spec 0x3F6B8252#32 0x3DA3ED6E#32 (netV1 V) (H1_5 V) (X0V1 V) (mV1_5 V) (argNet V) (h5 (argNet V) (XR V) (argWg V)) (XR V)
    (wOf (argWg V) 5) 1 (netV1_apply V) (H1_5_apply V) (X0V1_apply V) (mV1_5_apply V) r j

theorem H1_7_apply (r : Fin 5000) (j : Fin 128) : H1_7 V (ix2 r j) = h7 (argNet V) (XR V) (argWg V) 1 r j := by
  unfold H1_7 h7
  exact layerA_spec 0x3F6E567C#32 0x3D8D4C22#32 (netV1 V) (H1_6 V) (X0V1 V) (mV1_6 V) (argNet V) (h6 (argNet V) (XR V) (argWg V)) (XR V)
    (wOf (argWg V) 6) 1 (netV1_apply V) (H1_6_apply V) (X0V1_apply V) (mV1_6_apply V) r j

theorem H1_8_apply (r : Fin 5000) (j : Fin 128) : H1_8 V (ix2 r j) = h8 (argNet V) (XR V) (argWg V) 1 r j := by
  unfold H1_8 h8
  exact layerA_spec 0x3F707AE8#32 0x3D785186#32 (netV1 V) (H1_7 V) (X0V1 V) (mV1_7 V) (argNet V) (h7 (argNet V) (XR V) (argWg V)) (XR V)
    (wOf (argWg V) 7) 1 (netV1_apply V) (H1_7_apply V) (X0V1_apply V) (mV1_7_apply V) r j

/-! ## The result -/

/-- The reference's result array at row `r`, class `t`. -/
theorem refArr_apply (r t : Fin 5000) :
    refArr V (ix2 r t) = Cert.SpecRef.modelRef (argX V) (argNet V) (argG V) (argB V) (argWin V) (argBin V) (argWg V) (argWc V)
      (argBc V) (argWo V) (argBo V) r t := by
  unfold refArr modelRef
  exact headA_apply (H0_8 V) (H1_8 V) (V (Proc.devRef .tc main_arg7)) (V (Proc.devRef .tc main_arg8)) (V (Proc.devRef .tc main_arg9))
    (V (Proc.devRef .tc main_arg10)) (h8 (argNet V) (XR V) (argWg V)) (H0_8_apply V) (H1_8_apply V) r t

end Cert.ReferenceIdeal.RefValue

end
-- ==== Proof.Ref.Value.lean ====
/-
  The reference's value: its result buffer, read at row `r` and class `t`, is the model on the reference's own
  normalisation, of the argument buffers read by coordinates.
-/
import proofs.«129426_g120259084709_cont_main3_741_6_alg».proof.Proof.Ref.ValueArr
import proofs.«129426_g120259084709_cont_main3_741_6_alg».proof.Proof.Ref.ValChain

noncomputable section

namespace Cert.ReferenceIdeal.RefValue

open Cert.ReferenceIdeal Cert.ReferenceIdeal.RefRun Idealize.ShloMosaic Idealize.ShloMosaic.TcCoe Idealize.SL.Sem
open Idealize.ShloMosaic.StableHlo Idealize.ShloMosaic.ValueIdx Cert.Spec Cert.SpecRef

/-- The whole-array reading of the run, then the result array read at an index. -/
theorem value (V : Valuation τ sig (Elt Ideal)) (r t : Fin 5000) :
    StableHlo.after (RefRun.ops (F := Ideal)) V (Proc.devRef .tc main_v349) (ValueIdx.ix2 r t)
      = Cert.SpecRef.modelRef (argX V) (argNet V) (argG V) (argB V) (argWin V) (argBin V) (argWg V) (argWc V) (argBc V)
          (argWo V) (argBo V) r t := by
  rw [value_arr]
  exact refArr_apply V r t

end Cert.ReferenceIdeal.RefValue

end
-- ==== Proof.Algebra.lean ====
/-
  The batch-norm algebra.  The kernel normalises a column with the variance taken as the mean of the squares
  minus the squared mean and multiplies by the reciprocal square root; the reference takes the variance as the
  mean of the squared deviations and divides by the square root.  On finite entries every intermediate value is
  a real, the two variances are the same real (the classical identity), the shifted variance is positive, and
  both normalised entries are the same real.
-/
import proofs.«129426_g120259084709_cont_main3_741_6_alg».proof.Proof.Spec
import proofs.«129426_g120259084709_cont_main3_741_6_alg».proof.Proof.SpecRef
import Mathlib.Tactic

noncomputable section
namespace Cert.Algebra
open Idealize.ShloMosaic Cert.Spec

/-- The count word denotes the real 5000. -/
theorem lit_5000 : lit 0x459C4000#32 = ((5000 : ℝ) : EReal) := by
  simp [lit, Ideal.ofBits, Ideal.ieee, -EReal.coe_mul]; norm_num

/-- The shift word denotes a positive real. -/
theorem lit_eps : ∃ e : ℝ, 0 < e ∧ lit 0x3727C5AC#32 = (e : EReal) := by
  refine ⟨_, ?_, by simp [lit, Ideal.ofBits, Ideal.ieee, -EReal.coe_mul]; rfl⟩
  positivity

/-- The coercion of reals commutes with finite sums. -/
theorem coe_sum {ι : Type*} (s : Finset ι) (f : ι → ℝ) :
    (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

/-- The quotient of two reals, the divisor nonzero, is the real quotient. -/
theorem div_coe_coe (x y : ℝ) (hy : y ≠ 0) : Ideal.div (x : EReal) (y : EReal) = ((x / y : ℝ) : EReal) := by
  rw [Ideal.div_coe hy, ← EReal.coe_mul, mul_one_div]

/-- The reciprocal square root at a positive real. -/
theorem rsqrt_coe_pos (r : ℝ) (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.2 h.le), if_neg h.ne']

/-- The square root at a nonnegative real. -/
theorem sqrt_coe_nonneg (r : ℝ) (h : 0 ≤ r) : Ideal.sqrt (r : EReal) = ((Real.sqrt r : ℝ) : EReal) := by
  show (if r < 0 then ⊥ else ((Real.sqrt r : ℝ) : EReal)) = _
  rw [if_neg (not_lt.2 h)]

/-- The mean of the squared deviations from the mean is the mean of the squares minus the squared mean. -/
theorem var_identity {n : ℕ} (a : Fin n → ℝ) (c : ℝ) (hc : c ≠ 0) (hn : (n : ℝ) = c) :
    (∑ r, (a r - (∑ r, a r) / c) * (a r - (∑ r, a r) / c)) / c
      = (∑ r, a r * a r) / c - ((∑ r, a r) / c) * ((∑ r, a r) / c) := by
  set μ := (∑ r, a r) / c with hμ
  have h1 : ∑ r, (a r - μ) * (a r - μ) = (∑ r, a r * a r) - 2 * μ * (∑ r, a r) + (n : ℝ) * (μ * μ) := by
    have : ∀ r, (a r - μ) * (a r - μ) = a r * a r - 2 * μ * a r + μ * μ := fun r => by ring
    simp only [this, Finset.sum_add_distrib, Finset.sum_sub_distrib, ← Finset.mul_sum, Finset.sum_const,
      Finset.card_univ, Fintype.card_fin, nsmul_eq_mul]
    ring
  have h2 : ∑ r, a r = μ * c := by rw [hμ]; field_simp
  rw [h1, hn, h2]; field_simp; ring

section Main
variable (x : Fin 2 → Fin 5000 → Fin 5000 → EReal) (γ β : Fin 2 → Fin 5000 → EReal)

/-- With finite entries the two normalisations agree entry by entry: both are the same real. -/
theorem xhatR_eq_xhat
    (hx : ∀ v r k, ∃ a : ℝ, x v r k = (a : EReal)) (hγ : ∀ v k, ∃ a : ℝ, γ v k = (a : EReal))
    (hβ : ∀ v k, ∃ a : ℝ, β v k = (a : EReal)) (v : Fin 2) (r k : Fin 5000) :
    Cert.SpecRef.xhatR x γ β v r k = Cert.Spec.xhat (colSum x) (colSq x) x γ β v r k := by
  obtain ⟨e, he0, he⟩ := lit_eps
  choose a ha using fun r => hx v r k
  obtain ⟨g, hg⟩ := hγ v k
  obtain ⟨b, hb⟩ := hβ v k
  have h5 : (5000 : ℝ) ≠ 0 := by norm_num
  have hS : (∑ r : Fin 5000, x v r k) = ((∑ r, a r : ℝ) : EReal) := by
    simp only [ha]; exact coe_sum _ _
  have hQ : (∑ r : Fin 5000, x v r k * x v r k) = ((∑ r, a r * a r : ℝ) : EReal) := by
    simp only [ha, ← EReal.coe_mul]; exact coe_sum _ _
  have hmean : Cert.Spec.mean (colSum x) v k = (((∑ r, a r) / 5000 : ℝ) : EReal) := by
    unfold Cert.Spec.mean colSum; rw [hS, lit_5000, div_coe_coe _ _ h5]
  have hmeanR : Cert.SpecRef.meanR x v k = (((∑ r, a r) / 5000 : ℝ) : EReal) := by
    unfold Cert.SpecRef.meanR; rw [hS, lit_5000, div_coe_coe _ _ h5]
  have hvar : Cert.Spec.var (colSum x) (colSq x) v k
      = (((∑ r, a r * a r) / 5000 - ((∑ r, a r) / 5000) * ((∑ r, a r) / 5000) : ℝ) : EReal) := by
    unfold Cert.Spec.var; rw [hmean]; unfold colSq
    rw [hQ, lit_5000, div_coe_coe _ _ h5, ← EReal.coe_mul, ← EReal.coe_sub]
  have hvarR : Cert.SpecRef.varR x v k
      = (((∑ r, (a r - (∑ r, a r) / 5000) * (a r - (∑ r, a r) / 5000)) / 5000 : ℝ) : EReal) := by
    unfold Cert.SpecRef.varR; rw [hmeanR, Cert.SpecRef.cntR_eq, lit_5000]
    simp only [ha, ← EReal.coe_sub, ← EReal.coe_mul]
    rw [coe_sum, div_coe_coe _ _ h5]
  have hid := var_identity a 5000 h5 (by norm_num)
  have hV0 : 0 ≤ (∑ r, (a r - (∑ r, a r) / 5000) * (a r - (∑ r, a r) / 5000)) / 5000 :=
    div_nonneg (Finset.sum_nonneg fun r _ => mul_self_nonneg _) (by norm_num)
  have hpos : 0 < (∑ r, (a r - (∑ r, a r) / 5000) * (a r - (∑ r, a r) / 5000)) / 5000 + e := by linarith
  have hsq : Real.sqrt ((∑ r, (a r - (∑ r, a r) / 5000) * (a r - (∑ r, a r) / 5000)) / 5000 + e) ≠ 0 :=
    (Real.sqrt_pos.2 hpos).ne'
  unfold Cert.SpecRef.xhatR Cert.Spec.xhat Cert.Spec.scale
  rw [hvar, hvarR, hmean, hmeanR, ← hid, he, ha r, hg, hb, ← EReal.coe_add,
    rsqrt_coe_pos _ hpos, sqrt_coe_nonneg _ hpos.le, ← EReal.coe_sub, div_coe_coe _ _ hsq,
    ← EReal.coe_mul, ← EReal.coe_mul, ← EReal.coe_mul, ← EReal.coe_add, ← EReal.coe_add]
  congr 1; ring

/-- The reference's input projection is the specification's. -/
theorem X0R_eq_X0
    (hx : ∀ v r k, ∃ a : ℝ, x v r k = (a : EReal)) (hγ : ∀ v k, ∃ a : ℝ, γ v k = (a : EReal))
    (hβ : ∀ v k, ∃ a : ℝ, β v k = (a : EReal))
    (Win : Fin 2 → Fin 5000 → Fin 128 → EReal) (bin : Fin 2 → Fin 128 → EReal) :
    Cert.SpecRef.X0R x γ β Win bin = Cert.Spec.X0 x γ β Win bin := by
  funext v r j
  unfold Cert.SpecRef.X0R Cert.Spec.X0 Cert.Spec.x0
  simp only [xhatR_eq_xhat x γ β hx hγ hβ]

end Main

end Cert.Algebra
end
-- ==== Proof.Finite.lean ====
/-
  Finiteness.  The precondition is a conjunction of eleven `all (|a| < +∞)`, one per argument array.  Read back
  for the features, the batch-norm scales and the batch-norm shifts it says every entry is a real: an extended
  real whose absolute value `max a (-a)` is below `+∞` is neither infinity.
-/
import proofs.«129426_g120259084709_cont_main3_741_6_alg».proof.Defs
import Idealize.ShloMosaic.Lib.ReduceAll
import Idealize.ShloMosaic.Lib.ValueIdx

noncomputable section
namespace Cert.Finite
open Idealize.ShloMosaic Cert.Pre_finite_inputs

instance : Subsingleton S_.Idx := ⟨fun a b => funext fun d => d.elim0⟩

/-- The bound word denotes `+∞`. -/
theorem inf_word : Ideal.ofBits .f32 0x7F800000#32 = ⊤ := by
  simp [Ideal.ofBits, Ideal.ieee]

/-- An extended real whose absolute value is below `+∞` is a real. -/
theorem real_of_abs_lt (x : EReal) (h : Ideal.cmp .olt (max x (-x)) (Ideal.ofBits .f32 0x7F800000#32) = 1#1) :
    ∃ a : ℝ, x = (a : EReal) := by
  rw [inf_word] at h
  induction x using EReal.rec with
  | bot => exact absurd h (by simp [Ideal.cmp])
  | top => exact absurd h (by simp [Ideal.cmp])
  | coe a => exact ⟨a, rfl⟩

variable [Facts]

/-- One `all (|a| < +∞)` read back: every entry of `a` is a real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf CmpFPredicate.olt (Host.absf a) (broadcastInDim s ![] hb (constant (F := Ideal) S_ FTy.f32 0x7F800000#32)))
          (constantI S_ 1 1#1) hr hu ValueIdx.ix0 = 1#1) (i : s.Idx) : ∃ r : ℝ, a i = (r : EReal) :=
  real_of_abs_lt (a i) (Host.reduce_andi_all _ _ hr hu ValueIdx.ix0 e i)

/-- The precondition's and-tree read back for the features, the scales and the shifts. -/
theorem fn_real (a0 a1 : FVec Ideal S2x5000x5000 .f32) (a2 a3 : FVec Ideal S2x5000 .f32)
    (a4 : FVec Ideal S2x5000x128 .f32) (a5 : FVec Ideal S2x128 .f32) (a6 : FVec Ideal S2x8x128x128 .f32)
    (a7 : FVec Ideal S256x128 .f32) (a8 : FVec Ideal S128 .f32) (a9 : FVec Ideal S128x5000 .f32)
    (a10 : FVec Ideal S5000 .f32)
    (h : fn (F := Ideal) a0 a1 a2 a3 a4 a5 a6 a7 a8 a9 a10 = fun _ => 1#1) :
    (∀ i, ∃ r : ℝ, a0 i = (r : EReal)) ∧ (∀ i, ∃ r : ℝ, a2 i = (r : EReal)) ∧ (∀ i, ∃ r : ℝ, a3 i = (r : EReal)) := by
  have h0 := congrFun h ValueIdx.ix0
  dsimp only [fn, fn_part1, fn_part2, fn_part3] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  obtain ⟨h6, -⟩ := IntOp.andi_eq_one.1 h5
  obtain ⟨h7, -⟩ := IntOp.andi_eq_one.1 h6
  obtain ⟨h8, e3⟩ := IntOp.andi_eq_one.1 h7
  obtain ⟨h9, e2⟩ := IntOp.andi_eq_one.1 h8
  obtain ⟨e0, -⟩ := IntOp.andi_eq_one.1 h9
  exact ⟨all_real a0 _ _ _ e0, all_real a2 _ _ _ e2, all_real a3 _ _ _ e3⟩

/-- Under the kernel's precondition the features, the scales and the shifts are real at every index, on every core. -/
theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S2x5000x5000.Idx, ∃ a : ℝ,
        (m ((c.tc : Thread Cert.KernelIdeal.nD Cert.KernelIdeal.τ).loc Cert.KernelIdeal.main_arg0) : FVec Ideal S2x5000x5000 .f32) i = (a : EReal))
    ∧ (∀ i : S2x5000.Idx, ∃ a : ℝ,
        (m ((c.tc : Thread Cert.KernelIdeal.nD Cert.KernelIdeal.τ).loc Cert.KernelIdeal.main_arg2) : FVec Ideal S2x5000 .f32) i = (a : EReal))
    ∧ (∀ i : S2x5000.Idx, ∃ a : ℝ,
        (m ((c.tc : Thread Cert.KernelIdeal.nD Cert.KernelIdeal.τ).loc Cert.KernelIdeal.main_arg3) : FVec Ideal S2x5000 .f32) i = (a : EReal)) :=
  fn_real _ _ _ _ _ _ _ _ _ _ _ (h c)

theorem x_real (m : (ℓ : Loc Cert.KernelIdeal.nD Cert.KernelIdeal.τ Cert.KernelIdeal.sig) → Buf (Elt Ideal) ℓ)
    (h : Cert.Pre_KernelIdeal m) (c : Dev Cert.KernelIdeal.nD) (i : S2x5000x5000.Idx) : ∃ a : ℝ,
      (m ((c.tc : Thread Cert.KernelIdeal.nD Cert.KernelIdeal.τ).loc Cert.KernelIdeal.main_arg0) : FVec Ideal S2x5000x5000 .f32) i = (a : EReal) :=
  (pre_real m h c).1 i

theorem gamma_real (m : (ℓ : Loc Cert.KernelIdeal.nD Cert.KernelIdeal.τ Cert.KernelIdeal.sig) → Buf (Elt Ideal) ℓ)
    (h : Cert.Pre_KernelIdeal m) (c : Dev Cert.KernelIdeal.nD) (i : S2x5000.Idx) : ∃ a : ℝ,
      (m ((c.tc : Thread Cert.KernelIdeal.nD Cert.KernelIdeal.τ).loc Cert.KernelIdeal.main_arg2) : FVec Ideal S2x5000 .f32) i = (a : EReal) :=
  (pre_real m h c).2.1 i

theorem beta_real (m : (ℓ : Loc Cert.KernelIdeal.nD Cert.KernelIdeal.τ Cert.KernelIdeal.sig) → Buf (Elt Ideal) ℓ)
    (h : Cert.Pre_KernelIdeal m) (c : Dev Cert.KernelIdeal.nD) (i : S2x5000.Idx) : ∃ a : ℝ,
      (m ((c.tc : Thread Cert.KernelIdeal.nD Cert.KernelIdeal.τ).loc Cert.KernelIdeal.main_arg3) : FVec Ideal S2x5000 .f32) i = (a : EReal) :=
  (pre_real m h c).2.2 i

end Cert.Finite
end
-- ==== Proof.RefSide.lean ====
/-
  The reference side.  The reference program runs and leaves its arguments as they were; its result, index by index,
  is the reference's own model of its arguments, and on finite features, scales and shifts that model is the
  specification's: the two differ only in how the columns are normalised, and the batch-norm algebra identifies the
  two normalisations.
-/
import proofs.«129426_g120259084709_cont_main3_741_6_alg».proof.Defs
import proofs.«129426_g120259084709_cont_main3_741_6_alg».proof.Proof.Gen.ReferenceIdeal
import proofs.«129426_g120259084709_cont_main3_741_6_alg».proof.Proof.Gen.Pre_finite_inputs
import proofs.«129426_g120259084709_cont_main3_741_6_alg».proof.Proof.Ref.Run
import proofs.«129426_g120259084709_cont_main3_741_6_alg».proof.Proof.Ref.Value
import proofs.«129426_g120259084709_cont_main3_741_6_alg».proof.Proof.Algebra
import proofs.«129426_g120259084709_cont_main3_741_6_alg».proof.Proof.Finite
import Idealize.ShloMosaic.Lib.ValueIdx

noncomputable section
namespace Cert.Proof.RefSide
open Idealize.ShloMosaic Idealize.SL.Sem Idealize.ShloMosaic.ValueIdx
open Cert.ReferenceIdeal Cert.ReferenceIdeal.RefValue

/-- The reference program runs from any memory and leaves its eleven arguments as they were. -/
theorem frame_ri : Cert.frame_ReferenceIdeal (hReferenceIdeal := Cert.ReferenceIdeal.Gen.facts)
    (hPre_finite_inputs := Cert.Pre_finite_inputs.Gen.facts) :=
  fun m ρ _ => (θ_run (Cert.ReferenceIdeal.defs (F := Ideal)) _ _).mono (fun _ h c => (h c).2)
    (Cert.ReferenceIdeal.RefRun.run (F := Ideal) m ρ)

/-- On finite features, scales and shifts the reference's model is the specification's: the two differ only in the
    normalisation inside the input projection. -/
theorem modelRef_eq_model (x net : Fin 2 → Fin 5000 → Fin 5000 → EReal) (γ β : Fin 2 → Fin 5000 → EReal)
    (Win : Fin 2 → Fin 5000 → Fin 128 → EReal) (bin : Fin 2 → Fin 128 → EReal)
    (Wg : Fin 2 → Fin 8 → Fin 128 → Fin 128 → EReal) (Wc : Fin 256 → Fin 128 → EReal) (bc : Fin 128 → EReal)
    (Wo : Fin 128 → Fin 5000 → EReal) (bo : Fin 5000 → EReal)
    (hx : ∀ v r k, ∃ a : ℝ, x v r k = (a : EReal)) (hγ : ∀ v k, ∃ a : ℝ, γ v k = (a : EReal))
    (hβ : ∀ v k, ∃ a : ℝ, β v k = (a : EReal)) :
    Cert.SpecRef.modelRef x net γ β Win bin Wg Wc bc Wo bo = Cert.Spec.model x net γ β Win bin Wg Wc bc Wo bo := by
  unfold Cert.SpecRef.modelRef Cert.Spec.model
  rw [Cert.Algebra.X0R_eq_X0 x γ β hx hγ hβ Win bin]

/-- The reference's result at row `r`, class `t` is the specification's model of its own arguments read by
    coordinates, when the features, the scales and the shifts it was launched with are real on that core. -/
theorem ref_model (m' : (ℓ : Loc nD τ sig) → Buf (Elt Ideal) ℓ) (c : Dev nD)
    (hx : ∀ i : S2x5000x5000.Idx, ∃ a : ℝ,
      (m' ((c.tc : Thread nD τ).loc main_arg0) : FVec Ideal S2x5000x5000 .f32) i = (a : EReal))
    (hγ : ∀ i : S2x5000.Idx, ∃ a : ℝ,
      (m' ((c.tc : Thread nD τ).loc main_arg2) : FVec Ideal S2x5000 .f32) i = (a : EReal))
    (hβ : ∀ i : S2x5000.Idx, ∃ a : ℝ,
      (m' ((c.tc : Thread nD τ).loc main_arg3) : FVec Ideal S2x5000 .f32) i = (a : EReal))
    (r t : Fin 5000) :
    StableHlo.after (RefRun.ops (F := Ideal)) (fun b => m' (c, b)) (Proc.devRef .tc main_v349) (ValueIdx.ix2 r t)
      = Cert.Spec.model (argX (fun b => m' (c, b))) (argNet (fun b => m' (c, b))) (argG (fun b => m' (c, b)))
          (argB (fun b => m' (c, b))) (argWin (fun b => m' (c, b))) (argBin (fun b => m' (c, b)))
          (argWg (fun b => m' (c, b))) (argWc (fun b => m' (c, b))) (argBc (fun b => m' (c, b)))
          (argWo (fun b => m' (c, b))) (argBo (fun b => m' (c, b))) r t := by
  rw [RefValue.value (fun b => m' (c, b)) r t]
  exact congrFun (congrFun (modelRef_eq_model _ _ _ _ _ _ _ _ _ _ _
    (fun v r k => hx (ix3 v r k)) (fun v k => hγ (ix2 v k)) (fun v k => hβ (ix2 v k))) r) t

/-- The same from the kernel's precondition, for a reference memory that agrees with the kernel's on the features,
    the scales and the shifts. -/
theorem ref_model_of_pre
    (m : (ℓ : Loc Cert.KernelIdeal.nD Cert.KernelIdeal.τ Cert.KernelIdeal.sig) → Buf (Elt Ideal) ℓ)
    (m' : (ℓ : Loc nD τ sig) → Buf (Elt Ideal) ℓ) (hpre : Cert.Pre_KernelIdeal (hPre_finite_inputs := Cert.Pre_finite_inputs.Gen.facts) m)
    (c : Dev Cert.KernelIdeal.nD)
    (h0 : m' ((c.tc : Thread nD τ).loc main_arg0) = m ((c.tc : Thread Cert.KernelIdeal.nD Cert.KernelIdeal.τ).loc Cert.KernelIdeal.main_arg0))
    (h2 : m' ((c.tc : Thread nD τ).loc main_arg2) = m ((c.tc : Thread Cert.KernelIdeal.nD Cert.KernelIdeal.τ).loc Cert.KernelIdeal.main_arg2))
    (h3 : m' ((c.tc : Thread nD τ).loc main_arg3) = m ((c.tc : Thread Cert.KernelIdeal.nD Cert.KernelIdeal.τ).loc Cert.KernelIdeal.main_arg3))
    (r t : Fin 5000) :
    StableHlo.after (RefRun.ops (F := Ideal)) (fun b => m' (c, b)) (Proc.devRef .tc main_v349) (ValueIdx.ix2 r t)
      = Cert.Spec.model (argX (fun b => m' (c, b))) (argNet (fun b => m' (c, b))) (argG (fun b => m' (c, b)))
          (argB (fun b => m' (c, b))) (argWin (fun b => m' (c, b))) (argBin (fun b => m' (c, b)))
          (argWg (fun b => m' (c, b))) (argWc (fun b => m' (c, b))) (argBc (fun b => m' (c, b)))
          (argWo (fun b => m' (c, b))) (argBo (fun b => m' (c, b))) r t :=
  ref_model m' c
    (fun i => (Cert.Finite.x_real m hpre c i).imp fun a ha => (congrFun h0 i).trans ha)
    (fun i => (Cert.Finite.gamma_real m hpre c i).imp fun a ha => (congrFun h2 i).trans ha)
    (fun i => (Cert.Finite.beta_real m hpre c i).imp fun a ha => (congrFun h3 i).trans ha) r t

end Cert.Proof.RefSide
end
-- ==== Proof.lean ====
/-
  The certificate of the two-view graph-convolution kernel against its reference.

  The kernel program runs eleven pipelined regions between stretches of layout operations: the column sums and sums of
  squares of the features, accumulated over five row blocks; the normalisation with those statistics fused with the input
  projection and the leaky rectifier; eight propagation layers h ↦ max (b₁·s + b₂·(s W), 0), s = ½·(net h) + ½·x₀, the
  adjacency read in a narrower float format, which is the identity on the extended reals; and the head on the two views laid
  side by side.  The reference computes the same model with plain array operations, the variance as the mean of the squared
  deviations and the normalisation as a quotient by a square root.

  Frames: each program's run is followed boundary by boundary; no segment writes an argument array.
  The idealization rewrote nothing, so it preserves the program trivially.
  Equality of the results on the extended reals: the kernel's result array is the model of the arguments with the variance as
  the mean of squares minus the squared mean and the normalisation as a product with a reciprocal square root; the
  reference's is the model with its own arrangement; for finite features, scales and shifts the two normalisations are one
  function of the reals (the variance identity, and a positive variance plus ε), and everything after the normalisation is
  the same formula on both sides, a matrix product being the same sum however it is tiled.
-/
import proofs.«129426_g120259084709_cont_main3_741_6_alg».proof.Defs
import proofs.«129426_g120259084709_cont_main3_741_6_alg».proof.Proof.Gen.Kernel
import proofs.«129426_g120259084709_cont_main3_741_6_alg».proof.Proof.Gen.KernelIdeal
import proofs.«129426_g120259084709_cont_main3_741_6_alg».proof.Proof.Gen.ReferenceIdeal
import proofs.«129426_g120259084709_cont_main3_741_6_alg».proof.Proof.Gen.Pre_finite_inputs
import proofs.«129426_g120259084709_cont_main3_741_6_alg».proof.Proof.K.Run
import proofs.«129426_g120259084709_cont_main3_741_6_alg».proof.Proof.KI.Result
import proofs.«129426_g120259084709_cont_main3_741_6_alg».proof.Proof.RefSide
import Idealize.ShloMosaic.Adequacy
import Idealize.ShloMosaic.Init

set_option maxRecDepth 16384

noncomputable section

namespace Cert.Proof

open Idealize.ShloMosaic Idealize.SL.Sem Idealize.ShloMosaic.ValueIdx

/-- The word-level program runs and leaves its arguments as launched. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The two idealized programs, from memories agreeing on the arguments, end with the same result array: the model of the
    arguments, the two arrangements of the normalisation agreeing on finite inputs. -/
theorem algebraic : Cert.algebraic_KernelIdeal_ReferenceIdeal := by
  intro m ρ m' ρ' hpre hagree
  refine ⟨fun c => Cert.KernelIdeal.Hand.W21 (F := Ideal) m ρ c (Proc.devRef .tc Cert.KernelIdeal.main_v37), ?_, ?_⟩
  · refine (θ_run (Cert.KernelIdeal.defs (F := Ideal)) _ _).mono (fun r h c => ?_) (Cert.KernelIdeal.Hand.run_all (F := Ideal) m ρ)
    exact ⟨h c _ (Cert.KernelIdeal.Hand.mem_uc Cert.KernelIdeal.main_v37 (by decide)),
      (h c _ (Cert.KernelIdeal.Hand.mem_uc Cert.KernelIdeal.main_arg0 (by decide))).trans (Cert.KernelIdeal.Hand.W21_main_arg0 m ρ c),
      (h c _ (Cert.KernelIdeal.Hand.mem_uc Cert.KernelIdeal.main_arg1 (by decide))).trans (Cert.KernelIdeal.Hand.W21_main_arg1 m ρ c),
      (h c _ (Cert.KernelIdeal.Hand.mem_uc Cert.KernelIdeal.main_arg2 (by decide))).trans (Cert.KernelIdeal.Hand.W21_main_arg2 m ρ c),
      (h c _ (Cert.KernelIdeal.Hand.mem_uc Cert.KernelIdeal.main_arg3 (by decide))).trans (Cert.KernelIdeal.Hand.W21_main_arg3 m ρ c),
      (h c _ (Cert.KernelIdeal.Hand.mem_uc Cert.KernelIdeal.main_arg4 (by decide))).trans (Cert.KernelIdeal.Hand.W21_main_arg4 m ρ c),
      (h c _ (Cert.KernelIdeal.Hand.mem_uc Cert.KernelIdeal.main_arg5 (by decide))).trans (Cert.KernelIdeal.Hand.W21_main_arg5 m ρ c),
      (h c _ (Cert.KernelIdeal.Hand.mem_uc Cert.KernelIdeal.main_arg6 (by decide))).trans (Cert.KernelIdeal.Hand.W21_main_arg6 m ρ c),
      (h c _ (Cert.KernelIdeal.Hand.mem_uc Cert.KernelIdeal.main_arg7 (by decide))).trans (Cert.KernelIdeal.Hand.W21_main_arg7 m ρ c),
      (h c _ (Cert.KernelIdeal.Hand.mem_uc Cert.KernelIdeal.main_arg8 (by decide))).trans (Cert.KernelIdeal.Hand.W21_main_arg8 m ρ c),
      (h c _ (Cert.KernelIdeal.Hand.mem_uc Cert.KernelIdeal.main_arg9 (by decide))).trans (Cert.KernelIdeal.Hand.W21_main_arg9 m ρ c),
      (h c _ (Cert.KernelIdeal.Hand.mem_uc Cert.KernelIdeal.main_arg10 (by decide))).trans (Cert.KernelIdeal.Hand.W21_main_arg10 m ρ c)⟩
  · refine (θ_run (Cert.ReferenceIdeal.defs (F := Ideal)) _ _).mono (fun r h c => ⟨(h c).1.trans ?_, (h c).2⟩)
      (Cert.ReferenceIdeal.RefRun.run (F := Ideal) m' ρ')
    funext i
    obtain ⟨p, t, rfl⟩ : ∃ (p t : Fin 5000), i = ix2 p t := ⟨i 0, i 1, eq_ix2 i⟩
    refine (Cert.Proof.RefSide.ref_model_of_pre m m' hpre c (hagree c).1 (hagree c).2.2.1 (hagree c).2.2.2.1 p t).trans ?_
    refine Eq.trans ?_ (Cert.KernelIdeal.HandResult.result m ρ c p t).symm
    obtain ⟨e0, e1, e2, e3, e4, e5, e6, e7, e8, e9, e10⟩ := hagree c
    have h0 : Cert.ReferenceIdeal.RefValue.argX (fun b => m' (c, b)) = Cert.KernelIdeal.HandChain.aX (Cert.KernelIdeal.Hand.W0 m ρ c) :=
      funext fun v => funext fun r => funext fun k => congrFun e0 (ix3 v r k)
    have h1 : Cert.ReferenceIdeal.RefValue.argNet (fun b => m' (c, b)) = Cert.KernelIdeal.HandChain.aNet (Cert.KernelIdeal.Hand.W0 m ρ c) :=
      funext fun v => funext fun r => funext fun k => congrFun e1 (ix3 v r k)
    have h2 : Cert.ReferenceIdeal.RefValue.argG (fun b => m' (c, b)) = Cert.KernelIdeal.HandChain.aGam (Cert.KernelIdeal.Hand.W0 m ρ c) :=
      funext fun v => funext fun k => congrFun e2 (ix2 v k)
    have h3 : Cert.ReferenceIdeal.RefValue.argB (fun b => m' (c, b)) = Cert.KernelIdeal.HandChain.aBet (Cert.KernelIdeal.Hand.W0 m ρ c) :=
      funext fun v => funext fun k => congrFun e3 (ix2 v k)
    have h4 : Cert.ReferenceIdeal.RefValue.argWin (fun b => m' (c, b)) = Cert.KernelIdeal.HandChain.aWin (Cert.KernelIdeal.Hand.W0 m ρ c) :=
      funext fun v => funext fun k => funext fun j => congrFun e4 (ix3 v k j)
    have h5 : Cert.ReferenceIdeal.RefValue.argBin (fun b => m' (c, b)) = Cert.KernelIdeal.HandChain.aBin (Cert.KernelIdeal.Hand.W0 m ρ c) :=
      funext fun v => funext fun j => congrFun e5 (ix2 v j)
    have h6 : Cert.ReferenceIdeal.RefValue.argWg (fun b => m' (c, b)) = Cert.KernelIdeal.HandChain.aWg (Cert.KernelIdeal.Hand.W0 m ρ c) :=
      funext fun v => funext fun l => funext fun q => funext fun j => congrFun e6 (ix4 v l q j)
    have h7 : Cert.ReferenceIdeal.RefValue.argWc (fun b => m' (c, b)) = Cert.KernelIdeal.HandChain.aWc (Cert.KernelIdeal.Hand.W0 m ρ c) :=
      funext fun q => funext fun j => congrFun e7 (ix2 q j)
    have h8 : Cert.ReferenceIdeal.RefValue.argBc (fun b => m' (c, b)) = Cert.KernelIdeal.HandChain.aBc (Cert.KernelIdeal.Hand.W0 m ρ c) :=
      funext fun j => congrFun e8 (ix1 j)
    have h9 : Cert.ReferenceIdeal.RefValue.argWo (fun b => m' (c, b)) = Cert.KernelIdeal.HandChain.aWo (Cert.KernelIdeal.Hand.W0 m ρ c) :=
      funext fun j => funext fun t => congrFun e9 (ix2 j t)
    have h10 : Cert.ReferenceIdeal.RefValue.argBo (fun b => m' (c, b)) = Cert.KernelIdeal.HandChain.aBo (Cert.KernelIdeal.Hand.W0 m ρ c) :=
      funext fun t => congrFun e10 (ix1 t)
    rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, Cert.Proof.RefSide.frame_ri, trivial, algebraic⟩

end Cert.Proof

end
